-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v169)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v169) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v236) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x78 : Shape := ⟨2, ![32768, 78]⟩
abbrev S2x131072 : Shape := ⟨2, ![2, 131072]⟩
abbrev S32768x54 : Shape := ⟨2, ![32768, 54]⟩
abbrev S2x196608 : Shape := ⟨2, ![2, 196608]⟩
abbrev S78x512 : Shape := ⟨2, ![78, 512]⟩
abbrev S512 : Shape := ⟨1, ![512]⟩
abbrev S3x512x512 : Shape := ⟨3, ![3, 512, 512]⟩
abbrev S512x128 : Shape := ⟨2, ![512, 128]⟩
abbrev S128 : Shape := ⟨1, ![128]⟩
abbrev S54x512 : Shape := ⟨2, ![54, 512]⟩
abbrev S256x1024 : Shape := ⟨2, ![256, 1024]⟩
abbrev S1024 : Shape := ⟨1, ![1024]⟩
abbrev S1024x512 : Shape := ⟨2, ![1024, 512]⟩
abbrev S512x1 : Shape := ⟨2, ![512, 1]⟩
abbrev S1 : Shape := ⟨1, ![1]⟩
abbrev S_ : Shape := ⟨0, ![]⟩

class Facts : Prop where
  bcast_S_S32768x78 : S_.BroadcastsInDim S32768x78 (![] : Fin 0 → Fin S32768x78.rank)
  reducesTo_S32768x78_S_d0_1 : S32768x78.ReducesTo [0, 1] S_
  h_S_ : 0 < S_.numel
  bcast_S_S32768x54 : S_.BroadcastsInDim S32768x54 (![] : Fin 0 → Fin S32768x54.rank)
  reducesTo_S32768x54_S_d0_1 : S32768x54.ReducesTo [0, 1] S_
  bcast_S_S78x512 : S_.BroadcastsInDim S78x512 (![] : Fin 0 → Fin S78x512.rank)
  reducesTo_S78x512_S_d0_1 : S78x512.ReducesTo [0, 1] S_
  bcast_S_S512 : S_.BroadcastsInDim S512 (![] : Fin 0 → Fin S512.rank)
  reducesTo_S512_S_d0 : S512.ReducesTo [0] S_
  bcast_S_S3x512x512 : S_.BroadcastsInDim S3x512x512 (![] : Fin 0 → Fin S3x512x512.rank)
  reducesTo_S3x512x512_S_d0_1_2 : S3x512x512.ReducesTo [0, 1, 2] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S54x512 : S_.BroadcastsInDim S54x512 (![] : Fin 0 → Fin S54x512.rank)
  reducesTo_S54x512_S_d0_1 : S54x512.ReducesTo [0, 1] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg16 : FVec F S1024x512 .f32) (main_arg17 : FVec F S512 .f32) (main_arg18 : FVec F S512x1 .f32) (main_arg19 : FVec F S1 .f32) (main_v63 : IVec S_ 1) (main_v67 : IVec S_ 1) : IVec S_ 1 :=
  let main_v68 : IVec S_ 1 := andi main_v63 main_v67
  let main_v69 : FVec F S1024x512 .f32 := Host.absf main_arg16
  let main_cst_26 : FVec F S_ .f32 := constant S_ .f32 0x7F800000#32
  let main_v70 : FVec F S1024x512 .f32 := broadcastInDim S1024x512 ![] bcast_S_S1024x512 main_cst_26
  let main_v71 : IVec S1024x512 1 := cmpf .olt main_v69 main_v70
  let main_c_27 : IVec S_ 1 := constantI S_ 1 1#1
  let main_v72 : IVec S_ 1 := (fun x v => Host.reduce IntOp.andi x v reducesTo_S1024x512_S_d0_1 h_S_) main_v71 main_c_27
  let main_v73 : IVec S_ 1 := andi main_v68 main_v72
  let main_v74 : FVec F S512 .f32 := Host.absf main_arg17
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512x1 .f32 := Host.absf main_arg18
  let main_cst_30 : FVec F S_ .f32 := constant S_ .f32 0x7F800000#32
  let main_v80 : FVec F S512x1 .f32 := broadcastInDim S512x1 ![] bcast_S_S512x1 main_cst_30
  let main_v81 : IVec S512x1 1 := cmpf .olt main_v79 main_v80
  let main_c_31 : IVec S_ 1 := constantI S_ 1 1#1
  let main_v82 : IVec S_ 1 := (fun x v => Host.reduce IntOp.andi x v reducesTo_S512x1_S_d0_1 h_S_) main_v81 main_c_31
  let main_v83 : IVec S_ 1 := andi main_v78 main_v82
  let main_v84 : FVec F S1 .f32 := Host.absf main_arg19
  let main_cst_32 : FVec F S_ .f32 := constant S_ .f32 0x7F800000#32
  fn_part5 (F := F) main_v83 main_v84 main_cst_32

def fn_part3 {F : FTy → Type} [FloatOps F] (main_arg13 : FVec F S128 .f32) (main_arg14 : FVec F S256x1024 .f32) (main_arg15 : FVec F S1024 .f32) (main_arg16 : FVec F S1024x512 .f32) (main_arg17 : FVec F S512 .f32) (main_arg18 : FVec F S512x1 .f32) (main_arg19 : FVec F S1 .f32) (main_v48 : IVec S_ 1) (main_v49 : FVec F S512x128 .f32) (main_v50 : FVec F S512x128 .f32) : IVec S_ 1 :=
  let main_v51 : IVec S512x128 1 := cmpf .olt main_v49 main_v50
  let main_c_19 : IVec S_ 1 := constantI S_ 1 1#1
  let main_v52 : IVec S_ 1 := (fun x v => Host.reduce IntOp.andi x v reducesTo_S512x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S256x1024 .f32 := Host.absf main_arg14
  let main_cst_22 : FVec F S_ .f32 := constant S_ .f32 0x7F800000#32
  let main_v60 : FVec F S256x1024 .f32 := broadcastInDim S256x1024 ![] bcast_S_S256x1024 main_cst_22
  let main_v61 : IVec S256x1024 1 := cmpf .olt main_v59 main_v60
  let main_c_23 : IVec S_ 1 := constantI S_ 1 1#1
  let main_v62 : IVec S_ 1 := (fun x v => Host.reduce IntOp.andi x v reducesTo_S256x1024_S_d0_1 h_S_) main_v61 main_c_23
  let main_v63 : IVec S_ 1 := andi main_v58 main_v62
  let main_v64 : FVec F S1024 .f32 := Host.absf main_arg15
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg16 main_arg17 main_arg18 main_arg19 main_v63 main_v67

def fn_part2 {F : FTy → Type} [FloatOps F] (main_arg9 : FVec F S54x512 .f32) (main_arg10 : FVec F S512 .f32) (main_arg11 : FVec F S3x512x512 .f32) (main_arg12 : FVec F S512x128 .f32) (main_arg13 : FVec F S128 .f32) (main_arg14 : FVec F S256x1024 .f32) (main_arg15 : FVec F S1024 .f32) (main_arg16 : FVec F S1024x512 .f32) (main_arg17 : FVec F S512 .f32) (main_arg18 : FVec F S512x1 .f32) (main_arg19 : FVec F S1 .f32) (main_v33 : IVec S_ 1) : IVec S_ 1 :=
  let main_v34 : FVec F S54x512 .f32 := Host.absf main_arg9
  let main_cst_12 : FVec F S_ .f32 := constant S_ .f32 0x7F800000#32
  let main_v35 : FVec F S54x512 .f32 := broadcastInDim S54x512 ![] bcast_S_S54x512 main_cst_12
  let main_v36 : IVec S54x512 1 := cmpf .olt main_v34 main_v35
  let main_c_13 : IVec S_ 1 := constantI S_ 1 1#1
  let main_v37 : IVec S_ 1 := (fun x v => Host.reduce IntOp.andi x v reducesTo_S54x512_S_d0_1 h_S_) main_v36 main_c_13
  let main_v38 : IVec S_ 1 := andi main_v33 main_v37
  let main_v39 : FVec F S512 .f32 := Host.absf main_arg10
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S3x512x512 .f32 := Host.absf main_arg11
  let main_cst_16 : FVec F S_ .f32 := constant S_ .f32 0x7F800000#32
  let main_v45 : FVec F S3x512x512 .f32 := broadcastInDim S3x512x512 ![] bcast_S_S3x512x512 main_cst_16
  let main_v46 : IVec S3x512x512 1 := cmpf .olt main_v44 main_v45
  let main_c_17 : IVec S_ 1 := constantI S_ 1 1#1
  let main_v47 : IVec S_ 1 := (fun x v => Host.reduce IntOp.andi x v reducesTo_S3x512x512_S_d0_1_2 h_S_) main_v46 main_c_17
  let main_v48 : IVec S_ 1 := andi main_v43 main_v47
  let main_v49 : FVec F S512x128 .f32 := Host.absf main_arg12
  let main_cst_18 : FVec F S_ .f32 := constant S_ .f32 0x7F800000#32
  let main_v50 : FVec F S512x128 .f32 := broadcastInDim S512x128 ![] bcast_S_S512x128 main_cst_18
  fn_part3 (F := F) main_arg13 main_arg14 main_arg15 main_arg16 main_arg17 main_arg18 main_arg19 main_v48 main_v49 main_v50

def fn_part1 {F : FTy → Type} [FloatOps F] (main_arg6 : FVec F S3x512x512 .f32) (main_arg7 : FVec F S512x128 .f32) (main_arg8 : FVec F S128 .f32) (main_arg9 : FVec F S54x512 .f32) (main_arg10 : FVec F S512 .f32) (main_arg11 : FVec F S3x512x512 .f32) (main_arg12 : FVec F S512x128 .f32) (main_arg13 : FVec F S128 .f32) (main_arg14 : FVec F S256x1024 .f32) (main_arg15 : FVec F S1024 .f32) (main_arg16 : FVec F S1024x512 .f32) (main_arg17 : FVec F S512 .f32) (main_arg18 : FVec F S512x1 .f32) (main_arg19 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S3x512x512 .f32 := Host.absf main_arg6
  let main_cst_6 : FVec F S_ .f32 := constant S_ .f32 0x7F800000#32
  let main_v20 : FVec F S3x512x512 .f32 := broadcastInDim S3x512x512 ![] bcast_S_S3x512x512 main_cst_6
  let main_v21 : IVec S3x512x512 1 := cmpf .olt main_v19 main_v20
  let main_c_7 : IVec S_ 1 := constantI S_ 1 1#1
  let main_v22 : IVec S_ 1 := (fun x v => Host.reduce IntOp.andi x v reducesTo_S3x512x512_S_d0_1_2 h_S_) main_v21 main_c_7
  let main_v23 : IVec S_ 1 := andi main_v18 main_v22
  let main_v24 : FVec F S512x128 .f32 := Host.absf main_arg7
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S32768x78 .f32) (main_arg1 : IVec S2x131072 32) (main_arg2 : FVec F S32768x54 .f32) (main_arg3 : IVec S2x196608 32) (main_arg4 : FVec F S78x512 .f32) (main_arg5 : FVec F S512 .f32) (main_arg6 : FVec F S3x512x512 .f32) (main_arg7 : FVec F S512x128 .f32) (main_arg8 : FVec F S128 .f32) (main_arg9 : FVec F S54x512 .f32) (main_arg10 : FVec F S512 .f32) (main_arg11 : FVec F S3x512x512 .f32) (main_arg12 : FVec F S512x128 .f32) (main_arg13 : FVec F S128 .f32) (main_arg14 : FVec F S256x1024 .f32) (main_arg15 : FVec F S1024 .f32) (main_arg16 : FVec F S1024x512 .f32) (main_arg17 : FVec F S512 .f32) (main_arg18 : FVec F S512x1 .f32) (main_arg19 : FVec F S1 .f32) : IVec S_ 1 :=
  let main_v0 : FVec F S32768x78 .f32 := Host.absf main_arg0
  let main_cst : FVec F S_ .f32 := constant S_ .f32 0x7F800000#32
  let main_v1 : FVec F S32768x78 .f32 := broadcastInDim S32768x78 ![] bcast_S_S32768x78 main_cst
  let main_v2 : IVec S32768x78 1 := cmpf .olt main_v0 main_v1
  let main_c : IVec S_ 1 := constantI S_ 1 1#1
  let main_v3 : IVec S_ 1 := (fun x v => Host.reduce IntOp.andi x v reducesTo_S32768x78_S_d0_1 h_S_) main_v2 main_c
  let main_v4 : FVec F S32768x54 .f32 := Host.absf main_arg2
  let main_cst_0 : FVec F S_ .f32 := constant S_ .f32 0x7F800000#32
  let main_v5 : FVec F S32768x54 .f32 := broadcastInDim S32768x54 ![] bcast_S_S32768x54 main_cst_0
  let main_v6 : IVec S32768x54 1 := cmpf .olt main_v4 main_v5
  let main_c_1 : IVec S_ 1 := constantI S_ 1 1#1
  let main_v7 : IVec S_ 1 := (fun x v => Host.reduce IntOp.andi x v reducesTo_S32768x54_S_d0_1 h_S_) main_v6 main_c_1
  let main_v8 : IVec S_ 1 := andi main_v3 main_v7
  let main_v9 : FVec F S78x512 .f32 := Host.absf main_arg4
  let main_cst_2 : FVec F S_ .f32 := constant S_ .f32 0x7F800000#32
  let main_v10 : FVec F S78x512 .f32 := broadcastInDim S78x512 ![] bcast_S_S78x512 main_cst_2
  let main_v11 : IVec S78x512 1 := cmpf .olt main_v9 main_v10
  let main_c_3 : IVec S_ 1 := constantI S_ 1 1#1
  let main_v12 : IVec S_ 1 := (fun x v => Host.reduce IntOp.andi x v reducesTo_S78x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S32768x78 : Shape := ⟨2, ![32768, 78]⟩
abbrev S2x131072 : Shape := ⟨2, ![2, 131072]⟩
abbrev S32768x54 : Shape := ⟨2, ![32768, 54]⟩
abbrev S2x196608 : Shape := ⟨2, ![2, 196608]⟩
abbrev S78x512 : Shape := ⟨2, ![78, 512]⟩
abbrev S512 : Shape := ⟨1, ![512]⟩
abbrev S3x512x512 : Shape := ⟨3, ![3, 512, 512]⟩
abbrev S512x128 : Shape := ⟨2, ![512, 128]⟩
abbrev S128 : Shape := ⟨1, ![128]⟩
abbrev S54x512 : Shape := ⟨2, ![54, 512]⟩
abbrev S256x1024 : Shape := ⟨2, ![256, 1024]⟩
abbrev S1024 : Shape := ⟨1, ![1024]⟩
abbrev S1024x512 : Shape := ⟨2, ![1024, 512]⟩
abbrev S512x1 : Shape := ⟨2, ![512, 1]⟩
abbrev S1 : Shape := ⟨1, ![1]⟩
abbrev S32768 : Shape := ⟨1, ![32768]⟩
abbrev S1x131072 : Shape := ⟨2, ![1, 131072]⟩
abbrev S131072 : Shape := ⟨1, ![131072]⟩
abbrev S163840 : Shape := ⟨1, ![163840]⟩
abbrev S_ : Shape := ⟨0, ![]⟩
abbrev S163840x1 : Shape := ⟨2, ![163840, 1]⟩
abbrev S1x512 : Shape := ⟨2, ![1, 512]⟩
abbrev S32768x512 : Shape := ⟨2, ![32768, 512]⟩
abbrev S1024x78 : Shape := ⟨2, ![1024, 78]⟩
abbrev S163840x512 : Shape := ⟨2, ![163840, 512]⟩
abbrev S1x512x512 : Shape := ⟨3, ![1, 512, 512]⟩
abbrev S512x512 : Shape := ⟨2, ![512, 512]⟩
abbrev S1x128 : Shape := ⟨2, ![1, 128]⟩
abbrev S32768x128 : Shape := ⟨2, ![32768, 128]⟩
abbrev S1024x128 : Shape := ⟨2, ![1024, 128]⟩
abbrev S1x196608 : Shape := ⟨2, ![1, 196608]⟩
abbrev S196608 : Shape := ⟨1, ![196608]⟩
abbrev S229376 : Shape := ⟨1, ![229376]⟩
abbrev S229376x1 : Shape := ⟨2, ![229376, 1]⟩
abbrev S1024x54 : Shape := ⟨2, ![1024, 54]⟩
abbrev S229376x512 : Shape := ⟨2, ![229376, 512]⟩
abbrev S128x1024 : Shape := ⟨2, ![128, 1024]⟩
abbrev S1x1024 : Shape := ⟨2, ![1, 1024]⟩
abbrev S1x1 : Shape := ⟨2, ![1, 1]⟩
abbrev S32768x1 : Shape := ⟨2, ![32768, 1]⟩
abbrev S1024x1 : Shape := ⟨2, ![1024, 1]⟩
abbrev S1024x1024 : Shape := ⟨2, ![1024, 1024]⟩

abbrev nBuf : Space → Nat
  | .hbm => 228
  | .vmem => 91
  | .smem => 0
  | _ => 0

abbrev hbmTy0_0 (i : Nat) : BufTy := match i % 128 with
  | 0 => ⟨S32768x78, .f32⟩
  | 1 => ⟨S2x131072, .i32⟩
  | 2 => ⟨S32768x54, .f32⟩
  | 3 => ⟨S2x196608, .i32⟩
  | 4 => ⟨S78x512, .f32⟩
  | 5 => ⟨S512, .f32⟩
  | 6 => ⟨S3x512x512, .f32⟩
  | 7 => ⟨S512x128, .f32⟩
  | 8 => ⟨S128, .f32⟩
  | 9 => ⟨S54x512, .f32⟩
  | 10 => ⟨S512, .f32⟩
  | 11 => ⟨S3x512x512, .f32⟩
  | 12 => ⟨S512x128, .f32⟩
  | 13 => ⟨S128, .f32⟩
  | 14 => ⟨S256x1024, .f32⟩
  | 15 => ⟨S1024, .f32⟩
  | 16 => ⟨S1024x512, .f32⟩
  | 17 => ⟨S512, .f32⟩
  | 18 => ⟨S512x1, .f32⟩
  | 19 => ⟨S1, .f32⟩
  | 20 => ⟨S32768, .i32⟩
  | 21 => ⟨S1x131072, .i32⟩
  | 22 => ⟨S131072, .i32⟩
  | 23 => ⟨S163840, .i32⟩
  | 24 => ⟨S1x131072, .i32⟩
  | 25 => ⟨S131072, .i32⟩
  | 26 => ⟨S163840, .i32⟩
  | 27 => ⟨S_, .f32⟩
  | 28 => ⟨S163840, .f32⟩
  | 29 => ⟨S_, .f32⟩
  | 30 => ⟨S32768, .f32⟩
  | 31 => ⟨S163840x1, .i32⟩
  | 32 => ⟨S32768, .f32⟩
  | 33 => ⟨S_, .f32⟩
  | 34 => ⟨S32768, .f32⟩
  | 35 => ⟨S32768, .i1⟩
  | 36 => ⟨S32768, .f32⟩
  | 37 => ⟨S_, .f32⟩
  | 38 => ⟨S_, .f32⟩
  | 39 => ⟨S32768, .f32⟩
  | 40 => ⟨S32768, .f32⟩
  | 41 => ⟨S_, .i32⟩
  | 42 => ⟨S163840, .i32⟩
  | 43 => ⟨S163840, .i1⟩
  | 44 => ⟨S_, .i32⟩
  | 45 => ⟨S163840, .i32⟩
  | 46 => ⟨S163840, .i32⟩
  | 47 => ⟨S163840, .i32⟩
  | 48 => ⟨S163840x1, .i32⟩
  | 49 => ⟨S163840, .f32⟩
  | 50 => ⟨S_, .i32⟩
  | 51 => ⟨S163840, .i32⟩
  | 52 => ⟨S163840, .i1⟩
  | 53 => ⟨S_, .i32⟩
  | 54 => ⟨S163840, .i32⟩
  | 55 => ⟨S163840, .i32⟩
  | 56 => ⟨S163840, .i32⟩
  | 57 => ⟨S163840x1, .i32⟩
  | 58 => ⟨S163840, .f32⟩
  | 59 => ⟨S163840, .f32⟩
  | 60 => ⟨S1x512, .f32⟩
  | 61 => ⟨S32768x512, .f32⟩
  | 62 => ⟨S163840x1, .f32⟩
  | 63 => ⟨S_, .i32⟩
  | 64 => ⟨S163840, .i32⟩
  | 65 => ⟨S163840, .i1⟩
  | 66 => ⟨S_, .i32⟩
  | 67 => ⟨S163840, .i32⟩
  | 68 => ⟨S163840, .i32⟩
  | 69 => ⟨S163840, .i32⟩
  | 70 => ⟨S163840x1, .i32⟩
  | 71 => ⟨S163840x512, .f32⟩
  | 72 => ⟨S163840x512, .f32⟩
  | 73 => ⟨S163840x512, .f32⟩
  | 74 => ⟨S_, .f32⟩
  | 75 => ⟨S32768x512, .f32⟩
  | 76 => ⟨S163840x1, .i32⟩
  | 77 => ⟨S32768x512, .f32⟩
  | 78 => ⟨S1x512x512, .f32⟩
  | 79 => ⟨S512x512, .f32⟩
  | 80 => ⟨S32768x512, .f32⟩
  | 81 => ⟨S163840x1, .f32⟩
  | 82 => ⟨S_, .i32⟩
  | 83 => ⟨S163840, .i32⟩
  | 84 => ⟨S163840, .i1⟩
  | 85 => ⟨S_, .i32⟩
  | 86 => ⟨S163840, .i32⟩
  | 87 => ⟨S163840, .i32⟩
  | 88 => ⟨S163840, .i32⟩
  | 89 => ⟨S163840x1, .i32⟩
  | 90 => ⟨S163840x512, .f32⟩
  | 91 => ⟨S163840x512, .f32⟩
  | 92 => ⟨S163840x512, .f32⟩
  | 93 => ⟨S_, .f32⟩
  | 94 => ⟨S32768x512, .f32⟩
  | 95 => ⟨S163840x1, .i32⟩
  | 96 => ⟨S32768x512, .f32⟩
  | 97 => ⟨S1x512x512, .f32⟩
  | 98 => ⟨S512x512, .f32⟩
  | 99 => ⟨S32768x512, .f32⟩
  | 100 => ⟨S163840x1, .f32⟩
  | 101 => ⟨S_, .i32⟩
  | 102 => ⟨S163840, .i32⟩
  | 103 => ⟨S163840, .i1⟩
  | 104 => ⟨S_, .i32⟩
  | 105 => ⟨S163840, .i32⟩
  | 106 => ⟨S163840, .i32⟩
  | 107 => ⟨S163840, .i32⟩
  | 108 => ⟨S163840x1, .i32⟩
  | 109 => ⟨S163840x512, .f32⟩
  | 110 => ⟨S163840x512, .f32⟩
  | 111 => ⟨S163840x512, .f32⟩
  | 112 => ⟨S_, .f32⟩
  | 113 => ⟨S32768x512, .f32⟩
  | 114 => ⟨S163840x1, .i32⟩
  | 115 => ⟨S32768x512, .f32⟩
  | 116 => ⟨S1x512x512, .f32⟩
  | 117 => ⟨S512x512, .f32⟩
  | 118 => ⟨S32768x512, .f32⟩
  | 119 => ⟨S1x128, .f32⟩
  | 120 => ⟨S32768x128, .f32⟩
  | 121 => ⟨S32768, .i32⟩
  | 122 => ⟨S1x196608, .i32⟩
  | 123 => ⟨S196608, .i32⟩
  | 124 => ⟨S229376, .i32⟩
  | 125 => ⟨S1x196608, .i32⟩
  | 126 => ⟨S196608, .i32⟩
  | 127 => ⟨S229376, .i32⟩
  | _ => ⟨S32768x78, .f32⟩

abbrev hbmTy0_1 (i : Nat) : BufTy := match i % 128 with
  | 0 => ⟨S_, .f32⟩
  | 1 => ⟨S229376, .f32⟩
  | 2 => ⟨S_, .f32⟩
  | 3 => ⟨S32768, .f32⟩
  | 4 => ⟨S229376x1, .i32⟩
  | 5 => ⟨S32768, .f32⟩
  | 6 => ⟨S_, .f32⟩
  | 7 => ⟨S32768, .f32⟩
  | 8 => ⟨S32768, .i1⟩
  | 9 => ⟨S32768, .f32⟩
  | 10 => ⟨S_, .f32⟩
  | 11 => ⟨S_, .f32⟩
  | 12 => ⟨S32768, .f32⟩
  | 13 => ⟨S32768, .f32⟩
  | 14 => ⟨S_, .i32⟩
  | 15 => ⟨S229376, .i32⟩
  | 16 => ⟨S229376, .i1⟩
  | 17 => ⟨S_, .i32⟩
  | 18 => ⟨S229376, .i32⟩
  | 19 => ⟨S229376, .i32⟩
  | 20 => ⟨S229376, .i32⟩
  | 21 => ⟨S229376x1, .i32⟩
  | 22 => ⟨S229376, .f32⟩
  | 23 => ⟨S_, .i32⟩
  | 24 => ⟨S229376, .i32⟩
  | 25 => ⟨S229376, .i1⟩
  | 26 => ⟨S_, .i32⟩
  | 27 => ⟨S229376, .i32⟩
  | 28 => ⟨S229376, .i32⟩
  | 29 => ⟨S229376, .i32⟩
  | 30 => ⟨S229376x1, .i32⟩
  | 31 => ⟨S229376, .f32⟩
  | 32 => ⟨S229376, .f32⟩
  | 33 => ⟨S1x512, .f32⟩
  | 34 => ⟨S32768x512, .f32⟩
  | 35 => ⟨S229376x1, .f32⟩
  | 36 => ⟨S_, .i32⟩
  | 37 => ⟨S229376, .i32⟩
  | 38 => ⟨S229376, .i1⟩
  | 39 => ⟨S_, .i32⟩
  | 40 => ⟨S229376, .i32⟩
  | 41 => ⟨S229376, .i32⟩
  | 42 => ⟨S229376, .i32⟩
  | 43 => ⟨S229376x1, .i32⟩
  | 44 => ⟨S229376x512, .f32⟩
  | 45 => ⟨S229376x512, .f32⟩
  | 46 => ⟨S229376x512, .f32⟩
  | 47 => ⟨S_, .f32⟩
  | 48 => ⟨S32768x512, .f32⟩
  | 49 => ⟨S229376x1, .i32⟩
  | 50 => ⟨S32768x512, .f32⟩
  | 51 => ⟨S1x512x512, .f32⟩
  | 52 => ⟨S512x512, .f32⟩
  | 53 => ⟨S32768x512, .f32⟩
  | 54 => ⟨S229376x1, .f32⟩
  | 55 => ⟨S_, .i32⟩
  | 56 => ⟨S229376, .i32⟩
  | 57 => ⟨S229376, .i1⟩
  | 58 => ⟨S_, .i32⟩
  | 59 => ⟨S229376, .i32⟩
  | 60 => ⟨S229376, .i32⟩
  | 61 => ⟨S229376, .i32⟩
  | 62 => ⟨S229376x1, .i32⟩
  | 63 => ⟨S229376x512, .f32⟩
  | 64 => ⟨S229376x512, .f32⟩
  | 65 => ⟨S229376x512, .f32⟩
  | 66 => ⟨S_, .f32⟩
  | 67 => ⟨S32768x512, .f32⟩
  | 68 => ⟨S229376x1, .i32⟩
  | 69 => ⟨S32768x512, .f32⟩
  | 70 => ⟨S1x512x512, .f32⟩
  | 71 => ⟨S512x512, .f32⟩
  | 72 => ⟨S32768x512, .f32⟩
  | 73 => ⟨S229376x1, .f32⟩
  | 74 => ⟨S_, .i32⟩
  | 75 => ⟨S229376, .i32⟩
  | 76 => ⟨S229376, .i1⟩
  | 77 => ⟨S_, .i32⟩
  | 78 => ⟨S229376, .i32⟩
  | 79 => ⟨S229376, .i32⟩
  | 80 => ⟨S229376, .i32⟩
  | 81 => ⟨S229376x1, .i32⟩
  | 82 => ⟨S229376x512, .f32⟩
  | 83 => ⟨S229376x512, .f32⟩
  | 84 => ⟨S229376x512, .f32⟩
  | 85 => ⟨S_, .f32⟩
  | 86 => ⟨S32768x512, .f32⟩
  | 87 => ⟨S229376x1, .i32⟩
  | 88 => ⟨S32768x512, .f32⟩
  | 89 => ⟨S1x512x512, .f32⟩
  | 90 => ⟨S512x512, .f32⟩
  | 91 => ⟨S32768x512, .f32⟩
  | 92 => ⟨S1x128, .f32⟩
  | 93 => ⟨S32768x128, .f32⟩
  | 94 => ⟨S128x1024, .f32⟩
  | 95 => ⟨S128x1024, .f32⟩
  | 96 => ⟨S1x1024, .f32⟩
  | 97 => ⟨S1x512, .f32⟩
  | 98 => ⟨S1x1, .f32⟩
  | 99 => ⟨S32768x1, .f32⟩
  | _ => ⟨S32768x78, .f32⟩

abbrev hbmTy (i : Nat) : BufTy := match i / 128 with
  | 0 => hbmTy0_0 i
  | 1 => hbmTy0_1 i
  | _ => ⟨S32768x78, .f32⟩

abbrev bufTy : (tb : Table) → Fin (tcTables nBuf tb) → BufTy
  | .hbm, ⟨i, _⟩ => hbmTy i
  | .local _ .vmem, ⟨0, _⟩ => ⟨S1024x78, .f32⟩
  | .local _ .vmem, ⟨1, _⟩ => ⟨S1024x78, .f32⟩
  | .local _ .vmem, ⟨2, _⟩ => ⟨S78x512, .f32⟩
  | .local _ .vmem, ⟨3, _⟩ => ⟨S1x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S512x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | .local _ .vmem, ⟨20, _⟩ => ⟨S1024x512, .f32⟩
  | .local _ .vmem, ⟨21, _⟩ => ⟨S512x512, .f32⟩
  | .local _ .vmem, ⟨22, _⟩ => ⟨S1024x512, .f32⟩
  | .local _ .vmem, ⟨23, _⟩ => ⟨S1024x512, .f32⟩
  | .local _ .vmem, ⟨24, _⟩ => ⟨S1024x512, .f32⟩
  | .local _ .vmem, ⟨25, _⟩ => ⟨S1024x512, .f32⟩
  | .local _ .vmem, ⟨26, _⟩ => ⟨S1024x512, .f32⟩
  | .local _ .vmem, ⟨27, _⟩ => ⟨S1024x512, .f32⟩
  | .local _ .vmem, ⟨28, _⟩ => ⟨S1024x512, .f32⟩
  | .local _ .vmem, ⟨29, _⟩ => ⟨S1024x512, .f32⟩
  | .local _ .vmem, ⟨30, _⟩ => ⟨S512x512, .f32⟩
  | .local _ .vmem, ⟨31, _⟩ => ⟨S1024x512, .f32⟩
  | .local _ .vmem, ⟨32, _⟩ => ⟨S1024x512, .f32⟩
  | .local _ .vmem, ⟨33, _⟩ => ⟨S1024x512, .f32⟩
  | .local _ .vmem, ⟨34, _⟩ => ⟨S1024x512, .f32⟩
  | .local _ .vmem, ⟨35, _⟩ => ⟨S512x128, .f32⟩
  | .local _ .vmem, ⟨36, _⟩ => ⟨S1x128, .f32⟩
  | .local _ .vmem, ⟨37, _⟩ => ⟨S1024x128, .f32⟩
  | .local _ .vmem, ⟨38, _⟩ => ⟨S1024x128, .f32⟩
  | .local _ .vmem, ⟨39, _⟩ => ⟨S1024x54, .f32⟩
  | .local _ .vmem, ⟨40, _⟩ => ⟨S1024x54, .f32⟩
  | .local _ .vmem, ⟨41, _⟩ => ⟨S54x512, .f32⟩
  | .local _ .vmem, ⟨42, _⟩ => ⟨S1x512, .f32⟩
  | .local _ .vmem, ⟨43, _⟩ => ⟨S1024x512, .f32⟩
  | .local _ .vmem, ⟨44, _⟩ => ⟨S1024x512, .f32⟩
  | .local _ .vmem, ⟨45, _⟩ => ⟨S1024x512, .f32⟩
  | .local _ .vmem, ⟨46, _⟩ => ⟨S1024x512, .f32⟩
  | .local _ .vmem, ⟨47, _⟩ => ⟨S1024x512, .f32⟩
  | .local _ .vmem, ⟨48, _⟩ => ⟨S1024x512, .f32⟩
  | .local _ .vmem, ⟨49, _⟩ => ⟨S1024x512, .f32⟩
  | .local _ .vmem, ⟨50, _⟩ => ⟨S1024x512, .f32⟩
  | .local _ .vmem, ⟨51, _⟩ => ⟨S512x512, .f32⟩
  | .local _ .vmem, ⟨52, _⟩ => ⟨S1024x512, .f32⟩
  | .local _ .vmem, ⟨53, _⟩ => ⟨S1024x512, .f32⟩
  | .local _ .vmem, ⟨54, _⟩ => ⟨S1024x512, .f32⟩
  | .local _ .vmem, ⟨55, _⟩ => ⟨S1024x512, .f32⟩
  | .local _ .vmem, ⟨56, _⟩ => ⟨S1024x512, .f32⟩
  | .local _ .vmem, ⟨57, _⟩ => ⟨S1024x512, .f32⟩
  | .local _ .vmem, ⟨58, _⟩ => ⟨S1024x512, .f32⟩
  | .local _ .vmem, ⟨59, _⟩ => ⟨S1024x512, .f32⟩
  | .local _ .vmem, ⟨60, _⟩ => ⟨S512x512, .f32⟩
  | .local _ .vmem, ⟨61, _⟩ => ⟨S1024x512, .f32⟩
  | .local _ .vmem, ⟨62, _⟩ => ⟨S1024x512, .f32⟩
  | .local _ .vmem, ⟨63, _⟩ => ⟨S1024x512, .f32⟩
  | .local _ .vmem, ⟨64, _⟩ => ⟨S1024x512, .f32⟩
  | .local _ .vmem, ⟨65, _⟩ => ⟨S1024x512, .f32⟩
  | .local _ .vmem, ⟨66, _⟩ => ⟨S1024x512, .f32⟩
  | .local _ .vmem, ⟨67, _⟩ => ⟨S1024x512, .f32⟩
  | .local _ .vmem, ⟨68, _⟩ => ⟨S1024x512, .f32⟩
  | .local _ .vmem, ⟨69, _⟩ => ⟨S512x512, .f32⟩
  | .local _ .vmem, ⟨70, _⟩ => ⟨S1024x512, .f32⟩
  | .local _ .vmem, ⟨71, _⟩ => ⟨S1024x512, .f32⟩
  | .local _ .vmem, ⟨72, _⟩ => ⟨S1024x512, .f32⟩
  | .local _ .vmem, ⟨73, _⟩ => ⟨S1024x512, .f32⟩
  | .local _ .vmem, ⟨74, _⟩ => ⟨S512x128, .f32⟩
  | .local _ .vmem, ⟨75, _⟩ => ⟨S1x128, .f32⟩
  | .local _ .vmem, ⟨76, _⟩ => ⟨S1024x128, .f32⟩
  | .local _ .vmem, ⟨77, _⟩ => ⟨S1024x128, .f32⟩
  | .local _ .vmem, ⟨78, _⟩ => ⟨S1024x128, .f32⟩
  | .local _ .vmem, ⟨79, _⟩ => ⟨S1024x128, .f32⟩
  | .local _ .vmem, ⟨80, _⟩ => ⟨S1024x128, .f32⟩
  | .local _ .vmem, ⟨81, _⟩ => ⟨S1024x128, .f32⟩
  | .local _ .vmem, ⟨82, _⟩ => ⟨S128x1024, .f32⟩
  | .local _ .vmem, ⟨83, _⟩ => ⟨S128x1024, .f32⟩
  | .local _ .vmem, ⟨84, _⟩ => ⟨S1x1024, .f32⟩
  | .local _ .vmem, ⟨85, _⟩ => ⟨S1024x512, .f32⟩
  | .local _ .vmem, ⟨86, _⟩ => ⟨S1x512, .f32⟩
  | .local _ .vmem, ⟨87, _⟩ => ⟨S512x1, .f32⟩
  | .local _ .vmem, ⟨88, _⟩ => ⟨S1x1, .f32⟩
  | .local _ .vmem, ⟨89, _⟩ => ⟨S1024x1, .f32⟩
  | .local _ .vmem, ⟨90, _⟩ => ⟨S1024x1, .f32⟩
  | _, _ => ⟨S32768x78, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | _, _ => false

abbrev semScoped : Fin 0 → Bool
  | ⟨_, h⟩ => absurd h (Nat.not_lt_zero _)

abbrev dmaSemScoped : Fin 91 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | _ => false

abbrev sig : RefSig :=
  ofTc nBuf bufTy 0 91 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_v14 : Ref sig .tc := ⟨.hbm, 40, rfl⟩
abbrev main_c : Ref sig .tc := ⟨.hbm, 41, rfl⟩
abbrev main_v15 : Ref sig .tc := ⟨.hbm, 42, rfl⟩
abbrev main_v16 : Ref sig .tc := ⟨.hbm, 43, rfl⟩
abbrev main_c_3 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c_4 : Ref sig .tc := ⟨.hbm, 50, rfl⟩
abbrev main_v22 : Ref sig .tc := ⟨.hbm, 51, rfl⟩
abbrev main_v23 : Ref sig .tc := ⟨.hbm, 52, rfl⟩
abbrev main_c_5 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_6 : Ref sig .tc := ⟨.hbm, 63, rfl⟩
abbrev main_v33 : Ref sig .tc := ⟨.hbm, 64, rfl⟩
abbrev main_v34 : Ref sig .tc := ⟨.hbm, 65, rfl⟩
abbrev main_c_7 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_8 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_c_9 : Ref sig .tc := ⟨.hbm, 82, rfl⟩
abbrev main_v49 : Ref sig .tc := ⟨.hbm, 83, rfl⟩
abbrev main_v50 : Ref sig .tc := ⟨.hbm, 84, rfl⟩
abbrev main_c_10 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_11 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_c_12 : Ref sig .tc := ⟨.hbm, 101, rfl⟩
abbrev main_v65 : Ref sig .tc := ⟨.hbm, 102, rfl⟩
abbrev main_v66 : Ref sig .tc := ⟨.hbm, 103, rfl⟩
abbrev main_c_13 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_14 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_15 : Ref sig .tc := ⟨.hbm, 128, rfl⟩
abbrev main_v89 : Ref sig .tc := ⟨.hbm, 129, rfl⟩
abbrev main_cst_16 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_17 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_18 : Ref sig .tc := ⟨.hbm, 138, rfl⟩
abbrev main_call1_v0 : Ref sig .tc := ⟨.hbm, 139, rfl⟩
abbrev main_call1_v1 : Ref sig .tc := ⟨.hbm, 140, rfl⟩
abbrev main_v96 : Ref sig .tc := ⟨.hbm, 141, rfl⟩
abbrev main_c_19 : Ref sig .tc := ⟨.hbm, 142, rfl⟩
abbrev main_v97 : Ref sig .tc := ⟨.hbm, 143, rfl⟩
abbrev main_v98 : Ref sig .tc := ⟨.hbm, 144, rfl⟩
abbrev main_c_20 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_c_21 : Ref sig .tc := ⟨.hbm, 151, rfl⟩
abbrev main_v104 : Ref sig .tc := ⟨.hbm, 152, rfl⟩
abbrev main_v105 : Ref sig .tc := ⟨.hbm, 153, rfl⟩
abbrev main_c_22 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_c_23 : Ref sig .tc := ⟨.hbm, 164, rfl⟩
abbrev main_v115 : Ref sig .tc := ⟨.hbm, 165, rfl⟩
abbrev main_v116 : Ref sig .tc := ⟨.hbm, 166, rfl⟩
abbrev main_c_24 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_cst_25 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_c_26 : Ref sig .tc := ⟨.hbm, 183, rfl⟩
abbrev main_v131 : Ref sig .tc := ⟨.hbm, 184, rfl⟩
abbrev main_v132 : Ref sig .tc := ⟨.hbm, 185, rfl⟩
abbrev main_c_27 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_cst_28 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_c_29 : Ref sig .tc := ⟨.hbm, 202, rfl⟩
abbrev main_v147 : Ref sig .tc := ⟨.hbm, 203, rfl⟩
abbrev main_v148 : Ref sig .tc := ⟨.hbm, 204, rfl⟩
abbrev main_c_30 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_cst_31 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg4_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg3_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg3_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg1_1 : Ref sig .tc := ⟨.vmem, 48, rfl⟩
abbrev cc6_stg2_0 : Ref sig .tc := ⟨.vmem, 49, rfl⟩
abbrev cc6_stg2_1 : Ref sig .tc := ⟨.vmem, 50, rfl⟩
abbrev cc6_stg3_0 : Ref sig .tc := ⟨.vmem, 51, rfl⟩
abbrev cc6_stg4_0 : Ref sig .tc := ⟨.vmem, 52, rfl⟩
abbrev cc6_stg4_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg1_1 : Ref sig .tc := ⟨.vmem, 57, rfl⟩
abbrev cc7_stg2_0 : Ref sig .tc := ⟨.vmem, 58, rfl⟩
abbrev cc7_stg2_1 : Ref sig .tc := ⟨.vmem, 59, rfl⟩
abbrev cc7_stg3_0 : Ref sig .tc := ⟨.vmem, 60, rfl⟩
abbrev cc7_stg4_0 : Ref sig .tc := ⟨.vmem, 61, rfl⟩
abbrev cc7_stg4_1 : Ref sig .tc := ⟨.vmem, 62, rfl⟩
abbrev cc8_stg0_0 : Ref sig .tc := ⟨.vmem, 63, rfl⟩
abbrev cc8_stg0_1 : Ref sig .tc := ⟨.vmem, 64, rfl⟩
abbrev cc8_stg1_0 : Ref sig .tc := ⟨.vmem, 65, rfl⟩
abbrev cc8_stg1_1 : Ref sig .tc := ⟨.vmem, 66, rfl⟩
abbrev cc8_stg2_0 : Ref sig .tc := ⟨.vmem, 67, rfl⟩
abbrev cc8_stg2_1 : Ref sig .tc := ⟨.vmem, 68, rfl⟩
abbrev cc8_stg3_0 : Ref sig .tc := ⟨.vmem, 69, rfl⟩
abbrev cc8_stg4_0 : Ref sig .tc := ⟨.vmem, 70, rfl⟩
abbrev cc8_stg4_1 : Ref sig .tc := ⟨.vmem, 71, rfl⟩
abbrev cc9_stg0_0 : Ref sig .tc := ⟨.vmem, 72, rfl⟩
abbrev cc9_stg0_1 : Ref sig .tc := ⟨.vmem, 73, rfl⟩
abbrev cc9_stg1_0 : Ref sig .tc := ⟨.vmem, 74, rfl⟩
abbrev cc9_stg2_0 : Ref sig .tc := ⟨.vmem, 75, rfl⟩
abbrev cc9_stg3_0 : Ref sig .tc := ⟨.vmem, 76, rfl⟩
abbrev cc9_stg3_1 : Ref sig .tc := ⟨.vmem, 77, rfl⟩
abbrev cc10_stg0_0 : Ref sig .tc := ⟨.vmem, 78, rfl⟩
abbrev cc10_stg0_1 : Ref sig .tc := ⟨.vmem, 79, rfl⟩
abbrev cc10_stg1_0 : Ref sig .tc := ⟨.vmem, 80, rfl⟩
abbrev cc10_stg1_1 : Ref sig .tc := ⟨.vmem, 81, rfl⟩
abbrev cc10_stg2_0 : Ref sig .tc := ⟨.vmem, 82, rfl⟩
abbrev cc10_stg3_0 : Ref sig .tc := ⟨.vmem, 83, rfl⟩
abbrev cc10_stg4_0 : Ref sig .tc := ⟨.vmem, 84, rfl⟩
abbrev cc10_stg5_0 : Ref sig .tc := ⟨.vmem, 85, rfl⟩
abbrev cc10_stg6_0 : Ref sig .tc := ⟨.vmem, 86, rfl⟩
abbrev cc10_stg7_0 : Ref sig .tc := ⟨.vmem, 87, rfl⟩
abbrev cc10_stg8_0 : Ref sig .tc := ⟨.vmem, 88, rfl⟩
abbrev cc10_stg9_0 : Ref sig .tc := ⟨.vmem, 89, rfl⟩
abbrev cc10_stg9_1 : Ref sig .tc := ⟨.vmem, 90, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem4_0 : DmaSem sig := 31
abbrev cc3_sem4_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem3_0 : DmaSem sig := 37
abbrev cc4_sem3_1 : DmaSem sig := 38
abbrev cc5_sem0_0 : DmaSem sig := 39
abbrev cc5_sem0_1 : DmaSem sig := 40
abbrev cc5_sem1_0 : DmaSem sig := 41
abbrev cc5_sem2_0 : DmaSem sig := 42
abbrev cc5_sem3_0 : DmaSem sig := 43
abbrev cc5_sem3_1 : DmaSem sig := 44
abbrev cc6_sem0_0 : DmaSem sig := 45
abbrev cc6_sem0_1 : DmaSem sig := 46
abbrev cc6_sem1_0 : DmaSem sig := 47
abbrev cc6_sem1_1 : DmaSem sig := 48
abbrev cc6_sem2_0 : DmaSem sig := 49
abbrev cc6_sem2_1 : DmaSem sig := 50
abbrev cc6_sem3_0 : DmaSem sig := 51
abbrev cc6_sem4_0 : DmaSem sig := 52
abbrev cc6_sem4_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem2_1 : DmaSem sig := 59
abbrev cc7_sem3_0 : DmaSem sig := 60
abbrev cc7_sem4_0 : DmaSem sig := 61
abbrev cc7_sem4_1 : DmaSem sig := 62
abbrev cc8_sem0_0 : DmaSem sig := 63
abbrev cc8_sem0_1 : DmaSem sig := 64
abbrev cc8_sem1_0 : DmaSem sig := 65
abbrev cc8_sem1_1 : DmaSem sig := 66
abbrev cc8_sem2_0 : DmaSem sig := 67
abbrev cc8_sem2_1 : DmaSem sig := 68
abbrev cc8_sem3_0 : DmaSem sig := 69
abbrev cc8_sem4_0 : DmaSem sig := 70
abbrev cc8_sem4_1 : DmaSem sig := 71
abbrev cc9_sem0_0 : DmaSem sig := 72
abbrev cc9_sem0_1 : DmaSem sig := 73
abbrev cc9_sem1_0 : DmaSem sig := 74
abbrev cc9_sem2_0 : DmaSem sig := 75
abbrev cc9_sem3_0 : DmaSem sig := 76
abbrev cc9_sem3_1 : DmaSem sig := 77
abbrev cc10_sem0_0 : DmaSem sig := 78
abbrev cc10_sem0_1 : DmaSem sig := 79
abbrev cc10_sem1_0 : DmaSem sig := 80
abbrev cc10_sem1_1 : DmaSem sig := 81
abbrev cc10_sem2_0 : DmaSem sig := 82
abbrev cc10_sem3_0 : DmaSem sig := 83
abbrev cc10_sem4_0 : DmaSem sig := 84
abbrev cc10_sem5_0 : DmaSem sig := 85
abbrev cc10_sem6_0 : DmaSem sig := 86
abbrev cc10_sem7_0 : DmaSem sig := 87
abbrev cc10_sem8_0 : DmaSem sig := 88
abbrev cc10_sem9_0 : DmaSem sig := 89
abbrev cc10_sem9_1 : DmaSem sig := 90

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x78 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S78x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S512x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1024x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S512x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1024x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x54 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S54x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1024x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1024x512 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1024x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S512x512 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S1024x512 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![32], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1024x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1024x512 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S1024x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S512x512 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S1024x512 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![32], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1024x512 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1024x512 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S1024x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S512x512 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S1024x512 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![32], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S1024x512 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S512x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S1024x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![32], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_8 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_9 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S1024x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S1024x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S128x1024 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128x1024 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x1024 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1024x512 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x512 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 1 → Memref sig .tc .vmem S512x1 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev stage10_8 : Fin 1 → Memref sig .tc .vmem S1x1 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))
abbrev reads10_8 : Fin grid10.rank → Bool := ![false]

abbrev stage10_9 : Fin 2 → Memref sig .tc .vmem S1024x1 .f32 := fun | 0 => Memref.whole cc10_stg9_0 | 1 => Memref.whole cc10_stg9_1 | ⟨_ + 2, h⟩ => absurd h (Nat.not_lt.2 (Nat.le_add_left _ _))
abbrev sem10_9 : Fin 2 → DmaSem sig := fun | 0 => cc10_sem9_0 | 1 => cc10_sem9_1 | ⟨_ + 2, h⟩ => absurd h (Nat.not_lt.2 (Nat.le_add_left _ _))
abbrev reads10_9 : Fin grid10.rank → Bool := ![true]

class Facts₀ : Prop where
  slices_S2x131072_S1x131072_0_0 : S2x131072.Slices ![0, 0] S1x131072
  shapeCasts_S1x131072_S131072 : S1x131072.ShapeCasts S131072
  concatenates_S131072_S32768_S163840_d0 : Shape.Concatenates [S131072, S32768] S163840 0
  slices_S2x131072_S1x131072_1_0 : S2x131072.Slices ![1, 0] S1x131072
  bcast_S_S163840 : S_.BroadcastsInDim S163840 (![] : Fin 0 → Fin S163840.rank)
  bcast_S_S32768 : S_.BroadcastsInDim S32768 (![] : Fin 0 → Fin S32768.rank)
  bcast_S163840_S163840x1_0 : S163840.BroadcastsInDim S163840x1 (![0] : Fin 1 → Fin S163840x1.rank)
  shapeCasts_S512_S1x512 : S512.ShapeCasts S1x512
  inb_S1024x78_S1024x78_0_0 : ∀ a, (![0, 0] : Fin 2 → Nat) a + S1024x78.size a ≤ S1024x78.size a
  h_S1024x78 : 0 < S1024x78.numel
  bitsLt_bf16_f32 : FTy.bits .bf16 < FTy.bits .f32
  inb_S78x512_S78x512_0_0 : ∀ a, (![0, 0] : Fin 2 → Nat) a + S78x512.size a ≤ S78x512.size a
  h_S78x512 : 0 < S78x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  bcast_S163840x1_S163840x512_0_1 : S163840x1.BroadcastsInDim S163840x512 (![0, 1] : Fin 2 → Fin S163840x512.rank)
  bcast_S_S32768x512 : S_.BroadcastsInDim S32768x512 (![] : Fin 0 → Fin S32768x512.rank)
  slices_S3x512x512_S1x512x512_0_0_0 : S3x512x512.Slices ![0, 0, 0] S1x512x512
  shapeCasts_S1x512x512_S512x512 : S1x512x512.ShapeCasts S512x512
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  slices_S3x512x512_S1x512x512_1_0_0 : S3x512x512.Slices ![1, 0, 0] S1x512x512
  slices_S3x512x512_S1x512x512_2_0_0 : S3x512x512.Slices ![2, 0, 0] S1x512x512
  shapeCasts_S128_S1x128 : S128.ShapeCasts S1x128
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  slices_S2x196608_S1x196608_0_0 : S2x196608.Slices ![0, 0] S1x196608
  shapeCasts_S1x196608_S196608 : S1x196608.ShapeCasts S196608
  concatenates_S196608_S32768_S229376_d0 : Shape.Concatenates [S196608, S32768] S229376 0
  slices_S2x196608_S1x196608_1_0 : S2x196608.Slices ![1, 0] S1x196608
  bcast_S_S229376 : S_.BroadcastsInDim S229376 (![] : Fin 0 → Fin S229376.rank)
  bcast_S229376_S229376x1_0 : S229376.BroadcastsInDim S229376x1 (![0] : Fin 1 → Fin S229376x1.rank)
  inb_S1024x54_S1024x54_0_0 : ∀ a, (![0, 0] : Fin 2 → Nat) a + S1024x54.size a ≤ S1024x54.size a
  h_S1024x54 : 0 < S1024x54.numel
  inb_S54x512_S54x512_0_0 : ∀ a, (![0, 0] : Fin 2 → Nat) a + S54x512.size a ≤ S54x512.size a
  h_S54x512 : 0 < S54x512.numel
  bcast_S229376x1_S229376x512_0_1 : S229376x1.BroadcastsInDim S229376x512 (![0, 1] : Fin 2 → Fin S229376x512.rank)
  slices_S256x1024_S128x1024_0_0 : S256x1024.Slices ![0, 0] S128x1024
  slices_S256x1024_S128x1024_128_0 : S256x1024.Slices ![128, 0] S128x1024
  shapeCasts_S1024_S1x1024 : S1024.ShapeCasts S1x1024
  shapeCasts_S1_S1x1 : S1.ShapeCasts S1x1
  shapeCasts_S1024x128_S1024x128 : S1024x128.ShapeCasts S1024x128
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S512x1_S512x1_0_0 : ∀ a, (![0, 0] : Fin 2 → Nat) a + S512x1.size a ≤ S512x1.size a
  h_S512x1 : 0 < S512x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  scatter_S32768_S163840x1_S163840_n_0_0_1_wf : ScatterDims.WF S32768 S163840x1 S163840 [] [0] [0] 1
  gather_S32768_S163840x1_S163840_n_0_n_n_0_1_1_wf : GatherDims.WF S32768 S163840x1 S163840 [] [0] [] [0] [] 1 ![1]
  dot_S1024x78_S78x512_S1024x512_1_0_0_1_n_n_wf : DotDims.WF S1024x78 S78x512 S1024x512 [1] [0] [0] [1] [] []
  gather_S32768x512_S163840x1_S163840x512_1_0_n_n_0_1_1512_wf : GatherDims.WF S32768x512 S163840x1 S163840x512 [1] [0] [] [0] [] 1 ![1, 512]
  scatter_S32768x512_S163840x1_S163840x512_1_0_0_1_wf : ScatterDims.WF S32768x512 S163840x1 S163840x512 [1] [0] [0] 1
  dot_S1024x512_S512x512_S1024x512_1_0_0_1_n_n_wf : DotDims.WF S1024x512 S512x512 S1024x512 [1] [0] [0] [1] [] []
  dot_S1024x512_S512x128_S1024x128_1_0_0_1_n_n_wf : DotDims.WF S1024x512 S512x128 S1024x128 [1] [0] [0] [1] [] []
  scatter_S32768_S229376x1_S229376_n_0_0_1_wf : ScatterDims.WF S32768 S229376x1 S229376 [] [0] [0] 1
  gather_S32768_S229376x1_S229376_n_0_n_n_0_1_1_wf : GatherDims.WF S32768 S229376x1 S229376 [] [0] [] [0] [] 1 ![1]
  dot_S1024x54_S54x512_S1024x512_1_0_0_1_n_n_wf : DotDims.WF S1024x54 S54x512 S1024x512 [1] [0] [0] [1] [] []
  gather_S32768x512_S229376x1_S229376x512_1_0_n_n_0_1_1512_wf : GatherDims.WF S32768x512 S229376x1 S229376x512 [1] [0] [] [0] [] 1 ![1, 512]
  scatter_S32768x512_S229376x1_S229376x512_1_0_0_1_wf : ScatterDims.WF S32768x512 S229376x1 S229376x512 [1] [0] [0] 1
  dot_S1024x128_S128x1024_S1024x1024_1_0_0_1_n_n_wf : DotDims.WF S1024x128 S128x1024 S1024x1024 [1] [0] [0] [1] [] []
  dot_S1024x1024_S1024x512_S1024x512_1_0_0_1_n_n_wf : DotDims.WF S1024x1024 S1024x512 S1024x512 [1] [0] [0] [1] [] []
  dot_S1024x512_S512x1_S1024x1_1_0_0_1_n_n_wf : DotDims.WF S1024x512 S512x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x78.size a ≤ S32768x78.size a
  hwx0_0 : ∀ i : grid0.Coords, EltTy.bits .f32 = 32 ∨ (Rect.block (s := S32768x78) S1024x78.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S78x512.size a ≤ S78x512.size a
  hwx0_1 : ∀ i : grid0.Coords, EltTy.bits .f32 = 32 ∨ (Rect.block (s := S78x512) S78x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S32768x512.size a
  hwx0_3 : ∀ i : grid0.Coords, EltTy.bits .f32 = 32 ∨ (Rect.block (s := S32768x512) S1024x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S32768x512.size a
  hwx1_0 : ∀ i : grid1.Coords, EltTy.bits .f32 = 32 ∨ (Rect.block (s := S32768x512) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S32768x512.size a
  hwx1_1 : ∀ i : grid1.Coords, EltTy.bits .f32 = 32 ∨ (Rect.block (s := S32768x512) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S32768x512.size a
  hwx1_2 : ∀ i : grid1.Coords, EltTy.bits .f32 = 32 ∨ (Rect.block (s := S32768x512) S1024x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x512.size a ≤ S32768x512.size a
  hwx1_4 : ∀ i : grid1.Coords, EltTy.bits .f32 = 32 ∨ (Rect.block (s := S32768x512) S1024x512.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S32768x512.size a
  hwx2_0 : ∀ i : grid2.Coords, EltTy.bits .f32 = 32 ∨ (Rect.block (s := S32768x512) S1024x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S32768x512.size a
  hwx2_1 : ∀ i : grid2.Coords, EltTy.bits .f32 = 32 ∨ (Rect.block (s := S32768x512) S1024x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x512.size a ≤ S32768x512.size a
  hwx2_2 : ∀ i : grid2.Coords, EltTy.bits .f32 = 32 ∨ (Rect.block (s := S32768x512) S1024x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .f32 = 32 ∨ (Rect.block (s := S512x512) S512x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x512.size a ≤ S32768x512.size a
  hwx2_4 : ∀ i : grid2.Coords, EltTy.bits .f32 = 32 ∨ (Rect.block (s := S32768x512) S1024x512.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x512.size a ≤ S32768x512.size a
  hwx3_0 : ∀ i : grid3.Coords, EltTy.bits .f32 = 32 ∨ (Rect.block (s := S32768x512) S1024x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x512.size a ≤ S32768x512.size a
  hwx3_1 : ∀ i : grid3.Coords, EltTy.bits .f32 = 32 ∨ (Rect.block (s := S32768x512) S1024x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x512.size a ≤ S32768x512.size a
  hwx3_2 : ∀ i : grid3.Coords, EltTy.bits .f32 = 32 ∨ (Rect.block (s := S32768x512) S1024x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x512.size a ≤ S512x512.size a
  hwx3_3 : ∀ i : grid3.Coords, EltTy.bits .f32 = 32 ∨ (Rect.block (s := S512x512) S512x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x512.size a ≤ S32768x512.size a
  hwx3_4 : ∀ i : grid3.Coords, EltTy.bits .f32 = 32 ∨ (Rect.block (s := S32768x512) S1024x512.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x512.size a ≤ S32768x512.size a
  hwx4_0 : ∀ i : grid4.Coords, EltTy.bits .f32 = 32 ∨ (Rect.block (s := S32768x512) S1024x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x128.size a ≤ S512x128.size a
  hwx4_1 : ∀ i : grid4.Coords, EltTy.bits .f32 = 32 ∨ (Rect.block (s := S512x128) S512x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x128.size a ≤ S32768x128.size a
  hwx4_3 : ∀ i : grid4.Coords, EltTy.bits .f32 = 32 ∨ (Rect.block (s := S32768x128) S1024x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x54.size a ≤ S32768x54.size a
  hwx5_0 : ∀ i : grid5.Coords, EltTy.bits .f32 = 32 ∨ (Rect.block (s := S32768x54) S1024x54.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S54x512.size a ≤ S54x512.size a
  hwx5_1 : ∀ i : grid5.Coords, EltTy.bits .f32 = 32 ∨ (Rect.block (s := S54x512) S54x512.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x512.size a ≤ S1x512.size a
  hwx5_2 : ∀ i : grid5.Coords, EltTy.bits .f32 = 32 ∨ (Rect.block (s := S1x512) S1x512.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x512.size a ≤ S32768x512.size a
  hwx5_3 : ∀ i : grid5.Coords, EltTy.bits .f32 = 32 ∨ (Rect.block (s := S32768x512) S1024x512.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x512.size a ≤ S32768x512.size a
  hwx6_0 : ∀ i : grid6.Coords, EltTy.bits .f32 = 32 ∨ (Rect.block (s := S32768x512) S1024x512.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1024x512.size a ≤ S32768x512.size a
  hwx6_1 : ∀ i : grid6.Coords, EltTy.bits .f32 = 32 ∨ (Rect.block (s := S32768x512) S1024x512.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x512.size a ≤ S32768x512.size a
  hwx6_2 : ∀ i : grid6.Coords, EltTy.bits .f32 = 32 ∨ (Rect.block (s := S32768x512) S1024x512.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S512x512.size a ≤ S512x512.size a
  hwx6_3 : ∀ i : grid6.Coords, EltTy.bits .f32 = 32 ∨ (Rect.block (s := S512x512) S512x512.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S1024x512.size a ≤ S32768x512.size a
  hwx6_4 : ∀ i : grid6.Coords, EltTy.bits .f32 = 32 ∨ (Rect.block (s := S32768x512) S1024x512.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x512.size a ≤ S32768x512.size a
  hwx7_0 : ∀ i : grid7.Coords, EltTy.bits .f32 = 32 ∨ (Rect.block (s := S32768x512) S1024x512.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1024x512.size a ≤ S32768x512.size a
  hwx7_1 : ∀ i : grid7.Coords, EltTy.bits .f32 = 32 ∨ (Rect.block (s := S32768x512) S1024x512.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1024x512.size a ≤ S32768x512.size a
  hwx7_2 : ∀ i : grid7.Coords, EltTy.bits .f32 = 32 ∨ (Rect.block (s := S32768x512) S1024x512.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S512x512.size a ≤ S512x512.size a
  hwx7_3 : ∀ i : grid7.Coords, EltTy.bits .f32 = 32 ∨ (Rect.block (s := S512x512) S512x512.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S1024x512.size a ≤ S32768x512.size a
  hwx7_4 : ∀ i : grid7.Coords, EltTy.bits .f32 = 32 ∨ (Rect.block (s := S32768x512) S1024x512.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x512.size a ≤ S32768x512.size a
  hwx8_0 : ∀ i : grid8.Coords, EltTy.bits .f32 = 32 ∨ (Rect.block (s := S32768x512) S1024x512.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1024x512.size a ≤ S32768x512.size a
  hwx8_1 : ∀ i : grid8.Coords, EltTy.bits .f32 = 32 ∨ (Rect.block (s := S32768x512) S1024x512.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1024x512.size a ≤ S32768x512.size a
  hwx8_2 : ∀ i : grid8.Coords, EltTy.bits .f32 = 32 ∨ (Rect.block (s := S32768x512) S1024x512.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S512x512.size a ≤ S512x512.size a
  hwx8_3 : ∀ i : grid8.Coords, EltTy.bits .f32 = 32 ∨ (Rect.block (s := S512x512) S512x512.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S1024x512.size a ≤ S32768x512.size a
  hwx8_4 : ∀ i : grid8.Coords, EltTy.bits .f32 = 32 ∨ (Rect.block (s := S32768x512) S1024x512.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1024x512.size a ≤ S32768x512.size a
  hwx9_0 : ∀ i : grid9.Coords, EltTy.bits .f32 = 32 ∨ (Rect.block (s := S32768x512) S1024x512.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S512x128.size a ≤ S512x128.size a
  hwx9_1 : ∀ i : grid9.Coords, EltTy.bits .f32 = 32 ∨ (Rect.block (s := S512x128) S512x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S1024x128.size a ≤ S32768x128.size a
  hwx9_3 : ∀ i : grid9.Coords, EltTy.bits .f32 = 32 ∨ (Rect.block (s := S32768x128) S1024x128.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1024x128.size a ≤ S32768x128.size a
  hwx10_0 : ∀ i : grid10.Coords, EltTy.bits .f32 = 32 ∨ (Rect.block (s := S32768x128) S1024x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S1024x128.size a ≤ S32768x128.size a
  hwx10_1 : ∀ i : grid10.Coords, EltTy.bits .f32 = 32 ∨ (Rect.block (s := S32768x128) S1024x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128x1024.size a ≤ S128x1024.size a
  hwx10_2 : ∀ i : grid10.Coords, EltTy.bits .f32 = 32 ∨ (Rect.block (s := S128x1024) S128x1024.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x1024.size a ≤ S128x1024.size a
  hwx10_3 : ∀ i : grid10.Coords, EltTy.bits .f32 = 32 ∨ (Rect.block (s := S128x1024) S128x1024.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x1024.size a ≤ S1x1024.size a
  hwx10_4 : ∀ i : grid10.Coords, EltTy.bits .f32 = 32 ∨ (Rect.block (s := S1x1024) S1x1024.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1024x512.size a ≤ S1024x512.size a
  hwx10_5 : ∀ i : grid10.Coords, EltTy.bits .f32 = 32 ∨ (Rect.block (s := S1024x512) S1024x512.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x512.size a ≤ S1x512.size a
  hwx10_6 : ∀ i : grid10.Coords, EltTy.bits .f32 = 32 ∨ (Rect.block (s := S1x512) S1x512.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S512x1.size a ≤ S512x1.size a
  hwx10_7 : ∀ i : grid10.Coords, EltTy.bits .f32 = 32 ∨ (Rect.block (s := S512x1) S512x1.size (cc10_transform_7 i) (hinb10_7 i)).WholeWords (EltTy.packing .f32)
  hstage10_8 : ∀ j, (stage10_8 j).IsWhole
  nbuf10_8 : grid10.bufCount reads10_8 true = 1
  hreads10_8 : ∀ i i' : grid10.Coords, (∀ a, reads10_8 a = true → i a = i' a) → cc10_transform_8 i = cc10_transform_8 i'
  hinb10_8 : ∀ (i : grid10.Coords) a, (cc10_transform_8 i a + 1) * S1x1.size a ≤ S1x1.size a
  hwx10_8 : ∀ i : grid10.Coords, EltTy.bits .f32 = 32 ∨ (Rect.block (s := S1x1) S1x1.size (cc10_transform_8 i) (hinb10_8 i)).WholeWords (EltTy.packing .f32)
  hstage10_9 : ∀ j, (stage10_9 j).IsWhole
  nbuf10_9 : grid10.bufCount reads10_9 false = 2
  hreads10_9 : ∀ i i' : grid10.Coords, (∀ a, reads10_9 a = true → i a = i' a) → cc10_transform_9 i = cc10_transform_9 i'
  hinb10_9 : ∀ (i : grid10.Coords) a, (cc10_transform_9 i a + 1) * S1024x1.size a ≤ S32768x1.size a
  hwx10_9 : ∀ i : grid10.Coords, EltTy.bits .f32 = 32 ∨ (Rect.block (s := S32768x1) S1024x1.size (cc10_transform_9 i) (hinb10_9 i)).WholeWords (EltTy.packing .f32)

variable [Facts₀]

def scatter_S32768_S163840x1_S163840_n_0_0_1 : ScatterDims S32768 S163840x1 S163840 where
  updateWindowDims := []
  insertedWindowDims := [0]
  scatterDimsToOperandDims := [0]
  indexVectorDim := 1
  wf := scatter_S32768_S163840x1_S163840_n_0_0_1_wf
def gather_S32768_S163840x1_S163840_n_0_n_n_0_1_1 : GatherDims S32768 S163840x1 S163840 where
  offsetDims := []
  collapsedSliceDims := [0]
  operandBatchingDims := []
  startIndicesBatchingDims := []
  startIndexMap := [0]
  indexVectorDim := 1
  sliceSizes := ![1]
  wf := gather_S32768_S163840x1_S163840_n_0_n_n_0_1_1_wf
def dot_S1024x78_S78x512_S1024x512_1_0_0_1_n_n : DotDims S1024x78 S78x512 S1024x512 where
  lhsContracting := [1]
  rhsContracting := [0]
  lhsNonContracting := [0]
  rhsNonContracting := [1]
  lhsBatch := []
  rhsBatch := []
  wf := dot_S1024x78_S78x512_S1024x512_1_0_0_1_n_n_wf
def gather_S32768x512_S163840x1_S163840x512_1_0_n_n_0_1_1512 : GatherDims S32768x512 S163840x1 S163840x512 where
  offsetDims := [1]
  collapsedSliceDims := [0]
  operandBatchingDims := []
  startIndicesBatchingDims := []
  startIndexMap := [0]
  indexVectorDim := 1
  sliceSizes := ![1, 512]
  wf := gather_S32768x512_S163840x1_S163840x512_1_0_n_n_0_1_1512_wf
def scatter_S32768x512_S163840x1_S163840x512_1_0_0_1 : ScatterDims S32768x512 S163840x1 S163840x512 where
  updateWindowDims := [1]
  insertedWindowDims := [0]
  scatterDimsToOperandDims := [0]
  indexVectorDim := 1
  wf := scatter_S32768x512_S163840x1_S163840x512_1_0_0_1_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def scatter_S32768_S229376x1_S229376_n_0_0_1 : ScatterDims S32768 S229376x1 S229376 where
  updateWindowDims := []
  insertedWindowDims := [0]
  scatterDimsToOperandDims := [0]
  indexVectorDim := 1
  wf := scatter_S32768_S229376x1_S229376_n_0_0_1_wf
def gather_S32768_S229376x1_S229376_n_0_n_n_0_1_1 : GatherDims S32768 S229376x1 S229376 where
  offsetDims := []
  collapsedSliceDims := [0]
  operandBatchingDims := []
  startIndicesBatchingDims := []
  startIndexMap := [0]
  indexVectorDim := 1
  sliceSizes := ![1]
  wf := gather_S32768_S229376x1_S229376_n_0_n_n_0_1_1_wf
def dot_S1024x54_S54x512_S1024x512_1_0_0_1_n_n : DotDims S1024x54 S54x512 S1024x512 where
  lhsContracting := [1]
  rhsContracting := [0]
  lhsNonContracting := [0]
  rhsNonContracting := [1]
  lhsBatch := []
  rhsBatch := []
  wf := dot_S1024x54_S54x512_S1024x512_1_0_0_1_n_n_wf
def gather_S32768x512_S229376x1_S229376x512_1_0_n_n_0_1_1512 : GatherDims S32768x512 S229376x1 S229376x512 where
  offsetDims := [1]
  collapsedSliceDims := [0]
  operandBatchingDims := []
  startIndicesBatchingDims := []
  startIndexMap := [0]
  indexVectorDim := 1
  sliceSizes := ![1, 512]
  wf := gather_S32768x512_S229376x1_S229376x512_1_0_n_n_0_1_1512_wf
def scatter_S32768x512_S229376x1_S229376x512_1_0_0_1 : ScatterDims S32768x512 S229376x1 S229376x512 where
  updateWindowDims := [1]
  insertedWindowDims := [0]
  scatterDimsToOperandDims := [0]
  indexVectorDim := 1
  wf := scatter_S32768x512_S229376x1_S229376x512_1_0_0_1_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1_S1024x1_1_0_0_1_n_n : DotDims S1024x512 S512x1 S1024x1 where
  lhsContracting := [1]
  rhsContracting := [0]
  lhsNonContracting := [0]
  rhsNonContracting := [1]
  lhsBatch := []
  rhsBatch := []
  wf := dot_S1024x512_S512x1_S1024x1_1_0_0_1_n_n_wf

abbrev win0_0 : Pipeline.Window sig grid0 :=
  Pipeline.Window.ofSpec (Memref.whole main_arg0) S1024x78.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S78x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v44) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1024x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v60) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1024x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v62) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S1024x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v76) S1024x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S1024x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1024x512.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v78) S512x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v79) S1024x512.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v79) S1024x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S512x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v80) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v81) S1024x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_arg2) S1024x54.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg9) S54x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v112) S1x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v113) S1024x512.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v126) S1024x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v113) S1024x512.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v113) S1024x512.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v128) S512x512.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v129) S1024x512.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v142) S1024x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v113) S1024x512.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v129) S1024x512.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v144) S512x512.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v145) S1024x512.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v158) S1024x512.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v113) S1024x512.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v145) S1024x512.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v160) S512x512.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v161) S1024x512.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v161) S1024x512.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg12) S512x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v162) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v163) S1024x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v81) S1024x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v163) S1024x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v164) S128x1024.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v165) S128x1024.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v166) S1x1024.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_arg16) S1024x512.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v167) S1x512.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_arg18) S512x1.size cc10_transform_7 reads10_7 false true 1 stage10_7 sem10_7
    hrank10 hreads10_7 hinb10_7 nbuf10_7 (Memref.isWhole_whole _) hwx10_7 hstage10_7

abbrev win10_8 : Pipeline.Window sig grid10 :=
  Pipeline.Window.ofSpec (Memref.whole main_v168) S1x1.size cc10_transform_8 reads10_8 false true 1 stage10_8 sem10_8
    hrank10 hreads10_8 hinb10_8 nbuf10_8 (Memref.isWhole_whole _) hwx10_8 hstage10_8

abbrev win10_9 : Pipeline.Window sig grid10 :=
  Pipeline.Window.ofSpec (Memref.whole main_v169) S1024x1.size cc10_transform_9 reads10_9 true false 2 stage10_9 sem10_9
    hrank10 hreads10_9 hinb10_9 nbuf10_9 (Memref.isWhole_whole _) hwx10_9 hstage10_9

abbrev win10 : Fin 10 → Pipeline.Window sig grid10 := fun | 0 => win10_0 | 1 => win10_1 | 2 => win10_2 | 3 => win10_3 | 4 => win10_4 | 5 => win10_5 | 6 => win10_6 | 7 => win10_7 | 8 => win10_8 | 9 => win10_9 | ⟨_ + 10, h⟩ => absurd h (Nat.not_lt.2 (Nat.le_add_left _ _))
abbrev spec10 : Fin 10 → Pipeline.WinSpec sig grid10.rank := fun w => (win10 w).toWinSpec

class Facts : Prop extends Facts₀ where

variable [Facts]
-- ==== ReferenceIdeal.lean ====
abbrev S32768x78 : Shape := ⟨2, ![32768, 78]⟩
abbrev S2x131072 : Shape := ⟨2, ![2, 131072]⟩
abbrev S32768x54 : Shape := ⟨2, ![32768, 54]⟩
abbrev S2x196608 : Shape := ⟨2, ![2, 196608]⟩
abbrev S78x512 : Shape := ⟨2, ![78, 512]⟩
abbrev S512 : Shape := ⟨1, ![512]⟩
abbrev S3x512x512 : Shape := ⟨3, ![3, 512, 512]⟩
abbrev S512x128 : Shape := ⟨2, ![512, 128]⟩
abbrev S128 : Shape := ⟨1, ![128]⟩
abbrev S54x512 : Shape := ⟨2, ![54, 512]⟩
abbrev S256x1024 : Shape := ⟨2, ![256, 1024]⟩
abbrev S1024 : Shape := ⟨1, ![1024]⟩
abbrev S1024x512 : Shape := ⟨2, ![1024, 512]⟩
abbrev S512x1 : Shape := ⟨2, ![512, 1]⟩
abbrev S1 : Shape := ⟨1, ![1]⟩
abbrev S32768 : Shape := ⟨1, ![32768]⟩
abbrev S1x131072 : Shape := ⟨2, ![1, 131072]⟩
abbrev S131072 : Shape := ⟨1, ![131072]⟩
abbrev S163840 : Shape := ⟨1, ![163840]⟩
abbrev S_ : Shape := ⟨0, ![]⟩
abbrev S163840x1 : Shape := ⟨2, ![163840, 1]⟩
abbrev S32768x512 : Shape := ⟨2, ![32768, 512]⟩
abbrev S1x512 : Shape := ⟨2, ![1, 512]⟩
abbrev S163840x512 : Shape := ⟨2, ![163840, 512]⟩
abbrev S1x512x512 : Shape := ⟨3, ![1, 512, 512]⟩
abbrev S512x512 : Shape := ⟨2, ![512, 512]⟩
abbrev S32768x128 : Shape := ⟨2, ![32768, 128]⟩
abbrev S1x128 : Shape := ⟨2, ![1, 128]⟩
abbrev S1x196608 : Shape := ⟨2, ![1, 196608]⟩
abbrev S196608 : Shape := ⟨1, ![196608]⟩
abbrev S229376 : Shape := ⟨1, ![229376]⟩
abbrev S229376x1 : Shape := ⟨2, ![229376, 1]⟩
abbrev S229376x512 : Shape := ⟨2, ![229376, 512]⟩
abbrev S32768x256 : Shape := ⟨2, ![32768, 256]⟩
abbrev S32768x1024 : Shape := ⟨2, ![32768, 1024]⟩
abbrev S1x1024 : Shape := ⟨2, ![1, 1024]⟩
abbrev S32768x1 : Shape := ⟨2, ![32768, 1]⟩
abbrev S1x1 : Shape := ⟨2, ![1, 1]⟩

abbrev nBuf : Space → Nat
  | .hbm => 327
  | .vmem => 0
  | .smem => 0
  | _ => 0

abbrev hbmTy0_0 (i : Nat) : BufTy := match i % 128 with
  | 0 => ⟨S32768x78, .f32⟩
  | 1 => ⟨S2x131072, .i32⟩
  | 2 => ⟨S32768x54, .f32⟩
  | 3 => ⟨S2x196608, .i32⟩
  | 4 => ⟨S78x512, .f32⟩
  | 5 => ⟨S512, .f32⟩
  | 6 => ⟨S3x512x512, .f32⟩
  | 7 => ⟨S512x128, .f32⟩
  | 8 => ⟨S128, .f32⟩
  | 9 => ⟨S54x512, .f32⟩
  | 10 => ⟨S512, .f32⟩
  | 11 => ⟨S3x512x512, .f32⟩
  | 12 => ⟨S512x128, .f32⟩
  | 13 => ⟨S128, .f32⟩
  | 14 => ⟨S256x1024, .f32⟩
  | 15 => ⟨S1024, .f32⟩
  | 16 => ⟨S1024x512, .f32⟩
  | 17 => ⟨S512, .f32⟩
  | 18 => ⟨S512x1, .f32⟩
  | 19 => ⟨S1, .f32⟩
  | 20 => ⟨S32768, .i32⟩
  | 21 => ⟨S1x131072, .i32⟩
  | 22 => ⟨S131072, .i32⟩
  | 23 => ⟨S163840, .i32⟩
  | 24 => ⟨S1x131072, .i32⟩
  | 25 => ⟨S131072, .i32⟩
  | 26 => ⟨S163840, .i32⟩
  | 27 => ⟨S_, .f32⟩
  | 28 => ⟨S163840, .f32⟩
  | 29 => ⟨S_, .f32⟩
  | 30 => ⟨S32768, .f32⟩
  | 31 => ⟨S163840x1, .i32⟩
  | 32 => ⟨S32768, .f32⟩
  | 33 => ⟨S_, .f32⟩
  | 34 => ⟨S32768, .f32⟩
  | 35 => ⟨S32768, .i1⟩
  | 36 => ⟨S32768, .f32⟩
  | 37 => ⟨S_, .f32⟩
  | 38 => ⟨S_, .f32⟩
  | 39 => ⟨S32768, .f32⟩
  | 40 => ⟨S32768, .f32⟩
  | 41 => ⟨S_, .i32⟩
  | 42 => ⟨S163840, .i32⟩
  | 43 => ⟨S163840, .i1⟩
  | 44 => ⟨S_, .i32⟩
  | 45 => ⟨S163840, .i32⟩
  | 46 => ⟨S163840, .i32⟩
  | 47 => ⟨S163840, .i32⟩
  | 48 => ⟨S163840x1, .i32⟩
  | 49 => ⟨S163840, .f32⟩
  | 50 => ⟨S_, .i32⟩
  | 51 => ⟨S163840, .i32⟩
  | 52 => ⟨S163840, .i1⟩
  | 53 => ⟨S_, .i32⟩
  | 54 => ⟨S163840, .i32⟩
  | 55 => ⟨S163840, .i32⟩
  | 56 => ⟨S163840, .i32⟩
  | 57 => ⟨S163840x1, .i32⟩
  | 58 => ⟨S163840, .f32⟩
  | 59 => ⟨S163840, .f32⟩
  | 60 => ⟨S32768x512, .f32⟩
  | 61 => ⟨S1x512, .f32⟩
  | 62 => ⟨S32768x512, .f32⟩
  | 63 => ⟨S32768x512, .f32⟩
  | 64 => ⟨S_, .f32⟩
  | 65 => ⟨S32768x512, .f32⟩
  | 66 => ⟨S32768x512, .f32⟩
  | 67 => ⟨S163840x1, .f32⟩
  | 68 => ⟨S_, .i32⟩
  | 69 => ⟨S163840, .i32⟩
  | 70 => ⟨S163840, .i1⟩
  | 71 => ⟨S_, .i32⟩
  | 72 => ⟨S163840, .i32⟩
  | 73 => ⟨S163840, .i32⟩
  | 74 => ⟨S163840, .i32⟩
  | 75 => ⟨S163840x1, .i32⟩
  | 76 => ⟨S163840x512, .f32⟩
  | 77 => ⟨S163840x512, .f32⟩
  | 78 => ⟨S163840x512, .f32⟩
  | 79 => ⟨S_, .f32⟩
  | 80 => ⟨S32768x512, .f32⟩
  | 81 => ⟨S163840x1, .i32⟩
  | 82 => ⟨S32768x512, .f32⟩
  | 83 => ⟨S_, .f32⟩
  | 84 => ⟨S32768x512, .f32⟩
  | 85 => ⟨S32768x512, .f32⟩
  | 86 => ⟨S_, .f32⟩
  | 87 => ⟨S32768x512, .f32⟩
  | 88 => ⟨S32768x512, .f32⟩
  | 89 => ⟨S32768x512, .f32⟩
  | 90 => ⟨S1x512x512, .f32⟩
  | 91 => ⟨S512x512, .f32⟩
  | 92 => ⟨S32768x512, .f32⟩
  | 93 => ⟨S32768x512, .f32⟩
  | 94 => ⟨S_, .f32⟩
  | 95 => ⟨S32768x512, .f32⟩
  | 96 => ⟨S32768x512, .f32⟩
  | 97 => ⟨S32768x512, .f32⟩
  | 98 => ⟨S163840x1, .f32⟩
  | 99 => ⟨S_, .i32⟩
  | 100 => ⟨S163840, .i32⟩
  | 101 => ⟨S163840, .i1⟩
  | 102 => ⟨S_, .i32⟩
  | 103 => ⟨S163840, .i32⟩
  | 104 => ⟨S163840, .i32⟩
  | 105 => ⟨S163840, .i32⟩
  | 106 => ⟨S163840x1, .i32⟩
  | 107 => ⟨S163840x512, .f32⟩
  | 108 => ⟨S163840x512, .f32⟩
  | 109 => ⟨S163840x512, .f32⟩
  | 110 => ⟨S_, .f32⟩
  | 111 => ⟨S32768x512, .f32⟩
  | 112 => ⟨S163840x1, .i32⟩
  | 113 => ⟨S32768x512, .f32⟩
  | 114 => ⟨S_, .f32⟩
  | 115 => ⟨S32768x512, .f32⟩
  | 116 => ⟨S32768x512, .f32⟩
  | 117 => ⟨S_, .f32⟩
  | 118 => ⟨S32768x512, .f32⟩
  | 119 => ⟨S32768x512, .f32⟩
  | 120 => ⟨S32768x512, .f32⟩
  | 121 => ⟨S1x512x512, .f32⟩
  | 122 => ⟨S512x512, .f32⟩
  | 123 => ⟨S32768x512, .f32⟩
  | 124 => ⟨S32768x512, .f32⟩
  | 125 => ⟨S_, .f32⟩
  | 126 => ⟨S32768x512, .f32⟩
  | 127 => ⟨S32768x512, .f32⟩
  | _ => ⟨S32768x78, .f32⟩

abbrev hbmTy0_1 (i : Nat) : BufTy := match i % 128 with
  | 0 => ⟨S32768x512, .f32⟩
  | 1 => ⟨S163840x1, .f32⟩
  | 2 => ⟨S_, .i32⟩
  | 3 => ⟨S163840, .i32⟩
  | 4 => ⟨S163840, .i1⟩
  | 5 => ⟨S_, .i32⟩
  | 6 => ⟨S163840, .i32⟩
  | 7 => ⟨S163840, .i32⟩
  | 8 => ⟨S163840, .i32⟩
  | 9 => ⟨S163840x1, .i32⟩
  | 10 => ⟨S163840x512, .f32⟩
  | 11 => ⟨S163840x512, .f32⟩
  | 12 => ⟨S163840x512, .f32⟩
  | 13 => ⟨S_, .f32⟩
  | 14 => ⟨S32768x512, .f32⟩
  | 15 => ⟨S163840x1, .i32⟩
  | 16 => ⟨S32768x512, .f32⟩
  | 17 => ⟨S_, .f32⟩
  | 18 => ⟨S32768x512, .f32⟩
  | 19 => ⟨S32768x512, .f32⟩
  | 20 => ⟨S_, .f32⟩
  | 21 => ⟨S32768x512, .f32⟩
  | 22 => ⟨S32768x512, .f32⟩
  | 23 => ⟨S32768x512, .f32⟩
  | 24 => ⟨S1x512x512, .f32⟩
  | 25 => ⟨S512x512, .f32⟩
  | 26 => ⟨S32768x512, .f32⟩
  | 27 => ⟨S32768x512, .f32⟩
  | 28 => ⟨S_, .f32⟩
  | 29 => ⟨S32768x512, .f32⟩
  | 30 => ⟨S32768x512, .f32⟩
  | 31 => ⟨S32768x512, .f32⟩
  | 32 => ⟨S32768x128, .f32⟩
  | 33 => ⟨S1x128, .f32⟩
  | 34 => ⟨S32768x128, .f32⟩
  | 35 => ⟨S32768x128, .f32⟩
  | 36 => ⟨S32768, .i32⟩
  | 37 => ⟨S1x196608, .i32⟩
  | 38 => ⟨S196608, .i32⟩
  | 39 => ⟨S229376, .i32⟩
  | 40 => ⟨S1x196608, .i32⟩
  | 41 => ⟨S196608, .i32⟩
  | 42 => ⟨S229376, .i32⟩
  | 43 => ⟨S_, .f32⟩
  | 44 => ⟨S229376, .f32⟩
  | 45 => ⟨S_, .f32⟩
  | 46 => ⟨S32768, .f32⟩
  | 47 => ⟨S229376x1, .i32⟩
  | 48 => ⟨S32768, .f32⟩
  | 49 => ⟨S_, .f32⟩
  | 50 => ⟨S32768, .f32⟩
  | 51 => ⟨S32768, .i1⟩
  | 52 => ⟨S32768, .f32⟩
  | 53 => ⟨S_, .f32⟩
  | 54 => ⟨S_, .f32⟩
  | 55 => ⟨S32768, .f32⟩
  | 56 => ⟨S32768, .f32⟩
  | 57 => ⟨S_, .i32⟩
  | 58 => ⟨S229376, .i32⟩
  | 59 => ⟨S229376, .i1⟩
  | 60 => ⟨S_, .i32⟩
  | 61 => ⟨S229376, .i32⟩
  | 62 => ⟨S229376, .i32⟩
  | 63 => ⟨S229376, .i32⟩
  | 64 => ⟨S229376x1, .i32⟩
  | 65 => ⟨S229376, .f32⟩
  | 66 => ⟨S_, .i32⟩
  | 67 => ⟨S229376, .i32⟩
  | 68 => ⟨S229376, .i1⟩
  | 69 => ⟨S_, .i32⟩
  | 70 => ⟨S229376, .i32⟩
  | 71 => ⟨S229376, .i32⟩
  | 72 => ⟨S229376, .i32⟩
  | 73 => ⟨S229376x1, .i32⟩
  | 74 => ⟨S229376, .f32⟩
  | 75 => ⟨S229376, .f32⟩
  | 76 => ⟨S32768x512, .f32⟩
  | 77 => ⟨S1x512, .f32⟩
  | 78 => ⟨S32768x512, .f32⟩
  | 79 => ⟨S32768x512, .f32⟩
  | 80 => ⟨S_, .f32⟩
  | 81 => ⟨S32768x512, .f32⟩
  | 82 => ⟨S32768x512, .f32⟩
  | 83 => ⟨S229376x1, .f32⟩
  | 84 => ⟨S_, .i32⟩
  | 85 => ⟨S229376, .i32⟩
  | 86 => ⟨S229376, .i1⟩
  | 87 => ⟨S_, .i32⟩
  | 88 => ⟨S229376, .i32⟩
  | 89 => ⟨S229376, .i32⟩
  | 90 => ⟨S229376, .i32⟩
  | 91 => ⟨S229376x1, .i32⟩
  | 92 => ⟨S229376x512, .f32⟩
  | 93 => ⟨S229376x512, .f32⟩
  | 94 => ⟨S229376x512, .f32⟩
  | 95 => ⟨S_, .f32⟩
  | 96 => ⟨S32768x512, .f32⟩
  | 97 => ⟨S229376x1, .i32⟩
  | 98 => ⟨S32768x512, .f32⟩
  | 99 => ⟨S_, .f32⟩
  | 100 => ⟨S32768x512, .f32⟩
  | 101 => ⟨S32768x512, .f32⟩
  | 102 => ⟨S_, .f32⟩
  | 103 => ⟨S32768x512, .f32⟩
  | 104 => ⟨S32768x512, .f32⟩
  | 105 => ⟨S32768x512, .f32⟩
  | 106 => ⟨S1x512x512, .f32⟩
  | 107 => ⟨S512x512, .f32⟩
  | 108 => ⟨S32768x512, .f32⟩
  | 109 => ⟨S32768x512, .f32⟩
  | 110 => ⟨S_, .f32⟩
  | 111 => ⟨S32768x512, .f32⟩
  | 112 => ⟨S32768x512, .f32⟩
  | 113 => ⟨S32768x512, .f32⟩
  | 114 => ⟨S229376x1, .f32⟩
  | 115 => ⟨S_, .i32⟩
  | 116 => ⟨S229376, .i32⟩
  | 117 => ⟨S229376, .i1⟩
  | 118 => ⟨S_, .i32⟩
  | 119 => ⟨S229376, .i32⟩
  | 120 => ⟨S229376, .i32⟩
  | 121 => ⟨S229376, .i32⟩
  | 122 => ⟨S229376x1, .i32⟩
  | 123 => ⟨S229376x512, .f32⟩
  | 124 => ⟨S229376x512, .f32⟩
  | 125 => ⟨S229376x512, .f32⟩
  | 126 => ⟨S_, .f32⟩
  | 127 => ⟨S32768x512, .f32⟩
  | _ => ⟨S32768x78, .f32⟩

abbrev hbmTy0_2 (i : Nat) : BufTy := match i % 128 with
  | 0 => ⟨S229376x1, .i32⟩
  | 1 => ⟨S32768x512, .f32⟩
  | 2 => ⟨S_, .f32⟩
  | 3 => ⟨S32768x512, .f32⟩
  | 4 => ⟨S32768x512, .f32⟩
  | 5 => ⟨S_, .f32⟩
  | 6 => ⟨S32768x512, .f32⟩
  | 7 => ⟨S32768x512, .f32⟩
  | 8 => ⟨S32768x512, .f32⟩
  | 9 => ⟨S1x512x512, .f32⟩
  | 10 => ⟨S512x512, .f32⟩
  | 11 => ⟨S32768x512, .f32⟩
  | 12 => ⟨S32768x512, .f32⟩
  | 13 => ⟨S_, .f32⟩
  | 14 => ⟨S32768x512, .f32⟩
  | 15 => ⟨S32768x512, .f32⟩
  | 16 => ⟨S32768x512, .f32⟩
  | 17 => ⟨S229376x1, .f32⟩
  | 18 => ⟨S_, .i32⟩
  | 19 => ⟨S229376, .i32⟩
  | 20 => ⟨S229376, .i1⟩
  | 21 => ⟨S_, .i32⟩
  | 22 => ⟨S229376, .i32⟩
  | 23 => ⟨S229376, .i32⟩
  | 24 => ⟨S229376, .i32⟩
  | 25 => ⟨S229376x1, .i32⟩
  | 26 => ⟨S229376x512, .f32⟩
  | 27 => ⟨S229376x512, .f32⟩
  | 28 => ⟨S229376x512, .f32⟩
  | 29 => ⟨S_, .f32⟩
  | 30 => ⟨S32768x512, .f32⟩
  | 31 => ⟨S229376x1, .i32⟩
  | 32 => ⟨S32768x512, .f32⟩
  | 33 => ⟨S_, .f32⟩
  | 34 => ⟨S32768x512, .f32⟩
  | 35 => ⟨S32768x512, .f32⟩
  | 36 => ⟨S_, .f32⟩
  | 37 => ⟨S32768x512, .f32⟩
  | 38 => ⟨S32768x512, .f32⟩
  | 39 => ⟨S32768x512, .f32⟩
  | 40 => ⟨S1x512x512, .f32⟩
  | 41 => ⟨S512x512, .f32⟩
  | 42 => ⟨S32768x512, .f32⟩
  | 43 => ⟨S32768x512, .f32⟩
  | 44 => ⟨S_, .f32⟩
  | 45 => ⟨S32768x512, .f32⟩
  | 46 => ⟨S32768x512, .f32⟩
  | 47 => ⟨S32768x512, .f32⟩
  | 48 => ⟨S32768x128, .f32⟩
  | 49 => ⟨S1x128, .f32⟩
  | 50 => ⟨S32768x128, .f32⟩
  | 51 => ⟨S32768x128, .f32⟩
  | 52 => ⟨S32768x256, .f32⟩
  | 53 => ⟨S32768x1024, .f32⟩
  | 54 => ⟨S1x1024, .f32⟩
  | 55 => ⟨S32768x1024, .f32⟩
  | 56 => ⟨S32768x1024, .f32⟩
  | 57 => ⟨S_, .f32⟩
  | 58 => ⟨S32768x1024, .f32⟩
  | 59 => ⟨S32768x1024, .f32⟩
  | 60 => ⟨S32768x512, .f32⟩
  | 61 => ⟨S1x512, .f32⟩
  | 62 => ⟨S32768x512, .f32⟩
  | 63 => ⟨S32768x512, .f32⟩
  | 64 => ⟨S_, .f32⟩
  | 65 => ⟨S32768x512, .f32⟩
  | 66 => ⟨S32768x512, .f32⟩
  | 67 => ⟨S32768x1, .f32⟩
  | 68 => ⟨S1x1, .f32⟩
  | 69 => ⟨S32768x1, .f32⟩
  | 70 => ⟨S32768x1, .f32⟩
  | _ => ⟨S32768x78, .f32⟩

abbrev hbmTy (i : Nat) : BufTy := match i / 128 with
  | 0 => hbmTy0_0 i
  | 1 => hbmTy0_1 i
  | 2 => hbmTy0_2 i
  | _ => ⟨S32768x78, .f32⟩

abbrev bufTy : (tb : Table) → Fin (tcTables nBuf tb) → BufTy
  | .hbm, ⟨i, _⟩ => hbmTy i
  | _, _ => ⟨S32768x78, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_v14 : Ref sig .tc := ⟨.hbm, 40, rfl⟩
abbrev main_c : Ref sig .tc := ⟨.hbm, 41, rfl⟩
abbrev main_v15 : Ref sig .tc := ⟨.hbm, 42, rfl⟩
abbrev main_v16 : Ref sig .tc := ⟨.hbm, 43, rfl⟩
abbrev main_c_3 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c_4 : Ref sig .tc := ⟨.hbm, 50, rfl⟩
abbrev main_v22 : Ref sig .tc := ⟨.hbm, 51, rfl⟩
abbrev main_v23 : Ref sig .tc := ⟨.hbm, 52, rfl⟩
abbrev main_c_5 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_call1_cst : Ref sig .tc := ⟨.hbm, 64, rfl⟩
abbrev main_call1_v0 : Ref sig .tc := ⟨.hbm, 65, rfl⟩
abbrev main_v34 : Ref sig .tc := ⟨.hbm, 66, rfl⟩
abbrev main_v35 : Ref sig .tc := ⟨.hbm, 67, rfl⟩
abbrev main_c_6 : Ref sig .tc := ⟨.hbm, 68, rfl⟩
abbrev main_v36 : Ref sig .tc := ⟨.hbm, 69, rfl⟩
abbrev main_v37 : Ref sig .tc := ⟨.hbm, 70, rfl⟩
abbrev main_c_7 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_8 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_9 : Ref sig .tc := ⟨.hbm, 83, rfl⟩
abbrev main_v48 : Ref sig .tc := ⟨.hbm, 84, rfl⟩
abbrev main_v49 : Ref sig .tc := ⟨.hbm, 85, rfl⟩
abbrev main_cst_10 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_call2_cst : Ref sig .tc := ⟨.hbm, 94, rfl⟩
abbrev main_call2_v0 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_c_11 : Ref sig .tc := ⟨.hbm, 99, rfl⟩
abbrev main_v60 : Ref sig .tc := ⟨.hbm, 100, rfl⟩
abbrev main_v61 : Ref sig .tc := ⟨.hbm, 101, rfl⟩
abbrev main_c_12 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_cst_13 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_cst_14 : Ref sig .tc := ⟨.hbm, 114, rfl⟩
abbrev main_v72 : Ref sig .tc := ⟨.hbm, 115, rfl⟩
abbrev main_v73 : Ref sig .tc := ⟨.hbm, 116, rfl⟩
abbrev main_cst_15 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_call3_cst : Ref sig .tc := ⟨.hbm, 125, rfl⟩
abbrev main_call3_v0 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_c_16 : Ref sig .tc := ⟨.hbm, 130, rfl⟩
abbrev main_v84 : Ref sig .tc := ⟨.hbm, 131, rfl⟩
abbrev main_v85 : Ref sig .tc := ⟨.hbm, 132, rfl⟩
abbrev main_c_17 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_cst_18 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_cst_19 : Ref sig .tc := ⟨.hbm, 145, rfl⟩
abbrev main_v96 : Ref sig .tc := ⟨.hbm, 146, rfl⟩
abbrev main_v97 : Ref sig .tc := ⟨.hbm, 147, rfl⟩
abbrev main_cst_20 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_call4_cst : Ref sig .tc := ⟨.hbm, 156, rfl⟩
abbrev main_call4_v0 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_cst_21 : Ref sig .tc := ⟨.hbm, 171, rfl⟩
abbrev main_v118 : Ref sig .tc := ⟨.hbm, 172, rfl⟩
abbrev main_cst_22 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_cst_23 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_cst_24 : Ref sig .tc := ⟨.hbm, 181, rfl⟩
abbrev main_call5_v0 : Ref sig .tc := ⟨.hbm, 182, rfl⟩
abbrev main_call5_v1 : Ref sig .tc := ⟨.hbm, 183, rfl⟩
abbrev main_v125 : Ref sig .tc := ⟨.hbm, 184, rfl⟩
abbrev main_c_25 : Ref sig .tc := ⟨.hbm, 185, rfl⟩
abbrev main_v126 : Ref sig .tc := ⟨.hbm, 186, rfl⟩
abbrev main_v127 : Ref sig .tc := ⟨.hbm, 187, rfl⟩
abbrev main_c_26 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_c_27 : Ref sig .tc := ⟨.hbm, 194, rfl⟩
abbrev main_v133 : Ref sig .tc := ⟨.hbm, 195, rfl⟩
abbrev main_v134 : Ref sig .tc := ⟨.hbm, 196, rfl⟩
abbrev main_c_28 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_call6_cst : Ref sig .tc := ⟨.hbm, 208, rfl⟩
abbrev main_call6_v0 : Ref sig .tc := ⟨.hbm, 209, rfl⟩
abbrev main_v145 : Ref sig .tc := ⟨.hbm, 210, rfl⟩
abbrev main_v146 : Ref sig .tc := ⟨.hbm, 211, rfl⟩
abbrev main_c_29 : Ref sig .tc := ⟨.hbm, 212, rfl⟩
abbrev main_v147 : Ref sig .tc := ⟨.hbm, 213, rfl⟩
abbrev main_v148 : Ref sig .tc := ⟨.hbm, 214, rfl⟩
abbrev main_c_30 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_cst_31 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_cst_32 : Ref sig .tc := ⟨.hbm, 227, rfl⟩
abbrev main_v159 : Ref sig .tc := ⟨.hbm, 228, rfl⟩
abbrev main_v160 : Ref sig .tc := ⟨.hbm, 229, rfl⟩
abbrev main_cst_33 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_call7_cst : Ref sig .tc := ⟨.hbm, 238, rfl⟩
abbrev main_call7_v0 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_c_34 : Ref sig .tc := ⟨.hbm, 243, rfl⟩
abbrev main_v171 : Ref sig .tc := ⟨.hbm, 244, rfl⟩
abbrev main_v172 : Ref sig .tc := ⟨.hbm, 245, rfl⟩
abbrev main_c_35 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_cst_36 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_cst_37 : Ref sig .tc := ⟨.hbm, 258, rfl⟩
abbrev main_v183 : Ref sig .tc := ⟨.hbm, 259, rfl⟩
abbrev main_v184 : Ref sig .tc := ⟨.hbm, 260, rfl⟩
abbrev main_cst_38 : Ref sig .tc := ⟨.hbm, 261, rfl⟩
abbrev main_v185 : Ref sig .tc := ⟨.hbm, 262, rfl⟩
abbrev main_v186 : Ref sig .tc := ⟨.hbm, 263, rfl⟩
abbrev main_v187 : Ref sig .tc := ⟨.hbm, 264, rfl⟩
abbrev main_v188 : Ref sig .tc := ⟨.hbm, 265, rfl⟩
abbrev main_v189 : Ref sig .tc := ⟨.hbm, 266, rfl⟩
abbrev main_v190 : Ref sig .tc := ⟨.hbm, 267, rfl⟩
abbrev main_v191 : Ref sig .tc := ⟨.hbm, 268, rfl⟩
abbrev main_call8_cst : Ref sig .tc := ⟨.hbm, 269, rfl⟩
abbrev main_call8_v0 : Ref sig .tc := ⟨.hbm, 270, rfl⟩
abbrev main_v192 : Ref sig .tc := ⟨.hbm, 271, rfl⟩
abbrev main_v193 : Ref sig .tc := ⟨.hbm, 272, rfl⟩
abbrev main_v194 : Ref sig .tc := ⟨.hbm, 273, rfl⟩
abbrev main_c_39 : Ref sig .tc := ⟨.hbm, 274, rfl⟩
abbrev main_v195 : Ref sig .tc := ⟨.hbm, 275, rfl⟩
abbrev main_v196 : Ref sig .tc := ⟨.hbm, 276, rfl⟩
abbrev main_c_40 : Ref sig .tc := ⟨.hbm, 277, rfl⟩
abbrev main_v197 : Ref sig .tc := ⟨.hbm, 278, rfl⟩
abbrev main_v198 : Ref sig .tc := ⟨.hbm, 279, rfl⟩
abbrev main_v199 : Ref sig .tc := ⟨.hbm, 280, rfl⟩
abbrev main_v200 : Ref sig .tc := ⟨.hbm, 281, rfl⟩
abbrev main_v201 : Ref sig .tc := ⟨.hbm, 282, rfl⟩
abbrev main_v202 : Ref sig .tc := ⟨.hbm, 283, rfl⟩
abbrev main_v203 : Ref sig .tc := ⟨.hbm, 284, rfl⟩
abbrev main_cst_41 : Ref sig .tc := ⟨.hbm, 285, rfl⟩
abbrev main_v204 : Ref sig .tc := ⟨.hbm, 286, rfl⟩
abbrev main_v205 : Ref sig .tc := ⟨.hbm, 287, rfl⟩
abbrev main_v206 : Ref sig .tc := ⟨.hbm, 288, rfl⟩
abbrev main_cst_42 : Ref sig .tc := ⟨.hbm, 289, rfl⟩
abbrev main_v207 : Ref sig .tc := ⟨.hbm, 290, rfl⟩
abbrev main_v208 : Ref sig .tc := ⟨.hbm, 291, rfl⟩
abbrev main_cst_43 : Ref sig .tc := ⟨.hbm, 292, rfl⟩
abbrev main_v209 : Ref sig .tc := ⟨.hbm, 293, rfl⟩
abbrev main_v210 : Ref sig .tc := ⟨.hbm, 294, rfl⟩
abbrev main_v211 : Ref sig .tc := ⟨.hbm, 295, rfl⟩
abbrev main_v212 : Ref sig .tc := ⟨.hbm, 296, rfl⟩
abbrev main_v213 : Ref sig .tc := ⟨.hbm, 297, rfl⟩
abbrev main_v214 : Ref sig .tc := ⟨.hbm, 298, rfl⟩
abbrev main_v215 : Ref sig .tc := ⟨.hbm, 299, rfl⟩
abbrev main_call9_cst : Ref sig .tc := ⟨.hbm, 300, rfl⟩
abbrev main_call9_v0 : Ref sig .tc := ⟨.hbm, 301, rfl⟩
abbrev main_v216 : Ref sig .tc := ⟨.hbm, 302, rfl⟩
abbrev main_v217 : Ref sig .tc := ⟨.hbm, 303, rfl⟩
abbrev main_v218 : Ref sig .tc := ⟨.hbm, 304, rfl⟩
abbrev main_v219 : Ref sig .tc := ⟨.hbm, 305, rfl⟩
abbrev main_v220 : Ref sig .tc := ⟨.hbm, 306, rfl⟩
abbrev main_v221 : Ref sig .tc := ⟨.hbm, 307, rfl⟩
abbrev main_v222 : Ref sig .tc := ⟨.hbm, 308, rfl⟩
abbrev main_v223 : Ref sig .tc := ⟨.hbm, 309, rfl⟩
abbrev main_v224 : Ref sig .tc := ⟨.hbm, 310, rfl⟩
abbrev main_v225 : Ref sig .tc := ⟨.hbm, 311, rfl⟩
abbrev main_v226 : Ref sig .tc := ⟨.hbm, 312, rfl⟩
abbrev main_call10_cst : Ref sig .tc := ⟨.hbm, 313, rfl⟩
abbrev main_call10_v0 : Ref sig .tc := ⟨.hbm, 314, rfl⟩
abbrev main_v227 : Ref sig .tc := ⟨.hbm, 315, rfl⟩
abbrev main_v228 : Ref sig .tc := ⟨.hbm, 316, rfl⟩
abbrev main_v229 : Ref sig .tc := ⟨.hbm, 317, rfl⟩
abbrev main_v230 : Ref sig .tc := ⟨.hbm, 318, rfl⟩
abbrev main_v231 : Ref sig .tc := ⟨.hbm, 319, rfl⟩
abbrev main_call11_cst : Ref sig .tc := ⟨.hbm, 320, rfl⟩
abbrev main_call11_v0 : Ref sig .tc := ⟨.hbm, 321, rfl⟩
abbrev main_v232 : Ref sig .tc := ⟨.hbm, 322, rfl⟩
abbrev main_v233 : Ref sig .tc := ⟨.hbm, 323, rfl⟩
abbrev main_v234 : Ref sig .tc := ⟨.hbm, 324, rfl⟩
abbrev main_v235 : Ref sig .tc := ⟨.hbm, 325, rfl⟩
abbrev main_v236 : Ref sig .tc := ⟨.hbm, 326, rfl⟩

abbrev nD : Nat := 1
abbrev τ : Topo := Topo.v7x

variable {F : FTy → Type} [FloatOps F]

class Facts₀ : Prop where
  slices_S2x131072_S1x131072_0_0 : S2x131072.Slices ![0, 0] S1x131072
  shapeCasts_S1x131072_S131072 : S1x131072.ShapeCasts S131072
  concatenates_S131072_S32768_S163840_d0 : Shape.Concatenates [S131072, S32768] S163840 0
  slices_S2x131072_S1x131072_1_0 : S2x131072.Slices ![1, 0] S1x131072
  bcast_S_S163840 : S_.BroadcastsInDim S163840 (![] : Fin 0 → Fin S163840.rank)
  bcast_S_S32768 : S_.BroadcastsInDim S32768 (![] : Fin 0 → Fin S32768.rank)
  bcast_S163840_S163840x1_0 : S163840.BroadcastsInDim S163840x1 (![0] : Fin 1 → Fin S163840x1.rank)
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  bcast_S163840x1_S163840x512_0_1 : S163840x1.BroadcastsInDim S163840x512 (![0, 1] : Fin 2 → Fin S163840x512.rank)
  slices_S3x512x512_S1x512x512_0_0_0 : S3x512x512.Slices ![0, 0, 0] S1x512x512
  shapeCasts_S1x512x512_S512x512 : S1x512x512.ShapeCasts S512x512
  slices_S3x512x512_S1x512x512_1_0_0 : S3x512x512.Slices ![1, 0, 0] S1x512x512
  slices_S3x512x512_S1x512x512_2_0_0 : S3x512x512.Slices ![2, 0, 0] S1x512x512
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  slices_S2x196608_S1x196608_0_0 : S2x196608.Slices ![0, 0] S1x196608
  shapeCasts_S1x196608_S196608 : S1x196608.ShapeCasts S196608
  concatenates_S196608_S32768_S229376_d0 : Shape.Concatenates [S196608, S32768] S229376 0
  slices_S2x196608_S1x196608_1_0 : S2x196608.Slices ![1, 0] S1x196608
  bcast_S_S229376 : S_.BroadcastsInDim S229376 (![] : Fin 0 → Fin S229376.rank)
  bcast_S229376_S229376x1_0 : S229376.BroadcastsInDim S229376x1 (![0] : Fin 1 → Fin S229376x1.rank)
  bcast_S229376x1_S229376x512_0_1 : S229376x1.BroadcastsInDim S229376x512 (![0, 1] : Fin 2 → Fin S229376x512.rank)
  concatenates_S32768x128_S32768x128_S32768x256_d1 : Shape.Concatenates [S32768x128, S32768x128] S32768x256 1
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  scatter_S32768_S163840x1_S163840_n_0_0_1_wf : ScatterDims.WF S32768 S163840x1 S163840 [] [0] [0] 1
  gather_S32768_S163840x1_S163840_n_0_n_n_0_1_1_wf : GatherDims.WF S32768 S163840x1 S163840 [] [0] [] [0] [] 1 ![1]
  dot_S32768x78_S78x512_S32768x512_1_0_0_1_n_n_wf : DotDims.WF S32768x78 S78x512 S32768x512 [1] [0] [0] [1] [] []
  gather_S32768x512_S163840x1_S163840x512_1_0_n_n_0_1_1512_wf : GatherDims.WF S32768x512 S163840x1 S163840x512 [1] [0] [] [0] [] 1 ![1, 512]
  scatter_S32768x512_S163840x1_S163840x512_1_0_0_1_wf : ScatterDims.WF S32768x512 S163840x1 S163840x512 [1] [0] [0] 1
  dot_S32768x512_S512x512_S32768x512_1_0_0_1_n_n_wf : DotDims.WF S32768x512 S512x512 S32768x512 [1] [0] [0] [1] [] []
  dot_S32768x512_S512x128_S32768x128_1_0_0_1_n_n_wf : DotDims.WF S32768x512 S512x128 S32768x128 [1] [0] [0] [1] [] []
  scatter_S32768_S229376x1_S229376_n_0_0_1_wf : ScatterDims.WF S32768 S229376x1 S229376 [] [0] [0] 1
  gather_S32768_S229376x1_S229376_n_0_n_n_0_1_1_wf : GatherDims.WF S32768 S229376x1 S229376 [] [0] [] [0] [] 1 ![1]
  dot_S32768x54_S54x512_S32768x512_1_0_0_1_n_n_wf : DotDims.WF S32768x54 S54x512 S32768x512 [1] [0] [0] [1] [] []
  gather_S32768x512_S229376x1_S229376x512_1_0_n_n_0_1_1512_wf : GatherDims.WF S32768x512 S229376x1 S229376x512 [1] [0] [] [0] [] 1 ![1, 512]
  scatter_S32768x512_S229376x1_S229376x512_1_0_0_1_wf : ScatterDims.WF S32768x512 S229376x1 S229376x512 [1] [0] [0] 1
  dot_S32768x256_S256x1024_S32768x1024_1_0_0_1_n_n_wf : DotDims.WF S32768x256 S256x1024 S32768x1024 [1] [0] [0] [1] [] []
  dot_S32768x1024_S1024x512_S32768x512_1_0_0_1_n_n_wf : DotDims.WF S32768x1024 S1024x512 S32768x512 [1] [0] [0] [1] [] []
  dot_S32768x512_S512x1_S32768x1_1_0_0_1_n_n_wf : DotDims.WF S32768x512 S512x1 S32768x1 [1] [0] [0] [1] [] []

variable [Facts₀]

def scatter_S32768_S163840x1_S163840_n_0_0_1 : ScatterDims S32768 S163840x1 S163840 where
  updateWindowDims := []
  insertedWindowDims := [0]
  scatterDimsToOperandDims := [0]
  indexVectorDim := 1
  wf := scatter_S32768_S163840x1_S163840_n_0_0_1_wf
def gather_S32768_S163840x1_S163840_n_0_n_n_0_1_1 : GatherDims S32768 S163840x1 S163840 where
  offsetDims := []
  collapsedSliceDims := [0]
  operandBatchingDims := []
  startIndicesBatchingDims := []
  startIndexMap := [0]
  indexVectorDim := 1
  sliceSizes := ![1]
  wf := gather_S32768_S163840x1_S163840_n_0_n_n_0_1_1_wf
def dot_S32768x78_S78x512_S32768x512_1_0_0_1_n_n : DotDims S32768x78 S78x512 S32768x512 where
  lhsContracting := [1]
  rhsContracting := [0]
  lhsNonContracting := [0]
  rhsNonContracting := [1]
  lhsBatch := []
  rhsBatch := []
  wf := dot_S32768x78_S78x512_S32768x512_1_0_0_1_n_n_wf
def gather_S32768x512_S163840x1_S163840x512_1_0_n_n_0_1_1512 : GatherDims S32768x512 S163840x1 S163840x512 where
  offsetDims := [1]
  collapsedSliceDims := [0]
  operandBatchingDims := []
  startIndicesBatchingDims := []
  startIndexMap := [0]
  indexVectorDim := 1
  sliceSizes := ![1, 512]
  wf := gather_S32768x512_S163840x1_S163840x512_1_0_n_n_0_1_1512_wf
def scatter_S32768x512_S163840x1_S163840x512_1_0_0_1 : ScatterDims S32768x512 S163840x1 S163840x512 where
  updateWindowDims := [1]
  insertedWindowDims := [0]
  scatterDimsToOperandDims := [0]
  indexVectorDim := 1
  wf := scatter_S32768x512_S163840x1_S163840x512_1_0_0_1_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def dot_S32768x512_S512x128_S32768x128_1_0_0_1_n_n : DotDims S32768x512 S512x128 S32768x128 where
  lhsContracting := [1]
  rhsContracting := [0]
  lhsNonContracting := [0]
  rhsNonContracting := [1]
  lhsBatch := []
  rhsBatch := []
  wf := dot_S32768x512_S512x128_S32768x128_1_0_0_1_n_n_wf
def scatter_S32768_S229376x1_S229376_n_0_0_1 : ScatterDims S32768 S229376x1 S229376 where
  updateWindowDims := []
  insertedWindowDims := [0]
  scatterDimsToOperandDims := [0]
  indexVectorDim := 1
  wf := scatter_S32768_S229376x1_S229376_n_0_0_1_wf
def gather_S32768_S229376x1_S229376_n_0_n_n_0_1_1 : GatherDims S32768 S229376x1 S229376 where
  offsetDims := []
  collapsedSliceDims := [0]
  operandBatchingDims := []
  startIndicesBatchingDims := []
  startIndexMap := [0]
  indexVectorDim := 1
  sliceSizes := ![1]
  wf := gather_S32768_S229376x1_S229376_n_0_n_n_0_1_1_wf
def dot_S32768x54_S54x512_S32768x512_1_0_0_1_n_n : DotDims S32768x54 S54x512 S32768x512 where
  lhsContracting := [1]
  rhsContracting := [0]
  lhsNonContracting := [0]
  rhsNonContracting := [1]
  lhsBatch := []
  rhsBatch := []
  wf := dot_S32768x54_S54x512_S32768x512_1_0_0_1_n_n_wf
def gather_S32768x512_S229376x1_S229376x512_1_0_n_n_0_1_1512 : GatherDims S32768x512 S229376x1 S229376x512 where
  offsetDims := [1]
  collapsedSliceDims := [0]
  operandBatchingDims := []
  startIndicesBatchingDims := []
  startIndexMap := [0]
  indexVectorDim := 1
  sliceSizes := ![1, 512]
  wf := gather_S32768x512_S229376x1_S229376x512_1_0_n_n_0_1_1512_wf
def scatter_S32768x512_S229376x1_S229376x512_1_0_0_1 : ScatterDims S32768x512 S229376x1 S229376x512 where
  updateWindowDims := [1]
  insertedWindowDims := [0]
  scatterDimsToOperandDims := [0]
  indexVectorDim := 1
  wf := scatter_S32768x512_S229376x1_S229376x512_1_0_0_1_wf
def dot_S32768x256_S256x1024_S32768x1024_1_0_0_1_n_n : DotDims S32768x256 S256x1024 S32768x1024 where
  lhsContracting := [1]
  rhsContracting := [0]
  lhsNonContracting := [0]
  rhsNonContracting := [1]
  lhsBatch := []
  rhsBatch := []
  wf := dot_S32768x256_S256x1024_S32768x1024_1_0_0_1_n_n_wf
def dot_S32768x1024_S1024x512_S32768x512_1_0_0_1_n_n : DotDims S32768x1024 S1024x512 S32768x512 where
  lhsContracting := [1]
  rhsContracting := [0]
  lhsNonContracting := [0]
  rhsNonContracting := [1]
  lhsBatch := []
  rhsBatch := []
  wf := dot_S32768x1024_S1024x512_S32768x512_1_0_0_1_n_n_wf
def dot_S32768x512_S512x1_S32768x1_1_0_0_1_n_n : DotDims S32768x512 S512x1 S32768x1 where
  lhsContracting := [1]
  rhsContracting := [0]
  lhsNonContracting := [0]
  rhsNonContracting := [1]
  lhsBatch := []
  rhsBatch := []
  wf := dot_S32768x512_S512x1_S32768x1_1_0_0_1_n_n_wf

class Facts : Prop extends Facts₀ where

variable [Facts]
-- ==== Proof.K.Rg0.lean ====
/-
  One kernel region of the program, number 0: that its body, called by the pipeline at any grid point on the
  staging buffers holding the input windows' blocks, terminates without a fault, leaves the inputs' buffers as
  they were and writes the output window's buffer whole with the body's one value of those blocks; and the
  proof data the pipeline's run is stated over (the arrays as the region finds them, each window's buffer after
  the body at each point).
-/
import proofs.«109784_j28140625724052_1_alg».proof.Proof.Gen.Kernel.Launch
import proofs.«109784_j28140625724052_1_alg».proof.Proof.Gen.Kernel.Skeleton
import proofs.«109784_j28140625724052_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 0: the kernel `cc0__linear_relu_kernel` on the region's entry contents `V` -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, fetched there or kept from an earlier
    point at which the block index was the same. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds the window's block at every point, fetched there or kept from an earlier
    point at which the block index was the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds the window's block at every point, fetched there or kept from an earlier
    point at which the block index was the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole of a `S1024x78` buffer as a rectangle: what the body loads and stores. -/
abbrev r0_S1024x78 : Rect S1024x78 := Rect.unit (s := S1024x78) ![0, 0] S1024x78.size inb_S1024x78_S1024x78_0_0
/-- The whole of a `S78x512` buffer as a rectangle: what the body loads and stores. -/
abbrev r0_S78x512 : Rect S78x512 := Rect.unit (s := S78x512) ![0, 0] S78x512.size inb_S78x512_S78x512_0_0
/-- The whole of a `S1x512` buffer as a rectangle: what the body loads and stores. -/
abbrev r0_S1x512 : Rect S1x512 := Rect.unit (s := S1x512) ![0, 0] S1x512.size inb_S1x512_S1x512_0_0
/-- The whole of a `S1024x512` buffer as a rectangle: what the body loads and stores. -/
abbrev r0_S1024x512 : Rect S1024x512 := Rect.unit (s := S1024x512) ![0, 0] S1024x512.size inb_S1024x512_S1024x512_0_0

/-- The output window's staging buffer after the body: the body's one value of the input blocks, stored whole. -/
def out0_3 (x0 : Vec F S1024x78 .f32) (x1 : Vec F S78x512 .f32) (x2 : Vec F S1x512 .f32) : Vec F S1024x512 .f32 :=
  View.canon [⟨r0_S1024x512, k0_pay1 (View.ld x0 r0_S1024x78) (View.ld x1 r0_S78x512) (View.ld x2 r0_S1x512)⟩]

/-- The one store covers the buffer. -/
theorem cover0_3 (p0 : Vec F S1024x512 .f32) (y : S1024x512.Idx) :
    ∃ pc ∈ ([⟨r0_S1024x512, p0⟩] : List (View.Piece (Elt F) S1024x512 .f32)), y ∈ pc.1.set :=
  View.cover_of_tiled [⟨r0_S1024x512, p0⟩] S1024x512.size (by rfl) y

set_option maxHeartbeats 1000000 in
/-- The body on whole staging memrefs, the inputs' holding `x_j` and the output's anything, runs to a continuation
    that holds the inputs' unchanged and the output's at `out0_3` of the inputs. -/
theorem sound_kernel0 (c : Dev nD) (E : Set ℕ) (i : grid0.Coords) (arg1 : Memref sig .tc .vmem S1024x78 .f32) (harg1 : arg1.IsWhole) (arg2 : Memref sig .tc .vmem S78x512 .f32) (harg2 : arg2.IsWhole) (arg3 : Memref sig .tc .vmem S1x512 .f32) (harg3 : arg3.IsWhole) (arg4 : Memref sig .tc .vmem S1024x512 .f32) (harg4 : arg4.IsWhole)
    (x0 : Vec F S1024x78 .f32) (x1 : Vec F S78x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_relu_kernel i arg1 harg1 arg2 harg2 arg3 harg3 arg4 harg4) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core `c`: the arrays as the region finds them; after the body at point `t` each input's
    buffer at its block and the output's at `out0_3` of the input blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Rg

end
-- ==== Proof.K.Rg1.lean ====
/-
  One kernel region of the program, number 1: that its body, called by the pipeline at any grid point on the
  staging buffers holding the input windows' blocks, terminates without a fault, leaves the inputs' buffers as
  they were and writes the output window's buffer whole with the body's one value of those blocks; and the
  proof data the pipeline's run is stated over (the arrays as the region finds them, each window's buffer after
  the body at each point).
-/
import proofs.«109784_j28140625724052_1_alg».proof.Proof.Gen.Kernel.Launch
import proofs.«109784_j28140625724052_1_alg».proof.Proof.Gen.Kernel.Skeleton
import proofs.«109784_j28140625724052_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 1: the kernel `cc1__gcnii_kernel` on the region's entry contents `V` -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, fetched there or kept from an earlier
    point at which the block index was the same. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block at every point, fetched there or kept from an earlier
    point at which the block index was the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block at every point, fetched there or kept from an earlier
    point at which the block index was the same. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block at every point, fetched there or kept from an earlier
    point at which the block index was the same. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole of a `S1024x512` buffer as a rectangle: what the body loads and stores. -/
abbrev r1_S1024x512 : Rect S1024x512 := Rect.unit (s := S1024x512) ![0, 0] S1024x512.size inb_S1024x512_S1024x512_0_0
/-- The whole of a `S512x512` buffer as a rectangle: what the body loads and stores. -/
abbrev r1_S512x512 : Rect S512x512 := Rect.unit (s := S512x512) ![0, 0] S512x512.size inb_S512x512_S512x512_0_0

/-- The output window's staging buffer after the body: the body's one value of the input blocks, stored whole. -/
def out1_4 (x0 : Vec F S1024x512 .f32) (x1 : Vec F S1024x512 .f32) (x2 : Vec F S1024x512 .f32) (x3 : Vec F S512x512 .f32) : Vec F S1024x512 .f32 :=
  View.canon [⟨r1_S1024x512, k1_pay1 (View.ld x0 r1_S1024x512) (View.ld x1 r1_S1024x512) (View.ld x2 r1_S1024x512) (View.ld x3 r1_S512x512)⟩]

/-- The one store covers the buffer. -/
theorem cover1_4 (p0 : Vec F S1024x512 .f32) (y : S1024x512.Idx) :
    ∃ pc ∈ ([⟨r1_S1024x512, p0⟩] : List (View.Piece (Elt F) S1024x512 .f32)), y ∈ pc.1.set :=
  View.cover_of_tiled [⟨r1_S1024x512, p0⟩] S1024x512.size (by rfl) y

set_option maxHeartbeats 1000000 in
/-- The body on whole staging memrefs, the inputs' holding `x_j` and the output's anything, runs to a continuation
    that holds the inputs' unchanged and the output's at `out1_4` of the inputs. -/
theorem sound_kernel1 (c : Dev nD) (E : Set ℕ) (i : grid1.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x512 .f32) (harg5 : arg5.IsWhole)
    (x0 : Vec F S1024x512 .f32) (x1 : Vec F S1024x512 .f32) (x2 : Vec F S1024x512 .f32) (x3 : Vec F S512x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__gcnii_kernel i arg1 harg1 arg2 harg2 arg3 harg3 arg4 harg4 arg5 harg5) K := by
  simp only [cc1__gcnii_kernel_eq_skeleton]; unfold cc1__gcnii_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The region's proof data on core `c`: the arrays as the region finds them; after the body at point `t` each input's
    buffer at its block and the output's at `out1_4` of the input blocks; the invariant is the scoped rest and the
    generator register, untouched; nothing owed; full shares,
    except that the two input windows that read one array hold one half of it each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Rg

end
-- ==== Proof.K.Rg2.lean ====
/-
  One kernel region of the program, number 2: that its body, called by the pipeline at any grid point on the
  staging buffers holding the input windows' blocks, terminates without a fault, leaves the inputs' buffers as
  they were and writes the output window's buffer whole with the body's one value of those blocks; and the
  proof data the pipeline's run is stated over (the arrays as the region finds them, each window's buffer after
  the body at each point).
-/
import proofs.«109784_j28140625724052_1_alg».proof.Proof.Gen.Kernel.Launch
import proofs.«109784_j28140625724052_1_alg».proof.Proof.Gen.Kernel.Skeleton
import proofs.«109784_j28140625724052_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 2: the kernel `cc2__gcnii_kernel` on the region's entry contents `V` -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, fetched there or kept from an earlier
    point at which the block index was the same. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds the window's block at every point, fetched there or kept from an earlier
    point at which the block index was the same. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds the window's block at every point, fetched there or kept from an earlier
    point at which the block index was the same. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds the window's block at every point, fetched there or kept from an earlier
    point at which the block index was the same. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole of a `S1024x512` buffer as a rectangle: what the body loads and stores. -/
abbrev r2_S1024x512 : Rect S1024x512 := Rect.unit (s := S1024x512) ![0, 0] S1024x512.size inb_S1024x512_S1024x512_0_0
/-- The whole of a `S512x512` buffer as a rectangle: what the body loads and stores. -/
abbrev r2_S512x512 : Rect S512x512 := Rect.unit (s := S512x512) ![0, 0] S512x512.size inb_S512x512_S512x512_0_0

/-- The output window's staging buffer after the body: the body's one value of the input blocks, stored whole. -/
def out2_4 (x0 : Vec F S1024x512 .f32) (x1 : Vec F S1024x512 .f32) (x2 : Vec F S1024x512 .f32) (x3 : Vec F S512x512 .f32) : Vec F S1024x512 .f32 :=
  View.canon [⟨r2_S1024x512, k2_pay1 (View.ld x0 r2_S1024x512) (View.ld x1 r2_S1024x512) (View.ld x2 r2_S1024x512) (View.ld x3 r2_S512x512)⟩]

/-- The one store covers the buffer. -/
theorem cover2_4 (p0 : Vec F S1024x512 .f32) (y : S1024x512.Idx) :
    ∃ pc ∈ ([⟨r2_S1024x512, p0⟩] : List (View.Piece (Elt F) S1024x512 .f32)), y ∈ pc.1.set :=
  View.cover_of_tiled [⟨r2_S1024x512, p0⟩] S1024x512.size (by rfl) y

set_option maxHeartbeats 1000000 in
/-- The body on whole staging memrefs, the inputs' holding `x_j` and the output's anything, runs to a continuation
    that holds the inputs' unchanged and the output's at `out2_4` of the inputs. -/
theorem sound_kernel2 (c : Dev nD) (E : Set ℕ) (i : grid2.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x512 .f32) (harg5 : arg5.IsWhole)
    (x0 : Vec F S1024x512 .f32) (x1 : Vec F S1024x512 .f32) (x2 : Vec F S1024x512 .f32) (x3 : Vec F S512x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__gcnii_kernel i arg1 harg1 arg2 harg2 arg3 harg3 arg4 harg4 arg5 harg5) K := by
  simp only [cc2__gcnii_kernel_eq_skeleton]; unfold cc2__gcnii_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The region's proof data on core `c`: the arrays as the region finds them; after the body at point `t` each input's
    buffer at its block and the output's at `out2_4` of the input blocks; the invariant is the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Rg

end
-- ==== Proof.K.Rg3.lean ====
/-
  One kernel region of the program, number 3: that its body, called by the pipeline at any grid point on the
  staging buffers holding the input windows' blocks, terminates without a fault, leaves the inputs' buffers as
  they were and writes the output window's buffer whole with the body's one value of those blocks; and the
  proof data the pipeline's run is stated over (the arrays as the region finds them, each window's buffer after
  the body at each point).
-/
import proofs.«109784_j28140625724052_1_alg».proof.Proof.Gen.Kernel.Launch
import proofs.«109784_j28140625724052_1_alg».proof.Proof.Gen.Kernel.Skeleton
import proofs.«109784_j28140625724052_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 3: the kernel `cc3__gcnii_kernel` on the region's entry contents `V` -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the window's block at every point, fetched there or kept from an earlier
    point at which the block index was the same. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds the window's block at every point, fetched there or kept from an earlier
    point at which the block index was the same. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds the window's block at every point, fetched there or kept from an earlier
    point at which the block index was the same. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds the window's block at every point, fetched there or kept from an earlier
    point at which the block index was the same. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The whole of a `S1024x512` buffer as a rectangle: what the body loads and stores. -/
abbrev r3_S1024x512 : Rect S1024x512 := Rect.unit (s := S1024x512) ![0, 0] S1024x512.size inb_S1024x512_S1024x512_0_0
/-- The whole of a `S512x512` buffer as a rectangle: what the body loads and stores. -/
abbrev r3_S512x512 : Rect S512x512 := Rect.unit (s := S512x512) ![0, 0] S512x512.size inb_S512x512_S512x512_0_0

/-- The output window's staging buffer after the body: the body's one value of the input blocks, stored whole. -/
def out3_4 (x0 : Vec F S1024x512 .f32) (x1 : Vec F S1024x512 .f32) (x2 : Vec F S1024x512 .f32) (x3 : Vec F S512x512 .f32) : Vec F S1024x512 .f32 :=
  View.canon [⟨r3_S1024x512, k3_pay1 (View.ld x0 r3_S1024x512) (View.ld x1 r3_S1024x512) (View.ld x2 r3_S1024x512) (View.ld x3 r3_S512x512)⟩]

/-- The one store covers the buffer. -/
theorem cover3_4 (p0 : Vec F S1024x512 .f32) (y : S1024x512.Idx) :
    ∃ pc ∈ ([⟨r3_S1024x512, p0⟩] : List (View.Piece (Elt F) S1024x512 .f32)), y ∈ pc.1.set :=
  View.cover_of_tiled [⟨r3_S1024x512, p0⟩] S1024x512.size (by rfl) y

set_option maxHeartbeats 1000000 in
/-- The body on whole staging memrefs, the inputs' holding `x_j` and the output's anything, runs to a continuation
    that holds the inputs' unchanged and the output's at `out3_4` of the inputs. -/
theorem sound_kernel3 (c : Dev nD) (E : Set ℕ) (i : grid3.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x512 .f32) (harg5 : arg5.IsWhole)
    (x0 : Vec F S1024x512 .f32) (x1 : Vec F S1024x512 .f32) (x2 : Vec F S1024x512 .f32) (x3 : Vec F S512x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__gcnii_kernel i arg1 harg1 arg2 harg2 arg3 harg3 arg4 harg4 arg5 harg5) K := by
  simp only [cc3__gcnii_kernel_eq_skeleton]; unfold cc3__gcnii_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The region's proof data on core `c`: the arrays as the region finds them; after the body at point `t` each input's
    buffer at its block and the output's at `out3_4` of the input blocks; the invariant is the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Rg

end
-- ==== Proof.K.Rg4.lean ====
/-
  One kernel region of the program, number 4: that its body, called by the pipeline at any grid point on the
  staging buffers holding the input windows' blocks, terminates without a fault, leaves the inputs' buffers as
  they were and writes the output window's buffer whole with the body's one value of those blocks; and the
  proof data the pipeline's run is stated over (the arrays as the region finds them, each window's buffer after
  the body at each point).
-/
import proofs.«109784_j28140625724052_1_alg».proof.Proof.Gen.Kernel.Launch
import proofs.«109784_j28140625724052_1_alg».proof.Proof.Gen.Kernel.Skeleton
import proofs.«109784_j28140625724052_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 4: the kernel `cc4__linear_kernel` on the region's entry contents `V` -/

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds the window's block at every point, fetched there or kept from an earlier
    point at which the block index was the same. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds the window's block at every point, fetched there or kept from an earlier
    point at which the block index was the same. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds the window's block at every point, fetched there or kept from an earlier
    point at which the block index was the same. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole of a `S1024x512` buffer as a rectangle: what the body loads and stores. -/
abbrev r4_S1024x512 : Rect S1024x512 := Rect.unit (s := S1024x512) ![0, 0] S1024x512.size inb_S1024x512_S1024x512_0_0
/-- The whole of a `S512x128` buffer as a rectangle: what the body loads and stores. -/
abbrev r4_S512x128 : Rect S512x128 := Rect.unit (s := S512x128) ![0, 0] S512x128.size inb_S512x128_S512x128_0_0
/-- The whole of a `S1x128` buffer as a rectangle: what the body loads and stores. -/
abbrev r4_S1x128 : Rect S1x128 := Rect.unit (s := S1x128) ![0, 0] S1x128.size inb_S1x128_S1x128_0_0
/-- The whole of a `S1024x128` buffer as a rectangle: what the body loads and stores. -/
abbrev r4_S1024x128 : Rect S1024x128 := Rect.unit (s := S1024x128) ![0, 0] S1024x128.size inb_S1024x128_S1024x128_0_0

/-- The output window's staging buffer after the body: the body's one value of the input blocks, stored whole. -/
def out4_3 (x0 : Vec F S1024x512 .f32) (x1 : Vec F S512x128 .f32) (x2 : Vec F S1x128 .f32) : Vec F S1024x128 .f32 :=
  View.canon [⟨r4_S1024x128, k4_pay1 (View.ld x0 r4_S1024x512) (View.ld x1 r4_S512x128) (View.ld x2 r4_S1x128)⟩]

/-- The one store covers the buffer. -/
theorem cover4_3 (p0 : Vec F S1024x128 .f32) (y : S1024x128.Idx) :
    ∃ pc ∈ ([⟨r4_S1024x128, p0⟩] : List (View.Piece (Elt F) S1024x128 .f32)), y ∈ pc.1.set :=
  View.cover_of_tiled [⟨r4_S1024x128, p0⟩] S1024x128.size (by rfl) y

set_option maxHeartbeats 1000000 in
/-- The body on whole staging memrefs, the inputs' holding `x_j` and the output's anything, runs to a continuation
    that holds the inputs' unchanged and the output's at `out4_3` of the inputs. -/
theorem sound_kernel4 (c : Dev nD) (E : Set ℕ) (i : grid4.Coords) (arg1 : Memref sig .tc .vmem S1024x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S1024x128 .f32) (harg4 : arg4.IsWhole)
    (x0 : Vec F S1024x512 .f32) (x1 : Vec F S512x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The region's proof data on core `c`: the arrays as the region finds them; after the body at point `t` each input's
    buffer at its block and the output's at `out4_3` of the input blocks; the invariant is the scoped rest and the
    generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so `sound_kernel4` applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Rg

end
-- ==== Proof.K.Rg5.lean ====
/-
  One kernel region of the program, number 5: that its body, called by the pipeline at any grid point on the
  staging buffers holding the input windows' blocks, terminates without a fault, leaves the inputs' buffers as
  they were and writes the output window's buffer whole with the body's one value of those blocks; and the
  proof data the pipeline's run is stated over (the arrays as the region finds them, each window's buffer after
  the body at each point).
-/
import proofs.«109784_j28140625724052_1_alg».proof.Proof.Gen.Kernel.Launch
import proofs.«109784_j28140625724052_1_alg».proof.Proof.Gen.Kernel.Skeleton
import proofs.«109784_j28140625724052_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 5: the kernel `cc5__linear_relu_kernel` on the region's entry contents `V` -/

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds the window's block at every point, fetched there or kept from an earlier
    point at which the block index was the same. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- An input window's staging buffer holds the window's block at every point, fetched there or kept from an earlier
    point at which the block index was the same. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- An input window's staging buffer holds the window's block at every point, fetched there or kept from an earlier
    point at which the block index was the same. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The whole of a `S1024x54` buffer as a rectangle: what the body loads and stores. -/
abbrev r5_S1024x54 : Rect S1024x54 := Rect.unit (s := S1024x54) ![0, 0] S1024x54.size inb_S1024x54_S1024x54_0_0
/-- The whole of a `S54x512` buffer as a rectangle: what the body loads and stores. -/
abbrev r5_S54x512 : Rect S54x512 := Rect.unit (s := S54x512) ![0, 0] S54x512.size inb_S54x512_S54x512_0_0
/-- The whole of a `S1x512` buffer as a rectangle: what the body loads and stores. -/
abbrev r5_S1x512 : Rect S1x512 := Rect.unit (s := S1x512) ![0, 0] S1x512.size inb_S1x512_S1x512_0_0
/-- The whole of a `S1024x512` buffer as a rectangle: what the body loads and stores. -/
abbrev r5_S1024x512 : Rect S1024x512 := Rect.unit (s := S1024x512) ![0, 0] S1024x512.size inb_S1024x512_S1024x512_0_0

/-- The output window's staging buffer after the body: the body's one value of the input blocks, stored whole. -/
def out5_3 (x0 : Vec F S1024x54 .f32) (x1 : Vec F S54x512 .f32) (x2 : Vec F S1x512 .f32) : Vec F S1024x512 .f32 :=
  View.canon [⟨r5_S1024x512, k5_pay1 (View.ld x0 r5_S1024x54) (View.ld x1 r5_S54x512) (View.ld x2 r5_S1x512)⟩]

/-- The one store covers the buffer. -/
theorem cover5_3 (p0 : Vec F S1024x512 .f32) (y : S1024x512.Idx) :
    ∃ pc ∈ ([⟨r5_S1024x512, p0⟩] : List (View.Piece (Elt F) S1024x512 .f32)), y ∈ pc.1.set :=
  View.cover_of_tiled [⟨r5_S1024x512, p0⟩] S1024x512.size (by rfl) y

set_option maxHeartbeats 1000000 in
/-- The body on whole staging memrefs, the inputs' holding `x_j` and the output's anything, runs to a continuation
    that holds the inputs' unchanged and the output's at `out5_3` of the inputs. -/
theorem sound_kernel5 (c : Dev nD) (E : Set ℕ) (i : grid5.Coords) (arg1 : Memref sig .tc .vmem S1024x54 .f32) (harg1 : arg1.IsWhole) (arg2 : Memref sig .tc .vmem S54x512 .f32) (harg2 : arg2.IsWhole) (arg3 : Memref sig .tc .vmem S1x512 .f32) (harg3 : arg3.IsWhole) (arg4 : Memref sig .tc .vmem S1024x512 .f32) (harg4 : arg4.IsWhole)
    (x0 : Vec F S1024x54 .f32) (x1 : Vec F S54x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__linear_relu_kernel i arg1 harg1 arg2 harg2 arg3 harg3 arg4 harg4) K := by
  simp only [cc5__linear_relu_kernel_eq_skeleton]; unfold cc5__linear_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The region's proof data on core `c`: the arrays as the region finds them; after the body at point `t` each input's
    buffer at its block and the output's at `out5_3` of the input blocks; the invariant is the scoped rest and the
    generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so `sound_kernel5` applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Rg

end
-- ==== Proof.K.Rg6.lean ====
/-
  One kernel region of the program, number 6: that its body, called by the pipeline at any grid point on the
  staging buffers holding the input windows' blocks, terminates without a fault, leaves the inputs' buffers as
  they were and writes the output window's buffer whole with the body's one value of those blocks; and the
  proof data the pipeline's run is stated over (the arrays as the region finds them, each window's buffer after
  the body at each point).
-/
import proofs.«109784_j28140625724052_1_alg».proof.Proof.Gen.Kernel.Launch
import proofs.«109784_j28140625724052_1_alg».proof.Proof.Gen.Kernel.Skeleton
import proofs.«109784_j28140625724052_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 6: the kernel `cc6__gcnii_kernel` on the region's entry contents `V` -/

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's staging buffer holds the window's block at every point, fetched there or kept from an earlier
    point at which the block index was the same. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- An input window's staging buffer holds the window's block at every point, fetched there or kept from an earlier
    point at which the block index was the same. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- An input window's staging buffer holds the window's block at every point, fetched there or kept from an earlier
    point at which the block index was the same. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- An input window's staging buffer holds the window's block at every point, fetched there or kept from an earlier
    point at which the block index was the same. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- The whole of a `S1024x512` buffer as a rectangle: what the body loads and stores. -/
abbrev r6_S1024x512 : Rect S1024x512 := Rect.unit (s := S1024x512) ![0, 0] S1024x512.size inb_S1024x512_S1024x512_0_0
/-- The whole of a `S512x512` buffer as a rectangle: what the body loads and stores. -/
abbrev r6_S512x512 : Rect S512x512 := Rect.unit (s := S512x512) ![0, 0] S512x512.size inb_S512x512_S512x512_0_0

/-- The output window's staging buffer after the body: the body's one value of the input blocks, stored whole. -/
def out6_4 (x0 : Vec F S1024x512 .f32) (x1 : Vec F S1024x512 .f32) (x2 : Vec F S1024x512 .f32) (x3 : Vec F S512x512 .f32) : Vec F S1024x512 .f32 :=
  View.canon [⟨r6_S1024x512, k6_pay1 (View.ld x0 r6_S1024x512) (View.ld x1 r6_S1024x512) (View.ld x2 r6_S1024x512) (View.ld x3 r6_S512x512)⟩]

/-- The one store covers the buffer. -/
theorem cover6_4 (p0 : Vec F S1024x512 .f32) (y : S1024x512.Idx) :
    ∃ pc ∈ ([⟨r6_S1024x512, p0⟩] : List (View.Piece (Elt F) S1024x512 .f32)), y ∈ pc.1.set :=
  View.cover_of_tiled [⟨r6_S1024x512, p0⟩] S1024x512.size (by rfl) y

set_option maxHeartbeats 1000000 in
/-- The body on whole staging memrefs, the inputs' holding `x_j` and the output's anything, runs to a continuation
    that holds the inputs' unchanged and the output's at `out6_4` of the inputs. -/
theorem sound_kernel6 (c : Dev nD) (E : Set ℕ) (i : grid6.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x512 .f32) (harg5 : arg5.IsWhole)
    (x0 : Vec F S1024x512 .f32) (x1 : Vec F S1024x512 .f32) (x2 : Vec F S1024x512 .f32) (x3 : Vec F S512x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out6_4 x0 x1 x2 x3)) -∗ K ⟨⟩))
      ⊢ wp frame (wpE (defs₀ (F := F)) Variants.none c none) E (cc6__gcnii_kernel i arg1 harg1 arg2 harg2 arg3 harg3 arg4 harg4 arg5 harg5) K := by
  simp only [cc6__gcnii_kernel_eq_skeleton]; unfold cc6__gcnii_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6_4 _)

/-- The region's proof data on core `c`: the arrays as the region finds them; after the body at point `t` each input's
    buffer at its block and the output's at `out6_4` of the input blocks; the invariant is the scoped rest and the
    generator register, untouched; nothing owed; full shares,
    except that the two input windows that read one array hold one half of it each. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6_4 (iblk6 V c 0 t) (iblk6 V c 1 t) (iblk6 V c 2 t) (iblk6 V c 3 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

/-- The body at any point: the inputs' memrefs hold their blocks, so `sound_kernel6` applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ _ _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Rg

end
-- ==== Proof.K.Rg7.lean ====
/-
  One kernel region of the program, number 7: that its body, called by the pipeline at any grid point on the
  staging buffers holding the input windows' blocks, terminates without a fault, leaves the inputs' buffers as
  they were and writes the output window's buffer whole with the body's one value of those blocks; and the
  proof data the pipeline's run is stated over (the arrays as the region finds them, each window's buffer after
  the body at each point).
-/
import proofs.«109784_j28140625724052_1_alg».proof.Proof.Gen.Kernel.Launch
import proofs.«109784_j28140625724052_1_alg».proof.Proof.Gen.Kernel.Skeleton
import proofs.«109784_j28140625724052_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 7: the kernel `cc7__gcnii_kernel` on the region's entry contents `V` -/

/-- Window `w`'s block at grid point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's staging buffer holds the window's block at every point, fetched there or kept from an earlier
    point at which the block index was the same. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- An input window's staging buffer holds the window's block at every point, fetched there or kept from an earlier
    point at which the block index was the same. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- An input window's staging buffer holds the window's block at every point, fetched there or kept from an earlier
    point at which the block index was the same. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- An input window's staging buffer holds the window's block at every point, fetched there or kept from an earlier
    point at which the block index was the same. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- The whole of a `S1024x512` buffer as a rectangle: what the body loads and stores. -/
abbrev r7_S1024x512 : Rect S1024x512 := Rect.unit (s := S1024x512) ![0, 0] S1024x512.size inb_S1024x512_S1024x512_0_0
/-- The whole of a `S512x512` buffer as a rectangle: what the body loads and stores. -/
abbrev r7_S512x512 : Rect S512x512 := Rect.unit (s := S512x512) ![0, 0] S512x512.size inb_S512x512_S512x512_0_0

/-- The output window's staging buffer after the body: the body's one value of the input blocks, stored whole. -/
def out7_4 (x0 : Vec F S1024x512 .f32) (x1 : Vec F S1024x512 .f32) (x2 : Vec F S1024x512 .f32) (x3 : Vec F S512x512 .f32) : Vec F S1024x512 .f32 :=
  View.canon [⟨r7_S1024x512, k7_pay1 (View.ld x0 r7_S1024x512) (View.ld x1 r7_S1024x512) (View.ld x2 r7_S1024x512) (View.ld x3 r7_S512x512)⟩]

/-- The one store covers the buffer. -/
theorem cover7_4 (p0 : Vec F S1024x512 .f32) (y : S1024x512.Idx) :
    ∃ pc ∈ ([⟨r7_S1024x512, p0⟩] : List (View.Piece (Elt F) S1024x512 .f32)), y ∈ pc.1.set :=
  View.cover_of_tiled [⟨r7_S1024x512, p0⟩] S1024x512.size (by rfl) y

set_option maxHeartbeats 1000000 in
/-- The body on whole staging memrefs, the inputs' holding `x_j` and the output's anything, runs to a continuation
    that holds the inputs' unchanged and the output's at `out7_4` of the inputs. -/
theorem sound_kernel7 (c : Dev nD) (E : Set ℕ) (i : grid7.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x512 .f32) (harg5 : arg5.IsWhole)
    (x0 : Vec F S1024x512 .f32) (x1 : Vec F S1024x512 .f32) (x2 : Vec F S1024x512 .f32) (x3 : Vec F S512x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out7_4 x0 x1 x2 x3)) -∗ K ⟨⟩))
      ⊢ wp frame (wpE (defs₀ (F := F)) Variants.none c none) E (cc7__gcnii_kernel i arg1 harg1 arg2 harg2 arg3 harg3 arg4 harg4 arg5 harg5) K := by
  simp only [cc7__gcnii_kernel_eq_skeleton]; unfold cc7__gcnii_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover7_4 _)

/-- The region's proof data on core `c`: the arrays as the region finds them; after the body at point `t` each input's
    buffer at its block and the output's at `out7_4` of the input blocks; the invariant is the scoped rest and the
    generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (iblk7 V c 0 t) (iblk7 V c 1 t) (iblk7 V c 2 t) (iblk7 V c 3 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = out7_4 (iblk7 V c 0 t) (iblk7 V c 1 t) (iblk7 V c 2 t) (iblk7 V c 3 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

/-- The body at any point: the inputs' memrefs hold their blocks, so `sound_kernel7` applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ _ _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Rg

end
-- ==== Proof.K.Rg8.lean ====
/-
  One kernel region of the program, number 8: that its body, called by the pipeline at any grid point on the
  staging buffers holding the input windows' blocks, terminates without a fault, leaves the inputs' buffers as
  they were and writes the output window's buffer whole with the body's one value of those blocks; and the
  proof data the pipeline's run is stated over (the arrays as the region finds them, each window's buffer after
  the body at each point).
-/
import proofs.«109784_j28140625724052_1_alg».proof.Proof.Gen.Kernel.Launch
import proofs.«109784_j28140625724052_1_alg».proof.Proof.Gen.Kernel.Skeleton
import proofs.«109784_j28140625724052_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 8: the kernel `cc8__gcnii_kernel` on the region's entry contents `V` -/

/-- Window `w`'s block at grid point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's staging buffer holds the window's block at every point, fetched there or kept from an earlier
    point at which the block index was the same. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- An input window's staging buffer holds the window's block at every point, fetched there or kept from an earlier
    point at which the block index was the same. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- An input window's staging buffer holds the window's block at every point, fetched there or kept from an earlier
    point at which the block index was the same. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- An input window's staging buffer holds the window's block at every point, fetched there or kept from an earlier
    point at which the block index was the same. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- The whole of a `S1024x512` buffer as a rectangle: what the body loads and stores. -/
abbrev r8_S1024x512 : Rect S1024x512 := Rect.unit (s := S1024x512) ![0, 0] S1024x512.size inb_S1024x512_S1024x512_0_0
/-- The whole of a `S512x512` buffer as a rectangle: what the body loads and stores. -/
abbrev r8_S512x512 : Rect S512x512 := Rect.unit (s := S512x512) ![0, 0] S512x512.size inb_S512x512_S512x512_0_0

/-- The output window's staging buffer after the body: the body's one value of the input blocks, stored whole. -/
def out8_4 (x0 : Vec F S1024x512 .f32) (x1 : Vec F S1024x512 .f32) (x2 : Vec F S1024x512 .f32) (x3 : Vec F S512x512 .f32) : Vec F S1024x512 .f32 :=
  View.canon [⟨r8_S1024x512, k8_pay1 (View.ld x0 r8_S1024x512) (View.ld x1 r8_S1024x512) (View.ld x2 r8_S1024x512) (View.ld x3 r8_S512x512)⟩]

/-- The one store covers the buffer. -/
theorem cover8_4 (p0 : Vec F S1024x512 .f32) (y : S1024x512.Idx) :
    ∃ pc ∈ ([⟨r8_S1024x512, p0⟩] : List (View.Piece (Elt F) S1024x512 .f32)), y ∈ pc.1.set :=
  View.cover_of_tiled [⟨r8_S1024x512, p0⟩] S1024x512.size (by rfl) y

set_option maxHeartbeats 1000000 in
/-- The body on whole staging memrefs, the inputs' holding `x_j` and the output's anything, runs to a continuation
    that holds the inputs' unchanged and the output's at `out8_4` of the inputs. -/
theorem sound_kernel8 (c : Dev nD) (E : Set ℕ) (i : grid8.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x512 .f32) (harg5 : arg5.IsWhole)
    (x0 : Vec F S1024x512 .f32) (x1 : Vec F S1024x512 .f32) (x2 : Vec F S1024x512 .f32) (x3 : Vec F S512x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out8_4 x0 x1 x2 x3)) -∗ K ⟨⟩))
      ⊢ wp frame (wpE (defs₀ (F := F)) Variants.none c none) E (cc8__gcnii_kernel i arg1 harg1 arg2 harg2 arg3 harg3 arg4 harg4 arg5 harg5) K := by
  simp only [cc8__gcnii_kernel_eq_skeleton]; unfold cc8__gcnii_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover8_4 _)

/-- The region's proof data on core `c`: the arrays as the region finds them; after the body at point `t` each input's
    buffer at its block and the output's at `out8_4` of the input blocks; the invariant is the scoped rest and the
    generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => out8_4 (iblk8 V c 0 t) (iblk8 V c 1 t) (iblk8 V c 2 t) (iblk8 V c 3 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = out8_4 (iblk8 V c 0 t) (iblk8 V c 1 t) (iblk8 V c 2 t) (iblk8 V c 3 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

/-- The body at any point: the inputs' memrefs hold their blocks, so `sound_kernel8` applies; the invariant and the
    core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).Φ t.succ = (dat8 V c).Φ t.castSucc from rfl,
    show (dat8 V c).owesAt () t.succ = (dat8 V c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ _ _ _ _ _ _ _ _ _ _ _ (iblk8 V c 0 t) (iblk8 V c 1 t) (iblk8 V c 2 t) (iblk8 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Rg

end
-- ==== Proof.K.Rg9.lean ====
/-
  One kernel region of the program, number 9: that its body, called by the pipeline at any grid point on the
  staging buffers holding the input windows' blocks, terminates without a fault, leaves the inputs' buffers as
  they were and writes the output window's buffer whole with the body's one value of those blocks; and the
  proof data the pipeline's run is stated over (the arrays as the region finds them, each window's buffer after
  the body at each point).
-/
import proofs.«109784_j28140625724052_1_alg».proof.Proof.Gen.Kernel.Launch
import proofs.«109784_j28140625724052_1_alg».proof.Proof.Gen.Kernel.Skeleton
import proofs.«109784_j28140625724052_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 9: the kernel `cc9__linear_kernel` on the region's entry contents `V` -/

/-- Window `w`'s block at grid point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's staging buffer holds the window's block at every point, fetched there or kept from an earlier
    point at which the block index was the same. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- An input window's staging buffer holds the window's block at every point, fetched there or kept from an earlier
    point at which the block index was the same. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- An input window's staging buffer holds the window's block at every point, fetched there or kept from an earlier
    point at which the block index was the same. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- The whole of a `S1024x512` buffer as a rectangle: what the body loads and stores. -/
abbrev r9_S1024x512 : Rect S1024x512 := Rect.unit (s := S1024x512) ![0, 0] S1024x512.size inb_S1024x512_S1024x512_0_0
/-- The whole of a `S512x128` buffer as a rectangle: what the body loads and stores. -/
abbrev r9_S512x128 : Rect S512x128 := Rect.unit (s := S512x128) ![0, 0] S512x128.size inb_S512x128_S512x128_0_0
/-- The whole of a `S1x128` buffer as a rectangle: what the body loads and stores. -/
abbrev r9_S1x128 : Rect S1x128 := Rect.unit (s := S1x128) ![0, 0] S1x128.size inb_S1x128_S1x128_0_0
/-- The whole of a `S1024x128` buffer as a rectangle: what the body loads and stores. -/
abbrev r9_S1024x128 : Rect S1024x128 := Rect.unit (s := S1024x128) ![0, 0] S1024x128.size inb_S1024x128_S1024x128_0_0

/-- The output window's staging buffer after the body: the body's one value of the input blocks, stored whole. -/
def out9_3 (x0 : Vec F S1024x512 .f32) (x1 : Vec F S512x128 .f32) (x2 : Vec F S1x128 .f32) : Vec F S1024x128 .f32 :=
  View.canon [⟨r9_S1024x128, k9_pay1 (View.ld x0 r9_S1024x512) (View.ld x1 r9_S512x128) (View.ld x2 r9_S1x128)⟩]

/-- The one store covers the buffer. -/
theorem cover9_3 (p0 : Vec F S1024x128 .f32) (y : S1024x128.Idx) :
    ∃ pc ∈ ([⟨r9_S1024x128, p0⟩] : List (View.Piece (Elt F) S1024x128 .f32)), y ∈ pc.1.set :=
  View.cover_of_tiled [⟨r9_S1024x128, p0⟩] S1024x128.size (by rfl) y

set_option maxHeartbeats 1000000 in
/-- The body on whole staging memrefs, the inputs' holding `x_j` and the output's anything, runs to a continuation
    that holds the inputs' unchanged and the output's at `out9_3` of the inputs. -/
theorem sound_kernel9 (c : Dev nD) (E : Set ℕ) (i : grid9.Coords) (arg1 : Memref sig .tc .vmem S1024x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S1024x128 .f32) (harg4 : arg4.IsWhole)
    (x0 : Vec F S1024x512 .f32) (x1 : Vec F S512x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out9_3 x0 x1 x2)) -∗ K ⟨⟩))
      ⊢ wp frame (wpE (defs₀ (F := F)) Variants.none c none) E (cc9__linear_kernel i arg1 harg1 arg2 harg2 arg3 harg3 arg4 harg4) K := by
  simp only [cc9__linear_kernel_eq_skeleton]; unfold cc9__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-- The region's proof data on core `c`: the arrays as the region finds them; after the body at point `t` each input's
    buffer at its block and the output's at `out9_3` of the input blocks; the invariant is the scoped rest and the
    generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' memrefs hold their blocks, so `sound_kernel9` applies; the invariant and the
    core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Rg

end
-- ==== Proof.K.Rg10.lean ====
/-
  One kernel region of the program, number 10: that its body, called by the pipeline at any grid point on the
  staging buffers holding the input windows' blocks, terminates without a fault, leaves the inputs' buffers as
  they were and writes the output window's buffer whole with the body's one value of those blocks; and the
  proof data the pipeline's run is stated over (the arrays as the region finds them, each window's buffer after
  the body at each point).
-/
import proofs.«109784_j28140625724052_1_alg».proof.Proof.Gen.Kernel.Launch
import proofs.«109784_j28140625724052_1_alg».proof.Proof.Gen.Kernel.Skeleton
import proofs.«109784_j28140625724052_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 10: the kernel `cc10__mlp_head_kernel` on the region's entry contents `V` -/

/-- Window `w`'s block at grid point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's staging buffer holds the window's block at every point, fetched there or kept from an earlier
    point at which the block index was the same. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- An input window's staging buffer holds the window's block at every point, fetched there or kept from an earlier
    point at which the block index was the same. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- An input window's staging buffer holds the window's block at every point, fetched there or kept from an earlier
    point at which the block index was the same. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- An input window's staging buffer holds the window's block at every point, fetched there or kept from an earlier
    point at which the block index was the same. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- An input window's staging buffer holds the window's block at every point, fetched there or kept from an earlier
    point at which the block index was the same. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- An input window's staging buffer holds the window's block at every point, fetched there or kept from an earlier
    point at which the block index was the same. -/
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

/-- An input window's staging buffer holds the window's block at every point, fetched there or kept from an earlier
    point at which the block index was the same. -/
theorem before10_6_of {c : Dev nD} (dat : Dat τ (Elt F) Unit ℕ (UR sig nD τ) ℕ cfg10 c) (hA : dat.A 6 = V c (Pipeline.arrRef spec10 6))
    (hafter : ∀ t, dat.after 6 t = iblk10 V c 6 t) (t : Fin cfg10.N) (d) : dat.before 6 t d = iblk10 V c 6 t :=
  (dat.before_in_eq_fetched 6 rfl (fun _ => rfl) (fun _ _ _ => rfl) (fun t => by rw [hafter]; unfold Dat.blockOf iblk10; rw [hA]; try rfl) t d).trans
    (by unfold Dat.fetched Dat.blockOf iblk10; rw [hA]; try rfl)

/-- An input window's staging buffer holds the window's block at every point, fetched there or kept from an earlier
    point at which the block index was the same. -/
theorem before10_7_of {c : Dev nD} (dat : Dat τ (Elt F) Unit ℕ (UR sig nD τ) ℕ cfg10 c) (hA : dat.A 7 = V c (Pipeline.arrRef spec10 7))
    (hafter : ∀ t, dat.after 7 t = iblk10 V c 7 t) (t : Fin cfg10.N) (d) : dat.before 7 t d = iblk10 V c 7 t :=
  (dat.before_in_eq_fetched 7 rfl (fun _ => rfl) (fun _ _ _ => rfl) (fun t => by rw [hafter]; unfold Dat.blockOf iblk10; rw [hA]; try rfl) t d).trans
    (by unfold Dat.fetched Dat.blockOf iblk10; rw [hA]; try rfl)

/-- An input window's staging buffer holds the window's block at every point, fetched there or kept from an earlier
    point at which the block index was the same. -/
theorem before10_8_of {c : Dev nD} (dat : Dat τ (Elt F) Unit ℕ (UR sig nD τ) ℕ cfg10 c) (hA : dat.A 8 = V c (Pipeline.arrRef spec10 8))
    (hafter : ∀ t, dat.after 8 t = iblk10 V c 8 t) (t : Fin cfg10.N) (d) : dat.before 8 t d = iblk10 V c 8 t :=
  (dat.before_in_eq_fetched 8 rfl (fun _ => rfl) (fun _ _ _ => rfl) (fun t => by rw [hafter]; unfold Dat.blockOf iblk10; rw [hA]; try rfl) t d).trans
    (by unfold Dat.fetched Dat.blockOf iblk10; rw [hA]; try rfl)

/-- The whole of a `S1024x128` buffer as a rectangle: what the body loads and stores. -/
abbrev r10_S1024x128 : Rect S1024x128 := Rect.unit (s := S1024x128) ![0, 0] S1024x128.size inb_S1024x128_S1024x128_0_0
/-- The whole of a `S128x1024` buffer as a rectangle: what the body loads and stores. -/
abbrev r10_S128x1024 : Rect S128x1024 := Rect.unit (s := S128x1024) ![0, 0] S128x1024.size inb_S128x1024_S128x1024_0_0
/-- The whole of a `S1x1024` buffer as a rectangle: what the body loads and stores. -/
abbrev r10_S1x1024 : Rect S1x1024 := Rect.unit (s := S1x1024) ![0, 0] S1x1024.size inb_S1x1024_S1x1024_0_0
/-- The whole of a `S1024x512` buffer as a rectangle: what the body loads and stores. -/
abbrev r10_S1024x512 : Rect S1024x512 := Rect.unit (s := S1024x512) ![0, 0] S1024x512.size inb_S1024x512_S1024x512_0_0
/-- The whole of a `S1x512` buffer as a rectangle: what the body loads and stores. -/
abbrev r10_S1x512 : Rect S1x512 := Rect.unit (s := S1x512) ![0, 0] S1x512.size inb_S1x512_S1x512_0_0
/-- The whole of a `S512x1` buffer as a rectangle: what the body loads and stores. -/
abbrev r10_S512x1 : Rect S512x1 := Rect.unit (s := S512x1) ![0, 0] S512x1.size inb_S512x1_S512x1_0_0
/-- The whole of a `S1x1` buffer as a rectangle: what the body loads and stores. -/
abbrev r10_S1x1 : Rect S1x1 := Rect.unit (s := S1x1) ![0, 0] S1x1.size inb_S1x1_S1x1_0_0
/-- The whole of a `S1024x1` buffer as a rectangle: what the body loads and stores. -/
abbrev r10_S1024x1 : Rect S1024x1 := Rect.unit (s := S1024x1) ![0, 0] S1024x1.size inb_S1024x1_S1024x1_0_0

/-- The output window's staging buffer after the body: the body's one value of the input blocks, stored whole. -/
def out10_9 (x0 : Vec F S1024x128 .f32) (x1 : Vec F S1024x128 .f32) (x2 : Vec F S128x1024 .f32) (x3 : Vec F S128x1024 .f32) (x4 : Vec F S1x1024 .f32) (x5 : Vec F S1024x512 .f32) (x6 : Vec F S1x512 .f32) (x7 : Vec F S512x1 .f32) (x8 : Vec F S1x1 .f32) : Vec F S1024x1 .f32 :=
  View.canon [⟨r10_S1024x1, k10_pay1 (k10_pay2 (View.ld x0 r10_S1024x128) (View.ld x1 r10_S1024x128) (View.ld x2 r10_S128x1024) (View.ld x3 r10_S128x1024) (View.ld x4 r10_S1x1024) (View.ld x5 r10_S1024x512) (View.ld x6 r10_S1x512) (View.ld x7 r10_S512x1)) (View.ld x8 r10_S1x1)⟩]

/-- The one store covers the buffer. -/
theorem cover10_9 (p0 : Vec F S1024x1 .f32) (y : S1024x1.Idx) :
    ∃ pc ∈ ([⟨r10_S1024x1, p0⟩] : List (View.Piece (Elt F) S1024x1 .f32)), y ∈ pc.1.set :=
  View.cover_of_tiled [⟨r10_S1024x1, p0⟩] S1024x1.size (by rfl) y

set_option maxHeartbeats 1000000 in
/-- The body on whole staging memrefs, the inputs' holding `x_j` and the output's anything, runs to a continuation
    that holds the inputs' unchanged and the output's at `out10_9` of the inputs. -/
theorem sound_kernel10 (c : Dev nD) (E : Set ℕ) (i : grid10.Coords) (arg1 : Memref sig .tc .vmem S1024x128 .f32) (harg1 : arg1.IsWhole) (arg2 : Memref sig .tc .vmem S1024x128 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x1 .f32) (harg9 : arg9.IsWhole) (arg10 : Memref sig .tc .vmem S1024x1 .f32) (harg10 : arg10.IsWhole)
    (x0 : Vec F S1024x128 .f32) (x1 : Vec F S1024x128 .f32) (x2 : Vec F S128x1024 .f32) (x3 : Vec F S128x1024 .f32) (x4 : Vec F S1x1024 .f32) (x5 : Vec F S1024x512 .f32) (x6 : Vec F S1x512 .f32) (x7 : Vec F S512x1 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out10_9 x0 x1 x2 x3 x4 x5 x6 x7 x8)) -∗ K ⟨⟩))
      ⊢ wp frame (wpE (defs₀ (F := F)) Variants.none c none) E (cc10__mlp_head_kernel i arg1 harg1 arg2 harg2 arg3 harg3 arg4 harg4 arg5 harg5 arg6 harg6 arg7 harg7 arg8 harg8 arg9 harg9 arg10 harg10) K := by
  simp only [cc10__mlp_head_kernel_eq_skeleton]; unfold cc10__mlp_head_kernel_skel
  simp only [k10_part1_eq_skeleton]; unfold k10_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover10_9 _)

/-- The region's proof data on core `c`: the arrays as the region finds them; after the body at point `t` each input's
    buffer at its block and the output's at `out10_9` of the input blocks; the invariant is the scoped rest and the
    generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => iblk10 V c 7 t
    | ⟨8, _⟩ => iblk10 V c 8 t
    | ⟨9, _⟩ => out10_9 (iblk10 V c 0 t) (iblk10 V c 1 t) (iblk10 V c 2 t) (iblk10 V c 3 t) (iblk10 V c 4 t) (iblk10 V c 5 t) (iblk10 V c 6 t) (iblk10 V c 7 t) (iblk10 V c 8 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = iblk10 V c 6 t := by dsimp only [dat10]
theorem after10_7 (c : Dev nD) (t : Fin cfg10.N) : (dat10 V c).after 7 t = iblk10 V c 7 t := by dsimp only [dat10]
theorem after10_8 (c : Dev nD) (t : Fin cfg10.N) : (dat10 V c).after 8 t = iblk10 V c 8 t := by dsimp only [dat10]
theorem after10_9 (c : Dev nD) (t : Fin cfg10.N) : (dat10 V c).after 9 t = out10_9 (iblk10 V c 0 t) (iblk10 V c 1 t) (iblk10 V c 2 t) (iblk10 V c 3 t) (iblk10 V c 4 t) (iblk10 V c 5 t) (iblk10 V c 6 t) (iblk10 V c 7 t) (iblk10 V c 8 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d
theorem before10_6 (c : Dev nD) (t : Fin cfg10.N) (d) : (dat10 V c).before 6 t d = iblk10 V c 6 t :=
  before10_6_of V (dat10 V c) (A_eq10 V c 6) (after10_6 V c) t d
theorem before10_7 (c : Dev nD) (t : Fin cfg10.N) (d) : (dat10 V c).before 7 t d = iblk10 V c 7 t :=
  before10_7_of V (dat10 V c) (A_eq10 V c 7) (after10_7 V c) t d
theorem before10_8 (c : Dev nD) (t : Fin cfg10.N) (d) : (dat10 V c).before 8 t d = iblk10 V c 8 t :=
  before10_8_of V (dat10 V c) (A_eq10 V c 8) (after10_8 V c) t d

/-- What the body is called with at point `t`, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d))
    ∗ (∃ d, owns (c : Thread nD τ) (st10_8 t) fullShare ((dat10 V c).before 8 t d))
    ∗ (∃ d, owns (c : Thread nD τ) (st10_9 t) fullShare ((dat10 V c).before 9 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t)
    ∗ owns (c : Thread nD τ) (st10_7 t) fullShare ((dat10 V c).after 7 t)
    ∗ owns (c : Thread nD τ) (st10_8 t) fullShare ((dat10 V c).after 8 t)
    ∗ owns (c : Thread nD τ) (st10_9 t) fullShare ((dat10 V c).after 9 t))

/-- The body at any point: the inputs' memrefs hold their blocks, so `sound_kernel10` applies; the invariant and the
    core's dues pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5, before10_6, before10_7, before10_8]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7, after10_8, after10_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel10 c Set.univ _ _ _ _ _ _ _ _ _ _ _ _ _ _ _ _ _ _ _ _ _ (iblk10 V c 0 t) (iblk10 V c 1 t) (iblk10 V c 2 t) (iblk10 V c 3 t) (iblk10 V c 4 t) (iblk10 V c 5 t) (iblk10 V c 6 t) (iblk10 V c 7 t) (iblk10 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Rg

end
-- ==== Proof.K.Chain.lean ====
/-
  The buffer contents of one core at every boundary between two items of the program (a stretch of host
  operations, or a kernel region), from the launch to the return: a stretch leaves what its operations compute; a
  region leaves its output array at what the pipeline's write-backs make of it (the proof data's array after the
  last grid point) and every other buffer as it found it. The generated conditional frame is stated over the same
  chain with the regions' results as unknowns; here the unknowns are chosen (`outs`) and the two chains are shown
  equal boundary by boundary. Last, the proof data of all eleven regions as one family.
-/
import proofs.«109784_j28140625724052_1_alg».proof.Proof.K.Rg0
import proofs.«109784_j28140625724052_1_alg».proof.Proof.K.Rg1
import proofs.«109784_j28140625724052_1_alg».proof.Proof.K.Rg2
import proofs.«109784_j28140625724052_1_alg».proof.Proof.K.Rg3
import proofs.«109784_j28140625724052_1_alg».proof.Proof.K.Rg4
import proofs.«109784_j28140625724052_1_alg».proof.Proof.K.Rg5
import proofs.«109784_j28140625724052_1_alg».proof.Proof.K.Rg6
import proofs.«109784_j28140625724052_1_alg».proof.Proof.K.Rg7
import proofs.«109784_j28140625724052_1_alg».proof.Proof.K.Rg8
import proofs.«109784_j28140625724052_1_alg».proof.Proof.K.Rg9
import proofs.«109784_j28140625724052_1_alg».proof.Proof.K.Rg10
import proofs.«109784_j28140625724052_1_alg».proof.Proof.Gen.Kernel.Regions

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A core's buffer contents read at the TensorCore's references: the form the regions' proof data take. -/
abbrev atRefs (W : Dev nD → Valuation τ sig (Elt F)) : (c : Dev nD) → (b : Ref sig .tc) → Buf (Elt F) ((c : Thread nD τ).loc b) :=
  fun c b => W c b

/-- The contents when the first region is entered: the launch memory after the three host stretches before it. -/
abbrev W3 : Dev nD → Valuation τ sig (Elt F) := fun c => V3 m c

/-- What region 0 leaves in its output array: the array after the write-backs of all its grid points. -/
def o4 (c : Dev nD) : Buf (Elt F) ((c : Thread nD τ).loc main_v31) := (dat0 (atRefs (W3 m)) c).arrAt 3 cfg0.N
/-- The contents when region 0 is left. -/
abbrev W4 : Dev nD → Valuation τ sig (Elt F) := fun c => Function.update (W3 m c) main_v31 (o4 m c)
/-- The contents after the host stretch `hostOps1`. -/
abbrev W5 : Dev nD → Valuation τ sig (Elt F) := fun c => StableHlo.after hostOps1 (W4 m c)

/-- What region 1 leaves in its output array: the array after the write-backs of all its grid points. -/
def o6 (c : Dev nD) : Buf (Elt F) ((c : Thread nD τ).loc main_v47) := (dat1 (atRefs (W5 m)) c).arrAt 4 cfg1.N
/-- The contents when region 1 is left. -/
abbrev W6 : Dev nD → Valuation τ sig (Elt F) := fun c => Function.update (W5 m c) main_v47 (o6 m c)
/-- The contents after the host stretch `hostOps2`. -/
abbrev W7 : Dev nD → Valuation τ sig (Elt F) := fun c => StableHlo.after hostOps2 (W6 m c)

/-- What region 2 leaves in its output array: the array after the write-backs of all its grid points. -/
def o8 (c : Dev nD) : Buf (Elt F) ((c : Thread nD τ).loc main_v63) := (dat2 (atRefs (W7 m)) c).arrAt 4 cfg2.N
/-- The contents when region 2 is left. -/
abbrev W8 : Dev nD → Valuation τ sig (Elt F) := fun c => Function.update (W7 m c) main_v63 (o8 m c)
/-- The contents after the host stretch `hostOps3`. -/
abbrev W9 : Dev nD → Valuation τ sig (Elt F) := fun c => StableHlo.after hostOps3 (W8 m c)

/-- What region 3 leaves in its output array: the array after the write-backs of all its grid points. -/
def o10 (c : Dev nD) : Buf (Elt F) ((c : Thread nD τ).loc main_v79) := (dat3 (atRefs (W9 m)) c).arrAt 4 cfg3.N
/-- The contents when region 3 is left. -/
abbrev W10 : Dev nD → Valuation τ sig (Elt F) := fun c => Function.update (W9 m c) main_v79 (o10 m c)
/-- The contents after the host stretch `hostOps4`. -/
abbrev W11 : Dev nD → Valuation τ sig (Elt F) := fun c => StableHlo.after hostOps4 (W10 m c)

/-- What region 4 leaves in its output array: the array after the write-backs of all its grid points. -/
def o12 (c : Dev nD) : Buf (Elt F) ((c : Thread nD τ).loc main_v81) := (dat4 (atRefs (W11 m)) c).arrAt 3 cfg4.N
/-- The contents when region 4 is left. -/
abbrev W12 : Dev nD → Valuation τ sig (Elt F) := fun c => Function.update (W11 m c) main_v81 (o12 m c)
/-- The contents after the host stretch `hostOps5`. -/
abbrev W13 : Dev nD → Valuation τ sig (Elt F) := fun c => StableHlo.after hostOps5 (W12 m c)
/-- The contents after the host stretch `hostOps5_1`. -/
abbrev W14 : Dev nD → Valuation τ sig (Elt F) := fun c => StableHlo.after hostOps5_1 (W13 m c)
/-- The contents after the host stretch `hostOps5_2`. -/
abbrev W15 : Dev nD → Valuation τ sig (Elt F) := fun c => StableHlo.after hostOps5_2 (W14 m c)

/-- What region 5 leaves in its output array: the array after the write-backs of all its grid points. -/
def o16 (c : Dev nD) : Buf (Elt F) ((c : Thread nD τ).loc main_v113) := (dat5 (atRefs (W15 m)) c).arrAt 3 cfg5.N
/-- The contents when region 5 is left. -/
abbrev W16 : Dev nD → Valuation τ sig (Elt F) := fun c => Function.update (W15 m c) main_v113 (o16 m c)
/-- The contents after the host stretch `hostOps6`. -/
abbrev W17 : Dev nD → Valuation τ sig (Elt F) := fun c => StableHlo.after hostOps6 (W16 m c)

/-- What region 6 leaves in its output array: the array after the write-backs of all its grid points. -/
def o18 (c : Dev nD) : Buf (Elt F) ((c : Thread nD τ).loc main_v129) := (dat6 (atRefs (W17 m)) c).arrAt 4 cfg6.N
/-- The contents when region 6 is left. -/
abbrev W18 : Dev nD → Valuation τ sig (Elt F) := fun c => Function.update (W17 m c) main_v129 (o18 m c)
/-- The contents after the host stretch `hostOps7`. -/
abbrev W19 : Dev nD → Valuation τ sig (Elt F) := fun c => StableHlo.after hostOps7 (W18 m c)

/-- What region 7 leaves in its output array: the array after the write-backs of all its grid points. -/
def o20 (c : Dev nD) : Buf (Elt F) ((c : Thread nD τ).loc main_v145) := (dat7 (atRefs (W19 m)) c).arrAt 4 cfg7.N
/-- The contents when region 7 is left. -/
abbrev W20 : Dev nD → Valuation τ sig (Elt F) := fun c => Function.update (W19 m c) main_v145 (o20 m c)
/-- The contents after the host stretch `hostOps8`. -/
abbrev W21 : Dev nD → Valuation τ sig (Elt F) := fun c => StableHlo.after hostOps8 (W20 m c)

/-- What region 8 leaves in its output array: the array after the write-backs of all its grid points. -/
def o22 (c : Dev nD) : Buf (Elt F) ((c : Thread nD τ).loc main_v161) := (dat8 (atRefs (W21 m)) c).arrAt 4 cfg8.N
/-- The contents when region 8 is left. -/
abbrev W22 : Dev nD → Valuation τ sig (Elt F) := fun c => Function.update (W21 m c) main_v161 (o22 m c)
/-- The contents after the host stretch `hostOps9`. -/
abbrev W23 : Dev nD → Valuation τ sig (Elt F) := fun c => StableHlo.after hostOps9 (W22 m c)

/-- What region 9 leaves in its output array: the array after the write-backs of all its grid points. -/
def o24 (c : Dev nD) : Buf (Elt F) ((c : Thread nD τ).loc main_v163) := (dat9 (atRefs (W23 m)) c).arrAt 3 cfg9.N
/-- The contents when region 9 is left. -/
abbrev W24 : Dev nD → Valuation τ sig (Elt F) := fun c => Function.update (W23 m c) main_v163 (o24 m c)
/-- The contents after the host stretch `hostOps10`. -/
abbrev W25 : Dev nD → Valuation τ sig (Elt F) := fun c => StableHlo.after hostOps10 (W24 m c)

/-- What region 10 leaves in its output array: the array after the write-backs of all its grid points. -/
def o26 (c : Dev nD) : Buf (Elt F) ((c : Thread nD τ).loc main_v169) := (dat10 (atRefs (W25 m)) c).arrAt 9 cfg10.N
/-- The contents when region 10 is left. -/
abbrev W26 : Dev nD → Valuation τ sig (Elt F) := fun c => Function.update (W25 m c) main_v169 (o26 m c)

/-- The regions' results, as the generated chain reads them: at a region's exit boundary, that boundary's contents. -/
def outs : Outs (F := F) := fun n r c => match n with
  | 4 => W4 m c r
  | 6 => W6 m c r
  | 8 => W8 m c r
  | 10 => W10 m c r
  | 12 => W12 m c r
  | 16 => W16 m c r
  | 18 => W18 m c r
  | 20 => W20 m c r
  | 22 => W22 m c r
  | 24 => W24 m c r
  | 26 => W26 m c r
  | _ => W3 m c r

theorem outs_4 (c : Dev nD) : outs m 4 main_v31 c = o4 m c := by
  show Function.update (W3 m c) main_v31 (o4 m c) main_v31 = _
  exact Function.update_self _ _ _
theorem outs_6 (c : Dev nD) : outs m 6 main_v47 c = o6 m c := by
  show Function.update (W5 m c) main_v47 (o6 m c) main_v47 = _
  exact Function.update_self _ _ _
theorem outs_8 (c : Dev nD) : outs m 8 main_v63 c = o8 m c := by
  show Function.update (W7 m c) main_v63 (o8 m c) main_v63 = _
  exact Function.update_self _ _ _
theorem outs_10 (c : Dev nD) : outs m 10 main_v79 c = o10 m c := by
  show Function.update (W9 m c) main_v79 (o10 m c) main_v79 = _
  exact Function.update_self _ _ _
theorem outs_12 (c : Dev nD) : outs m 12 main_v81 c = o12 m c := by
  show Function.update (W11 m c) main_v81 (o12 m c) main_v81 = _
  exact Function.update_self _ _ _
theorem outs_16 (c : Dev nD) : outs m 16 main_v113 c = o16 m c := by
  show Function.update (W15 m c) main_v113 (o16 m c) main_v113 = _
  exact Function.update_self _ _ _
theorem outs_18 (c : Dev nD) : outs m 18 main_v129 c = o18 m c := by
  show Function.update (W17 m c) main_v129 (o18 m c) main_v129 = _
  exact Function.update_self _ _ _
theorem outs_20 (c : Dev nD) : outs m 20 main_v145 c = o20 m c := by
  show Function.update (W19 m c) main_v145 (o20 m c) main_v145 = _
  exact Function.update_self _ _ _
theorem outs_22 (c : Dev nD) : outs m 22 main_v161 c = o22 m c := by
  show Function.update (W21 m c) main_v161 (o22 m c) main_v161 = _
  exact Function.update_self _ _ _
theorem outs_24 (c : Dev nD) : outs m 24 main_v163 c = o24 m c := by
  show Function.update (W23 m c) main_v163 (o24 m c) main_v163 = _
  exact Function.update_self _ _ _
theorem outs_26 (c : Dev nD) : outs m 26 main_v169 c = o26 m c := by
  show Function.update (W25 m c) main_v169 (o26 m c) main_v169 = _
  exact Function.update_self _ _ _

/-! The generated chain at `outs` is the chain above. -/
theorem VW4 (c : Dev nD) : V4 m (outs m) c = W4 m c := by
  show Function.update (V3 m c) main_v31 (outs m 4 main_v31 c) = Function.update (W3 m c) main_v31 (o4 m c)
  rw [outs_4]
theorem VW5 (c : Dev nD) : V5 m (outs m) c = W5 m c := by
  show StableHlo.after hostOps1 (V4 m (outs m) c) = StableHlo.after hostOps1 (W4 m c)
  rw [VW4]
theorem VW6 (c : Dev nD) : V6 m (outs m) c = W6 m c := by
  show Function.update (V5 m (outs m) c) main_v47 (outs m 6 main_v47 c) = Function.update (W5 m c) main_v47 (o6 m c)
  rw [outs_6, VW5]
theorem VW7 (c : Dev nD) : V7 m (outs m) c = W7 m c := by
  show StableHlo.after hostOps2 (V6 m (outs m) c) = StableHlo.after hostOps2 (W6 m c)
  rw [VW6]
theorem VW8 (c : Dev nD) : V8 m (outs m) c = W8 m c := by
  show Function.update (V7 m (outs m) c) main_v63 (outs m 8 main_v63 c) = Function.update (W7 m c) main_v63 (o8 m c)
  rw [outs_8, VW7]
theorem VW9 (c : Dev nD) : V9 m (outs m) c = W9 m c := by
  show StableHlo.after hostOps3 (V8 m (outs m) c) = StableHlo.after hostOps3 (W8 m c)
  rw [VW8]
theorem VW10 (c : Dev nD) : V10 m (outs m) c = W10 m c := by
  show Function.update (V9 m (outs m) c) main_v79 (outs m 10 main_v79 c) = Function.update (W9 m c) main_v79 (o10 m c)
  rw [outs_10, VW9]
theorem VW11 (c : Dev nD) : V11 m (outs m) c = W11 m c := by
  show StableHlo.after hostOps4 (V10 m (outs m) c) = StableHlo.after hostOps4 (W10 m c)
  rw [VW10]
theorem VW12 (c : Dev nD) : V12 m (outs m) c = W12 m c := by
  show Function.update (V11 m (outs m) c) main_v81 (outs m 12 main_v81 c) = Function.update (W11 m c) main_v81 (o12 m c)
  rw [outs_12, VW11]
theorem VW13 (c : Dev nD) : V13 m (outs m) c = W13 m c := by
  show StableHlo.after hostOps5 (V12 m (outs m) c) = StableHlo.after hostOps5 (W12 m c)
  rw [VW12]
theorem VW14 (c : Dev nD) : V14 m (outs m) c = W14 m c := by
  show StableHlo.after hostOps5_1 (V13 m (outs m) c) = StableHlo.after hostOps5_1 (W13 m c)
  rw [VW13]
theorem VW15 (c : Dev nD) : V15 m (outs m) c = W15 m c := by
  show StableHlo.after hostOps5_2 (V14 m (outs m) c) = StableHlo.after hostOps5_2 (W14 m c)
  rw [VW14]
theorem VW16 (c : Dev nD) : V16 m (outs m) c = W16 m c := by
  show Function.update (V15 m (outs m) c) main_v113 (outs m 16 main_v113 c) = Function.update (W15 m c) main_v113 (o16 m c)
  rw [outs_16, VW15]
theorem VW17 (c : Dev nD) : V17 m (outs m) c = W17 m c := by
  show StableHlo.after hostOps6 (V16 m (outs m) c) = StableHlo.after hostOps6 (W16 m c)
  rw [VW16]
theorem VW18 (c : Dev nD) : V18 m (outs m) c = W18 m c := by
  show Function.update (V17 m (outs m) c) main_v129 (outs m 18 main_v129 c) = Function.update (W17 m c) main_v129 (o18 m c)
  rw [outs_18, VW17]
theorem VW19 (c : Dev nD) : V19 m (outs m) c = W19 m c := by
  show StableHlo.after hostOps7 (V18 m (outs m) c) = StableHlo.after hostOps7 (W18 m c)
  rw [VW18]
theorem VW20 (c : Dev nD) : V20 m (outs m) c = W20 m c := by
  show Function.update (V19 m (outs m) c) main_v145 (outs m 20 main_v145 c) = Function.update (W19 m c) main_v145 (o20 m c)
  rw [outs_20, VW19]
theorem VW21 (c : Dev nD) : V21 m (outs m) c = W21 m c := by
  show StableHlo.after hostOps8 (V20 m (outs m) c) = StableHlo.after hostOps8 (W20 m c)
  rw [VW20]
theorem VW22 (c : Dev nD) : V22 m (outs m) c = W22 m c := by
  show Function.update (V21 m (outs m) c) main_v161 (outs m 22 main_v161 c) = Function.update (W21 m c) main_v161 (o22 m c)
  rw [outs_22, VW21]
theorem VW23 (c : Dev nD) : V23 m (outs m) c = W23 m c := by
  show StableHlo.after hostOps9 (V22 m (outs m) c) = StableHlo.after hostOps9 (W22 m c)
  rw [VW22]
theorem VW24 (c : Dev nD) : V24 m (outs m) c = W24 m c := by
  show Function.update (V23 m (outs m) c) main_v163 (outs m 24 main_v163 c) = Function.update (W23 m c) main_v163 (o24 m c)
  rw [outs_24, VW23]
theorem VW25 (c : Dev nD) : V25 m (outs m) c = W25 m c := by
  show StableHlo.after hostOps10 (V24 m (outs m) c) = StableHlo.after hostOps10 (W24 m c)
  rw [VW24]
theorem VW26 (c : Dev nD) : V26 m (outs m) c = W26 m c := by
  show Function.update (V25 m (outs m) c) main_v169 (outs m 26 main_v169 c) = Function.update (W25 m c) main_v169 (o26 m c)
  rw [outs_26, VW25]

/-- Every region's proof data, each at the contents its region is entered from. -/
def pdats : (p : Fin 11) → (c : Dev nD) → Dat τ (Elt F) Unit ℕ (UR sig nD τ) ℕ (Pipeline.pin (pcfgs (F := F)) adm p) c
  | ⟨0, _⟩ => fun c => dat0 (atRefs (W3 m)) c
  | ⟨1, _⟩ => fun c => dat1 (atRefs (W5 m)) c
  | ⟨2, _⟩ => fun c => dat2 (atRefs (W7 m)) c
  | ⟨3, _⟩ => fun c => dat3 (atRefs (W9 m)) c
  | ⟨4, _⟩ => fun c => dat4 (atRefs (W11 m)) c
  | ⟨5, _⟩ => fun c => dat5 (atRefs (W15 m)) c
  | ⟨6, _⟩ => fun c => dat6 (atRefs (W17 m)) c
  | ⟨7, _⟩ => fun c => dat7 (atRefs (W19 m)) c
  | ⟨8, _⟩ => fun c => dat8 (atRefs (W21 m)) c
  | ⟨9, _⟩ => fun c => dat9 (atRefs (W23 m)) c
  | ⟨10, _⟩ => fun c => dat10 (atRefs (W25 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)

end Cert.Kernel.Rg

end
-- ==== Proof.K.Seg0.lean ====
/-
  Region 0 as one item of the program's run: entered from every unscoped buffer of the core at the contents of
  the boundary before it, left at those of the boundary after it. At entry the region's arrays are taken out of
  the core's unscoped buffers and handed to the pipeline; at exit they are put back, the output array now at what
  the write-backs left, every other buffer as found. The generator register goes into the region's invariant and
  comes out; nothing is owed; the kernel has no semaphore of its own.
-/
import proofs.«109784_j28140625724052_1_alg».proof.Proof.K.Chain

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! At the region's exit each of its arrays holds what the pipeline leaves: an input array what it held at entry (the
pipeline never writes one, and the region's result is another buffer), the output array the write-backs' result. -/
theorem hF0_0 (c : Dev nD) : (dat0 (atRefs (W3 m)) c).arrAt 0 cfg0.N = atRefs (W4 m) c main_arg0 :=
  ((dat0 (atRefs (W3 m)) c).arrAt_in 0 rfl _).trans
    ((A_eq0 _ c 0).trans (Function.update_of_ne (StableHlo.devRef_ne_of_ne (by decide : (main_arg0 : Ref sig .tc) ≠ main_v31)) _ _).symm)
theorem hF0_1 (c : Dev nD) : (dat0 (atRefs (W3 m)) c).arrAt 1 cfg0.N = atRefs (W4 m) c main_arg4 :=
  ((dat0 (atRefs (W3 m)) c).arrAt_in 1 rfl _).trans
    ((A_eq0 _ c 1).trans (Function.update_of_ne (StableHlo.devRef_ne_of_ne (by decide : (main_arg4 : Ref sig .tc) ≠ main_v31)) _ _).symm)
theorem hF0_2 (c : Dev nD) : (dat0 (atRefs (W3 m)) c).arrAt 2 cfg0.N = atRefs (W4 m) c main_v30 :=
  ((dat0 (atRefs (W3 m)) c).arrAt_in 2 rfl _).trans
    ((A_eq0 _ c 2).trans (Function.update_of_ne (StableHlo.devRef_ne_of_ne (by decide : (main_v30 : Ref sig .tc) ≠ main_v31)) _ _).symm)
theorem hF0_3 (c : Dev nD) : (dat0 (atRefs (W3 m)) c).arrAt 3 cfg0.N = atRefs (W4 m) c main_v31 :=
  (outs_4 m c).symm

set_option maxHeartbeats 2000000 in
theorem hF0 (c : Dev nD) (w : Fin cfg0.W) :
    (dat0 (atRefs (W3 m)) c).arrAt w cfg0.N = atRefs (W4 m) c (Pipeline.arrRef spec0 w) := by
  match w with
  | ⟨0, _⟩ => exact hF0_0 m c
  | ⟨1, _⟩ => exact hF0_1 m c
  | ⟨2, _⟩ => exact hF0_2 m c
  | ⟨3, _⟩ => exact hF0_3 m c

/-- Every buffer that is no array of the region is as at entry. -/
theorem hrest0 (c : Dev nD) : ∀ b, b ∉ Finset.univ.image (Pipeline.arrRef spec0) → atRefs (W4 m) c b = atRefs (W3 m) c b :=
  fun b hb => Function.update_of_ne (StableHlo.devRef_ne_of_ne fun e => hb (Finset.mem_image.mpr ⟨(3 : Fin cfg0.W), Finset.mem_univ _, e.symm⟩)) _ _

set_option backward.isDefEq.respectTransparency.types false in
/-- Region 0 over the thread state "every unscoped buffer at the boundary's contents, the generator register at some
    state, nothing owed". -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atRefs (W3 m)) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (atRefs (W3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atRefs (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atRefs (W3 m) c) (atRefs (W4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg

end
-- ==== Proof.K.Seg1.lean ====
/-
  Region 1 as one item of the program's run: entered from every unscoped buffer of the core at the contents of
  the boundary before it, left at those of the boundary after it. At entry the region's arrays are taken out of
  the core's unscoped buffers and handed to the pipeline; at exit they are put back, the output array now at what
  the write-backs left, every other buffer as found. The generator register goes into the region's invariant and
  comes out; nothing is owed; the kernel has no semaphore of its own.
-/
import proofs.«109784_j28140625724052_1_alg».proof.Proof.K.Chain

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! At the region's exit each of its arrays holds what the pipeline leaves: an input array what it held at entry (the
pipeline never writes one, and the region's result is another buffer), the output array the write-backs' result. -/
theorem hF1_0 (c : Dev nD) : (dat1 (atRefs (W5 m)) c).arrAt 0 cfg1.N = atRefs (W6 m) c main_v44 :=
  ((dat1 (atRefs (W5 m)) c).arrAt_in 0 rfl _).trans
    ((A_eq1 _ c 0).trans (Function.update_of_ne (StableHlo.devRef_ne_of_ne (by decide : (main_v44 : Ref sig .tc) ≠ main_v47)) _ _).symm)
theorem hF1_1 (c : Dev nD) : (dat1 (atRefs (W5 m)) c).arrAt 1 cfg1.N = atRefs (W6 m) c main_v31 :=
  ((dat1 (atRefs (W5 m)) c).arrAt_in 1 rfl _).trans
    ((A_eq1 _ c 1).trans (Function.update_of_ne (StableHlo.devRef_ne_of_ne (by decide : (main_v31 : Ref sig .tc) ≠ main_v47)) _ _).symm)
theorem hF1_2 (c : Dev nD) : (dat1 (atRefs (W5 m)) c).arrAt 2 cfg1.N = atRefs (W6 m) c main_v31 :=
  ((dat1 (atRefs (W5 m)) c).arrAt_in 2 rfl _).trans
    ((A_eq1 _ c 2).trans (Function.update_of_ne (StableHlo.devRef_ne_of_ne (by decide : (main_v31 : Ref sig .tc) ≠ main_v47)) _ _).symm)
theorem hF1_3 (c : Dev nD) : (dat1 (atRefs (W5 m)) c).arrAt 3 cfg1.N = atRefs (W6 m) c main_v46 :=
  ((dat1 (atRefs (W5 m)) c).arrAt_in 3 rfl _).trans
    ((A_eq1 _ c 3).trans (Function.update_of_ne (StableHlo.devRef_ne_of_ne (by decide : (main_v46 : Ref sig .tc) ≠ main_v47)) _ _).symm)
theorem hF1_4 (c : Dev nD) : (dat1 (atRefs (W5 m)) c).arrAt 4 cfg1.N = atRefs (W6 m) c main_v47 :=
  (outs_6 m c).symm

set_option maxHeartbeats 2000000 in
theorem hF1 (c : Dev nD) (w : Fin cfg1.W) :
    (dat1 (atRefs (W5 m)) c).arrAt w cfg1.N = atRefs (W6 m) c (Pipeline.arrRef spec1 w) := by
  match w with
  | ⟨0, _⟩ => exact hF1_0 m c
  | ⟨1, _⟩ => exact hF1_1 m c
  | ⟨2, _⟩ => exact hF1_2 m c
  | ⟨3, _⟩ => exact hF1_3 m c
  | ⟨4, _⟩ => exact hF1_4 m c

/-- Every buffer that is no array of the region is as at entry. -/
theorem hrest1 (c : Dev nD) : ∀ b, b ∉ Finset.univ.image (Pipeline.arrRef spec1) → atRefs (W6 m) c b = atRefs (W5 m) c b :=
  fun b hb => Function.update_of_ne (StableHlo.devRef_ne_of_ne fun e => hb (Finset.mem_image.mpr ⟨(4 : Fin cfg1.W), Finset.mem_univ _, e.symm⟩)) _ _

/-! ## The region's arrays among the core's unscoped buffers

Two input windows of this region read ONE array (`main_v31`), so the four distinct buffers behind the five windows'
arrays are divided among them: that array's buffer into two halves of its share, one per window; the others whole. -/

/-- The distinct buffers behind the windows' arrays, one by one. -/
theorem arrBufs1_eq (c : Dev nD) (V : (c : Dev nD) → (b : Ref sig .tc) → Buf (Elt F) ((c : Thread nD τ).loc b)) :
    (Pipeline.arrBufs spec1 c (V c) : sProp 𝕄)
      = iprop((((c : Thread nD τ).loc main_v44) ↦{fullShare} V c main_v44) ∗ (((c : Thread nD τ).loc main_v31) ↦{fullShare} V c main_v31)
          ∗ (((c : Thread nD τ).loc main_v46) ↦{fullShare} V c main_v46) ∗ (((c : Thread nD τ).loc main_v47) ↦{fullShare} V c main_v47)) := by
  unfold Pipeline.arrBufs
  exact BI.bigSep_eq_bigSepL_of_eq [main_v44, main_v31, main_v46, main_v47] (by decide) (by decide) _

/-- The region's arrays, window by window, each array a whole buffer. -/
theorem arrays1_univ (c : Dev nD) (V : (c : Dev nD) → (b : Ref sig .tc) → Buf (Elt F) ((c : Thread nD τ).loc b))
    (G : (w : Fin cfg1.W) → Buf (Elt F) ((cfg1.win w).arr.view.loc (c : Thread nD τ))) :
    ((dat1 V c).arrays G : sProp 𝕄)
      = bigSep Finset.univ fun w : Fin cfg1.W => (((c : Thread nD τ).loc (Pipeline.arrRef spec1 w)) ↦{(dat1 V c).share w} G w : sProp 𝕄) := by
  unfold Pipeline.Dat.arrays
  exact bigSep_congr fun w _ => by rw [(arr_whole1 w).set_eq_univ]

/-- ENTRY: the buffers behind the arrays, each whole, are the windows' arrays at the entry contents. -/
theorem entryArrays1 (c : Dev nD) (V : (c : Dev nD) → (b : Ref sig .tc) → Buf (Elt F) ((c : Thread nD τ).loc b)) :
    (Pipeline.arrBufs spec1 c (V c) : sProp 𝕄) ⊢ (dat1 V c).arrays ((dat1 V c).arrAt · 0) := by
  rw [arrays1_univ, bigSep_W1]
  rw [arrBufs1_eq]
  iintro ⟨H0, H1, H3, H4⟩
  ihave H12 := (pointsTo_share (PosShare.mem_left_op_right fullShare)).1 $$ H1
  icases H12 with ⟨H1, H2⟩
  isplitl [H0]; · iexact H0
  isplitl [H1]; · iexact H1
  isplitl [H2]; · iexact H2
  isplitl [H3]; · iexact H3
  iexact H4

/-- EXIT: the windows' arrays at contents that agree on the shared array are the buffers behind them, each whole. -/
theorem exitArrays1 (c : Dev nD) (V V' : (c : Dev nD) → (b : Ref sig .tc) → Buf (Elt F) ((c : Thread nD τ).loc b))
    (G : (w : Fin cfg1.W) → Buf (Elt F) ((cfg1.win w).arr.view.loc (c : Thread nD τ)))
    (hG : ∀ w, G w = V' c (Pipeline.arrRef spec1 w)) :
    ((dat1 V c).arrays G : sProp 𝕄) ⊢ Pipeline.arrBufs spec1 c (V' c) := by
  rw [arrays1_univ, bigSep_congr (fun w _ => by rw [hG w]), bigSep_W1]
  rw [arrBufs1_eq]
  iintro ⟨H0, H1, H2, H3, H4⟩
  isplitl [H0]; · iexact H0
  isplitl [H1 H2]
  · iapply (pointsTo_share (PosShare.mem_left_op_right fullShare)).2
    isplitl [H1]; · iexact H1
    iexact H2
  isplitl [H3]; · iexact H3
  iexact H4

set_option backward.isDefEq.respectTransparency.types false in
/-- Region 1 over the thread state "every unscoped buffer at the boundary's contents, the generator register at some
    state, nothing owed". -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (atRefs (W5 m)) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (atRefs (W5 m) c)
  hentry c := by
    rw [Pipeline.ownSems0_none]
    have hsplit : (unscopedBufs c (atRefs (W5 m) c) : sProp 𝕄)
        ⊢ iprop((dat1 (atRefs (W5 m)) c).arrays ((dat1 (atRefs (W5 m)) c).arrAt · 0)
            ∗ Pipeline.unscopedRest spec1 c (atRefs (W5 m) c)) := by
      rw [Pipeline.unscopedBufs_split₀ cfgs 1 winFacts₀1.arr_unscoped c (atRefs (W5 m) c)]
      exact sep_mono (entryArrays1 c (atRefs (W5 m))) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((dat1 (atRefs (W5 m)) c).arrays ((dat1 (atRefs (W5 m)) c).arrAt · cfg1.N)
          ∗ Pipeline.unscopedRest spec1 c (atRefs (W5 m) c))
        ⊢ (unscopedBufs c (atRefs (W6 m) c) : sProp 𝕄) := by
      rw [Pipeline.unscopedBufs_split₀ cfgs 1 winFacts₀1.arr_unscoped c (atRefs (W6 m) c)]
      refine sep_mono (exitArrays1 c (atRefs (W5 m)) (atRefs (W6 m)) _ (hF1 m c)) (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.Kernel.Rg

end
-- ==== Proof.K.Seg2.lean ====
/-
  Region 2 as one item of the program's run: entered from every unscoped buffer of the core at the contents of
  the boundary before it, left at those of the boundary after it. At entry the region's arrays are taken out of
  the core's unscoped buffers and handed to the pipeline; at exit they are put back, the output array now at what
  the write-backs left, every other buffer as found. The generator register goes into the region's invariant and
  comes out; nothing is owed; the kernel has no semaphore of its own.
-/
import proofs.«109784_j28140625724052_1_alg».proof.Proof.K.Chain

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! At the region's exit each of its arrays holds what the pipeline leaves: an input array what it held at entry (the
pipeline never writes one, and the region's result is another buffer), the output array the write-backs' result. -/
theorem hF2_0 (c : Dev nD) : (dat2 (atRefs (W7 m)) c).arrAt 0 cfg2.N = atRefs (W8 m) c main_v60 :=
  ((dat2 (atRefs (W7 m)) c).arrAt_in 0 rfl _).trans
    ((A_eq2 _ c 0).trans (Function.update_of_ne (StableHlo.devRef_ne_of_ne (by decide : (main_v60 : Ref sig .tc) ≠ main_v63)) _ _).symm)
theorem hF2_1 (c : Dev nD) : (dat2 (atRefs (W7 m)) c).arrAt 1 cfg2.N = atRefs (W8 m) c main_v31 :=
  ((dat2 (atRefs (W7 m)) c).arrAt_in 1 rfl _).trans
    ((A_eq2 _ c 1).trans (Function.update_of_ne (StableHlo.devRef_ne_of_ne (by decide : (main_v31 : Ref sig .tc) ≠ main_v63)) _ _).symm)
theorem hF2_2 (c : Dev nD) : (dat2 (atRefs (W7 m)) c).arrAt 2 cfg2.N = atRefs (W8 m) c main_v47 :=
  ((dat2 (atRefs (W7 m)) c).arrAt_in 2 rfl _).trans
    ((A_eq2 _ c 2).trans (Function.update_of_ne (StableHlo.devRef_ne_of_ne (by decide : (main_v47 : Ref sig .tc) ≠ main_v63)) _ _).symm)
theorem hF2_3 (c : Dev nD) : (dat2 (atRefs (W7 m)) c).arrAt 3 cfg2.N = atRefs (W8 m) c main_v62 :=
  ((dat2 (atRefs (W7 m)) c).arrAt_in 3 rfl _).trans
    ((A_eq2 _ c 3).trans (Function.update_of_ne (StableHlo.devRef_ne_of_ne (by decide : (main_v62 : Ref sig .tc) ≠ main_v63)) _ _).symm)
theorem hF2_4 (c : Dev nD) : (dat2 (atRefs (W7 m)) c).arrAt 4 cfg2.N = atRefs (W8 m) c main_v63 :=
  (outs_8 m c).symm

set_option maxHeartbeats 2000000 in
theorem hF2 (c : Dev nD) (w : Fin cfg2.W) :
    (dat2 (atRefs (W7 m)) c).arrAt w cfg2.N = atRefs (W8 m) c (Pipeline.arrRef spec2 w) := by
  match w with
  | ⟨0, _⟩ => exact hF2_0 m c
  | ⟨1, _⟩ => exact hF2_1 m c
  | ⟨2, _⟩ => exact hF2_2 m c
  | ⟨3, _⟩ => exact hF2_3 m c
  | ⟨4, _⟩ => exact hF2_4 m c

/-- Every buffer that is no array of the region is as at entry. -/
theorem hrest2 (c : Dev nD) : ∀ b, b ∉ Finset.univ.image (Pipeline.arrRef spec2) → atRefs (W8 m) c b = atRefs (W7 m) c b :=
  fun b hb => Function.update_of_ne (StableHlo.devRef_ne_of_ne fun e => hb (Finset.mem_image.mpr ⟨(4 : Fin cfg2.W), Finset.mem_univ _, e.symm⟩)) _ _

set_option backward.isDefEq.respectTransparency.types false in
/-- Region 2 over the thread state "every unscoped buffer at the boundary's contents, the generator register at some
    state, nothing owed". -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atRefs (W7 m)) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (atRefs (W7 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atRefs (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atRefs (W7 m) c) (atRefs (W8 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg

end
-- ==== Proof.K.Seg3.lean ====
/-
  Region 3 as one item of the program's run: entered from every unscoped buffer of the core at the contents of
  the boundary before it, left at those of the boundary after it. At entry the region's arrays are taken out of
  the core's unscoped buffers and handed to the pipeline; at exit they are put back, the output array now at what
  the write-backs left, every other buffer as found. The generator register goes into the region's invariant and
  comes out; nothing is owed; the kernel has no semaphore of its own.
-/
import proofs.«109784_j28140625724052_1_alg».proof.Proof.K.Chain

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! At the region's exit each of its arrays holds what the pipeline leaves: an input array what it held at entry (the
pipeline never writes one, and the region's result is another buffer), the output array the write-backs' result. -/
theorem hF3_0 (c : Dev nD) : (dat3 (atRefs (W9 m)) c).arrAt 0 cfg3.N = atRefs (W10 m) c main_v76 :=
  ((dat3 (atRefs (W9 m)) c).arrAt_in 0 rfl _).trans
    ((A_eq3 _ c 0).trans (Function.update_of_ne (StableHlo.devRef_ne_of_ne (by decide : (main_v76 : Ref sig .tc) ≠ main_v79)) _ _).symm)
theorem hF3_1 (c : Dev nD) : (dat3 (atRefs (W9 m)) c).arrAt 1 cfg3.N = atRefs (W10 m) c main_v31 :=
  ((dat3 (atRefs (W9 m)) c).arrAt_in 1 rfl _).trans
    ((A_eq3 _ c 1).trans (Function.update_of_ne (StableHlo.devRef_ne_of_ne (by decide : (main_v31 : Ref sig .tc) ≠ main_v79)) _ _).symm)
theorem hF3_2 (c : Dev nD) : (dat3 (atRefs (W9 m)) c).arrAt 2 cfg3.N = atRefs (W10 m) c main_v63 :=
  ((dat3 (atRefs (W9 m)) c).arrAt_in 2 rfl _).trans
    ((A_eq3 _ c 2).trans (Function.update_of_ne (StableHlo.devRef_ne_of_ne (by decide : (main_v63 : Ref sig .tc) ≠ main_v79)) _ _).symm)
theorem hF3_3 (c : Dev nD) : (dat3 (atRefs (W9 m)) c).arrAt 3 cfg3.N = atRefs (W10 m) c main_v78 :=
  ((dat3 (atRefs (W9 m)) c).arrAt_in 3 rfl _).trans
    ((A_eq3 _ c 3).trans (Function.update_of_ne (StableHlo.devRef_ne_of_ne (by decide : (main_v78 : Ref sig .tc) ≠ main_v79)) _ _).symm)
theorem hF3_4 (c : Dev nD) : (dat3 (atRefs (W9 m)) c).arrAt 4 cfg3.N = atRefs (W10 m) c main_v79 :=
  (outs_10 m c).symm

set_option maxHeartbeats 2000000 in
theorem hF3 (c : Dev nD) (w : Fin cfg3.W) :
    (dat3 (atRefs (W9 m)) c).arrAt w cfg3.N = atRefs (W10 m) c (Pipeline.arrRef spec3 w) := by
  match w with
  | ⟨0, _⟩ => exact hF3_0 m c
  | ⟨1, _⟩ => exact hF3_1 m c
  | ⟨2, _⟩ => exact hF3_2 m c
  | ⟨3, _⟩ => exact hF3_3 m c
  | ⟨4, _⟩ => exact hF3_4 m c

/-- Every buffer that is no array of the region is as at entry. -/
theorem hrest3 (c : Dev nD) : ∀ b, b ∉ Finset.univ.image (Pipeline.arrRef spec3) → atRefs (W10 m) c b = atRefs (W9 m) c b :=
  fun b hb => Function.update_of_ne (StableHlo.devRef_ne_of_ne fun e => hb (Finset.mem_image.mpr ⟨(4 : Fin cfg3.W), Finset.mem_univ _, e.symm⟩)) _ _

set_option backward.isDefEq.respectTransparency.types false in
/-- Region 3 over the thread state "every unscoped buffer at the boundary's contents, the generator register at some
    state, nothing owed". -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atRefs (W9 m)) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (atRefs (W9 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atRefs (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atRefs (W9 m) c) (atRefs (W10 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg

end
-- ==== Proof.K.Seg4.lean ====
/-
  Region 4 as one item of the program's run: entered from every unscoped buffer of the core at the contents of
  the boundary before it, left at those of the boundary after it. At entry the region's arrays are taken out of
  the core's unscoped buffers and handed to the pipeline; at exit they are put back, the output array now at what
  the write-backs left, every other buffer as found. The generator register goes into the region's invariant and
  comes out; nothing is owed; the kernel has no semaphore of its own.
-/
import proofs.«109784_j28140625724052_1_alg».proof.Proof.K.Chain

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! At the region's exit each of its arrays holds what the pipeline leaves: an input array what it held at entry (the
pipeline never writes one, and the region's result is another buffer), the output array the write-backs' result. -/
theorem hF4_0 (c : Dev nD) : (dat4 (atRefs (W11 m)) c).arrAt 0 cfg4.N = atRefs (W12 m) c main_v79 :=
  ((dat4 (atRefs (W11 m)) c).arrAt_in 0 rfl _).trans
    ((A_eq4 _ c 0).trans (Function.update_of_ne (StableHlo.devRef_ne_of_ne (by decide : (main_v79 : Ref sig .tc) ≠ main_v81)) _ _).symm)
theorem hF4_1 (c : Dev nD) : (dat4 (atRefs (W11 m)) c).arrAt 1 cfg4.N = atRefs (W12 m) c main_arg7 :=
  ((dat4 (atRefs (W11 m)) c).arrAt_in 1 rfl _).trans
    ((A_eq4 _ c 1).trans (Function.update_of_ne (StableHlo.devRef_ne_of_ne (by decide : (main_arg7 : Ref sig .tc) ≠ main_v81)) _ _).symm)
theorem hF4_2 (c : Dev nD) : (dat4 (atRefs (W11 m)) c).arrAt 2 cfg4.N = atRefs (W12 m) c main_v80 :=
  ((dat4 (atRefs (W11 m)) c).arrAt_in 2 rfl _).trans
    ((A_eq4 _ c 2).trans (Function.update_of_ne (StableHlo.devRef_ne_of_ne (by decide : (main_v80 : Ref sig .tc) ≠ main_v81)) _ _).symm)
theorem hF4_3 (c : Dev nD) : (dat4 (atRefs (W11 m)) c).arrAt 3 cfg4.N = atRefs (W12 m) c main_v81 :=
  (outs_12 m c).symm

set_option maxHeartbeats 2000000 in
theorem hF4 (c : Dev nD) (w : Fin cfg4.W) :
    (dat4 (atRefs (W11 m)) c).arrAt w cfg4.N = atRefs (W12 m) c (Pipeline.arrRef spec4 w) := by
  match w with
  | ⟨0, _⟩ => exact hF4_0 m c
  | ⟨1, _⟩ => exact hF4_1 m c
  | ⟨2, _⟩ => exact hF4_2 m c
  | ⟨3, _⟩ => exact hF4_3 m c

/-- Every buffer that is no array of the region is as at entry. -/
theorem hrest4 (c : Dev nD) : ∀ b, b ∉ Finset.univ.image (Pipeline.arrRef spec4) → atRefs (W12 m) c b = atRefs (W11 m) c b :=
  fun b hb => Function.update_of_ne (StableHlo.devRef_ne_of_ne fun e => hb (Finset.mem_image.mpr ⟨(3 : Fin cfg4.W), Finset.mem_univ _, e.symm⟩)) _ _

set_option backward.isDefEq.respectTransparency.types false in
/-- Region 4 over the thread state "every unscoped buffer at the boundary's contents, the generator register at some
    state, nothing owed". -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atRefs (W11 m)) c).loose
  hwaits := Pipeline.hwaits_of_owed_zero _ _ _ _ L lv 4 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec4 c (atRefs (W11 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atRefs (W11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atRefs (W11 m) c) (atRefs (W12 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg

end
-- ==== Proof.K.Seg5.lean ====
/-
  Region 5 as one item of the program's run: entered from every unscoped buffer of the core at the contents of
  the boundary before it, left at those of the boundary after it. At entry the region's arrays are taken out of
  the core's unscoped buffers and handed to the pipeline; at exit they are put back, the output array now at what
  the write-backs left, every other buffer as found. The generator register goes into the region's invariant and
  comes out; nothing is owed; the kernel has no semaphore of its own.
-/
import proofs.«109784_j28140625724052_1_alg».proof.Proof.K.Chain

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! At the region's exit each of its arrays holds what the pipeline leaves: an input array what it held at entry (the
pipeline never writes one, and the region's result is another buffer), the output array the write-backs' result. -/
theorem hF5_0 (c : Dev nD) : (dat5 (atRefs (W15 m)) c).arrAt 0 cfg5.N = atRefs (W16 m) c main_arg2 :=
  ((dat5 (atRefs (W15 m)) c).arrAt_in 0 rfl _).trans
    ((A_eq5 _ c 0).trans (Function.update_of_ne (StableHlo.devRef_ne_of_ne (by decide : (main_arg2 : Ref sig .tc) ≠ main_v113)) _ _).symm)
theorem hF5_1 (c : Dev nD) : (dat5 (atRefs (W15 m)) c).arrAt 1 cfg5.N = atRefs (W16 m) c main_arg9 :=
  ((dat5 (atRefs (W15 m)) c).arrAt_in 1 rfl _).trans
    ((A_eq5 _ c 1).trans (Function.update_of_ne (StableHlo.devRef_ne_of_ne (by decide : (main_arg9 : Ref sig .tc) ≠ main_v113)) _ _).symm)
theorem hF5_2 (c : Dev nD) : (dat5 (atRefs (W15 m)) c).arrAt 2 cfg5.N = atRefs (W16 m) c main_v112 :=
  ((dat5 (atRefs (W15 m)) c).arrAt_in 2 rfl _).trans
    ((A_eq5 _ c 2).trans (Function.update_of_ne (StableHlo.devRef_ne_of_ne (by decide : (main_v112 : Ref sig .tc) ≠ main_v113)) _ _).symm)
theorem hF5_3 (c : Dev nD) : (dat5 (atRefs (W15 m)) c).arrAt 3 cfg5.N = atRefs (W16 m) c main_v113 :=
  (outs_16 m c).symm

set_option maxHeartbeats 2000000 in
theorem hF5 (c : Dev nD) (w : Fin cfg5.W) :
    (dat5 (atRefs (W15 m)) c).arrAt w cfg5.N = atRefs (W16 m) c (Pipeline.arrRef spec5 w) := by
  match w with
  | ⟨0, _⟩ => exact hF5_0 m c
  | ⟨1, _⟩ => exact hF5_1 m c
  | ⟨2, _⟩ => exact hF5_2 m c
  | ⟨3, _⟩ => exact hF5_3 m c

/-- Every buffer that is no array of the region is as at entry. -/
theorem hrest5 (c : Dev nD) : ∀ b, b ∉ Finset.univ.image (Pipeline.arrRef spec5) → atRefs (W16 m) c b = atRefs (W15 m) c b :=
  fun b hb => Function.update_of_ne (StableHlo.devRef_ne_of_ne fun e => hb (Finset.mem_image.mpr ⟨(3 : Fin cfg5.W), Finset.mem_univ _, e.symm⟩)) _ _

set_option backward.isDefEq.respectTransparency.types false in
/-- Region 5 over the thread state "every unscoped buffer at the boundary's contents, the generator register at some
    state, nothing owed". -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (atRefs (W15 m)) c).loose
  hwaits := Pipeline.hwaits_of_owed_zero _ _ _ _ L lv 5 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec5 c (atRefs (W15 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atRefs (W15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atRefs (W15 m) c) (atRefs (W16 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg

end
-- ==== Proof.K.Seg6.lean ====
/-
  Region 6 as one item of the program's run: entered from every unscoped buffer of the core at the contents of
  the boundary before it, left at those of the boundary after it. At entry the region's arrays are taken out of
  the core's unscoped buffers and handed to the pipeline; at exit they are put back, the output array now at what
  the write-backs left, every other buffer as found. The generator register goes into the region's invariant and
  comes out; nothing is owed; the kernel has no semaphore of its own.
-/
import proofs.«109784_j28140625724052_1_alg».proof.Proof.K.Chain

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! At the region's exit each of its arrays holds what the pipeline leaves: an input array what it held at entry (the
pipeline never writes one, and the region's result is another buffer), the output array the write-backs' result. -/
theorem hF6_0 (c : Dev nD) : (dat6 (atRefs (W17 m)) c).arrAt 0 cfg6.N = atRefs (W18 m) c main_v126 :=
  ((dat6 (atRefs (W17 m)) c).arrAt_in 0 rfl _).trans
    ((A_eq6 _ c 0).trans (Function.update_of_ne (StableHlo.devRef_ne_of_ne (by decide : (main_v126 : Ref sig .tc) ≠ main_v129)) _ _).symm)
theorem hF6_1 (c : Dev nD) : (dat6 (atRefs (W17 m)) c).arrAt 1 cfg6.N = atRefs (W18 m) c main_v113 :=
  ((dat6 (atRefs (W17 m)) c).arrAt_in 1 rfl _).trans
    ((A_eq6 _ c 1).trans (Function.update_of_ne (StableHlo.devRef_ne_of_ne (by decide : (main_v113 : Ref sig .tc) ≠ main_v129)) _ _).symm)
theorem hF6_2 (c : Dev nD) : (dat6 (atRefs (W17 m)) c).arrAt 2 cfg6.N = atRefs (W18 m) c main_v113 :=
  ((dat6 (atRefs (W17 m)) c).arrAt_in 2 rfl _).trans
    ((A_eq6 _ c 2).trans (Function.update_of_ne (StableHlo.devRef_ne_of_ne (by decide : (main_v113 : Ref sig .tc) ≠ main_v129)) _ _).symm)
theorem hF6_3 (c : Dev nD) : (dat6 (atRefs (W17 m)) c).arrAt 3 cfg6.N = atRefs (W18 m) c main_v128 :=
  ((dat6 (atRefs (W17 m)) c).arrAt_in 3 rfl _).trans
    ((A_eq6 _ c 3).trans (Function.update_of_ne (StableHlo.devRef_ne_of_ne (by decide : (main_v128 : Ref sig .tc) ≠ main_v129)) _ _).symm)
theorem hF6_4 (c : Dev nD) : (dat6 (atRefs (W17 m)) c).arrAt 4 cfg6.N = atRefs (W18 m) c main_v129 :=
  (outs_18 m c).symm

set_option maxHeartbeats 2000000 in
theorem hF6 (c : Dev nD) (w : Fin cfg6.W) :
    (dat6 (atRefs (W17 m)) c).arrAt w cfg6.N = atRefs (W18 m) c (Pipeline.arrRef spec6 w) := by
  match w with
  | ⟨0, _⟩ => exact hF6_0 m c
  | ⟨1, _⟩ => exact hF6_1 m c
  | ⟨2, _⟩ => exact hF6_2 m c
  | ⟨3, _⟩ => exact hF6_3 m c
  | ⟨4, _⟩ => exact hF6_4 m c

/-- Every buffer that is no array of the region is as at entry. -/
theorem hrest6 (c : Dev nD) : ∀ b, b ∉ Finset.univ.image (Pipeline.arrRef spec6) → atRefs (W18 m) c b = atRefs (W17 m) c b :=
  fun b hb => Function.update_of_ne (StableHlo.devRef_ne_of_ne fun e => hb (Finset.mem_image.mpr ⟨(4 : Fin cfg6.W), Finset.mem_univ _, e.symm⟩)) _ _

/-! ## The region's arrays among the core's unscoped buffers

Two input windows of this region read ONE array (`main_v113`), so the four distinct buffers behind the five windows'
arrays are divided among them: that array's buffer into two halves of its share, one per window; the others whole. -/

/-- The distinct buffers behind the windows' arrays, one by one. -/
theorem arrBufs6_eq (c : Dev nD) (V : (c : Dev nD) → (b : Ref sig .tc) → Buf (Elt F) ((c : Thread nD τ).loc b)) :
    (Pipeline.arrBufs spec6 c (V c) : sProp 𝕄)
      = iprop((((c : Thread nD τ).loc main_v126) ↦{fullShare} V c main_v126) ∗ (((c : Thread nD τ).loc main_v113) ↦{fullShare} V c main_v113)
          ∗ (((c : Thread nD τ).loc main_v128) ↦{fullShare} V c main_v128) ∗ (((c : Thread nD τ).loc main_v129) ↦{fullShare} V c main_v129)) := by
  unfold Pipeline.arrBufs
  exact BI.bigSep_eq_bigSepL_of_eq [main_v126, main_v113, main_v128, main_v129] (by decide) (by decide) _

/-- The region's arrays, window by window, each array a whole buffer. -/
theorem arrays6_univ (c : Dev nD) (V : (c : Dev nD) → (b : Ref sig .tc) → Buf (Elt F) ((c : Thread nD τ).loc b))
    (G : (w : Fin cfg6.W) → Buf (Elt F) ((cfg6.win w).arr.view.loc (c : Thread nD τ))) :
    ((dat6 V c).arrays G : sProp 𝕄)
      = bigSep Finset.univ fun w : Fin cfg6.W => (((c : Thread nD τ).loc (Pipeline.arrRef spec6 w)) ↦{(dat6 V c).share w} G w : sProp 𝕄) := by
  unfold Pipeline.Dat.arrays
  exact bigSep_congr fun w _ => by rw [(arr_whole6 w).set_eq_univ]

/-- ENTRY: the buffers behind the arrays, each whole, are the windows' arrays at the entry contents. -/
theorem entryArrays6 (c : Dev nD) (V : (c : Dev nD) → (b : Ref sig .tc) → Buf (Elt F) ((c : Thread nD τ).loc b)) :
    (Pipeline.arrBufs spec6 c (V c) : sProp 𝕄) ⊢ (dat6 V c).arrays ((dat6 V c).arrAt · 0) := by
  rw [arrays6_univ, bigSep_W6]
  rw [arrBufs6_eq]
  iintro ⟨H0, H1, H3, H4⟩
  ihave H12 := (pointsTo_share (PosShare.mem_left_op_right fullShare)).1 $$ H1
  icases H12 with ⟨H1, H2⟩
  isplitl [H0]; · iexact H0
  isplitl [H1]; · iexact H1
  isplitl [H2]; · iexact H2
  isplitl [H3]; · iexact H3
  iexact H4

/-- EXIT: the windows' arrays at contents that agree on the shared array are the buffers behind them, each whole. -/
theorem exitArrays6 (c : Dev nD) (V V' : (c : Dev nD) → (b : Ref sig .tc) → Buf (Elt F) ((c : Thread nD τ).loc b))
    (G : (w : Fin cfg6.W) → Buf (Elt F) ((cfg6.win w).arr.view.loc (c : Thread nD τ)))
    (hG : ∀ w, G w = V' c (Pipeline.arrRef spec6 w)) :
    ((dat6 V c).arrays G : sProp 𝕄) ⊢ Pipeline.arrBufs spec6 c (V' c) := by
  rw [arrays6_univ, bigSep_congr (fun w _ => by rw [hG w]), bigSep_W6]
  rw [arrBufs6_eq]
  iintro ⟨H0, H1, H2, H3, H4⟩
  isplitl [H0]; · iexact H0
  isplitl [H1 H2]
  · iapply (pointsTo_share (PosShare.mem_left_op_right fullShare)).2
    isplitl [H1]; · iexact H1
    iexact H2
  isplitl [H3]; · iexact H3
  iexact H4

set_option backward.isDefEq.respectTransparency.types false in
/-- Region 6 over the thread state "every unscoped buffer at the boundary's contents, the generator register at some
    state, nothing owed". -/
def reg6 : Pipeline.RegionSeg (pcfgs (F := F)) adm (pdats m) () defs₀ 𝒱₀ L lv 6 where
  win := winFacts₀6
  block_pos := block_pos6
  stage_whole := stage_whole6
  K := PEmpty
  osem k := k.elim
  ho := Pipeline.OwnSemFacts.none _
  hbody c := (body_obligation6 (atRefs (W17 m)) c).loose
  hwaits := Pipeline.hwaits_of_owed_zero _ _ _ _ L lv 6 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec6 c (atRefs (W17 m) c)
  hentry c := by
    rw [Pipeline.ownSems0_none]
    have hsplit : (unscopedBufs c (atRefs (W17 m) c) : sProp 𝕄)
        ⊢ iprop((dat6 (atRefs (W17 m)) c).arrays ((dat6 (atRefs (W17 m)) c).arrAt · 0)
            ∗ Pipeline.unscopedRest spec6 c (atRefs (W17 m) c)) := by
      rw [Pipeline.unscopedBufs_split₀ cfgs 6 winFacts₀6.arr_unscoped c (atRefs (W17 m) c)]
      exact sep_mono (entryArrays6 c (atRefs (W17 m))) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin : iprop((dat6 (atRefs (W17 m)) c).arrays ((dat6 (atRefs (W17 m)) c).arrAt · cfg6.N)
          ∗ Pipeline.unscopedRest spec6 c (atRefs (W17 m) c))
        ⊢ (unscopedBufs c (atRefs (W18 m) c) : sProp 𝕄) := by
      rw [Pipeline.unscopedBufs_split₀ cfgs 6 winFacts₀6.arr_unscoped c (atRefs (W18 m) c)]
      refine sep_mono (exitArrays6 c (atRefs (W17 m)) (atRefs (W18 m)) _ (hF6 m c)) (Entails.of_eq ?_)
      unfold Pipeline.unscopedRest
      exact bigSep_congr fun b hb => by rw [hrest6 m c b (Finset.mem_sdiff.mp hb).2]
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.Kernel.Rg

end
-- ==== Proof.K.Seg7.lean ====
/-
  Region 7 as one item of the program's run: entered from every unscoped buffer of the core at the contents of
  the boundary before it, left at those of the boundary after it. At entry the region's arrays are taken out of
  the core's unscoped buffers and handed to the pipeline; at exit they are put back, the output array now at what
  the write-backs left, every other buffer as found. The generator register goes into the region's invariant and
  comes out; nothing is owed; the kernel has no semaphore of its own.
-/
import proofs.«109784_j28140625724052_1_alg».proof.Proof.K.Chain

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! At the region's exit each of its arrays holds what the pipeline leaves: an input array what it held at entry (the
pipeline never writes one, and the region's result is another buffer), the output array the write-backs' result. -/
theorem hF7_0 (c : Dev nD) : (dat7 (atRefs (W19 m)) c).arrAt 0 cfg7.N = atRefs (W20 m) c main_v142 :=
  ((dat7 (atRefs (W19 m)) c).arrAt_in 0 rfl _).trans
    ((A_eq7 _ c 0).trans (Function.update_of_ne (StableHlo.devRef_ne_of_ne (by decide : (main_v142 : Ref sig .tc) ≠ main_v145)) _ _).symm)
theorem hF7_1 (c : Dev nD) : (dat7 (atRefs (W19 m)) c).arrAt 1 cfg7.N = atRefs (W20 m) c main_v113 :=
  ((dat7 (atRefs (W19 m)) c).arrAt_in 1 rfl _).trans
    ((A_eq7 _ c 1).trans (Function.update_of_ne (StableHlo.devRef_ne_of_ne (by decide : (main_v113 : Ref sig .tc) ≠ main_v145)) _ _).symm)
theorem hF7_2 (c : Dev nD) : (dat7 (atRefs (W19 m)) c).arrAt 2 cfg7.N = atRefs (W20 m) c main_v129 :=
  ((dat7 (atRefs (W19 m)) c).arrAt_in 2 rfl _).trans
    ((A_eq7 _ c 2).trans (Function.update_of_ne (StableHlo.devRef_ne_of_ne (by decide : (main_v129 : Ref sig .tc) ≠ main_v145)) _ _).symm)
theorem hF7_3 (c : Dev nD) : (dat7 (atRefs (W19 m)) c).arrAt 3 cfg7.N = atRefs (W20 m) c main_v144 :=
  ((dat7 (atRefs (W19 m)) c).arrAt_in 3 rfl _).trans
    ((A_eq7 _ c 3).trans (Function.update_of_ne (StableHlo.devRef_ne_of_ne (by decide : (main_v144 : Ref sig .tc) ≠ main_v145)) _ _).symm)
theorem hF7_4 (c : Dev nD) : (dat7 (atRefs (W19 m)) c).arrAt 4 cfg7.N = atRefs (W20 m) c main_v145 :=
  (outs_20 m c).symm

set_option maxHeartbeats 2000000 in
theorem hF7 (c : Dev nD) (w : Fin cfg7.W) :
    (dat7 (atRefs (W19 m)) c).arrAt w cfg7.N = atRefs (W20 m) c (Pipeline.arrRef spec7 w) := by
  match w with
  | ⟨0, _⟩ => exact hF7_0 m c
  | ⟨1, _⟩ => exact hF7_1 m c
  | ⟨2, _⟩ => exact hF7_2 m c
  | ⟨3, _⟩ => exact hF7_3 m c
  | ⟨4, _⟩ => exact hF7_4 m c

/-- Every buffer that is no array of the region is as at entry. -/
theorem hrest7 (c : Dev nD) : ∀ b, b ∉ Finset.univ.image (Pipeline.arrRef spec7) → atRefs (W20 m) c b = atRefs (W19 m) c b :=
  fun b hb => Function.update_of_ne (StableHlo.devRef_ne_of_ne fun e => hb (Finset.mem_image.mpr ⟨(4 : Fin cfg7.W), Finset.mem_univ _, e.symm⟩)) _ _

set_option backward.isDefEq.respectTransparency.types false in
/-- Region 7 over the thread state "every unscoped buffer at the boundary's contents, the generator register at some
    state, nothing owed". -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (atRefs (W19 m)) c).loose
  hwaits := Pipeline.hwaits_of_owed_zero _ _ _ _ L lv 7 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec7 c (atRefs (W19 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (atRefs (W19 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (atRefs (W19 m) c) (atRefs (W20 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg

end
-- ==== Proof.K.Seg8.lean ====
/-
  Region 8 as one item of the program's run: entered from every unscoped buffer of the core at the contents of
  the boundary before it, left at those of the boundary after it. At entry the region's arrays are taken out of
  the core's unscoped buffers and handed to the pipeline; at exit they are put back, the output array now at what
  the write-backs left, every other buffer as found. The generator register goes into the region's invariant and
  comes out; nothing is owed; the kernel has no semaphore of its own.
-/
import proofs.«109784_j28140625724052_1_alg».proof.Proof.K.Chain

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! At the region's exit each of its arrays holds what the pipeline leaves: an input array what it held at entry (the
pipeline never writes one, and the region's result is another buffer), the output array the write-backs' result. -/
theorem hF8_0 (c : Dev nD) : (dat8 (atRefs (W21 m)) c).arrAt 0 cfg8.N = atRefs (W22 m) c main_v158 :=
  ((dat8 (atRefs (W21 m)) c).arrAt_in 0 rfl _).trans
    ((A_eq8 _ c 0).trans (Function.update_of_ne (StableHlo.devRef_ne_of_ne (by decide : (main_v158 : Ref sig .tc) ≠ main_v161)) _ _).symm)
theorem hF8_1 (c : Dev nD) : (dat8 (atRefs (W21 m)) c).arrAt 1 cfg8.N = atRefs (W22 m) c main_v113 :=
  ((dat8 (atRefs (W21 m)) c).arrAt_in 1 rfl _).trans
    ((A_eq8 _ c 1).trans (Function.update_of_ne (StableHlo.devRef_ne_of_ne (by decide : (main_v113 : Ref sig .tc) ≠ main_v161)) _ _).symm)
theorem hF8_2 (c : Dev nD) : (dat8 (atRefs (W21 m)) c).arrAt 2 cfg8.N = atRefs (W22 m) c main_v145 :=
  ((dat8 (atRefs (W21 m)) c).arrAt_in 2 rfl _).trans
    ((A_eq8 _ c 2).trans (Function.update_of_ne (StableHlo.devRef_ne_of_ne (by decide : (main_v145 : Ref sig .tc) ≠ main_v161)) _ _).symm)
theorem hF8_3 (c : Dev nD) : (dat8 (atRefs (W21 m)) c).arrAt 3 cfg8.N = atRefs (W22 m) c main_v160 :=
  ((dat8 (atRefs (W21 m)) c).arrAt_in 3 rfl _).trans
    ((A_eq8 _ c 3).trans (Function.update_of_ne (StableHlo.devRef_ne_of_ne (by decide : (main_v160 : Ref sig .tc) ≠ main_v161)) _ _).symm)
theorem hF8_4 (c : Dev nD) : (dat8 (atRefs (W21 m)) c).arrAt 4 cfg8.N = atRefs (W22 m) c main_v161 :=
  (outs_22 m c).symm

set_option maxHeartbeats 2000000 in
theorem hF8 (c : Dev nD) (w : Fin cfg8.W) :
    (dat8 (atRefs (W21 m)) c).arrAt w cfg8.N = atRefs (W22 m) c (Pipeline.arrRef spec8 w) := by
  match w with
  | ⟨0, _⟩ => exact hF8_0 m c
  | ⟨1, _⟩ => exact hF8_1 m c
  | ⟨2, _⟩ => exact hF8_2 m c
  | ⟨3, _⟩ => exact hF8_3 m c
  | ⟨4, _⟩ => exact hF8_4 m c

/-- Every buffer that is no array of the region is as at entry. -/
theorem hrest8 (c : Dev nD) : ∀ b, b ∉ Finset.univ.image (Pipeline.arrRef spec8) → atRefs (W22 m) c b = atRefs (W21 m) c b :=
  fun b hb => Function.update_of_ne (StableHlo.devRef_ne_of_ne fun e => hb (Finset.mem_image.mpr ⟨(4 : Fin cfg8.W), Finset.mem_univ _, e.symm⟩)) _ _

set_option backward.isDefEq.respectTransparency.types false in
/-- Region 8 over the thread state "every unscoped buffer at the boundary's contents, the generator register at some
    state, nothing owed". -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (atRefs (W21 m)) c).loose
  hwaits := Pipeline.hwaits_of_owed_zero _ _ _ _ L lv 8 fun _ _ => rfl
  pre c := iprop(StableHlo.held (c : Thread nD τ) (Pipeline.ucRefs τ sig) (W21 m c) ∗ R c)
  post c := iprop(StableHlo.held (c : Thread nD τ) (Pipeline.ucRefs τ sig) (W22 m c) ∗ R c)
  X c := iprop(∃ r, prngReg c r)
  Y c := iprop(∃ r, prngReg c r)
  Z c := Pipeline.unscopedRest (Ix := Unit) (Name := ℕ) (U := UR sig nD τ) (Lvl := ℕ) spec8 c (atRefs (W21 m) c)
  hentry c := by
    rw [Pipeline.ownSems0_none]
    have hsplit := Pipeline.arrays_of_unscopedBufs (p := 8) (pcfgs (F := F)) adm (pdats m) launch8.win launch8.arr_whole c
      ((pdats m 8 c).share_full fun _ => rfl) (atRefs (W21 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (atRefs (W21 m) c) (atRefs (W22 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg

end
-- ==== Proof.K.Seg9.lean ====
/-
  Region 9 as one item of the program's run: entered from every unscoped buffer of the core at the contents of
  the boundary before it, left at those of the boundary after it. At entry the region's arrays are taken out of
  the core's unscoped buffers and handed to the pipeline; at exit they are put back, the output array now at what
  the write-backs left, every other buffer as found. The generator register goes into the region's invariant and
  comes out; nothing is owed; the kernel has no semaphore of its own.
-/
import proofs.«109784_j28140625724052_1_alg».proof.Proof.K.Chain

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! At the region's exit each of its arrays holds what the pipeline leaves: an input array what it held at entry (the
pipeline never writes one, and the region's result is another buffer), the output array the write-backs' result. -/
theorem hF9_0 (c : Dev nD) : (dat9 (atRefs (W23 m)) c).arrAt 0 cfg9.N = atRefs (W24 m) c main_v161 :=
  ((dat9 (atRefs (W23 m)) c).arrAt_in 0 rfl _).trans
    ((A_eq9 _ c 0).trans (Function.update_of_ne (StableHlo.devRef_ne_of_ne (by decide : (main_v161 : Ref sig .tc) ≠ main_v163)) _ _).symm)
theorem hF9_1 (c : Dev nD) : (dat9 (atRefs (W23 m)) c).arrAt 1 cfg9.N = atRefs (W24 m) c main_arg12 :=
  ((dat9 (atRefs (W23 m)) c).arrAt_in 1 rfl _).trans
    ((A_eq9 _ c 1).trans (Function.update_of_ne (StableHlo.devRef_ne_of_ne (by decide : (main_arg12 : Ref sig .tc) ≠ main_v163)) _ _).symm)
theorem hF9_2 (c : Dev nD) : (dat9 (atRefs (W23 m)) c).arrAt 2 cfg9.N = atRefs (W24 m) c main_v162 :=
  ((dat9 (atRefs (W23 m)) c).arrAt_in 2 rfl _).trans
    ((A_eq9 _ c 2).trans (Function.update_of_ne (StableHlo.devRef_ne_of_ne (by decide : (main_v162 : Ref sig .tc) ≠ main_v163)) _ _).symm)
theorem hF9_3 (c : Dev nD) : (dat9 (atRefs (W23 m)) c).arrAt 3 cfg9.N = atRefs (W24 m) c main_v163 :=
  (outs_24 m c).symm

set_option maxHeartbeats 2000000 in
theorem hF9 (c : Dev nD) (w : Fin cfg9.W) :
    (dat9 (atRefs (W23 m)) c).arrAt w cfg9.N = atRefs (W24 m) c (Pipeline.arrRef spec9 w) := by
  match w with
  | ⟨0, _⟩ => exact hF9_0 m c
  | ⟨1, _⟩ => exact hF9_1 m c
  | ⟨2, _⟩ => exact hF9_2 m c
  | ⟨3, _⟩ => exact hF9_3 m c

/-- Every buffer that is no array of the region is as at entry. -/
theorem hrest9 (c : Dev nD) : ∀ b, b ∉ Finset.univ.image (Pipeline.arrRef spec9) → atRefs (W24 m) c b = atRefs (W23 m) c b :=
  fun b hb => Function.update_of_ne (StableHlo.devRef_ne_of_ne fun e => hb (Finset.mem_image.mpr ⟨(3 : Fin cfg9.W), Finset.mem_univ _, e.symm⟩)) _ _

set_option backward.isDefEq.respectTransparency.types false in
/-- Region 9 over the thread state "every unscoped buffer at the boundary's contents, the generator register at some
    state, nothing owed". -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (atRefs (W23 m)) c).loose
  hwaits := Pipeline.hwaits_of_owed_zero _ _ _ _ L lv 9 fun _ _ => rfl
  pre c := iprop(StableHlo.held (c : Thread nD τ) (Pipeline.ucRefs τ sig) (W23 m c) ∗ R c)
  post c := iprop(StableHlo.held (c : Thread nD τ) (Pipeline.ucRefs τ sig) (W24 m c) ∗ R c)
  X c := iprop(∃ r, prngReg c r)
  Y c := iprop(∃ r, prngReg c r)
  Z c := Pipeline.unscopedRest (Ix := Unit) (Name := ℕ) (U := UR sig nD τ) (Lvl := ℕ) spec9 c (atRefs (W23 m) c)
  hentry c := by
    rw [Pipeline.ownSems0_none]
    have hsplit := Pipeline.arrays_of_unscopedBufs (p := 9) (pcfgs (F := F)) adm (pdats m) launch9.win launch9.arr_whole c
      ((pdats m 9 c).share_full fun _ => rfl) (atRefs (W23 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (atRefs (W23 m) c) (atRefs (W24 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg

end
-- ==== Proof.K.Seg10.lean ====
/-
  Region 10 as one item of the program's run: entered from every unscoped buffer of the core at the contents of
  the boundary before it, left at those of the boundary after it. At entry the region's arrays are taken out of
  the core's unscoped buffers and handed to the pipeline; at exit they are put back, the output array now at what
  the write-backs left, every other buffer as found. The generator register goes into the region's invariant and
  comes out; nothing is owed; the kernel has no semaphore of its own.
-/
import proofs.«109784_j28140625724052_1_alg».proof.Proof.K.Chain

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! At the region's exit each of its arrays holds what the pipeline leaves: an input array what it held at entry (the
pipeline never writes one, and the region's result is another buffer), the output array the write-backs' result. -/
theorem hF10_0 (c : Dev nD) : (dat10 (atRefs (W25 m)) c).arrAt 0 cfg10.N = atRefs (W26 m) c main_v81 :=
  ((dat10 (atRefs (W25 m)) c).arrAt_in 0 rfl _).trans
    ((A_eq10 _ c 0).trans (Function.update_of_ne (StableHlo.devRef_ne_of_ne (by decide : (main_v81 : Ref sig .tc) ≠ main_v169)) _ _).symm)
theorem hF10_1 (c : Dev nD) : (dat10 (atRefs (W25 m)) c).arrAt 1 cfg10.N = atRefs (W26 m) c main_v163 :=
  ((dat10 (atRefs (W25 m)) c).arrAt_in 1 rfl _).trans
    ((A_eq10 _ c 1).trans (Function.update_of_ne (StableHlo.devRef_ne_of_ne (by decide : (main_v163 : Ref sig .tc) ≠ main_v169)) _ _).symm)
theorem hF10_2 (c : Dev nD) : (dat10 (atRefs (W25 m)) c).arrAt 2 cfg10.N = atRefs (W26 m) c main_v164 :=
  ((dat10 (atRefs (W25 m)) c).arrAt_in 2 rfl _).trans
    ((A_eq10 _ c 2).trans (Function.update_of_ne (StableHlo.devRef_ne_of_ne (by decide : (main_v164 : Ref sig .tc) ≠ main_v169)) _ _).symm)
theorem hF10_3 (c : Dev nD) : (dat10 (atRefs (W25 m)) c).arrAt 3 cfg10.N = atRefs (W26 m) c main_v165 :=
  ((dat10 (atRefs (W25 m)) c).arrAt_in 3 rfl _).trans
    ((A_eq10 _ c 3).trans (Function.update_of_ne (StableHlo.devRef_ne_of_ne (by decide : (main_v165 : Ref sig .tc) ≠ main_v169)) _ _).symm)
theorem hF10_4 (c : Dev nD) : (dat10 (atRefs (W25 m)) c).arrAt 4 cfg10.N = atRefs (W26 m) c main_v166 :=
  ((dat10 (atRefs (W25 m)) c).arrAt_in 4 rfl _).trans
    ((A_eq10 _ c 4).trans (Function.update_of_ne (StableHlo.devRef_ne_of_ne (by decide : (main_v166 : Ref sig .tc) ≠ main_v169)) _ _).symm)
theorem hF10_5 (c : Dev nD) : (dat10 (atRefs (W25 m)) c).arrAt 5 cfg10.N = atRefs (W26 m) c main_arg16 :=
  ((dat10 (atRefs (W25 m)) c).arrAt_in 5 rfl _).trans
    ((A_eq10 _ c 5).trans (Function.update_of_ne (StableHlo.devRef_ne_of_ne (by decide : (main_arg16 : Ref sig .tc) ≠ main_v169)) _ _).symm)
theorem hF10_6 (c : Dev nD) : (dat10 (atRefs (W25 m)) c).arrAt 6 cfg10.N = atRefs (W26 m) c main_v167 :=
  ((dat10 (atRefs (W25 m)) c).arrAt_in 6 rfl _).trans
    ((A_eq10 _ c 6).trans (Function.update_of_ne (StableHlo.devRef_ne_of_ne (by decide : (main_v167 : Ref sig .tc) ≠ main_v169)) _ _).symm)
theorem hF10_7 (c : Dev nD) : (dat10 (atRefs (W25 m)) c).arrAt 7 cfg10.N = atRefs (W26 m) c main_arg18 :=
  ((dat10 (atRefs (W25 m)) c).arrAt_in 7 rfl _).trans
    ((A_eq10 _ c 7).trans (Function.update_of_ne (StableHlo.devRef_ne_of_ne (by decide : (main_arg18 : Ref sig .tc) ≠ main_v169)) _ _).symm)
theorem hF10_8 (c : Dev nD) : (dat10 (atRefs (W25 m)) c).arrAt 8 cfg10.N = atRefs (W26 m) c main_v168 :=
  ((dat10 (atRefs (W25 m)) c).arrAt_in 8 rfl _).trans
    ((A_eq10 _ c 8).trans (Function.update_of_ne (StableHlo.devRef_ne_of_ne (by decide : (main_v168 : Ref sig .tc) ≠ main_v169)) _ _).symm)
theorem hF10_9 (c : Dev nD) : (dat10 (atRefs (W25 m)) c).arrAt 9 cfg10.N = atRefs (W26 m) c main_v169 :=
  (outs_26 m c).symm

set_option maxHeartbeats 2000000 in
theorem hF10 (c : Dev nD) (w : Fin cfg10.W) :
    (dat10 (atRefs (W25 m)) c).arrAt w cfg10.N = atRefs (W26 m) c (Pipeline.arrRef spec10 w) := by
  match w with
  | ⟨0, _⟩ => exact hF10_0 m c
  | ⟨1, _⟩ => exact hF10_1 m c
  | ⟨2, _⟩ => exact hF10_2 m c
  | ⟨3, _⟩ => exact hF10_3 m c
  | ⟨4, _⟩ => exact hF10_4 m c
  | ⟨5, _⟩ => exact hF10_5 m c
  | ⟨6, _⟩ => exact hF10_6 m c
  | ⟨7, _⟩ => exact hF10_7 m c
  | ⟨8, _⟩ => exact hF10_8 m c
  | ⟨9, _⟩ => exact hF10_9 m c

/-- Every buffer that is no array of the region is as at entry. -/
theorem hrest10 (c : Dev nD) : ∀ b, b ∉ Finset.univ.image (Pipeline.arrRef spec10) → atRefs (W26 m) c b = atRefs (W25 m) c b :=
  fun b hb => Function.update_of_ne (StableHlo.devRef_ne_of_ne fun e => hb (Finset.mem_image.mpr ⟨(9 : Fin cfg10.W), Finset.mem_univ _, e.symm⟩)) _ _

set_option backward.isDefEq.respectTransparency.types false in
/-- Region 10 over the thread state "every unscoped buffer at the boundary's contents, the generator register at some
    state, nothing owed". -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (atRefs (W25 m)) c).loose
  hwaits := Pipeline.hwaits_of_owed_zero _ _ _ _ L lv 10 fun _ _ => rfl
  pre c := iprop(StableHlo.held (c : Thread nD τ) (Pipeline.ucRefs τ sig) (W25 m c) ∗ R c)
  post c := iprop(StableHlo.held (c : Thread nD τ) (Pipeline.ucRefs τ sig) (W26 m c) ∗ R c)
  X c := iprop(∃ r, prngReg c r)
  Y c := iprop(∃ r, prngReg c r)
  Z c := Pipeline.unscopedRest (Ix := Unit) (Name := ℕ) (U := UR sig nD τ) (Lvl := ℕ) spec10 c (atRefs (W25 m) c)
  hentry c := by
    rw [Pipeline.ownSems0_none]
    have hsplit := Pipeline.arrays_of_unscopedBufs (p := 10) (pcfgs (F := F)) adm (pdats m) launch10.win launch10.arr_whole c
      ((pdats m 10 c).share_full fun _ => rfl) (atRefs (W25 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (atRefs (W25 m) c) (atRefs (W26 m) c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg

end
-- ==== Proof.K.ReadCond.lean ====
/-
  The program's run with its final memory read whole. The generated conditional frame proves, from one segment
  record per kernel region, that the program terminates without a fault with its arguments unchanged; the same
  argument — the items chained from the launch to the return, the last thread state read against the final state —
  gives every unscoped buffer's final contents, which is what a claim about the RESULT needs.
-/
import proofs.«109784_j28140625724052_1_alg».proof.Proof.Gen.Kernel.Regions

set_option maxRecDepth 1788

noncomputable section

namespace Cert.Kernel.Rg

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- THE CONDITIONAL RUN, READ WHOLE. Under the hypotheses of the conditional frame — per region a segment record entered
    from the thread state before it and left at the one after it — every weakly fair execution of the program from memory
    `m` with zero counters terminates, and every final memory holds EVERY unscoped buffer of every core at the last
    boundary's contents: the arguments, and the result. -/
theorem read_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 11) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 12 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE11 : ∀ c : Dev nD, E 11 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V11 m outs c) ∗ E 4 c) ⊢ R4.pre c)
    (hpost4 : ∀ c : Dev nD, R4.post c ⊢ iprop(StableHlo.held (c : Thread nD τ) (Pipeline.ucRefs τ sig) (V12 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V15 m outs c) ∗ E 5 c) ⊢ R5.pre c)
    (hpost5 : ∀ c : Dev nD, R5.post c ⊢ iprop(StableHlo.held (c : Thread nD τ) (Pipeline.ucRefs τ sig) (V16 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V17 m outs c) ∗ E 6 c) ⊢ R6.pre c)
    (hpost6 : ∀ c : Dev nD, R6.post c ⊢ iprop(StableHlo.held (c : Thread nD τ) (Pipeline.ucRefs τ sig) (V18 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V19 m outs c) ∗ E 7 c) ⊢ R7.pre c)
    (hpost7 : ∀ c : Dev nD, R7.post c ⊢ iprop(StableHlo.held (c : Thread nD τ) (Pipeline.ucRefs τ sig) (V20 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V21 m outs c) ∗ E 8 c) ⊢ R8.pre c)
    (hpost8 : ∀ c : Dev nD, R8.post c ⊢ iprop(StableHlo.held (c : Thread nD τ) (Pipeline.ucRefs τ sig) (V22 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V23 m outs c) ∗ E 9 c) ⊢ R9.pre c)
    (hpost9 : ∀ c : Dev nD, R9.post c ⊢ iprop(StableHlo.held (c : Thread nD τ) (Pipeline.ucRefs τ sig) (V24 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V25 m outs c) ∗ E 10 c) ⊢ R10.pre c)
    (hpost10 : ∀ c : Dev nD, R10.post c ⊢ iprop(StableHlo.held (c : Thread nD τ) (Pipeline.ucRefs τ sig) (V26 m outs c) ∗ E 11 c)) :
    θ_run defs (onTc (τ := τ) (main (F := F))) ⟨m, fun _ => 0, ρ⟩ (fun r => ∀ c : Dev nD,
      ∀ b ∈ Pipeline.ucRefs τ sig, r.2.mem (((c : Thread nD τ)).1, b) = V26 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10)
    (fun c Q => by
      rewrite [main_chain c, Seg.run_eq_chain,
        show (segs m outs 𝒱₀ L lv E ι pdats R0 R1 R2 R3 R4 R5 R6 R7 R8 R9 R10 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          StableHlo.seq hostOps5_1,
          StableHlo.seq hostOps5_2,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V26 m outs c))
    (hch := fun c => ⟨.rfl, .rfl, .rfl, hpre0 c, hpost0 c, hpre1 c, hpost1 c, hpre2 c, hpost2 c, hpre3 c, hpost3 c, hpre4 c, hpost4 c, .rfl, .rfl, hpre5 c, hpost5 c, hpre6 c, hpost6 c, hpre7 c, hpost7 c, hpre8 c, hpost8 c, hpre9 c, hpost9 c, hpre10 c, (hpost10 c).trans (sep_mono .rfl (hE11 c))⟩)
    (hinit := ?_) (QY := fun c s => ∀ b ∈ Pipeline.ucRefs τ sig, s.mem (((c : Thread nD τ)).1, b) = V26 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V26 m outs c) s') $$ [Hh HSI]
    · isplitl [Hh] <;> iassumption
    icases Hr with ⟨%h, HSI⟩
    imodintro
    isplitr
    · ipureintro
      exact h
    · iexact HSI

end Cert.Kernel.Rg

end
-- ==== Proof.K.Run.lean ====
/-
  The program's run, assembled: the eleven regions' records chained with the host stretches between them give, from
  any launch memory with zero counters, termination without a fault in a final memory that holds every unscoped
  buffer of every core at the last boundary's contents. Read at the arguments (no host stretch writes one and no
  region's output array is one) this is the frame claim; read at the result's buffer it names the result: what the
  last region leaves in its output array.
-/
import proofs.«109784_j28140625724052_1_alg».proof.Proof.K.Seg0
import proofs.«109784_j28140625724052_1_alg».proof.Proof.K.Seg1
import proofs.«109784_j28140625724052_1_alg».proof.Proof.K.Seg2
import proofs.«109784_j28140625724052_1_alg».proof.Proof.K.Seg3
import proofs.«109784_j28140625724052_1_alg».proof.Proof.K.Seg4
import proofs.«109784_j28140625724052_1_alg».proof.Proof.K.Seg5
import proofs.«109784_j28140625724052_1_alg».proof.Proof.K.Seg6
import proofs.«109784_j28140625724052_1_alg».proof.Proof.K.Seg7
import proofs.«109784_j28140625724052_1_alg».proof.Proof.K.Seg8
import proofs.«109784_j28140625724052_1_alg».proof.Proof.K.Seg9
import proofs.«109784_j28140625724052_1_alg».proof.Proof.K.Seg10
import proofs.«109784_j28140625724052_1_alg».proof.Proof.K.ReadCond

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of the program terminates, nothing faulting, and the final memory holds every unscoped
    buffer at the last boundary's contents. -/
theorem run_read : θ_run defs (onTc (τ := τ) (main (F := F))) ⟨m, fun _ => 0, ρ⟩ (fun r => ∀ c : Dev nD,
      ∀ b ∈ Pipeline.ucRefs τ sig, r.2.mem (((c : Thread nD τ)).1, b) = W26 m c b) := by
  have h := read_cond m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE11 := fun c => by iintro ⟨-, H⟩; iexact H)
    (R0 := reg0 m) (hpre0 := fun c => by exact .rfl) (hpost0 := fun c => by rw [VW4 m c]; exact .rfl)
    (R1 := reg1 m) (hpre1 := fun c => by rw [VW5 m c]; exact .rfl) (hpost1 := fun c => by rw [VW6 m c]; exact .rfl)
    (R2 := reg2 m) (hpre2 := fun c => by rw [VW7 m c]; exact .rfl) (hpost2 := fun c => by rw [VW8 m c]; exact .rfl)
    (R3 := reg3 m) (hpre3 := fun c => by rw [VW9 m c]; exact .rfl) (hpost3 := fun c => by rw [VW10 m c]; exact .rfl)
    (R4 := reg4 m) (hpre4 := fun c => by rw [VW11 m c]; exact .rfl) (hpost4 := fun c => by rw [VW12 m c]; exact .rfl)
    (R5 := reg5 m) (hpre5 := fun c => by rw [VW15 m c]; exact .rfl) (hpost5 := fun c => by rw [VW16 m c]; exact .rfl)
    (R6 := reg6 m) (hpre6 := fun c => by rw [VW17 m c]; exact .rfl) (hpost6 := fun c => by rw [VW18 m c]; exact .rfl)
    (R7 := reg7 m) (hpre7 := fun c => by rw [VW19 m c]; exact .rfl) (hpost7 := fun c => by rw [VW20 m c]; exact .rfl)
    (R8 := reg8 m) (hpre8 := fun c => by rw [VW21 m c]; exact .rfl) (hpost8 := fun c => by rw [VW22 m c]; exact .rfl)
    (R9 := reg9 m) (hpre9 := fun c => by rw [VW23 m c]; exact .rfl) (hpost9 := fun c => by rw [VW24 m c]; exact .rfl)
    (R10 := reg10 m) (hpre10 := fun c => by rw [VW25 m c]; exact .rfl) (hpost10 := fun c => by rw [VW26 m c]; exact .rfl)
  exact (θ_run _ _ _).mono (fun r hr c b hb => (hr c b hb).trans (congrFun (VW26 m c) b)) h

/-! No item writes an argument: each argument's buffer is at the end what the launch memory held. -/
theorem W26_main_arg0 (c : Dev nD) : W26 m c main_arg0 = m ((c : Thread nD τ).loc main_arg0) :=
  (congrFun (VW26 m c) _).symm.trans (V26_main_arg0 m (outs m) c)
theorem W26_main_arg1 (c : Dev nD) : W26 m c main_arg1 = m ((c : Thread nD τ).loc main_arg1) :=
  (congrFun (VW26 m c) _).symm.trans (V26_main_arg1 m (outs m) c)
theorem W26_main_arg2 (c : Dev nD) : W26 m c main_arg2 = m ((c : Thread nD τ).loc main_arg2) :=
  (congrFun (VW26 m c) _).symm.trans (V26_main_arg2 m (outs m) c)
theorem W26_main_arg3 (c : Dev nD) : W26 m c main_arg3 = m ((c : Thread nD τ).loc main_arg3) :=
  (congrFun (VW26 m c) _).symm.trans (V26_main_arg3 m (outs m) c)
theorem W26_main_arg4 (c : Dev nD) : W26 m c main_arg4 = m ((c : Thread nD τ).loc main_arg4) :=
  (congrFun (VW26 m c) _).symm.trans (V26_main_arg4 m (outs m) c)
theorem W26_main_arg5 (c : Dev nD) : W26 m c main_arg5 = m ((c : Thread nD τ).loc main_arg5) :=
  (congrFun (VW26 m c) _).symm.trans (V26_main_arg5 m (outs m) c)
theorem W26_main_arg6 (c : Dev nD) : W26 m c main_arg6 = m ((c : Thread nD τ).loc main_arg6) :=
  (congrFun (VW26 m c) _).symm.trans (V26_main_arg6 m (outs m) c)
theorem W26_main_arg7 (c : Dev nD) : W26 m c main_arg7 = m ((c : Thread nD τ).loc main_arg7) :=
  (congrFun (VW26 m c) _).symm.trans (V26_main_arg7 m (outs m) c)
theorem W26_main_arg8 (c : Dev nD) : W26 m c main_arg8 = m ((c : Thread nD τ).loc main_arg8) :=
  (congrFun (VW26 m c) _).symm.trans (V26_main_arg8 m (outs m) c)
theorem W26_main_arg9 (c : Dev nD) : W26 m c main_arg9 = m ((c : Thread nD τ).loc main_arg9) :=
  (congrFun (VW26 m c) _).symm.trans (V26_main_arg9 m (outs m) c)
theorem W26_main_arg10 (c : Dev nD) : W26 m c main_arg10 = m ((c : Thread nD τ).loc main_arg10) :=
  (congrFun (VW26 m c) _).symm.trans (V26_main_arg10 m (outs m) c)
theorem W26_main_arg11 (c : Dev nD) : W26 m c main_arg11 = m ((c : Thread nD τ).loc main_arg11) :=
  (congrFun (VW26 m c) _).symm.trans (V26_main_arg11 m (outs m) c)
theorem W26_main_arg12 (c : Dev nD) : W26 m c main_arg12 = m ((c : Thread nD τ).loc main_arg12) :=
  (congrFun (VW26 m c) _).symm.trans (V26_main_arg12 m (outs m) c)
theorem W26_main_arg13 (c : Dev nD) : W26 m c main_arg13 = m ((c : Thread nD τ).loc main_arg13) :=
  (congrFun (VW26 m c) _).symm.trans (V26_main_arg13 m (outs m) c)
theorem W26_main_arg14 (c : Dev nD) : W26 m c main_arg14 = m ((c : Thread nD τ).loc main_arg14) :=
  (congrFun (VW26 m c) _).symm.trans (V26_main_arg14 m (outs m) c)
theorem W26_main_arg15 (c : Dev nD) : W26 m c main_arg15 = m ((c : Thread nD τ).loc main_arg15) :=
  (congrFun (VW26 m c) _).symm.trans (V26_main_arg15 m (outs m) c)
theorem W26_main_arg16 (c : Dev nD) : W26 m c main_arg16 = m ((c : Thread nD τ).loc main_arg16) :=
  (congrFun (VW26 m c) _).symm.trans (V26_main_arg16 m (outs m) c)
theorem W26_main_arg17 (c : Dev nD) : W26 m c main_arg17 = m ((c : Thread nD τ).loc main_arg17) :=
  (congrFun (VW26 m c) _).symm.trans (V26_main_arg17 m (outs m) c)
theorem W26_main_arg18 (c : Dev nD) : W26 m c main_arg18 = m ((c : Thread nD τ).loc main_arg18) :=
  (congrFun (VW26 m c) _).symm.trans (V26_main_arg18 m (outs m) c)
theorem W26_main_arg19 (c : Dev nD) : W26 m c main_arg19 = m ((c : Thread nD τ).loc main_arg19) :=
  (congrFun (VW26 m c) _).symm.trans (V26_main_arg19 m (outs m) c)

/-- THE FRAME: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run _ _ _).mono (fun r h c =>
    ⟨(h c _ (mem_uc main_arg0 (by decide))).trans (W26_main_arg0 m c),
     (h c _ (mem_uc main_arg1 (by decide))).trans (W26_main_arg1 m c),
     (h c _ (mem_uc main_arg2 (by decide))).trans (W26_main_arg2 m c),
     (h c _ (mem_uc main_arg3 (by decide))).trans (W26_main_arg3 m c),
     (h c _ (mem_uc main_arg4 (by decide))).trans (W26_main_arg4 m c),
     (h c _ (mem_uc main_arg5 (by decide))).trans (W26_main_arg5 m c),
     (h c _ (mem_uc main_arg6 (by decide))).trans (W26_main_arg6 m c),
     (h c _ (mem_uc main_arg7 (by decide))).trans (W26_main_arg7 m c),
     (h c _ (mem_uc main_arg8 (by decide))).trans (W26_main_arg8 m c),
     (h c _ (mem_uc main_arg9 (by decide))).trans (W26_main_arg9 m c),
     (h c _ (mem_uc main_arg10 (by decide))).trans (W26_main_arg10 m c),
     (h c _ (mem_uc main_arg11 (by decide))).trans (W26_main_arg11 m c),
     (h c _ (mem_uc main_arg12 (by decide))).trans (W26_main_arg12 m c),
     (h c _ (mem_uc main_arg13 (by decide))).trans (W26_main_arg13 m c),
     (h c _ (mem_uc main_arg14 (by decide))).trans (W26_main_arg14 m c),
     (h c _ (mem_uc main_arg15 (by decide))).trans (W26_main_arg15 m c),
     (h c _ (mem_uc main_arg16 (by decide))).trans (W26_main_arg16 m c),
     (h c _ (mem_uc main_arg17 (by decide))).trans (W26_main_arg17 m c),
     (h c _ (mem_uc main_arg18 (by decide))).trans (W26_main_arg18 m c),
     (h c _ (mem_uc main_arg19 (by decide))).trans (W26_main_arg19 m c)⟩) (run_read m ρ)

/-- The result's buffer at the end: what the last region's write-backs leave in its output array. -/
theorem W26_result (c : Dev nD) : W26 m c main_v169 = o26 m c := outs_26 m c

/-- The run with the result named: the result buffer ends at the last boundary's contents, every argument as launched. -/
theorem run_result : θ_run defs (onTc (τ := τ) (main (F := F))) ⟨m, fun _ => 0, ρ⟩ (fun r => ∀ c : Dev nD,
      r.2.mem ((c.tc : Thread nD τ).loc main_v169) = W26 m c main_v169
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run _ _ _).mono (fun r h c =>
    ⟨h c _ (mem_uc main_v169 (by decide)),
     (h c _ (mem_uc main_arg0 (by decide))).trans (W26_main_arg0 m c),
     (h c _ (mem_uc main_arg1 (by decide))).trans (W26_main_arg1 m c),
     (h c _ (mem_uc main_arg2 (by decide))).trans (W26_main_arg2 m c),
     (h c _ (mem_uc main_arg3 (by decide))).trans (W26_main_arg3 m c),
     (h c _ (mem_uc main_arg4 (by decide))).trans (W26_main_arg4 m c),
     (h c _ (mem_uc main_arg5 (by decide))).trans (W26_main_arg5 m c),
     (h c _ (mem_uc main_arg6 (by decide))).trans (W26_main_arg6 m c),
     (h c _ (mem_uc main_arg7 (by decide))).trans (W26_main_arg7 m c),
     (h c _ (mem_uc main_arg8 (by decide))).trans (W26_main_arg8 m c),
     (h c _ (mem_uc main_arg9 (by decide))).trans (W26_main_arg9 m c),
     (h c _ (mem_uc main_arg10 (by decide))).trans (W26_main_arg10 m c),
     (h c _ (mem_uc main_arg11 (by decide))).trans (W26_main_arg11 m c),
     (h c _ (mem_uc main_arg12 (by decide))).trans (W26_main_arg12 m c),
     (h c _ (mem_uc main_arg13 (by decide))).trans (W26_main_arg13 m c),
     (h c _ (mem_uc main_arg14 (by decide))).trans (W26_main_arg14 m c),
     (h c _ (mem_uc main_arg15 (by decide))).trans (W26_main_arg15 m c),
     (h c _ (mem_uc main_arg16 (by decide))).trans (W26_main_arg16 m c),
     (h c _ (mem_uc main_arg17 (by decide))).trans (W26_main_arg17 m c),
     (h c _ (mem_uc main_arg18 (by decide))).trans (W26_main_arg18 m c),
     (h c _ (mem_uc main_arg19 (by decide))).trans (W26_main_arg19 m c)⟩) (run_read m ρ)

end Cert.Kernel.Rg

end
-- ==== Proof.KI.Rg0.lean ====
/-
  One kernel region of the program, number 0: that its body, called by the pipeline at any grid point on the
  staging buffers holding the input windows' blocks, terminates without a fault, leaves the inputs' buffers as
  they were and writes the output window's buffer whole with the body's one value of those blocks; and the
  proof data the pipeline's run is stated over (the arrays as the region finds them, each window's buffer after
  the body at each point).
-/
import proofs.«109784_j28140625724052_1_alg».proof.Proof.Gen.KernelIdeal.Launch
import proofs.«109784_j28140625724052_1_alg».proof.Proof.Gen.KernelIdeal.Skeleton
import proofs.«109784_j28140625724052_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 0: the kernel `cc0__linear_relu_kernel` on the region's entry contents `V` -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, fetched there or kept from an earlier
    point at which the block index was the same. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds the window's block at every point, fetched there or kept from an earlier
    point at which the block index was the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds the window's block at every point, fetched there or kept from an earlier
    point at which the block index was the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole of a `S1024x78` buffer as a rectangle: what the body loads and stores. -/
abbrev r0_S1024x78 : Rect S1024x78 := Rect.unit (s := S1024x78) ![0, 0] S1024x78.size inb_S1024x78_S1024x78_0_0
/-- The whole of a `S78x512` buffer as a rectangle: what the body loads and stores. -/
abbrev r0_S78x512 : Rect S78x512 := Rect.unit (s := S78x512) ![0, 0] S78x512.size inb_S78x512_S78x512_0_0
/-- The whole of a `S1x512` buffer as a rectangle: what the body loads and stores. -/
abbrev r0_S1x512 : Rect S1x512 := Rect.unit (s := S1x512) ![0, 0] S1x512.size inb_S1x512_S1x512_0_0
/-- The whole of a `S1024x512` buffer as a rectangle: what the body loads and stores. -/
abbrev r0_S1024x512 : Rect S1024x512 := Rect.unit (s := S1024x512) ![0, 0] S1024x512.size inb_S1024x512_S1024x512_0_0

/-- The output window's staging buffer after the body: the body's one value of the input blocks, stored whole. -/
def out0_3 (x0 : Vec F S1024x78 .f32) (x1 : Vec F S78x512 .f32) (x2 : Vec F S1x512 .f32) : Vec F S1024x512 .f32 :=
  View.canon [⟨r0_S1024x512, k0_pay1 (View.ld x0 r0_S1024x78) (View.ld x1 r0_S78x512) (View.ld x2 r0_S1x512)⟩]

/-- The one store covers the buffer. -/
theorem cover0_3 (p0 : Vec F S1024x512 .f32) (y : S1024x512.Idx) :
    ∃ pc ∈ ([⟨r0_S1024x512, p0⟩] : List (View.Piece (Elt F) S1024x512 .f32)), y ∈ pc.1.set :=
  View.cover_of_tiled [⟨r0_S1024x512, p0⟩] S1024x512.size (by rfl) y

set_option maxHeartbeats 1000000 in
/-- The body on whole staging memrefs, the inputs' holding `x_j` and the output's anything, runs to a continuation
    that holds the inputs' unchanged and the output's at `out0_3` of the inputs. -/
theorem sound_kernel0 (c : Dev nD) (E : Set ℕ) (i : grid0.Coords) (arg1 : Memref sig .tc .vmem S1024x78 .f32) (harg1 : arg1.IsWhole) (arg2 : Memref sig .tc .vmem S78x512 .f32) (harg2 : arg2.IsWhole) (arg3 : Memref sig .tc .vmem S1x512 .f32) (harg3 : arg3.IsWhole) (arg4 : Memref sig .tc .vmem S1024x512 .f32) (harg4 : arg4.IsWhole)
    (x0 : Vec F S1024x78 .f32) (x1 : Vec F S78x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_relu_kernel i arg1 harg1 arg2 harg2 arg3 harg3 arg4 harg4) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core `c`: the arrays as the region finds them; after the body at point `t` each input's
    buffer at its block and the output's at `out0_3` of the input blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Rg

end
-- ==== Proof.KI.Rg1.lean ====
/-
  One kernel region of the program, number 1: that its body, called by the pipeline at any grid point on the
  staging buffers holding the input windows' blocks, terminates without a fault, leaves the inputs' buffers as
  they were and writes the output window's buffer whole with the body's one value of those blocks; and the
  proof data the pipeline's run is stated over (the arrays as the region finds them, each window's buffer after
  the body at each point).
-/
import proofs.«109784_j28140625724052_1_alg».proof.Proof.Gen.KernelIdeal.Launch
import proofs.«109784_j28140625724052_1_alg».proof.Proof.Gen.KernelIdeal.Skeleton
import proofs.«109784_j28140625724052_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 1: the kernel `cc1__gcnii_kernel` on the region's entry contents `V` -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, fetched there or kept from an earlier
    point at which the block index was the same. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block at every point, fetched there or kept from an earlier
    point at which the block index was the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block at every point, fetched there or kept from an earlier
    point at which the block index was the same. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block at every point, fetched there or kept from an earlier
    point at which the block index was the same. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole of a `S1024x512` buffer as a rectangle: what the body loads and stores. -/
abbrev r1_S1024x512 : Rect S1024x512 := Rect.unit (s := S1024x512) ![0, 0] S1024x512.size inb_S1024x512_S1024x512_0_0
/-- The whole of a `S512x512` buffer as a rectangle: what the body loads and stores. -/
abbrev r1_S512x512 : Rect S512x512 := Rect.unit (s := S512x512) ![0, 0] S512x512.size inb_S512x512_S512x512_0_0

/-- The output window's staging buffer after the body: the body's one value of the input blocks, stored whole. -/
def out1_4 (x0 : Vec F S1024x512 .f32) (x1 : Vec F S1024x512 .f32) (x2 : Vec F S1024x512 .f32) (x3 : Vec F S512x512 .f32) : Vec F S1024x512 .f32 :=
  View.canon [⟨r1_S1024x512, k1_pay1 (View.ld x0 r1_S1024x512) (View.ld x1 r1_S1024x512) (View.ld x2 r1_S1024x512) (View.ld x3 r1_S512x512)⟩]

/-- The one store covers the buffer. -/
theorem cover1_4 (p0 : Vec F S1024x512 .f32) (y : S1024x512.Idx) :
    ∃ pc ∈ ([⟨r1_S1024x512, p0⟩] : List (View.Piece (Elt F) S1024x512 .f32)), y ∈ pc.1.set :=
  View.cover_of_tiled [⟨r1_S1024x512, p0⟩] S1024x512.size (by rfl) y

set_option maxHeartbeats 1000000 in
/-- The body on whole staging memrefs, the inputs' holding `x_j` and the output's anything, runs to a continuation
    that holds the inputs' unchanged and the output's at `out1_4` of the inputs. -/
theorem sound_kernel1 (c : Dev nD) (E : Set ℕ) (i : grid1.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x512 .f32) (harg5 : arg5.IsWhole)
    (x0 : Vec F S1024x512 .f32) (x1 : Vec F S1024x512 .f32) (x2 : Vec F S1024x512 .f32) (x3 : Vec F S512x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__gcnii_kernel i arg1 harg1 arg2 harg2 arg3 harg3 arg4 harg4 arg5 harg5) K := by
  simp only [cc1__gcnii_kernel_eq_skeleton]; unfold cc1__gcnii_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The region's proof data on core `c`: the arrays as the region finds them; after the body at point `t` each input's
    buffer at its block and the output's at `out1_4` of the input blocks; the invariant is the scoped rest and the
    generator register, untouched; nothing owed; full shares,
    except that the two input windows that read one array hold one half of it each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Rg

end
-- ==== Proof.KI.Rg2.lean ====
/-
  One kernel region of the program, number 2: that its body, called by the pipeline at any grid point on the
  staging buffers holding the input windows' blocks, terminates without a fault, leaves the inputs' buffers as
  they were and writes the output window's buffer whole with the body's one value of those blocks; and the
  proof data the pipeline's run is stated over (the arrays as the region finds them, each window's buffer after
  the body at each point).
-/
import proofs.«109784_j28140625724052_1_alg».proof.Proof.Gen.KernelIdeal.Launch
import proofs.«109784_j28140625724052_1_alg».proof.Proof.Gen.KernelIdeal.Skeleton
import proofs.«109784_j28140625724052_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 2: the kernel `cc2__gcnii_kernel` on the region's entry contents `V` -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, fetched there or kept from an earlier
    point at which the block index was the same. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds the window's block at every point, fetched there or kept from an earlier
    point at which the block index was the same. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds the window's block at every point, fetched there or kept from an earlier
    point at which the block index was the same. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds the window's block at every point, fetched there or kept from an earlier
    point at which the block index was the same. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole of a `S1024x512` buffer as a rectangle: what the body loads and stores. -/
abbrev r2_S1024x512 : Rect S1024x512 := Rect.unit (s := S1024x512) ![0, 0] S1024x512.size inb_S1024x512_S1024x512_0_0
/-- The whole of a `S512x512` buffer as a rectangle: what the body loads and stores. -/
abbrev r2_S512x512 : Rect S512x512 := Rect.unit (s := S512x512) ![0, 0] S512x512.size inb_S512x512_S512x512_0_0

/-- The output window's staging buffer after the body: the body's one value of the input blocks, stored whole. -/
def out2_4 (x0 : Vec F S1024x512 .f32) (x1 : Vec F S1024x512 .f32) (x2 : Vec F S1024x512 .f32) (x3 : Vec F S512x512 .f32) : Vec F S1024x512 .f32 :=
  View.canon [⟨r2_S1024x512, k2_pay1 (View.ld x0 r2_S1024x512) (View.ld x1 r2_S1024x512) (View.ld x2 r2_S1024x512) (View.ld x3 r2_S512x512)⟩]

/-- The one store covers the buffer. -/
theorem cover2_4 (p0 : Vec F S1024x512 .f32) (y : S1024x512.Idx) :
    ∃ pc ∈ ([⟨r2_S1024x512, p0⟩] : List (View.Piece (Elt F) S1024x512 .f32)), y ∈ pc.1.set :=
  View.cover_of_tiled [⟨r2_S1024x512, p0⟩] S1024x512.size (by rfl) y

set_option maxHeartbeats 1000000 in
/-- The body on whole staging memrefs, the inputs' holding `x_j` and the output's anything, runs to a continuation
    that holds the inputs' unchanged and the output's at `out2_4` of the inputs. -/
theorem sound_kernel2 (c : Dev nD) (E : Set ℕ) (i : grid2.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x512 .f32) (harg5 : arg5.IsWhole)
    (x0 : Vec F S1024x512 .f32) (x1 : Vec F S1024x512 .f32) (x2 : Vec F S1024x512 .f32) (x3 : Vec F S512x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__gcnii_kernel i arg1 harg1 arg2 harg2 arg3 harg3 arg4 harg4 arg5 harg5) K := by
  simp only [cc2__gcnii_kernel_eq_skeleton]; unfold cc2__gcnii_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The region's proof data on core `c`: the arrays as the region finds them; after the body at point `t` each input's
    buffer at its block and the output's at `out2_4` of the input blocks; the invariant is the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Rg

end
-- ==== Proof.KI.Rg3.lean ====
/-
  One kernel region of the program, number 3: that its body, called by the pipeline at any grid point on the
  staging buffers holding the input windows' blocks, terminates without a fault, leaves the inputs' buffers as
  they were and writes the output window's buffer whole with the body's one value of those blocks; and the
  proof data the pipeline's run is stated over (the arrays as the region finds them, each window's buffer after
  the body at each point).
-/
import proofs.«109784_j28140625724052_1_alg».proof.Proof.Gen.KernelIdeal.Launch
import proofs.«109784_j28140625724052_1_alg».proof.Proof.Gen.KernelIdeal.Skeleton
import proofs.«109784_j28140625724052_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 3: the kernel `cc3__gcnii_kernel` on the region's entry contents `V` -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the window's block at every point, fetched there or kept from an earlier
    point at which the block index was the same. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds the window's block at every point, fetched there or kept from an earlier
    point at which the block index was the same. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds the window's block at every point, fetched there or kept from an earlier
    point at which the block index was the same. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds the window's block at every point, fetched there or kept from an earlier
    point at which the block index was the same. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The whole of a `S1024x512` buffer as a rectangle: what the body loads and stores. -/
abbrev r3_S1024x512 : Rect S1024x512 := Rect.unit (s := S1024x512) ![0, 0] S1024x512.size inb_S1024x512_S1024x512_0_0
/-- The whole of a `S512x512` buffer as a rectangle: what the body loads and stores. -/
abbrev r3_S512x512 : Rect S512x512 := Rect.unit (s := S512x512) ![0, 0] S512x512.size inb_S512x512_S512x512_0_0

/-- The output window's staging buffer after the body: the body's one value of the input blocks, stored whole. -/
def out3_4 (x0 : Vec F S1024x512 .f32) (x1 : Vec F S1024x512 .f32) (x2 : Vec F S1024x512 .f32) (x3 : Vec F S512x512 .f32) : Vec F S1024x512 .f32 :=
  View.canon [⟨r3_S1024x512, k3_pay1 (View.ld x0 r3_S1024x512) (View.ld x1 r3_S1024x512) (View.ld x2 r3_S1024x512) (View.ld x3 r3_S512x512)⟩]

/-- The one store covers the buffer. -/
theorem cover3_4 (p0 : Vec F S1024x512 .f32) (y : S1024x512.Idx) :
    ∃ pc ∈ ([⟨r3_S1024x512, p0⟩] : List (View.Piece (Elt F) S1024x512 .f32)), y ∈ pc.1.set :=
  View.cover_of_tiled [⟨r3_S1024x512, p0⟩] S1024x512.size (by rfl) y

set_option maxHeartbeats 1000000 in
/-- The body on whole staging memrefs, the inputs' holding `x_j` and the output's anything, runs to a continuation
    that holds the inputs' unchanged and the output's at `out3_4` of the inputs. -/
theorem sound_kernel3 (c : Dev nD) (E : Set ℕ) (i : grid3.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x512 .f32) (harg5 : arg5.IsWhole)
    (x0 : Vec F S1024x512 .f32) (x1 : Vec F S1024x512 .f32) (x2 : Vec F S1024x512 .f32) (x3 : Vec F S512x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__gcnii_kernel i arg1 harg1 arg2 harg2 arg3 harg3 arg4 harg4 arg5 harg5) K := by
  simp only [cc3__gcnii_kernel_eq_skeleton]; unfold cc3__gcnii_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The region's proof data on core `c`: the arrays as the region finds them; after the body at point `t` each input's
    buffer at its block and the output's at `out3_4` of the input blocks; the invariant is the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Rg

end
-- ==== Proof.KI.Rg4.lean ====
/-
  One kernel region of the program, number 4: that its body, called by the pipeline at any grid point on the
  staging buffers holding the input windows' blocks, terminates without a fault, leaves the inputs' buffers as
  they were and writes the output window's buffer whole with the body's one value of those blocks; and the
  proof data the pipeline's run is stated over (the arrays as the region finds them, each window's buffer after
  the body at each point).
-/
import proofs.«109784_j28140625724052_1_alg».proof.Proof.Gen.KernelIdeal.Launch
import proofs.«109784_j28140625724052_1_alg».proof.Proof.Gen.KernelIdeal.Skeleton
import proofs.«109784_j28140625724052_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 4: the kernel `cc4__linear_kernel` on the region's entry contents `V` -/

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds the window's block at every point, fetched there or kept from an earlier
    point at which the block index was the same. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds the window's block at every point, fetched there or kept from an earlier
    point at which the block index was the same. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds the window's block at every point, fetched there or kept from an earlier
    point at which the block index was the same. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole of a `S1024x512` buffer as a rectangle: what the body loads and stores. -/
abbrev r4_S1024x512 : Rect S1024x512 := Rect.unit (s := S1024x512) ![0, 0] S1024x512.size inb_S1024x512_S1024x512_0_0
/-- The whole of a `S512x128` buffer as a rectangle: what the body loads and stores. -/
abbrev r4_S512x128 : Rect S512x128 := Rect.unit (s := S512x128) ![0, 0] S512x128.size inb_S512x128_S512x128_0_0
/-- The whole of a `S1x128` buffer as a rectangle: what the body loads and stores. -/
abbrev r4_S1x128 : Rect S1x128 := Rect.unit (s := S1x128) ![0, 0] S1x128.size inb_S1x128_S1x128_0_0
/-- The whole of a `S1024x128` buffer as a rectangle: what the body loads and stores. -/
abbrev r4_S1024x128 : Rect S1024x128 := Rect.unit (s := S1024x128) ![0, 0] S1024x128.size inb_S1024x128_S1024x128_0_0

/-- The output window's staging buffer after the body: the body's one value of the input blocks, stored whole. -/
def out4_3 (x0 : Vec F S1024x512 .f32) (x1 : Vec F S512x128 .f32) (x2 : Vec F S1x128 .f32) : Vec F S1024x128 .f32 :=
  View.canon [⟨r4_S1024x128, k4_pay1 (View.ld x0 r4_S1024x512) (View.ld x1 r4_S512x128) (View.ld x2 r4_S1x128)⟩]

/-- The one store covers the buffer. -/
theorem cover4_3 (p0 : Vec F S1024x128 .f32) (y : S1024x128.Idx) :
    ∃ pc ∈ ([⟨r4_S1024x128, p0⟩] : List (View.Piece (Elt F) S1024x128 .f32)), y ∈ pc.1.set :=
  View.cover_of_tiled [⟨r4_S1024x128, p0⟩] S1024x128.size (by rfl) y

set_option maxHeartbeats 1000000 in
/-- The body on whole staging memrefs, the inputs' holding `x_j` and the output's anything, runs to a continuation
    that holds the inputs' unchanged and the output's at `out4_3` of the inputs. -/
theorem sound_kernel4 (c : Dev nD) (E : Set ℕ) (i : grid4.Coords) (arg1 : Memref sig .tc .vmem S1024x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S1024x128 .f32) (harg4 : arg4.IsWhole)
    (x0 : Vec F S1024x512 .f32) (x1 : Vec F S512x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The region's proof data on core `c`: the arrays as the region finds them; after the body at point `t` each input's
    buffer at its block and the output's at `out4_3` of the input blocks; the invariant is the scoped rest and the
    generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so `sound_kernel4` applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Rg

end
-- ==== Proof.KI.Rg5.lean ====
/-
  One kernel region of the program, number 5: that its body, called by the pipeline at any grid point on the
  staging buffers holding the input windows' blocks, terminates without a fault, leaves the inputs' buffers as
  they were and writes the output window's buffer whole with the body's one value of those blocks; and the
  proof data the pipeline's run is stated over (the arrays as the region finds them, each window's buffer after
  the body at each point).
-/
import proofs.«109784_j28140625724052_1_alg».proof.Proof.Gen.KernelIdeal.Launch
import proofs.«109784_j28140625724052_1_alg».proof.Proof.Gen.KernelIdeal.Skeleton
import proofs.«109784_j28140625724052_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 5: the kernel `cc5__linear_relu_kernel` on the region's entry contents `V` -/

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds the window's block at every point, fetched there or kept from an earlier
    point at which the block index was the same. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- An input window's staging buffer holds the window's block at every point, fetched there or kept from an earlier
    point at which the block index was the same. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- An input window's staging buffer holds the window's block at every point, fetched there or kept from an earlier
    point at which the block index was the same. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The whole of a `S1024x54` buffer as a rectangle: what the body loads and stores. -/
abbrev r5_S1024x54 : Rect S1024x54 := Rect.unit (s := S1024x54) ![0, 0] S1024x54.size inb_S1024x54_S1024x54_0_0
/-- The whole of a `S54x512` buffer as a rectangle: what the body loads and stores. -/
abbrev r5_S54x512 : Rect S54x512 := Rect.unit (s := S54x512) ![0, 0] S54x512.size inb_S54x512_S54x512_0_0
/-- The whole of a `S1x512` buffer as a rectangle: what the body loads and stores. -/
abbrev r5_S1x512 : Rect S1x512 := Rect.unit (s := S1x512) ![0, 0] S1x512.size inb_S1x512_S1x512_0_0
/-- The whole of a `S1024x512` buffer as a rectangle: what the body loads and stores. -/
abbrev r5_S1024x512 : Rect S1024x512 := Rect.unit (s := S1024x512) ![0, 0] S1024x512.size inb_S1024x512_S1024x512_0_0

/-- The output window's staging buffer after the body: the body's one value of the input blocks, stored whole. -/
def out5_3 (x0 : Vec F S1024x54 .f32) (x1 : Vec F S54x512 .f32) (x2 : Vec F S1x512 .f32) : Vec F S1024x512 .f32 :=
  View.canon [⟨r5_S1024x512, k5_pay1 (View.ld x0 r5_S1024x54) (View.ld x1 r5_S54x512) (View.ld x2 r5_S1x512)⟩]

/-- The one store covers the buffer. -/
theorem cover5_3 (p0 : Vec F S1024x512 .f32) (y : S1024x512.Idx) :
    ∃ pc ∈ ([⟨r5_S1024x512, p0⟩] : List (View.Piece (Elt F) S1024x512 .f32)), y ∈ pc.1.set :=
  View.cover_of_tiled [⟨r5_S1024x512, p0⟩] S1024x512.size (by rfl) y

set_option maxHeartbeats 1000000 in
/-- The body on whole staging memrefs, the inputs' holding `x_j` and the output's anything, runs to a continuation
    that holds the inputs' unchanged and the output's at `out5_3` of the inputs. -/
theorem sound_kernel5 (c : Dev nD) (E : Set ℕ) (i : grid5.Coords) (arg1 : Memref sig .tc .vmem S1024x54 .f32) (harg1 : arg1.IsWhole) (arg2 : Memref sig .tc .vmem S54x512 .f32) (harg2 : arg2.IsWhole) (arg3 : Memref sig .tc .vmem S1x512 .f32) (harg3 : arg3.IsWhole) (arg4 : Memref sig .tc .vmem S1024x512 .f32) (harg4 : arg4.IsWhole)
    (x0 : Vec F S1024x54 .f32) (x1 : Vec F S54x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__linear_relu_kernel i arg1 harg1 arg2 harg2 arg3 harg3 arg4 harg4) K := by
  simp only [cc5__linear_relu_kernel_eq_skeleton]; unfold cc5__linear_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The region's proof data on core `c`: the arrays as the region finds them; after the body at point `t` each input's
    buffer at its block and the output's at `out5_3` of the input blocks; the invariant is the scoped rest and the
    generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so `sound_kernel5` applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Rg

end
-- ==== Proof.KI.Rg6.lean ====
/-
  One kernel region of the program, number 6: that its body, called by the pipeline at any grid point on the
  staging buffers holding the input windows' blocks, terminates without a fault, leaves the inputs' buffers as
  they were and writes the output window's buffer whole with the body's one value of those blocks; and the
  proof data the pipeline's run is stated over (the arrays as the region finds them, each window's buffer after
  the body at each point).
-/
import proofs.«109784_j28140625724052_1_alg».proof.Proof.Gen.KernelIdeal.Launch
import proofs.«109784_j28140625724052_1_alg».proof.Proof.Gen.KernelIdeal.Skeleton
import proofs.«109784_j28140625724052_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 6: the kernel `cc6__gcnii_kernel` on the region's entry contents `V` -/

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's staging buffer holds the window's block at every point, fetched there or kept from an earlier
    point at which the block index was the same. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- An input window's staging buffer holds the window's block at every point, fetched there or kept from an earlier
    point at which the block index was the same. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- An input window's staging buffer holds the window's block at every point, fetched there or kept from an earlier
    point at which the block index was the same. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- An input window's staging buffer holds the window's block at every point, fetched there or kept from an earlier
    point at which the block index was the same. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- The whole of a `S1024x512` buffer as a rectangle: what the body loads and stores. -/
abbrev r6_S1024x512 : Rect S1024x512 := Rect.unit (s := S1024x512) ![0, 0] S1024x512.size inb_S1024x512_S1024x512_0_0
/-- The whole of a `S512x512` buffer as a rectangle: what the body loads and stores. -/
abbrev r6_S512x512 : Rect S512x512 := Rect.unit (s := S512x512) ![0, 0] S512x512.size inb_S512x512_S512x512_0_0

/-- The output window's staging buffer after the body: the body's one value of the input blocks, stored whole. -/
def out6_4 (x0 : Vec F S1024x512 .f32) (x1 : Vec F S1024x512 .f32) (x2 : Vec F S1024x512 .f32) (x3 : Vec F S512x512 .f32) : Vec F S1024x512 .f32 :=
  View.canon [⟨r6_S1024x512, k6_pay1 (View.ld x0 r6_S1024x512) (View.ld x1 r6_S1024x512) (View.ld x2 r6_S1024x512) (View.ld x3 r6_S512x512)⟩]

/-- The one store covers the buffer. -/
theorem cover6_4 (p0 : Vec F S1024x512 .f32) (y : S1024x512.Idx) :
    ∃ pc ∈ ([⟨r6_S1024x512, p0⟩] : List (View.Piece (Elt F) S1024x512 .f32)), y ∈ pc.1.set :=
  View.cover_of_tiled [⟨r6_S1024x512, p0⟩] S1024x512.size (by rfl) y

set_option maxHeartbeats 1000000 in
/-- The body on whole staging memrefs, the inputs' holding `x_j` and the output's anything, runs to a continuation
    that holds the inputs' unchanged and the output's at `out6_4` of the inputs. -/
theorem sound_kernel6 (c : Dev nD) (E : Set ℕ) (i : grid6.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x512 .f32) (harg5 : arg5.IsWhole)
    (x0 : Vec F S1024x512 .f32) (x1 : Vec F S1024x512 .f32) (x2 : Vec F S1024x512 .f32) (x3 : Vec F S512x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out6_4 x0 x1 x2 x3)) -∗ K ⟨⟩))
      ⊢ wp frame (wpE (defs₀ (F := F)) Variants.none c none) E (cc6__gcnii_kernel i arg1 harg1 arg2 harg2 arg3 harg3 arg4 harg4 arg5 harg5) K := by
  simp only [cc6__gcnii_kernel_eq_skeleton]; unfold cc6__gcnii_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6_4 _)

/-- The region's proof data on core `c`: the arrays as the region finds them; after the body at point `t` each input's
    buffer at its block and the output's at `out6_4` of the input blocks; the invariant is the scoped rest and the
    generator register, untouched; nothing owed; full shares,
    except that the two input windows that read one array hold one half of it each. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6_4 (iblk6 V c 0 t) (iblk6 V c 1 t) (iblk6 V c 2 t) (iblk6 V c 3 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

/-- The body at any point: the inputs' memrefs hold their blocks, so `sound_kernel6` applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ _ _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Rg

end
-- ==== Proof.KI.Rg7.lean ====
/-
  One kernel region of the program, number 7: that its body, called by the pipeline at any grid point on the
  staging buffers holding the input windows' blocks, terminates without a fault, leaves the inputs' buffers as
  they were and writes the output window's buffer whole with the body's one value of those blocks; and the
  proof data the pipeline's run is stated over (the arrays as the region finds them, each window's buffer after
  the body at each point).
-/
import proofs.«109784_j28140625724052_1_alg».proof.Proof.Gen.KernelIdeal.Launch
import proofs.«109784_j28140625724052_1_alg».proof.Proof.Gen.KernelIdeal.Skeleton
import proofs.«109784_j28140625724052_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 7: the kernel `cc7__gcnii_kernel` on the region's entry contents `V` -/

/-- Window `w`'s block at grid point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's staging buffer holds the window's block at every point, fetched there or kept from an earlier
    point at which the block index was the same. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- An input window's staging buffer holds the window's block at every point, fetched there or kept from an earlier
    point at which the block index was the same. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- An input window's staging buffer holds the window's block at every point, fetched there or kept from an earlier
    point at which the block index was the same. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- An input window's staging buffer holds the window's block at every point, fetched there or kept from an earlier
    point at which the block index was the same. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- The whole of a `S1024x512` buffer as a rectangle: what the body loads and stores. -/
abbrev r7_S1024x512 : Rect S1024x512 := Rect.unit (s := S1024x512) ![0, 0] S1024x512.size inb_S1024x512_S1024x512_0_0
/-- The whole of a `S512x512` buffer as a rectangle: what the body loads and stores. -/
abbrev r7_S512x512 : Rect S512x512 := Rect.unit (s := S512x512) ![0, 0] S512x512.size inb_S512x512_S512x512_0_0

/-- The output window's staging buffer after the body: the body's one value of the input blocks, stored whole. -/
def out7_4 (x0 : Vec F S1024x512 .f32) (x1 : Vec F S1024x512 .f32) (x2 : Vec F S1024x512 .f32) (x3 : Vec F S512x512 .f32) : Vec F S1024x512 .f32 :=
  View.canon [⟨r7_S1024x512, k7_pay1 (View.ld x0 r7_S1024x512) (View.ld x1 r7_S1024x512) (View.ld x2 r7_S1024x512) (View.ld x3 r7_S512x512)⟩]

/-- The one store covers the buffer. -/
theorem cover7_4 (p0 : Vec F S1024x512 .f32) (y : S1024x512.Idx) :
    ∃ pc ∈ ([⟨r7_S1024x512, p0⟩] : List (View.Piece (Elt F) S1024x512 .f32)), y ∈ pc.1.set :=
  View.cover_of_tiled [⟨r7_S1024x512, p0⟩] S1024x512.size (by rfl) y

set_option maxHeartbeats 1000000 in
/-- The body on whole staging memrefs, the inputs' holding `x_j` and the output's anything, runs to a continuation
    that holds the inputs' unchanged and the output's at `out7_4` of the inputs. -/
theorem sound_kernel7 (c : Dev nD) (E : Set ℕ) (i : grid7.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x512 .f32) (harg5 : arg5.IsWhole)
    (x0 : Vec F S1024x512 .f32) (x1 : Vec F S1024x512 .f32) (x2 : Vec F S1024x512 .f32) (x3 : Vec F S512x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out7_4 x0 x1 x2 x3)) -∗ K ⟨⟩))
      ⊢ wp frame (wpE (defs₀ (F := F)) Variants.none c none) E (cc7__gcnii_kernel i arg1 harg1 arg2 harg2 arg3 harg3 arg4 harg4 arg5 harg5) K := by
  simp only [cc7__gcnii_kernel_eq_skeleton]; unfold cc7__gcnii_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover7_4 _)

/-- The region's proof data on core `c`: the arrays as the region finds them; after the body at point `t` each input's
    buffer at its block and the output's at `out7_4` of the input blocks; the invariant is the scoped rest and the
    generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (iblk7 V c 0 t) (iblk7 V c 1 t) (iblk7 V c 2 t) (iblk7 V c 3 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = out7_4 (iblk7 V c 0 t) (iblk7 V c 1 t) (iblk7 V c 2 t) (iblk7 V c 3 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

/-- The body at any point: the inputs' memrefs hold their blocks, so `sound_kernel7` applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ _ _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Rg

end
-- ==== Proof.KI.Rg8.lean ====
/-
  One kernel region of the program, number 8: that its body, called by the pipeline at any grid point on the
  staging buffers holding the input windows' blocks, terminates without a fault, leaves the inputs' buffers as
  they were and writes the output window's buffer whole with the body's one value of those blocks; and the
  proof data the pipeline's run is stated over (the arrays as the region finds them, each window's buffer after
  the body at each point).
-/
import proofs.«109784_j28140625724052_1_alg».proof.Proof.Gen.KernelIdeal.Launch
import proofs.«109784_j28140625724052_1_alg».proof.Proof.Gen.KernelIdeal.Skeleton
import proofs.«109784_j28140625724052_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 8: the kernel `cc8__gcnii_kernel` on the region's entry contents `V` -/

/-- Window `w`'s block at grid point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's staging buffer holds the window's block at every point, fetched there or kept from an earlier
    point at which the block index was the same. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- An input window's staging buffer holds the window's block at every point, fetched there or kept from an earlier
    point at which the block index was the same. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- An input window's staging buffer holds the window's block at every point, fetched there or kept from an earlier
    point at which the block index was the same. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- An input window's staging buffer holds the window's block at every point, fetched there or kept from an earlier
    point at which the block index was the same. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- The whole of a `S1024x512` buffer as a rectangle: what the body loads and stores. -/
abbrev r8_S1024x512 : Rect S1024x512 := Rect.unit (s := S1024x512) ![0, 0] S1024x512.size inb_S1024x512_S1024x512_0_0
/-- The whole of a `S512x512` buffer as a rectangle: what the body loads and stores. -/
abbrev r8_S512x512 : Rect S512x512 := Rect.unit (s := S512x512) ![0, 0] S512x512.size inb_S512x512_S512x512_0_0

/-- The output window's staging buffer after the body: the body's one value of the input blocks, stored whole. -/
def out8_4 (x0 : Vec F S1024x512 .f32) (x1 : Vec F S1024x512 .f32) (x2 : Vec F S1024x512 .f32) (x3 : Vec F S512x512 .f32) : Vec F S1024x512 .f32 :=
  View.canon [⟨r8_S1024x512, k8_pay1 (View.ld x0 r8_S1024x512) (View.ld x1 r8_S1024x512) (View.ld x2 r8_S1024x512) (View.ld x3 r8_S512x512)⟩]

/-- The one store covers the buffer. -/
theorem cover8_4 (p0 : Vec F S1024x512 .f32) (y : S1024x512.Idx) :
    ∃ pc ∈ ([⟨r8_S1024x512, p0⟩] : List (View.Piece (Elt F) S1024x512 .f32)), y ∈ pc.1.set :=
  View.cover_of_tiled [⟨r8_S1024x512, p0⟩] S1024x512.size (by rfl) y

set_option maxHeartbeats 1000000 in
/-- The body on whole staging memrefs, the inputs' holding `x_j` and the output's anything, runs to a continuation
    that holds the inputs' unchanged and the output's at `out8_4` of the inputs. -/
theorem sound_kernel8 (c : Dev nD) (E : Set ℕ) (i : grid8.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1024x512 .f32) (harg5 : arg5.IsWhole)
    (x0 : Vec F S1024x512 .f32) (x1 : Vec F S1024x512 .f32) (x2 : Vec F S1024x512 .f32) (x3 : Vec F S512x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out8_4 x0 x1 x2 x3)) -∗ K ⟨⟩))
      ⊢ wp frame (wpE (defs₀ (F := F)) Variants.none c none) E (cc8__gcnii_kernel i arg1 harg1 arg2 harg2 arg3 harg3 arg4 harg4 arg5 harg5) K := by
  simp only [cc8__gcnii_kernel_eq_skeleton]; unfold cc8__gcnii_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover8_4 _)

/-- The region's proof data on core `c`: the arrays as the region finds them; after the body at point `t` each input's
    buffer at its block and the output's at `out8_4` of the input blocks; the invariant is the scoped rest and the
    generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => out8_4 (iblk8 V c 0 t) (iblk8 V c 1 t) (iblk8 V c 2 t) (iblk8 V c 3 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = out8_4 (iblk8 V c 0 t) (iblk8 V c 1 t) (iblk8 V c 2 t) (iblk8 V c 3 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

/-- The body at any point: the inputs' memrefs hold their blocks, so `sound_kernel8` applies; the invariant and the
    core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).Φ t.succ = (dat8 V c).Φ t.castSucc from rfl,
    show (dat8 V c).owesAt () t.succ = (dat8 V c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ _ _ _ _ _ _ _ _ _ _ _ (iblk8 V c 0 t) (iblk8 V c 1 t) (iblk8 V c 2 t) (iblk8 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Rg

end
-- ==== Proof.KI.Rg9.lean ====
/-
  One kernel region of the program, number 9: that its body, called by the pipeline at any grid point on the
  staging buffers holding the input windows' blocks, terminates without a fault, leaves the inputs' buffers as
  they were and writes the output window's buffer whole with the body's one value of those blocks; and the
  proof data the pipeline's run is stated over (the arrays as the region finds them, each window's buffer after
  the body at each point).
-/
import proofs.«109784_j28140625724052_1_alg».proof.Proof.Gen.KernelIdeal.Launch
import proofs.«109784_j28140625724052_1_alg».proof.Proof.Gen.KernelIdeal.Skeleton
import proofs.«109784_j28140625724052_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 9: the kernel `cc9__linear_kernel` on the region's entry contents `V` -/

/-- Window `w`'s block at grid point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's staging buffer holds the window's block at every point, fetched there or kept from an earlier
    point at which the block index was the same. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- An input window's staging buffer holds the window's block at every point, fetched there or kept from an earlier
    point at which the block index was the same. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- An input window's staging buffer holds the window's block at every point, fetched there or kept from an earlier
    point at which the block index was the same. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- The whole of a `S1024x512` buffer as a rectangle: what the body loads and stores. -/
abbrev r9_S1024x512 : Rect S1024x512 := Rect.unit (s := S1024x512) ![0, 0] S1024x512.size inb_S1024x512_S1024x512_0_0
/-- The whole of a `S512x128` buffer as a rectangle: what the body loads and stores. -/
abbrev r9_S512x128 : Rect S512x128 := Rect.unit (s := S512x128) ![0, 0] S512x128.size inb_S512x128_S512x128_0_0
/-- The whole of a `S1x128` buffer as a rectangle: what the body loads and stores. -/
abbrev r9_S1x128 : Rect S1x128 := Rect.unit (s := S1x128) ![0, 0] S1x128.size inb_S1x128_S1x128_0_0
/-- The whole of a `S1024x128` buffer as a rectangle: what the body loads and stores. -/
abbrev r9_S1024x128 : Rect S1024x128 := Rect.unit (s := S1024x128) ![0, 0] S1024x128.size inb_S1024x128_S1024x128_0_0

/-- The output window's staging buffer after the body: the body's one value of the input blocks, stored whole. -/
def out9_3 (x0 : Vec F S1024x512 .f32) (x1 : Vec F S512x128 .f32) (x2 : Vec F S1x128 .f32) : Vec F S1024x128 .f32 :=
  View.canon [⟨r9_S1024x128, k9_pay1 (View.ld x0 r9_S1024x512) (View.ld x1 r9_S512x128) (View.ld x2 r9_S1x128)⟩]

/-- The one store covers the buffer. -/
theorem cover9_3 (p0 : Vec F S1024x128 .f32) (y : S1024x128.Idx) :
    ∃ pc ∈ ([⟨r9_S1024x128, p0⟩] : List (View.Piece (Elt F) S1024x128 .f32)), y ∈ pc.1.set :=
  View.cover_of_tiled [⟨r9_S1024x128, p0⟩] S1024x128.size (by rfl) y

set_option maxHeartbeats 1000000 in
/-- The body on whole staging memrefs, the inputs' holding `x_j` and the output's anything, runs to a continuation
    that holds the inputs' unchanged and the output's at `out9_3` of the inputs. -/
theorem sound_kernel9 (c : Dev nD) (E : Set ℕ) (i : grid9.Coords) (arg1 : Memref sig .tc .vmem S1024x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S1024x128 .f32) (harg4 : arg4.IsWhole)
    (x0 : Vec F S1024x512 .f32) (x1 : Vec F S512x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out9_3 x0 x1 x2)) -∗ K ⟨⟩))
      ⊢ wp frame (wpE (defs₀ (F := F)) Variants.none c none) E (cc9__linear_kernel i arg1 harg1 arg2 harg2 arg3 harg3 arg4 harg4) K := by
  simp only [cc9__linear_kernel_eq_skeleton]; unfold cc9__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-- The region's proof data on core `c`: the arrays as the region finds them; after the body at point `t` each input's
    buffer at its block and the output's at `out9_3` of the input blocks; the invariant is the scoped rest and the
    generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' memrefs hold their blocks, so `sound_kernel9` applies; the invariant and the
    core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Rg

end
-- ==== Proof.KI.Rg10.lean ====
/-
  One kernel region of the program, number 10: that its body, called by the pipeline at any grid point on the
  staging buffers holding the input windows' blocks, terminates without a fault, leaves the inputs' buffers as
  they were and writes the output window's buffer whole with the body's one value of those blocks; and the
  proof data the pipeline's run is stated over (the arrays as the region finds them, each window's buffer after
  the body at each point).
-/
import proofs.«109784_j28140625724052_1_alg».proof.Proof.Gen.KernelIdeal.Launch
import proofs.«109784_j28140625724052_1_alg».proof.Proof.Gen.KernelIdeal.Skeleton
import proofs.«109784_j28140625724052_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 10: the kernel `cc10__mlp_head_kernel` on the region's entry contents `V` -/

/-- Window `w`'s block at grid point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's staging buffer holds the window's block at every point, fetched there or kept from an earlier
    point at which the block index was the same. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- An input window's staging buffer holds the window's block at every point, fetched there or kept from an earlier
    point at which the block index was the same. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- An input window's staging buffer holds the window's block at every point, fetched there or kept from an earlier
    point at which the block index was the same. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- An input window's staging buffer holds the window's block at every point, fetched there or kept from an earlier
    point at which the block index was the same. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- An input window's staging buffer holds the window's block at every point, fetched there or kept from an earlier
    point at which the block index was the same. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- An input window's staging buffer holds the window's block at every point, fetched there or kept from an earlier
    point at which the block index was the same. -/
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

/-- An input window's staging buffer holds the window's block at every point, fetched there or kept from an earlier
    point at which the block index was the same. -/
theorem before10_6_of {c : Dev nD} (dat : Dat τ (Elt F) Unit ℕ (UR sig nD τ) ℕ cfg10 c) (hA : dat.A 6 = V c (Pipeline.arrRef spec10 6))
    (hafter : ∀ t, dat.after 6 t = iblk10 V c 6 t) (t : Fin cfg10.N) (d) : dat.before 6 t d = iblk10 V c 6 t :=
  (dat.before_in_eq_fetched 6 rfl (fun _ => rfl) (fun _ _ _ => rfl) (fun t => by rw [hafter]; unfold Dat.blockOf iblk10; rw [hA]; try rfl) t d).trans
    (by unfold Dat.fetched Dat.blockOf iblk10; rw [hA]; try rfl)

/-- An input window's staging buffer holds the window's block at every point, fetched there or kept from an earlier
    point at which the block index was the same. -/
theorem before10_7_of {c : Dev nD} (dat : Dat τ (Elt F) Unit ℕ (UR sig nD τ) ℕ cfg10 c) (hA : dat.A 7 = V c (Pipeline.arrRef spec10 7))
    (hafter : ∀ t, dat.after 7 t = iblk10 V c 7 t) (t : Fin cfg10.N) (d) : dat.before 7 t d = iblk10 V c 7 t :=
  (dat.before_in_eq_fetched 7 rfl (fun _ => rfl) (fun _ _ _ => rfl) (fun t => by rw [hafter]; unfold Dat.blockOf iblk10; rw [hA]; try rfl) t d).trans
    (by unfold Dat.fetched Dat.blockOf iblk10; rw [hA]; try rfl)

/-- An input window's staging buffer holds the window's block at every point, fetched there or kept from an earlier
    point at which the block index was the same. -/
theorem before10_8_of {c : Dev nD} (dat : Dat τ (Elt F) Unit ℕ (UR sig nD τ) ℕ cfg10 c) (hA : dat.A 8 = V c (Pipeline.arrRef spec10 8))
    (hafter : ∀ t, dat.after 8 t = iblk10 V c 8 t) (t : Fin cfg10.N) (d) : dat.before 8 t d = iblk10 V c 8 t :=
  (dat.before_in_eq_fetched 8 rfl (fun _ => rfl) (fun _ _ _ => rfl) (fun t => by rw [hafter]; unfold Dat.blockOf iblk10; rw [hA]; try rfl) t d).trans
    (by unfold Dat.fetched Dat.blockOf iblk10; rw [hA]; try rfl)

/-- The whole of a `S1024x128` buffer as a rectangle: what the body loads and stores. -/
abbrev r10_S1024x128 : Rect S1024x128 := Rect.unit (s := S1024x128) ![0, 0] S1024x128.size inb_S1024x128_S1024x128_0_0
/-- The whole of a `S128x1024` buffer as a rectangle: what the body loads and stores. -/
abbrev r10_S128x1024 : Rect S128x1024 := Rect.unit (s := S128x1024) ![0, 0] S128x1024.size inb_S128x1024_S128x1024_0_0
/-- The whole of a `S1x1024` buffer as a rectangle: what the body loads and stores. -/
abbrev r10_S1x1024 : Rect S1x1024 := Rect.unit (s := S1x1024) ![0, 0] S1x1024.size inb_S1x1024_S1x1024_0_0
/-- The whole of a `S1024x512` buffer as a rectangle: what the body loads and stores. -/
abbrev r10_S1024x512 : Rect S1024x512 := Rect.unit (s := S1024x512) ![0, 0] S1024x512.size inb_S1024x512_S1024x512_0_0
/-- The whole of a `S1x512` buffer as a rectangle: what the body loads and stores. -/
abbrev r10_S1x512 : Rect S1x512 := Rect.unit (s := S1x512) ![0, 0] S1x512.size inb_S1x512_S1x512_0_0
/-- The whole of a `S512x1` buffer as a rectangle: what the body loads and stores. -/
abbrev r10_S512x1 : Rect S512x1 := Rect.unit (s := S512x1) ![0, 0] S512x1.size inb_S512x1_S512x1_0_0
/-- The whole of a `S1x1` buffer as a rectangle: what the body loads and stores. -/
abbrev r10_S1x1 : Rect S1x1 := Rect.unit (s := S1x1) ![0, 0] S1x1.size inb_S1x1_S1x1_0_0
/-- The whole of a `S1024x1` buffer as a rectangle: what the body loads and stores. -/
abbrev r10_S1024x1 : Rect S1024x1 := Rect.unit (s := S1024x1) ![0, 0] S1024x1.size inb_S1024x1_S1024x1_0_0

/-- The output window's staging buffer after the body: the body's one value of the input blocks, stored whole. -/
def out10_9 (x0 : Vec F S1024x128 .f32) (x1 : Vec F S1024x128 .f32) (x2 : Vec F S128x1024 .f32) (x3 : Vec F S128x1024 .f32) (x4 : Vec F S1x1024 .f32) (x5 : Vec F S1024x512 .f32) (x6 : Vec F S1x512 .f32) (x7 : Vec F S512x1 .f32) (x8 : Vec F S1x1 .f32) : Vec F S1024x1 .f32 :=
  View.canon [⟨r10_S1024x1, k10_pay1 (k10_pay2 (View.ld x0 r10_S1024x128) (View.ld x1 r10_S1024x128) (View.ld x2 r10_S128x1024) (View.ld x3 r10_S128x1024) (View.ld x4 r10_S1x1024) (View.ld x5 r10_S1024x512) (View.ld x6 r10_S1x512) (View.ld x7 r10_S512x1)) (View.ld x8 r10_S1x1)⟩]

/-- The one store covers the buffer. -/
theorem cover10_9 (p0 : Vec F S1024x1 .f32) (y : S1024x1.Idx) :
    ∃ pc ∈ ([⟨r10_S1024x1, p0⟩] : List (View.Piece (Elt F) S1024x1 .f32)), y ∈ pc.1.set :=
  View.cover_of_tiled [⟨r10_S1024x1, p0⟩] S1024x1.size (by rfl) y

set_option maxHeartbeats 1000000 in
/-- The body on whole staging memrefs, the inputs' holding `x_j` and the output's anything, runs to a continuation
    that holds the inputs' unchanged and the output's at `out10_9` of the inputs. -/
theorem sound_kernel10 (c : Dev nD) (E : Set ℕ) (i : grid10.Coords) (arg1 : Memref sig .tc .vmem S1024x128 .f32) (harg1 : arg1.IsWhole) (arg2 : Memref sig .tc .vmem S1024x128 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x1 .f32) (harg9 : arg9.IsWhole) (arg10 : Memref sig .tc .vmem S1024x1 .f32) (harg10 : arg10.IsWhole)
    (x0 : Vec F S1024x128 .f32) (x1 : Vec F S1024x128 .f32) (x2 : Vec F S128x1024 .f32) (x3 : Vec F S128x1024 .f32) (x4 : Vec F S1x1024 .f32) (x5 : Vec F S1024x512 .f32) (x6 : Vec F S1x512 .f32) (x7 : Vec F S512x1 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out10_9 x0 x1 x2 x3 x4 x5 x6 x7 x8)) -∗ K ⟨⟩))
      ⊢ wp frame (wpE (defs₀ (F := F)) Variants.none c none) E (cc10__mlp_head_kernel i arg1 harg1 arg2 harg2 arg3 harg3 arg4 harg4 arg5 harg5 arg6 harg6 arg7 harg7 arg8 harg8 arg9 harg9 arg10 harg10) K := by
  simp only [cc10__mlp_head_kernel_eq_skeleton]; unfold cc10__mlp_head_kernel_skel
  simp only [k10_part1_eq_skeleton]; unfold k10_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover10_9 _)

/-- The region's proof data on core `c`: the arrays as the region finds them; after the body at point `t` each input's
    buffer at its block and the output's at `out10_9` of the input blocks; the invariant is the scoped rest and the
    generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => iblk10 V c 7 t
    | ⟨8, _⟩ => iblk10 V c 8 t
    | ⟨9, _⟩ => out10_9 (iblk10 V c 0 t) (iblk10 V c 1 t) (iblk10 V c 2 t) (iblk10 V c 3 t) (iblk10 V c 4 t) (iblk10 V c 5 t) (iblk10 V c 6 t) (iblk10 V c 7 t) (iblk10 V c 8 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = iblk10 V c 6 t := by dsimp only [dat10]
theorem after10_7 (c : Dev nD) (t : Fin cfg10.N) : (dat10 V c).after 7 t = iblk10 V c 7 t := by dsimp only [dat10]
theorem after10_8 (c : Dev nD) (t : Fin cfg10.N) : (dat10 V c).after 8 t = iblk10 V c 8 t := by dsimp only [dat10]
theorem after10_9 (c : Dev nD) (t : Fin cfg10.N) : (dat10 V c).after 9 t = out10_9 (iblk10 V c 0 t) (iblk10 V c 1 t) (iblk10 V c 2 t) (iblk10 V c 3 t) (iblk10 V c 4 t) (iblk10 V c 5 t) (iblk10 V c 6 t) (iblk10 V c 7 t) (iblk10 V c 8 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d
theorem before10_6 (c : Dev nD) (t : Fin cfg10.N) (d) : (dat10 V c).before 6 t d = iblk10 V c 6 t :=
  before10_6_of V (dat10 V c) (A_eq10 V c 6) (after10_6 V c) t d
theorem before10_7 (c : Dev nD) (t : Fin cfg10.N) (d) : (dat10 V c).before 7 t d = iblk10 V c 7 t :=
  before10_7_of V (dat10 V c) (A_eq10 V c 7) (after10_7 V c) t d
theorem before10_8 (c : Dev nD) (t : Fin cfg10.N) (d) : (dat10 V c).before 8 t d = iblk10 V c 8 t :=
  before10_8_of V (dat10 V c) (A_eq10 V c 8) (after10_8 V c) t d

/-- What the body is called with at point `t`, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d))
    ∗ (∃ d, owns (c : Thread nD τ) (st10_8 t) fullShare ((dat10 V c).before 8 t d))
    ∗ (∃ d, owns (c : Thread nD τ) (st10_9 t) fullShare ((dat10 V c).before 9 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t)
    ∗ owns (c : Thread nD τ) (st10_7 t) fullShare ((dat10 V c).after 7 t)
    ∗ owns (c : Thread nD τ) (st10_8 t) fullShare ((dat10 V c).after 8 t)
    ∗ owns (c : Thread nD τ) (st10_9 t) fullShare ((dat10 V c).after 9 t))

/-- The body at any point: the inputs' memrefs hold their blocks, so `sound_kernel10` applies; the invariant and the
    core's dues pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5, before10_6, before10_7, before10_8]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7, after10_8, after10_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel10 c Set.univ _ _ _ _ _ _ _ _ _ _ _ _ _ _ _ _ _ _ _ _ _ (iblk10 V c 0 t) (iblk10 V c 1 t) (iblk10 V c 2 t) (iblk10 V c 3 t) (iblk10 V c 4 t) (iblk10 V c 5 t) (iblk10 V c 6 t) (iblk10 V c 7 t) (iblk10 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Rg

end
-- ==== Proof.KI.Chain.lean ====
/-
  The buffer contents of one core at every boundary between two items of the program (a stretch of host
  operations, or a kernel region), from the launch to the return: a stretch leaves what its operations compute; a
  region leaves its output array at what the pipeline's write-backs make of it (the proof data's array after the
  last grid point) and every other buffer as it found it. The generated conditional frame is stated over the same
  chain with the regions' results as unknowns; here the unknowns are chosen (`outs`) and the two chains are shown
  equal boundary by boundary. Last, the proof data of all eleven regions as one family.
-/
import proofs.«109784_j28140625724052_1_alg».proof.Proof.KI.Rg0
import proofs.«109784_j28140625724052_1_alg».proof.Proof.KI.Rg1
import proofs.«109784_j28140625724052_1_alg».proof.Proof.KI.Rg2
import proofs.«109784_j28140625724052_1_alg».proof.Proof.KI.Rg3
import proofs.«109784_j28140625724052_1_alg».proof.Proof.KI.Rg4
import proofs.«109784_j28140625724052_1_alg».proof.Proof.KI.Rg5
import proofs.«109784_j28140625724052_1_alg».proof.Proof.KI.Rg6
import proofs.«109784_j28140625724052_1_alg».proof.Proof.KI.Rg7
import proofs.«109784_j28140625724052_1_alg».proof.Proof.KI.Rg8
import proofs.«109784_j28140625724052_1_alg».proof.Proof.KI.Rg9
import proofs.«109784_j28140625724052_1_alg».proof.Proof.KI.Rg10
import proofs.«109784_j28140625724052_1_alg».proof.Proof.Gen.KernelIdeal.Regions

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A core's buffer contents read at the TensorCore's references: the form the regions' proof data take. -/
abbrev atRefs (W : Dev nD → Valuation τ sig (Elt F)) : (c : Dev nD) → (b : Ref sig .tc) → Buf (Elt F) ((c : Thread nD τ).loc b) :=
  fun c b => W c b

/-- The contents when the first region is entered: the launch memory after the three host stretches before it. -/
abbrev W3 : Dev nD → Valuation τ sig (Elt F) := fun c => V3 m c

/-- What region 0 leaves in its output array: the array after the write-backs of all its grid points. -/
def o4 (c : Dev nD) : Buf (Elt F) ((c : Thread nD τ).loc main_v31) := (dat0 (atRefs (W3 m)) c).arrAt 3 cfg0.N
/-- The contents when region 0 is left. -/
abbrev W4 : Dev nD → Valuation τ sig (Elt F) := fun c => Function.update (W3 m c) main_v31 (o4 m c)
/-- The contents after the host stretch `hostOps1`. -/
abbrev W5 : Dev nD → Valuation τ sig (Elt F) := fun c => StableHlo.after hostOps1 (W4 m c)

/-- What region 1 leaves in its output array: the array after the write-backs of all its grid points. -/
def o6 (c : Dev nD) : Buf (Elt F) ((c : Thread nD τ).loc main_v47) := (dat1 (atRefs (W5 m)) c).arrAt 4 cfg1.N
/-- The contents when region 1 is left. -/
abbrev W6 : Dev nD → Valuation τ sig (Elt F) := fun c => Function.update (W5 m c) main_v47 (o6 m c)
/-- The contents after the host stretch `hostOps2`. -/
abbrev W7 : Dev nD → Valuation τ sig (Elt F) := fun c => StableHlo.after hostOps2 (W6 m c)

/-- What region 2 leaves in its output array: the array after the write-backs of all its grid points. -/
def o8 (c : Dev nD) : Buf (Elt F) ((c : Thread nD τ).loc main_v63) := (dat2 (atRefs (W7 m)) c).arrAt 4 cfg2.N
/-- The contents when region 2 is left. -/
abbrev W8 : Dev nD → Valuation τ sig (Elt F) := fun c => Function.update (W7 m c) main_v63 (o8 m c)
/-- The contents after the host stretch `hostOps3`. -/
abbrev W9 : Dev nD → Valuation τ sig (Elt F) := fun c => StableHlo.after hostOps3 (W8 m c)

/-- What region 3 leaves in its output array: the array after the write-backs of all its grid points. -/
def o10 (c : Dev nD) : Buf (Elt F) ((c : Thread nD τ).loc main_v79) := (dat3 (atRefs (W9 m)) c).arrAt 4 cfg3.N
/-- The contents when region 3 is left. -/
abbrev W10 : Dev nD → Valuation τ sig (Elt F) := fun c => Function.update (W9 m c) main_v79 (o10 m c)
/-- The contents after the host stretch `hostOps4`. -/
abbrev W11 : Dev nD → Valuation τ sig (Elt F) := fun c => StableHlo.after hostOps4 (W10 m c)

/-- What region 4 leaves in its output array: the array after the write-backs of all its grid points. -/
def o12 (c : Dev nD) : Buf (Elt F) ((c : Thread nD τ).loc main_v81) := (dat4 (atRefs (W11 m)) c).arrAt 3 cfg4.N
/-- The contents when region 4 is left. -/
abbrev W12 : Dev nD → Valuation τ sig (Elt F) := fun c => Function.update (W11 m c) main_v81 (o12 m c)
/-- The contents after the host stretch `hostOps5`. -/
abbrev W13 : Dev nD → Valuation τ sig (Elt F) := fun c => StableHlo.after hostOps5 (W12 m c)
/-- The contents after the host stretch `hostOps5_1`. -/
abbrev W14 : Dev nD → Valuation τ sig (Elt F) := fun c => StableHlo.after hostOps5_1 (W13 m c)
/-- The contents after the host stretch `hostOps5_2`. -/
abbrev W15 : Dev nD → Valuation τ sig (Elt F) := fun c => StableHlo.after hostOps5_2 (W14 m c)

/-- What region 5 leaves in its output array: the array after the write-backs of all its grid points. -/
def o16 (c : Dev nD) : Buf (Elt F) ((c : Thread nD τ).loc main_v113) := (dat5 (atRefs (W15 m)) c).arrAt 3 cfg5.N
/-- The contents when region 5 is left. -/
abbrev W16 : Dev nD → Valuation τ sig (Elt F) := fun c => Function.update (W15 m c) main_v113 (o16 m c)
/-- The contents after the host stretch `hostOps6`. -/
abbrev W17 : Dev nD → Valuation τ sig (Elt F) := fun c => StableHlo.after hostOps6 (W16 m c)

/-- What region 6 leaves in its output array: the array after the write-backs of all its grid points. -/
def o18 (c : Dev nD) : Buf (Elt F) ((c : Thread nD τ).loc main_v129) := (dat6 (atRefs (W17 m)) c).arrAt 4 cfg6.N
/-- The contents when region 6 is left. -/
abbrev W18 : Dev nD → Valuation τ sig (Elt F) := fun c => Function.update (W17 m c) main_v129 (o18 m c)
/-- The contents after the host stretch `hostOps7`. -/
abbrev W19 : Dev nD → Valuation τ sig (Elt F) := fun c => StableHlo.after hostOps7 (W18 m c)

/-- What region 7 leaves in its output array: the array after the write-backs of all its grid points. -/
def o20 (c : Dev nD) : Buf (Elt F) ((c : Thread nD τ).loc main_v145) := (dat7 (atRefs (W19 m)) c).arrAt 4 cfg7.N
/-- The contents when region 7 is left. -/
abbrev W20 : Dev nD → Valuation τ sig (Elt F) := fun c => Function.update (W19 m c) main_v145 (o20 m c)
/-- The contents after the host stretch `hostOps8`. -/
abbrev W21 : Dev nD → Valuation τ sig (Elt F) := fun c => StableHlo.after hostOps8 (W20 m c)

/-- What region 8 leaves in its output array: the array after the write-backs of all its grid points. -/
def o22 (c : Dev nD) : Buf (Elt F) ((c : Thread nD τ).loc main_v161) := (dat8 (atRefs (W21 m)) c).arrAt 4 cfg8.N
/-- The contents when region 8 is left. -/
abbrev W22 : Dev nD → Valuation τ sig (Elt F) := fun c => Function.update (W21 m c) main_v161 (o22 m c)
/-- The contents after the host stretch `hostOps9`. -/
abbrev W23 : Dev nD → Valuation τ sig (Elt F) := fun c => StableHlo.after hostOps9 (W22 m c)

/-- What region 9 leaves in its output array: the array after the write-backs of all its grid points. -/
def o24 (c : Dev nD) : Buf (Elt F) ((c : Thread nD τ).loc main_v163) := (dat9 (atRefs (W23 m)) c).arrAt 3 cfg9.N
/-- The contents when region 9 is left. -/
abbrev W24 : Dev nD → Valuation τ sig (Elt F) := fun c => Function.update (W23 m c) main_v163 (o24 m c)
/-- The contents after the host stretch `hostOps10`. -/
abbrev W25 : Dev nD → Valuation τ sig (Elt F) := fun c => StableHlo.after hostOps10 (W24 m c)

/-- What region 10 leaves in its output array: the array after the write-backs of all its grid points. -/
def o26 (c : Dev nD) : Buf (Elt F) ((c : Thread nD τ).loc main_v169) := (dat10 (atRefs (W25 m)) c).arrAt 9 cfg10.N
/-- The contents when region 10 is left. -/
abbrev W26 : Dev nD → Valuation τ sig (Elt F) := fun c => Function.update (W25 m c) main_v169 (o26 m c)

/-- The regions' results, as the generated chain reads them: at a region's exit boundary, that boundary's contents. -/
def outs : Outs (F := F) := fun n r c => match n with
  | 4 => W4 m c r
  | 6 => W6 m c r
  | 8 => W8 m c r
  | 10 => W10 m c r
  | 12 => W12 m c r
  | 16 => W16 m c r
  | 18 => W18 m c r
  | 20 => W20 m c r
  | 22 => W22 m c r
  | 24 => W24 m c r
  | 26 => W26 m c r
  | _ => W3 m c r

theorem outs_4 (c : Dev nD) : outs m 4 main_v31 c = o4 m c := by
  show Function.update (W3 m c) main_v31 (o4 m c) main_v31 = _
  exact Function.update_self _ _ _
theorem outs_6 (c : Dev nD) : outs m 6 main_v47 c = o6 m c := by
  show Function.update (W5 m c) main_v47 (o6 m c) main_v47 = _
  exact Function.update_self _ _ _
theorem outs_8 (c : Dev nD) : outs m 8 main_v63 c = o8 m c := by
  show Function.update (W7 m c) main_v63 (o8 m c) main_v63 = _
  exact Function.update_self _ _ _
theorem outs_10 (c : Dev nD) : outs m 10 main_v79 c = o10 m c := by
  show Function.update (W9 m c) main_v79 (o10 m c) main_v79 = _
  exact Function.update_self _ _ _
theorem outs_12 (c : Dev nD) : outs m 12 main_v81 c = o12 m c := by
  show Function.update (W11 m c) main_v81 (o12 m c) main_v81 = _
  exact Function.update_self _ _ _
theorem outs_16 (c : Dev nD) : outs m 16 main_v113 c = o16 m c := by
  show Function.update (W15 m c) main_v113 (o16 m c) main_v113 = _
  exact Function.update_self _ _ _
theorem outs_18 (c : Dev nD) : outs m 18 main_v129 c = o18 m c := by
  show Function.update (W17 m c) main_v129 (o18 m c) main_v129 = _
  exact Function.update_self _ _ _
theorem outs_20 (c : Dev nD) : outs m 20 main_v145 c = o20 m c := by
  show Function.update (W19 m c) main_v145 (o20 m c) main_v145 = _
  exact Function.update_self _ _ _
theorem outs_22 (c : Dev nD) : outs m 22 main_v161 c = o22 m c := by
  show Function.update (W21 m c) main_v161 (o22 m c) main_v161 = _
  exact Function.update_self _ _ _
theorem outs_24 (c : Dev nD) : outs m 24 main_v163 c = o24 m c := by
  show Function.update (W23 m c) main_v163 (o24 m c) main_v163 = _
  exact Function.update_self _ _ _
theorem outs_26 (c : Dev nD) : outs m 26 main_v169 c = o26 m c := by
  show Function.update (W25 m c) main_v169 (o26 m c) main_v169 = _
  exact Function.update_self _ _ _

/-! The generated chain at `outs` is the chain above. -/
theorem VW4 (c : Dev nD) : V4 m (outs m) c = W4 m c := by
  show Function.update (V3 m c) main_v31 (outs m 4 main_v31 c) = Function.update (W3 m c) main_v31 (o4 m c)
  rw [outs_4]
theorem VW5 (c : Dev nD) : V5 m (outs m) c = W5 m c := by
  show StableHlo.after hostOps1 (V4 m (outs m) c) = StableHlo.after hostOps1 (W4 m c)
  rw [VW4]
theorem VW6 (c : Dev nD) : V6 m (outs m) c = W6 m c := by
  show Function.update (V5 m (outs m) c) main_v47 (outs m 6 main_v47 c) = Function.update (W5 m c) main_v47 (o6 m c)
  rw [outs_6, VW5]
theorem VW7 (c : Dev nD) : V7 m (outs m) c = W7 m c := by
  show StableHlo.after hostOps2 (V6 m (outs m) c) = StableHlo.after hostOps2 (W6 m c)
  rw [VW6]
theorem VW8 (c : Dev nD) : V8 m (outs m) c = W8 m c := by
  show Function.update (V7 m (outs m) c) main_v63 (outs m 8 main_v63 c) = Function.update (W7 m c) main_v63 (o8 m c)
  rw [outs_8, VW7]
theorem VW9 (c : Dev nD) : V9 m (outs m) c = W9 m c := by
  show StableHlo.after hostOps3 (V8 m (outs m) c) = StableHlo.after hostOps3 (W8 m c)
  rw [VW8]
theorem VW10 (c : Dev nD) : V10 m (outs m) c = W10 m c := by
  show Function.update (V9 m (outs m) c) main_v79 (outs m 10 main_v79 c) = Function.update (W9 m c) main_v79 (o10 m c)
  rw [outs_10, VW9]
theorem VW11 (c : Dev nD) : V11 m (outs m) c = W11 m c := by
  show StableHlo.after hostOps4 (V10 m (outs m) c) = StableHlo.after hostOps4 (W10 m c)
  rw [VW10]
theorem VW12 (c : Dev nD) : V12 m (outs m) c = W12 m c := by
  show Function.update (V11 m (outs m) c) main_v81 (outs m 12 main_v81 c) = Function.update (W11 m c) main_v81 (o12 m c)
  rw [outs_12, VW11]
theorem VW13 (c : Dev nD) : V13 m (outs m) c = W13 m c := by
  show StableHlo.after hostOps5 (V12 m (outs m) c) = StableHlo.after hostOps5 (W12 m c)
  rw [VW12]
theorem VW14 (c : Dev nD) : V14 m (outs m) c = W14 m c := by
  show StableHlo.after hostOps5_1 (V13 m (outs m) c) = StableHlo.after hostOps5_1 (W13 m c)
  rw [VW13]
theorem VW15 (c : Dev nD) : V15 m (outs m) c = W15 m c := by
  show StableHlo.after hostOps5_2 (V14 m (outs m) c) = StableHlo.after hostOps5_2 (W14 m c)
  rw [VW14]
theorem VW16 (c : Dev nD) : V16 m (outs m) c = W16 m c := by
  show Function.update (V15 m (outs m) c) main_v113 (outs m 16 main_v113 c) = Function.update (W15 m c) main_v113 (o16 m c)
  rw [outs_16, VW15]
theorem VW17 (c : Dev nD) : V17 m (outs m) c = W17 m c := by
  show StableHlo.after hostOps6 (V16 m (outs m) c) = StableHlo.after hostOps6 (W16 m c)
  rw [VW16]
theorem VW18 (c : Dev nD) : V18 m (outs m) c = W18 m c := by
  show Function.update (V17 m (outs m) c) main_v129 (outs m 18 main_v129 c) = Function.update (W17 m c) main_v129 (o18 m c)
  rw [outs_18, VW17]
theorem VW19 (c : Dev nD) : V19 m (outs m) c = W19 m c := by
  show StableHlo.after hostOps7 (V18 m (outs m) c) = StableHlo.after hostOps7 (W18 m c)
  rw [VW18]
theorem VW20 (c : Dev nD) : V20 m (outs m) c = W20 m c := by
  show Function.update (V19 m (outs m) c) main_v145 (outs m 20 main_v145 c) = Function.update (W19 m c) main_v145 (o20 m c)
  rw [outs_20, VW19]
theorem VW21 (c : Dev nD) : V21 m (outs m) c = W21 m c := by
  show StableHlo.after hostOps8 (V20 m (outs m) c) = StableHlo.after hostOps8 (W20 m c)
  rw [VW20]
theorem VW22 (c : Dev nD) : V22 m (outs m) c = W22 m c := by
  show Function.update (V21 m (outs m) c) main_v161 (outs m 22 main_v161 c) = Function.update (W21 m c) main_v161 (o22 m c)
  rw [outs_22, VW21]
theorem VW23 (c : Dev nD) : V23 m (outs m) c = W23 m c := by
  show StableHlo.after hostOps9 (V22 m (outs m) c) = StableHlo.after hostOps9 (W22 m c)
  rw [VW22]
theorem VW24 (c : Dev nD) : V24 m (outs m) c = W24 m c := by
  show Function.update (V23 m (outs m) c) main_v163 (outs m 24 main_v163 c) = Function.update (W23 m c) main_v163 (o24 m c)
  rw [outs_24, VW23]
theorem VW25 (c : Dev nD) : V25 m (outs m) c = W25 m c := by
  show StableHlo.after hostOps10 (V24 m (outs m) c) = StableHlo.after hostOps10 (W24 m c)
  rw [VW24]
theorem VW26 (c : Dev nD) : V26 m (outs m) c = W26 m c := by
  show Function.update (V25 m (outs m) c) main_v169 (outs m 26 main_v169 c) = Function.update (W25 m c) main_v169 (o26 m c)
  rw [outs_26, VW25]

/-- Every region's proof data, each at the contents its region is entered from. -/
def pdats : (p : Fin 11) → (c : Dev nD) → Dat τ (Elt F) Unit ℕ (UR sig nD τ) ℕ (Pipeline.pin (pcfgs (F := F)) adm p) c
  | ⟨0, _⟩ => fun c => dat0 (atRefs (W3 m)) c
  | ⟨1, _⟩ => fun c => dat1 (atRefs (W5 m)) c
  | ⟨2, _⟩ => fun c => dat2 (atRefs (W7 m)) c
  | ⟨3, _⟩ => fun c => dat3 (atRefs (W9 m)) c
  | ⟨4, _⟩ => fun c => dat4 (atRefs (W11 m)) c
  | ⟨5, _⟩ => fun c => dat5 (atRefs (W15 m)) c
  | ⟨6, _⟩ => fun c => dat6 (atRefs (W17 m)) c
  | ⟨7, _⟩ => fun c => dat7 (atRefs (W19 m)) c
  | ⟨8, _⟩ => fun c => dat8 (atRefs (W21 m)) c
  | ⟨9, _⟩ => fun c => dat9 (atRefs (W23 m)) c
  | ⟨10, _⟩ => fun c => dat10 (atRefs (W25 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)

end Cert.KernelIdeal.Rg

end
-- ==== Proof.KI.Seg0.lean ====
/-
  Region 0 as one item of the program's run: entered from every unscoped buffer of the core at the contents of
  the boundary before it, left at those of the boundary after it. At entry the region's arrays are taken out of
  the core's unscoped buffers and handed to the pipeline; at exit they are put back, the output array now at what
  the write-backs left, every other buffer as found. The generator register goes into the region's invariant and
  comes out; nothing is owed; the kernel has no semaphore of its own.
-/
import proofs.«109784_j28140625724052_1_alg».proof.Proof.KI.Chain

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! At the region's exit each of its arrays holds what the pipeline leaves: an input array what it held at entry (the
pipeline never writes one, and the region's result is another buffer), the output array the write-backs' result. -/
theorem hF0_0 (c : Dev nD) : (dat0 (atRefs (W3 m)) c).arrAt 0 cfg0.N = atRefs (W4 m) c main_arg0 :=
  ((dat0 (atRefs (W3 m)) c).arrAt_in 0 rfl _).trans
    ((A_eq0 _ c 0).trans (Function.update_of_ne (StableHlo.devRef_ne_of_ne (by decide : (main_arg0 : Ref sig .tc) ≠ main_v31)) _ _).symm)
theorem hF0_1 (c : Dev nD) : (dat0 (atRefs (W3 m)) c).arrAt 1 cfg0.N = atRefs (W4 m) c main_arg4 :=
  ((dat0 (atRefs (W3 m)) c).arrAt_in 1 rfl _).trans
    ((A_eq0 _ c 1).trans (Function.update_of_ne (StableHlo.devRef_ne_of_ne (by decide : (main_arg4 : Ref sig .tc) ≠ main_v31)) _ _).symm)
theorem hF0_2 (c : Dev nD) : (dat0 (atRefs (W3 m)) c).arrAt 2 cfg0.N = atRefs (W4 m) c main_v30 :=
  ((dat0 (atRefs (W3 m)) c).arrAt_in 2 rfl _).trans
    ((A_eq0 _ c 2).trans (Function.update_of_ne (StableHlo.devRef_ne_of_ne (by decide : (main_v30 : Ref sig .tc) ≠ main_v31)) _ _).symm)
theorem hF0_3 (c : Dev nD) : (dat0 (atRefs (W3 m)) c).arrAt 3 cfg0.N = atRefs (W4 m) c main_v31 :=
  (outs_4 m c).symm

theorem hF0 (c : Dev nD) (w : Fin cfg0.W) :
    (dat0 (atRefs (W3 m)) c).arrAt w cfg0.N = atRefs (W4 m) c (Pipeline.arrRef spec0 w) := by
  match w with
  | ⟨0, _⟩ => exact hF0_0 m c
  | ⟨1, _⟩ => exact hF0_1 m c
  | ⟨2, _⟩ => exact hF0_2 m c
  | ⟨3, _⟩ => exact hF0_3 m c

/-- Every buffer that is no array of the region is as at entry. -/
theorem hrest0 (c : Dev nD) : ∀ b, b ∉ Finset.univ.image (Pipeline.arrRef spec0) → atRefs (W4 m) c b = atRefs (W3 m) c b :=
  fun b hb => Function.update_of_ne (StableHlo.devRef_ne_of_ne fun e => hb (Finset.mem_image.mpr ⟨(3 : Fin cfg0.W), Finset.mem_univ _, e.symm⟩)) _ _

set_option backward.isDefEq.respectTransparency.types false in
/-- Region 0 over the thread state "every unscoped buffer at the boundary's contents, the generator register at some
    state, nothing owed". -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atRefs (W3 m)) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (atRefs (W3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atRefs (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atRefs (W3 m) c) (atRefs (W4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg

end
-- ==== Proof.KI.Seg1.lean ====
/-
  Region 1 as one item of the program's run: entered from every unscoped buffer of the core at the contents of
  the boundary before it, left at those of the boundary after it. At entry the region's arrays are taken out of
  the core's unscoped buffers and handed to the pipeline; at exit they are put back, the output array now at what
  the write-backs left, every other buffer as found. The generator register goes into the region's invariant and
  comes out; nothing is owed; the kernel has no semaphore of its own.
-/
import proofs.«109784_j28140625724052_1_alg».proof.Proof.KI.Chain

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! At the region's exit each of its arrays holds what the pipeline leaves: an input array what it held at entry (the
pipeline never writes one, and the region's result is another buffer), the output array the write-backs' result. -/
theorem hF1_0 (c : Dev nD) : (dat1 (atRefs (W5 m)) c).arrAt 0 cfg1.N = atRefs (W6 m) c main_v44 :=
  ((dat1 (atRefs (W5 m)) c).arrAt_in 0 rfl _).trans
    ((A_eq1 _ c 0).trans (Function.update_of_ne (StableHlo.devRef_ne_of_ne (by decide : (main_v44 : Ref sig .tc) ≠ main_v47)) _ _).symm)
theorem hF1_1 (c : Dev nD) : (dat1 (atRefs (W5 m)) c).arrAt 1 cfg1.N = atRefs (W6 m) c main_v31 :=
  ((dat1 (atRefs (W5 m)) c).arrAt_in 1 rfl _).trans
    ((A_eq1 _ c 1).trans (Function.update_of_ne (StableHlo.devRef_ne_of_ne (by decide : (main_v31 : Ref sig .tc) ≠ main_v47)) _ _).symm)
theorem hF1_2 (c : Dev nD) : (dat1 (atRefs (W5 m)) c).arrAt 2 cfg1.N = atRefs (W6 m) c main_v31 :=
  ((dat1 (atRefs (W5 m)) c).arrAt_in 2 rfl _).trans
    ((A_eq1 _ c 2).trans (Function.update_of_ne (StableHlo.devRef_ne_of_ne (by decide : (main_v31 : Ref sig .tc) ≠ main_v47)) _ _).symm)
theorem hF1_3 (c : Dev nD) : (dat1 (atRefs (W5 m)) c).arrAt 3 cfg1.N = atRefs (W6 m) c main_v46 :=
  ((dat1 (atRefs (W5 m)) c).arrAt_in 3 rfl _).trans
    ((A_eq1 _ c 3).trans (Function.update_of_ne (StableHlo.devRef_ne_of_ne (by decide : (main_v46 : Ref sig .tc) ≠ main_v47)) _ _).symm)
theorem hF1_4 (c : Dev nD) : (dat1 (atRefs (W5 m)) c).arrAt 4 cfg1.N = atRefs (W6 m) c main_v47 :=
  (outs_6 m c).symm

set_option maxHeartbeats 2000000 in
theorem hF1 (c : Dev nD) (w : Fin cfg1.W) :
    (dat1 (atRefs (W5 m)) c).arrAt w cfg1.N = atRefs (W6 m) c (Pipeline.arrRef spec1 w) := by
  match w with
  | ⟨0, _⟩ => exact hF1_0 m c
  | ⟨1, _⟩ => exact hF1_1 m c
  | ⟨2, _⟩ => exact hF1_2 m c
  | ⟨3, _⟩ => exact hF1_3 m c
  | ⟨4, _⟩ => exact hF1_4 m c

/-- Every buffer that is no array of the region is as at entry. -/
theorem hrest1 (c : Dev nD) : ∀ b, b ∉ Finset.univ.image (Pipeline.arrRef spec1) → atRefs (W6 m) c b = atRefs (W5 m) c b :=
  fun b hb => Function.update_of_ne (StableHlo.devRef_ne_of_ne fun e => hb (Finset.mem_image.mpr ⟨(4 : Fin cfg1.W), Finset.mem_univ _, e.symm⟩)) _ _

/-! ## The region's arrays among the core's unscoped buffers

Two input windows of this region read ONE array (`main_v31`), so the four distinct buffers behind the five windows'
arrays are divided among them: that array's buffer into two halves of its share, one per window; the others whole. -/

/-- The distinct buffers behind the windows' arrays, one by one. -/
theorem arrBufs1_eq (c : Dev nD) (V : (c : Dev nD) → (b : Ref sig .tc) → Buf (Elt F) ((c : Thread nD τ).loc b)) :
    (Pipeline.arrBufs spec1 c (V c) : sProp 𝕄)
      = iprop((((c : Thread nD τ).loc main_v44) ↦{fullShare} V c main_v44) ∗ (((c : Thread nD τ).loc main_v31) ↦{fullShare} V c main_v31)
          ∗ (((c : Thread nD τ).loc main_v46) ↦{fullShare} V c main_v46) ∗ (((c : Thread nD τ).loc main_v47) ↦{fullShare} V c main_v47)) := by
  unfold Pipeline.arrBufs
  exact BI.bigSep_eq_bigSepL_of_eq [main_v44, main_v31, main_v46, main_v47] (by decide) (by decide) _

/-- The region's arrays, window by window, each array a whole buffer. -/
theorem arrays1_univ (c : Dev nD) (V : (c : Dev nD) → (b : Ref sig .tc) → Buf (Elt F) ((c : Thread nD τ).loc b))
    (G : (w : Fin cfg1.W) → Buf (Elt F) ((cfg1.win w).arr.view.loc (c : Thread nD τ))) :
    ((dat1 V c).arrays G : sProp 𝕄)
      = bigSep Finset.univ fun w : Fin cfg1.W => (((c : Thread nD τ).loc (Pipeline.arrRef spec1 w)) ↦{(dat1 V c).share w} G w : sProp 𝕄) := by
  unfold Pipeline.Dat.arrays
  exact bigSep_congr fun w _ => by rw [(arr_whole1 w).set_eq_univ]

/-- ENTRY: the buffers behind the arrays, each whole, are the windows' arrays at the entry contents. -/
theorem entryArrays1 (c : Dev nD) (V : (c : Dev nD) → (b : Ref sig .tc) → Buf (Elt F) ((c : Thread nD τ).loc b)) :
    (Pipeline.arrBufs spec1 c (V c) : sProp 𝕄) ⊢ (dat1 V c).arrays ((dat1 V c).arrAt · 0) := by
  rw [arrays1_univ, bigSep_W1]
  rw [arrBufs1_eq]
  iintro ⟨H0, H1, H3, H4⟩
  ihave H12 := (pointsTo_share (PosShare.mem_left_op_right fullShare)).1 $$ H1
  icases H12 with ⟨H1, H2⟩
  isplitl [H0]; · iexact H0
  isplitl [H1]; · iexact H1
  isplitl [H2]; · iexact H2
  isplitl [H3]; · iexact H3
  iexact H4

/-- EXIT: the windows' arrays at contents that agree on the shared array are the buffers behind them, each whole. -/
theorem exitArrays1 (c : Dev nD) (V V' : (c : Dev nD) → (b : Ref sig .tc) → Buf (Elt F) ((c : Thread nD τ).loc b))
    (G : (w : Fin cfg1.W) → Buf (Elt F) ((cfg1.win w).arr.view.loc (c : Thread nD τ)))
    (hG : ∀ w, G w = V' c (Pipeline.arrRef spec1 w)) :
    ((dat1 V c).arrays G : sProp 𝕄) ⊢ Pipeline.arrBufs spec1 c (V' c) := by
  rw [arrays1_univ, bigSep_congr (fun w _ => by rw [hG w]), bigSep_W1]
  rw [arrBufs1_eq]
  iintro ⟨H0, H1, H2, H3, H4⟩
  isplitl [H0]; · iexact H0
  isplitl [H1 H2]
  · iapply (pointsTo_share (PosShare.mem_left_op_right fullShare)).2
    isplitl [H1]; · iexact H1
    iexact H2
  isplitl [H3]; · iexact H3
  iexact H4

set_option backward.isDefEq.respectTransparency.types false in
/-- Region 1 over the thread state "every unscoped buffer at the boundary's contents, the generator register at some
    state, nothing owed". -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (atRefs (W5 m)) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (atRefs (W5 m) c)
  hentry c := by
    rw [Pipeline.ownSems0_none]
    have hsplit : (unscopedBufs c (atRefs (W5 m) c) : sProp 𝕄)
        ⊢ iprop((dat1 (atRefs (W5 m)) c).arrays ((dat1 (atRefs (W5 m)) c).arrAt · 0)
            ∗ Pipeline.unscopedRest spec1 c (atRefs (W5 m) c)) := by
      rw [Pipeline.unscopedBufs_split₀ cfgs 1 winFacts₀1.arr_unscoped c (atRefs (W5 m) c)]
      exact sep_mono (entryArrays1 c (atRefs (W5 m))) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((dat1 (atRefs (W5 m)) c).arrays ((dat1 (atRefs (W5 m)) c).arrAt · cfg1.N)
          ∗ Pipeline.unscopedRest spec1 c (atRefs (W5 m) c))
        ⊢ (unscopedBufs c (atRefs (W6 m) c) : sProp 𝕄) := by
      rw [Pipeline.unscopedBufs_split₀ cfgs 1 winFacts₀1.arr_unscoped c (atRefs (W6 m) c)]
      refine sep_mono (exitArrays1 c (atRefs (W5 m)) (atRefs (W6 m)) _ (hF1 m c)) (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KernelIdeal.Rg

end
-- ==== Proof.KI.Seg2.lean ====
/-
  Region 2 as one item of the program's run: entered from every unscoped buffer of the core at the contents of
  the boundary before it, left at those of the boundary after it. At entry the region's arrays are taken out of
  the core's unscoped buffers and handed to the pipeline; at exit they are put back, the output array now at what
  the write-backs left, every other buffer as found. The generator register goes into the region's invariant and
  comes out; nothing is owed; the kernel has no semaphore of its own.
-/
import proofs.«109784_j28140625724052_1_alg».proof.Proof.KI.Chain

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! At the region's exit each of its arrays holds what the pipeline leaves: an input array what it held at entry (the
pipeline never writes one, and the region's result is another buffer), the output array the write-backs' result. -/
theorem hF2_0 (c : Dev nD) : (dat2 (atRefs (W7 m)) c).arrAt 0 cfg2.N = atRefs (W8 m) c main_v60 :=
  ((dat2 (atRefs (W7 m)) c).arrAt_in 0 rfl _).trans
    ((A_eq2 _ c 0).trans (Function.update_of_ne (StableHlo.devRef_ne_of_ne (by decide : (main_v60 : Ref sig .tc) ≠ main_v63)) _ _).symm)
theorem hF2_1 (c : Dev nD) : (dat2 (atRefs (W7 m)) c).arrAt 1 cfg2.N = atRefs (W8 m) c main_v31 :=
  ((dat2 (atRefs (W7 m)) c).arrAt_in 1 rfl _).trans
    ((A_eq2 _ c 1).trans (Function.update_of_ne (StableHlo.devRef_ne_of_ne (by decide : (main_v31 : Ref sig .tc) ≠ main_v63)) _ _).symm)
theorem hF2_2 (c : Dev nD) : (dat2 (atRefs (W7 m)) c).arrAt 2 cfg2.N = atRefs (W8 m) c main_v47 :=
  ((dat2 (atRefs (W7 m)) c).arrAt_in 2 rfl _).trans
    ((A_eq2 _ c 2).trans (Function.update_of_ne (StableHlo.devRef_ne_of_ne (by decide : (main_v47 : Ref sig .tc) ≠ main_v63)) _ _).symm)
theorem hF2_3 (c : Dev nD) : (dat2 (atRefs (W7 m)) c).arrAt 3 cfg2.N = atRefs (W8 m) c main_v62 :=
  ((dat2 (atRefs (W7 m)) c).arrAt_in 3 rfl _).trans
    ((A_eq2 _ c 3).trans (Function.update_of_ne (StableHlo.devRef_ne_of_ne (by decide : (main_v62 : Ref sig .tc) ≠ main_v63)) _ _).symm)
theorem hF2_4 (c : Dev nD) : (dat2 (atRefs (W7 m)) c).arrAt 4 cfg2.N = atRefs (W8 m) c main_v63 :=
  (outs_8 m c).symm

theorem hF2 (c : Dev nD) (w : Fin cfg2.W) :
    (dat2 (atRefs (W7 m)) c).arrAt w cfg2.N = atRefs (W8 m) c (Pipeline.arrRef spec2 w) := by
  match w with
  | ⟨0, _⟩ => exact hF2_0 m c
  | ⟨1, _⟩ => exact hF2_1 m c
  | ⟨2, _⟩ => exact hF2_2 m c
  | ⟨3, _⟩ => exact hF2_3 m c
  | ⟨4, _⟩ => exact hF2_4 m c

/-- Every buffer that is no array of the region is as at entry. -/
theorem hrest2 (c : Dev nD) : ∀ b, b ∉ Finset.univ.image (Pipeline.arrRef spec2) → atRefs (W8 m) c b = atRefs (W7 m) c b :=
  fun b hb => Function.update_of_ne (StableHlo.devRef_ne_of_ne fun e => hb (Finset.mem_image.mpr ⟨(4 : Fin cfg2.W), Finset.mem_univ _, e.symm⟩)) _ _

set_option backward.isDefEq.respectTransparency.types false in
/-- Region 2 over the thread state "every unscoped buffer at the boundary's contents, the generator register at some
    state, nothing owed". -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atRefs (W7 m)) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (atRefs (W7 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atRefs (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atRefs (W7 m) c) (atRefs (W8 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg

end
-- ==== Proof.KI.Seg3.lean ====
/-
  Region 3 as one item of the program's run: entered from every unscoped buffer of the core at the contents of
  the boundary before it, left at those of the boundary after it. At entry the region's arrays are taken out of
  the core's unscoped buffers and handed to the pipeline; at exit they are put back, the output array now at what
  the write-backs left, every other buffer as found. The generator register goes into the region's invariant and
  comes out; nothing is owed; the kernel has no semaphore of its own.
-/
import proofs.«109784_j28140625724052_1_alg».proof.Proof.KI.Chain

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! At the region's exit each of its arrays holds what the pipeline leaves: an input array what it held at entry (the
pipeline never writes one, and the region's result is another buffer), the output array the write-backs' result. -/
theorem hF3_0 (c : Dev nD) : (dat3 (atRefs (W9 m)) c).arrAt 0 cfg3.N = atRefs (W10 m) c main_v76 :=
  ((dat3 (atRefs (W9 m)) c).arrAt_in 0 rfl _).trans
    ((A_eq3 _ c 0).trans (Function.update_of_ne (StableHlo.devRef_ne_of_ne (by decide : (main_v76 : Ref sig .tc) ≠ main_v79)) _ _).symm)
theorem hF3_1 (c : Dev nD) : (dat3 (atRefs (W9 m)) c).arrAt 1 cfg3.N = atRefs (W10 m) c main_v31 :=
  ((dat3 (atRefs (W9 m)) c).arrAt_in 1 rfl _).trans
    ((A_eq3 _ c 1).trans (Function.update_of_ne (StableHlo.devRef_ne_of_ne (by decide : (main_v31 : Ref sig .tc) ≠ main_v79)) _ _).symm)
theorem hF3_2 (c : Dev nD) : (dat3 (atRefs (W9 m)) c).arrAt 2 cfg3.N = atRefs (W10 m) c main_v63 :=
  ((dat3 (atRefs (W9 m)) c).arrAt_in 2 rfl _).trans
    ((A_eq3 _ c 2).trans (Function.update_of_ne (StableHlo.devRef_ne_of_ne (by decide : (main_v63 : Ref sig .tc) ≠ main_v79)) _ _).symm)
theorem hF3_3 (c : Dev nD) : (dat3 (atRefs (W9 m)) c).arrAt 3 cfg3.N = atRefs (W10 m) c main_v78 :=
  ((dat3 (atRefs (W9 m)) c).arrAt_in 3 rfl _).trans
    ((A_eq3 _ c 3).trans (Function.update_of_ne (StableHlo.devRef_ne_of_ne (by decide : (main_v78 : Ref sig .tc) ≠ main_v79)) _ _).symm)
theorem hF3_4 (c : Dev nD) : (dat3 (atRefs (W9 m)) c).arrAt 4 cfg3.N = atRefs (W10 m) c main_v79 :=
  (outs_10 m c).symm

theorem hF3 (c : Dev nD) (w : Fin cfg3.W) :
    (dat3 (atRefs (W9 m)) c).arrAt w cfg3.N = atRefs (W10 m) c (Pipeline.arrRef spec3 w) := by
  match w with
  | ⟨0, _⟩ => exact hF3_0 m c
  | ⟨1, _⟩ => exact hF3_1 m c
  | ⟨2, _⟩ => exact hF3_2 m c
  | ⟨3, _⟩ => exact hF3_3 m c
  | ⟨4, _⟩ => exact hF3_4 m c

/-- Every buffer that is no array of the region is as at entry. -/
theorem hrest3 (c : Dev nD) : ∀ b, b ∉ Finset.univ.image (Pipeline.arrRef spec3) → atRefs (W10 m) c b = atRefs (W9 m) c b :=
  fun b hb => Function.update_of_ne (StableHlo.devRef_ne_of_ne fun e => hb (Finset.mem_image.mpr ⟨(4 : Fin cfg3.W), Finset.mem_univ _, e.symm⟩)) _ _

set_option backward.isDefEq.respectTransparency.types false in
/-- Region 3 over the thread state "every unscoped buffer at the boundary's contents, the generator register at some
    state, nothing owed". -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atRefs (W9 m)) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (atRefs (W9 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atRefs (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atRefs (W9 m) c) (atRefs (W10 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg

end
-- ==== Proof.KI.Seg4.lean ====
/-
  Region 4 as one item of the program's run: entered from every unscoped buffer of the core at the contents of
  the boundary before it, left at those of the boundary after it. At entry the region's arrays are taken out of
  the core's unscoped buffers and handed to the pipeline; at exit they are put back, the output array now at what
  the write-backs left, every other buffer as found. The generator register goes into the region's invariant and
  comes out; nothing is owed; the kernel has no semaphore of its own.
-/
import proofs.«109784_j28140625724052_1_alg».proof.Proof.KI.Chain

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! At the region's exit each of its arrays holds what the pipeline leaves: an input array what it held at entry (the
pipeline never writes one, and the region's result is another buffer), the output array the write-backs' result. -/
theorem hF4_0 (c : Dev nD) : (dat4 (atRefs (W11 m)) c).arrAt 0 cfg4.N = atRefs (W12 m) c main_v79 :=
  ((dat4 (atRefs (W11 m)) c).arrAt_in 0 rfl _).trans
    ((A_eq4 _ c 0).trans (Function.update_of_ne (StableHlo.devRef_ne_of_ne (by decide : (main_v79 : Ref sig .tc) ≠ main_v81)) _ _).symm)
theorem hF4_1 (c : Dev nD) : (dat4 (atRefs (W11 m)) c).arrAt 1 cfg4.N = atRefs (W12 m) c main_arg7 :=
  ((dat4 (atRefs (W11 m)) c).arrAt_in 1 rfl _).trans
    ((A_eq4 _ c 1).trans (Function.update_of_ne (StableHlo.devRef_ne_of_ne (by decide : (main_arg7 : Ref sig .tc) ≠ main_v81)) _ _).symm)
theorem hF4_2 (c : Dev nD) : (dat4 (atRefs (W11 m)) c).arrAt 2 cfg4.N = atRefs (W12 m) c main_v80 :=
  ((dat4 (atRefs (W11 m)) c).arrAt_in 2 rfl _).trans
    ((A_eq4 _ c 2).trans (Function.update_of_ne (StableHlo.devRef_ne_of_ne (by decide : (main_v80 : Ref sig .tc) ≠ main_v81)) _ _).symm)
theorem hF4_3 (c : Dev nD) : (dat4 (atRefs (W11 m)) c).arrAt 3 cfg4.N = atRefs (W12 m) c main_v81 :=
  (outs_12 m c).symm

theorem hF4 (c : Dev nD) (w : Fin cfg4.W) :
    (dat4 (atRefs (W11 m)) c).arrAt w cfg4.N = atRefs (W12 m) c (Pipeline.arrRef spec4 w) := by
  match w with
  | ⟨0, _⟩ => exact hF4_0 m c
  | ⟨1, _⟩ => exact hF4_1 m c
  | ⟨2, _⟩ => exact hF4_2 m c
  | ⟨3, _⟩ => exact hF4_3 m c

/-- Every buffer that is no array of the region is as at entry. -/
theorem hrest4 (c : Dev nD) : ∀ b, b ∉ Finset.univ.image (Pipeline.arrRef spec4) → atRefs (W12 m) c b = atRefs (W11 m) c b :=
  fun b hb => Function.update_of_ne (StableHlo.devRef_ne_of_ne fun e => hb (Finset.mem_image.mpr ⟨(3 : Fin cfg4.W), Finset.mem_univ _, e.symm⟩)) _ _

set_option backward.isDefEq.respectTransparency.types false in
/-- Region 4 over the thread state "every unscoped buffer at the boundary's contents, the generator register at some
    state, nothing owed". -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atRefs (W11 m)) c).loose
  hwaits := Pipeline.hwaits_of_owed_zero _ _ _ _ L lv 4 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec4 c (atRefs (W11 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atRefs (W11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atRefs (W11 m) c) (atRefs (W12 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg

end
-- ==== Proof.KI.Seg5.lean ====
/-
  Region 5 as one item of the program's run: entered from every unscoped buffer of the core at the contents of
  the boundary before it, left at those of the boundary after it. At entry the region's arrays are taken out of
  the core's unscoped buffers and handed to the pipeline; at exit they are put back, the output array now at what
  the write-backs left, every other buffer as found. The generator register goes into the region's invariant and
  comes out; nothing is owed; the kernel has no semaphore of its own.
-/
import proofs.«109784_j28140625724052_1_alg».proof.Proof.KI.Chain

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! At the region's exit each of its arrays holds what the pipeline leaves: an input array what it held at entry (the
pipeline never writes one, and the region's result is another buffer), the output array the write-backs' result. -/
theorem hF5_0 (c : Dev nD) : (dat5 (atRefs (W15 m)) c).arrAt 0 cfg5.N = atRefs (W16 m) c main_arg2 :=
  ((dat5 (atRefs (W15 m)) c).arrAt_in 0 rfl _).trans
    ((A_eq5 _ c 0).trans (Function.update_of_ne (StableHlo.devRef_ne_of_ne (by decide : (main_arg2 : Ref sig .tc) ≠ main_v113)) _ _).symm)
theorem hF5_1 (c : Dev nD) : (dat5 (atRefs (W15 m)) c).arrAt 1 cfg5.N = atRefs (W16 m) c main_arg9 :=
  ((dat5 (atRefs (W15 m)) c).arrAt_in 1 rfl _).trans
    ((A_eq5 _ c 1).trans (Function.update_of_ne (StableHlo.devRef_ne_of_ne (by decide : (main_arg9 : Ref sig .tc) ≠ main_v113)) _ _).symm)
theorem hF5_2 (c : Dev nD) : (dat5 (atRefs (W15 m)) c).arrAt 2 cfg5.N = atRefs (W16 m) c main_v112 :=
  ((dat5 (atRefs (W15 m)) c).arrAt_in 2 rfl _).trans
    ((A_eq5 _ c 2).trans (Function.update_of_ne (StableHlo.devRef_ne_of_ne (by decide : (main_v112 : Ref sig .tc) ≠ main_v113)) _ _).symm)
theorem hF5_3 (c : Dev nD) : (dat5 (atRefs (W15 m)) c).arrAt 3 cfg5.N = atRefs (W16 m) c main_v113 :=
  (outs_16 m c).symm

theorem hF5 (c : Dev nD) (w : Fin cfg5.W) :
    (dat5 (atRefs (W15 m)) c).arrAt w cfg5.N = atRefs (W16 m) c (Pipeline.arrRef spec5 w) := by
  match w with
  | ⟨0, _⟩ => exact hF5_0 m c
  | ⟨1, _⟩ => exact hF5_1 m c
  | ⟨2, _⟩ => exact hF5_2 m c
  | ⟨3, _⟩ => exact hF5_3 m c

/-- Every buffer that is no array of the region is as at entry. -/
theorem hrest5 (c : Dev nD) : ∀ b, b ∉ Finset.univ.image (Pipeline.arrRef spec5) → atRefs (W16 m) c b = atRefs (W15 m) c b :=
  fun b hb => Function.update_of_ne (StableHlo.devRef_ne_of_ne fun e => hb (Finset.mem_image.mpr ⟨(3 : Fin cfg5.W), Finset.mem_univ _, e.symm⟩)) _ _

set_option backward.isDefEq.respectTransparency.types false in
/-- Region 5 over the thread state "every unscoped buffer at the boundary's contents, the generator register at some
    state, nothing owed". -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (atRefs (W15 m)) c).loose
  hwaits := Pipeline.hwaits_of_owed_zero _ _ _ _ L lv 5 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec5 c (atRefs (W15 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atRefs (W15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atRefs (W15 m) c) (atRefs (W16 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg

end
-- ==== Proof.KI.Seg6.lean ====
/-
  Region 6 as one item of the program's run: entered from every unscoped buffer of the core at the contents of
  the boundary before it, left at those of the boundary after it. At entry the region's arrays are taken out of
  the core's unscoped buffers and handed to the pipeline; at exit they are put back, the output array now at what
  the write-backs left, every other buffer as found. The generator register goes into the region's invariant and
  comes out; nothing is owed; the kernel has no semaphore of its own.
-/
import proofs.«109784_j28140625724052_1_alg».proof.Proof.KI.Chain

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! At the region's exit each of its arrays holds what the pipeline leaves: an input array what it held at entry (the
pipeline never writes one, and the region's result is another buffer), the output array the write-backs' result. -/
theorem hF6_0 (c : Dev nD) : (dat6 (atRefs (W17 m)) c).arrAt 0 cfg6.N = atRefs (W18 m) c main_v126 :=
  ((dat6 (atRefs (W17 m)) c).arrAt_in 0 rfl _).trans
    ((A_eq6 _ c 0).trans (Function.update_of_ne (StableHlo.devRef_ne_of_ne (by decide : (main_v126 : Ref sig .tc) ≠ main_v129)) _ _).symm)
theorem hF6_1 (c : Dev nD) : (dat6 (atRefs (W17 m)) c).arrAt 1 cfg6.N = atRefs (W18 m) c main_v113 :=
  ((dat6 (atRefs (W17 m)) c).arrAt_in 1 rfl _).trans
    ((A_eq6 _ c 1).trans (Function.update_of_ne (StableHlo.devRef_ne_of_ne (by decide : (main_v113 : Ref sig .tc) ≠ main_v129)) _ _).symm)
theorem hF6_2 (c : Dev nD) : (dat6 (atRefs (W17 m)) c).arrAt 2 cfg6.N = atRefs (W18 m) c main_v113 :=
  ((dat6 (atRefs (W17 m)) c).arrAt_in 2 rfl _).trans
    ((A_eq6 _ c 2).trans (Function.update_of_ne (StableHlo.devRef_ne_of_ne (by decide : (main_v113 : Ref sig .tc) ≠ main_v129)) _ _).symm)
theorem hF6_3 (c : Dev nD) : (dat6 (atRefs (W17 m)) c).arrAt 3 cfg6.N = atRefs (W18 m) c main_v128 :=
  ((dat6 (atRefs (W17 m)) c).arrAt_in 3 rfl _).trans
    ((A_eq6 _ c 3).trans (Function.update_of_ne (StableHlo.devRef_ne_of_ne (by decide : (main_v128 : Ref sig .tc) ≠ main_v129)) _ _).symm)
theorem hF6_4 (c : Dev nD) : (dat6 (atRefs (W17 m)) c).arrAt 4 cfg6.N = atRefs (W18 m) c main_v129 :=
  (outs_18 m c).symm

set_option maxHeartbeats 2000000 in
theorem hF6 (c : Dev nD) (w : Fin cfg6.W) :
    (dat6 (atRefs (W17 m)) c).arrAt w cfg6.N = atRefs (W18 m) c (Pipeline.arrRef spec6 w) := by
  match w with
  | ⟨0, _⟩ => exact hF6_0 m c
  | ⟨1, _⟩ => exact hF6_1 m c
  | ⟨2, _⟩ => exact hF6_2 m c
  | ⟨3, _⟩ => exact hF6_3 m c
  | ⟨4, _⟩ => exact hF6_4 m c

/-- Every buffer that is no array of the region is as at entry. -/
theorem hrest6 (c : Dev nD) : ∀ b, b ∉ Finset.univ.image (Pipeline.arrRef spec6) → atRefs (W18 m) c b = atRefs (W17 m) c b :=
  fun b hb => Function.update_of_ne (StableHlo.devRef_ne_of_ne fun e => hb (Finset.mem_image.mpr ⟨(4 : Fin cfg6.W), Finset.mem_univ _, e.symm⟩)) _ _

/-! ## The region's arrays among the core's unscoped buffers

Two input windows of this region read ONE array (`main_v113`), so the four distinct buffers behind the five windows'
arrays are divided among them: that array's buffer into two halves of its share, one per window; the others whole. -/

/-- The distinct buffers behind the windows' arrays, one by one. -/
theorem arrBufs6_eq (c : Dev nD) (V : (c : Dev nD) → (b : Ref sig .tc) → Buf (Elt F) ((c : Thread nD τ).loc b)) :
    (Pipeline.arrBufs spec6 c (V c) : sProp 𝕄)
      = iprop((((c : Thread nD τ).loc main_v126) ↦{fullShare} V c main_v126) ∗ (((c : Thread nD τ).loc main_v113) ↦{fullShare} V c main_v113)
          ∗ (((c : Thread nD τ).loc main_v128) ↦{fullShare} V c main_v128) ∗ (((c : Thread nD τ).loc main_v129) ↦{fullShare} V c main_v129)) := by
  unfold Pipeline.arrBufs
  exact BI.bigSep_eq_bigSepL_of_eq [main_v126, main_v113, main_v128, main_v129] (by decide) (by decide) _

/-- The region's arrays, window by window, each array a whole buffer. -/
theorem arrays6_univ (c : Dev nD) (V : (c : Dev nD) → (b : Ref sig .tc) → Buf (Elt F) ((c : Thread nD τ).loc b))
    (G : (w : Fin cfg6.W) → Buf (Elt F) ((cfg6.win w).arr.view.loc (c : Thread nD τ))) :
    ((dat6 V c).arrays G : sProp 𝕄)
      = bigSep Finset.univ fun w : Fin cfg6.W => (((c : Thread nD τ).loc (Pipeline.arrRef spec6 w)) ↦{(dat6 V c).share w} G w : sProp 𝕄) := by
  unfold Pipeline.Dat.arrays
  exact bigSep_congr fun w _ => by rw [(arr_whole6 w).set_eq_univ]

/-- ENTRY: the buffers behind the arrays, each whole, are the windows' arrays at the entry contents. -/
theorem entryArrays6 (c : Dev nD) (V : (c : Dev nD) → (b : Ref sig .tc) → Buf (Elt F) ((c : Thread nD τ).loc b)) :
    (Pipeline.arrBufs spec6 c (V c) : sProp 𝕄) ⊢ (dat6 V c).arrays ((dat6 V c).arrAt · 0) := by
  rw [arrays6_univ, bigSep_W6]
  rw [arrBufs6_eq]
  iintro ⟨H0, H1, H3, H4⟩
  ihave H12 := (pointsTo_share (PosShare.mem_left_op_right fullShare)).1 $$ H1
  icases H12 with ⟨H1, H2⟩
  isplitl [H0]; · iexact H0
  isplitl [H1]; · iexact H1
  isplitl [H2]; · iexact H2
  isplitl [H3]; · iexact H3
  iexact H4

/-- EXIT: the windows' arrays at contents that agree on the shared array are the buffers behind them, each whole. -/
theorem exitArrays6 (c : Dev nD) (V V' : (c : Dev nD) → (b : Ref sig .tc) → Buf (Elt F) ((c : Thread nD τ).loc b))
    (G : (w : Fin cfg6.W) → Buf (Elt F) ((cfg6.win w).arr.view.loc (c : Thread nD τ)))
    (hG : ∀ w, G w = V' c (Pipeline.arrRef spec6 w)) :
    ((dat6 V c).arrays G : sProp 𝕄) ⊢ Pipeline.arrBufs spec6 c (V' c) := by
  rw [arrays6_univ, bigSep_congr (fun w _ => by rw [hG w]), bigSep_W6]
  rw [arrBufs6_eq]
  iintro ⟨H0, H1, H2, H3, H4⟩
  isplitl [H0]; · iexact H0
  isplitl [H1 H2]
  · iapply (pointsTo_share (PosShare.mem_left_op_right fullShare)).2
    isplitl [H1]; · iexact H1
    iexact H2
  isplitl [H3]; · iexact H3
  iexact H4

set_option backward.isDefEq.respectTransparency.types false in
/-- Region 6 over the thread state "every unscoped buffer at the boundary's contents, the generator register at some
    state, nothing owed". -/
def reg6 : Pipeline.RegionSeg (pcfgs (F := F)) adm (pdats m) () defs₀ 𝒱₀ L lv 6 where
  win := winFacts₀6
  block_pos := block_pos6
  stage_whole := stage_whole6
  K := PEmpty
  osem k := k.elim
  ho := Pipeline.OwnSemFacts.none _
  hbody c := (body_obligation6 (atRefs (W17 m)) c).loose
  hwaits := Pipeline.hwaits_of_owed_zero _ _ _ _ L lv 6 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec6 c (atRefs (W17 m) c)
  hentry c := by
    rw [Pipeline.ownSems0_none]
    have hsplit : (unscopedBufs c (atRefs (W17 m) c) : sProp 𝕄)
        ⊢ iprop((dat6 (atRefs (W17 m)) c).arrays ((dat6 (atRefs (W17 m)) c).arrAt · 0)
            ∗ Pipeline.unscopedRest spec6 c (atRefs (W17 m) c)) := by
      rw [Pipeline.unscopedBufs_split₀ cfgs 6 winFacts₀6.arr_unscoped c (atRefs (W17 m) c)]
      exact sep_mono (entryArrays6 c (atRefs (W17 m))) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin : iprop((dat6 (atRefs (W17 m)) c).arrays ((dat6 (atRefs (W17 m)) c).arrAt · cfg6.N)
          ∗ Pipeline.unscopedRest spec6 c (atRefs (W17 m) c))
        ⊢ (unscopedBufs c (atRefs (W18 m) c) : sProp 𝕄) := by
      rw [Pipeline.unscopedBufs_split₀ cfgs 6 winFacts₀6.arr_unscoped c (atRefs (W18 m) c)]
      refine sep_mono (exitArrays6 c (atRefs (W17 m)) (atRefs (W18 m)) _ (hF6 m c)) (Entails.of_eq ?_)
      unfold Pipeline.unscopedRest
      exact bigSep_congr fun b hb => by rw [hrest6 m c b (Finset.mem_sdiff.mp hb).2]
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KernelIdeal.Rg

end
-- ==== Proof.KI.Seg7.lean ====
/-
  Region 7 as one item of the program's run: entered from every unscoped buffer of the core at the contents of
  the boundary before it, left at those of the boundary after it. At entry the region's arrays are taken out of
  the core's unscoped buffers and handed to the pipeline; at exit they are put back, the output array now at what
  the write-backs left, every other buffer as found. The generator register goes into the region's invariant and
  comes out; nothing is owed; the kernel has no semaphore of its own.
-/
import proofs.«109784_j28140625724052_1_alg».proof.Proof.KI.Chain

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! At the region's exit each of its arrays holds what the pipeline leaves: an input array what it held at entry (the
pipeline never writes one, and the region's result is another buffer), the output array the write-backs' result. -/
theorem hF7_0 (c : Dev nD) : (dat7 (atRefs (W19 m)) c).arrAt 0 cfg7.N = atRefs (W20 m) c main_v142 :=
  ((dat7 (atRefs (W19 m)) c).arrAt_in 0 rfl _).trans
    ((A_eq7 _ c 0).trans (Function.update_of_ne (StableHlo.devRef_ne_of_ne (by decide : (main_v142 : Ref sig .tc) ≠ main_v145)) _ _).symm)
theorem hF7_1 (c : Dev nD) : (dat7 (atRefs (W19 m)) c).arrAt 1 cfg7.N = atRefs (W20 m) c main_v113 :=
  ((dat7 (atRefs (W19 m)) c).arrAt_in 1 rfl _).trans
    ((A_eq7 _ c 1).trans (Function.update_of_ne (StableHlo.devRef_ne_of_ne (by decide : (main_v113 : Ref sig .tc) ≠ main_v145)) _ _).symm)
theorem hF7_2 (c : Dev nD) : (dat7 (atRefs (W19 m)) c).arrAt 2 cfg7.N = atRefs (W20 m) c main_v129 :=
  ((dat7 (atRefs (W19 m)) c).arrAt_in 2 rfl _).trans
    ((A_eq7 _ c 2).trans (Function.update_of_ne (StableHlo.devRef_ne_of_ne (by decide : (main_v129 : Ref sig .tc) ≠ main_v145)) _ _).symm)
theorem hF7_3 (c : Dev nD) : (dat7 (atRefs (W19 m)) c).arrAt 3 cfg7.N = atRefs (W20 m) c main_v144 :=
  ((dat7 (atRefs (W19 m)) c).arrAt_in 3 rfl _).trans
    ((A_eq7 _ c 3).trans (Function.update_of_ne (StableHlo.devRef_ne_of_ne (by decide : (main_v144 : Ref sig .tc) ≠ main_v145)) _ _).symm)
theorem hF7_4 (c : Dev nD) : (dat7 (atRefs (W19 m)) c).arrAt 4 cfg7.N = atRefs (W20 m) c main_v145 :=
  (outs_20 m c).symm

theorem hF7 (c : Dev nD) (w : Fin cfg7.W) :
    (dat7 (atRefs (W19 m)) c).arrAt w cfg7.N = atRefs (W20 m) c (Pipeline.arrRef spec7 w) := by
  match w with
  | ⟨0, _⟩ => exact hF7_0 m c
  | ⟨1, _⟩ => exact hF7_1 m c
  | ⟨2, _⟩ => exact hF7_2 m c
  | ⟨3, _⟩ => exact hF7_3 m c
  | ⟨4, _⟩ => exact hF7_4 m c

/-- Every buffer that is no array of the region is as at entry. -/
theorem hrest7 (c : Dev nD) : ∀ b, b ∉ Finset.univ.image (Pipeline.arrRef spec7) → atRefs (W20 m) c b = atRefs (W19 m) c b :=
  fun b hb => Function.update_of_ne (StableHlo.devRef_ne_of_ne fun e => hb (Finset.mem_image.mpr ⟨(4 : Fin cfg7.W), Finset.mem_univ _, e.symm⟩)) _ _

set_option backward.isDefEq.respectTransparency.types false in
/-- Region 7 over the thread state "every unscoped buffer at the boundary's contents, the generator register at some
    state, nothing owed". -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (atRefs (W19 m)) c).loose
  hwaits := Pipeline.hwaits_of_owed_zero _ _ _ _ L lv 7 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec7 c (atRefs (W19 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (atRefs (W19 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (atRefs (W19 m) c) (atRefs (W20 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg

end
-- ==== Proof.KI.Seg8.lean ====
/-
  Region 8 as one item of the program's run: entered from every unscoped buffer of the core at the contents of
  the boundary before it, left at those of the boundary after it. At entry the region's arrays are taken out of
  the core's unscoped buffers and handed to the pipeline; at exit they are put back, the output array now at what
  the write-backs left, every other buffer as found. The generator register goes into the region's invariant and
  comes out; nothing is owed; the kernel has no semaphore of its own.
-/
import proofs.«109784_j28140625724052_1_alg».proof.Proof.KI.Chain

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! At the region's exit each of its arrays holds what the pipeline leaves: an input array what it held at entry (the
pipeline never writes one, and the region's result is another buffer), the output array the write-backs' result. -/
theorem hF8_0 (c : Dev nD) : (dat8 (atRefs (W21 m)) c).arrAt 0 cfg8.N = atRefs (W22 m) c main_v158 :=
  ((dat8 (atRefs (W21 m)) c).arrAt_in 0 rfl _).trans
    ((A_eq8 _ c 0).trans (Function.update_of_ne (StableHlo.devRef_ne_of_ne (by decide : (main_v158 : Ref sig .tc) ≠ main_v161)) _ _).symm)
theorem hF8_1 (c : Dev nD) : (dat8 (atRefs (W21 m)) c).arrAt 1 cfg8.N = atRefs (W22 m) c main_v113 :=
  ((dat8 (atRefs (W21 m)) c).arrAt_in 1 rfl _).trans
    ((A_eq8 _ c 1).trans (Function.update_of_ne (StableHlo.devRef_ne_of_ne (by decide : (main_v113 : Ref sig .tc) ≠ main_v161)) _ _).symm)
theorem hF8_2 (c : Dev nD) : (dat8 (atRefs (W21 m)) c).arrAt 2 cfg8.N = atRefs (W22 m) c main_v145 :=
  ((dat8 (atRefs (W21 m)) c).arrAt_in 2 rfl _).trans
    ((A_eq8 _ c 2).trans (Function.update_of_ne (StableHlo.devRef_ne_of_ne (by decide : (main_v145 : Ref sig .tc) ≠ main_v161)) _ _).symm)
theorem hF8_3 (c : Dev nD) : (dat8 (atRefs (W21 m)) c).arrAt 3 cfg8.N = atRefs (W22 m) c main_v160 :=
  ((dat8 (atRefs (W21 m)) c).arrAt_in 3 rfl _).trans
    ((A_eq8 _ c 3).trans (Function.update_of_ne (StableHlo.devRef_ne_of_ne (by decide : (main_v160 : Ref sig .tc) ≠ main_v161)) _ _).symm)
theorem hF8_4 (c : Dev nD) : (dat8 (atRefs (W21 m)) c).arrAt 4 cfg8.N = atRefs (W22 m) c main_v161 :=
  (outs_22 m c).symm

theorem hF8 (c : Dev nD) (w : Fin cfg8.W) :
    (dat8 (atRefs (W21 m)) c).arrAt w cfg8.N = atRefs (W22 m) c (Pipeline.arrRef spec8 w) := by
  match w with
  | ⟨0, _⟩ => exact hF8_0 m c
  | ⟨1, _⟩ => exact hF8_1 m c
  | ⟨2, _⟩ => exact hF8_2 m c
  | ⟨3, _⟩ => exact hF8_3 m c
  | ⟨4, _⟩ => exact hF8_4 m c

/-- Every buffer that is no array of the region is as at entry. -/
theorem hrest8 (c : Dev nD) : ∀ b, b ∉ Finset.univ.image (Pipeline.arrRef spec8) → atRefs (W22 m) c b = atRefs (W21 m) c b :=
  fun b hb => Function.update_of_ne (StableHlo.devRef_ne_of_ne fun e => hb (Finset.mem_image.mpr ⟨(4 : Fin cfg8.W), Finset.mem_univ _, e.symm⟩)) _ _

set_option backward.isDefEq.respectTransparency.types false in
/-- Region 8 over the thread state "every unscoped buffer at the boundary's contents, the generator register at some
    state, nothing owed". -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (atRefs (W21 m)) c).loose
  hwaits := Pipeline.hwaits_of_owed_zero _ _ _ _ L lv 8 fun _ _ => rfl
  pre c := iprop(StableHlo.held (c : Thread nD τ) (Pipeline.ucRefs τ sig) (W21 m c) ∗ R c)
  post c := iprop(StableHlo.held (c : Thread nD τ) (Pipeline.ucRefs τ sig) (W22 m c) ∗ R c)
  X c := iprop(∃ r, prngReg c r)
  Y c := iprop(∃ r, prngReg c r)
  Z c := Pipeline.unscopedRest (Ix := Unit) (Name := ℕ) (U := UR sig nD τ) (Lvl := ℕ) spec8 c (atRefs (W21 m) c)
  hentry c := by
    rw [Pipeline.ownSems0_none]
    have hsplit := Pipeline.arrays_of_unscopedBufs (p := 8) (pcfgs (F := F)) adm (pdats m) launch8.win launch8.arr_whole c
      ((pdats m 8 c).share_full fun _ => rfl) (atRefs (W21 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (atRefs (W21 m) c) (atRefs (W22 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg

end
-- ==== Proof.KI.Seg9.lean ====
/-
  Region 9 as one item of the program's run: entered from every unscoped buffer of the core at the contents of
  the boundary before it, left at those of the boundary after it. At entry the region's arrays are taken out of
  the core's unscoped buffers and handed to the pipeline; at exit they are put back, the output array now at what
  the write-backs left, every other buffer as found. The generator register goes into the region's invariant and
  comes out; nothing is owed; the kernel has no semaphore of its own.
-/
import proofs.«109784_j28140625724052_1_alg».proof.Proof.KI.Chain

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! At the region's exit each of its arrays holds what the pipeline leaves: an input array what it held at entry (the
pipeline never writes one, and the region's result is another buffer), the output array the write-backs' result. -/
theorem hF9_0 (c : Dev nD) : (dat9 (atRefs (W23 m)) c).arrAt 0 cfg9.N = atRefs (W24 m) c main_v161 :=
  ((dat9 (atRefs (W23 m)) c).arrAt_in 0 rfl _).trans
    ((A_eq9 _ c 0).trans (Function.update_of_ne (StableHlo.devRef_ne_of_ne (by decide : (main_v161 : Ref sig .tc) ≠ main_v163)) _ _).symm)
theorem hF9_1 (c : Dev nD) : (dat9 (atRefs (W23 m)) c).arrAt 1 cfg9.N = atRefs (W24 m) c main_arg12 :=
  ((dat9 (atRefs (W23 m)) c).arrAt_in 1 rfl _).trans
    ((A_eq9 _ c 1).trans (Function.update_of_ne (StableHlo.devRef_ne_of_ne (by decide : (main_arg12 : Ref sig .tc) ≠ main_v163)) _ _).symm)
theorem hF9_2 (c : Dev nD) : (dat9 (atRefs (W23 m)) c).arrAt 2 cfg9.N = atRefs (W24 m) c main_v162 :=
  ((dat9 (atRefs (W23 m)) c).arrAt_in 2 rfl _).trans
    ((A_eq9 _ c 2).trans (Function.update_of_ne (StableHlo.devRef_ne_of_ne (by decide : (main_v162 : Ref sig .tc) ≠ main_v163)) _ _).symm)
theorem hF9_3 (c : Dev nD) : (dat9 (atRefs (W23 m)) c).arrAt 3 cfg9.N = atRefs (W24 m) c main_v163 :=
  (outs_24 m c).symm

theorem hF9 (c : Dev nD) (w : Fin cfg9.W) :
    (dat9 (atRefs (W23 m)) c).arrAt w cfg9.N = atRefs (W24 m) c (Pipeline.arrRef spec9 w) := by
  match w with
  | ⟨0, _⟩ => exact hF9_0 m c
  | ⟨1, _⟩ => exact hF9_1 m c
  | ⟨2, _⟩ => exact hF9_2 m c
  | ⟨3, _⟩ => exact hF9_3 m c

/-- Every buffer that is no array of the region is as at entry. -/
theorem hrest9 (c : Dev nD) : ∀ b, b ∉ Finset.univ.image (Pipeline.arrRef spec9) → atRefs (W24 m) c b = atRefs (W23 m) c b :=
  fun b hb => Function.update_of_ne (StableHlo.devRef_ne_of_ne fun e => hb (Finset.mem_image.mpr ⟨(3 : Fin cfg9.W), Finset.mem_univ _, e.symm⟩)) _ _

set_option backward.isDefEq.respectTransparency.types false in
/-- Region 9 over the thread state "every unscoped buffer at the boundary's contents, the generator register at some
    state, nothing owed". -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (atRefs (W23 m)) c).loose
  hwaits := Pipeline.hwaits_of_owed_zero _ _ _ _ L lv 9 fun _ _ => rfl
  pre c := iprop(StableHlo.held (c : Thread nD τ) (Pipeline.ucRefs τ sig) (W23 m c) ∗ R c)
  post c := iprop(StableHlo.held (c : Thread nD τ) (Pipeline.ucRefs τ sig) (W24 m c) ∗ R c)
  X c := iprop(∃ r, prngReg c r)
  Y c := iprop(∃ r, prngReg c r)
  Z c := Pipeline.unscopedRest (Ix := Unit) (Name := ℕ) (U := UR sig nD τ) (Lvl := ℕ) spec9 c (atRefs (W23 m) c)
  hentry c := by
    rw [Pipeline.ownSems0_none]
    have hsplit := Pipeline.arrays_of_unscopedBufs (p := 9) (pcfgs (F := F)) adm (pdats m) launch9.win launch9.arr_whole c
      ((pdats m 9 c).share_full fun _ => rfl) (atRefs (W23 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (atRefs (W23 m) c) (atRefs (W24 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg

end
-- ==== Proof.KI.Seg10.lean ====
/-
  Region 10 as one item of the program's run: entered from every unscoped buffer of the core at the contents of
  the boundary before it, left at those of the boundary after it. At entry the region's arrays are taken out of
  the core's unscoped buffers and handed to the pipeline; at exit they are put back, the output array now at what
  the write-backs left, every other buffer as found. The generator register goes into the region's invariant and
  comes out; nothing is owed; the kernel has no semaphore of its own.
-/
import proofs.«109784_j28140625724052_1_alg».proof.Proof.KI.Chain

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! At the region's exit each of its arrays holds what the pipeline leaves: an input array what it held at entry (the
pipeline never writes one, and the region's result is another buffer), the output array the write-backs' result. -/
theorem hF10_0 (c : Dev nD) : (dat10 (atRefs (W25 m)) c).arrAt 0 cfg10.N = atRefs (W26 m) c main_v81 :=
  ((dat10 (atRefs (W25 m)) c).arrAt_in 0 rfl _).trans
    ((A_eq10 _ c 0).trans (Function.update_of_ne (StableHlo.devRef_ne_of_ne (by decide : (main_v81 : Ref sig .tc) ≠ main_v169)) _ _).symm)
theorem hF10_1 (c : Dev nD) : (dat10 (atRefs (W25 m)) c).arrAt 1 cfg10.N = atRefs (W26 m) c main_v163 :=
  ((dat10 (atRefs (W25 m)) c).arrAt_in 1 rfl _).trans
    ((A_eq10 _ c 1).trans (Function.update_of_ne (StableHlo.devRef_ne_of_ne (by decide : (main_v163 : Ref sig .tc) ≠ main_v169)) _ _).symm)
theorem hF10_2 (c : Dev nD) : (dat10 (atRefs (W25 m)) c).arrAt 2 cfg10.N = atRefs (W26 m) c main_v164 :=
  ((dat10 (atRefs (W25 m)) c).arrAt_in 2 rfl _).trans
    ((A_eq10 _ c 2).trans (Function.update_of_ne (StableHlo.devRef_ne_of_ne (by decide : (main_v164 : Ref sig .tc) ≠ main_v169)) _ _).symm)
theorem hF10_3 (c : Dev nD) : (dat10 (atRefs (W25 m)) c).arrAt 3 cfg10.N = atRefs (W26 m) c main_v165 :=
  ((dat10 (atRefs (W25 m)) c).arrAt_in 3 rfl _).trans
    ((A_eq10 _ c 3).trans (Function.update_of_ne (StableHlo.devRef_ne_of_ne (by decide : (main_v165 : Ref sig .tc) ≠ main_v169)) _ _).symm)
theorem hF10_4 (c : Dev nD) : (dat10 (atRefs (W25 m)) c).arrAt 4 cfg10.N = atRefs (W26 m) c main_v166 :=
  ((dat10 (atRefs (W25 m)) c).arrAt_in 4 rfl _).trans
    ((A_eq10 _ c 4).trans (Function.update_of_ne (StableHlo.devRef_ne_of_ne (by decide : (main_v166 : Ref sig .tc) ≠ main_v169)) _ _).symm)
theorem hF10_5 (c : Dev nD) : (dat10 (atRefs (W25 m)) c).arrAt 5 cfg10.N = atRefs (W26 m) c main_arg16 :=
  ((dat10 (atRefs (W25 m)) c).arrAt_in 5 rfl _).trans
    ((A_eq10 _ c 5).trans (Function.update_of_ne (StableHlo.devRef_ne_of_ne (by decide : (main_arg16 : Ref sig .tc) ≠ main_v169)) _ _).symm)
theorem hF10_6 (c : Dev nD) : (dat10 (atRefs (W25 m)) c).arrAt 6 cfg10.N = atRefs (W26 m) c main_v167 :=
  ((dat10 (atRefs (W25 m)) c).arrAt_in 6 rfl _).trans
    ((A_eq10 _ c 6).trans (Function.update_of_ne (StableHlo.devRef_ne_of_ne (by decide : (main_v167 : Ref sig .tc) ≠ main_v169)) _ _).symm)
theorem hF10_7 (c : Dev nD) : (dat10 (atRefs (W25 m)) c).arrAt 7 cfg10.N = atRefs (W26 m) c main_arg18 :=
  ((dat10 (atRefs (W25 m)) c).arrAt_in 7 rfl _).trans
    ((A_eq10 _ c 7).trans (Function.update_of_ne (StableHlo.devRef_ne_of_ne (by decide : (main_arg18 : Ref sig .tc) ≠ main_v169)) _ _).symm)
theorem hF10_8 (c : Dev nD) : (dat10 (atRefs (W25 m)) c).arrAt 8 cfg10.N = atRefs (W26 m) c main_v168 :=
  ((dat10 (atRefs (W25 m)) c).arrAt_in 8 rfl _).trans
    ((A_eq10 _ c 8).trans (Function.update_of_ne (StableHlo.devRef_ne_of_ne (by decide : (main_v168 : Ref sig .tc) ≠ main_v169)) _ _).symm)
theorem hF10_9 (c : Dev nD) : (dat10 (atRefs (W25 m)) c).arrAt 9 cfg10.N = atRefs (W26 m) c main_v169 :=
  (outs_26 m c).symm

set_option maxHeartbeats 2000000 in
theorem hF10 (c : Dev nD) (w : Fin cfg10.W) :
    (dat10 (atRefs (W25 m)) c).arrAt w cfg10.N = atRefs (W26 m) c (Pipeline.arrRef spec10 w) := by
  match w with
  | ⟨0, _⟩ => exact hF10_0 m c
  | ⟨1, _⟩ => exact hF10_1 m c
  | ⟨2, _⟩ => exact hF10_2 m c
  | ⟨3, _⟩ => exact hF10_3 m c
  | ⟨4, _⟩ => exact hF10_4 m c
  | ⟨5, _⟩ => exact hF10_5 m c
  | ⟨6, _⟩ => exact hF10_6 m c
  | ⟨7, _⟩ => exact hF10_7 m c
  | ⟨8, _⟩ => exact hF10_8 m c
  | ⟨9, _⟩ => exact hF10_9 m c

/-- Every buffer that is no array of the region is as at entry. -/
theorem hrest10 (c : Dev nD) : ∀ b, b ∉ Finset.univ.image (Pipeline.arrRef spec10) → atRefs (W26 m) c b = atRefs (W25 m) c b :=
  fun b hb => Function.update_of_ne (StableHlo.devRef_ne_of_ne fun e => hb (Finset.mem_image.mpr ⟨(9 : Fin cfg10.W), Finset.mem_univ _, e.symm⟩)) _ _

set_option backward.isDefEq.respectTransparency.types false in
/-- Region 10 over the thread state "every unscoped buffer at the boundary's contents, the generator register at some
    state, nothing owed". -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (atRefs (W25 m)) c).loose
  hwaits := Pipeline.hwaits_of_owed_zero _ _ _ _ L lv 10 fun _ _ => rfl
  pre c := iprop(StableHlo.held (c : Thread nD τ) (Pipeline.ucRefs τ sig) (W25 m c) ∗ R c)
  post c := iprop(StableHlo.held (c : Thread nD τ) (Pipeline.ucRefs τ sig) (W26 m c) ∗ R c)
  X c := iprop(∃ r, prngReg c r)
  Y c := iprop(∃ r, prngReg c r)
  Z c := Pipeline.unscopedRest (Ix := Unit) (Name := ℕ) (U := UR sig nD τ) (Lvl := ℕ) spec10 c (atRefs (W25 m) c)
  hentry c := by
    rw [Pipeline.ownSems0_none]
    have hsplit := Pipeline.arrays_of_unscopedBufs (p := 10) (pcfgs (F := F)) adm (pdats m) launch10.win launch10.arr_whole c
      ((pdats m 10 c).share_full fun _ => rfl) (atRefs (W25 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (atRefs (W25 m) c) (atRefs (W26 m) c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg

end
-- ==== Proof.KI.ReadCond.lean ====
/-
  The program's run with its final memory read whole. The generated conditional frame proves, from one segment
  record per kernel region, that the program terminates without a fault with its arguments unchanged; the same
  argument — the items chained from the launch to the return, the last thread state read against the final state —
  gives every unscoped buffer's final contents, which is what a claim about the RESULT needs.
-/
import proofs.«109784_j28140625724052_1_alg».proof.Proof.Gen.KernelIdeal.Regions

set_option maxRecDepth 1788

noncomputable section

namespace Cert.KernelIdeal.Rg

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- THE CONDITIONAL RUN, READ WHOLE. Under the hypotheses of the conditional frame — per region a segment record entered
    from the thread state before it and left at the one after it — every weakly fair execution of the program from memory
    `m` with zero counters terminates, and every final memory holds EVERY unscoped buffer of every core at the last
    boundary's contents: the arguments, and the result. -/
theorem read_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 11) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 12 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE11 : ∀ c : Dev nD, E 11 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V11 m outs c) ∗ E 4 c) ⊢ R4.pre c)
    (hpost4 : ∀ c : Dev nD, R4.post c ⊢ iprop(StableHlo.held (c : Thread nD τ) (Pipeline.ucRefs τ sig) (V12 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V15 m outs c) ∗ E 5 c) ⊢ R5.pre c)
    (hpost5 : ∀ c : Dev nD, R5.post c ⊢ iprop(StableHlo.held (c : Thread nD τ) (Pipeline.ucRefs τ sig) (V16 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V17 m outs c) ∗ E 6 c) ⊢ R6.pre c)
    (hpost6 : ∀ c : Dev nD, R6.post c ⊢ iprop(StableHlo.held (c : Thread nD τ) (Pipeline.ucRefs τ sig) (V18 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V19 m outs c) ∗ E 7 c) ⊢ R7.pre c)
    (hpost7 : ∀ c : Dev nD, R7.post c ⊢ iprop(StableHlo.held (c : Thread nD τ) (Pipeline.ucRefs τ sig) (V20 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V21 m outs c) ∗ E 8 c) ⊢ R8.pre c)
    (hpost8 : ∀ c : Dev nD, R8.post c ⊢ iprop(StableHlo.held (c : Thread nD τ) (Pipeline.ucRefs τ sig) (V22 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V23 m outs c) ∗ E 9 c) ⊢ R9.pre c)
    (hpost9 : ∀ c : Dev nD, R9.post c ⊢ iprop(StableHlo.held (c : Thread nD τ) (Pipeline.ucRefs τ sig) (V24 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V25 m outs c) ∗ E 10 c) ⊢ R10.pre c)
    (hpost10 : ∀ c : Dev nD, R10.post c ⊢ iprop(StableHlo.held (c : Thread nD τ) (Pipeline.ucRefs τ sig) (V26 m outs c) ∗ E 11 c)) :
    θ_run defs (onTc (τ := τ) (main (F := F))) ⟨m, fun _ => 0, ρ⟩ (fun r => ∀ c : Dev nD,
      ∀ b ∈ Pipeline.ucRefs τ sig, r.2.mem (((c : Thread nD τ)).1, b) = V26 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10)
    (fun c Q => by
      rewrite [main_chain c, Seg.run_eq_chain,
        show (segs m outs 𝒱₀ L lv E ι pdats R0 R1 R2 R3 R4 R5 R6 R7 R8 R9 R10 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          StableHlo.seq hostOps5_1,
          StableHlo.seq hostOps5_2,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V26 m outs c))
    (hch := fun c => ⟨.rfl, .rfl, .rfl, hpre0 c, hpost0 c, hpre1 c, hpost1 c, hpre2 c, hpost2 c, hpre3 c, hpost3 c, hpre4 c, hpost4 c, .rfl, .rfl, hpre5 c, hpost5 c, hpre6 c, hpost6 c, hpre7 c, hpost7 c, hpre8 c, hpost8 c, hpre9 c, hpost9 c, hpre10 c, (hpost10 c).trans (sep_mono .rfl (hE11 c))⟩)
    (hinit := ?_) (QY := fun c s => ∀ b ∈ Pipeline.ucRefs τ sig, s.mem (((c : Thread nD τ)).1, b) = V26 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V26 m outs c) s') $$ [Hh HSI]
    · isplitl [Hh] <;> iassumption
    icases Hr with ⟨%h, HSI⟩
    imodintro
    isplitr
    · ipureintro
      exact h
    · iexact HSI

end Cert.KernelIdeal.Rg

end
-- ==== Proof.KI.Run.lean ====
/-
  The program's run, assembled: the eleven regions' records chained with the host stretches between them give, from
  any launch memory with zero counters, termination without a fault in a final memory that holds every unscoped
  buffer of every core at the last boundary's contents. Read at the arguments (no host stretch writes one and no
  region's output array is one) this is the frame claim; read at the result's buffer it names the result: what the
  last region leaves in its output array.
-/
import proofs.«109784_j28140625724052_1_alg».proof.Proof.KI.Seg0
import proofs.«109784_j28140625724052_1_alg».proof.Proof.KI.Seg1
import proofs.«109784_j28140625724052_1_alg».proof.Proof.KI.Seg2
import proofs.«109784_j28140625724052_1_alg».proof.Proof.KI.Seg3
import proofs.«109784_j28140625724052_1_alg».proof.Proof.KI.Seg4
import proofs.«109784_j28140625724052_1_alg».proof.Proof.KI.Seg5
import proofs.«109784_j28140625724052_1_alg».proof.Proof.KI.Seg6
import proofs.«109784_j28140625724052_1_alg».proof.Proof.KI.Seg7
import proofs.«109784_j28140625724052_1_alg».proof.Proof.KI.Seg8
import proofs.«109784_j28140625724052_1_alg».proof.Proof.KI.Seg9
import proofs.«109784_j28140625724052_1_alg».proof.Proof.KI.Seg10
import proofs.«109784_j28140625724052_1_alg».proof.Proof.KI.ReadCond

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of the program terminates, nothing faulting, and the final memory holds every unscoped
    buffer at the last boundary's contents. -/
theorem run_read : θ_run defs (onTc (τ := τ) (main (F := F))) ⟨m, fun _ => 0, ρ⟩ (fun r => ∀ c : Dev nD,
      ∀ b ∈ Pipeline.ucRefs τ sig, r.2.mem (((c : Thread nD τ)).1, b) = W26 m c b) := by
  have h := read_cond m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE11 := fun c => by iintro ⟨-, H⟩; iexact H)
    (R0 := reg0 m) (hpre0 := fun c => by exact .rfl) (hpost0 := fun c => by rw [VW4 m c]; exact .rfl)
    (R1 := reg1 m) (hpre1 := fun c => by rw [VW5 m c]; exact .rfl) (hpost1 := fun c => by rw [VW6 m c]; exact .rfl)
    (R2 := reg2 m) (hpre2 := fun c => by rw [VW7 m c]; exact .rfl) (hpost2 := fun c => by rw [VW8 m c]; exact .rfl)
    (R3 := reg3 m) (hpre3 := fun c => by rw [VW9 m c]; exact .rfl) (hpost3 := fun c => by rw [VW10 m c]; exact .rfl)
    (R4 := reg4 m) (hpre4 := fun c => by rw [VW11 m c]; exact .rfl) (hpost4 := fun c => by rw [VW12 m c]; exact .rfl)
    (R5 := reg5 m) (hpre5 := fun c => by rw [VW15 m c]; exact .rfl) (hpost5 := fun c => by rw [VW16 m c]; exact .rfl)
    (R6 := reg6 m) (hpre6 := fun c => by rw [VW17 m c]; exact .rfl) (hpost6 := fun c => by rw [VW18 m c]; exact .rfl)
    (R7 := reg7 m) (hpre7 := fun c => by rw [VW19 m c]; exact .rfl) (hpost7 := fun c => by rw [VW20 m c]; exact .rfl)
    (R8 := reg8 m) (hpre8 := fun c => by rw [VW21 m c]; exact .rfl) (hpost8 := fun c => by rw [VW22 m c]; exact .rfl)
    (R9 := reg9 m) (hpre9 := fun c => by rw [VW23 m c]; exact .rfl) (hpost9 := fun c => by rw [VW24 m c]; exact .rfl)
    (R10 := reg10 m) (hpre10 := fun c => by rw [VW25 m c]; exact .rfl) (hpost10 := fun c => by rw [VW26 m c]; exact .rfl)
  exact (θ_run _ _ _).mono (fun r hr c b hb => (hr c b hb).trans (congrFun (VW26 m c) b)) h

/-! No item writes an argument: each argument's buffer is at the end what the launch memory held. -/
theorem W26_main_arg0 (c : Dev nD) : W26 m c main_arg0 = m ((c : Thread nD τ).loc main_arg0) :=
  (congrFun (VW26 m c) _).symm.trans (V26_main_arg0 m (outs m) c)
theorem W26_main_arg1 (c : Dev nD) : W26 m c main_arg1 = m ((c : Thread nD τ).loc main_arg1) :=
  (congrFun (VW26 m c) _).symm.trans (V26_main_arg1 m (outs m) c)
theorem W26_main_arg2 (c : Dev nD) : W26 m c main_arg2 = m ((c : Thread nD τ).loc main_arg2) :=
  (congrFun (VW26 m c) _).symm.trans (V26_main_arg2 m (outs m) c)
theorem W26_main_arg3 (c : Dev nD) : W26 m c main_arg3 = m ((c : Thread nD τ).loc main_arg3) :=
  (congrFun (VW26 m c) _).symm.trans (V26_main_arg3 m (outs m) c)
theorem W26_main_arg4 (c : Dev nD) : W26 m c main_arg4 = m ((c : Thread nD τ).loc main_arg4) :=
  (congrFun (VW26 m c) _).symm.trans (V26_main_arg4 m (outs m) c)
theorem W26_main_arg5 (c : Dev nD) : W26 m c main_arg5 = m ((c : Thread nD τ).loc main_arg5) :=
  (congrFun (VW26 m c) _).symm.trans (V26_main_arg5 m (outs m) c)
theorem W26_main_arg6 (c : Dev nD) : W26 m c main_arg6 = m ((c : Thread nD τ).loc main_arg6) :=
  (congrFun (VW26 m c) _).symm.trans (V26_main_arg6 m (outs m) c)
theorem W26_main_arg7 (c : Dev nD) : W26 m c main_arg7 = m ((c : Thread nD τ).loc main_arg7) :=
  (congrFun (VW26 m c) _).symm.trans (V26_main_arg7 m (outs m) c)
theorem W26_main_arg8 (c : Dev nD) : W26 m c main_arg8 = m ((c : Thread nD τ).loc main_arg8) :=
  (congrFun (VW26 m c) _).symm.trans (V26_main_arg8 m (outs m) c)
theorem W26_main_arg9 (c : Dev nD) : W26 m c main_arg9 = m ((c : Thread nD τ).loc main_arg9) :=
  (congrFun (VW26 m c) _).symm.trans (V26_main_arg9 m (outs m) c)
theorem W26_main_arg10 (c : Dev nD) : W26 m c main_arg10 = m ((c : Thread nD τ).loc main_arg10) :=
  (congrFun (VW26 m c) _).symm.trans (V26_main_arg10 m (outs m) c)
theorem W26_main_arg11 (c : Dev nD) : W26 m c main_arg11 = m ((c : Thread nD τ).loc main_arg11) :=
  (congrFun (VW26 m c) _).symm.trans (V26_main_arg11 m (outs m) c)
theorem W26_main_arg12 (c : Dev nD) : W26 m c main_arg12 = m ((c : Thread nD τ).loc main_arg12) :=
  (congrFun (VW26 m c) _).symm.trans (V26_main_arg12 m (outs m) c)
theorem W26_main_arg13 (c : Dev nD) : W26 m c main_arg13 = m ((c : Thread nD τ).loc main_arg13) :=
  (congrFun (VW26 m c) _).symm.trans (V26_main_arg13 m (outs m) c)
theorem W26_main_arg14 (c : Dev nD) : W26 m c main_arg14 = m ((c : Thread nD τ).loc main_arg14) :=
  (congrFun (VW26 m c) _).symm.trans (V26_main_arg14 m (outs m) c)
theorem W26_main_arg15 (c : Dev nD) : W26 m c main_arg15 = m ((c : Thread nD τ).loc main_arg15) :=
  (congrFun (VW26 m c) _).symm.trans (V26_main_arg15 m (outs m) c)
theorem W26_main_arg16 (c : Dev nD) : W26 m c main_arg16 = m ((c : Thread nD τ).loc main_arg16) :=
  (congrFun (VW26 m c) _).symm.trans (V26_main_arg16 m (outs m) c)
theorem W26_main_arg17 (c : Dev nD) : W26 m c main_arg17 = m ((c : Thread nD τ).loc main_arg17) :=
  (congrFun (VW26 m c) _).symm.trans (V26_main_arg17 m (outs m) c)
theorem W26_main_arg18 (c : Dev nD) : W26 m c main_arg18 = m ((c : Thread nD τ).loc main_arg18) :=
  (congrFun (VW26 m c) _).symm.trans (V26_main_arg18 m (outs m) c)
theorem W26_main_arg19 (c : Dev nD) : W26 m c main_arg19 = m ((c : Thread nD τ).loc main_arg19) :=
  (congrFun (VW26 m c) _).symm.trans (V26_main_arg19 m (outs m) c)

/-- THE FRAME: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run _ _ _).mono (fun r h c =>
    ⟨(h c _ (mem_uc main_arg0 (by decide))).trans (W26_main_arg0 m c),
     (h c _ (mem_uc main_arg1 (by decide))).trans (W26_main_arg1 m c),
     (h c _ (mem_uc main_arg2 (by decide))).trans (W26_main_arg2 m c),
     (h c _ (mem_uc main_arg3 (by decide))).trans (W26_main_arg3 m c),
     (h c _ (mem_uc main_arg4 (by decide))).trans (W26_main_arg4 m c),
     (h c _ (mem_uc main_arg5 (by decide))).trans (W26_main_arg5 m c),
     (h c _ (mem_uc main_arg6 (by decide))).trans (W26_main_arg6 m c),
     (h c _ (mem_uc main_arg7 (by decide))).trans (W26_main_arg7 m c),
     (h c _ (mem_uc main_arg8 (by decide))).trans (W26_main_arg8 m c),
     (h c _ (mem_uc main_arg9 (by decide))).trans (W26_main_arg9 m c),
     (h c _ (mem_uc main_arg10 (by decide))).trans (W26_main_arg10 m c),
     (h c _ (mem_uc main_arg11 (by decide))).trans (W26_main_arg11 m c),
     (h c _ (mem_uc main_arg12 (by decide))).trans (W26_main_arg12 m c),
     (h c _ (mem_uc main_arg13 (by decide))).trans (W26_main_arg13 m c),
     (h c _ (mem_uc main_arg14 (by decide))).trans (W26_main_arg14 m c),
     (h c _ (mem_uc main_arg15 (by decide))).trans (W26_main_arg15 m c),
     (h c _ (mem_uc main_arg16 (by decide))).trans (W26_main_arg16 m c),
     (h c _ (mem_uc main_arg17 (by decide))).trans (W26_main_arg17 m c),
     (h c _ (mem_uc main_arg18 (by decide))).trans (W26_main_arg18 m c),
     (h c _ (mem_uc main_arg19 (by decide))).trans (W26_main_arg19 m c)⟩) (run_read m ρ)

/-- The result's buffer at the end: what the last region's write-backs leave in its output array. -/
theorem W26_result (c : Dev nD) : W26 m c main_v169 = o26 m c := outs_26 m c

/-- The run with the result named: the result buffer ends at the last boundary's contents, every argument as launched. -/
theorem run_result : θ_run defs (onTc (τ := τ) (main (F := F))) ⟨m, fun _ => 0, ρ⟩ (fun r => ∀ c : Dev nD,
      r.2.mem ((c.tc : Thread nD τ).loc main_v169) = W26 m c main_v169
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run _ _ _).mono (fun r h c =>
    ⟨h c _ (mem_uc main_v169 (by decide)),
     (h c _ (mem_uc main_arg0 (by decide))).trans (W26_main_arg0 m c),
     (h c _ (mem_uc main_arg1 (by decide))).trans (W26_main_arg1 m c),
     (h c _ (mem_uc main_arg2 (by decide))).trans (W26_main_arg2 m c),
     (h c _ (mem_uc main_arg3 (by decide))).trans (W26_main_arg3 m c),
     (h c _ (mem_uc main_arg4 (by decide))).trans (W26_main_arg4 m c),
     (h c _ (mem_uc main_arg5 (by decide))).trans (W26_main_arg5 m c),
     (h c _ (mem_uc main_arg6 (by decide))).trans (W26_main_arg6 m c),
     (h c _ (mem_uc main_arg7 (by decide))).trans (W26_main_arg7 m c),
     (h c _ (mem_uc main_arg8 (by decide))).trans (W26_main_arg8 m c),
     (h c _ (mem_uc main_arg9 (by decide))).trans (W26_main_arg9 m c),
     (h c _ (mem_uc main_arg10 (by decide))).trans (W26_main_arg10 m c),
     (h c _ (mem_uc main_arg11 (by decide))).trans (W26_main_arg11 m c),
     (h c _ (mem_uc main_arg12 (by decide))).trans (W26_main_arg12 m c),
     (h c _ (mem_uc main_arg13 (by decide))).trans (W26_main_arg13 m c),
     (h c _ (mem_uc main_arg14 (by decide))).trans (W26_main_arg14 m c),
     (h c _ (mem_uc main_arg15 (by decide))).trans (W26_main_arg15 m c),
     (h c _ (mem_uc main_arg16 (by decide))).trans (W26_main_arg16 m c),
     (h c _ (mem_uc main_arg17 (by decide))).trans (W26_main_arg17 m c),
     (h c _ (mem_uc main_arg18 (by decide))).trans (W26_main_arg18 m c),
     (h c _ (mem_uc main_arg19 (by decide))).trans (W26_main_arg19 m c)⟩) (run_read m ρ)

end Cert.KernelIdeal.Rg

end
-- ==== Proof.Spec.lean ====
/-
  What each kernel computes, stated on whole arrays: the reference program's own operations applied to the
  arrays a kernel's windows read. Each input layer is relu(x·w + b); each graph layer, from the aggregated
  messages `agg`, the first layer's output `h0` and the previous layer's `prev`, is
  relu(s + s·w) + prev with s = 0.8·agg + 0.2·h0 (the two float words are those of 0.8 and 0.2, the same in both
  programs); each output projection is x·w + b; the head is three affine maps with two relus between them, on the
  two branches' outputs joined along the feature axis. A bias enters as a [1, n] row broadcast over the rows.
-/
import proofs.«109784_j28140625724052_1_alg».proof.Proof.Gen.ReferenceIdeal
import Idealize.ShloMosaic.PureOps.Ideal

noncomputable section

namespace Cert.Spec

open Cert.ReferenceIdeal Cert.ReferenceIdeal.Gen Idealize.ShloMosaic

variable {F : FTy → Type} [FloatOps F]

/-- The zero array a relu is the maximum with. -/
def zeros512 : (⟨S32768x512, .f32⟩ : BufTy).Contents (Elt F) := broadcastInDim S32768x512 ![] bcast_S_S32768x512 (constant (F := F) S_ .f32 0x00000000#32)
def zeros1024 : (⟨S32768x1024, .f32⟩ : BufTy).Contents (Elt F) := broadcastInDim S32768x1024 ![] bcast_S_S32768x1024 (constant (F := F) S_ .f32 0x00000000#32)

/-- The molecule branch's input layer: relu(x·w + b), x of 78 features. -/
def linRelu78 (x : (⟨S32768x78, .f32⟩ : BufTy).Contents (Elt F)) (w : (⟨S78x512, .f32⟩ : BufTy).Contents (Elt F)) (b2 : (⟨S1x512, .f32⟩ : BufTy).Contents (Elt F)) : (⟨S32768x512, .f32⟩ : BufTy).Contents (Elt F) :=
  maximumf (addf (Host.dotGeneral dot_S32768x78_S78x512_S32768x512_1_0_0_1_n_n none x w) (broadcastInDim S32768x512 ![0, 1] bcast_S1x512_S32768x512_0_1 b2)) zeros512

/-- The protein branch's input layer: relu(x·w + b), x of 54 features. -/
def linRelu54 (x : (⟨S32768x54, .f32⟩ : BufTy).Contents (Elt F)) (w : (⟨S54x512, .f32⟩ : BufTy).Contents (Elt F)) (b2 : (⟨S1x512, .f32⟩ : BufTy).Contents (Elt F)) : (⟨S32768x512, .f32⟩ : BufTy).Contents (Elt F) :=
  maximumf (addf (Host.dotGeneral dot_S32768x54_S54x512_S32768x512_1_0_0_1_n_n none x w) (broadcastInDim S32768x512 ![0, 1] bcast_S1x512_S32768x512_0_1 b2)) zeros512

/-- A graph layer's mixed input: 0.8·agg + 0.2·h0. -/
def support (agg h0 : (⟨S32768x512, .f32⟩ : BufTy).Contents (Elt F)) : (⟨S32768x512, .f32⟩ : BufTy).Contents (Elt F) :=
  addf (mulf (broadcastInDim S32768x512 ![] bcast_S_S32768x512 (constant (F := F) S_ .f32 0x3F4CCCCD#32)) agg)
    (mulf (broadcastInDim S32768x512 ![] bcast_S_S32768x512 (constant (F := F) S_ .f32 0x3E4CCCCD#32)) h0)

/-- A graph layer: relu(s + s·w) + prev, s the mixed input. -/
def gcnii (agg h0 prev : (⟨S32768x512, .f32⟩ : BufTy).Contents (Elt F)) (w : (⟨S512x512, .f32⟩ : BufTy).Contents (Elt F)) : (⟨S32768x512, .f32⟩ : BufTy).Contents (Elt F) :=
  addf (maximumf (addf (support agg h0) (Host.dotGeneral dot_S32768x512_S512x512_S32768x512_1_0_0_1_n_n none (support agg h0) w)) zeros512) prev

/-- A branch's output projection: x·w + b. -/
def lin128 (x : (⟨S32768x512, .f32⟩ : BufTy).Contents (Elt F)) (w : (⟨S512x128, .f32⟩ : BufTy).Contents (Elt F)) (b2 : (⟨S1x128, .f32⟩ : BufTy).Contents (Elt F)) : (⟨S32768x128, .f32⟩ : BufTy).Contents (Elt F) :=
  addf (Host.dotGeneral dot_S32768x512_S512x128_S32768x128_1_0_0_1_n_n none x w) (broadcastInDim S32768x128 ![0, 1] bcast_S1x128_S32768x128_0_1 b2)

/-- The head on the two branches' outputs: joined along the features, relu(·w1 + b1), relu(·w2 + b2), ·wo + bo. -/
def head (mo po : (⟨S32768x128, .f32⟩ : BufTy).Contents (Elt F)) (w1 : (⟨S256x1024, .f32⟩ : BufTy).Contents (Elt F)) (b1 : (⟨S1x1024, .f32⟩ : BufTy).Contents (Elt F)) (w2 : (⟨S1024x512, .f32⟩ : BufTy).Contents (Elt F)) (b2 : (⟨S1x512, .f32⟩ : BufTy).Contents (Elt F))
    (wo : (⟨S512x1, .f32⟩ : BufTy).Contents (Elt F)) (bo : (⟨S1x1, .f32⟩ : BufTy).Contents (Elt F)) : (⟨S32768x1, .f32⟩ : BufTy).Contents (Elt F) :=
  addf (Host.dotGeneral dot_S32768x512_S512x1_S32768x1_1_0_0_1_n_n none
      (maximumf (addf (Host.dotGeneral dot_S32768x1024_S1024x512_S32768x512_1_0_0_1_n_n none
          (maximumf (addf (Host.dotGeneral dot_S32768x256_S256x1024_S32768x1024_1_0_0_1_n_n none
              (concatenate S32768x256 1 [⟨S32768x128, mo⟩, ⟨S32768x128, po⟩] concatenates_S32768x128_S32768x128_S32768x256_d1) w1)
            (broadcastInDim S32768x1024 ![0, 1] bcast_S1x1024_S32768x1024_0_1 b1)) zeros1024) w2)
        (broadcastInDim S32768x512 ![0, 1] bcast_S1x512_S32768x512_0_1 b2)) zeros512) wo)
    (broadcastInDim S32768x1 ![0, 1] bcast_S1x1_S32768x1_0_1 bo)

end Cert.Spec

end
-- ==== Proof.LibLayout.lean ====
/-
  Two spellings of one re-layout. Adding a unit axis to a vector — a reshape of [n] to [n, 1] or to [1, n] — and
  the broadcast_in_dim that sends the vector's one axis to the non-unit axis of the same result shape are the same
  function: element (r, 0) (respectively (0, r)) of either is element r of the vector.
-/
import Idealize.ShloMosaic.Lib.Pipeline.Value
import Idealize.ShloMosaic.Lib.ValueIdx
import Idealize.ShloMosaic.Lib.ValueLayout

noncomputable section

namespace Cert.LibLayout

open Idealize.ShloMosaic

variable {α : Type}

/-- [n] → [n, 1]: the reshape is the broadcast along axis 0; entry (r, 0) of either is entry r of the vector. -/
theorem shapeCast_col_eq_broadcastInDim (n : Nat) (v : (⟨1, ![n]⟩ : Shape).Idx → α)
    (h : (⟨1, ![n]⟩ : Shape).ShapeCasts ⟨2, ![n, 1]⟩) (hb : (⟨1, ![n]⟩ : Shape).BroadcastsInDim ⟨2, ![n, 1]⟩ ![0]) :
    shapeCast ⟨2, ![n, 1]⟩ v h = broadcastInDim ⟨2, ![n, 1]⟩ ![0] hb v := by
  funext j
  have hj1 : (j 1).val = 0 := by have := (j 1).isLt; simp at this; omega
  let k : (⟨1, ![n]⟩ : Shape).Idx := fun a => ⟨(j 0).val, by
    have ha : a = 0 := Subsingleton.elim _ _
    subst ha
    show (j 0).val < n
    exact (j 0).isLt⟩
  rw [shapeCast_apply v h j k ?_, broadcastInDim_apply ![0] hb v j k ?_]
  · intro a
    have ha : a = 0 := Subsingleton.elim _ _
    subst ha
    by_cases h1 : (⟨1, ![n]⟩ : Shape).size 0 = 1
    · rw [if_pos h1]
      have : (j 0).val < n := (j 0).isLt
      have h1' : n = 1 := h1
      show (j 0).val = 0
      omega
    · rw [if_neg h1]; rfl
  · rw [Shape.rowMajor_val_one, Shape.rowMajor_val_two]
    show (j 0).val = (j 0).val * 1 + (j 1).val
    omega

/-- [n] → [1, n]: the reshape is the broadcast along axis 1; entry (0, r) of either is entry r of the vector. -/
theorem shapeCast_row_eq_broadcastInDim (n : Nat) (v : (⟨1, ![n]⟩ : Shape).Idx → α)
    (h : (⟨1, ![n]⟩ : Shape).ShapeCasts ⟨2, ![1, n]⟩) (hb : (⟨1, ![n]⟩ : Shape).BroadcastsInDim ⟨2, ![1, n]⟩ ![1]) :
    shapeCast ⟨2, ![1, n]⟩ v h = broadcastInDim ⟨2, ![1, n]⟩ ![1] hb v := by
  funext j
  have hj0 : (j 0).val = 0 := by have := (j 0).isLt; simp at this; omega
  let k : (⟨1, ![n]⟩ : Shape).Idx := fun a => ⟨(j 1).val, by
    have ha : a = 0 := Subsingleton.elim _ _
    subst ha
    show (j 1).val < n
    exact (j 1).isLt⟩
  rw [shapeCast_apply v h j k ?_, broadcastInDim_apply ![1] hb v j k ?_]
  · intro a
    have ha : a = 0 := Subsingleton.elim _ _
    subst ha
    by_cases h1 : (⟨1, ![n]⟩ : Shape).size 0 = 1
    · rw [if_pos h1]
      have : (j 1).val < n := (j 1).isLt
      have h1' : n = 1 := h1
      show (j 1).val = 0
      omega
    · rw [if_neg h1]; rfl
  · rw [Shape.rowMajor_val_one, Shape.rowMajor_val_two]
    show (j 1).val = (j 0).val * n + (j 1).val
    rw [hj0]; omega

end Cert.LibLayout

end
-- ==== Proof.KI.Bridge.lean ====
/-
  The kernel program's buffers, read at the ideal instance as the reference program's stages. At every boundary of
  the kernel program each buffer that a later item reads — an argument, a host stretch's result, a region's output
  array — holds the reference's value of the same quantity, as a function of the arguments: a host stretch of the
  kernel program is the reference's own operations on those buffers; a bias row is the reference's broadcast of the
  bias vector (a reshape to [1, n] and the broadcast along axis 1 are one function); a region's output array is the
  reference's operations applied to its input arrays (the region facts, taken here as hypotheses and proved region
  by region elsewhere). The last region's output array is the result.
-/
import proofs.«109784_j28140625724052_1_alg».proof.Proof.KI.Run
import proofs.«109784_j28140625724052_1_alg».proof.Proof.Spec
import proofs.«109784_j28140625724052_1_alg».proof.Proof.RefReadP
import proofs.«109784_j28140625724052_1_alg».proof.Proof.LibLayout

set_option maxRecDepth 16384

noncomputable section

namespace Cert.KernelIdeal.Rg

open Cert.KernelIdeal Cert.KernelIdeal.Gen Cert.ReferenceIdeal.ReadP
open Idealize.ShloMosaic Idealize.ShloMosaic.TcCoe Idealize.ShloMosaic.StableHlo
open Idealize.SL Idealize.SL.Sem
open Idealize.ShloMosaic.Pipeline (Dat Cfg Window)

/-- The eleven region facts: each region's output array after its last write-back is the reference's operations
    applied to the region's input arrays. -/
structure RegionValues : Prop where
  v0 : ∀ (V : (c : Dev nD) → (b : Ref sig .tc) → Buf (Elt Ideal) ((c : Thread nD τ).loc b)) (c : Dev nD),
    (dat0 (F := Ideal) V c).arrAt 3 cfg0.N = Cert.Spec.linRelu78 (F := Ideal) (V c main_arg0) (V c main_arg4) (V c main_v30)
  v1 : ∀ (V : (c : Dev nD) → (b : Ref sig .tc) → Buf (Elt Ideal) ((c : Thread nD τ).loc b)) (c : Dev nD),
    (dat1 (F := Ideal) V c).arrAt 4 cfg1.N = Cert.Spec.gcnii (F := Ideal) (V c main_v44) (V c main_v31) (V c main_v31) (V c main_v46)
  v2 : ∀ (V : (c : Dev nD) → (b : Ref sig .tc) → Buf (Elt Ideal) ((c : Thread nD τ).loc b)) (c : Dev nD),
    (dat2 (F := Ideal) V c).arrAt 4 cfg2.N = Cert.Spec.gcnii (F := Ideal) (V c main_v60) (V c main_v31) (V c main_v47) (V c main_v62)
  v3 : ∀ (V : (c : Dev nD) → (b : Ref sig .tc) → Buf (Elt Ideal) ((c : Thread nD τ).loc b)) (c : Dev nD),
    (dat3 (F := Ideal) V c).arrAt 4 cfg3.N = Cert.Spec.gcnii (F := Ideal) (V c main_v76) (V c main_v31) (V c main_v63) (V c main_v78)
  v4 : ∀ (V : (c : Dev nD) → (b : Ref sig .tc) → Buf (Elt Ideal) ((c : Thread nD τ).loc b)) (c : Dev nD),
    (dat4 (F := Ideal) V c).arrAt 3 cfg4.N = Cert.Spec.lin128 (F := Ideal) (V c main_v79) (V c main_arg7) (V c main_v80)
  v5 : ∀ (V : (c : Dev nD) → (b : Ref sig .tc) → Buf (Elt Ideal) ((c : Thread nD τ).loc b)) (c : Dev nD),
    (dat5 (F := Ideal) V c).arrAt 3 cfg5.N = Cert.Spec.linRelu54 (F := Ideal) (V c main_arg2) (V c main_arg9) (V c main_v112)
  v6 : ∀ (V : (c : Dev nD) → (b : Ref sig .tc) → Buf (Elt Ideal) ((c : Thread nD τ).loc b)) (c : Dev nD),
    (dat6 (F := Ideal) V c).arrAt 4 cfg6.N = Cert.Spec.gcnii (F := Ideal) (V c main_v126) (V c main_v113) (V c main_v113) (V c main_v128)
  v7 : ∀ (V : (c : Dev nD) → (b : Ref sig .tc) → Buf (Elt Ideal) ((c : Thread nD τ).loc b)) (c : Dev nD),
    (dat7 (F := Ideal) V c).arrAt 4 cfg7.N = Cert.Spec.gcnii (F := Ideal) (V c main_v142) (V c main_v113) (V c main_v129) (V c main_v144)
  v8 : ∀ (V : (c : Dev nD) → (b : Ref sig .tc) → Buf (Elt Ideal) ((c : Thread nD τ).loc b)) (c : Dev nD),
    (dat8 (F := Ideal) V c).arrAt 4 cfg8.N = Cert.Spec.gcnii (F := Ideal) (V c main_v158) (V c main_v113) (V c main_v145) (V c main_v160)
  v9 : ∀ (V : (c : Dev nD) → (b : Ref sig .tc) → Buf (Elt Ideal) ((c : Thread nD τ).loc b)) (c : Dev nD),
    (dat9 (F := Ideal) V c).arrAt 3 cfg9.N = Cert.Spec.lin128 (F := Ideal) (V c main_v161) (V c main_arg12) (V c main_v162)
  v10 : ∀ (V : (c : Dev nD) → (b : Ref sig .tc) → Buf (Elt Ideal) ((c : Thread nD τ).loc b)) (c : Dev nD) (wfull : (⟨S256x1024, .f32⟩ : BufTy).Contents (Elt Ideal)) (h1 : V c main_v164 = extractStridedSlice S128x1024 ![0, 0] wfull slices_S256x1024_S128x1024_0_0) (h2 : V c main_v165 = extractStridedSlice S128x1024 ![128, 0] wfull slices_S256x1024_S128x1024_128_0),
    (dat10 (F := Ideal) V c).arrAt 9 cfg10.N
      = Cert.Spec.head (F := Ideal) (V c main_v81) (V c main_v163) wfull (V c main_v166) (V c main_arg16) (V c main_v167) (V c main_arg18) (V c main_v168)

variable (m : (ℓ : Loc nD τ sig) → Buf (Elt Ideal) ℓ) (hv : RegionValues)
include hv

theorem e0_arg1 (c : Dev nD) : V0 m c main_arg1 = (m ((c : Thread nD τ).loc main_arg1)) :=
  rfl

set_option maxHeartbeats 8000000 in
theorem e1_v6 (c : Dev nD) : V1 m c main_v6 = (val_main_v6 (F := Ideal) (m ((c : Thread nD τ).loc main_arg1))) := by
  show StableHlo.after hostOps0 (V0 m c) (Proc.devRef .tc main_v6) = _
  after_results
  rfl

theorem e8_v6 (c : Dev nD) : W8 m c main_v6 = (val_main_v6 (F := Ideal) (m ((c : Thread nD τ).loc main_arg1))) :=
  ((congrFun (VW8 m c) _).symm.trans <| (V8_of m (outs m) c main_v6 (by decide)).trans <| (V7_of m (outs m) c main_v6 (by decide)).trans <| (V6_of m (outs m) c main_v6 (by decide)).trans <| (V5_of m (outs m) c main_v6 (by decide)).trans <| (V4_of m (outs m) c main_v6 (by decide)).trans <| (V3_of m c main_v6 (by decide)).trans <| (V2_of m c main_v6 (by decide))).trans (e1_v6 m hv c)

set_option maxHeartbeats 8000000 in
theorem e1_v12 (c : Dev nD) : V1 m c main_v12 = (val_main_v12 (F := Ideal) (m ((c : Thread nD τ).loc main_arg1))) := by
  show StableHlo.after hostOps0 (V0 m c) (Proc.devRef .tc main_v12) = _
  after_results
  rfl

set_option maxHeartbeats 8000000 in
theorem e1_v13 (c : Dev nD) : V1 m c main_v13 = (val_main_v13 (F := Ideal) (m ((c : Thread nD τ).loc main_arg1))) := by
  show StableHlo.after hostOps0 (V0 m c) (Proc.devRef .tc main_v13) = _
  after_results
  rfl

set_option maxHeartbeats 8000000 in
theorem e1_cst_2 (c : Dev nD) : V1 m c main_cst_2 = (val_main_cst_2 (F := Ideal)) := by
  show StableHlo.after hostOps0 (V0 m c) (Proc.devRef .tc main_cst_2) = _
  after_results
  rw []
  rfl

set_option maxRecDepth 1000000 in
set_option maxHeartbeats 8000000 in
theorem e2_v14 (c : Dev nD) : V2 m c main_v14 = (val_main_v14 (F := Ideal) (m ((c : Thread nD τ).loc main_arg1))) := by
  have h0 := e1_v12 m hv c
  have h1 := e1_v13 m hv c
  have h2 := e1_cst_2 m hv c
  show StableHlo.after hostOps0_1 (V1 m c) (Proc.devRef .tc main_v14) = _
  generalize V1 m c = X at h0 h1 h2 ⊢
  after_results
  rw [h0, h1, h2]
  rfl

set_option maxHeartbeats 8000000 in
theorem e1_v3 (c : Dev nD) : V1 m c main_v3 = (val_main_v3 (F := Ideal) (m ((c : Thread nD τ).loc main_arg1))) := by
  show StableHlo.after hostOps0 (V0 m c) (Proc.devRef .tc main_v3) = _
  after_results
  rfl

theorem e2_v3 (c : Dev nD) : V2 m c main_v3 = (val_main_v3 (F := Ideal) (m ((c : Thread nD τ).loc main_arg1))) :=
  ((V2_of m c main_v3 (by decide))).trans (e1_v3 m hv c)

theorem e2_v6 (c : Dev nD) : V2 m c main_v6 = (val_main_v6 (F := Ideal) (m ((c : Thread nD τ).loc main_arg1))) :=
  ((V2_of m c main_v6 (by decide))).trans (e1_v6 m hv c)

set_option maxHeartbeats 8000000 in
theorem e3_v29 (c : Dev nD) : W3 m c main_v29 = (val_main_v29 (F := Ideal) (m ((c : Thread nD τ).loc main_arg1))) := by
  have h0 := e2_v14 m hv c
  have h1 := e2_v3 m hv c
  have h2 := e2_v6 m hv c
  show StableHlo.after hostOps0_2 (V2 m c) (Proc.devRef .tc main_v29) = _
  generalize V2 m c = X at h0 h1 h2 ⊢
  after_results
  rw [h0, h1, h2]
  rfl

theorem e8_v29 (c : Dev nD) : W8 m c main_v29 = (val_main_v29 (F := Ideal) (m ((c : Thread nD τ).loc main_arg1))) :=
  ((congrFun (VW8 m c) _).symm.trans <| (V8_of m (outs m) c main_v29 (by decide)).trans <| (V7_of m (outs m) c main_v29 (by decide)).trans <| (V6_of m (outs m) c main_v29 (by decide)).trans <| (V5_of m (outs m) c main_v29 (by decide)).trans <| (V4_of m (outs m) c main_v29 (by decide))).trans (e3_v29 m hv c)

theorem e6_v6 (c : Dev nD) : W6 m c main_v6 = (val_main_v6 (F := Ideal) (m ((c : Thread nD τ).loc main_arg1))) :=
  ((congrFun (VW6 m c) _).symm.trans <| (V6_of m (outs m) c main_v6 (by decide)).trans <| (V5_of m (outs m) c main_v6 (by decide)).trans <| (V4_of m (outs m) c main_v6 (by decide)).trans <| (V3_of m c main_v6 (by decide)).trans <| (V2_of m c main_v6 (by decide))).trans (e1_v6 m hv c)

theorem e6_v29 (c : Dev nD) : W6 m c main_v29 = (val_main_v29 (F := Ideal) (m ((c : Thread nD τ).loc main_arg1))) :=
  ((congrFun (VW6 m c) _).symm.trans <| (V6_of m (outs m) c main_v29 (by decide)).trans <| (V5_of m (outs m) c main_v29 (by decide)).trans <| (V4_of m (outs m) c main_v29 (by decide))).trans (e3_v29 m hv c)

theorem e4_v6 (c : Dev nD) : W4 m c main_v6 = (val_main_v6 (F := Ideal) (m ((c : Thread nD τ).loc main_arg1))) :=
  ((congrFun (VW4 m c) _).symm.trans <| (V4_of m (outs m) c main_v6 (by decide)).trans <| (V3_of m c main_v6 (by decide)).trans <| (V2_of m c main_v6 (by decide))).trans (e1_v6 m hv c)

theorem e4_v29 (c : Dev nD) : W4 m c main_v29 = (val_main_v29 (F := Ideal) (m ((c : Thread nD τ).loc main_arg1))) :=
  ((congrFun (VW4 m c) _).symm.trans <| (V4_of m (outs m) c main_v29 (by decide))).trans (e3_v29 m hv c)

theorem e3_arg0 (c : Dev nD) : W3 m c main_arg0 = (m ((c : Thread nD τ).loc main_arg0)) :=
  (V3_of m c main_arg0 (by decide)).trans <| (V2_of m c main_arg0 (by decide)).trans <| (V1_of m c main_arg0 (by decide))

theorem e3_arg4 (c : Dev nD) : W3 m c main_arg4 = (m ((c : Thread nD τ).loc main_arg4)) :=
  (V3_of m c main_arg4 (by decide)).trans <| (V2_of m c main_arg4 (by decide)).trans <| (V1_of m c main_arg4 (by decide))

theorem e2_arg5 (c : Dev nD) : V2 m c main_arg5 = (m ((c : Thread nD τ).loc main_arg5)) :=
  (V2_of m c main_arg5 (by decide)).trans <| (V1_of m c main_arg5 (by decide))

set_option maxHeartbeats 8000000 in
theorem e3_v30 (c : Dev nD) : W3 m c main_v30 = (val_main_v31 (F := Ideal) (m ((c : Thread nD τ).loc main_arg5))) := by
  have h0 := e2_arg5 m hv c
  show StableHlo.after hostOps0_2 (V2 m c) (Proc.devRef .tc main_v30) = _
  generalize V2 m c = X at h0 ⊢
  after_results
  rw [h0]
  exact Cert.LibLayout.shapeCast_row_eq_broadcastInDim 512 _ _ _

/-- Region 0's output array is the reference's stage of the arguments. -/
theorem e4_v31 (c : Dev nD) : W4 m c main_v31 = (val_main_v34 (F := Ideal) (m ((c : Thread nD τ).loc main_arg0)) (m ((c : Thread nD τ).loc main_arg4)) (m ((c : Thread nD τ).loc main_arg5))) := by
  refine (outs_4 m c).trans ?_
  refine (hv.v0 (atRefs (W3 m)) c).trans ?_
  show Cert.Spec.linRelu78 (F := Ideal) (W3 m c main_arg0) (W3 m c main_arg4) (W3 m c main_v30) = _
  rw [e3_arg0 m hv c, e3_arg4 m hv c, e3_v30 m hv c]
  rfl

theorem e4_v3 (c : Dev nD) : W4 m c main_v3 = (val_main_v3 (F := Ideal) (m ((c : Thread nD τ).loc main_arg1))) :=
  ((congrFun (VW4 m c) _).symm.trans <| (V4_of m (outs m) c main_v3 (by decide)).trans <| (V3_of m c main_v3 (by decide)).trans <| (V2_of m c main_v3 (by decide))).trans (e1_v3 m hv c)

set_option maxHeartbeats 8000000 in
theorem e5_v44 (c : Dev nD) : W5 m c main_v44 = (val_main_v47 (F := Ideal) (m ((c : Thread nD τ).loc main_arg0)) (m ((c : Thread nD τ).loc main_arg1)) (m ((c : Thread nD τ).loc main_arg4)) (m ((c : Thread nD τ).loc main_arg5))) := by
  show StableHlo.after hostOps1 (W4 m c) (Proc.devRef .tc main_v44) = _
  after_results
  rw [e4_v6 m hv c, e4_v29 m hv c, e4_v31 m hv c, e4_v3 m hv c]
  rfl

theorem e5_v31 (c : Dev nD) : W5 m c main_v31 = (val_main_v34 (F := Ideal) (m ((c : Thread nD τ).loc main_arg0)) (m ((c : Thread nD τ).loc main_arg4)) (m ((c : Thread nD τ).loc main_arg5))) :=
  ((congrFun (VW5 m c) _).symm.trans <| (V5_of m (outs m) c main_v31 (by decide)).trans <| congrFun (VW4 m c) _).trans (e4_v31 m hv c)

theorem e4_arg6 (c : Dev nD) : W4 m c main_arg6 = (m ((c : Thread nD τ).loc main_arg6)) :=
  (congrFun (VW4 m c) _).symm.trans <| (V4_of m (outs m) c main_arg6 (by decide)).trans <| (V3_of m c main_arg6 (by decide)).trans <| (V2_of m c main_arg6 (by decide)).trans <| (V1_of m c main_arg6 (by decide))

set_option maxHeartbeats 8000000 in
theorem e5_v46 (c : Dev nD) : W5 m c main_v46 = (val_main_v54 (F := Ideal) (m ((c : Thread nD τ).loc main_arg6))) := by
  show StableHlo.after hostOps1 (W4 m c) (Proc.devRef .tc main_v46) = _
  after_results
  rw [e4_arg6 m hv c]
  rfl

/-- Region 1's output array is the reference's stage of the arguments. -/
theorem e6_v47 (c : Dev nD) : W6 m c main_v47 = (val_main_v58 (F := Ideal) (m ((c : Thread nD τ).loc main_arg0)) (m ((c : Thread nD τ).loc main_arg1)) (m ((c : Thread nD τ).loc main_arg4)) (m ((c : Thread nD τ).loc main_arg5)) (m ((c : Thread nD τ).loc main_arg6))) := by
  refine (outs_6 m c).trans ?_
  refine (hv.v1 (atRefs (W5 m)) c).trans ?_
  show Cert.Spec.gcnii (F := Ideal) (W5 m c main_v44) (W5 m c main_v31) (W5 m c main_v31) (W5 m c main_v46) = _
  rw [e5_v44 m hv c, e5_v31 m hv c, e5_v46 m hv c]
  rfl

theorem e6_v3 (c : Dev nD) : W6 m c main_v3 = (val_main_v3 (F := Ideal) (m ((c : Thread nD τ).loc main_arg1))) :=
  ((congrFun (VW6 m c) _).symm.trans <| (V6_of m (outs m) c main_v3 (by decide)).trans <| (V5_of m (outs m) c main_v3 (by decide)).trans <| (V4_of m (outs m) c main_v3 (by decide)).trans <| (V3_of m c main_v3 (by decide)).trans <| (V2_of m c main_v3 (by decide))).trans (e1_v3 m hv c)

set_option maxHeartbeats 8000000 in
theorem e7_v60 (c : Dev nD) : W7 m c main_v60 = (val_main_v71 (F := Ideal) (m ((c : Thread nD τ).loc main_arg0)) (m ((c : Thread nD τ).loc main_arg1)) (m ((c : Thread nD τ).loc main_arg4)) (m ((c : Thread nD τ).loc main_arg5)) (m ((c : Thread nD τ).loc main_arg6))) := by
  show StableHlo.after hostOps2 (W6 m c) (Proc.devRef .tc main_v60) = _
  after_results
  rw [e6_v6 m hv c, e6_v29 m hv c, e6_v47 m hv c, e6_v3 m hv c]
  rfl

theorem e7_v31 (c : Dev nD) : W7 m c main_v31 = (val_main_v34 (F := Ideal) (m ((c : Thread nD τ).loc main_arg0)) (m ((c : Thread nD τ).loc main_arg4)) (m ((c : Thread nD τ).loc main_arg5))) :=
  ((congrFun (VW7 m c) _).symm.trans <| (V7_of m (outs m) c main_v31 (by decide)).trans <| (V6_of m (outs m) c main_v31 (by decide)).trans <| (V5_of m (outs m) c main_v31 (by decide)).trans <| congrFun (VW4 m c) _).trans (e4_v31 m hv c)

theorem e7_v47 (c : Dev nD) : W7 m c main_v47 = (val_main_v58 (F := Ideal) (m ((c : Thread nD τ).loc main_arg0)) (m ((c : Thread nD τ).loc main_arg1)) (m ((c : Thread nD τ).loc main_arg4)) (m ((c : Thread nD τ).loc main_arg5)) (m ((c : Thread nD τ).loc main_arg6))) :=
  ((congrFun (VW7 m c) _).symm.trans <| (V7_of m (outs m) c main_v47 (by decide)).trans <| congrFun (VW6 m c) _).trans (e6_v47 m hv c)

theorem e6_arg6 (c : Dev nD) : W6 m c main_arg6 = (m ((c : Thread nD τ).loc main_arg6)) :=
  (congrFun (VW6 m c) _).symm.trans <| (V6_of m (outs m) c main_arg6 (by decide)).trans <| (V5_of m (outs m) c main_arg6 (by decide)).trans <| (V4_of m (outs m) c main_arg6 (by decide)).trans <| (V3_of m c main_arg6 (by decide)).trans <| (V2_of m c main_arg6 (by decide)).trans <| (V1_of m c main_arg6 (by decide))

set_option maxHeartbeats 8000000 in
theorem e7_v62 (c : Dev nD) : W7 m c main_v62 = (val_main_v78 (F := Ideal) (m ((c : Thread nD τ).loc main_arg6))) := by
  show StableHlo.after hostOps2 (W6 m c) (Proc.devRef .tc main_v62) = _
  after_results
  rw [e6_arg6 m hv c]
  rfl

/-- Region 2's output array is the reference's stage of the arguments. -/
theorem e8_v63 (c : Dev nD) : W8 m c main_v63 = (val_main_v82 (F := Ideal) (m ((c : Thread nD τ).loc main_arg0)) (m ((c : Thread nD τ).loc main_arg1)) (m ((c : Thread nD τ).loc main_arg4)) (m ((c : Thread nD τ).loc main_arg5)) (m ((c : Thread nD τ).loc main_arg6))) := by
  refine (outs_8 m c).trans ?_
  refine (hv.v2 (atRefs (W7 m)) c).trans ?_
  show Cert.Spec.gcnii (F := Ideal) (W7 m c main_v60) (W7 m c main_v31) (W7 m c main_v47) (W7 m c main_v62) = _
  rw [e7_v60 m hv c, e7_v31 m hv c, e7_v47 m hv c, e7_v62 m hv c]
  rfl

theorem e8_v3 (c : Dev nD) : W8 m c main_v3 = (val_main_v3 (F := Ideal) (m ((c : Thread nD τ).loc main_arg1))) :=
  ((congrFun (VW8 m c) _).symm.trans <| (V8_of m (outs m) c main_v3 (by decide)).trans <| (V7_of m (outs m) c main_v3 (by decide)).trans <| (V6_of m (outs m) c main_v3 (by decide)).trans <| (V5_of m (outs m) c main_v3 (by decide)).trans <| (V4_of m (outs m) c main_v3 (by decide)).trans <| (V3_of m c main_v3 (by decide)).trans <| (V2_of m c main_v3 (by decide))).trans (e1_v3 m hv c)

set_option maxHeartbeats 8000000 in
theorem e9_v76 (c : Dev nD) : W9 m c main_v76 = (val_main_v95 (F := Ideal) (m ((c : Thread nD τ).loc main_arg0)) (m ((c : Thread nD τ).loc main_arg1)) (m ((c : Thread nD τ).loc main_arg4)) (m ((c : Thread nD τ).loc main_arg5)) (m ((c : Thread nD τ).loc main_arg6))) := by
  show StableHlo.after hostOps3 (W8 m c) (Proc.devRef .tc main_v76) = _
  after_results
  rw [e8_v6 m hv c, e8_v29 m hv c, e8_v63 m hv c, e8_v3 m hv c]
  rfl

theorem e9_v31 (c : Dev nD) : W9 m c main_v31 = (val_main_v34 (F := Ideal) (m ((c : Thread nD τ).loc main_arg0)) (m ((c : Thread nD τ).loc main_arg4)) (m ((c : Thread nD τ).loc main_arg5))) :=
  ((congrFun (VW9 m c) _).symm.trans <| (V9_of m (outs m) c main_v31 (by decide)).trans <| (V8_of m (outs m) c main_v31 (by decide)).trans <| (V7_of m (outs m) c main_v31 (by decide)).trans <| (V6_of m (outs m) c main_v31 (by decide)).trans <| (V5_of m (outs m) c main_v31 (by decide)).trans <| congrFun (VW4 m c) _).trans (e4_v31 m hv c)

theorem e9_v63 (c : Dev nD) : W9 m c main_v63 = (val_main_v82 (F := Ideal) (m ((c : Thread nD τ).loc main_arg0)) (m ((c : Thread nD τ).loc main_arg1)) (m ((c : Thread nD τ).loc main_arg4)) (m ((c : Thread nD τ).loc main_arg5)) (m ((c : Thread nD τ).loc main_arg6))) :=
  ((congrFun (VW9 m c) _).symm.trans <| (V9_of m (outs m) c main_v63 (by decide)).trans <| congrFun (VW8 m c) _).trans (e8_v63 m hv c)

theorem e8_arg6 (c : Dev nD) : W8 m c main_arg6 = (m ((c : Thread nD τ).loc main_arg6)) :=
  (congrFun (VW8 m c) _).symm.trans <| (V8_of m (outs m) c main_arg6 (by decide)).trans <| (V7_of m (outs m) c main_arg6 (by decide)).trans <| (V6_of m (outs m) c main_arg6 (by decide)).trans <| (V5_of m (outs m) c main_arg6 (by decide)).trans <| (V4_of m (outs m) c main_arg6 (by decide)).trans <| (V3_of m c main_arg6 (by decide)).trans <| (V2_of m c main_arg6 (by decide)).trans <| (V1_of m c main_arg6 (by decide))

set_option maxHeartbeats 8000000 in
theorem e9_v78 (c : Dev nD) : W9 m c main_v78 = (val_main_v102 (F := Ideal) (m ((c : Thread nD τ).loc main_arg6))) := by
  show StableHlo.after hostOps3 (W8 m c) (Proc.devRef .tc main_v78) = _
  after_results
  rw [e8_arg6 m hv c]
  rfl

/-- Region 3's output array is the reference's stage of the arguments. -/
theorem e10_v79 (c : Dev nD) : W10 m c main_v79 = (val_main_v106 (F := Ideal) (m ((c : Thread nD τ).loc main_arg0)) (m ((c : Thread nD τ).loc main_arg1)) (m ((c : Thread nD τ).loc main_arg4)) (m ((c : Thread nD τ).loc main_arg5)) (m ((c : Thread nD τ).loc main_arg6))) := by
  refine (outs_10 m c).trans ?_
  refine (hv.v3 (atRefs (W9 m)) c).trans ?_
  show Cert.Spec.gcnii (F := Ideal) (W9 m c main_v76) (W9 m c main_v31) (W9 m c main_v63) (W9 m c main_v78) = _
  rw [e9_v76 m hv c, e9_v31 m hv c, e9_v63 m hv c, e9_v78 m hv c]
  rfl

theorem e11_v79 (c : Dev nD) : W11 m c main_v79 = (val_main_v106 (F := Ideal) (m ((c : Thread nD τ).loc main_arg0)) (m ((c : Thread nD τ).loc main_arg1)) (m ((c : Thread nD τ).loc main_arg4)) (m ((c : Thread nD τ).loc main_arg5)) (m ((c : Thread nD τ).loc main_arg6))) :=
  ((congrFun (VW11 m c) _).symm.trans <| (V11_of m (outs m) c main_v79 (by decide)).trans <| congrFun (VW10 m c) _).trans (e10_v79 m hv c)

theorem e11_arg7 (c : Dev nD) : W11 m c main_arg7 = (m ((c : Thread nD τ).loc main_arg7)) :=
  (congrFun (VW11 m c) _).symm.trans <| (V11_of m (outs m) c main_arg7 (by decide)).trans <| (V10_of m (outs m) c main_arg7 (by decide)).trans <| (V9_of m (outs m) c main_arg7 (by decide)).trans <| (V8_of m (outs m) c main_arg7 (by decide)).trans <| (V7_of m (outs m) c main_arg7 (by decide)).trans <| (V6_of m (outs m) c main_arg7 (by decide)).trans <| (V5_of m (outs m) c main_arg7 (by decide)).trans <| (V4_of m (outs m) c main_arg7 (by decide)).trans <| (V3_of m c main_arg7 (by decide)).trans <| (V2_of m c main_arg7 (by decide)).trans <| (V1_of m c main_arg7 (by decide))

theorem e10_arg8 (c : Dev nD) : W10 m c main_arg8 = (m ((c : Thread nD τ).loc main_arg8)) :=
  (congrFun (VW10 m c) _).symm.trans <| (V10_of m (outs m) c main_arg8 (by decide)).trans <| (V9_of m (outs m) c main_arg8 (by decide)).trans <| (V8_of m (outs m) c main_arg8 (by decide)).trans <| (V7_of m (outs m) c main_arg8 (by decide)).trans <| (V6_of m (outs m) c main_arg8 (by decide)).trans <| (V5_of m (outs m) c main_arg8 (by decide)).trans <| (V4_of m (outs m) c main_arg8 (by decide)).trans <| (V3_of m c main_arg8 (by decide)).trans <| (V2_of m c main_arg8 (by decide)).trans <| (V1_of m c main_arg8 (by decide))

set_option maxHeartbeats 8000000 in
theorem e11_v80 (c : Dev nD) : W11 m c main_v80 = (val_main_v108 (F := Ideal) (m ((c : Thread nD τ).loc main_arg8))) := by
  show StableHlo.after hostOps4 (W10 m c) (Proc.devRef .tc main_v80) = _
  after_results
  rw [e10_arg8 m hv c]
  exact Cert.LibLayout.shapeCast_row_eq_broadcastInDim 128 _ _ _

/-- Region 4's output array is the reference's stage of the arguments. -/
theorem e12_v81 (c : Dev nD) : W12 m c main_v81 = (val_main_v110 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) := by
  refine (outs_12 m c).trans ?_
  refine (hv.v4 (atRefs (W11 m)) c).trans ?_
  show Cert.Spec.lin128 (F := Ideal) (W11 m c main_v79) (W11 m c main_arg7) (W11 m c main_v80) = _
  rw [e11_v79 m hv c, e11_arg7 m hv c, e11_v80 m hv c]
  rfl

theorem e25_v81 (c : Dev nD) : W25 m c main_v81 = (val_main_v110 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) :=
  ((congrFun (VW25 m c) _).symm.trans <| (V25_of m (outs m) c main_v81 (by decide)).trans <| (V24_of m (outs m) c main_v81 (by decide)).trans <| (V23_of m (outs m) c main_v81 (by decide)).trans <| (V22_of m (outs m) c main_v81 (by decide)).trans <| (V21_of m (outs m) c main_v81 (by decide)).trans <| (V20_of m (outs m) c main_v81 (by decide)).trans <| (V19_of m (outs m) c main_v81 (by decide)).trans <| (V18_of m (outs m) c main_v81 (by decide)).trans <| (V17_of m (outs m) c main_v81 (by decide)).trans <| (V16_of m (outs m) c main_v81 (by decide)).trans <| (V15_of m (outs m) c main_v81 (by decide)).trans <| (V14_of m (outs m) c main_v81 (by decide)).trans <| (V13_of m (outs m) c main_v81 (by decide)).trans <| congrFun (VW12 m c) _).trans (e12_v81 m hv c)

theorem e12_arg3 (c : Dev nD) : W12 m c main_arg3 = (m ((c : Thread nD τ).loc main_arg3)) :=
  (congrFun (VW12 m c) _).symm.trans <| (V12_of m (outs m) c main_arg3 (by decide)).trans <| (V11_of m (outs m) c main_arg3 (by decide)).trans <| (V10_of m (outs m) c main_arg3 (by decide)).trans <| (V9_of m (outs m) c main_arg3 (by decide)).trans <| (V8_of m (outs m) c main_arg3 (by decide)).trans <| (V7_of m (outs m) c main_arg3 (by decide)).trans <| (V6_of m (outs m) c main_arg3 (by decide)).trans <| (V5_of m (outs m) c main_arg3 (by decide)).trans <| (V4_of m (outs m) c main_arg3 (by decide)).trans <| (V3_of m c main_arg3 (by decide)).trans <| (V2_of m c main_arg3 (by decide)).trans <| (V1_of m c main_arg3 (by decide))

set_option maxHeartbeats 8000000 in
theorem e13_v88 (c : Dev nD) : W13 m c main_v88 = (val_main_v117 (F := Ideal) (m ((c : Thread nD τ).loc main_arg3))) := by
  show StableHlo.after hostOps5 (W12 m c) (Proc.devRef .tc main_v88) = _
  after_results
  rw [e12_arg3 m hv c]
  rfl

theorem e20_v88 (c : Dev nD) : W20 m c main_v88 = (val_main_v117 (F := Ideal) (m ((c : Thread nD τ).loc main_arg3))) :=
  ((congrFun (VW20 m c) _).symm.trans <| (V20_of m (outs m) c main_v88 (by decide)).trans <| (V19_of m (outs m) c main_v88 (by decide)).trans <| (V18_of m (outs m) c main_v88 (by decide)).trans <| (V17_of m (outs m) c main_v88 (by decide)).trans <| (V16_of m (outs m) c main_v88 (by decide)).trans <| (V15_of m (outs m) c main_v88 (by decide)).trans <| (V14_of m (outs m) c main_v88 (by decide)).trans <| congrFun (VW13 m c) _).trans (e13_v88 m hv c)

set_option maxHeartbeats 8000000 in
theorem e13_v94 (c : Dev nD) : W13 m c main_v94 = (val_main_v123 (F := Ideal) (m ((c : Thread nD τ).loc main_arg3))) := by
  show StableHlo.after hostOps5 (W12 m c) (Proc.devRef .tc main_v94) = _
  after_results
  rw [e12_arg3 m hv c]
  rfl

set_option maxHeartbeats 8000000 in
theorem e13_v95 (c : Dev nD) : W13 m c main_v95 = (val_main_v124 (F := Ideal) (m ((c : Thread nD τ).loc main_arg3))) := by
  show StableHlo.after hostOps5 (W12 m c) (Proc.devRef .tc main_v95) = _
  after_results
  rw [e12_arg3 m hv c]
  rfl

set_option maxHeartbeats 8000000 in
theorem e13_cst_18 (c : Dev nD) : W13 m c main_cst_18 = (val_main_cst_24 (F := Ideal)) := by
  show StableHlo.after hostOps5 (W12 m c) (Proc.devRef .tc main_cst_18) = _
  after_results
  rw []
  rfl

set_option maxRecDepth 1000000 in
set_option maxHeartbeats 8000000 in
theorem e14_v96 (c : Dev nD) : W14 m c main_v96 = (val_main_v125 (F := Ideal) (m ((c : Thread nD τ).loc main_arg3))) := by
  have h0 := e13_v94 m hv c
  have h1 := e13_v95 m hv c
  have h2 := e13_cst_18 m hv c
  show StableHlo.after hostOps5_1 (W13 m c) (Proc.devRef .tc main_v96) = _
  generalize W13 m c = X at h0 h1 h2 ⊢
  after_results
  rw [h0, h1, h2]
  rfl

set_option maxHeartbeats 8000000 in
theorem e13_v85 (c : Dev nD) : W13 m c main_v85 = (val_main_v114 (F := Ideal) (m ((c : Thread nD τ).loc main_arg3))) := by
  show StableHlo.after hostOps5 (W12 m c) (Proc.devRef .tc main_v85) = _
  after_results
  rw [e12_arg3 m hv c]
  rfl

theorem e14_v85 (c : Dev nD) : W14 m c main_v85 = (val_main_v114 (F := Ideal) (m ((c : Thread nD τ).loc main_arg3))) :=
  ((congrFun (VW14 m c) _).symm.trans <| (V14_of m (outs m) c main_v85 (by decide)).trans <| congrFun (VW13 m c) _).trans (e13_v85 m hv c)

theorem e14_v88 (c : Dev nD) : W14 m c main_v88 = (val_main_v117 (F := Ideal) (m ((c : Thread nD τ).loc main_arg3))) :=
  ((congrFun (VW14 m c) _).symm.trans <| (V14_of m (outs m) c main_v88 (by decide)).trans <| congrFun (VW13 m c) _).trans (e13_v88 m hv c)

set_option maxHeartbeats 8000000 in
theorem e15_v111 (c : Dev nD) : W15 m c main_v111 = (val_main_v140 (F := Ideal) (m ((c : Thread nD τ).loc main_arg3))) := by
  have h0 := e14_v96 m hv c
  have h1 := e14_v85 m hv c
  have h2 := e14_v88 m hv c
  show StableHlo.after hostOps5_2 (W14 m c) (Proc.devRef .tc main_v111) = _
  generalize W14 m c = X at h0 h1 h2 ⊢
  after_results
  rw [h0, h1, h2]
  rfl

theorem e20_v111 (c : Dev nD) : W20 m c main_v111 = (val_main_v140 (F := Ideal) (m ((c : Thread nD τ).loc main_arg3))) :=
  ((congrFun (VW20 m c) _).symm.trans <| (V20_of m (outs m) c main_v111 (by decide)).trans <| (V19_of m (outs m) c main_v111 (by decide)).trans <| (V18_of m (outs m) c main_v111 (by decide)).trans <| (V17_of m (outs m) c main_v111 (by decide)).trans <| (V16_of m (outs m) c main_v111 (by decide)).trans <| congrFun (VW15 m c) _).trans (e15_v111 m hv c)

theorem e18_v88 (c : Dev nD) : W18 m c main_v88 = (val_main_v117 (F := Ideal) (m ((c : Thread nD τ).loc main_arg3))) :=
  ((congrFun (VW18 m c) _).symm.trans <| (V18_of m (outs m) c main_v88 (by decide)).trans <| (V17_of m (outs m) c main_v88 (by decide)).trans <| (V16_of m (outs m) c main_v88 (by decide)).trans <| (V15_of m (outs m) c main_v88 (by decide)).trans <| (V14_of m (outs m) c main_v88 (by decide)).trans <| congrFun (VW13 m c) _).trans (e13_v88 m hv c)

theorem e18_v111 (c : Dev nD) : W18 m c main_v111 = (val_main_v140 (F := Ideal) (m ((c : Thread nD τ).loc main_arg3))) :=
  ((congrFun (VW18 m c) _).symm.trans <| (V18_of m (outs m) c main_v111 (by decide)).trans <| (V17_of m (outs m) c main_v111 (by decide)).trans <| (V16_of m (outs m) c main_v111 (by decide)).trans <| congrFun (VW15 m c) _).trans (e15_v111 m hv c)

theorem e16_v88 (c : Dev nD) : W16 m c main_v88 = (val_main_v117 (F := Ideal) (m ((c : Thread nD τ).loc main_arg3))) :=
  ((congrFun (VW16 m c) _).symm.trans <| (V16_of m (outs m) c main_v88 (by decide)).trans <| (V15_of m (outs m) c main_v88 (by decide)).trans <| (V14_of m (outs m) c main_v88 (by decide)).trans <| congrFun (VW13 m c) _).trans (e13_v88 m hv c)

theorem e16_v111 (c : Dev nD) : W16 m c main_v111 = (val_main_v140 (F := Ideal) (m ((c : Thread nD τ).loc main_arg3))) :=
  ((congrFun (VW16 m c) _).symm.trans <| (V16_of m (outs m) c main_v111 (by decide)).trans <| congrFun (VW15 m c) _).trans (e15_v111 m hv c)

theorem e15_arg2 (c : Dev nD) : W15 m c main_arg2 = (m ((c : Thread nD τ).loc main_arg2)) :=
  (congrFun (VW15 m c) _).symm.trans <| (V15_of m (outs m) c main_arg2 (by decide)).trans <| (V14_of m (outs m) c main_arg2 (by decide)).trans <| (V13_of m (outs m) c main_arg2 (by decide)).trans <| (V12_of m (outs m) c main_arg2 (by decide)).trans <| (V11_of m (outs m) c main_arg2 (by decide)).trans <| (V10_of m (outs m) c main_arg2 (by decide)).trans <| (V9_of m (outs m) c main_arg2 (by decide)).trans <| (V8_of m (outs m) c main_arg2 (by decide)).trans <| (V7_of m (outs m) c main_arg2 (by decide)).trans <| (V6_of m (outs m) c main_arg2 (by decide)).trans <| (V5_of m (outs m) c main_arg2 (by decide)).trans <| (V4_of m (outs m) c main_arg2 (by decide)).trans <| (V3_of m c main_arg2 (by decide)).trans <| (V2_of m c main_arg2 (by decide)).trans <| (V1_of m c main_arg2 (by decide))

theorem e15_arg9 (c : Dev nD) : W15 m c main_arg9 = (m ((c : Thread nD τ).loc main_arg9)) :=
  (congrFun (VW15 m c) _).symm.trans <| (V15_of m (outs m) c main_arg9 (by decide)).trans <| (V14_of m (outs m) c main_arg9 (by decide)).trans <| (V13_of m (outs m) c main_arg9 (by decide)).trans <| (V12_of m (outs m) c main_arg9 (by decide)).trans <| (V11_of m (outs m) c main_arg9 (by decide)).trans <| (V10_of m (outs m) c main_arg9 (by decide)).trans <| (V9_of m (outs m) c main_arg9 (by decide)).trans <| (V8_of m (outs m) c main_arg9 (by decide)).trans <| (V7_of m (outs m) c main_arg9 (by decide)).trans <| (V6_of m (outs m) c main_arg9 (by decide)).trans <| (V5_of m (outs m) c main_arg9 (by decide)).trans <| (V4_of m (outs m) c main_arg9 (by decide)).trans <| (V3_of m c main_arg9 (by decide)).trans <| (V2_of m c main_arg9 (by decide)).trans <| (V1_of m c main_arg9 (by decide))

theorem e14_arg10 (c : Dev nD) : W14 m c main_arg10 = (m ((c : Thread nD τ).loc main_arg10)) :=
  (congrFun (VW14 m c) _).symm.trans <| (V14_of m (outs m) c main_arg10 (by decide)).trans <| (V13_of m (outs m) c main_arg10 (by decide)).trans <| (V12_of m (outs m) c main_arg10 (by decide)).trans <| (V11_of m (outs m) c main_arg10 (by decide)).trans <| (V10_of m (outs m) c main_arg10 (by decide)).trans <| (V9_of m (outs m) c main_arg10 (by decide)).trans <| (V8_of m (outs m) c main_arg10 (by decide)).trans <| (V7_of m (outs m) c main_arg10 (by decide)).trans <| (V6_of m (outs m) c main_arg10 (by decide)).trans <| (V5_of m (outs m) c main_arg10 (by decide)).trans <| (V4_of m (outs m) c main_arg10 (by decide)).trans <| (V3_of m c main_arg10 (by decide)).trans <| (V2_of m c main_arg10 (by decide)).trans <| (V1_of m c main_arg10 (by decide))

set_option maxHeartbeats 8000000 in
theorem e15_v112 (c : Dev nD) : W15 m c main_v112 = (val_main_v142 (F := Ideal) (m ((c : Thread nD τ).loc main_arg10))) := by
  have h0 := e14_arg10 m hv c
  show StableHlo.after hostOps5_2 (W14 m c) (Proc.devRef .tc main_v112) = _
  generalize W14 m c = X at h0 ⊢
  after_results
  rw [h0]
  exact Cert.LibLayout.shapeCast_row_eq_broadcastInDim 512 _ _ _

/-- Region 5's output array is the reference's stage of the arguments. -/
theorem e16_v113 (c : Dev nD) : W16 m c main_v113 = (val_main_v145 (F := Ideal) (m ((c : Thread nD τ).loc main_arg2)) (m ((c : Thread nD τ).loc main_arg9)) (m ((c : Thread nD τ).loc main_arg10))) := by
  refine (outs_16 m c).trans ?_
  refine (hv.v5 (atRefs (W15 m)) c).trans ?_
  show Cert.Spec.linRelu54 (F := Ideal) (W15 m c main_arg2) (W15 m c main_arg9) (W15 m c main_v112) = _
  rw [e15_arg2 m hv c, e15_arg9 m hv c, e15_v112 m hv c]
  rfl

theorem e16_v85 (c : Dev nD) : W16 m c main_v85 = (val_main_v114 (F := Ideal) (m ((c : Thread nD τ).loc main_arg3))) :=
  ((congrFun (VW16 m c) _).symm.trans <| (V16_of m (outs m) c main_v85 (by decide)).trans <| (V15_of m (outs m) c main_v85 (by decide)).trans <| (V14_of m (outs m) c main_v85 (by decide)).trans <| congrFun (VW13 m c) _).trans (e13_v85 m hv c)

set_option maxHeartbeats 8000000 in
theorem e17_v126 (c : Dev nD) : W17 m c main_v126 = (val_main_v158 (F := Ideal) (m ((c : Thread nD τ).loc main_arg2)) (m ((c : Thread nD τ).loc main_arg3)) (m ((c : Thread nD τ).loc main_arg9)) (m ((c : Thread nD τ).loc main_arg10))) := by
  show StableHlo.after hostOps6 (W16 m c) (Proc.devRef .tc main_v126) = _
  after_results
  rw [e16_v88 m hv c, e16_v111 m hv c, e16_v113 m hv c, e16_v85 m hv c]
  rfl

theorem e17_v113 (c : Dev nD) : W17 m c main_v113 = (val_main_v145 (F := Ideal) (m ((c : Thread nD τ).loc main_arg2)) (m ((c : Thread nD τ).loc main_arg9)) (m ((c : Thread nD τ).loc main_arg10))) :=
  ((congrFun (VW17 m c) _).symm.trans <| (V17_of m (outs m) c main_v113 (by decide)).trans <| congrFun (VW16 m c) _).trans (e16_v113 m hv c)

theorem e16_arg11 (c : Dev nD) : W16 m c main_arg11 = (m ((c : Thread nD τ).loc main_arg11)) :=
  (congrFun (VW16 m c) _).symm.trans <| (V16_of m (outs m) c main_arg11 (by decide)).trans <| (V15_of m (outs m) c main_arg11 (by decide)).trans <| (V14_of m (outs m) c main_arg11 (by decide)).trans <| (V13_of m (outs m) c main_arg11 (by decide)).trans <| (V12_of m (outs m) c main_arg11 (by decide)).trans <| (V11_of m (outs m) c main_arg11 (by decide)).trans <| (V10_of m (outs m) c main_arg11 (by decide)).trans <| (V9_of m (outs m) c main_arg11 (by decide)).trans <| (V8_of m (outs m) c main_arg11 (by decide)).trans <| (V7_of m (outs m) c main_arg11 (by decide)).trans <| (V6_of m (outs m) c main_arg11 (by decide)).trans <| (V5_of m (outs m) c main_arg11 (by decide)).trans <| (V4_of m (outs m) c main_arg11 (by decide)).trans <| (V3_of m c main_arg11 (by decide)).trans <| (V2_of m c main_arg11 (by decide)).trans <| (V1_of m c main_arg11 (by decide))

set_option maxHeartbeats 8000000 in
theorem e17_v128 (c : Dev nD) : W17 m c main_v128 = (val_main_v165 (F := Ideal) (m ((c : Thread nD τ).loc main_arg11))) := by
  show StableHlo.after hostOps6 (W16 m c) (Proc.devRef .tc main_v128) = _
  after_results
  rw [e16_arg11 m hv c]
  rfl

/-- Region 6's output array is the reference's stage of the arguments. -/
theorem e18_v129 (c : Dev nD) : W18 m c main_v129 = (val_main_v169 (F := Ideal) (m ((c : Thread nD τ).loc main_arg2)) (m ((c : Thread nD τ).loc main_arg3)) (m ((c : Thread nD τ).loc main_arg9)) (m ((c : Thread nD τ).loc main_arg10)) (m ((c : Thread nD τ).loc main_arg11))) := by
  refine (outs_18 m c).trans ?_
  refine (hv.v6 (atRefs (W17 m)) c).trans ?_
  show Cert.Spec.gcnii (F := Ideal) (W17 m c main_v126) (W17 m c main_v113) (W17 m c main_v113) (W17 m c main_v128) = _
  rw [e17_v126 m hv c, e17_v113 m hv c, e17_v128 m hv c]
  rfl

theorem e18_v85 (c : Dev nD) : W18 m c main_v85 = (val_main_v114 (F := Ideal) (m ((c : Thread nD τ).loc main_arg3))) :=
  ((congrFun (VW18 m c) _).symm.trans <| (V18_of m (outs m) c main_v85 (by decide)).trans <| (V17_of m (outs m) c main_v85 (by decide)).trans <| (V16_of m (outs m) c main_v85 (by decide)).trans <| (V15_of m (outs m) c main_v85 (by decide)).trans <| (V14_of m (outs m) c main_v85 (by decide)).trans <| congrFun (VW13 m c) _).trans (e13_v85 m hv c)

set_option maxHeartbeats 8000000 in
theorem e19_v142 (c : Dev nD) : W19 m c main_v142 = (val_main_v182 (F := Ideal) (m ((c : Thread nD τ).loc main_arg2)) (m ((c : Thread nD τ).loc main_arg3)) (m ((c : Thread nD τ).loc main_arg9)) (m ((c : Thread nD τ).loc main_arg10)) (m ((c : Thread nD τ).loc main_arg11))) := by
  show StableHlo.after hostOps7 (W18 m c) (Proc.devRef .tc main_v142) = _
  after_results
  rw [e18_v88 m hv c, e18_v111 m hv c, e18_v129 m hv c, e18_v85 m hv c]
  rfl

theorem e19_v113 (c : Dev nD) : W19 m c main_v113 = (val_main_v145 (F := Ideal) (m ((c : Thread nD τ).loc main_arg2)) (m ((c : Thread nD τ).loc main_arg9)) (m ((c : Thread nD τ).loc main_arg10))) :=
  ((congrFun (VW19 m c) _).symm.trans <| (V19_of m (outs m) c main_v113 (by decide)).trans <| (V18_of m (outs m) c main_v113 (by decide)).trans <| (V17_of m (outs m) c main_v113 (by decide)).trans <| congrFun (VW16 m c) _).trans (e16_v113 m hv c)

theorem e19_v129 (c : Dev nD) : W19 m c main_v129 = (val_main_v169 (F := Ideal) (m ((c : Thread nD τ).loc main_arg2)) (m ((c : Thread nD τ).loc main_arg3)) (m ((c : Thread nD τ).loc main_arg9)) (m ((c : Thread nD τ).loc main_arg10)) (m ((c : Thread nD τ).loc main_arg11))) :=
  ((congrFun (VW19 m c) _).symm.trans <| (V19_of m (outs m) c main_v129 (by decide)).trans <| congrFun (VW18 m c) _).trans (e18_v129 m hv c)

theorem e18_arg11 (c : Dev nD) : W18 m c main_arg11 = (m ((c : Thread nD τ).loc main_arg11)) :=
  (congrFun (VW18 m c) _).symm.trans <| (V18_of m (outs m) c main_arg11 (by decide)).trans <| (V17_of m (outs m) c main_arg11 (by decide)).trans <| (V16_of m (outs m) c main_arg11 (by decide)).trans <| (V15_of m (outs m) c main_arg11 (by decide)).trans <| (V14_of m (outs m) c main_arg11 (by decide)).trans <| (V13_of m (outs m) c main_arg11 (by decide)).trans <| (V12_of m (outs m) c main_arg11 (by decide)).trans <| (V11_of m (outs m) c main_arg11 (by decide)).trans <| (V10_of m (outs m) c main_arg11 (by decide)).trans <| (V9_of m (outs m) c main_arg11 (by decide)).trans <| (V8_of m (outs m) c main_arg11 (by decide)).trans <| (V7_of m (outs m) c main_arg11 (by decide)).trans <| (V6_of m (outs m) c main_arg11 (by decide)).trans <| (V5_of m (outs m) c main_arg11 (by decide)).trans <| (V4_of m (outs m) c main_arg11 (by decide)).trans <| (V3_of m c main_arg11 (by decide)).trans <| (V2_of m c main_arg11 (by decide)).trans <| (V1_of m c main_arg11 (by decide))

set_option maxHeartbeats 8000000 in
theorem e19_v144 (c : Dev nD) : W19 m c main_v144 = (val_main_v189 (F := Ideal) (m ((c : Thread nD τ).loc main_arg11))) := by
  show StableHlo.after hostOps7 (W18 m c) (Proc.devRef .tc main_v144) = _
  after_results
  rw [e18_arg11 m hv c]
  rfl

/-- Region 7's output array is the reference's stage of the arguments. -/
theorem e20_v145 (c : Dev nD) : W20 m c main_v145 = (val_main_v193 (F := Ideal) (m ((c : Thread nD τ).loc main_arg2)) (m ((c : Thread nD τ).loc main_arg3)) (m ((c : Thread nD τ).loc main_arg9)) (m ((c : Thread nD τ).loc main_arg10)) (m ((c : Thread nD τ).loc main_arg11))) := by
  refine (outs_20 m c).trans ?_
  refine (hv.v7 (atRefs (W19 m)) c).trans ?_
  show Cert.Spec.gcnii (F := Ideal) (W19 m c main_v142) (W19 m c main_v113) (W19 m c main_v129) (W19 m c main_v144) = _
  rw [e19_v142 m hv c, e19_v113 m hv c, e19_v129 m hv c, e19_v144 m hv c]
  rfl

theorem e20_v85 (c : Dev nD) : W20 m c main_v85 = (val_main_v114 (F := Ideal) (m ((c : Thread nD τ).loc main_arg3))) :=
  ((congrFun (VW20 m c) _).symm.trans <| (V20_of m (outs m) c main_v85 (by decide)).trans <| (V19_of m (outs m) c main_v85 (by decide)).trans <| (V18_of m (outs m) c main_v85 (by decide)).trans <| (V17_of m (outs m) c main_v85 (by decide)).trans <| (V16_of m (outs m) c main_v85 (by decide)).trans <| (V15_of m (outs m) c main_v85 (by decide)).trans <| (V14_of m (outs m) c main_v85 (by decide)).trans <| congrFun (VW13 m c) _).trans (e13_v85 m hv c)

set_option maxHeartbeats 8000000 in
theorem e21_v158 (c : Dev nD) : W21 m c main_v158 = (val_main_v206 (F := Ideal) (m ((c : Thread nD τ).loc main_arg2)) (m ((c : Thread nD τ).loc main_arg3)) (m ((c : Thread nD τ).loc main_arg9)) (m ((c : Thread nD τ).loc main_arg10)) (m ((c : Thread nD τ).loc main_arg11))) := by
  show StableHlo.after hostOps8 (W20 m c) (Proc.devRef .tc main_v158) = _
  after_results
  rw [e20_v88 m hv c, e20_v111 m hv c, e20_v145 m hv c, e20_v85 m hv c]
  rfl

theorem e21_v113 (c : Dev nD) : W21 m c main_v113 = (val_main_v145 (F := Ideal) (m ((c : Thread nD τ).loc main_arg2)) (m ((c : Thread nD τ).loc main_arg9)) (m ((c : Thread nD τ).loc main_arg10))) :=
  ((congrFun (VW21 m c) _).symm.trans <| (V21_of m (outs m) c main_v113 (by decide)).trans <| (V20_of m (outs m) c main_v113 (by decide)).trans <| (V19_of m (outs m) c main_v113 (by decide)).trans <| (V18_of m (outs m) c main_v113 (by decide)).trans <| (V17_of m (outs m) c main_v113 (by decide)).trans <| congrFun (VW16 m c) _).trans (e16_v113 m hv c)

theorem e21_v145 (c : Dev nD) : W21 m c main_v145 = (val_main_v193 (F := Ideal) (m ((c : Thread nD τ).loc main_arg2)) (m ((c : Thread nD τ).loc main_arg3)) (m ((c : Thread nD τ).loc main_arg9)) (m ((c : Thread nD τ).loc main_arg10)) (m ((c : Thread nD τ).loc main_arg11))) :=
  ((congrFun (VW21 m c) _).symm.trans <| (V21_of m (outs m) c main_v145 (by decide)).trans <| congrFun (VW20 m c) _).trans (e20_v145 m hv c)

theorem e20_arg11 (c : Dev nD) : W20 m c main_arg11 = (m ((c : Thread nD τ).loc main_arg11)) :=
  (congrFun (VW20 m c) _).symm.trans <| (V20_of m (outs m) c main_arg11 (by decide)).trans <| (V19_of m (outs m) c main_arg11 (by decide)).trans <| (V18_of m (outs m) c main_arg11 (by decide)).trans <| (V17_of m (outs m) c main_arg11 (by decide)).trans <| (V16_of m (outs m) c main_arg11 (by decide)).trans <| (V15_of m (outs m) c main_arg11 (by decide)).trans <| (V14_of m (outs m) c main_arg11 (by decide)).trans <| (V13_of m (outs m) c main_arg11 (by decide)).trans <| (V12_of m (outs m) c main_arg11 (by decide)).trans <| (V11_of m (outs m) c main_arg11 (by decide)).trans <| (V10_of m (outs m) c main_arg11 (by decide)).trans <| (V9_of m (outs m) c main_arg11 (by decide)).trans <| (V8_of m (outs m) c main_arg11 (by decide)).trans <| (V7_of m (outs m) c main_arg11 (by decide)).trans <| (V6_of m (outs m) c main_arg11 (by decide)).trans <| (V5_of m (outs m) c main_arg11 (by decide)).trans <| (V4_of m (outs m) c main_arg11 (by decide)).trans <| (V3_of m c main_arg11 (by decide)).trans <| (V2_of m c main_arg11 (by decide)).trans <| (V1_of m c main_arg11 (by decide))

set_option maxHeartbeats 8000000 in
theorem e21_v160 (c : Dev nD) : W21 m c main_v160 = (val_main_v213 (F := Ideal) (m ((c : Thread nD τ).loc main_arg11))) := by
  show StableHlo.after hostOps8 (W20 m c) (Proc.devRef .tc main_v160) = _
  after_results
  rw [e20_arg11 m hv c]
  rfl

/-- Region 8's output array is the reference's stage of the arguments. -/
theorem e22_v161 (c : Dev nD) : W22 m c main_v161 = (val_main_v217 (F := Ideal) (m ((c : Thread nD τ).loc main_arg2)) (m ((c : Thread nD τ).loc main_arg3)) (m ((c : Thread nD τ).loc main_arg9)) (m ((c : Thread nD τ).loc main_arg10)) (m ((c : Thread nD τ).loc main_arg11))) := by
  refine (outs_22 m c).trans ?_
  refine (hv.v8 (atRefs (W21 m)) c).trans ?_
  show Cert.Spec.gcnii (F := Ideal) (W21 m c main_v158) (W21 m c main_v113) (W21 m c main_v145) (W21 m c main_v160) = _
  rw [e21_v158 m hv c, e21_v113 m hv c, e21_v145 m hv c, e21_v160 m hv c]
  rfl

theorem e23_v161 (c : Dev nD) : W23 m c main_v161 = (val_main_v217 (F := Ideal) (m ((c : Thread nD τ).loc main_arg2)) (m ((c : Thread nD τ).loc main_arg3)) (m ((c : Thread nD τ).loc main_arg9)) (m ((c : Thread nD τ).loc main_arg10)) (m ((c : Thread nD τ).loc main_arg11))) :=
  ((congrFun (VW23 m c) _).symm.trans <| (V23_of m (outs m) c main_v161 (by decide)).trans <| congrFun (VW22 m c) _).trans (e22_v161 m hv c)

theorem e23_arg12 (c : Dev nD) : W23 m c main_arg12 = (m ((c : Thread nD τ).loc main_arg12)) :=
  (congrFun (VW23 m c) _).symm.trans <| (V23_of m (outs m) c main_arg12 (by decide)).trans <| (V22_of m (outs m) c main_arg12 (by decide)).trans <| (V21_of m (outs m) c main_arg12 (by decide)).trans <| (V20_of m (outs m) c main_arg12 (by decide)).trans <| (V19_of m (outs m) c main_arg12 (by decide)).trans <| (V18_of m (outs m) c main_arg12 (by decide)).trans <| (V17_of m (outs m) c main_arg12 (by decide)).trans <| (V16_of m (outs m) c main_arg12 (by decide)).trans <| (V15_of m (outs m) c main_arg12 (by decide)).trans <| (V14_of m (outs m) c main_arg12 (by decide)).trans <| (V13_of m (outs m) c main_arg12 (by decide)).trans <| (V12_of m (outs m) c main_arg12 (by decide)).trans <| (V11_of m (outs m) c main_arg12 (by decide)).trans <| (V10_of m (outs m) c main_arg12 (by decide)).trans <| (V9_of m (outs m) c main_arg12 (by decide)).trans <| (V8_of m (outs m) c main_arg12 (by decide)).trans <| (V7_of m (outs m) c main_arg12 (by decide)).trans <| (V6_of m (outs m) c main_arg12 (by decide)).trans <| (V5_of m (outs m) c main_arg12 (by decide)).trans <| (V4_of m (outs m) c main_arg12 (by decide)).trans <| (V3_of m c main_arg12 (by decide)).trans <| (V2_of m c main_arg12 (by decide)).trans <| (V1_of m c main_arg12 (by decide))

theorem e22_arg13 (c : Dev nD) : W22 m c main_arg13 = (m ((c : Thread nD τ).loc main_arg13)) :=
  (congrFun (VW22 m c) _).symm.trans <| (V22_of m (outs m) c main_arg13 (by decide)).trans <| (V21_of m (outs m) c main_arg13 (by decide)).trans <| (V20_of m (outs m) c main_arg13 (by decide)).trans <| (V19_of m (outs m) c main_arg13 (by decide)).trans <| (V18_of m (outs m) c main_arg13 (by decide)).trans <| (V17_of m (outs m) c main_arg13 (by decide)).trans <| (V16_of m (outs m) c main_arg13 (by decide)).trans <| (V15_of m (outs m) c main_arg13 (by decide)).trans <| (V14_of m (outs m) c main_arg13 (by decide)).trans <| (V13_of m (outs m) c main_arg13 (by decide)).trans <| (V12_of m (outs m) c main_arg13 (by decide)).trans <| (V11_of m (outs m) c main_arg13 (by decide)).trans <| (V10_of m (outs m) c main_arg13 (by decide)).trans <| (V9_of m (outs m) c main_arg13 (by decide)).trans <| (V8_of m (outs m) c main_arg13 (by decide)).trans <| (V7_of m (outs m) c main_arg13 (by decide)).trans <| (V6_of m (outs m) c main_arg13 (by decide)).trans <| (V5_of m (outs m) c main_arg13 (by decide)).trans <| (V4_of m (outs m) c main_arg13 (by decide)).trans <| (V3_of m c main_arg13 (by decide)).trans <| (V2_of m c main_arg13 (by decide)).trans <| (V1_of m c main_arg13 (by decide))

set_option maxHeartbeats 8000000 in
theorem e23_v162 (c : Dev nD) : W23 m c main_v162 = (val_main_v219 (F := Ideal) (m ((c : Thread nD τ).loc main_arg13))) := by
  show StableHlo.after hostOps9 (W22 m c) (Proc.devRef .tc main_v162) = _
  after_results
  rw [e22_arg13 m hv c]
  exact Cert.LibLayout.shapeCast_row_eq_broadcastInDim 128 _ _ _

/-- Region 9's output array is the reference's stage of the arguments. -/
theorem e24_v163 (c : Dev nD) : W24 m c main_v163 = (val_main_v221 (F := Ideal) (m ((c : Thread nD τ).loc main_arg2)) (m ((c : Thread nD τ).loc main_arg3)) (m ((c : Thread nD τ).loc main_arg9)) (m ((c : Thread nD τ).loc main_arg10)) (m ((c : Thread nD τ).loc main_arg11)) (m ((c : Thread nD τ).loc main_arg12)) (m ((c : Thread nD τ).loc main_arg13))) := by
  refine (outs_24 m c).trans ?_
  refine (hv.v9 (atRefs (W23 m)) c).trans ?_
  show Cert.Spec.lin128 (F := Ideal) (W23 m c main_v161) (W23 m c main_arg12) (W23 m c main_v162) = _
  rw [e23_v161 m hv c, e23_arg12 m hv c, e23_v162 m hv c]
  rfl

theorem e25_v163 (c : Dev nD) : W25 m c main_v163 = (val_main_v221 (F := Ideal) (m ((c : Thread nD τ).loc main_arg2)) (m ((c : Thread nD τ).loc main_arg3)) (m ((c : Thread nD τ).loc main_arg9)) (m ((c : Thread nD τ).loc main_arg10)) (m ((c : Thread nD τ).loc main_arg11)) (m ((c : Thread nD τ).loc main_arg12)) (m ((c : Thread nD τ).loc main_arg13))) :=
  ((congrFun (VW25 m c) _).symm.trans <| (V25_of m (outs m) c main_v163 (by decide)).trans <| congrFun (VW24 m c) _).trans (e24_v163 m hv c)

theorem e24_arg14 (c : Dev nD) : W24 m c main_arg14 = (m ((c : Thread nD τ).loc main_arg14)) :=
  (congrFun (VW24 m c) _).symm.trans <| (V24_of m (outs m) c main_arg14 (by decide)).trans <| (V23_of m (outs m) c main_arg14 (by decide)).trans <| (V22_of m (outs m) c main_arg14 (by decide)).trans <| (V21_of m (outs m) c main_arg14 (by decide)).trans <| (V20_of m (outs m) c main_arg14 (by decide)).trans <| (V19_of m (outs m) c main_arg14 (by decide)).trans <| (V18_of m (outs m) c main_arg14 (by decide)).trans <| (V17_of m (outs m) c main_arg14 (by decide)).trans <| (V16_of m (outs m) c main_arg14 (by decide)).trans <| (V15_of m (outs m) c main_arg14 (by decide)).trans <| (V14_of m (outs m) c main_arg14 (by decide)).trans <| (V13_of m (outs m) c main_arg14 (by decide)).trans <| (V12_of m (outs m) c main_arg14 (by decide)).trans <| (V11_of m (outs m) c main_arg14 (by decide)).trans <| (V10_of m (outs m) c main_arg14 (by decide)).trans <| (V9_of m (outs m) c main_arg14 (by decide)).trans <| (V8_of m (outs m) c main_arg14 (by decide)).trans <| (V7_of m (outs m) c main_arg14 (by decide)).trans <| (V6_of m (outs m) c main_arg14 (by decide)).trans <| (V5_of m (outs m) c main_arg14 (by decide)).trans <| (V4_of m (outs m) c main_arg14 (by decide)).trans <| (V3_of m c main_arg14 (by decide)).trans <| (V2_of m c main_arg14 (by decide)).trans <| (V1_of m c main_arg14 (by decide))

set_option maxHeartbeats 8000000 in
theorem e25_v164 (c : Dev nD) : W25 m c main_v164 = (extractStridedSlice S128x1024 ![0, 0] (m ((c : Thread nD τ).loc main_arg14)) slices_S256x1024_S128x1024_0_0) := by
  show StableHlo.after hostOps10 (W24 m c) (Proc.devRef .tc main_v164) = _
  after_results
  rw [e24_arg14 m hv c]

set_option maxHeartbeats 8000000 in
theorem e25_v165 (c : Dev nD) : W25 m c main_v165 = (extractStridedSlice S128x1024 ![128, 0] (m ((c : Thread nD τ).loc main_arg14)) slices_S256x1024_S128x1024_128_0) := by
  show StableHlo.after hostOps10 (W24 m c) (Proc.devRef .tc main_v165) = _
  after_results
  rw [e24_arg14 m hv c]

theorem e24_arg15 (c : Dev nD) : W24 m c main_arg15 = (m ((c : Thread nD τ).loc main_arg15)) :=
  (congrFun (VW24 m c) _).symm.trans <| (V24_of m (outs m) c main_arg15 (by decide)).trans <| (V23_of m (outs m) c main_arg15 (by decide)).trans <| (V22_of m (outs m) c main_arg15 (by decide)).trans <| (V21_of m (outs m) c main_arg15 (by decide)).trans <| (V20_of m (outs m) c main_arg15 (by decide)).trans <| (V19_of m (outs m) c main_arg15 (by decide)).trans <| (V18_of m (outs m) c main_arg15 (by decide)).trans <| (V17_of m (outs m) c main_arg15 (by decide)).trans <| (V16_of m (outs m) c main_arg15 (by decide)).trans <| (V15_of m (outs m) c main_arg15 (by decide)).trans <| (V14_of m (outs m) c main_arg15 (by decide)).trans <| (V13_of m (outs m) c main_arg15 (by decide)).trans <| (V12_of m (outs m) c main_arg15 (by decide)).trans <| (V11_of m (outs m) c main_arg15 (by decide)).trans <| (V10_of m (outs m) c main_arg15 (by decide)).trans <| (V9_of m (outs m) c main_arg15 (by decide)).trans <| (V8_of m (outs m) c main_arg15 (by decide)).trans <| (V7_of m (outs m) c main_arg15 (by decide)).trans <| (V6_of m (outs m) c main_arg15 (by decide)).trans <| (V5_of m (outs m) c main_arg15 (by decide)).trans <| (V4_of m (outs m) c main_arg15 (by decide)).trans <| (V3_of m c main_arg15 (by decide)).trans <| (V2_of m c main_arg15 (by decide)).trans <| (V1_of m c main_arg15 (by decide))

set_option maxHeartbeats 8000000 in
theorem e25_v166 (c : Dev nD) : W25 m c main_v166 = (val_main_v224 (F := Ideal) (m ((c : Thread nD τ).loc main_arg15))) := by
  show StableHlo.after hostOps10 (W24 m c) (Proc.devRef .tc main_v166) = _
  after_results
  rw [e24_arg15 m hv c]
  exact Cert.LibLayout.shapeCast_row_eq_broadcastInDim 1024 _ _ _

theorem e25_arg16 (c : Dev nD) : W25 m c main_arg16 = (m ((c : Thread nD τ).loc main_arg16)) :=
  (congrFun (VW25 m c) _).symm.trans <| (V25_of m (outs m) c main_arg16 (by decide)).trans <| (V24_of m (outs m) c main_arg16 (by decide)).trans <| (V23_of m (outs m) c main_arg16 (by decide)).trans <| (V22_of m (outs m) c main_arg16 (by decide)).trans <| (V21_of m (outs m) c main_arg16 (by decide)).trans <| (V20_of m (outs m) c main_arg16 (by decide)).trans <| (V19_of m (outs m) c main_arg16 (by decide)).trans <| (V18_of m (outs m) c main_arg16 (by decide)).trans <| (V17_of m (outs m) c main_arg16 (by decide)).trans <| (V16_of m (outs m) c main_arg16 (by decide)).trans <| (V15_of m (outs m) c main_arg16 (by decide)).trans <| (V14_of m (outs m) c main_arg16 (by decide)).trans <| (V13_of m (outs m) c main_arg16 (by decide)).trans <| (V12_of m (outs m) c main_arg16 (by decide)).trans <| (V11_of m (outs m) c main_arg16 (by decide)).trans <| (V10_of m (outs m) c main_arg16 (by decide)).trans <| (V9_of m (outs m) c main_arg16 (by decide)).trans <| (V8_of m (outs m) c main_arg16 (by decide)).trans <| (V7_of m (outs m) c main_arg16 (by decide)).trans <| (V6_of m (outs m) c main_arg16 (by decide)).trans <| (V5_of m (outs m) c main_arg16 (by decide)).trans <| (V4_of m (outs m) c main_arg16 (by decide)).trans <| (V3_of m c main_arg16 (by decide)).trans <| (V2_of m c main_arg16 (by decide)).trans <| (V1_of m c main_arg16 (by decide))

theorem e24_arg17 (c : Dev nD) : W24 m c main_arg17 = (m ((c : Thread nD τ).loc main_arg17)) :=
  (congrFun (VW24 m c) _).symm.trans <| (V24_of m (outs m) c main_arg17 (by decide)).trans <| (V23_of m (outs m) c main_arg17 (by decide)).trans <| (V22_of m (outs m) c main_arg17 (by decide)).trans <| (V21_of m (outs m) c main_arg17 (by decide)).trans <| (V20_of m (outs m) c main_arg17 (by decide)).trans <| (V19_of m (outs m) c main_arg17 (by decide)).trans <| (V18_of m (outs m) c main_arg17 (by decide)).trans <| (V17_of m (outs m) c main_arg17 (by decide)).trans <| (V16_of m (outs m) c main_arg17 (by decide)).trans <| (V15_of m (outs m) c main_arg17 (by decide)).trans <| (V14_of m (outs m) c main_arg17 (by decide)).trans <| (V13_of m (outs m) c main_arg17 (by decide)).trans <| (V12_of m (outs m) c main_arg17 (by decide)).trans <| (V11_of m (outs m) c main_arg17 (by decide)).trans <| (V10_of m (outs m) c main_arg17 (by decide)).trans <| (V9_of m (outs m) c main_arg17 (by decide)).trans <| (V8_of m (outs m) c main_arg17 (by decide)).trans <| (V7_of m (outs m) c main_arg17 (by decide)).trans <| (V6_of m (outs m) c main_arg17 (by decide)).trans <| (V5_of m (outs m) c main_arg17 (by decide)).trans <| (V4_of m (outs m) c main_arg17 (by decide)).trans <| (V3_of m c main_arg17 (by decide)).trans <| (V2_of m c main_arg17 (by decide)).trans <| (V1_of m c main_arg17 (by decide))

set_option maxHeartbeats 8000000 in
theorem e25_v167 (c : Dev nD) : W25 m c main_v167 = (val_main_v229 (F := Ideal) (m ((c : Thread nD τ).loc main_arg17))) := by
  show StableHlo.after hostOps10 (W24 m c) (Proc.devRef .tc main_v167) = _
  after_results
  rw [e24_arg17 m hv c]
  exact Cert.LibLayout.shapeCast_row_eq_broadcastInDim 512 _ _ _

theorem e25_arg18 (c : Dev nD) : W25 m c main_arg18 = (m ((c : Thread nD τ).loc main_arg18)) :=
  (congrFun (VW25 m c) _).symm.trans <| (V25_of m (outs m) c main_arg18 (by decide)).trans <| (V24_of m (outs m) c main_arg18 (by decide)).trans <| (V23_of m (outs m) c main_arg18 (by decide)).trans <| (V22_of m (outs m) c main_arg18 (by decide)).trans <| (V21_of m (outs m) c main_arg18 (by decide)).trans <| (V20_of m (outs m) c main_arg18 (by decide)).trans <| (V19_of m (outs m) c main_arg18 (by decide)).trans <| (V18_of m (outs m) c main_arg18 (by decide)).trans <| (V17_of m (outs m) c main_arg18 (by decide)).trans <| (V16_of m (outs m) c main_arg18 (by decide)).trans <| (V15_of m (outs m) c main_arg18 (by decide)).trans <| (V14_of m (outs m) c main_arg18 (by decide)).trans <| (V13_of m (outs m) c main_arg18 (by decide)).trans <| (V12_of m (outs m) c main_arg18 (by decide)).trans <| (V11_of m (outs m) c main_arg18 (by decide)).trans <| (V10_of m (outs m) c main_arg18 (by decide)).trans <| (V9_of m (outs m) c main_arg18 (by decide)).trans <| (V8_of m (outs m) c main_arg18 (by decide)).trans <| (V7_of m (outs m) c main_arg18 (by decide)).trans <| (V6_of m (outs m) c main_arg18 (by decide)).trans <| (V5_of m (outs m) c main_arg18 (by decide)).trans <| (V4_of m (outs m) c main_arg18 (by decide)).trans <| (V3_of m c main_arg18 (by decide)).trans <| (V2_of m c main_arg18 (by decide)).trans <| (V1_of m c main_arg18 (by decide))

theorem e24_arg19 (c : Dev nD) : W24 m c main_arg19 = (m ((c : Thread nD τ).loc main_arg19)) :=
  (congrFun (VW24 m c) _).symm.trans <| (V24_of m (outs m) c main_arg19 (by decide)).trans <| (V23_of m (outs m) c main_arg19 (by decide)).trans <| (V22_of m (outs m) c main_arg19 (by decide)).trans <| (V21_of m (outs m) c main_arg19 (by decide)).trans <| (V20_of m (outs m) c main_arg19 (by decide)).trans <| (V19_of m (outs m) c main_arg19 (by decide)).trans <| (V18_of m (outs m) c main_arg19 (by decide)).trans <| (V17_of m (outs m) c main_arg19 (by decide)).trans <| (V16_of m (outs m) c main_arg19 (by decide)).trans <| (V15_of m (outs m) c main_arg19 (by decide)).trans <| (V14_of m (outs m) c main_arg19 (by decide)).trans <| (V13_of m (outs m) c main_arg19 (by decide)).trans <| (V12_of m (outs m) c main_arg19 (by decide)).trans <| (V11_of m (outs m) c main_arg19 (by decide)).trans <| (V10_of m (outs m) c main_arg19 (by decide)).trans <| (V9_of m (outs m) c main_arg19 (by decide)).trans <| (V8_of m (outs m) c main_arg19 (by decide)).trans <| (V7_of m (outs m) c main_arg19 (by decide)).trans <| (V6_of m (outs m) c main_arg19 (by decide)).trans <| (V5_of m (outs m) c main_arg19 (by decide)).trans <| (V4_of m (outs m) c main_arg19 (by decide)).trans <| (V3_of m c main_arg19 (by decide)).trans <| (V2_of m c main_arg19 (by decide)).trans <| (V1_of m c main_arg19 (by decide))

set_option maxHeartbeats 8000000 in
theorem e25_v168 (c : Dev nD) : W25 m c main_v168 = (val_main_v234 (F := Ideal) (m ((c : Thread nD τ).loc main_arg19))) := by
  show StableHlo.after hostOps10 (W24 m c) (Proc.devRef .tc main_v168) = _
  after_results
  rw [e24_arg19 m hv c]
  exact Cert.LibLayout.shapeCast_row_eq_broadcastInDim 1 _ _ _

/-- Region 10's output array is the reference's stage of the arguments. -/
theorem e26_v169 (c : Dev nD) : W26 m c main_v169 = (val_main_v236 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  refine (outs_26 m c).trans ?_
  refine (hv.v10 (atRefs (W25 m)) c (m ((c : Thread nD τ).loc main_arg14)) (e25_v164 m hv c) (e25_v165 m hv c)).trans ?_
  show Cert.Spec.head (F := Ideal) (W25 m c main_v81) (W25 m c main_v163) (m ((c : Thread nD τ).loc main_arg14)) (W25 m c main_v166) (W25 m c main_arg16) (W25 m c main_v167) (W25 m c main_arg18) (W25 m c main_v168) = _
  rw [e25_v81 m hv c, e25_v163 m hv c, e25_v166 m hv c, e25_arg16 m hv c, e25_v167 m hv c, e25_arg18 m hv c, e25_v168 m hv c]
  rfl

/-- THE RESULT: what the kernel program leaves in its result buffer is the reference's last stage of the arguments. -/
theorem result_eq (c : Dev nD) : W26 m c main_v169 = (val_main_v236 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := e26_v169 m hv c

end Cert.KernelIdeal.Rg

end
-- ==== Proof.KI.ValALib.lean ====
/-
  The affine layers at an index. Four of the program's kernels compute, on a block of 1024 rows, a matrix product of
  the rows with a weight matrix plus a bias row (two of them then take the maximum with zero). Here: a plain matrix
  product's contraction read as a sum over the shared axis (`Lin.contr_sum`); each kernel body's value at an index of
  its block (`payK_apply`) and the reference's layer at an index of the whole array (`linRelu78_apply`,
  `linRelu54_apply`, `lin128_apply`) as that sum plus the bias entry; and the two set side by side (`pointK`): when the
  body's first operand holds rows n·1024 … n·1024 + 1023 of an array and the other two the weights and the bias row, its
  value at (y, q) is the reference's layer of the arrays at (n·1024 + y, q).
-/
import proofs.«109784_j28140625724052_1_alg».proof.Proof.Gen.KernelIdeal.Skeleton
import proofs.«109784_j28140625724052_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Rg

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx

namespace Lin

/-- The zero offsets of a whole-buffer rectangle of rank 2, as a constant function. -/
theorem zeroOffsets : (![0, 0] : Fin 2 → Nat) = fun _ => 0 := funext fun a => by fin_cases a <;> rfl

/-- A plain matrix product's contraction, axis 1 of the left operand against axis 0 of the right, at the output index
    (p, q): the sum over the shared axis of row p of the left times column q of the right. -/
theorem contr_sum {m n o : Nat} (D : DotDims ⟨2, ![m, n]⟩ ⟨2, ![n, o]⟩ ⟨2, ![m, o]⟩)
    (hlb : D.lhsBatch = []) (hrb : D.rhsBatch = []) (hln : D.lhsNonContracting = [0]) (hrn : D.rhsNonContracting = [1])
    (hlc : D.lhsContracting = [1]) (hrc : D.rhsContracting = [0])
    (hr : D.contr.rank = 1) (hs : D.contr.size ⟨0, by omega⟩ = n)
    (x : (⟨2, ![m, n]⟩ : Shape).Idx → EReal) (w : (⟨2, ![n, o]⟩ : Shape).Idx → EReal) (p : Fin m) (q : Fin o) :
    ∑ k : D.contr.Idx, x (D.lhsIdx (ix2 p q) k) * w (D.rhsIdx (ix2 p q) k) = ∑ k : Fin n, x (ix2 p k) * w (ix2 k q) := by
  rw [← Equiv.sum_comp (contrEquiv1 D n hr hs).symm]
  refine Finset.sum_congr rfl fun k _ => ?_
  have hk := contrEquiv1_symm_val D n hr hs k
  have key : ∀ (a b : Nat) (ha : a < 2) (hb : b < 2), a = b →
      ((ix2 p q : (⟨2, ![m, o]⟩ : Shape).Idx) ⟨a, ha⟩).val = ((ix2 p q : (⟨2, ![m, o]⟩ : Shape).Idx) ⟨b, hb⟩).val :=
    fun a b ha hb h => by subst h; rfl
  have el : D.lhsIdx (ix2 p q) ((contrEquiv1 D n hr hs).symm k) = ix2 p k := funext fun a => Fin.ext (by
    match a with
    | ⟨0, _⟩ =>
      show (D.lhsIdx (ix2 p q) _ 0).val = p.val
      unfold DotDims.lhsIdx
      rw [dif_neg (by rw [hlb]; exact List.not_mem_nil), dif_pos (by rw [hln]; exact List.mem_singleton.mpr rfl)]
      simp only [Fin.val_cast]
      exact key _ 0 _ (by decide) (by simp [hlb, hln])
    | ⟨1, _⟩ => exact (D.lhsIdx_val_of_single hlc _ _).trans hk)
  have er : D.rhsIdx (ix2 p q) ((contrEquiv1 D n hr hs).symm k) = ix2 k q := funext fun a => Fin.ext (by
    match a with
    | ⟨0, _⟩ => exact (D.rhsIdx_val_of_single hrc _ _).trans hk
    | ⟨1, _⟩ =>
      show (D.rhsIdx (ix2 p q) _ 1).val = q.val
      unfold DotDims.rhsIdx
      rw [dif_neg (by rw [hrb]; exact List.not_mem_nil), dif_pos (by rw [hrn]; exact List.mem_singleton.mpr rfl)]
      simp only [Fin.val_cast]
      exact key _ 1 _ (by decide) (by simp [hlb, hln, hrn]))
  rw [el, er]

end Lin

/-! ## The two input layers -/

/-- Kernel 0's block at an index: the row's product with the weights plus the bias entry, floored at zero. -/
theorem pay0_apply (x0 : Vec Ideal S1024x78 .f32) (x1 : Vec Ideal S78x512 .f32) (x2 : Vec Ideal S1x512 .f32) (p : Fin 1024) (q : Fin 512) :
    k0_pay1 (F := Ideal) x0 x1 x2 (ix2 p q) = max ((∑ k : Fin 78, x0 (ix2 p k) * x1 (ix2 k q)) + x2 (ix2 0 q)) (Ideal.ofBits .f32 0x00000000#32) := by
  unfold k0_pay1
  simp only [maximumf_apply, addf_apply, broadcast_apply, shapeCast_self]
  have e1 : broadcastTo S1024x512 x2 broadcasts_S1x512_S1024x512 (ix2 p q) = x2 (ix2 0 q) :=
    broadcastTo_apply x2 broadcasts_S1x512_S1024x512 (ix2 p q) (ix2 0 q) (fun a => by
      match a with
      | ⟨0, _⟩ => rfl
      | ⟨1, _⟩ => rfl)
  have e2 : matmul dot_S1024x78_S78x512_S1024x512_1_0_0_1_n_n none (truncf FTy.bf16 x0 bitsLt_bf16_f32)
          (truncf FTy.bf16 x1 bitsLt_bf16_f32) (constant (F := Ideal) S1024x512 FTy.f32 0x00000000#32) (ix2 p q) = ∑ k : Fin 78, x0 (ix2 p k) * x1 (ix2 k q) :=
    (Ideal.matmul_constant_zero_apply dot_S1024x78_S78x512_S1024x512_1_0_0_1_n_n none _ _ (ix2 p q)).trans
      (Lin.contr_sum dot_S1024x78_S78x512_S1024x512_1_0_0_1_n_n rfl rfl rfl rfl rfl rfl rfl rfl x0 x1 p q)
  rw [e1, e2]
  rfl

/-- The reference's input layer of 78 features at an index: the same sum, bias entry and floor, on whole arrays. -/
theorem linRelu78_apply (x : (⟨Cert.ReferenceIdeal.S32768x78, .f32⟩ : BufTy).Contents (Elt Ideal)) (w : (⟨Cert.ReferenceIdeal.S78x512, .f32⟩ : BufTy).Contents (Elt Ideal))
    (b : (⟨Cert.ReferenceIdeal.S1x512, .f32⟩ : BufTy).Contents (Elt Ideal)) (r : Fin 32768) (q : Fin 512) :
    Cert.Spec.linRelu78 (F := Ideal) x w b (ix2 r q) = max ((∑ k : Fin 78, x (ix2 r k) * w (ix2 k q)) + b (ix2 0 q)) (Ideal.ofBits .f32 0x00000000#32) := by
  unfold Cert.Spec.linRelu78 Cert.Spec.zeros512
  simp only [maximumf_apply, addf_apply, Host.dotGeneral]
  have e1 : broadcastInDim Cert.ReferenceIdeal.S32768x512 ![0, 1] Cert.ReferenceIdeal.Gen.bcast_S1x512_S32768x512_0_1 b (ix2 r q) = b (ix2 0 q) :=
    broadcastInDim_apply _ Cert.ReferenceIdeal.Gen.bcast_S1x512_S32768x512_0_1 b (ix2 r q) (ix2 0 q) (fun a => by
      match a with
      | ⟨0, _⟩ => rfl
      | ⟨1, _⟩ => rfl)
  have e2 : FloatOps.dotGeneral (F := Ideal) (φ₁ := .f32) (φ₂ := .f32) Cert.ReferenceIdeal.dot_S32768x78_S78x512_S32768x512_1_0_0_1_n_n none HostSchedule.single x w (ix2 r q) = ∑ k : Fin 78, x (ix2 r k) * w (ix2 k q) :=
    (Ideal.dotGeneral_apply Cert.ReferenceIdeal.dot_S32768x78_S78x512_S32768x512_1_0_0_1_n_n none .single x w (ix2 r q)).trans
      (Lin.contr_sum Cert.ReferenceIdeal.dot_S32768x78_S78x512_S32768x512_1_0_0_1_n_n rfl rfl rfl rfl rfl rfl rfl rfl x w r q)
  have e3 : broadcastInDim Cert.ReferenceIdeal.S32768x512 ![] Cert.ReferenceIdeal.Gen.bcast_S_S32768x512 (constant (F := Ideal) Cert.ReferenceIdeal.S_ .f32 0x00000000#32) (ix2 r q) = Ideal.ofBits .f32 0x00000000#32 :=
    broadcastInDim_apply _ Cert.ReferenceIdeal.Gen.bcast_S_S32768x512 _ (ix2 r q) ix0 (fun a => a.elim0)
  rw [e1, e2, e3]

/-- Kernel 0's block against the reference: when the first operand holds rows n·1024 … of the input array and the other two
    the weights and the bias row, the body's value at (y, q) is the reference's layer at (n·1024 + y, q). -/
theorem point0 (X : (⟨Cert.ReferenceIdeal.S32768x78, .f32⟩ : BufTy).Contents (Elt Ideal)) (W : (⟨Cert.ReferenceIdeal.S78x512, .f32⟩ : BufTy).Contents (Elt Ideal))
    (B : (⟨Cert.ReferenceIdeal.S1x512, .f32⟩ : BufTy).Contents (Elt Ideal))
    (x0 : Vec Ideal S1024x78 .f32) (x1 : Vec Ideal S78x512 .f32) (x2 : Vec Ideal S1x512 .f32) (n : Nat)
    (h0 : ∀ (y : S1024x78.Idx) (k : S32768x78.Idx), (k 0).val = n * 1024 + (y 0).val → (k 1).val = (y 1).val → x0 y = X k)
    (h1 : ∀ y, x1 y = W y) (h2 : ∀ y, x2 y = B y)
    (j : S1024x512.Idx) (i : S32768x512.Idx) (hi0 : (i 0).val = n * 1024 + (j 0).val) (hi1 : (i 1).val = (j 1).val) :
    k0_pay1 (F := Ideal) x0 x1 x2 j = Cert.Spec.linRelu78 (F := Ideal) X W B i := by
  obtain ⟨p, q, rfl⟩ : ∃ (p : Fin 1024) (q : Fin 512), j = ix2 p q := ⟨j 0, j 1, eq_ix2 j⟩
  obtain ⟨r, q', rfl⟩ : ∃ (r : Fin 32768) (q' : Fin 512), i = ix2 r q' := ⟨i 0, i 1, eq_ix2 i⟩
  have hr : r.val = n * 1024 + p.val := hi0
  obtain rfl : q' = q := Fin.ext hi1
  rw [pay0_apply, linRelu78_apply, h2 (ix2 0 q')]
  have hs : ∑ k : Fin 78, x0 (ix2 p k) * x1 (ix2 k q') = ∑ k : Fin 78, X (ix2 r k) * W (ix2 k q') :=
    Finset.sum_congr rfl fun k _ => by rw [h0 (ix2 p k) (ix2 r k) hr rfl, h1 (ix2 k q')]
  rw [hs]

/-- Kernel 5's block at an index: the row's product with the weights plus the bias entry, floored at zero. -/
theorem pay5_apply (x0 : Vec Ideal S1024x54 .f32) (x1 : Vec Ideal S54x512 .f32) (x2 : Vec Ideal S1x512 .f32) (p : Fin 1024) (q : Fin 512) :
    k5_pay1 (F := Ideal) x0 x1 x2 (ix2 p q) = max ((∑ k : Fin 54, x0 (ix2 p k) * x1 (ix2 k q)) + x2 (ix2 0 q)) (Ideal.ofBits .f32 0x00000000#32) := by
  unfold k5_pay1
  simp only [maximumf_apply, addf_apply, broadcast_apply, shapeCast_self]
  have e1 : broadcastTo S1024x512 x2 broadcasts_S1x512_S1024x512 (ix2 p q) = x2 (ix2 0 q) :=
    broadcastTo_apply x2 broadcasts_S1x512_S1024x512 (ix2 p q) (ix2 0 q) (fun a => by
      match a with
      | ⟨0, _⟩ => rfl
      | ⟨1, _⟩ => rfl)
  have e2 : matmul dot_S1024x54_S54x512_S1024x512_1_0_0_1_n_n none (truncf FTy.bf16 x0 bitsLt_bf16_f32)
          (truncf FTy.bf16 x1 bitsLt_bf16_f32) (constant (F := Ideal) S1024x512 FTy.f32 0x00000000#32) (ix2 p q) = ∑ k : Fin 54, x0 (ix2 p k) * x1 (ix2 k q) :=
    (Ideal.matmul_constant_zero_apply dot_S1024x54_S54x512_S1024x512_1_0_0_1_n_n none _ _ (ix2 p q)).trans
      (Lin.contr_sum dot_S1024x54_S54x512_S1024x512_1_0_0_1_n_n rfl rfl rfl rfl rfl rfl rfl rfl x0 x1 p q)
  rw [e1, e2]
  rfl

/-- The reference's input layer of 54 features at an index: the same sum, bias entry and floor, on whole arrays. -/
theorem linRelu54_apply (x : (⟨Cert.ReferenceIdeal.S32768x54, .f32⟩ : BufTy).Contents (Elt Ideal)) (w : (⟨Cert.ReferenceIdeal.S54x512, .f32⟩ : BufTy).Contents (Elt Ideal))
    (b : (⟨Cert.ReferenceIdeal.S1x512, .f32⟩ : BufTy).Contents (Elt Ideal)) (r : Fin 32768) (q : Fin 512) :
    Cert.Spec.linRelu54 (F := Ideal) x w b (ix2 r q) = max ((∑ k : Fin 54, x (ix2 r k) * w (ix2 k q)) + b (ix2 0 q)) (Ideal.ofBits .f32 0x00000000#32) := by
  unfold Cert.Spec.linRelu54 Cert.Spec.zeros512
  simp only [maximumf_apply, addf_apply, Host.dotGeneral]
  have e1 : broadcastInDim Cert.ReferenceIdeal.S32768x512 ![0, 1] Cert.ReferenceIdeal.Gen.bcast_S1x512_S32768x512_0_1 b (ix2 r q) = b (ix2 0 q) :=
    broadcastInDim_apply _ Cert.ReferenceIdeal.Gen.bcast_S1x512_S32768x512_0_1 b (ix2 r q) (ix2 0 q) (fun a => by
      match a with
      | ⟨0, _⟩ => rfl
      | ⟨1, _⟩ => rfl)
  have e2 : FloatOps.dotGeneral (F := Ideal) (φ₁ := .f32) (φ₂ := .f32) Cert.ReferenceIdeal.dot_S32768x54_S54x512_S32768x512_1_0_0_1_n_n none HostSchedule.single x w (ix2 r q) = ∑ k : Fin 54, x (ix2 r k) * w (ix2 k q) :=
    (Ideal.dotGeneral_apply Cert.ReferenceIdeal.dot_S32768x54_S54x512_S32768x512_1_0_0_1_n_n none .single x w (ix2 r q)).trans
      (Lin.contr_sum Cert.ReferenceIdeal.dot_S32768x54_S54x512_S32768x512_1_0_0_1_n_n rfl rfl rfl rfl rfl rfl rfl rfl x w r q)
  have e3 : broadcastInDim Cert.ReferenceIdeal.S32768x512 ![] Cert.ReferenceIdeal.Gen.bcast_S_S32768x512 (constant (F := Ideal) Cert.ReferenceIdeal.S_ .f32 0x00000000#32) (ix2 r q) = Ideal.ofBits .f32 0x00000000#32 :=
    broadcastInDim_apply _ Cert.ReferenceIdeal.Gen.bcast_S_S32768x512 _ (ix2 r q) ix0 (fun a => a.elim0)
  rw [e1, e2, e3]

/-- Kernel 5's block against the reference: when the first operand holds rows n·1024 … of the input array and the other two
    the weights and the bias row, the body's value at (y, q) is the reference's layer at (n·1024 + y, q). -/
theorem point5 (X : (⟨Cert.ReferenceIdeal.S32768x54, .f32⟩ : BufTy).Contents (Elt Ideal)) (W : (⟨Cert.ReferenceIdeal.S54x512, .f32⟩ : BufTy).Contents (Elt Ideal))
    (B : (⟨Cert.ReferenceIdeal.S1x512, .f32⟩ : BufTy).Contents (Elt Ideal))
    (x0 : Vec Ideal S1024x54 .f32) (x1 : Vec Ideal S54x512 .f32) (x2 : Vec Ideal S1x512 .f32) (n : Nat)
    (h0 : ∀ (y : S1024x54.Idx) (k : S32768x54.Idx), (k 0).val = n * 1024 + (y 0).val → (k 1).val = (y 1).val → x0 y = X k)
    (h1 : ∀ y, x1 y = W y) (h2 : ∀ y, x2 y = B y)
    (j : S1024x512.Idx) (i : S32768x512.Idx) (hi0 : (i 0).val = n * 1024 + (j 0).val) (hi1 : (i 1).val = (j 1).val) :
    k5_pay1 (F := Ideal) x0 x1 x2 j = Cert.Spec.linRelu54 (F := Ideal) X W B i := by
  obtain ⟨p, q, rfl⟩ : ∃ (p : Fin 1024) (q : Fin 512), j = ix2 p q := ⟨j 0, j 1, eq_ix2 j⟩
  obtain ⟨r, q', rfl⟩ : ∃ (r : Fin 32768) (q' : Fin 512), i = ix2 r q' := ⟨i 0, i 1, eq_ix2 i⟩
  have hr : r.val = n * 1024 + p.val := hi0
  obtain rfl : q' = q := Fin.ext hi1
  rw [pay5_apply, linRelu54_apply, h2 (ix2 0 q')]
  have hs : ∑ k : Fin 54, x0 (ix2 p k) * x1 (ix2 k q') = ∑ k : Fin 54, X (ix2 r k) * W (ix2 k q') :=
    Finset.sum_congr rfl fun k _ => by rw [h0 (ix2 p k) (ix2 r k) hr rfl, h1 (ix2 k q')]
  rw [hs]

/-! ## The two output projections -/

/-- Kernel 4's block at an index: the row's product with the weights plus the bias entry. -/
theorem pay4_apply (x0 : Vec Ideal S1024x512 .f32) (x1 : Vec Ideal S512x128 .f32) (x2 : Vec Ideal S1x128 .f32) (p : Fin 1024) (q : Fin 128) :
    k4_pay1 (F := Ideal) x0 x1 x2 (ix2 p q) = (∑ k : Fin 512, x0 (ix2 p k) * x1 (ix2 k q)) + x2 (ix2 0 q) := by
  unfold k4_pay1
  simp only [addf_apply, shapeCast_self]
  have e1 : broadcastTo S1024x128 x2 broadcasts_S1x128_S1024x128 (ix2 p q) = x2 (ix2 0 q) :=
    broadcastTo_apply x2 broadcasts_S1x128_S1024x128 (ix2 p q) (ix2 0 q) (fun a => by
      match a with
      | ⟨0, _⟩ => rfl
      | ⟨1, _⟩ => rfl)
  have e2 : matmul dot_S1024x512_S512x128_S1024x128_1_0_0_1_n_n none (truncf FTy.bf16 x0 bitsLt_bf16_f32)
          (truncf FTy.bf16 x1 bitsLt_bf16_f32) (constant (F := Ideal) S1024x128 FTy.f32 0x00000000#32) (ix2 p q) = ∑ k : Fin 512, x0 (ix2 p k) * x1 (ix2 k q) :=
    (Ideal.matmul_constant_zero_apply dot_S1024x512_S512x128_S1024x128_1_0_0_1_n_n none _ _ (ix2 p q)).trans
      (Lin.contr_sum dot_S1024x512_S512x128_S1024x128_1_0_0_1_n_n rfl rfl rfl rfl rfl rfl rfl rfl x0 x1 p q)
  rw [e1, e2]

/-- Kernel 9's block at an index: the row's product with the weights plus the bias entry. -/
theorem pay9_apply (x0 : Vec Ideal S1024x512 .f32) (x1 : Vec Ideal S512x128 .f32) (x2 : Vec Ideal S1x128 .f32) (p : Fin 1024) (q : Fin 128) :
    k9_pay1 (F := Ideal) x0 x1 x2 (ix2 p q) = (∑ k : Fin 512, x0 (ix2 p k) * x1 (ix2 k q)) + x2 (ix2 0 q) := by
  unfold k9_pay1
  simp only [addf_apply, shapeCast_self]
  have e1 : broadcastTo S1024x128 x2 broadcasts_S1x128_S1024x128 (ix2 p q) = x2 (ix2 0 q) :=
    broadcastTo_apply x2 broadcasts_S1x128_S1024x128 (ix2 p q) (ix2 0 q) (fun a => by
      match a with
      | ⟨0, _⟩ => rfl
      | ⟨1, _⟩ => rfl)
  have e2 : matmul dot_S1024x512_S512x128_S1024x128_1_0_0_1_n_n none (truncf FTy.bf16 x0 bitsLt_bf16_f32)
          (truncf FTy.bf16 x1 bitsLt_bf16_f32) (constant (F := Ideal) S1024x128 FTy.f32 0x00000000#32) (ix2 p q) = ∑ k : Fin 512, x0 (ix2 p k) * x1 (ix2 k q) :=
    (Ideal.matmul_constant_zero_apply dot_S1024x512_S512x128_S1024x128_1_0_0_1_n_n none _ _ (ix2 p q)).trans
      (Lin.contr_sum dot_S1024x512_S512x128_S1024x128_1_0_0_1_n_n rfl rfl rfl rfl rfl rfl rfl rfl x0 x1 p q)
  rw [e1, e2]

/-- The reference's output projection at an index: the same sum and bias entry, on whole arrays. -/
theorem lin128_apply (x : (⟨Cert.ReferenceIdeal.S32768x512, .f32⟩ : BufTy).Contents (Elt Ideal)) (w : (⟨Cert.ReferenceIdeal.S512x128, .f32⟩ : BufTy).Contents (Elt Ideal))
    (b : (⟨Cert.ReferenceIdeal.S1x128, .f32⟩ : BufTy).Contents (Elt Ideal)) (r : Fin 32768) (q : Fin 128) :
    Cert.Spec.lin128 (F := Ideal) x w b (ix2 r q) = (∑ k : Fin 512, x (ix2 r k) * w (ix2 k q)) + b (ix2 0 q) := by
  unfold Cert.Spec.lin128
  simp only [addf_apply, Host.dotGeneral]
  have e1 : broadcastInDim Cert.ReferenceIdeal.S32768x128 ![0, 1] Cert.ReferenceIdeal.Gen.bcast_S1x128_S32768x128_0_1 b (ix2 r q) = b (ix2 0 q) :=
    broadcastInDim_apply _ Cert.ReferenceIdeal.Gen.bcast_S1x128_S32768x128_0_1 b (ix2 r q) (ix2 0 q) (fun a => by
      match a with
      | ⟨0, _⟩ => rfl
      | ⟨1, _⟩ => rfl)
  have e2 : FloatOps.dotGeneral (F := Ideal) (φ₁ := .f32) (φ₂ := .f32) Cert.ReferenceIdeal.dot_S32768x512_S512x128_S32768x128_1_0_0_1_n_n none HostSchedule.single x w (ix2 r q) = ∑ k : Fin 512, x (ix2 r k) * w (ix2 k q) :=
    (Ideal.dotGeneral_apply Cert.ReferenceIdeal.dot_S32768x512_S512x128_S32768x128_1_0_0_1_n_n none .single x w (ix2 r q)).trans
      (Lin.contr_sum Cert.ReferenceIdeal.dot_S32768x512_S512x128_S32768x128_1_0_0_1_n_n rfl rfl rfl rfl rfl rfl rfl rfl x w r q)
  rw [e1, e2]

/-- Kernel 4's block against the reference: when the first operand holds rows n·1024 … of the input array and the other two
    the weights and the bias row, the body's value at (y, q) is the reference's projection at (n·1024 + y, q). -/
theorem point4 (X : (⟨Cert.ReferenceIdeal.S32768x512, .f32⟩ : BufTy).Contents (Elt Ideal)) (W : (⟨Cert.ReferenceIdeal.S512x128, .f32⟩ : BufTy).Contents (Elt Ideal))
    (B : (⟨Cert.ReferenceIdeal.S1x128, .f32⟩ : BufTy).Contents (Elt Ideal))
    (x0 : Vec Ideal S1024x512 .f32) (x1 : Vec Ideal S512x128 .f32) (x2 : Vec Ideal S1x128 .f32) (n : Nat)
    (h0 : ∀ (y : S1024x512.Idx) (k : S32768x512.Idx), (k 0).val = n * 1024 + (y 0).val → (k 1).val = (y 1).val → x0 y = X k)
    (h1 : ∀ y, x1 y = W y) (h2 : ∀ y, x2 y = B y)
    (j : S1024x128.Idx) (i : S32768x128.Idx) (hi0 : (i 0).val = n * 1024 + (j 0).val) (hi1 : (i 1).val = (j 1).val) :
    k4_pay1 (F := Ideal) x0 x1 x2 j = Cert.Spec.lin128 (F := Ideal) X W B i := by
  obtain ⟨p, q, rfl⟩ : ∃ (p : Fin 1024) (q : Fin 128), j = ix2 p q := ⟨j 0, j 1, eq_ix2 j⟩
  obtain ⟨r, q', rfl⟩ : ∃ (r : Fin 32768) (q' : Fin 128), i = ix2 r q' := ⟨i 0, i 1, eq_ix2 i⟩
  have hr : r.val = n * 1024 + p.val := hi0
  obtain rfl : q' = q := Fin.ext hi1
  rw [pay4_apply, lin128_apply, h2 (ix2 0 q')]
  have hs : ∑ k : Fin 512, x0 (ix2 p k) * x1 (ix2 k q') = ∑ k : Fin 512, X (ix2 r k) * W (ix2 k q') :=
    Finset.sum_congr rfl fun k _ => by rw [h0 (ix2 p k) (ix2 r k) hr rfl, h1 (ix2 k q')]
  rw [hs]

/-- Kernel 9's block against the reference: when the first operand holds rows n·1024 … of the input array and the other two
    the weights and the bias row, the body's value at (y, q) is the reference's projection at (n·1024 + y, q). -/
theorem point9 (X : (⟨Cert.ReferenceIdeal.S32768x512, .f32⟩ : BufTy).Contents (Elt Ideal)) (W : (⟨Cert.ReferenceIdeal.S512x128, .f32⟩ : BufTy).Contents (Elt Ideal))
    (B : (⟨Cert.ReferenceIdeal.S1x128, .f32⟩ : BufTy).Contents (Elt Ideal))
    (x0 : Vec Ideal S1024x512 .f32) (x1 : Vec Ideal S512x128 .f32) (x2 : Vec Ideal S1x128 .f32) (n : Nat)
    (h0 : ∀ (y : S1024x512.Idx) (k : S32768x512.Idx), (k 0).val = n * 1024 + (y 0).val → (k 1).val = (y 1).val → x0 y = X k)
    (h1 : ∀ y, x1 y = W y) (h2 : ∀ y, x2 y = B y)
    (j : S1024x128.Idx) (i : S32768x128.Idx) (hi0 : (i 0).val = n * 1024 + (j 0).val) (hi1 : (i 1).val = (j 1).val) :
    k9_pay1 (F := Ideal) x0 x1 x2 j = Cert.Spec.lin128 (F := Ideal) X W B i := by
  obtain ⟨p, q, rfl⟩ : ∃ (p : Fin 1024) (q : Fin 128), j = ix2 p q := ⟨j 0, j 1, eq_ix2 j⟩
  obtain ⟨r, q', rfl⟩ : ∃ (r : Fin 32768) (q' : Fin 128), i = ix2 r q' := ⟨i 0, i 1, eq_ix2 i⟩
  have hr : r.val = n * 1024 + p.val := hi0
  obtain rfl : q' = q := Fin.ext hi1
  rw [pay9_apply, lin128_apply, h2 (ix2 0 q')]
  have hs : ∑ k : Fin 512, x0 (ix2 p k) * x1 (ix2 k q') = ∑ k : Fin 512, X (ix2 r k) * W (ix2 k q') :=
    Finset.sum_congr rfl fun k _ => by rw [h0 (ix2 p k) (ix2 r k) hr rfl, h1 (ix2 k q')]
  rw [hs]

end Cert.KernelIdeal.Rg

end
-- ==== Proof.KI.Val0.lean ====
/-
  Region 0, from blocks to the array: the output array after the region's 32 write-backs is the reference's input layer relu(x·w + b) of the three
  arrays its windows read. Grid point t reads rows t·1024 … t·1024 + 1023 of the input array and the one block of the
  weights and of the bias row, and writes back rows t·1024 … t·1024 + 1023 of the output array; the 32 row blocks
  cover the array.
-/
import proofs.«109784_j28140625724052_1_alg».proof.Proof.KI.Rg0
import proofs.«109784_j28140625724052_1_alg».proof.Proof.KI.ValALib
import proofs.«109784_j28140625724052_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Rg

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The printed index maps over the grid: the row blocks move with the point, the weights and the bias row stay. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input window's block at point t is rows t·1024 … t·1024 + 1023 of the input array. -/
theorem rows0_0 (c : Dev nD) (t : Fin cfg0.N) (y : S1024x78.Idx) (k : S32768x78.Idx)
    (hk0 : (k 0).val = t.val * 1024 + (y 0).val) (hk1 : (k 1).val = (y 1).val) :
    (iblk0 V c 0 t : Vec Ideal S1024x78 .f32) y = (V c main_arg0 : S32768x78.Idx → Elt Ideal .f32) k := by
  obtain ⟨e0, e1, -⟩ := blockIndex0 t
  unfold iblk0
  rw [View.read_apply]
  show V c main_arg0 _ = V c main_arg0 _
  congr 1
  funext a
  apply Fin.ext
  match a with
  | ⟨0, _⟩ => show win0_0.index t 0 * 1024 + 1 * (y 0).val = (k 0).val; rw [e0, hk0]; omega
  | ⟨1, _⟩ => show win0_0.index t 1 * 78 + 1 * (y 1).val = (k 1).val; rw [e1, hk1]; omega

/-- The weights' one block is the weights. -/
theorem rows0_1 (c : Dev nD) (t : Fin cfg0.N) (y : S78x512.Idx) :
    (iblk0 V c 1 t : Vec Ideal S78x512 .f32) y = (V c main_arg4 : S78x512.Idx → Elt Ideal .f32) y := by
  obtain ⟨-, -, e2, e3, -⟩ := blockIndex0 t
  unfold iblk0
  rw [View.read_apply]
  show V c main_arg4 _ = V c main_arg4 _
  congr 1
  funext a
  apply Fin.ext
  match a with
  | ⟨0, _⟩ => show win0_1.index t 0 * 78 + 1 * (y 0).val = (y 0).val; rw [e2]; omega
  | ⟨1, _⟩ => show win0_1.index t 1 * 512 + 1 * (y 1).val = (y 1).val; rw [e3]; omega

/-- The bias row's one block is the bias row. -/
theorem rows0_2 (c : Dev nD) (t : Fin cfg0.N) (y : S1x512.Idx) :
    (iblk0 V c 2 t : Vec Ideal S1x512 .f32) y = (V c main_v30 : S1x512.Idx → Elt Ideal .f32) y := by
  obtain ⟨-, -, -, -, e4, e5, -⟩ := blockIndex0 t
  unfold iblk0
  rw [View.read_apply]
  show V c main_v30 _ = V c main_v30 _
  congr 1
  funext a
  apply Fin.ext
  match a with
  | ⟨0, _⟩ => show win0_2.index t 0 * 1 + 1 * (y 0).val = (y 0).val; rw [e4]; omega
  | ⟨1, _⟩ => show win0_2.index t 1 * 512 + 1 * (y 1).val = (y 1).val; rw [e5]; omega

/-- What point t writes back is block t of the reference's layer of the arrays as the region finds them. -/
theorem flushed0_eq (c : Dev nD) (t : Fin cfg0.N) :
    (dat0 (F := Ideal) V c).flushed 3 t = ((cfg0.win 3).blk t).view.read (Elt Ideal) (Cert.Spec.linRelu78 (F := Ideal) (V c main_arg0) (V c main_arg4) (V c main_v30)) := by
  show (cfg0.win 3).cut (grid0.coords t) ((dat0 V c).after 3 t) = _
  rw [after0_3]
  unfold out0_3
  rw [View.canon_unit_zero Lin.zeroOffsets]
  simp only [View.ld_unit_zero (S := S1024x78) Lin.zeroOffsets, View.ld_unit_zero (S := S78x512) Lin.zeroOffsets, View.ld_unit_zero (S := S1x512) Lin.zeroOffsets]
  obtain ⟨-, -, -, -, -, -, e6, e7⟩ := blockIndex0 t
  funext j
  show k0_pay1 (F := Ideal) (iblk0 V c 0 t) (iblk0 V c 1 t) (iblk0 V c 2 t) j = Cert.Spec.linRelu78 (F := Ideal) (V c main_arg0) (V c main_arg4) (V c main_v30) (((cfg0.win 3).blk t).view.emb j)
  exact point0 (V c main_arg0) (V c main_arg4) (V c main_v30) (iblk0 V c 0 t) (iblk0 V c 1 t) (iblk0 V c 2 t) t.val
    (fun y k h0 h1 => rows0_0 V c t y k h0 h1) (fun y => rows0_1 V c t y) (fun y => rows0_2 V c t y) j _
    (by show win0_3.index t 0 * 1024 + 1 * (j 0).val = t.val * 1024 + (j 0).val; rw [e6]; omega)
    (by show win0_3.index t 1 * 512 + 1 * (j 1).val = (j 1).val; rw [e7]; omega)

/-- An index of the output array is in point t's block iff each coordinate is in the block's range on its axis. -/
theorem mem_blk0 (t : Fin cfg0.N) (i : S32768x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v31).slice (win0_3.rect t)).set ↔ _
  rw [View.set_slice_whole, Rect.mem_set_unit]
  exact Iff.rfl

/-- Row r of the output array is in the block of point r / 1024. -/
theorem cover0 (i : S32768x512.Idx) : ∃ t : Fin cfg0.N, (cfg0.win 3).flush t = true ∧ i ∈ ((cfg0.win 3).blk t).view.set := by
  have hi0 : (i 0).val < 32768 := (i 0).isLt
  have hi1 : (i 1).val < 512 := (i 1).isLt
  let t : Fin cfg0.N := ⟨(i 0).val / 1024, by show (i 0).val / 1024 < 32; omega⟩
  obtain ⟨-, -, -, -, -, -, e6, e7⟩ := blockIndex0 t
  have ht : t.val = (i 0).val / 1024 := rfl
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; rw [e6, ht]; omega
  | ⟨1, _⟩ => show win0_3.index t (1 : Fin 2) * 512 ≤ (i 1).val ∧ (i 1).val < win0_3.index t (1 : Fin 2) * 512 + 512; rw [e7]; omega

/-- The output array after the last write-back is the reference's layer of the region's input arrays. -/
theorem val0 (c : Dev nD) :
    (dat0 (F := Ideal) V c).arrAt 3 cfg0.N = Cert.Spec.linRelu78 (F := Ideal) (V c main_arg0) (V c main_arg4) (V c main_v30) :=
  (dat0 (F := Ideal) V c).arrAt_eq_of_cover 3 _ (fun t _ => flushed0_eq V c t) cover0

end Cert.KernelIdeal.Rg

end
-- ==== Proof.KI.Val5.lean ====
/-
  Region 5, from blocks to the array: the output array after the region's 32 write-backs is the reference's input layer relu(x·w + b) of the three
  arrays its windows read. Grid point t reads rows t·1024 … t·1024 + 1023 of the input array and the one block of the
  weights and of the bias row, and writes back rows t·1024 … t·1024 + 1023 of the output array; the 32 row blocks
  cover the array.
-/
import proofs.«109784_j28140625724052_1_alg».proof.Proof.KI.Rg5
import proofs.«109784_j28140625724052_1_alg».proof.Proof.KI.ValALib
import proofs.«109784_j28140625724052_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Rg

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The printed index maps over the grid: the row blocks move with the point, the weights and the bias row stay. -/
theorem blockIndex5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The input window's block at point t is rows t·1024 … t·1024 + 1023 of the input array. -/
theorem rows5_0 (c : Dev nD) (t : Fin cfg5.N) (y : S1024x54.Idx) (k : S32768x54.Idx)
    (hk0 : (k 0).val = t.val * 1024 + (y 0).val) (hk1 : (k 1).val = (y 1).val) :
    (iblk5 V c 0 t : Vec Ideal S1024x54 .f32) y = (V c main_arg2 : S32768x54.Idx → Elt Ideal .f32) k := by
  obtain ⟨e0, e1, -⟩ := blockIndex5 t
  unfold iblk5
  rw [View.read_apply]
  show V c main_arg2 _ = V c main_arg2 _
  congr 1
  funext a
  apply Fin.ext
  match a with
  | ⟨0, _⟩ => show win5_0.index t 0 * 1024 + 1 * (y 0).val = (k 0).val; rw [e0, hk0]; omega
  | ⟨1, _⟩ => show win5_0.index t 1 * 54 + 1 * (y 1).val = (k 1).val; rw [e1, hk1]; omega

/-- The weights' one block is the weights. -/
theorem rows5_1 (c : Dev nD) (t : Fin cfg5.N) (y : S54x512.Idx) :
    (iblk5 V c 1 t : Vec Ideal S54x512 .f32) y = (V c main_arg9 : S54x512.Idx → Elt Ideal .f32) y := by
  obtain ⟨-, -, e2, e3, -⟩ := blockIndex5 t
  unfold iblk5
  rw [View.read_apply]
  show V c main_arg9 _ = V c main_arg9 _
  congr 1
  funext a
  apply Fin.ext
  match a with
  | ⟨0, _⟩ => show win5_1.index t 0 * 54 + 1 * (y 0).val = (y 0).val; rw [e2]; omega
  | ⟨1, _⟩ => show win5_1.index t 1 * 512 + 1 * (y 1).val = (y 1).val; rw [e3]; omega

/-- The bias row's one block is the bias row. -/
theorem rows5_2 (c : Dev nD) (t : Fin cfg5.N) (y : S1x512.Idx) :
    (iblk5 V c 2 t : Vec Ideal S1x512 .f32) y = (V c main_v112 : S1x512.Idx → Elt Ideal .f32) y := by
  obtain ⟨-, -, -, -, e4, e5, -⟩ := blockIndex5 t
  unfold iblk5
  rw [View.read_apply]
  show V c main_v112 _ = V c main_v112 _
  congr 1
  funext a
  apply Fin.ext
  match a with
  | ⟨0, _⟩ => show win5_2.index t 0 * 1 + 1 * (y 0).val = (y 0).val; rw [e4]; omega
  | ⟨1, _⟩ => show win5_2.index t 1 * 512 + 1 * (y 1).val = (y 1).val; rw [e5]; omega

/-- What point t writes back is block t of the reference's layer of the arrays as the region finds them. -/
theorem flushed5_eq (c : Dev nD) (t : Fin cfg5.N) :
    (dat5 (F := Ideal) V c).flushed 3 t = ((cfg5.win 3).blk t).view.read (Elt Ideal) (Cert.Spec.linRelu54 (F := Ideal) (V c main_arg2) (V c main_arg9) (V c main_v112)) := by
  show (cfg5.win 3).cut (grid5.coords t) ((dat5 V c).after 3 t) = _
  rw [after5_3]
  unfold out5_3
  rw [View.canon_unit_zero Lin.zeroOffsets]
  simp only [View.ld_unit_zero (S := S1024x54) Lin.zeroOffsets, View.ld_unit_zero (S := S54x512) Lin.zeroOffsets, View.ld_unit_zero (S := S1x512) Lin.zeroOffsets]
  obtain ⟨-, -, -, -, -, -, e6, e7⟩ := blockIndex5 t
  funext j
  show k5_pay1 (F := Ideal) (iblk5 V c 0 t) (iblk5 V c 1 t) (iblk5 V c 2 t) j = Cert.Spec.linRelu54 (F := Ideal) (V c main_arg2) (V c main_arg9) (V c main_v112) (((cfg5.win 3).blk t).view.emb j)
  exact point5 (V c main_arg2) (V c main_arg9) (V c main_v112) (iblk5 V c 0 t) (iblk5 V c 1 t) (iblk5 V c 2 t) t.val
    (fun y k h0 h1 => rows5_0 V c t y k h0 h1) (fun y => rows5_1 V c t y) (fun y => rows5_2 V c t y) j _
    (by show win5_3.index t 0 * 1024 + 1 * (j 0).val = t.val * 1024 + (j 0).val; rw [e6]; omega)
    (by show win5_3.index t 1 * 512 + 1 * (j 1).val = (j 1).val; rw [e7]; omega)

/-- An index of the output array is in point t's block iff each coordinate is in the block's range on its axis. -/
theorem mem_blk5 (t : Fin cfg5.N) (i : S32768x512.Idx) :
    i ∈ ((cfg5.win 3).blk t).view.set ↔ ∀ a : Fin 2, win5_3.index t a * S1024x512.size a ≤ (i a).val ∧ (i a).val < win5_3.index t a * S1024x512.size a + S1024x512.size a := by
  show i ∈ ((View.whole main_v113).slice (win5_3.rect t)).set ↔ _
  rw [View.set_slice_whole, Rect.mem_set_unit]
  exact Iff.rfl

/-- Row r of the output array is in the block of point r / 1024. -/
theorem cover5 (i : S32768x512.Idx) : ∃ t : Fin cfg5.N, (cfg5.win 3).flush t = true ∧ i ∈ ((cfg5.win 3).blk t).view.set := by
  have hi0 : (i 0).val < 32768 := (i 0).isLt
  have hi1 : (i 1).val < 512 := (i 1).isLt
  let t : Fin cfg5.N := ⟨(i 0).val / 1024, by show (i 0).val / 1024 < 32; omega⟩
  obtain ⟨-, -, -, -, -, -, e6, e7⟩ := blockIndex5 t
  have ht : t.val = (i 0).val / 1024 := rfl
  refine ⟨t, flush5_3 t, ?_⟩
  rw [mem_blk5]
  intro a
  match a with
  | ⟨0, _⟩ => show win5_3.index t (0 : Fin 2) * 1024 ≤ (i 0).val ∧ (i 0).val < win5_3.index t (0 : Fin 2) * 1024 + 1024; rw [e6, ht]; omega
  | ⟨1, _⟩ => show win5_3.index t (1 : Fin 2) * 512 ≤ (i 1).val ∧ (i 1).val < win5_3.index t (1 : Fin 2) * 512 + 512; rw [e7]; omega

/-- The output array after the last write-back is the reference's layer of the region's input arrays. -/
theorem val5 (c : Dev nD) :
    (dat5 (F := Ideal) V c).arrAt 3 cfg5.N = Cert.Spec.linRelu54 (F := Ideal) (V c main_arg2) (V c main_arg9) (V c main_v112) :=
  (dat5 (F := Ideal) V c).arrAt_eq_of_cover 3 _ (fun t _ => flushed5_eq V c t) cover5

end Cert.KernelIdeal.Rg

end
-- ==== Proof.KI.Val4.lean ====
/-
  Region 4, from blocks to the array: the output array after the region's 32 write-backs is the reference's output projection x·w + b of the three
  arrays its windows read. Grid point t reads rows t·1024 … t·1024 + 1023 of the input array and the one block of the
  weights and of the bias row, and writes back rows t·1024 … t·1024 + 1023 of the output array; the 32 row blocks
  cover the array.
-/
import proofs.«109784_j28140625724052_1_alg».proof.Proof.KI.Rg4
import proofs.«109784_j28140625724052_1_alg».proof.Proof.KI.ValALib
import proofs.«109784_j28140625724052_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Rg

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The printed index maps over the grid: the row blocks move with the point, the weights and the bias row stay. -/
theorem blockIndex4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The input window's block at point t is rows t·1024 … t·1024 + 1023 of the input array. -/
theorem rows4_0 (c : Dev nD) (t : Fin cfg4.N) (y : S1024x512.Idx) (k : S32768x512.Idx)
    (hk0 : (k 0).val = t.val * 1024 + (y 0).val) (hk1 : (k 1).val = (y 1).val) :
    (iblk4 V c 0 t : Vec Ideal S1024x512 .f32) y = (V c main_v79 : S32768x512.Idx → Elt Ideal .f32) k := by
  obtain ⟨e0, e1, -⟩ := blockIndex4 t
  unfold iblk4
  rw [View.read_apply]
  show V c main_v79 _ = V c main_v79 _
  congr 1
  funext a
  apply Fin.ext
  match a with
  | ⟨0, _⟩ => show win4_0.index t 0 * 1024 + 1 * (y 0).val = (k 0).val; rw [e0, hk0]; omega
  | ⟨1, _⟩ => show win4_0.index t 1 * 512 + 1 * (y 1).val = (k 1).val; rw [e1, hk1]; omega

/-- The weights' one block is the weights. -/
theorem rows4_1 (c : Dev nD) (t : Fin cfg4.N) (y : S512x128.Idx) :
    (iblk4 V c 1 t : Vec Ideal S512x128 .f32) y = (V c main_arg7 : S512x128.Idx → Elt Ideal .f32) y := by
  obtain ⟨-, -, e2, e3, -⟩ := blockIndex4 t
  unfold iblk4
  rw [View.read_apply]
  show V c main_arg7 _ = V c main_arg7 _
  congr 1
  funext a
  apply Fin.ext
  match a with
  | ⟨0, _⟩ => show win4_1.index t 0 * 512 + 1 * (y 0).val = (y 0).val; rw [e2]; omega
  | ⟨1, _⟩ => show win4_1.index t 1 * 128 + 1 * (y 1).val = (y 1).val; rw [e3]; omega

/-- The bias row's one block is the bias row. -/
theorem rows4_2 (c : Dev nD) (t : Fin cfg4.N) (y : S1x128.Idx) :
    (iblk4 V c 2 t : Vec Ideal S1x128 .f32) y = (V c main_v80 : S1x128.Idx → Elt Ideal .f32) y := by
  obtain ⟨-, -, -, -, e4, e5, -⟩ := blockIndex4 t
  unfold iblk4
  rw [View.read_apply]
  show V c main_v80 _ = V c main_v80 _
  congr 1
  funext a
  apply Fin.ext
  match a with
  | ⟨0, _⟩ => show win4_2.index t 0 * 1 + 1 * (y 0).val = (y 0).val; rw [e4]; omega
  | ⟨1, _⟩ => show win4_2.index t 1 * 128 + 1 * (y 1).val = (y 1).val; rw [e5]; omega

/-- What point t writes back is block t of the reference's layer of the arrays as the region finds them. -/
theorem flushed4_eq (c : Dev nD) (t : Fin cfg4.N) :
    (dat4 (F := Ideal) V c).flushed 3 t = ((cfg4.win 3).blk t).view.read (Elt Ideal) (Cert.Spec.lin128 (F := Ideal) (V c main_v79) (V c main_arg7) (V c main_v80)) := by
  show (cfg4.win 3).cut (grid4.coords t) ((dat4 V c).after 3 t) = _
  rw [after4_3]
  unfold out4_3
  rw [View.canon_unit_zero Lin.zeroOffsets]
  simp only [View.ld_unit_zero (S := S1024x512) Lin.zeroOffsets, View.ld_unit_zero (S := S512x128) Lin.zeroOffsets, View.ld_unit_zero (S := S1x128) Lin.zeroOffsets]
  obtain ⟨-, -, -, -, -, -, e6, e7⟩ := blockIndex4 t
  funext j
  show k4_pay1 (F := Ideal) (iblk4 V c 0 t) (iblk4 V c 1 t) (iblk4 V c 2 t) j = Cert.Spec.lin128 (F := Ideal) (V c main_v79) (V c main_arg7) (V c main_v80) (((cfg4.win 3).blk t).view.emb j)
  exact point4 (V c main_v79) (V c main_arg7) (V c main_v80) (iblk4 V c 0 t) (iblk4 V c 1 t) (iblk4 V c 2 t) t.val
    (fun y k h0 h1 => rows4_0 V c t y k h0 h1) (fun y => rows4_1 V c t y) (fun y => rows4_2 V c t y) j _
    (by show win4_3.index t 0 * 1024 + 1 * (j 0).val = t.val * 1024 + (j 0).val; rw [e6]; omega)
    (by show win4_3.index t 1 * 128 + 1 * (j 1).val = (j 1).val; rw [e7]; omega)

/-- An index of the output array is in point t's block iff each coordinate is in the block's range on its axis. -/
theorem mem_blk4 (t : Fin cfg4.N) (i : S32768x128.Idx) :
    i ∈ ((cfg4.win 3).blk t).view.set ↔ ∀ a : Fin 2, win4_3.index t a * S1024x128.size a ≤ (i a).val ∧ (i a).val < win4_3.index t a * S1024x128.size a + S1024x128.size a := by
  show i ∈ ((View.whole main_v81).slice (win4_3.rect t)).set ↔ _
  rw [View.set_slice_whole, Rect.mem_set_unit]
  exact Iff.rfl

/-- Row r of the output array is in the block of point r / 1024. -/
theorem cover4 (i : S32768x128.Idx) : ∃ t : Fin cfg4.N, (cfg4.win 3).flush t = true ∧ i ∈ ((cfg4.win 3).blk t).view.set := by
  have hi0 : (i 0).val < 32768 := (i 0).isLt
  have hi1 : (i 1).val < 128 := (i 1).isLt
  let t : Fin cfg4.N := ⟨(i 0).val / 1024, by show (i 0).val / 1024 < 32; omega⟩
  obtain ⟨-, -, -, -, -, -, e6, e7⟩ := blockIndex4 t
  have ht : t.val = (i 0).val / 1024 := rfl
  refine ⟨t, flush4_3 t, ?_⟩
  rw [mem_blk4]
  intro a
  match a with
  | ⟨0, _⟩ => show win4_3.index t (0 : Fin 2) * 1024 ≤ (i 0).val ∧ (i 0).val < win4_3.index t (0 : Fin 2) * 1024 + 1024; rw [e6, ht]; omega
  | ⟨1, _⟩ => show win4_3.index t (1 : Fin 2) * 128 ≤ (i 1).val ∧ (i 1).val < win4_3.index t (1 : Fin 2) * 128 + 128; rw [e7]; omega

/-- The output array after the last write-back is the reference's layer of the region's input arrays. -/
theorem val4 (c : Dev nD) :
    (dat4 (F := Ideal) V c).arrAt 3 cfg4.N = Cert.Spec.lin128 (F := Ideal) (V c main_v79) (V c main_arg7) (V c main_v80) :=
  (dat4 (F := Ideal) V c).arrAt_eq_of_cover 3 _ (fun t _ => flushed4_eq V c t) cover4

end Cert.KernelIdeal.Rg

end
-- ==== Proof.KI.Val9.lean ====
/-
  Region 9, from blocks to the array: the output array after the region's 32 write-backs is the reference's output projection x·w + b of the three
  arrays its windows read. Grid point t reads rows t·1024 … t·1024 + 1023 of the input array and the one block of the
  weights and of the bias row, and writes back rows t·1024 … t·1024 + 1023 of the output array; the 32 row blocks
  cover the array.
-/
import proofs.«109784_j28140625724052_1_alg».proof.Proof.KI.Rg9
import proofs.«109784_j28140625724052_1_alg».proof.Proof.KI.ValALib
import proofs.«109784_j28140625724052_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Rg

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The printed index maps over the grid: the row blocks move with the point, the weights and the bias row stay. -/
theorem blockIndex9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- The input window's block at point t is rows t·1024 … t·1024 + 1023 of the input array. -/
theorem rows9_0 (c : Dev nD) (t : Fin cfg9.N) (y : S1024x512.Idx) (k : S32768x512.Idx)
    (hk0 : (k 0).val = t.val * 1024 + (y 0).val) (hk1 : (k 1).val = (y 1).val) :
    (iblk9 V c 0 t : Vec Ideal S1024x512 .f32) y = (V c main_v161 : S32768x512.Idx → Elt Ideal .f32) k := by
  obtain ⟨e0, e1, -⟩ := blockIndex9 t
  unfold iblk9
  rw [View.read_apply]
  show V c main_v161 _ = V c main_v161 _
  congr 1
  funext a
  apply Fin.ext
  match a with
  | ⟨0, _⟩ => show win9_0.index t 0 * 1024 + 1 * (y 0).val = (k 0).val; rw [e0, hk0]; omega
  | ⟨1, _⟩ => show win9_0.index t 1 * 512 + 1 * (y 1).val = (k 1).val; rw [e1, hk1]; omega

/-- The weights' one block is the weights. -/
theorem rows9_1 (c : Dev nD) (t : Fin cfg9.N) (y : S512x128.Idx) :
    (iblk9 V c 1 t : Vec Ideal S512x128 .f32) y = (V c main_arg12 : S512x128.Idx → Elt Ideal .f32) y := by
  obtain ⟨-, -, e2, e3, -⟩ := blockIndex9 t
  unfold iblk9
  rw [View.read_apply]
  show V c main_arg12 _ = V c main_arg12 _
  congr 1
  funext a
  apply Fin.ext
  match a with
  | ⟨0, _⟩ => show win9_1.index t 0 * 512 + 1 * (y 0).val = (y 0).val; rw [e2]; omega
  | ⟨1, _⟩ => show win9_1.index t 1 * 128 + 1 * (y 1).val = (y 1).val; rw [e3]; omega

/-- The bias row's one block is the bias row. -/
theorem rows9_2 (c : Dev nD) (t : Fin cfg9.N) (y : S1x128.Idx) :
    (iblk9 V c 2 t : Vec Ideal S1x128 .f32) y = (V c main_v162 : S1x128.Idx → Elt Ideal .f32) y := by
  obtain ⟨-, -, -, -, e4, e5, -⟩ := blockIndex9 t
  unfold iblk9
  rw [View.read_apply]
  show V c main_v162 _ = V c main_v162 _
  congr 1
  funext a
  apply Fin.ext
  match a with
  | ⟨0, _⟩ => show win9_2.index t 0 * 1 + 1 * (y 0).val = (y 0).val; rw [e4]; omega
  | ⟨1, _⟩ => show win9_2.index t 1 * 128 + 1 * (y 1).val = (y 1).val; rw [e5]; omega

/-- What point t writes back is block t of the reference's layer of the arrays as the region finds them. -/
theorem flushed9_eq (c : Dev nD) (t : Fin cfg9.N) :
    (dat9 (F := Ideal) V c).flushed 3 t = ((cfg9.win 3).blk t).view.read (Elt Ideal) (Cert.Spec.lin128 (F := Ideal) (V c main_v161) (V c main_arg12) (V c main_v162)) := by
  show (cfg9.win 3).cut (grid9.coords t) ((dat9 V c).after 3 t) = _
  rw [after9_3]
  unfold out9_3
  rw [View.canon_unit_zero Lin.zeroOffsets]
  simp only [View.ld_unit_zero (S := S1024x512) Lin.zeroOffsets, View.ld_unit_zero (S := S512x128) Lin.zeroOffsets, View.ld_unit_zero (S := S1x128) Lin.zeroOffsets]
  obtain ⟨-, -, -, -, -, -, e6, e7⟩ := blockIndex9 t
  funext j
  show k9_pay1 (F := Ideal) (iblk9 V c 0 t) (iblk9 V c 1 t) (iblk9 V c 2 t) j = Cert.Spec.lin128 (F := Ideal) (V c main_v161) (V c main_arg12) (V c main_v162) (((cfg9.win 3).blk t).view.emb j)
  exact point9 (V c main_v161) (V c main_arg12) (V c main_v162) (iblk9 V c 0 t) (iblk9 V c 1 t) (iblk9 V c 2 t) t.val
    (fun y k h0 h1 => rows9_0 V c t y k h0 h1) (fun y => rows9_1 V c t y) (fun y => rows9_2 V c t y) j _
    (by show win9_3.index t 0 * 1024 + 1 * (j 0).val = t.val * 1024 + (j 0).val; rw [e6]; omega)
    (by show win9_3.index t 1 * 128 + 1 * (j 1).val = (j 1).val; rw [e7]; omega)

/-- An index of the output array is in point t's block iff each coordinate is in the block's range on its axis. -/
theorem mem_blk9 (t : Fin cfg9.N) (i : S32768x128.Idx) :
    i ∈ ((cfg9.win 3).blk t).view.set ↔ ∀ a : Fin 2, win9_3.index t a * S1024x128.size a ≤ (i a).val ∧ (i a).val < win9_3.index t a * S1024x128.size a + S1024x128.size a := by
  show i ∈ ((View.whole main_v163).slice (win9_3.rect t)).set ↔ _
  rw [View.set_slice_whole, Rect.mem_set_unit]
  exact Iff.rfl

/-- Row r of the output array is in the block of point r / 1024. -/
theorem cover9 (i : S32768x128.Idx) : ∃ t : Fin cfg9.N, (cfg9.win 3).flush t = true ∧ i ∈ ((cfg9.win 3).blk t).view.set := by
  have hi0 : (i 0).val < 32768 := (i 0).isLt
  have hi1 : (i 1).val < 128 := (i 1).isLt
  let t : Fin cfg9.N := ⟨(i 0).val / 1024, by show (i 0).val / 1024 < 32; omega⟩
  obtain ⟨-, -, -, -, -, -, e6, e7⟩ := blockIndex9 t
  have ht : t.val = (i 0).val / 1024 := rfl
  refine ⟨t, flush9_3 t, ?_⟩
  rw [mem_blk9]
  intro a
  match a with
  | ⟨0, _⟩ => show win9_3.index t (0 : Fin 2) * 1024 ≤ (i 0).val ∧ (i 0).val < win9_3.index t (0 : Fin 2) * 1024 + 1024; rw [e6, ht]; omega
  | ⟨1, _⟩ => show win9_3.index t (1 : Fin 2) * 128 ≤ (i 1).val ∧ (i 1).val < win9_3.index t (1 : Fin 2) * 128 + 128; rw [e7]; omega

/-- The output array after the last write-back is the reference's layer of the region's input arrays. -/
theorem val9 (c : Dev nD) :
    (dat9 (F := Ideal) V c).arrAt 3 cfg9.N = Cert.Spec.lin128 (F := Ideal) (V c main_v161) (V c main_arg12) (V c main_v162) :=
  (dat9 (F := Ideal) V c).arrAt_eq_of_cover 3 _ (fun t _ => flushed9_eq V c t) cover9

end Cert.KernelIdeal.Rg

end
-- ==== Proof.KI.ValBLib.lean ====
/-
  A graph layer's body on one block of rows against the reference's layer on whole arrays, at the ideal values:
  with s = 0.8·agg + 0.2·h0 both are max (s + Σ_k s[·,k]·w[k,·]) 0 + prev read at an index, the matrix products
  as sums over the 512 contracted features, and row p of the block of rows starting at r is row r + p of the arrays.
-/
import proofs.«109784_j28140625724052_1_alg».proof.Proof.Gen.KernelIdeal.Skeleton
import proofs.«109784_j28140625724052_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Rg

open Cert.KernelIdeal Cert.KernelIdeal.Gen
open Idealize.ShloMosaic Idealize.ShloMosaic.TcCoe
open Idealize.SL Idealize.SL.Sem
open Idealize.ShloMosaic.ValueIdx

namespace Gcnii

/-! The body of a graph layer on one block of rows, read at an index, against the reference's layer on whole arrays:
    with s = 0.8·agg + 0.2·h0, both are max (s + Σ_k s[·,k]·w[k,·]) 0 + prev, and row y of the block of rows starting
    at r is row r + y of the array. -/

local notation "Dk" => dot_S1024x512_S512x512_S1024x512_1_0_0_1_n_n
local notation "Dr" => Cert.ReferenceIdeal.dot_S32768x512_S512x512_S32768x512_1_0_0_1_n_n

/-- The block product's left operand index on the row axis. -/
theorem dk_lhs0 (i : S1024x512.Idx) (u : (Dk).contr.Idx) : ((Dk).lhsIdx i u 0).val = (i 0).val := by
  unfold DotDims.lhsIdx
  rw [dif_neg (show ¬(0 : Fin S1024x512.rank) ∈ (Dk).lhsBatch by decide), dif_pos (show (0 : Fin S1024x512.rank) ∈ (Dk).lhsNonContracting by decide)]
  rfl
/-- The block product's right operand index on the column axis. -/
theorem dk_rhs1 (i : S1024x512.Idx) (u : (Dk).contr.Idx) : ((Dk).rhsIdx i u 1).val = (i 1).val := by
  unfold DotDims.rhsIdx
  rw [dif_neg (show ¬(1 : Fin S512x512.rank) ∈ (Dk).rhsBatch by decide), dif_pos (show (1 : Fin S512x512.rank) ∈ (Dk).rhsNonContracting by decide)]
  rfl

/-- The block's matrix product into zeros, at row p and column q: the sum over the 512 contracted features. -/
theorem matmul_block_apply (l : FVec Ideal S1024x512 .bf16) (w : FVec Ideal S512x512 .bf16) (p : Fin 1024) (q : Fin 512) :
    matmul Dk none l w (constant (F := Ideal) S1024x512 .f32 0x00000000#32) (ix2 p q) = ∑ k : Fin 512, l (ix2 p k) * w (ix2 k q) := by
  simp only [matmul]
  rw [Ideal.matmul_constant_zero_apply, ← Equiv.sum_comp (contrEquiv1 Dk 512 rfl rfl).symm]
  refine Finset.sum_congr rfl fun k _ => ?_
  have hk := contrEquiv1_symm_val Dk 512 rfl rfl k
  have el : (Dk).lhsIdx (ix2 p q) ((contrEquiv1 Dk 512 rfl rfl).symm k) = ix2 p k := funext fun a => Fin.ext (by
    match a with
    | ⟨0, _⟩ => exact dk_lhs0 _ _
    | ⟨1, _⟩ => exact ((Dk).lhsIdx_val_of_single rfl _ _).trans hk)
  have er : (Dk).rhsIdx (ix2 p q) ((contrEquiv1 Dk 512 rfl rfl).symm k) = ix2 k q := funext fun a => Fin.ext (by
    match a with
    | ⟨0, _⟩ => exact ((Dk).rhsIdx_val_of_single rfl _ _).trans hk
    | ⟨1, _⟩ => exact dk_rhs1 _ _)
  rw [el, er]

/-- The reference product's left operand index on the row axis. -/
theorem dr_lhs0 (i : Cert.ReferenceIdeal.S32768x512.Idx) (u : (Dr).contr.Idx) : ((Dr).lhsIdx i u 0).val = (i 0).val := by
  unfold DotDims.lhsIdx
  rw [dif_neg (show ¬(0 : Fin Cert.ReferenceIdeal.S32768x512.rank) ∈ (Dr).lhsBatch by decide), dif_pos (show (0 : Fin Cert.ReferenceIdeal.S32768x512.rank) ∈ (Dr).lhsNonContracting by decide)]
  rfl
/-- The reference product's right operand index on the column axis. -/
theorem dr_rhs1 (i : Cert.ReferenceIdeal.S32768x512.Idx) (u : (Dr).contr.Idx) : ((Dr).rhsIdx i u 1).val = (i 1).val := by
  unfold DotDims.rhsIdx
  rw [dif_neg (show ¬(1 : Fin Cert.ReferenceIdeal.S512x512.rank) ∈ (Dr).rhsBatch by decide), dif_pos (show (1 : Fin Cert.ReferenceIdeal.S512x512.rank) ∈ (Dr).rhsNonContracting by decide)]
  rfl

/-- The reference's matrix product at row a and column q: the same sum. -/
theorem dot_array_apply (s : FVec Ideal Cert.ReferenceIdeal.S32768x512 .f32) (w : FVec Ideal Cert.ReferenceIdeal.S512x512 .f32) (a : Fin 32768) (q : Fin 512) :
    Host.dotGeneral (F := Ideal) Dr none s w (ix2 a q) = ∑ k : Fin 512, s (ix2 a k) * w (ix2 k q) := by
  simp only [Host.dotGeneral]
  rw [Ideal.dotGeneral_apply, ← Equiv.sum_comp (contrEquiv1 Dr 512 rfl rfl).symm]
  refine Finset.sum_congr rfl fun k _ => ?_
  have hk := contrEquiv1_symm_val Dr 512 rfl rfl k
  have el : (Dr).lhsIdx (ix2 a q) ((contrEquiv1 Dr 512 rfl rfl).symm k) = ix2 a k := funext fun b => Fin.ext (by
    match b with
    | ⟨0, _⟩ => exact dr_lhs0 _ _
    | ⟨1, _⟩ => exact ((Dr).lhsIdx_val_of_single rfl _ _).trans hk)
  have er : (Dr).rhsIdx (ix2 a q) ((contrEquiv1 Dr 512 rfl rfl).symm k) = ix2 k q := funext fun b => Fin.ext (by
    match b with
    | ⟨0, _⟩ => exact ((Dr).rhsIdx_val_of_single rfl _ _).trans hk
    | ⟨1, _⟩ => exact dr_rhs1 _ _)
  rw [el, er]

/-- A graph layer's mixed input at row p, feature k of a block of rows: 0.8 times the aggregated messages plus 0.2 times
    the first layer's output. -/
def mix (x0 x1 : Vec Ideal S1024x512 .f32) (p : Fin 1024) (k : Fin 512) : EReal :=
  Ideal.ofBits .f32 0x3F4CCCCD#32 * x0 (ix2 p k) + Ideal.ofBits .f32 0x3E4CCCCD#32 * x1 (ix2 p k)

/-- The same at row a, feature k of the whole arrays. -/
def mixA (A0 A1 : (⟨Cert.ReferenceIdeal.S32768x512, .f32⟩ : BufTy).Contents (Elt Ideal)) (a : Fin 32768) (k : Fin 512) : EReal :=
  Ideal.ofBits .f32 0x3F4CCCCD#32 * A0 (ix2 a k) + Ideal.ofBits .f32 0x3E4CCCCD#32 * A1 (ix2 a k)

/-- The body's value at row p, column q of the block. -/
theorem pay_apply (x0 x1 x2 : Vec Ideal S1024x512 .f32) (x3 : Vec Ideal S512x512 .f32) (p : Fin 1024) (q : Fin 512) :
    k2_pay1 x0 x1 x2 x3 (ix2 p q) = max (mix x0 x1 p q + ∑ k : Fin 512, mix x0 x1 p k * x3 (ix2 k q)) 0 + x2 (ix2 p q) := by
  unfold k2_pay1
  simp only [shapeCast_self]
  rw [addf_apply, maximumf_apply, addf_apply, matmul_block_apply]
  have hz : (broadcast S1024x512 (FloatOps.ofBits (F := Ideal) FTy.f32 0x00000000#32) (ix2 p q) : EReal) = 0 := Ideal.ofBits_zero_f32
  rw [hz]
  rfl

/-- The reference's layer at row a, column q of the arrays. -/
theorem gcnii_apply (A0 A1 A2 : (⟨Cert.ReferenceIdeal.S32768x512, .f32⟩ : BufTy).Contents (Elt Ideal)) (A3 : (⟨Cert.ReferenceIdeal.S512x512, .f32⟩ : BufTy).Contents (Elt Ideal)) (a : Fin 32768) (q : Fin 512) :
    Cert.Spec.gcnii (F := Ideal) A0 A1 A2 A3 (ix2 a q) = max (mixA A0 A1 a q + ∑ k : Fin 512, mixA A0 A1 a k * A3 (ix2 k q)) 0 + A2 (ix2 a q) := by
  unfold Cert.Spec.gcnii
  rw [addf_apply, maximumf_apply, addf_apply, dot_array_apply]
  have hz : (Cert.Spec.zeros512 (F := Ideal) (ix2 a q) : EReal) = 0 := Ideal.ofBits_zero_f32
  rw [hz]
  rfl

/-- One block against the arrays: when each of the three row inputs' blocks holds rows r … r + 1023 of its array and the
    weight's block is the weight, the body's value at row p of the block is the reference's layer at row r + p. -/
theorem gcnii_block (A0 A1 A2 : FVec Ideal Cert.ReferenceIdeal.S32768x512 .f32) (A3 : FVec Ideal Cert.ReferenceIdeal.S512x512 .f32)
    (x0 x1 x2 : Vec Ideal S1024x512 .f32) (x3 : Vec Ideal S512x512 .f32) (r : Nat)
    (h0 : ∀ (p : Fin 1024) (k : Fin 512) (a : Fin 32768), a.val = r + p.val → x0 (ix2 p k) = A0 (ix2 a k))
    (h1 : ∀ (p : Fin 1024) (k : Fin 512) (a : Fin 32768), a.val = r + p.val → x1 (ix2 p k) = A1 (ix2 a k))
    (h2 : ∀ (p : Fin 1024) (k : Fin 512) (a : Fin 32768), a.val = r + p.val → x2 (ix2 p k) = A2 (ix2 a k))
    (h3 : ∀ (k q : Fin 512), x3 (ix2 k q) = A3 (ix2 k q))
    (p : Fin 1024) (q : Fin 512) (a : Fin 32768) (ha : a.val = r + p.val) :
    k2_pay1 x0 x1 x2 x3 (ix2 p q) = Cert.Spec.gcnii (F := Ideal) A0 A1 A2 A3 (ix2 a q) := by
  rw [pay_apply, gcnii_apply]
  have hm : ∀ k, mix x0 x1 p k = mixA A0 A1 a k := fun k => by unfold mix mixA; rw [h0 p k a ha, h1 p k a ha]
  rw [hm q, h2 p q a ha]
  exact congrArg (fun z => max (mixA A0 A1 a q + z) 0 + A2 (ix2 a q)) (Finset.sum_congr rfl fun k _ => by rw [hm k, h3 k q])

/-- The six graph layers' bodies are one body. -/
theorem k1_pay1_eq : @k1_pay1 Ideal _ = @k2_pay1 Ideal _ := rfl
theorem k3_pay1_eq : @k3_pay1 Ideal _ = @k2_pay1 Ideal _ := rfl
theorem k6_pay1_eq : @k6_pay1 Ideal _ = @k2_pay1 Ideal _ := rfl
theorem k7_pay1_eq : @k7_pay1 Ideal _ = @k2_pay1 Ideal _ := rfl
theorem k8_pay1_eq : @k8_pay1 Ideal _ = @k2_pay1 Ideal _ := rfl

end Gcnii

end Cert.KernelIdeal.Rg

end
-- ==== Proof.KI.Val1.lean ====
/-
  Region 1, a graph layer: the layer's output array after all 32 write-backs is the reference's layer
  relu(s + s·w) + prev, s = 0.8·agg + 0.2·h0, of the arrays the region's input windows read. Grid point t
  works on rows 1024·t … 1024·t + 1023 (all 512 columns) of the three row inputs and of the output, and on
  the whole weight; the 32 blocks of rows cover the array.
-/
import proofs.«109784_j28140625724052_1_alg».proof.Proof.KI.Rg1
import proofs.«109784_j28140625724052_1_alg».proof.Proof.KI.ValBLib
import proofs.«109784_j28140625724052_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Rg

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open Gcnii

variable (V : (c : Dev nD) → (b : Ref sig .tc) → Buf (Elt Ideal) ((c : Thread nD τ).loc b))

/-- The zero offsets of a whole-block load or store. -/
theorem zero_off1 : (![0, 0] : Fin 2 → Nat) = fun _ => 0 := funext fun a => by fin_cases a <;> rfl

/-- The index maps over the grid: at point t the three row inputs and the output sit at block (t, 0), the weight at block (0, 0). -/
theorem index_maps1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of the aggregated messages' block at point t is row 1024·t + p of the array. -/
theorem rows1_0 (c : Dev nD) (t : Fin cfg1.N) (p : Fin 1024) (k : Fin 512) (a : Fin 32768) (ha : a.val = 1024 * t.val + p.val) :
    (iblk1 V c 0 t : Vec Ideal S1024x512 .f32) (ix2 p k) = (V c main_v44 : S32768x512.Idx → EReal) (ix2 a k) := by
  obtain ⟨e0, e1, -⟩ := index_maps1 t
  unfold iblk1
  rw [View.read_apply]
  show V c main_v44 _ = V c main_v44 _
  congr 1
  funext b
  apply Fin.ext
  match b with
  | ⟨0, _⟩ => show win1_0.index t (0 : Fin 2) * 1024 + 1 * p.val = a.val; omega
  | ⟨1, _⟩ => show win1_0.index t (1 : Fin 2) * 512 + 1 * k.val = k.val; omega

/-- Row p of the first layer's output's block at point t is row 1024·t + p of the array. -/
theorem rows1_1 (c : Dev nD) (t : Fin cfg1.N) (p : Fin 1024) (k : Fin 512) (a : Fin 32768) (ha : a.val = 1024 * t.val + p.val) :
    (iblk1 V c 1 t : Vec Ideal S1024x512 .f32) (ix2 p k) = (V c main_v31 : S32768x512.Idx → EReal) (ix2 a k) := by
  obtain ⟨-, -, e0, e1, -⟩ := index_maps1 t
  unfold iblk1
  rw [View.read_apply]
  show V c main_v31 _ = V c main_v31 _
  congr 1
  funext b
  apply Fin.ext
  match b with
  | ⟨0, _⟩ => show win1_1.index t (0 : Fin 2) * 1024 + 1 * p.val = a.val; omega
  | ⟨1, _⟩ => show win1_1.index t (1 : Fin 2) * 512 + 1 * k.val = k.val; omega

/-- Row p of the previous layer's output's block at point t is row 1024·t + p of the array. -/
theorem rows1_2 (c : Dev nD) (t : Fin cfg1.N) (p : Fin 1024) (k : Fin 512) (a : Fin 32768) (ha : a.val = 1024 * t.val + p.val) :
    (iblk1 V c 2 t : Vec Ideal S1024x512 .f32) (ix2 p k) = (V c main_v31 : S32768x512.Idx → EReal) (ix2 a k) := by
  obtain ⟨-, -, -, -, e0, e1, -⟩ := index_maps1 t
  unfold iblk1
  rw [View.read_apply]
  show V c main_v31 _ = V c main_v31 _
  congr 1
  funext b
  apply Fin.ext
  match b with
  | ⟨0, _⟩ => show win1_2.index t (0 : Fin 2) * 1024 + 1 * p.val = a.val; omega
  | ⟨1, _⟩ => show win1_2.index t (1 : Fin 2) * 512 + 1 * k.val = k.val; omega

/-- The weight's one block is the weight. -/
theorem weight1 (c : Dev nD) (t : Fin cfg1.N) (k q : Fin 512) :
    (iblk1 V c 3 t : Vec Ideal S512x512 .f32) (ix2 k q) = (V c main_v46 : S512x512.Idx → EReal) (ix2 k q) := by
  obtain ⟨-, -, -, -, -, -, e0, e1, -⟩ := index_maps1 t
  unfold iblk1
  rw [View.read_apply]
  show V c main_v46 _ = V c main_v46 _
  congr 1
  funext b
  apply Fin.ext
  match b with
  | ⟨0, _⟩ => show win1_3.index t (0 : Fin 2) * 512 + 1 * k.val = k.val; omega
  | ⟨1, _⟩ => show win1_3.index t (1 : Fin 2) * 512 + 1 * q.val = q.val; omega

/-- What point t writes back is block t of the reference's layer of the arrays the region finds. -/
theorem flushed1_eq (c : Dev nD) (t : Fin cfg1.N) :
    (dat1 (F := Ideal) V c).flushed 4 t = ((cfg1.win 4).blk t).view.read (Elt Ideal) (Cert.Spec.gcnii (F := Ideal) (V c main_v44) (V c main_v31) (V c main_v31) (V c main_v46)) := by
  show (cfg1.win 4).cut (grid1.coords t) ((dat1 V c).after 4 t) = _
  rw [after1_4]
  unfold out1_4
  rw [View.canon_unit_zero zero_off1]
  simp only [View.ld_unit_zero (S := S1024x512) zero_off1, View.ld_unit_zero (S := S512x512) zero_off1]
  obtain ⟨-, -, -, -, -, -, -, -, e0, e1⟩ := index_maps1 t
  have ht : t.val < 32 := lt_of_lt_of_eq t.isLt N_1
  funext y
  obtain ⟨p, q, rfl⟩ : ∃ (p : Fin 1024) (q : Fin 512), y = ix2 p q := ⟨y 0, y 1, eq_ix2 y⟩
  have hp : p.val < 1024 := p.isLt
  show k1_pay1 (iblk1 V c 0 t) (iblk1 V c 1 t) (iblk1 V c 2 t) (iblk1 V c 3 t) (ix2 p q)
    = Cert.Spec.gcnii (F := Ideal) (V c main_v44) (V c main_v31) (V c main_v31) (V c main_v46) (((cfg1.win 4).blk t).view.emb (ix2 p q))
  have hemb : ((cfg1.win 4).blk t).view.emb (ix2 p q) = ix2 (⟨1024 * t.val + p.val, by omega⟩ : Fin 32768) q := by
    funext b
    apply Fin.ext
    match b with
    | ⟨0, _⟩ => show win1_4.index t (0 : Fin 2) * 1024 + 1 * p.val = 1024 * t.val + p.val; omega
    | ⟨1, _⟩ => show win1_4.index t (1 : Fin 2) * 512 + 1 * q.val = q.val; omega
  rw [hemb, k1_pay1_eq]
  exact gcnii_block _ _ _ _ _ _ _ _ (1024 * t.val) (rows1_0 V c t) (rows1_1 V c t) (rows1_2 V c t) (weight1 V c t) p q _ rfl

/-- An index of the output array is in point t's block iff each coordinate is in the block's range on its axis. -/
theorem mem_blk1 (t : Fin cfg1.N) (i : S32768x512.Idx) :
    i ∈ ((cfg1.win 4).blk t).view.set ↔ ∀ a : Fin 2, win1_4.index t a * S1024x512.size a ≤ (i a).val ∧ (i a).val < win1_4.index t a * S1024x512.size a + S1024x512.size a := by
  show i ∈ ((View.whole main_v47).slice (win1_4.rect t)).set ↔ _
  rw [View.set_slice_whole, Rect.mem_set_unit]
  exact Iff.rfl

/-- Every row of the output array is in some point's block: row r in block r / 1024. -/
theorem covered1 (i : S32768x512.Idx) : ∃ t : Fin cfg1.N, (cfg1.win 4).flush t = true ∧ i ∈ ((cfg1.win 4).blk t).view.set := by
  have hi0 : (i 0).val < 32768 := (i 0).isLt
  have hi1 : (i 1).val < 512 := (i 1).isLt
  let t : Fin cfg1.N := ⟨(i 0).val / 1024, lt_of_lt_of_eq (show (i 0).val / 1024 < 32 by omega) N_1.symm⟩
  obtain ⟨-, -, -, -, -, -, -, -, e0, e1⟩ := index_maps1 t
  have htv : t.val = (i 0).val / 1024 := rfl
  refine ⟨t, flush1_4 t, ?_⟩
  rw [mem_blk1]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 512 ≤ (i 1).val ∧ (i 1).val < win1_4.index t (1 : Fin 2) * 512 + 512; omega

/-- The output array after all the write-backs is the reference's layer of the arrays the region finds. -/
theorem val1 (c : Dev nD) :
    (dat1 (F := Ideal) V c).arrAt 4 cfg1.N = Cert.Spec.gcnii (F := Ideal) (V c main_v44) (V c main_v31) (V c main_v31) (V c main_v46) :=
  (dat1 (F := Ideal) V c).arrAt_eq_of_cover 4 _ (fun t _ => flushed1_eq V c t) (covered1)

end Cert.KernelIdeal.Rg

end
-- ==== Proof.KI.Val2.lean ====
/-
  Region 2, a graph layer: the layer's output array after all 32 write-backs is the reference's layer
  relu(s + s·w) + prev, s = 0.8·agg + 0.2·h0, of the arrays the region's input windows read. Grid point t
  works on rows 1024·t … 1024·t + 1023 (all 512 columns) of the three row inputs and of the output, and on
  the whole weight; the 32 blocks of rows cover the array.
-/
import proofs.«109784_j28140625724052_1_alg».proof.Proof.KI.Rg2
import proofs.«109784_j28140625724052_1_alg».proof.Proof.KI.ValBLib
import proofs.«109784_j28140625724052_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Rg

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open Gcnii

variable (V : (c : Dev nD) → (b : Ref sig .tc) → Buf (Elt Ideal) ((c : Thread nD τ).loc b))

/-- The zero offsets of a whole-block load or store. -/
theorem zero_off2 : (![0, 0] : Fin 2 → Nat) = fun _ => 0 := funext fun a => by fin_cases a <;> rfl

/-- The index maps over the grid: at point t the three row inputs and the output sit at block (t, 0), the weight at block (0, 0). -/
theorem index_maps2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row p of the aggregated messages' block at point t is row 1024·t + p of the array. -/
theorem rows2_0 (c : Dev nD) (t : Fin cfg2.N) (p : Fin 1024) (k : Fin 512) (a : Fin 32768) (ha : a.val = 1024 * t.val + p.val) :
    (iblk2 V c 0 t : Vec Ideal S1024x512 .f32) (ix2 p k) = (V c main_v60 : S32768x512.Idx → EReal) (ix2 a k) := by
  obtain ⟨e0, e1, -⟩ := index_maps2 t
  unfold iblk2
  rw [View.read_apply]
  show V c main_v60 _ = V c main_v60 _
  congr 1
  funext b
  apply Fin.ext
  match b with
  | ⟨0, _⟩ => show win2_0.index t (0 : Fin 2) * 1024 + 1 * p.val = a.val; omega
  | ⟨1, _⟩ => show win2_0.index t (1 : Fin 2) * 512 + 1 * k.val = k.val; omega

/-- Row p of the first layer's output's block at point t is row 1024·t + p of the array. -/
theorem rows2_1 (c : Dev nD) (t : Fin cfg2.N) (p : Fin 1024) (k : Fin 512) (a : Fin 32768) (ha : a.val = 1024 * t.val + p.val) :
    (iblk2 V c 1 t : Vec Ideal S1024x512 .f32) (ix2 p k) = (V c main_v31 : S32768x512.Idx → EReal) (ix2 a k) := by
  obtain ⟨-, -, e0, e1, -⟩ := index_maps2 t
  unfold iblk2
  rw [View.read_apply]
  show V c main_v31 _ = V c main_v31 _
  congr 1
  funext b
  apply Fin.ext
  match b with
  | ⟨0, _⟩ => show win2_1.index t (0 : Fin 2) * 1024 + 1 * p.val = a.val; omega
  | ⟨1, _⟩ => show win2_1.index t (1 : Fin 2) * 512 + 1 * k.val = k.val; omega

/-- Row p of the previous layer's output's block at point t is row 1024·t + p of the array. -/
theorem rows2_2 (c : Dev nD) (t : Fin cfg2.N) (p : Fin 1024) (k : Fin 512) (a : Fin 32768) (ha : a.val = 1024 * t.val + p.val) :
    (iblk2 V c 2 t : Vec Ideal S1024x512 .f32) (ix2 p k) = (V c main_v47 : S32768x512.Idx → EReal) (ix2 a k) := by
  obtain ⟨-, -, -, -, e0, e1, -⟩ := index_maps2 t
  unfold iblk2
  rw [View.read_apply]
  show V c main_v47 _ = V c main_v47 _
  congr 1
  funext b
  apply Fin.ext
  match b with
  | ⟨0, _⟩ => show win2_2.index t (0 : Fin 2) * 1024 + 1 * p.val = a.val; omega
  | ⟨1, _⟩ => show win2_2.index t (1 : Fin 2) * 512 + 1 * k.val = k.val; omega

/-- The weight's one block is the weight. -/
theorem weight2 (c : Dev nD) (t : Fin cfg2.N) (k q : Fin 512) :
    (iblk2 V c 3 t : Vec Ideal S512x512 .f32) (ix2 k q) = (V c main_v62 : S512x512.Idx → EReal) (ix2 k q) := by
  obtain ⟨-, -, -, -, -, -, e0, e1, -⟩ := index_maps2 t
  unfold iblk2
  rw [View.read_apply]
  show V c main_v62 _ = V c main_v62 _
  congr 1
  funext b
  apply Fin.ext
  match b with
  | ⟨0, _⟩ => show win2_3.index t (0 : Fin 2) * 512 + 1 * k.val = k.val; omega
  | ⟨1, _⟩ => show win2_3.index t (1 : Fin 2) * 512 + 1 * q.val = q.val; omega

/-- What point t writes back is block t of the reference's layer of the arrays the region finds. -/
theorem flushed2_eq (c : Dev nD) (t : Fin cfg2.N) :
    (dat2 (F := Ideal) V c).flushed 4 t = ((cfg2.win 4).blk t).view.read (Elt Ideal) (Cert.Spec.gcnii (F := Ideal) (V c main_v60) (V c main_v31) (V c main_v47) (V c main_v62)) := by
  show (cfg2.win 4).cut (grid2.coords t) ((dat2 V c).after 4 t) = _
  rw [after2_4]
  unfold out2_4
  rw [View.canon_unit_zero zero_off2]
  simp only [View.ld_unit_zero (S := S1024x512) zero_off2, View.ld_unit_zero (S := S512x512) zero_off2]
  obtain ⟨-, -, -, -, -, -, -, -, e0, e1⟩ := index_maps2 t
  have ht : t.val < 32 := lt_of_lt_of_eq t.isLt N_2
  funext y
  obtain ⟨p, q, rfl⟩ : ∃ (p : Fin 1024) (q : Fin 512), y = ix2 p q := ⟨y 0, y 1, eq_ix2 y⟩
  have hp : p.val < 1024 := p.isLt
  show k2_pay1 (iblk2 V c 0 t) (iblk2 V c 1 t) (iblk2 V c 2 t) (iblk2 V c 3 t) (ix2 p q)
    = Cert.Spec.gcnii (F := Ideal) (V c main_v60) (V c main_v31) (V c main_v47) (V c main_v62) (((cfg2.win 4).blk t).view.emb (ix2 p q))
  have hemb : ((cfg2.win 4).blk t).view.emb (ix2 p q) = ix2 (⟨1024 * t.val + p.val, by omega⟩ : Fin 32768) q := by
    funext b
    apply Fin.ext
    match b with
    | ⟨0, _⟩ => show win2_4.index t (0 : Fin 2) * 1024 + 1 * p.val = 1024 * t.val + p.val; omega
    | ⟨1, _⟩ => show win2_4.index t (1 : Fin 2) * 512 + 1 * q.val = q.val; omega
  rw [hemb]
  exact gcnii_block _ _ _ _ _ _ _ _ (1024 * t.val) (rows2_0 V c t) (rows2_1 V c t) (rows2_2 V c t) (weight2 V c t) p q _ rfl

/-- An index of the output array is in point t's block iff each coordinate is in the block's range on its axis. -/
theorem mem_blk2 (t : Fin cfg2.N) (i : S32768x512.Idx) :
    i ∈ ((cfg2.win 4).blk t).view.set ↔ ∀ a : Fin 2, win2_4.index t a * S1024x512.size a ≤ (i a).val ∧ (i a).val < win2_4.index t a * S1024x512.size a + S1024x512.size a := by
  show i ∈ ((View.whole main_v63).slice (win2_4.rect t)).set ↔ _
  rw [View.set_slice_whole, Rect.mem_set_unit]
  exact Iff.rfl

/-- Every row of the output array is in some point's block: row r in block r / 1024. -/
theorem covered2 (i : S32768x512.Idx) : ∃ t : Fin cfg2.N, (cfg2.win 4).flush t = true ∧ i ∈ ((cfg2.win 4).blk t).view.set := by
  have hi0 : (i 0).val < 32768 := (i 0).isLt
  have hi1 : (i 1).val < 512 := (i 1).isLt
  let t : Fin cfg2.N := ⟨(i 0).val / 1024, lt_of_lt_of_eq (show (i 0).val / 1024 < 32 by omega) N_2.symm⟩
  obtain ⟨-, -, -, -, -, -, -, -, e0, e1⟩ := index_maps2 t
  have htv : t.val = (i 0).val / 1024 := rfl
  refine ⟨t, flush2_4 t, ?_⟩
  rw [mem_blk2]
  intro a
  match a with
  | ⟨0, _⟩ => show win2_4.index t (0 : Fin 2) * 1024 ≤ (i 0).val ∧ (i 0).val < win2_4.index t (0 : Fin 2) * 1024 + 1024; omega
  | ⟨1, _⟩ => show win2_4.index t (1 : Fin 2) * 512 ≤ (i 1).val ∧ (i 1).val < win2_4.index t (1 : Fin 2) * 512 + 512; omega

/-- The output array after all the write-backs is the reference's layer of the arrays the region finds. -/
theorem val2 (c : Dev nD) :
    (dat2 (F := Ideal) V c).arrAt 4 cfg2.N = Cert.Spec.gcnii (F := Ideal) (V c main_v60) (V c main_v31) (V c main_v47) (V c main_v62) :=
  (dat2 (F := Ideal) V c).arrAt_eq_of_cover 4 _ (fun t _ => flushed2_eq V c t) (covered2)

end Cert.KernelIdeal.Rg

end
-- ==== Proof.KI.Val3.lean ====
/-
  Region 3, a graph layer: the layer's output array after all 32 write-backs is the reference's layer
  relu(s + s·w) + prev, s = 0.8·agg + 0.2·h0, of the arrays the region's input windows read. Grid point t
  works on rows 1024·t … 1024·t + 1023 (all 512 columns) of the three row inputs and of the output, and on
  the whole weight; the 32 blocks of rows cover the array.
-/
import proofs.«109784_j28140625724052_1_alg».proof.Proof.KI.Rg3
import proofs.«109784_j28140625724052_1_alg».proof.Proof.KI.ValBLib
import proofs.«109784_j28140625724052_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Rg

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open Gcnii

variable (V : (c : Dev nD) → (b : Ref sig .tc) → Buf (Elt Ideal) ((c : Thread nD τ).loc b))

/-- The zero offsets of a whole-block load or store. -/
theorem zero_off3 : (![0, 0] : Fin 2 → Nat) = fun _ => 0 := funext fun a => by fin_cases a <;> rfl

/-- The index maps over the grid: at point t the three row inputs and the output sit at block (t, 0), the weight at block (0, 0). -/
theorem index_maps3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row p of the aggregated messages' block at point t is row 1024·t + p of the array. -/
theorem rows3_0 (c : Dev nD) (t : Fin cfg3.N) (p : Fin 1024) (k : Fin 512) (a : Fin 32768) (ha : a.val = 1024 * t.val + p.val) :
    (iblk3 V c 0 t : Vec Ideal S1024x512 .f32) (ix2 p k) = (V c main_v76 : S32768x512.Idx → EReal) (ix2 a k) := by
  obtain ⟨e0, e1, -⟩ := index_maps3 t
  unfold iblk3
  rw [View.read_apply]
  show V c main_v76 _ = V c main_v76 _
  congr 1
  funext b
  apply Fin.ext
  match b with
  | ⟨0, _⟩ => show win3_0.index t (0 : Fin 2) * 1024 + 1 * p.val = a.val; omega
  | ⟨1, _⟩ => show win3_0.index t (1 : Fin 2) * 512 + 1 * k.val = k.val; omega

/-- Row p of the first layer's output's block at point t is row 1024·t + p of the array. -/
theorem rows3_1 (c : Dev nD) (t : Fin cfg3.N) (p : Fin 1024) (k : Fin 512) (a : Fin 32768) (ha : a.val = 1024 * t.val + p.val) :
    (iblk3 V c 1 t : Vec Ideal S1024x512 .f32) (ix2 p k) = (V c main_v31 : S32768x512.Idx → EReal) (ix2 a k) := by
  obtain ⟨-, -, e0, e1, -⟩ := index_maps3 t
  unfold iblk3
  rw [View.read_apply]
  show V c main_v31 _ = V c main_v31 _
  congr 1
  funext b
  apply Fin.ext
  match b with
  | ⟨0, _⟩ => show win3_1.index t (0 : Fin 2) * 1024 + 1 * p.val = a.val; omega
  | ⟨1, _⟩ => show win3_1.index t (1 : Fin 2) * 512 + 1 * k.val = k.val; omega

/-- Row p of the previous layer's output's block at point t is row 1024·t + p of the array. -/
theorem rows3_2 (c : Dev nD) (t : Fin cfg3.N) (p : Fin 1024) (k : Fin 512) (a : Fin 32768) (ha : a.val = 1024 * t.val + p.val) :
    (iblk3 V c 2 t : Vec Ideal S1024x512 .f32) (ix2 p k) = (V c main_v63 : S32768x512.Idx → EReal) (ix2 a k) := by
  obtain ⟨-, -, -, -, e0, e1, -⟩ := index_maps3 t
  unfold iblk3
  rw [View.read_apply]
  show V c main_v63 _ = V c main_v63 _
  congr 1
  funext b
  apply Fin.ext
  match b with
  | ⟨0, _⟩ => show win3_2.index t (0 : Fin 2) * 1024 + 1 * p.val = a.val; omega
  | ⟨1, _⟩ => show win3_2.index t (1 : Fin 2) * 512 + 1 * k.val = k.val; omega

/-- The weight's one block is the weight. -/
theorem weight3 (c : Dev nD) (t : Fin cfg3.N) (k q : Fin 512) :
    (iblk3 V c 3 t : Vec Ideal S512x512 .f32) (ix2 k q) = (V c main_v78 : S512x512.Idx → EReal) (ix2 k q) := by
  obtain ⟨-, -, -, -, -, -, e0, e1, -⟩ := index_maps3 t
  unfold iblk3
  rw [View.read_apply]
  show V c main_v78 _ = V c main_v78 _
  congr 1
  funext b
  apply Fin.ext
  match b with
  | ⟨0, _⟩ => show win3_3.index t (0 : Fin 2) * 512 + 1 * k.val = k.val; omega
  | ⟨1, _⟩ => show win3_3.index t (1 : Fin 2) * 512 + 1 * q.val = q.val; omega

/-- What point t writes back is block t of the reference's layer of the arrays the region finds. -/
theorem flushed3_eq (c : Dev nD) (t : Fin cfg3.N) :
    (dat3 (F := Ideal) V c).flushed 4 t = ((cfg3.win 4).blk t).view.read (Elt Ideal) (Cert.Spec.gcnii (F := Ideal) (V c main_v76) (V c main_v31) (V c main_v63) (V c main_v78)) := by
  show (cfg3.win 4).cut (grid3.coords t) ((dat3 V c).after 4 t) = _
  rw [after3_4]
  unfold out3_4
  rw [View.canon_unit_zero zero_off3]
  simp only [View.ld_unit_zero (S := S1024x512) zero_off3, View.ld_unit_zero (S := S512x512) zero_off3]
  obtain ⟨-, -, -, -, -, -, -, -, e0, e1⟩ := index_maps3 t
  have ht : t.val < 32 := lt_of_lt_of_eq t.isLt N_3
  funext y
  obtain ⟨p, q, rfl⟩ : ∃ (p : Fin 1024) (q : Fin 512), y = ix2 p q := ⟨y 0, y 1, eq_ix2 y⟩
  have hp : p.val < 1024 := p.isLt
  show k3_pay1 (iblk3 V c 0 t) (iblk3 V c 1 t) (iblk3 V c 2 t) (iblk3 V c 3 t) (ix2 p q)
    = Cert.Spec.gcnii (F := Ideal) (V c main_v76) (V c main_v31) (V c main_v63) (V c main_v78) (((cfg3.win 4).blk t).view.emb (ix2 p q))
  have hemb : ((cfg3.win 4).blk t).view.emb (ix2 p q) = ix2 (⟨1024 * t.val + p.val, by omega⟩ : Fin 32768) q := by
    funext b
    apply Fin.ext
    match b with
    | ⟨0, _⟩ => show win3_4.index t (0 : Fin 2) * 1024 + 1 * p.val = 1024 * t.val + p.val; omega
    | ⟨1, _⟩ => show win3_4.index t (1 : Fin 2) * 512 + 1 * q.val = q.val; omega
  rw [hemb, k3_pay1_eq]
  exact gcnii_block _ _ _ _ _ _ _ _ (1024 * t.val) (rows3_0 V c t) (rows3_1 V c t) (rows3_2 V c t) (weight3 V c t) p q _ rfl

/-- An index of the output array is in point t's block iff each coordinate is in the block's range on its axis. -/
theorem mem_blk3 (t : Fin cfg3.N) (i : S32768x512.Idx) :
    i ∈ ((cfg3.win 4).blk t).view.set ↔ ∀ a : Fin 2, win3_4.index t a * S1024x512.size a ≤ (i a).val ∧ (i a).val < win3_4.index t a * S1024x512.size a + S1024x512.size a := by
  show i ∈ ((View.whole main_v79).slice (win3_4.rect t)).set ↔ _
  rw [View.set_slice_whole, Rect.mem_set_unit]
  exact Iff.rfl

/-- Every row of the output array is in some point's block: row r in block r / 1024. -/
theorem covered3 (i : S32768x512.Idx) : ∃ t : Fin cfg3.N, (cfg3.win 4).flush t = true ∧ i ∈ ((cfg3.win 4).blk t).view.set := by
  have hi0 : (i 0).val < 32768 := (i 0).isLt
  have hi1 : (i 1).val < 512 := (i 1).isLt
  let t : Fin cfg3.N := ⟨(i 0).val / 1024, lt_of_lt_of_eq (show (i 0).val / 1024 < 32 by omega) N_3.symm⟩
  obtain ⟨-, -, -, -, -, -, -, -, e0, e1⟩ := index_maps3 t
  have htv : t.val = (i 0).val / 1024 := rfl
  refine ⟨t, flush3_4 t, ?_⟩
  rw [mem_blk3]
  intro a
  match a with
  | ⟨0, _⟩ => show win3_4.index t (0 : Fin 2) * 1024 ≤ (i 0).val ∧ (i 0).val < win3_4.index t (0 : Fin 2) * 1024 + 1024; omega
  | ⟨1, _⟩ => show win3_4.index t (1 : Fin 2) * 512 ≤ (i 1).val ∧ (i 1).val < win3_4.index t (1 : Fin 2) * 512 + 512; omega

/-- The output array after all the write-backs is the reference's layer of the arrays the region finds. -/
theorem val3 (c : Dev nD) :
    (dat3 (F := Ideal) V c).arrAt 4 cfg3.N = Cert.Spec.gcnii (F := Ideal) (V c main_v76) (V c main_v31) (V c main_v63) (V c main_v78) :=
  (dat3 (F := Ideal) V c).arrAt_eq_of_cover 4 _ (fun t _ => flushed3_eq V c t) (covered3)

end Cert.KernelIdeal.Rg

end
-- ==== Proof.KI.Val6.lean ====
/-
  Region 6, a graph layer: the layer's output array after all 32 write-backs is the reference's layer
  relu(s + s·w) + prev, s = 0.8·agg + 0.2·h0, of the arrays the region's input windows read. Grid point t
  works on rows 1024·t … 1024·t + 1023 (all 512 columns) of the three row inputs and of the output, and on
  the whole weight; the 32 blocks of rows cover the array.
-/
import proofs.«109784_j28140625724052_1_alg».proof.Proof.KI.Rg6
import proofs.«109784_j28140625724052_1_alg».proof.Proof.KI.ValBLib
import proofs.«109784_j28140625724052_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Rg

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open Gcnii

variable (V : (c : Dev nD) → (b : Ref sig .tc) → Buf (Elt Ideal) ((c : Thread nD τ).loc b))

/-- The zero offsets of a whole-block load or store. -/
theorem zero_off6 : (![0, 0] : Fin 2 → Nat) = fun _ => 0 := funext fun a => by fin_cases a <;> rfl

/-- The index maps over the grid: at point t the three row inputs and the output sit at block (t, 0), the weight at block (0, 0). -/
theorem index_maps6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- Row p of the aggregated messages' block at point t is row 1024·t + p of the array. -/
theorem rows6_0 (c : Dev nD) (t : Fin cfg6.N) (p : Fin 1024) (k : Fin 512) (a : Fin 32768) (ha : a.val = 1024 * t.val + p.val) :
    (iblk6 V c 0 t : Vec Ideal S1024x512 .f32) (ix2 p k) = (V c main_v126 : S32768x512.Idx → EReal) (ix2 a k) := by
  obtain ⟨e0, e1, -⟩ := index_maps6 t
  unfold iblk6
  rw [View.read_apply]
  show V c main_v126 _ = V c main_v126 _
  congr 1
  funext b
  apply Fin.ext
  match b with
  | ⟨0, _⟩ => show win6_0.index t (0 : Fin 2) * 1024 + 1 * p.val = a.val; omega
  | ⟨1, _⟩ => show win6_0.index t (1 : Fin 2) * 512 + 1 * k.val = k.val; omega

/-- Row p of the first layer's output's block at point t is row 1024·t + p of the array. -/
theorem rows6_1 (c : Dev nD) (t : Fin cfg6.N) (p : Fin 1024) (k : Fin 512) (a : Fin 32768) (ha : a.val = 1024 * t.val + p.val) :
    (iblk6 V c 1 t : Vec Ideal S1024x512 .f32) (ix2 p k) = (V c main_v113 : S32768x512.Idx → EReal) (ix2 a k) := by
  obtain ⟨-, -, e0, e1, -⟩ := index_maps6 t
  unfold iblk6
  rw [View.read_apply]
  show V c main_v113 _ = V c main_v113 _
  congr 1
  funext b
  apply Fin.ext
  match b with
  | ⟨0, _⟩ => show win6_1.index t (0 : Fin 2) * 1024 + 1 * p.val = a.val; omega
  | ⟨1, _⟩ => show win6_1.index t (1 : Fin 2) * 512 + 1 * k.val = k.val; omega

/-- Row p of the previous layer's output's block at point t is row 1024·t + p of the array. -/
theorem rows6_2 (c : Dev nD) (t : Fin cfg6.N) (p : Fin 1024) (k : Fin 512) (a : Fin 32768) (ha : a.val = 1024 * t.val + p.val) :
    (iblk6 V c 2 t : Vec Ideal S1024x512 .f32) (ix2 p k) = (V c main_v113 : S32768x512.Idx → EReal) (ix2 a k) := by
  obtain ⟨-, -, -, -, e0, e1, -⟩ := index_maps6 t
  unfold iblk6
  rw [View.read_apply]
  show V c main_v113 _ = V c main_v113 _
  congr 1
  funext b
  apply Fin.ext
  match b with
  | ⟨0, _⟩ => show win6_2.index t (0 : Fin 2) * 1024 + 1 * p.val = a.val; omega
  | ⟨1, _⟩ => show win6_2.index t (1 : Fin 2) * 512 + 1 * k.val = k.val; omega

/-- The weight's one block is the weight. -/
theorem weight6 (c : Dev nD) (t : Fin cfg6.N) (k q : Fin 512) :
    (iblk6 V c 3 t : Vec Ideal S512x512 .f32) (ix2 k q) = (V c main_v128 : S512x512.Idx → EReal) (ix2 k q) := by
  obtain ⟨-, -, -, -, -, -, e0, e1, -⟩ := index_maps6 t
  unfold iblk6
  rw [View.read_apply]
  show V c main_v128 _ = V c main_v128 _
  congr 1
  funext b
  apply Fin.ext
  match b with
  | ⟨0, _⟩ => show win6_3.index t (0 : Fin 2) * 512 + 1 * k.val = k.val; omega
  | ⟨1, _⟩ => show win6_3.index t (1 : Fin 2) * 512 + 1 * q.val = q.val; omega

/-- What point t writes back is block t of the reference's layer of the arrays the region finds. -/
theorem flushed6_eq (c : Dev nD) (t : Fin cfg6.N) :
    (dat6 (F := Ideal) V c).flushed 4 t = ((cfg6.win 4).blk t).view.read (Elt Ideal) (Cert.Spec.gcnii (F := Ideal) (V c main_v126) (V c main_v113) (V c main_v113) (V c main_v128)) := by
  show (cfg6.win 4).cut (grid6.coords t) ((dat6 V c).after 4 t) = _
  rw [after6_4]
  unfold out6_4
  rw [View.canon_unit_zero zero_off6]
  simp only [View.ld_unit_zero (S := S1024x512) zero_off6, View.ld_unit_zero (S := S512x512) zero_off6]
  obtain ⟨-, -, -, -, -, -, -, -, e0, e1⟩ := index_maps6 t
  have ht : t.val < 32 := lt_of_lt_of_eq t.isLt N_6
  funext y
  obtain ⟨p, q, rfl⟩ : ∃ (p : Fin 1024) (q : Fin 512), y = ix2 p q := ⟨y 0, y 1, eq_ix2 y⟩
  have hp : p.val < 1024 := p.isLt
  show k6_pay1 (iblk6 V c 0 t) (iblk6 V c 1 t) (iblk6 V c 2 t) (iblk6 V c 3 t) (ix2 p q)
    = Cert.Spec.gcnii (F := Ideal) (V c main_v126) (V c main_v113) (V c main_v113) (V c main_v128) (((cfg6.win 4).blk t).view.emb (ix2 p q))
  have hemb : ((cfg6.win 4).blk t).view.emb (ix2 p q) = ix2 (⟨1024 * t.val + p.val, by omega⟩ : Fin 32768) q := by
    funext b
    apply Fin.ext
    match b with
    | ⟨0, _⟩ => show win6_4.index t (0 : Fin 2) * 1024 + 1 * p.val = 1024 * t.val + p.val; omega
    | ⟨1, _⟩ => show win6_4.index t (1 : Fin 2) * 512 + 1 * q.val = q.val; omega
  rw [hemb, k6_pay1_eq]
  exact gcnii_block _ _ _ _ _ _ _ _ (1024 * t.val) (rows6_0 V c t) (rows6_1 V c t) (rows6_2 V c t) (weight6 V c t) p q _ rfl

/-- An index of the output array is in point t's block iff each coordinate is in the block's range on its axis. -/
theorem mem_blk6 (t : Fin cfg6.N) (i : S32768x512.Idx) :
    i ∈ ((cfg6.win 4).blk t).view.set ↔ ∀ a : Fin 2, win6_4.index t a * S1024x512.size a ≤ (i a).val ∧ (i a).val < win6_4.index t a * S1024x512.size a + S1024x512.size a := by
  show i ∈ ((View.whole main_v129).slice (win6_4.rect t)).set ↔ _
  rw [View.set_slice_whole, Rect.mem_set_unit]
  exact Iff.rfl

/-- Every row of the output array is in some point's block: row r in block r / 1024. -/
theorem covered6 (i : S32768x512.Idx) : ∃ t : Fin cfg6.N, (cfg6.win 4).flush t = true ∧ i ∈ ((cfg6.win 4).blk t).view.set := by
  have hi0 : (i 0).val < 32768 := (i 0).isLt
  have hi1 : (i 1).val < 512 := (i 1).isLt
  let t : Fin cfg6.N := ⟨(i 0).val / 1024, lt_of_lt_of_eq (show (i 0).val / 1024 < 32 by omega) N_6.symm⟩
  obtain ⟨-, -, -, -, -, -, -, -, e0, e1⟩ := index_maps6 t
  have htv : t.val = (i 0).val / 1024 := rfl
  refine ⟨t, flush6_4 t, ?_⟩
  rw [mem_blk6]
  intro a
  match a with
  | ⟨0, _⟩ => show win6_4.index t (0 : Fin 2) * 1024 ≤ (i 0).val ∧ (i 0).val < win6_4.index t (0 : Fin 2) * 1024 + 1024; omega
  | ⟨1, _⟩ => show win6_4.index t (1 : Fin 2) * 512 ≤ (i 1).val ∧ (i 1).val < win6_4.index t (1 : Fin 2) * 512 + 512; omega

/-- The output array after all the write-backs is the reference's layer of the arrays the region finds. -/
theorem val6 (c : Dev nD) :
    (dat6 (F := Ideal) V c).arrAt 4 cfg6.N = Cert.Spec.gcnii (F := Ideal) (V c main_v126) (V c main_v113) (V c main_v113) (V c main_v128) :=
  (dat6 (F := Ideal) V c).arrAt_eq_of_cover 4 _ (fun t _ => flushed6_eq V c t) (covered6)

end Cert.KernelIdeal.Rg

end
-- ==== Proof.KI.Val7.lean ====
/-
  Region 7, a graph layer: the layer's output array after all 32 write-backs is the reference's layer
  relu(s + s·w) + prev, s = 0.8·agg + 0.2·h0, of the arrays the region's input windows read. Grid point t
  works on rows 1024·t … 1024·t + 1023 (all 512 columns) of the three row inputs and of the output, and on
  the whole weight; the 32 blocks of rows cover the array.
-/
import proofs.«109784_j28140625724052_1_alg».proof.Proof.KI.Rg7
import proofs.«109784_j28140625724052_1_alg».proof.Proof.KI.ValBLib
import proofs.«109784_j28140625724052_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Rg

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open Gcnii

variable (V : (c : Dev nD) → (b : Ref sig .tc) → Buf (Elt Ideal) ((c : Thread nD τ).loc b))

/-- The zero offsets of a whole-block load or store. -/
theorem zero_off7 : (![0, 0] : Fin 2 → Nat) = fun _ => 0 := funext fun a => by fin_cases a <;> rfl

/-- The index maps over the grid: at point t the three row inputs and the output sit at block (t, 0), the weight at block (0, 0). -/
theorem index_maps7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- Row p of the aggregated messages' block at point t is row 1024·t + p of the array. -/
theorem rows7_0 (c : Dev nD) (t : Fin cfg7.N) (p : Fin 1024) (k : Fin 512) (a : Fin 32768) (ha : a.val = 1024 * t.val + p.val) :
    (iblk7 V c 0 t : Vec Ideal S1024x512 .f32) (ix2 p k) = (V c main_v142 : S32768x512.Idx → EReal) (ix2 a k) := by
  obtain ⟨e0, e1, -⟩ := index_maps7 t
  unfold iblk7
  rw [View.read_apply]
  show V c main_v142 _ = V c main_v142 _
  congr 1
  funext b
  apply Fin.ext
  match b with
  | ⟨0, _⟩ => show win7_0.index t (0 : Fin 2) * 1024 + 1 * p.val = a.val; omega
  | ⟨1, _⟩ => show win7_0.index t (1 : Fin 2) * 512 + 1 * k.val = k.val; omega

/-- Row p of the first layer's output's block at point t is row 1024·t + p of the array. -/
theorem rows7_1 (c : Dev nD) (t : Fin cfg7.N) (p : Fin 1024) (k : Fin 512) (a : Fin 32768) (ha : a.val = 1024 * t.val + p.val) :
    (iblk7 V c 1 t : Vec Ideal S1024x512 .f32) (ix2 p k) = (V c main_v113 : S32768x512.Idx → EReal) (ix2 a k) := by
  obtain ⟨-, -, e0, e1, -⟩ := index_maps7 t
  unfold iblk7
  rw [View.read_apply]
  show V c main_v113 _ = V c main_v113 _
  congr 1
  funext b
  apply Fin.ext
  match b with
  | ⟨0, _⟩ => show win7_1.index t (0 : Fin 2) * 1024 + 1 * p.val = a.val; omega
  | ⟨1, _⟩ => show win7_1.index t (1 : Fin 2) * 512 + 1 * k.val = k.val; omega

/-- Row p of the previous layer's output's block at point t is row 1024·t + p of the array. -/
theorem rows7_2 (c : Dev nD) (t : Fin cfg7.N) (p : Fin 1024) (k : Fin 512) (a : Fin 32768) (ha : a.val = 1024 * t.val + p.val) :
    (iblk7 V c 2 t : Vec Ideal S1024x512 .f32) (ix2 p k) = (V c main_v129 : S32768x512.Idx → EReal) (ix2 a k) := by
  obtain ⟨-, -, -, -, e0, e1, -⟩ := index_maps7 t
  unfold iblk7
  rw [View.read_apply]
  show V c main_v129 _ = V c main_v129 _
  congr 1
  funext b
  apply Fin.ext
  match b with
  | ⟨0, _⟩ => show win7_2.index t (0 : Fin 2) * 1024 + 1 * p.val = a.val; omega
  | ⟨1, _⟩ => show win7_2.index t (1 : Fin 2) * 512 + 1 * k.val = k.val; omega

/-- The weight's one block is the weight. -/
theorem weight7 (c : Dev nD) (t : Fin cfg7.N) (k q : Fin 512) :
    (iblk7 V c 3 t : Vec Ideal S512x512 .f32) (ix2 k q) = (V c main_v144 : S512x512.Idx → EReal) (ix2 k q) := by
  obtain ⟨-, -, -, -, -, -, e0, e1, -⟩ := index_maps7 t
  unfold iblk7
  rw [View.read_apply]
  show V c main_v144 _ = V c main_v144 _
  congr 1
  funext b
  apply Fin.ext
  match b with
  | ⟨0, _⟩ => show win7_3.index t (0 : Fin 2) * 512 + 1 * k.val = k.val; omega
  | ⟨1, _⟩ => show win7_3.index t (1 : Fin 2) * 512 + 1 * q.val = q.val; omega

/-- What point t writes back is block t of the reference's layer of the arrays the region finds. -/
theorem flushed7_eq (c : Dev nD) (t : Fin cfg7.N) :
    (dat7 (F := Ideal) V c).flushed 4 t = ((cfg7.win 4).blk t).view.read (Elt Ideal) (Cert.Spec.gcnii (F := Ideal) (V c main_v142) (V c main_v113) (V c main_v129) (V c main_v144)) := by
  show (cfg7.win 4).cut (grid7.coords t) ((dat7 V c).after 4 t) = _
  rw [after7_4]
  unfold out7_4
  rw [View.canon_unit_zero zero_off7]
  simp only [View.ld_unit_zero (S := S1024x512) zero_off7, View.ld_unit_zero (S := S512x512) zero_off7]
  obtain ⟨-, -, -, -, -, -, -, -, e0, e1⟩ := index_maps7 t
  have ht : t.val < 32 := lt_of_lt_of_eq t.isLt N_7
  funext y
  obtain ⟨p, q, rfl⟩ : ∃ (p : Fin 1024) (q : Fin 512), y = ix2 p q := ⟨y 0, y 1, eq_ix2 y⟩
  have hp : p.val < 1024 := p.isLt
  show k7_pay1 (iblk7 V c 0 t) (iblk7 V c 1 t) (iblk7 V c 2 t) (iblk7 V c 3 t) (ix2 p q)
    = Cert.Spec.gcnii (F := Ideal) (V c main_v142) (V c main_v113) (V c main_v129) (V c main_v144) (((cfg7.win 4).blk t).view.emb (ix2 p q))
  have hemb : ((cfg7.win 4).blk t).view.emb (ix2 p q) = ix2 (⟨1024 * t.val + p.val, by omega⟩ : Fin 32768) q := by
    funext b
    apply Fin.ext
    match b with
    | ⟨0, _⟩ => show win7_4.index t (0 : Fin 2) * 1024 + 1 * p.val = 1024 * t.val + p.val; omega
    | ⟨1, _⟩ => show win7_4.index t (1 : Fin 2) * 512 + 1 * q.val = q.val; omega
  rw [hemb, k7_pay1_eq]
  exact gcnii_block _ _ _ _ _ _ _ _ (1024 * t.val) (rows7_0 V c t) (rows7_1 V c t) (rows7_2 V c t) (weight7 V c t) p q _ rfl

/-- An index of the output array is in point t's block iff each coordinate is in the block's range on its axis. -/
theorem mem_blk7 (t : Fin cfg7.N) (i : S32768x512.Idx) :
    i ∈ ((cfg7.win 4).blk t).view.set ↔ ∀ a : Fin 2, win7_4.index t a * S1024x512.size a ≤ (i a).val ∧ (i a).val < win7_4.index t a * S1024x512.size a + S1024x512.size a := by
  show i ∈ ((View.whole main_v145).slice (win7_4.rect t)).set ↔ _
  rw [View.set_slice_whole, Rect.mem_set_unit]
  exact Iff.rfl

/-- Every row of the output array is in some point's block: row r in block r / 1024. -/
theorem covered7 (i : S32768x512.Idx) : ∃ t : Fin cfg7.N, (cfg7.win 4).flush t = true ∧ i ∈ ((cfg7.win 4).blk t).view.set := by
  have hi0 : (i 0).val < 32768 := (i 0).isLt
  have hi1 : (i 1).val < 512 := (i 1).isLt
  let t : Fin cfg7.N := ⟨(i 0).val / 1024, lt_of_lt_of_eq (show (i 0).val / 1024 < 32 by omega) N_7.symm⟩
  obtain ⟨-, -, -, -, -, -, -, -, e0, e1⟩ := index_maps7 t
  have htv : t.val = (i 0).val / 1024 := rfl
  refine ⟨t, flush7_4 t, ?_⟩
  rw [mem_blk7]
  intro a
  match a with
  | ⟨0, _⟩ => show win7_4.index t (0 : Fin 2) * 1024 ≤ (i 0).val ∧ (i 0).val < win7_4.index t (0 : Fin 2) * 1024 + 1024; omega
  | ⟨1, _⟩ => show win7_4.index t (1 : Fin 2) * 512 ≤ (i 1).val ∧ (i 1).val < win7_4.index t (1 : Fin 2) * 512 + 512; omega

/-- The output array after all the write-backs is the reference's layer of the arrays the region finds. -/
theorem val7 (c : Dev nD) :
    (dat7 (F := Ideal) V c).arrAt 4 cfg7.N = Cert.Spec.gcnii (F := Ideal) (V c main_v142) (V c main_v113) (V c main_v129) (V c main_v144) :=
  (dat7 (F := Ideal) V c).arrAt_eq_of_cover 4 _ (fun t _ => flushed7_eq V c t) (covered7)

end Cert.KernelIdeal.Rg

end
-- ==== Proof.KI.Val8.lean ====
/-
  Region 8, a graph layer: the layer's output array after all 32 write-backs is the reference's layer
  relu(s + s·w) + prev, s = 0.8·agg + 0.2·h0, of the arrays the region's input windows read. Grid point t
  works on rows 1024·t … 1024·t + 1023 (all 512 columns) of the three row inputs and of the output, and on
  the whole weight; the 32 blocks of rows cover the array.
-/
import proofs.«109784_j28140625724052_1_alg».proof.Proof.KI.Rg8
import proofs.«109784_j28140625724052_1_alg».proof.Proof.KI.ValBLib
import proofs.«109784_j28140625724052_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Rg

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open Gcnii

variable (V : (c : Dev nD) → (b : Ref sig .tc) → Buf (Elt Ideal) ((c : Thread nD τ).loc b))

/-- The zero offsets of a whole-block load or store. -/
theorem zero_off8 : (![0, 0] : Fin 2 → Nat) = fun _ => 0 := funext fun a => by fin_cases a <;> rfl

/-- The index maps over the grid: at point t the three row inputs and the output sit at block (t, 0), the weight at block (0, 0). -/
theorem index_maps8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0 :=
  (by decide +kernel : ∀ t : Fin grid8.N, _)

/-- Row p of the aggregated messages' block at point t is row 1024·t + p of the array. -/
theorem rows8_0 (c : Dev nD) (t : Fin cfg8.N) (p : Fin 1024) (k : Fin 512) (a : Fin 32768) (ha : a.val = 1024 * t.val + p.val) :
    (iblk8 V c 0 t : Vec Ideal S1024x512 .f32) (ix2 p k) = (V c main_v158 : S32768x512.Idx → EReal) (ix2 a k) := by
  obtain ⟨e0, e1, -⟩ := index_maps8 t
  unfold iblk8
  rw [View.read_apply]
  show V c main_v158 _ = V c main_v158 _
  congr 1
  funext b
  apply Fin.ext
  match b with
  | ⟨0, _⟩ => show win8_0.index t (0 : Fin 2) * 1024 + 1 * p.val = a.val; omega
  | ⟨1, _⟩ => show win8_0.index t (1 : Fin 2) * 512 + 1 * k.val = k.val; omega

/-- Row p of the first layer's output's block at point t is row 1024·t + p of the array. -/
theorem rows8_1 (c : Dev nD) (t : Fin cfg8.N) (p : Fin 1024) (k : Fin 512) (a : Fin 32768) (ha : a.val = 1024 * t.val + p.val) :
    (iblk8 V c 1 t : Vec Ideal S1024x512 .f32) (ix2 p k) = (V c main_v113 : S32768x512.Idx → EReal) (ix2 a k) := by
  obtain ⟨-, -, e0, e1, -⟩ := index_maps8 t
  unfold iblk8
  rw [View.read_apply]
  show V c main_v113 _ = V c main_v113 _
  congr 1
  funext b
  apply Fin.ext
  match b with
  | ⟨0, _⟩ => show win8_1.index t (0 : Fin 2) * 1024 + 1 * p.val = a.val; omega
  | ⟨1, _⟩ => show win8_1.index t (1 : Fin 2) * 512 + 1 * k.val = k.val; omega

/-- Row p of the previous layer's output's block at point t is row 1024·t + p of the array. -/
theorem rows8_2 (c : Dev nD) (t : Fin cfg8.N) (p : Fin 1024) (k : Fin 512) (a : Fin 32768) (ha : a.val = 1024 * t.val + p.val) :
    (iblk8 V c 2 t : Vec Ideal S1024x512 .f32) (ix2 p k) = (V c main_v145 : S32768x512.Idx → EReal) (ix2 a k) := by
  obtain ⟨-, -, -, -, e0, e1, -⟩ := index_maps8 t
  unfold iblk8
  rw [View.read_apply]
  show V c main_v145 _ = V c main_v145 _
  congr 1
  funext b
  apply Fin.ext
  match b with
  | ⟨0, _⟩ => show win8_2.index t (0 : Fin 2) * 1024 + 1 * p.val = a.val; omega
  | ⟨1, _⟩ => show win8_2.index t (1 : Fin 2) * 512 + 1 * k.val = k.val; omega

/-- The weight's one block is the weight. -/
theorem weight8 (c : Dev nD) (t : Fin cfg8.N) (k q : Fin 512) :
    (iblk8 V c 3 t : Vec Ideal S512x512 .f32) (ix2 k q) = (V c main_v160 : S512x512.Idx → EReal) (ix2 k q) := by
  obtain ⟨-, -, -, -, -, -, e0, e1, -⟩ := index_maps8 t
  unfold iblk8
  rw [View.read_apply]
  show V c main_v160 _ = V c main_v160 _
  congr 1
  funext b
  apply Fin.ext
  match b with
  | ⟨0, _⟩ => show win8_3.index t (0 : Fin 2) * 512 + 1 * k.val = k.val; omega
  | ⟨1, _⟩ => show win8_3.index t (1 : Fin 2) * 512 + 1 * q.val = q.val; omega

/-- What point t writes back is block t of the reference's layer of the arrays the region finds. -/
theorem flushed8_eq (c : Dev nD) (t : Fin cfg8.N) :
    (dat8 (F := Ideal) V c).flushed 4 t = ((cfg8.win 4).blk t).view.read (Elt Ideal) (Cert.Spec.gcnii (F := Ideal) (V c main_v158) (V c main_v113) (V c main_v145) (V c main_v160)) := by
  show (cfg8.win 4).cut (grid8.coords t) ((dat8 V c).after 4 t) = _
  rw [after8_4]
  unfold out8_4
  rw [View.canon_unit_zero zero_off8]
  simp only [View.ld_unit_zero (S := S1024x512) zero_off8, View.ld_unit_zero (S := S512x512) zero_off8]
  obtain ⟨-, -, -, -, -, -, -, -, e0, e1⟩ := index_maps8 t
  have ht : t.val < 32 := lt_of_lt_of_eq t.isLt N_8
  funext y
  obtain ⟨p, q, rfl⟩ : ∃ (p : Fin 1024) (q : Fin 512), y = ix2 p q := ⟨y 0, y 1, eq_ix2 y⟩
  have hp : p.val < 1024 := p.isLt
  show k8_pay1 (iblk8 V c 0 t) (iblk8 V c 1 t) (iblk8 V c 2 t) (iblk8 V c 3 t) (ix2 p q)
    = Cert.Spec.gcnii (F := Ideal) (V c main_v158) (V c main_v113) (V c main_v145) (V c main_v160) (((cfg8.win 4).blk t).view.emb (ix2 p q))
  have hemb : ((cfg8.win 4).blk t).view.emb (ix2 p q) = ix2 (⟨1024 * t.val + p.val, by omega⟩ : Fin 32768) q := by
    funext b
    apply Fin.ext
    match b with
    | ⟨0, _⟩ => show win8_4.index t (0 : Fin 2) * 1024 + 1 * p.val = 1024 * t.val + p.val; omega
    | ⟨1, _⟩ => show win8_4.index t (1 : Fin 2) * 512 + 1 * q.val = q.val; omega
  rw [hemb, k8_pay1_eq]
  exact gcnii_block _ _ _ _ _ _ _ _ (1024 * t.val) (rows8_0 V c t) (rows8_1 V c t) (rows8_2 V c t) (weight8 V c t) p q _ rfl

/-- An index of the output array is in point t's block iff each coordinate is in the block's range on its axis. -/
theorem mem_blk8 (t : Fin cfg8.N) (i : S32768x512.Idx) :
    i ∈ ((cfg8.win 4).blk t).view.set ↔ ∀ a : Fin 2, win8_4.index t a * S1024x512.size a ≤ (i a).val ∧ (i a).val < win8_4.index t a * S1024x512.size a + S1024x512.size a := by
  show i ∈ ((View.whole main_v161).slice (win8_4.rect t)).set ↔ _
  rw [View.set_slice_whole, Rect.mem_set_unit]
  exact Iff.rfl

/-- Every row of the output array is in some point's block: row r in block r / 1024. -/
theorem covered8 (i : S32768x512.Idx) : ∃ t : Fin cfg8.N, (cfg8.win 4).flush t = true ∧ i ∈ ((cfg8.win 4).blk t).view.set := by
  have hi0 : (i 0).val < 32768 := (i 0).isLt
  have hi1 : (i 1).val < 512 := (i 1).isLt
  let t : Fin cfg8.N := ⟨(i 0).val / 1024, lt_of_lt_of_eq (show (i 0).val / 1024 < 32 by omega) N_8.symm⟩
  obtain ⟨-, -, -, -, -, -, -, -, e0, e1⟩ := index_maps8 t
  have htv : t.val = (i 0).val / 1024 := rfl
  refine ⟨t, flush8_4 t, ?_⟩
  rw [mem_blk8]
  intro a
  match a with
  | ⟨0, _⟩ => show win8_4.index t (0 : Fin 2) * 1024 ≤ (i 0).val ∧ (i 0).val < win8_4.index t (0 : Fin 2) * 1024 + 1024; omega
  | ⟨1, _⟩ => show win8_4.index t (1 : Fin 2) * 512 ≤ (i 1).val ∧ (i 1).val < win8_4.index t (1 : Fin 2) * 512 + 512; omega

/-- The output array after all the write-backs is the reference's layer of the arrays the region finds. -/
theorem val8 (c : Dev nD) :
    (dat8 (F := Ideal) V c).arrAt 4 cfg8.N = Cert.Spec.gcnii (F := Ideal) (V c main_v158) (V c main_v113) (V c main_v145) (V c main_v160) :=
  (dat8 (F := Ideal) V c).arrAt_eq_of_cover 4 _ (fun t _ => flushed8_eq V c t) (covered8)

end Cert.KernelIdeal.Rg

end
-- ==== Proof.KI.ValCLib.lean ====
/-
  Reading a plain product of matrices, a bias row and a zero splat at an index, over the extended reals:
  the lemmas a value proof of a chain of affine layers with relus needs, each stated over literal
  coordinate types (rows `Fin M`, columns `Fin N`, contraction positions `Fin K`).
-/
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Rg.Head

open Idealize.ShloMosaic Idealize.ShloMosaic.ValueIdx

/-- The first element of a one-element list. -/
theorem getElem_zero_of_eq_singleton {α : Type} (l : List α) (x : α) (h : 0 < l.length) (e : l = [x]) : l[0] = x := by
  subst e; rfl

/-- A plain `M×K` by `K×N` product (contraction of the left operand's columns with the right operand's rows,
    no batch axis): the sum over the dot's contraction index, at output index `(y, n)`, is the sum over the
    `K` positions of `lhs (y, k) * rhs (k, n)`. -/
theorem plainDot_sum {M K N : Nat} (D : DotDims ⟨2, ![M, K]⟩ ⟨2, ![K, N]⟩ ⟨2, ![M, N]⟩)
    (hlc : D.lhsContracting = [1]) (hrc : D.rhsContracting = [0])
    (hln : D.lhsNonContracting = [0]) (hrn : D.rhsNonContracting = [1])
    (hlb : D.lhsBatch = []) (hrb : D.rhsBatch = [])
    (lhs : (⟨2, ![M, K]⟩ : Shape).Idx → EReal) (rhs : (⟨2, ![K, N]⟩ : Shape).Idx → EReal)
    (y : Fin M) (n : Fin N) :
    ∑ k : D.contr.Idx, lhs (D.lhsIdx (ix2 y n) k) * rhs (D.rhsIdx (ix2 y n) k)
      = ∑ k : Fin K, lhs (ix2 y k) * rhs (ix2 k n) := by
  have hr : D.contr.rank = 1 := by rw [D.rank_contr, hlc]; rfl
  have hs : D.contr.size ⟨0, by omega⟩ = K := by
    have h0 : 0 < D.lhsContracting.length := by rw [hlc]; exact Nat.one_pos
    have e := D.size_contr 0 h0
    rw [getElem_zero_of_eq_singleton D.lhsContracting 1 h0 hlc] at e
    exact e
  rw [← Equiv.sum_comp (contrEquiv1 D K hr hs).symm]
  refine Finset.sum_congr rfl fun k _ => ?_
  have hk := contrEquiv1_symm_val D K hr hs k
  have key : ∀ (j : (⟨2, ![M, N]⟩ : Shape).Idx) (p q : Nat) (hp : p < 2) (hq : q < 2), p = q → (j ⟨p, hp⟩).val = (j ⟨q, hq⟩).val :=
    fun j p q hp hq h => by subst h; rfl
  have el : D.lhsIdx (ix2 y n) ((contrEquiv1 D K hr hs).symm k) = ix2 y k := funext fun a => Fin.ext (by
    match a with
    | ⟨0, _⟩ =>
      show (D.lhsIdx (ix2 y n) ((contrEquiv1 D K hr hs).symm k) 0).val = y.val
      unfold DotDims.lhsIdx
      rw [dif_neg (by rw [hlb]; exact List.not_mem_nil), dif_pos (by rw [hln]; exact List.mem_singleton.mpr rfl)]
      simp only [Fin.val_cast]
      exact key (ix2 y n) _ 0 _ (by decide) (by simp [hlb, hln])
    | ⟨1, _⟩ => exact (D.lhsIdx_val_of_single hlc (ix2 y n) _).trans hk)
  have er : D.rhsIdx (ix2 y n) ((contrEquiv1 D K hr hs).symm k) = ix2 k n := funext fun a => Fin.ext (by
    match a with
    | ⟨0, _⟩ => exact (D.rhsIdx_val_of_single hrc (ix2 y n) _).trans hk
    | ⟨1, _⟩ =>
      show (D.rhsIdx (ix2 y n) ((contrEquiv1 D K hr hs).symm k) 1).val = n.val
      unfold DotDims.rhsIdx
      rw [dif_neg (by rw [hrb]; exact List.not_mem_nil), dif_pos (by rw [hrn]; exact List.mem_singleton.mpr rfl)]
      simp only [Fin.val_cast]
      exact key (ix2 y n) _ 1 _ (by decide) (by simp [hlb, hln, hrn]))
  rw [el, er]

/-- A dot record is the plain `M×K` by `K×N` product: the left operand's columns contracted with the right
    operand's rows, rows and columns kept in order, no batch axis. -/
structure IsPlain {M K N : Nat} (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- A block product into the zero splat, read at `(y, n)`: the sum over the `K` positions. -/
theorem matmul_plain_apply {M K N : Nat} {φ₁ φ₂ : FTy} (D : DotDims ⟨2, ![M, K]⟩ ⟨2, ![K, N]⟩ ⟨2, ![M, N]⟩) (hD : IsPlain D)
    (prec : Option ContractPrecision) (lhs : FVec Ideal ⟨2, ![M, K]⟩ φ₁) (rhs : FVec Ideal ⟨2, ![K, N]⟩ φ₂) (y : Fin M) (n : Fin N) :
    matmul D prec lhs rhs (constant (F := Ideal) ⟨2, ![M, N]⟩ .f32 0x00000000#32) (ix2 y n)
      = ∑ k : Fin K, lhs (ix2 y k) * rhs (ix2 k n) := by
  simp only [matmul]
  rw [Ideal.matmul_constant_zero_apply]
  exact plainDot_sum D hD.lc hD.rc hD.ln hD.rn hD.lb hD.rb lhs rhs y n

/-- The host's product, read at `(r, n)`: the same sum. -/
theorem dotGeneral_plain_apply {M K N : Nat} {φ₁ φ₂ : FTy} (D : DotDims ⟨2, ![M, K]⟩ ⟨2, ![K, N]⟩ ⟨2, ![M, N]⟩) (hD : IsPlain D)
    (prec : Option ContractPrecision) (lhs : FVec Ideal ⟨2, ![M, K]⟩ φ₁) (rhs : FVec Ideal ⟨2, ![K, N]⟩ φ₂) (r : Fin M) (n : Fin N) :
    Host.dotGeneral D prec lhs rhs (ix2 r n) = ∑ k : Fin K, lhs (ix2 r k) * rhs (ix2 k n) := by
  simp only [Host.dotGeneral]
  rw [Ideal.dotGeneral_apply]
  exact plainDot_sum D hD.lc hD.rc hD.ln hD.rn hD.lb hD.rb lhs rhs r n

/-- A `[1, N]` row broadcast over `M` rows (the vector form), read at `(y, n)`: the row at `n`. -/
theorem broadcastTo_row_apply {M N : Nat} {α : Type} (x : (⟨2, ![1, N]⟩ : Shape).Idx → α)
    (h : (⟨2, ![1, N]⟩ : Shape).Broadcasts ⟨2, ![M, N]⟩) (y : Fin M) (n : Fin N) :
    broadcastTo ⟨2, ![M, N]⟩ x h (ix2 y n) = x (ix2 0 n) := by
  refine broadcastTo_apply x h (ix2 y n) (ix2 0 n) fun a => ?_
  match a with
  | ⟨0, _⟩ => exact (if_pos rfl).symm
  | ⟨1, _⟩ =>
    show n.val = if N = 1 then 0 else n.val
    split_ifs with hN
    · subst hN; exact Fin.val_eq_zero n
    · rfl

/-- A `[1, N]` row broadcast over `M` rows (the host form, the row's two axes sent to the result's two axes in order),
    read at `(r, n)`: the row at `n`. -/
theorem broadcastInDim_row_apply {M N : Nat} {α : Type} (dims : Fin 2 → Fin 2) (x : (⟨2, ![1, N]⟩ : Shape).Idx → α)
    (h : (⟨2, ![1, N]⟩ : Shape).BroadcastsInDim ⟨2, ![M, N]⟩ dims) (hd1 : dims 1 = 1) (r : Fin M) (n : Fin N) :
    broadcastInDim ⟨2, ![M, N]⟩ dims h x (ix2 r n) = x (ix2 0 n) := by
  refine broadcastInDim_apply dims h x (ix2 r n) (ix2 0 n) fun a => ?_
  match a with
  | ⟨0, _⟩ => exact (if_pos rfl).symm
  | ⟨1, _⟩ =>
    show n.val = if N = 1 then 0 else ((ix2 r n : (⟨2, ![M, N]⟩ : Shape).Idx) (dims 1)).val
    rw [hd1]
    split_ifs with hN
    · subst hN; exact Fin.val_eq_zero n
    · rfl

/-- The host's zero array (the scalar zero broadcast to a shape) is zero at every index. -/
theorem broadcastInDim_zero_apply {t : Shape} (dims : Fin 0 → Fin t.rank) (h : (⟨0, ![]⟩ : Shape).BroadcastsInDim t dims) (j : t.Idx) :
    broadcastInDim t dims h (constant (F := Ideal) ⟨0, ![]⟩ .f32 0x00000000#32) j = (0 : EReal) := by
  rw [broadcastInDim_apply dims h _ j ix0 (fun a => a.elim0), constant_apply]
  exact Ideal.ofBits_zero_f32

/-- The vector zero splat is zero at every index. -/
theorem broadcast_zero_apply (s : Shape) (i : s.Idx) :
    (broadcast s (Scalar.ofBits (F := Ideal) .f32 0x00000000#32) : FVec Ideal s .f32) i = (0 : EReal) :=
  Ideal.ofBits_zero_f32

/-- A sum over 256 positions is the sum over the first 128 plus the sum over the last 128. -/
theorem sum_256_split {A : Type} [AddCommMonoid A] (f : Fin 256 → A) :
    ∑ k, f k = ∑ k : Fin 128, f ⟨k.val, by omega⟩ + ∑ k : Fin 128, f ⟨128 + k.val, by omega⟩ :=
  Fin.sum_univ_add (a := 128) (b := 128) f

end Cert.KernelIdeal.Rg.Head

end
-- ==== Proof.KI.Val10.lean ====
/-
  Region 10, the head: the region's output array after its 32 write-backs is the head (three affine maps with two
  relus between them) of the arrays the region reads. The body multiplies each branch's block by its half of the
  first weight and adds; the head joins the branches along the features and multiplies by the whole weight: a sum
  over the 256 joined features is the sum over the first 128 plus the sum over the last 128. Every operation acts
  row by row, so row y of block t of the output is the head's row 1024 t + y, and the 32 blocks cover the rows.
-/
import proofs.«109784_j28140625724052_1_alg».proof.Proof.KI.Rg10
import proofs.«109784_j28140625724052_1_alg».proof.Proof.Spec
import proofs.«109784_j28140625724052_1_alg».proof.Proof.KI.ValCLib
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Rg

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open Cert.KernelIdeal.Rg.Head

namespace Head

/-! ## The six products of the head are plain products -/

theorem plain_blk1 : IsPlain dot_S1024x128_S128x1024_S1024x1024_1_0_0_1_n_n := ⟨rfl, rfl, rfl, rfl, rfl, rfl⟩
theorem plain_blk2 : IsPlain dot_S1024x1024_S1024x512_S1024x512_1_0_0_1_n_n := ⟨rfl, rfl, rfl, rfl, rfl, rfl⟩
theorem plain_blk3 : IsPlain dot_S1024x512_S512x1_S1024x1_1_0_0_1_n_n := ⟨rfl, rfl, rfl, rfl, rfl, rfl⟩
theorem plain_arr1 : IsPlain Cert.ReferenceIdeal.dot_S32768x256_S256x1024_S32768x1024_1_0_0_1_n_n := ⟨rfl, rfl, rfl, rfl, rfl, rfl⟩
theorem plain_arr2 : IsPlain Cert.ReferenceIdeal.dot_S32768x1024_S1024x512_S32768x512_1_0_0_1_n_n := ⟨rfl, rfl, rfl, rfl, rfl, rfl⟩
theorem plain_arr3 : IsPlain Cert.ReferenceIdeal.dot_S32768x512_S512x1_S32768x1_1_0_0_1_n_n := ⟨rfl, rfl, rfl, rfl, rfl, rfl⟩

/-! ## The two branches joined along the features, read at a column of either half -/

theorem concat_left {α : Type} (mo po : (⟨2, ![32768, 128]⟩ : Shape).Idx → α)
    (h : Shape.Concatenates [(⟨2, ![32768, 128]⟩ : Shape), ⟨2, ![32768, 128]⟩] ⟨2, ![32768, 256]⟩ 1) (r : Fin 32768) (k : Fin 128) :
    concatenate ⟨2, ![32768, 256]⟩ 1 [⟨⟨2, ![32768, 128]⟩, mo⟩, ⟨⟨2, ![32768, 128]⟩, po⟩] h (ix2 r (⟨k.val, by omega⟩ : Fin 256)) = mo (ix2 r k) :=
  concatenate_pair_apply_left 1 mo po h _ rfl (ix2 r k) fun b => by
    match b with
    | ⟨0, _⟩ => rfl
    | ⟨1, _⟩ => rfl

theorem concat_right {α : Type} (mo po : (⟨2, ![32768, 128]⟩ : Shape).Idx → α)
    (h : Shape.Concatenates [(⟨2, ![32768, 128]⟩ : Shape), ⟨2, ![32768, 128]⟩] ⟨2, ![32768, 256]⟩ 1) (r : Fin 32768) (k : Fin 128) :
    concatenate ⟨2, ![32768, 256]⟩ 1 [⟨⟨2, ![32768, 128]⟩, mo⟩, ⟨⟨2, ![32768, 128]⟩, po⟩] h (ix2 r (⟨128 + k.val, by omega⟩ : Fin 256)) = po (ix2 r k) :=
  concatenate_pair_apply_right 1 mo po h _ rfl rfl (ix2 r k)
    (fun b hb => by
      match b with
      | ⟨0, _⟩ => rfl
      | ⟨1, _⟩ => exact absurd rfl hb)
    (by show k.val + 128 = 128 + k.val; omega)

/-! ## The body's value at a row is the head of that row -/

/-- At any row map: if the two branch blocks are the rows `row y` of the branch arrays, the two weight blocks the upper and
    lower 128 rows of the joined weight, and the other blocks the whole arrays, then the body's value at block row `y`
    is the head at array row `row y`. The join: a sum over the 256 joined features is the sum over the first branch's
    128 plus the sum over the second's. -/
theorem pay_eq_head (row : Fin 1024 → Fin 32768)
    (x0 x1 : Vec Ideal S1024x128 .f32) (x2 x3 : Vec Ideal S128x1024 .f32) (x4 : Vec Ideal S1x1024 .f32)
    (x5 : Vec Ideal S1024x512 .f32) (x6 : Vec Ideal S1x512 .f32) (x7 : Vec Ideal S512x1 .f32) (x8 : Vec Ideal S1x1 .f32)
    (mo po : (⟨Cert.ReferenceIdeal.S32768x128, .f32⟩ : BufTy).Contents (Elt Ideal))
    (w1 : (⟨Cert.ReferenceIdeal.S256x1024, .f32⟩ : BufTy).Contents (Elt Ideal))
    (b1 : (⟨Cert.ReferenceIdeal.S1x1024, .f32⟩ : BufTy).Contents (Elt Ideal))
    (w2 : (⟨Cert.ReferenceIdeal.S1024x512, .f32⟩ : BufTy).Contents (Elt Ideal))
    (b2 : (⟨Cert.ReferenceIdeal.S1x512, .f32⟩ : BufTy).Contents (Elt Ideal))
    (wo : (⟨Cert.ReferenceIdeal.S512x1, .f32⟩ : BufTy).Contents (Elt Ideal))
    (bo : (⟨Cert.ReferenceIdeal.S1x1, .f32⟩ : BufTy).Contents (Elt Ideal))
    (h0 : ∀ (y : Fin 1024) (k : Fin 128), x0 (ix2 y k) = mo (ix2 (row y) k))
    (h1 : ∀ (y : Fin 1024) (k : Fin 128), x1 (ix2 y k) = po (ix2 (row y) k))
    (h2 : ∀ (k : Fin 128) (n : Fin 1024), x2 (ix2 k n) = w1 (ix2 (⟨k.val, by omega⟩ : Fin 256) n))
    (h3 : ∀ (k : Fin 128) (n : Fin 1024), x3 (ix2 k n) = w1 (ix2 (⟨128 + k.val, by omega⟩ : Fin 256) n))
    (h4 : x4 = b1) (h5 : x5 = w2) (h6 : x6 = b2) (h7 : x7 = wo) (h8 : x8 = bo) (y : Fin 1024) (z : Fin 1) :
    k10_pay1 (k10_pay2 x0 x1 x2 x3 x4 x5 x6 x7) x8 (ix2 y z)
      = Cert.Spec.head (F := Ideal) mo po w1 b1 w2 b2 wo bo (ix2 (row y) z) := by
  subst h4 h5 h6 h7 h8
  have eb1 := fun (r : Fin 32768) (n : Fin 1024) => broadcastInDim_row_apply _ x4 Cert.ReferenceIdeal.Gen.bcast_S1x1024_S32768x1024_0_1 rfl r n
  have eb2 := fun (r : Fin 32768) (n : Fin 512) => broadcastInDim_row_apply _ x6 Cert.ReferenceIdeal.Gen.bcast_S1x512_S32768x512_0_1 rfl r n
  have eb3 := fun (r : Fin 32768) (n : Fin 1) => broadcastInDim_row_apply _ x8 Cert.ReferenceIdeal.Gen.bcast_S1x1_S32768x1_0_1 rfl r n
  unfold k10_pay1 k10_pay2 Cert.Spec.head Cert.Spec.zeros1024 Cert.Spec.zeros512
  simp only [addf_apply, maximumf_apply, truncf_apply, shapeCast_self,
    matmul_plain_apply _ plain_blk1, matmul_plain_apply _ plain_blk2, matmul_plain_apply _ plain_blk3,
    dotGeneral_plain_apply _ plain_arr1, dotGeneral_plain_apply _ plain_arr2, dotGeneral_plain_apply _ plain_arr3,
    broadcastTo_row_apply, eb1, eb2, eb3, broadcast_zero_apply, broadcastInDim_zero_apply,
    sum_256_split, concat_left, concat_right, h0, h1, h2, h3]

end Head

namespace Head

/-! ## The blocks the body reads, as rows of the arrays -/

theorem hz : (![0, 0] : Fin 2 → Nat) = fun _ => 0 := funext fun a => by fin_cases a <;> rfl

/-- The printed index maps, decided over the grid: the two branch windows and the output window take block `t` of
    the rows, every column; the weight and bias windows take their one block. -/
theorem idx_facts : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = 0 ∧ win10_6.index t (1 : Fin 2) = 0
    ∧ win10_7.index t (0 : Fin 2) = 0 ∧ win10_7.index t (1 : Fin 2) = 0
    ∧ win10_8.index t (0 : Fin 2) = 0 ∧ win10_8.index t (1 : Fin 2) = 0
    ∧ win10_9.index t (0 : Fin 2) = t.val ∧ win10_9.index t (1 : Fin 2) = 0 :=
  (by decide +kernel : ∀ t : Fin grid10.N, _)

/-- Row `y` of block `t` is row `1024 t + y` of the array. -/
def rowAt (t : Fin cfg10.N) (y : Fin 1024) : Fin 32768 :=
  ⟨1024 * t.val + y.val, by have := t.isLt; have : cfg10.N = 32 := N_10; omega⟩

variable (V : (c : Dev nD) → (b : Ref sig .tc) → Buf (Elt Ideal) ((c : Thread nD τ).loc b))

theorem blk0_apply (c : Dev nD) (t : Fin cfg10.N) (y : Fin 1024) (k : Fin 128) :
    (iblk10 V c 0 t : Vec Ideal S1024x128 .f32) (ix2 y k) = (V c main_v81 : S32768x128.Idx → Elt Ideal .f32) (ix2 (rowAt t y) k) := by
  obtain ⟨e0, e1, -⟩ := idx_facts t
  unfold iblk10
  rw [View.read_apply]
  show V c main_v81 _ = V c main_v81 _
  congr 1
  funext a
  apply Fin.ext
  match a with
  | ⟨0, _⟩ => show win10_0.index t 0 * 1024 + 1 * y.val = 1024 * t.val + y.val; rw [e0]; omega
  | ⟨1, _⟩ => show win10_0.index t 1 * 128 + 1 * k.val = k.val; rw [e1]; omega

theorem blk1_apply (c : Dev nD) (t : Fin cfg10.N) (y : Fin 1024) (k : Fin 128) :
    (iblk10 V c 1 t : Vec Ideal S1024x128 .f32) (ix2 y k) = (V c main_v163 : S32768x128.Idx → Elt Ideal .f32) (ix2 (rowAt t y) k) := by
  obtain ⟨-, -, e0, e1, -⟩ := idx_facts t
  unfold iblk10
  rw [View.read_apply]
  show V c main_v163 _ = V c main_v163 _
  congr 1
  funext a
  apply Fin.ext
  match a with
  | ⟨0, _⟩ => show win10_1.index t 0 * 1024 + 1 * y.val = 1024 * t.val + y.val; rw [e0]; omega
  | ⟨1, _⟩ => show win10_1.index t 1 * 128 + 1 * k.val = k.val; rw [e1]; omega

theorem blk2_eq (c : Dev nD) (t : Fin cfg10.N) :
    (iblk10 V c 2 t : Vec Ideal S128x1024 .f32) = (V c main_v164 : S128x1024.Idx → Elt Ideal .f32) := by
  obtain ⟨-, -, -, -, e0, e1, -⟩ := idx_facts t
  funext j
  unfold iblk10
  rw [View.read_apply]
  show V c main_v164 _ = V c main_v164 _
  congr 1
  funext a
  apply Fin.ext
  match a with
  | ⟨0, _⟩ => show win10_2.index t 0 * 128 + 1 * (j 0).val = (j 0).val; rw [e0]; omega
  | ⟨1, _⟩ => show win10_2.index t 1 * 1024 + 1 * (j 1).val = (j 1).val; rw [e1]; omega

theorem blk3_eq (c : Dev nD) (t : Fin cfg10.N) :
    (iblk10 V c 3 t : Vec Ideal S128x1024 .f32) = (V c main_v165 : S128x1024.Idx → Elt Ideal .f32) := by
  obtain ⟨-, -, -, -, -, -, e0, e1, -⟩ := idx_facts t
  funext j
  unfold iblk10
  rw [View.read_apply]
  show V c main_v165 _ = V c main_v165 _
  congr 1
  funext a
  apply Fin.ext
  match a with
  | ⟨0, _⟩ => show win10_3.index t 0 * 128 + 1 * (j 0).val = (j 0).val; rw [e0]; omega
  | ⟨1, _⟩ => show win10_3.index t 1 * 1024 + 1 * (j 1).val = (j 1).val; rw [e1]; omega

theorem blk4_eq (c : Dev nD) (t : Fin cfg10.N) :
    (iblk10 V c 4 t : Vec Ideal S1x1024 .f32) = (V c main_v166 : S1x1024.Idx → Elt Ideal .f32) := by
  obtain ⟨-, -, -, -, -, -, -, -, e0, e1, -⟩ := idx_facts t
  funext j
  unfold iblk10
  rw [View.read_apply]
  show V c main_v166 _ = V c main_v166 _
  congr 1
  funext a
  apply Fin.ext
  match a with
  | ⟨0, _⟩ => show win10_4.index t 0 * 1 + 1 * (j 0).val = (j 0).val; rw [e0]; omega
  | ⟨1, _⟩ => show win10_4.index t 1 * 1024 + 1 * (j 1).val = (j 1).val; rw [e1]; omega

theorem blk5_eq (c : Dev nD) (t : Fin cfg10.N) :
    (iblk10 V c 5 t : Vec Ideal S1024x512 .f32) = (V c main_arg16 : S1024x512.Idx → Elt Ideal .f32) := by
  obtain ⟨-, -, -, -, -, -, -, -, -, -, e0, e1, -⟩ := idx_facts t
  funext j
  unfold iblk10
  rw [View.read_apply]
  show V c main_arg16 _ = V c main_arg16 _
  congr 1
  funext a
  apply Fin.ext
  match a with
  | ⟨0, _⟩ => show win10_5.index t 0 * 1024 + 1 * (j 0).val = (j 0).val; rw [e0]; omega
  | ⟨1, _⟩ => show win10_5.index t 1 * 512 + 1 * (j 1).val = (j 1).val; rw [e1]; omega

theorem blk6_eq (c : Dev nD) (t : Fin cfg10.N) :
    (iblk10 V c 6 t : Vec Ideal S1x512 .f32) = (V c main_v167 : S1x512.Idx → Elt Ideal .f32) := by
  obtain ⟨-, -, -, -, -, -, -, -, -, -, -, -, e0, e1, -⟩ := idx_facts t
  funext j
  unfold iblk10
  rw [View.read_apply]
  show V c main_v167 _ = V c main_v167 _
  congr 1
  funext a
  apply Fin.ext
  match a with
  | ⟨0, _⟩ => show win10_6.index t 0 * 1 + 1 * (j 0).val = (j 0).val; rw [e0]; omega
  | ⟨1, _⟩ => show win10_6.index t 1 * 512 + 1 * (j 1).val = (j 1).val; rw [e1]; omega

theorem blk7_eq (c : Dev nD) (t : Fin cfg10.N) :
    (iblk10 V c 7 t : Vec Ideal S512x1 .f32) = (V c main_arg18 : S512x1.Idx → Elt Ideal .f32) := by
  obtain ⟨-, -, -, -, -, -, -, -, -, -, -, -, -, -, e0, e1, -⟩ := idx_facts t
  funext j
  unfold iblk10
  rw [View.read_apply]
  show V c main_arg18 _ = V c main_arg18 _
  congr 1
  funext a
  apply Fin.ext
  match a with
  | ⟨0, _⟩ => show win10_7.index t 0 * 512 + 1 * (j 0).val = (j 0).val; rw [e0]; omega
  | ⟨1, _⟩ => show win10_7.index t 1 * 1 + 1 * (j 1).val = (j 1).val; rw [e1]; omega

theorem blk8_eq (c : Dev nD) (t : Fin cfg10.N) :
    (iblk10 V c 8 t : Vec Ideal S1x1 .f32) = (V c main_v168 : S1x1.Idx → Elt Ideal .f32) := by
  obtain ⟨-, -, -, -, -, -, -, -, -, -, -, -, -, -, -, -, e0, e1, -⟩ := idx_facts t
  funext j
  unfold iblk10
  rw [View.read_apply]
  show V c main_v168 _ = V c main_v168 _
  congr 1
  funext a
  apply Fin.ext
  match a with
  | ⟨0, _⟩ => show win10_8.index t 0 * 1 + 1 * (j 0).val = (j 0).val; rw [e0]; omega
  | ⟨1, _⟩ => show win10_8.index t 1 * 1 + 1 * (j 1).val = (j 1).val; rw [e1]; omega

/-! ## What a point writes back, the cover, the array -/

/-- What point `t` writes back is block `t` of the head of the arrays the region reads. -/
theorem flushed_eq (c : Dev nD) (wfull : (⟨S256x1024, .f32⟩ : BufTy).Contents (Elt Ideal))
    (h1 : V c main_v164 = extractStridedSlice S128x1024 ![0, 0] wfull slices_S256x1024_S128x1024_0_0)
    (h2 : V c main_v165 = extractStridedSlice S128x1024 ![128, 0] wfull slices_S256x1024_S128x1024_128_0)
    (t : Fin cfg10.N) :
    (dat10 (F := Ideal) V c).flushed 9 t = ((cfg10.win 9).blk t).view.read (Elt Ideal)
      (Cert.Spec.head (F := Ideal) (V c main_v81) (V c main_v163) wfull (V c main_v166) (V c main_arg16) (V c main_v167) (V c main_arg18) (V c main_v168)) := by
  show (cfg10.win 9).cut (grid10.coords t) ((dat10 V c).after 9 t) = _
  rw [after10_9]
  unfold out10_9
  rw [View.canon_unit_zero hz]
  simp only [View.ld_unit_zero (S := S1024x128) hz, View.ld_unit_zero (S := S128x1024) hz, View.ld_unit_zero (S := S1x1024) hz,
    View.ld_unit_zero (S := S1024x512) hz, View.ld_unit_zero (S := S1x512) hz, View.ld_unit_zero (S := S512x1) hz,
    View.ld_unit_zero (S := S1x1) hz]
  funext j
  rw [View.read_apply]
  obtain ⟨y, z, rfl⟩ : ∃ (y : Fin 1024) (z : Fin 1), j = ix2 y z := ⟨j 0, j 1, eq_ix2 j⟩
  have hw1 : ∀ (k : Fin 128) (n : Fin 1024), (iblk10 V c 2 t : Vec Ideal S128x1024 .f32) (ix2 k n) = wfull (ix2 (⟨k.val, by omega⟩ : Fin 256) n) := fun k n => by
    rw [blk2_eq V c t, h1]
    refine extractStridedSlice_apply _ wfull _ (ix2 k n) _ fun a => ?_
    match a with
    | ⟨0, _⟩ => show k.val = 0 + k.val; omega
    | ⟨1, _⟩ => show n.val = 0 + n.val; omega
  have hw2 : ∀ (k : Fin 128) (n : Fin 1024), (iblk10 V c 3 t : Vec Ideal S128x1024 .f32) (ix2 k n) = wfull (ix2 (⟨128 + k.val, by omega⟩ : Fin 256) n) := fun k n => by
    rw [blk3_eq V c t, h2]
    refine extractStridedSlice_apply _ wfull _ (ix2 k n) _ fun a => ?_
    match a with
    | ⟨0, _⟩ => show 128 + k.val = 128 + k.val; rfl
    | ⟨1, _⟩ => show n.val = 0 + n.val; omega
  refine (pay_eq_head (rowAt t) (iblk10 V c 0 t) (iblk10 V c 1 t) (iblk10 V c 2 t) (iblk10 V c 3 t) (iblk10 V c 4 t) (iblk10 V c 5 t)
    (iblk10 V c 6 t) (iblk10 V c 7 t) (iblk10 V c 8 t) (V c main_v81) (V c main_v163) wfull (V c main_v166) (V c main_arg16) (V c main_v167)
    (V c main_arg18) (V c main_v168) (blk0_apply V c t) (blk1_apply V c t) hw1 hw2 (blk4_eq V c t) (blk5_eq V c t) (blk6_eq V c t)
    (blk7_eq V c t) (blk8_eq V c t) y z).trans ?_
  obtain ⟨-, -, -, -, -, -, -, -, -, -, -, -, -, -, -, -, -, -, e0, e1⟩ := idx_facts t
  congr 1
  funext a
  apply Fin.ext
  match a with
  | ⟨0, _⟩ => show 1024 * t.val + y.val = win10_9.index t 0 * 1024 + 1 * y.val; rw [e0]; omega
  | ⟨1, _⟩ => show z.val = win10_9.index t 1 * 1 + 1 * z.val; rw [e1]; omega

/-- An index of the array is in point `t`'s block iff each coordinate is in the block's range on its axis. -/
theorem mem_blk (t : Fin cfg10.N) (i : S32768x1.Idx) :
    i ∈ ((cfg10.win 9).blk t).view.set ↔ ∀ a : Fin 2, win10_9.index t a * S1024x1.size a ≤ (i a).val ∧ (i a).val < win10_9.index t a * S1024x1.size a + S1024x1.size a := by
  show i ∈ ((View.whole main_v169).slice (win10_9.rect t)).set ↔ _
  rw [View.set_slice_whole, Rect.mem_set_unit]
  exact Iff.rfl

/-- Row `r` of the array is in the block of point `r / 1024`. -/
theorem cover (i : S32768x1.Idx) : ∃ t : Fin cfg10.N, (cfg10.win 9).flush t = true ∧ i ∈ ((cfg10.win 9).blk t).view.set := by
  have hi0 : (i 0).val < 32768 := (i 0).isLt
  have hi1 : (i 1).val < 1 := (i 1).isLt
  have hq : (i 0).val / 1024 < cfg10.N := lt_of_lt_of_eq (by omega : (i 0).val / 1024 < 32) N_10.symm
  obtain ⟨-, -, -, -, -, -, -, -, -, -, -, -, -, -, -, -, -, -, e0, e1⟩ := idx_facts ⟨(i 0).val / 1024, hq⟩
  have e0' : win10_9.index ⟨(i 0).val / 1024, hq⟩ (0 : Fin 2) = (i 0).val / 1024 := e0
  refine ⟨⟨(i 0).val / 1024, hq⟩, flush10_9 _, ?_⟩
  rw [mem_blk]
  intro a
  match a with
  | ⟨0, _⟩ =>
    show win10_9.index ⟨(i 0).val / 1024, hq⟩ (0 : Fin 2) * 1024 ≤ (i 0).val ∧ (i 0).val < win10_9.index ⟨(i 0).val / 1024, hq⟩ (0 : Fin 2) * 1024 + 1024
    rw [e0']; omega
  | ⟨1, _⟩ =>
    show win10_9.index ⟨(i 0).val / 1024, hq⟩ (1 : Fin 2) * 1 ≤ (i 1).val ∧ (i 1).val < win10_9.index ⟨(i 0).val / 1024, hq⟩ (1 : Fin 2) * 1 + 1
    rw [e1]; omega

end Head

/-- The region's output array after the 32 write-backs is the head of the arrays the region reads: the two branch
    outputs, the joined first weight (whose upper and lower halves the region's two weight windows hold), and the
    remaining weights and bias rows. -/
theorem val10 (V : (c : Dev nD) → (b : Ref sig .tc) → Buf (Elt Ideal) ((c : Thread nD τ).loc b)) (c : Dev nD)
    (wfull : (⟨S256x1024, .f32⟩ : BufTy).Contents (Elt Ideal))
    (h1 : V c main_v164 = extractStridedSlice S128x1024 ![0, 0] wfull slices_S256x1024_S128x1024_0_0)
    (h2 : V c main_v165 = extractStridedSlice S128x1024 ![128, 0] wfull slices_S256x1024_S128x1024_128_0) :
    (dat10 (F := Ideal) V c).arrAt 9 cfg10.N
      = Cert.Spec.head (F := Ideal) (V c main_v81) (V c main_v163) wfull (V c main_v166) (V c main_arg16) (V c main_v167) (V c main_arg18) (V c main_v168) :=
  (dat10 (F := Ideal) V c).arrAt_eq_of_cover 9 _ (fun t _ => Head.flushed_eq V c wfull h1 h2 t) (fun i => Head.cover i)

end Cert.KernelIdeal.Rg

end
-- ==== Proof.RefChunks.lean ====
/-
  The reference program's 307 host operations cut into 23 consecutive stretches (the operations' text is the
  program's own), what each stretch writes, and the program's buffer contents after each stretch as a fold: a buffer a
  stretch does not write keeps its contents through it.
-/
import proofs.«109784_j28140625724052_1_alg».proof.Proof.RefRunQ

set_option maxRecDepth 16384

noncomputable section

namespace Cert.ReferenceIdeal.RefValue

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- The contents after two stretches run one after the other are the second's after the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- Stretch 0: operations 0 to 17 of the program. -/
abbrev c0 : List (HloOp τ sig (Elt F)) :=
  [ nullary main_v0 (iotaInDim S32768 32 0),
    unary main_arg1 main_v1 ((extractStridedSlice S1x131072 ![0, 0] · slices_S2x131072_S1x131072_0_0) : (⟨S2x131072, .i32⟩ : BufTy).Contents (Elt F) → (⟨S1x131072, .i32⟩ : BufTy).Contents (Elt F)),
    reshape main_v1 main_v2 rfl shapeCasts_S1x131072_S131072,
    binary main_v2 main_v0 main_v3 ((fun a b => concatenate S163840 0 [⟨S131072, a⟩, ⟨S32768, b⟩] concatenates_S131072_S32768_S163840_d0) : (⟨S131072, .i32⟩ : BufTy).Contents (Elt F) → (⟨S32768, .i32⟩ : BufTy).Contents (Elt F) → (⟨S163840, .i32⟩ : BufTy).Contents (Elt F)),
    unary main_arg1 main_v4 ((extractStridedSlice S1x131072 ![1, 0] · slices_S2x131072_S1x131072_1_0) : (⟨S2x131072, .i32⟩ : BufTy).Contents (Elt F) → (⟨S1x131072, .i32⟩ : BufTy).Contents (Elt F)),
    reshape main_v4 main_v5 rfl shapeCasts_S1x131072_S131072,
    binary main_v5 main_v0 main_v6 ((fun a b => concatenate S163840 0 [⟨S131072, a⟩, ⟨S32768, b⟩] concatenates_S131072_S32768_S163840_d0) : (⟨S131072, .i32⟩ : BufTy).Contents (Elt F) → (⟨S32768, .i32⟩ : BufTy).Contents (Elt F) → (⟨S163840, .i32⟩ : BufTy).Contents (Elt F)),
    nullary main_cst (constant S_ .f32 0x3F800000#32),
    unary main_cst main_v7 (broadcastInDim S163840 ![] bcast_S_S163840 : (⟨S_, .f32⟩ : BufTy).Contents (Elt F) → (⟨S163840, .f32⟩ : BufTy).Contents (Elt F)),
    nullary main_cst_0 (constant S_ .f32 0x00000000#32),
    unary main_cst_0 main_v8 (broadcastInDim S32768 ![] bcast_S_S32768 : (⟨S_, .f32⟩ : BufTy).Contents (Elt F) → (⟨S32768, .f32⟩ : BufTy).Contents (Elt F)),
    unary main_v6 main_v9 (broadcastInDim S163840x1 ![0] bcast_S163840_S163840x1_0 : (⟨S163840, .i32⟩ : BufTy).Contents (Elt F) → (⟨S163840x1, .i32⟩ : BufTy).Contents (Elt F)),
    ternary main_v8 main_v9 main_v7 main_v10 ((fun x i u => Host.scatterAdd scatter_S32768_S163840x1_S163840_n_0_0_1 x i u) : (⟨S32768, .f32⟩ : BufTy).Contents (Elt F) → (⟨S163840x1, .i32⟩ : BufTy).Contents (Elt F) → (⟨S163840, .f32⟩ : BufTy).Contents (Elt F) → (⟨S32768, .f32⟩ : BufTy).Contents (Elt F)),
    nullary main_cst_1 (constant S_ .f32 0x00000000#32),
    unary main_cst_1 main_v11 (broadcastInDim S32768 ![] bcast_S_S32768 : (⟨S_, .f32⟩ : BufTy).Contents (Elt F) → (⟨S32768, .f32⟩ : BufTy).Contents (Elt F)),
    binary main_v10 main_v11 main_v12 (cmpf .ogt : (⟨S32768, .f32⟩ : BufTy).Contents (Elt F) → (⟨S32768, .f32⟩ : BufTy).Contents (Elt F) → (⟨S32768, .i1⟩ : BufTy).Contents (Elt F)),
    unary main_v10 main_v13 (Host.rsqrt : (⟨S32768, .f32⟩ : BufTy).Contents (Elt F) → (⟨S32768, .f32⟩ : BufTy).Contents (Elt F)),
    nullary main_cst_2 (constant S_ .f32 0x00000000#32) ]
/-- The references stretch 0 writes. -/
abbrev cW0 : List (Ref sig .tc) := [main_v0, main_v1, main_v2, main_v3, main_v4, main_v5, main_v6, main_cst, main_v7, main_cst_0, main_v8, main_v9, main_v10, main_cst_1, main_v11, main_v12, main_v13, main_cst_2]
theorem c0_writes : (c0 : List (HloOp τ sig (Elt F))).Forall fun op => op.writes ⊆ (cW0.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- Stretch 1: operations 18 to 20 of the program. -/
abbrev c1 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S32768, .f32⟩) main_call0_v1) (broadcastInDim S32768 ![] bcast_S_S32768),
    TRef.ternary (TRef.of (T := ⟨S32768, .i1⟩) main_v12) (TRef.of (T := ⟨S32768, .f32⟩) main_v13) (TRef.of (T := ⟨S32768, .f32⟩) main_call0_v1) (TRef.of (T := ⟨S32768, .f32⟩) main_v14) select ]
/-- The references stretch 1 writes. -/
abbrev cW1 : List (Ref sig .tc) := [main_call0_v0, main_call0_v1, main_v14]
theorem c1_writes : (c1 : List (HloOp τ sig (Elt F))).Forall fun op => op.writes ⊆ (cW1.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- Stretch 2: operations 21 to 39 of the program. -/
abbrev c2 : List (HloOp τ sig (Elt F)) :=
  [ nullary main_c (constantI S_ 32 0#32),
    unary main_c main_v15 (broadcastInDim S163840 ![] bcast_S_S163840 : (⟨S_, .i32⟩ : BufTy).Contents (Elt F) → (⟨S163840, .i32⟩ : BufTy).Contents (Elt F)),
    binary main_v3 main_v15 main_v16 (cmpi .slt : (⟨S163840, .i32⟩ : BufTy).Contents (Elt F) → (⟨S163840, .i32⟩ : BufTy).Contents (Elt F) → (⟨S163840, .i1⟩ : BufTy).Contents (Elt F)),
    nullary main_c_3 (constantI S_ 32 32768#32),
    unary main_c_3 main_v17 (broadcastInDim S163840 ![] bcast_S_S163840 : (⟨S_, .i32⟩ : BufTy).Contents (Elt F) → (⟨S163840, .i32⟩ : BufTy).Contents (Elt F)),
    binary main_v3 main_v17 main_v18 (addi : (⟨S163840, .i32⟩ : BufTy).Contents (Elt F) → (⟨S163840, .i32⟩ : BufTy).Contents (Elt F) → (⟨S163840, .i32⟩ : BufTy).Contents (Elt F)),
    ternary main_v16 main_v18 main_v3 main_v19 (select : (⟨S163840, .i1⟩ : BufTy).Contents (Elt F) → (⟨S163840, .i32⟩ : BufTy).Contents (Elt F) → (⟨S163840, .i32⟩ : BufTy).Contents (Elt F) → (⟨S163840, .i32⟩ : BufTy).Contents (Elt F)),
    unary main_v19 main_v20 (broadcastInDim S163840x1 ![0] bcast_S163840_S163840x1_0 : (⟨S163840, .i32⟩ : BufTy).Contents (Elt F) → (⟨S163840x1, .i32⟩ : BufTy).Contents (Elt F)),
    binary main_v14 main_v20 main_v21 ((fun x i => Host.gather gather_S32768_S163840x1_S163840_n_0_n_n_0_1_1 x i) : (⟨S32768, .f32⟩ : BufTy).Contents (Elt F) → (⟨S163840x1, .i32⟩ : BufTy).Contents (Elt F) → (⟨S163840, .f32⟩ : BufTy).Contents (Elt F)),
    nullary main_c_4 (constantI S_ 32 0#32),
    unary main_c_4 main_v22 (broadcastInDim S163840 ![] bcast_S_S163840 : (⟨S_, .i32⟩ : BufTy).Contents (Elt F) → (⟨S163840, .i32⟩ : BufTy).Contents (Elt F)),
    binary main_v6 main_v22 main_v23 (cmpi .slt : (⟨S163840, .i32⟩ : BufTy).Contents (Elt F) → (⟨S163840, .i32⟩ : BufTy).Contents (Elt F) → (⟨S163840, .i1⟩ : BufTy).Contents (Elt F)),
    nullary main_c_5 (constantI S_ 32 32768#32),
    unary main_c_5 main_v24 (broadcastInDim S163840 ![] bcast_S_S163840 : (⟨S_, .i32⟩ : BufTy).Contents (Elt F) → (⟨S163840, .i32⟩ : BufTy).Contents (Elt F)),
    binary main_v6 main_v24 main_v25 (addi : (⟨S163840, .i32⟩ : BufTy).Contents (Elt F) → (⟨S163840, .i32⟩ : BufTy).Contents (Elt F) → (⟨S163840, .i32⟩ : BufTy).Contents (Elt F)),
    ternary main_v23 main_v25 main_v6 main_v26 (select : (⟨S163840, .i1⟩ : BufTy).Contents (Elt F) → (⟨S163840, .i32⟩ : BufTy).Contents (Elt F) → (⟨S163840, .i32⟩ : BufTy).Contents (Elt F) → (⟨S163840, .i32⟩ : BufTy).Contents (Elt F)),
    unary main_v26 main_v27 (broadcastInDim S163840x1 ![0] bcast_S163840_S163840x1_0 : (⟨S163840, .i32⟩ : BufTy).Contents (Elt F) → (⟨S163840x1, .i32⟩ : BufTy).Contents (Elt F)),
    binary main_v14 main_v27 main_v28 ((fun x i => Host.gather gather_S32768_S163840x1_S163840_n_0_n_n_0_1_1 x i) : (⟨S32768, .f32⟩ : BufTy).Contents (Elt F) → (⟨S163840x1, .i32⟩ : BufTy).Contents (Elt F) → (⟨S163840, .f32⟩ : BufTy).Contents (Elt F)),
    binary main_v21 main_v28 main_v29 (mulf : (⟨S163840, .f32⟩ : BufTy).Contents (Elt F) → (⟨S163840, .f32⟩ : BufTy).Contents (Elt F) → (⟨S163840, .f32⟩ : BufTy).Contents (Elt F)) ]
/-- The references stretch 2 writes. -/
abbrev cW2 : List (Ref sig .tc) := [main_c, main_v15, main_v16, main_c_3, main_v17, main_v18, main_v19, main_v20, main_v21, main_c_4, main_v22, main_v23, main_c_5, main_v24, main_v25, main_v26, main_v27, main_v28, main_v29]
theorem c2_writes : (c2 : List (HloOp τ sig (Elt F))).Forall fun op => op.writes ⊆ (cW2.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- Stretch 3: operations 40 to 46 of the program. -/
abbrev c3 : List (HloOp τ sig (Elt F)) :=
  [ binary main_arg0 main_arg4 main_v30 ((fun l r => Host.dotGeneral dot_S32768x78_S78x512_S32768x512_1_0_0_1_n_n none l r) : (⟨S32768x78, .f32⟩ : BufTy).Contents (Elt F) → (⟨S78x512, .f32⟩ : BufTy).Contents (Elt F) → (⟨S32768x512, .f32⟩ : BufTy).Contents (Elt F)),
    unary main_arg5 main_v31 (broadcastInDim S1x512 ![1] bcast_S512_S1x512_1 : (⟨S512, .f32⟩ : BufTy).Contents (Elt F) → (⟨S1x512, .f32⟩ : BufTy).Contents (Elt F)),
    unary main_v31 main_v32 (broadcastInDim S32768x512 ![0, 1] bcast_S1x512_S32768x512_0_1 : (⟨S1x512, .f32⟩ : BufTy).Contents (Elt F) → (⟨S32768x512, .f32⟩ : BufTy).Contents (Elt F)),
    binary main_v30 main_v32 main_v33 (addf : (⟨S32768x512, .f32⟩ : BufTy).Contents (Elt F) → (⟨S32768x512, .f32⟩ : BufTy).Contents (Elt F) → (⟨S32768x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S32768x512, .f32⟩) main_call1_v0) (broadcastInDim S32768x512 ![] bcast_S_S32768x512),
    TRef.binary (TRef.of (T := ⟨S32768x512, .f32⟩) main_v33) (TRef.of (T := ⟨S32768x512, .f32⟩) main_call1_v0) (TRef.of (T := ⟨S32768x512, .f32⟩) main_v34) maximumf ]
/-- The references stretch 3 writes. -/
abbrev cW3 : List (Ref sig .tc) := [main_v30, main_v31, main_v32, main_v33, main_call1_cst, main_call1_v0, main_v34]
theorem c3_writes : (c3 : List (HloOp τ sig (Elt F))).Forall fun op => op.writes ⊆ (cW3.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- Stretch 4: operations 47 to 62 of the program. -/
abbrev c4 : List (HloOp τ sig (Elt F)) :=
  [ unary main_v29 main_v35 (broadcastInDim S163840x1 ![0] bcast_S163840_S163840x1_0 : (⟨S163840, .f32⟩ : BufTy).Contents (Elt F) → (⟨S163840x1, .f32⟩ : BufTy).Contents (Elt F)),
    nullary main_c_6 (constantI S_ 32 0#32),
    unary main_c_6 main_v36 (broadcastInDim S163840 ![] bcast_S_S163840 : (⟨S_, .i32⟩ : BufTy).Contents (Elt F) → (⟨S163840, .i32⟩ : BufTy).Contents (Elt F)),
    binary main_v3 main_v36 main_v37 (cmpi .slt : (⟨S163840, .i32⟩ : BufTy).Contents (Elt F) → (⟨S163840, .i32⟩ : BufTy).Contents (Elt F) → (⟨S163840, .i1⟩ : BufTy).Contents (Elt F)),
    nullary main_c_7 (constantI S_ 32 32768#32),
    unary main_c_7 main_v38 (broadcastInDim S163840 ![] bcast_S_S163840 : (⟨S_, .i32⟩ : BufTy).Contents (Elt F) → (⟨S163840, .i32⟩ : BufTy).Contents (Elt F)),
    binary main_v3 main_v38 main_v39 (addi : (⟨S163840, .i32⟩ : BufTy).Contents (Elt F) → (⟨S163840, .i32⟩ : BufTy).Contents (Elt F) → (⟨S163840, .i32⟩ : BufTy).Contents (Elt F)),
    ternary main_v37 main_v39 main_v3 main_v40 (select : (⟨S163840, .i1⟩ : BufTy).Contents (Elt F) → (⟨S163840, .i32⟩ : BufTy).Contents (Elt F) → (⟨S163840, .i32⟩ : BufTy).Contents (Elt F) → (⟨S163840, .i32⟩ : BufTy).Contents (Elt F)),
    unary main_v40 main_v41 (broadcastInDim S163840x1 ![0] bcast_S163840_S163840x1_0 : (⟨S163840, .i32⟩ : BufTy).Contents (Elt F) → (⟨S163840x1, .i32⟩ : BufTy).Contents (Elt F)),
    binary main_v34 main_v41 main_v42 ((fun x i => Host.gather gather_S32768x512_S163840x1_S163840x512_1_0_n_n_0_1_1512 x i) : (⟨S32768x512, .f32⟩ : BufTy).Contents (Elt F) → (⟨S163840x1, .i32⟩ : BufTy).Contents (Elt F) → (⟨S163840x512, .f32⟩ : BufTy).Contents (Elt F)),
    unary main_v35 main_v43 (broadcastInDim S163840x512 ![0, 1] bcast_S163840x1_S163840x512_0_1 : (⟨S163840x1, .f32⟩ : BufTy).Contents (Elt F) → (⟨S163840x512, .f32⟩ : BufTy).Contents (Elt F)),
    binary main_v43 main_v42 main_v44 (mulf : (⟨S163840x512, .f32⟩ : BufTy).Contents (Elt F) → (⟨S163840x512, .f32⟩ : BufTy).Contents (Elt F) → (⟨S163840x512, .f32⟩ : BufTy).Contents (Elt F)),
    nullary main_cst_8 (constant S_ .f32 0x00000000#32),
    unary main_cst_8 main_v45 (broadcastInDim S32768x512 ![] bcast_S_S32768x512 : (⟨S_, .f32⟩ : BufTy).Contents (Elt F) → (⟨S32768x512, .f32⟩ : BufTy).Contents (Elt F)),
    unary main_v6 main_v46 (broadcastInDim S163840x1 ![0] bcast_S163840_S163840x1_0 : (⟨S163840, .i32⟩ : BufTy).Contents (Elt F) → (⟨S163840x1, .i32⟩ : BufTy).Contents (Elt F)),
    ternary main_v45 main_v46 main_v44 main_v47 ((fun x i u => Host.scatterAdd scatter_S32768x512_S163840x1_S163840x512_1_0_0_1 x i u) : (⟨S32768x512, .f32⟩ : BufTy).Contents (Elt F) → (⟨S163840x1, .i32⟩ : BufTy).Contents (Elt F) → (⟨S163840x512, .f32⟩ : BufTy).Contents (Elt F) → (⟨S32768x512, .f32⟩ : BufTy).Contents (Elt F)) ]
/-- The references stretch 4 writes. -/
abbrev cW4 : List (Ref sig .tc) := [main_v35, main_c_6, main_v36, main_v37, main_c_7, main_v38, main_v39, main_v40, main_v41, main_v42, main_v43, main_v44, main_cst_8, main_v45, main_v46, main_v47]
theorem c4_writes : (c4 : List (HloOp τ sig (Elt F))).Forall fun op => op.writes ⊆ (cW4.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- Stretch 5: operations 63 to 77 of the program. -/
abbrev c5 : List (HloOp τ sig (Elt F)) :=
  [ nullary main_cst_9 (constant S_ .f32 0x3F4CCCCD#32),
    unary main_cst_9 main_v48 (broadcastInDim S32768x512 ![] bcast_S_S32768x512 : (⟨S_, .f32⟩ : BufTy).Contents (Elt F) → (⟨S32768x512, .f32⟩ : BufTy).Contents (Elt F)),
    binary main_v48 main_v47 main_v49 (mulf : (⟨S32768x512, .f32⟩ : BufTy).Contents (Elt F) → (⟨S32768x512, .f32⟩ : BufTy).Contents (Elt F) → (⟨S32768x512, .f32⟩ : BufTy).Contents (Elt F)),
    nullary main_cst_10 (constant S_ .f32 0x3E4CCCCD#32),
    unary main_cst_10 main_v50 (broadcastInDim S32768x512 ![] bcast_S_S32768x512 : (⟨S_, .f32⟩ : BufTy).Contents (Elt F) → (⟨S32768x512, .f32⟩ : BufTy).Contents (Elt F)),
    binary main_v50 main_v34 main_v51 (mulf : (⟨S32768x512, .f32⟩ : BufTy).Contents (Elt F) → (⟨S32768x512, .f32⟩ : BufTy).Contents (Elt F) → (⟨S32768x512, .f32⟩ : BufTy).Contents (Elt F)),
    binary main_v49 main_v51 main_v52 (addf : (⟨S32768x512, .f32⟩ : BufTy).Contents (Elt F) → (⟨S32768x512, .f32⟩ : BufTy).Contents (Elt F) → (⟨S32768x512, .f32⟩ : BufTy).Contents (Elt F)),
    unary main_arg6 main_v53 ((extractStridedSlice S1x512x512 ![0, 0, 0] · slices_S3x512x512_S1x512x512_0_0_0) : (⟨S3x512x512, .f32⟩ : BufTy).Contents (Elt F) → (⟨S1x512x512, .f32⟩ : BufTy).Contents (Elt F)),
    reshape main_v53 main_v54 rfl shapeCasts_S1x512x512_S512x512,
    binary main_v52 main_v54 main_v55 ((fun l r => Host.dotGeneral dot_S32768x512_S512x512_S32768x512_1_0_0_1_n_n none l r) : (⟨S32768x512, .f32⟩ : BufTy).Contents (Elt F) → (⟨S512x512, .f32⟩ : BufTy).Contents (Elt F) → (⟨S32768x512, .f32⟩ : BufTy).Contents (Elt F)),
    binary main_v52 main_v55 main_v56 (addf : (⟨S32768x512, .f32⟩ : BufTy).Contents (Elt F) → (⟨S32768x512, .f32⟩ : BufTy).Contents (Elt F) → (⟨S32768x512, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S32768x512, .f32⟩) main_call2_v0) (broadcastInDim S32768x512 ![] bcast_S_S32768x512),
    TRef.binary (TRef.of (T := ⟨S32768x512, .f32⟩) main_v56) (TRef.of (T := ⟨S32768x512, .f32⟩) main_call2_v0) (TRef.of (T := ⟨S32768x512, .f32⟩) main_v57) maximumf,
    binary main_v57 main_v34 main_v58 (addf : (⟨S32768x512, .f32⟩ : BufTy).Contents (Elt F) → (⟨S32768x512, .f32⟩ : BufTy).Contents (Elt F) → (⟨S32768x512, .f32⟩ : BufTy).Contents (Elt F)) ]
/-- The references stretch 5 writes. -/
abbrev cW5 : List (Ref sig .tc) := [main_cst_9, main_v48, main_v49, main_cst_10, main_v50, main_v51, main_v52, main_v53, main_v54, main_v55, main_v56, main_call2_cst, main_call2_v0, main_v57, main_v58]
theorem c5_writes : (c5 : List (HloOp τ sig (Elt F))).Forall fun op => op.writes ⊆ (cW5.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- Stretch 6: operations 78 to 93 of the program. -/
abbrev c6 : List (HloOp τ sig (Elt F)) :=
  [ unary main_v29 main_v59 (broadcastInDim S163840x1 ![0] bcast_S163840_S163840x1_0 : (⟨S163840, .f32⟩ : BufTy).Contents (Elt F) → (⟨S163840x1, .f32⟩ : BufTy).Contents (Elt F)),
    nullary main_c_11 (constantI S_ 32 0#32),
    unary main_c_11 main_v60 (broadcastInDim S163840 ![] bcast_S_S163840 : (⟨S_, .i32⟩ : BufTy).Contents (Elt F) → (⟨S163840, .i32⟩ : BufTy).Contents (Elt F)),
    binary main_v3 main_v60 main_v61 (cmpi .slt : (⟨S163840, .i32⟩ : BufTy).Contents (Elt F) → (⟨S163840, .i32⟩ : BufTy).Contents (Elt F) → (⟨S163840, .i1⟩ : BufTy).Contents (Elt F)),
    nullary main_c_12 (constantI S_ 32 32768#32),
    unary main_c_12 main_v62 (broadcastInDim S163840 ![] bcast_S_S163840 : (⟨S_, .i32⟩ : BufTy).Contents (Elt F) → (⟨S163840, .i32⟩ : BufTy).Contents (Elt F)),
    binary main_v3 main_v62 main_v63 (addi : (⟨S163840, .i32⟩ : BufTy).Contents (Elt F) → (⟨S163840, .i32⟩ : BufTy).Contents (Elt F) → (⟨S163840, .i32⟩ : BufTy).Contents (Elt F)),
    ternary main_v61 main_v63 main_v3 main_v64 (select : (⟨S163840, .i1⟩ : BufTy).Contents (Elt F) → (⟨S163840, .i32⟩ : BufTy).Contents (Elt F) → (⟨S163840, .i32⟩ : BufTy).Contents (Elt F) → (⟨S163840, .i32⟩ : BufTy).Contents (Elt F)),
    unary main_v64 main_v65 (broadcastInDim S163840x1 ![0] bcast_S163840_S163840x1_0 : (⟨S163840, .i32⟩ : BufTy).Contents (Elt F) → (⟨S163840x1, .i32⟩ : BufTy).Contents (Elt F)),
    binary main_v58 main_v65 main_v66 ((fun x i => Host.gather gather_S32768x512_S163840x1_S163840x512_1_0_n_n_0_1_1512 x i) : (⟨S32768x512, .f32⟩ : BufTy).Contents (Elt F) → (⟨S163840x1, .i32⟩ : BufTy).Contents (Elt F) → (⟨S163840x512, .f32⟩ : BufTy).Contents (Elt F)),
    unary main_v59 main_v67 (broadcastInDim S163840x512 ![0, 1] bcast_S163840x1_S163840x512_0_1 : (⟨S163840x1, .f32⟩ : BufTy).Contents (Elt F) → (⟨S163840x512, .f32⟩ : BufTy).Contents (Elt F)),
    binary main_v67 main_v66 main_v68 (mulf : (⟨S163840x512, .f32⟩ : BufTy).Contents (Elt F) → (⟨S163840x512, .f32⟩ : BufTy).Contents (Elt F) → (⟨S163840x512, .f32⟩ : BufTy).Contents (Elt F)),
    nullary main_cst_13 (constant S_ .f32 0x00000000#32),
    unary main_cst_13 main_v69 (broadcastInDim S32768x512 ![] bcast_S_S32768x512 : (⟨S_, .f32⟩ : BufTy).Contents (Elt F) → (⟨S32768x512, .f32⟩ : BufTy).Contents (Elt F)),
    unary main_v6 main_v70 (broadcastInDim S163840x1 ![0] bcast_S163840_S163840x1_0 : (⟨S163840, .i32⟩ : BufTy).Contents (Elt F) → (⟨S163840x1, .i32⟩ : BufTy).Contents (Elt F)),
    ternary main_v69 main_v70 main_v68 main_v71 ((fun x i u => Host.scatterAdd scatter_S32768x512_S163840x1_S163840x512_1_0_0_1 x i u) : (⟨S32768x512, .f32⟩ : BufTy).Contents (Elt F) → (⟨S163840x1, .i32⟩ : BufTy).Contents (Elt F) → (⟨S163840x512, .f32⟩ : BufTy).Contents (Elt F) → (⟨S32768x512, .f32⟩ : BufTy).Contents (Elt F)) ]
/-- The references stretch 6 writes. -/
abbrev cW6 : List (Ref sig .tc) := [main_v59, main_c_11, main_v60, main_v61, main_c_12, main_v62, main_v63, main_v64, main_v65, main_v66, main_v67, main_v68, main_cst_13, main_v69, main_v70, main_v71]
theorem c6_writes : (c6 : List (HloOp τ sig (Elt F))).Forall fun op => op.writes ⊆ (cW6.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- Stretch 7: operations 94 to 108 of the program. -/
abbrev c7 : List (HloOp τ sig (Elt F)) :=
  [ nullary main_cst_14 (constant S_ .f32 0x3F4CCCCD#32),
    unary main_cst_14 main_v72 (broadcastInDim S32768x512 ![] bcast_S_S32768x512 : (⟨S_, .f32⟩ : BufTy).Contents (Elt F) → (⟨S32768x512, .f32⟩ : BufTy).Contents (Elt F)),
    binary main_v72 main_v71 main_v73 (mulf : (⟨S32768x512, .f32⟩ : BufTy).Contents (Elt F) → (⟨S32768x512, .f32⟩ : BufTy).Contents (Elt F) → (⟨S32768x512, .f32⟩ : BufTy).Contents (Elt F)),
    nullary main_cst_15 (constant S_ .f32 0x3E4CCCCD#32),
    unary main_cst_15 main_v74 (broadcastInDim S32768x512 ![] bcast_S_S32768x512 : (⟨S_, .f32⟩ : BufTy).Contents (Elt F) → (⟨S32768x512, .f32⟩ : BufTy).Contents (Elt F)),
    binary main_v74 main_v34 main_v75 (mulf : (⟨S32768x512, .f32⟩ : BufTy).Contents (Elt F) → (⟨S32768x512, .f32⟩ : BufTy).Contents (Elt F) → (⟨S32768x512, .f32⟩ : BufTy).Contents (Elt F)),
    binary main_v73 main_v75 main_v76 (addf : (⟨S32768x512, .f32⟩ : BufTy).Contents (Elt F) → (⟨S32768x512, .f32⟩ : BufTy).Contents (Elt F) → (⟨S32768x512, .f32⟩ : BufTy).Contents (Elt F)),
    unary main_arg6 main_v77 ((extractStridedSlice S1x512x512 ![1, 0, 0] · slices_S3x512x512_S1x512x512_1_0_0) : (⟨S3x512x512, .f32⟩ : BufTy).Contents (Elt F) → (⟨S1x512x512, .f32⟩ : BufTy).Contents (Elt F)),
    reshape main_v77 main_v78 rfl shapeCasts_S1x512x512_S512x512,
    binary main_v76 main_v78 main_v79 ((fun l r => Host.dotGeneral dot_S32768x512_S512x512_S32768x512_1_0_0_1_n_n none l r) : (⟨S32768x512, .f32⟩ : BufTy).Contents (Elt F) → (⟨S512x512, .f32⟩ : BufTy).Contents (Elt F) → (⟨S32768x512, .f32⟩ : BufTy).Contents (Elt F)),
    binary main_v76 main_v79 main_v80 (addf : (⟨S32768x512, .f32⟩ : BufTy).Contents (Elt F) → (⟨S32768x512, .f32⟩ : BufTy).Contents (Elt F) → (⟨S32768x512, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S32768x512, .f32⟩) main_call3_v0) (broadcastInDim S32768x512 ![] bcast_S_S32768x512),
    TRef.binary (TRef.of (T := ⟨S32768x512, .f32⟩) main_v80) (TRef.of (T := ⟨S32768x512, .f32⟩) main_call3_v0) (TRef.of (T := ⟨S32768x512, .f32⟩) main_v81) maximumf,
    binary main_v81 main_v58 main_v82 (addf : (⟨S32768x512, .f32⟩ : BufTy).Contents (Elt F) → (⟨S32768x512, .f32⟩ : BufTy).Contents (Elt F) → (⟨S32768x512, .f32⟩ : BufTy).Contents (Elt F)) ]
/-- The references stretch 7 writes. -/
abbrev cW7 : List (Ref sig .tc) := [main_cst_14, main_v72, main_v73, main_cst_15, main_v74, main_v75, main_v76, main_v77, main_v78, main_v79, main_v80, main_call3_cst, main_call3_v0, main_v81, main_v82]
theorem c7_writes : (c7 : List (HloOp τ sig (Elt F))).Forall fun op => op.writes ⊆ (cW7.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- Stretch 8: operations 109 to 124 of the program. -/
abbrev c8 : List (HloOp τ sig (Elt F)) :=
  [ unary main_v29 main_v83 (broadcastInDim S163840x1 ![0] bcast_S163840_S163840x1_0 : (⟨S163840, .f32⟩ : BufTy).Contents (Elt F) → (⟨S163840x1, .f32⟩ : BufTy).Contents (Elt F)),
    nullary main_c_16 (constantI S_ 32 0#32),
    unary main_c_16 main_v84 (broadcastInDim S163840 ![] bcast_S_S163840 : (⟨S_, .i32⟩ : BufTy).Contents (Elt F) → (⟨S163840, .i32⟩ : BufTy).Contents (Elt F)),
    binary main_v3 main_v84 main_v85 (cmpi .slt : (⟨S163840, .i32⟩ : BufTy).Contents (Elt F) → (⟨S163840, .i32⟩ : BufTy).Contents (Elt F) → (⟨S163840, .i1⟩ : BufTy).Contents (Elt F)),
    nullary main_c_17 (constantI S_ 32 32768#32),
    unary main_c_17 main_v86 (broadcastInDim S163840 ![] bcast_S_S163840 : (⟨S_, .i32⟩ : BufTy).Contents (Elt F) → (⟨S163840, .i32⟩ : BufTy).Contents (Elt F)),
    binary main_v3 main_v86 main_v87 (addi : (⟨S163840, .i32⟩ : BufTy).Contents (Elt F) → (⟨S163840, .i32⟩ : BufTy).Contents (Elt F) → (⟨S163840, .i32⟩ : BufTy).Contents (Elt F)),
    ternary main_v85 main_v87 main_v3 main_v88 (select : (⟨S163840, .i1⟩ : BufTy).Contents (Elt F) → (⟨S163840, .i32⟩ : BufTy).Contents (Elt F) → (⟨S163840, .i32⟩ : BufTy).Contents (Elt F) → (⟨S163840, .i32⟩ : BufTy).Contents (Elt F)),
    unary main_v88 main_v89 (broadcastInDim S163840x1 ![0] bcast_S163840_S163840x1_0 : (⟨S163840, .i32⟩ : BufTy).Contents (Elt F) → (⟨S163840x1, .i32⟩ : BufTy).Contents (Elt F)),
    binary main_v82 main_v89 main_v90 ((fun x i => Host.gather gather_S32768x512_S163840x1_S163840x512_1_0_n_n_0_1_1512 x i) : (⟨S32768x512, .f32⟩ : BufTy).Contents (Elt F) → (⟨S163840x1, .i32⟩ : BufTy).Contents (Elt F) → (⟨S163840x512, .f32⟩ : BufTy).Contents (Elt F)),
    unary main_v83 main_v91 (broadcastInDim S163840x512 ![0, 1] bcast_S163840x1_S163840x512_0_1 : (⟨S163840x1, .f32⟩ : BufTy).Contents (Elt F) → (⟨S163840x512, .f32⟩ : BufTy).Contents (Elt F)),
    binary main_v91 main_v90 main_v92 (mulf : (⟨S163840x512, .f32⟩ : BufTy).Contents (Elt F) → (⟨S163840x512, .f32⟩ : BufTy).Contents (Elt F) → (⟨S163840x512, .f32⟩ : BufTy).Contents (Elt F)),
    nullary main_cst_18 (constant S_ .f32 0x00000000#32),
    unary main_cst_18 main_v93 (broadcastInDim S32768x512 ![] bcast_S_S32768x512 : (⟨S_, .f32⟩ : BufTy).Contents (Elt F) → (⟨S32768x512, .f32⟩ : BufTy).Contents (Elt F)),
    unary main_v6 main_v94 (broadcastInDim S163840x1 ![0] bcast_S163840_S163840x1_0 : (⟨S163840, .i32⟩ : BufTy).Contents (Elt F) → (⟨S163840x1, .i32⟩ : BufTy).Contents (Elt F)),
    ternary main_v93 main_v94 main_v92 main_v95 ((fun x i u => Host.scatterAdd scatter_S32768x512_S163840x1_S163840x512_1_0_0_1 x i u) : (⟨S32768x512, .f32⟩ : BufTy).Contents (Elt F) → (⟨S163840x1, .i32⟩ : BufTy).Contents (Elt F) → (⟨S163840x512, .f32⟩ : BufTy).Contents (Elt F) → (⟨S32768x512, .f32⟩ : BufTy).Contents (Elt F)) ]
/-- The references stretch 8 writes. -/
abbrev cW8 : List (Ref sig .tc) := [main_v83, main_c_16, main_v84, main_v85, main_c_17, main_v86, main_v87, main_v88, main_v89, main_v90, main_v91, main_v92, main_cst_18, main_v93, main_v94, main_v95]
theorem c8_writes : (c8 : List (HloOp τ sig (Elt F))).Forall fun op => op.writes ⊆ (cW8.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- Stretch 9: operations 125 to 139 of the program. -/
abbrev c9 : List (HloOp τ sig (Elt F)) :=
  [ nullary main_cst_19 (constant S_ .f32 0x3F4CCCCD#32),
    unary main_cst_19 main_v96 (broadcastInDim S32768x512 ![] bcast_S_S32768x512 : (⟨S_, .f32⟩ : BufTy).Contents (Elt F) → (⟨S32768x512, .f32⟩ : BufTy).Contents (Elt F)),
    binary main_v96 main_v95 main_v97 (mulf : (⟨S32768x512, .f32⟩ : BufTy).Contents (Elt F) → (⟨S32768x512, .f32⟩ : BufTy).Contents (Elt F) → (⟨S32768x512, .f32⟩ : BufTy).Contents (Elt F)),
    nullary main_cst_20 (constant S_ .f32 0x3E4CCCCD#32),
    unary main_cst_20 main_v98 (broadcastInDim S32768x512 ![] bcast_S_S32768x512 : (⟨S_, .f32⟩ : BufTy).Contents (Elt F) → (⟨S32768x512, .f32⟩ : BufTy).Contents (Elt F)),
    binary main_v98 main_v34 main_v99 (mulf : (⟨S32768x512, .f32⟩ : BufTy).Contents (Elt F) → (⟨S32768x512, .f32⟩ : BufTy).Contents (Elt F) → (⟨S32768x512, .f32⟩ : BufTy).Contents (Elt F)),
    binary main_v97 main_v99 main_v100 (addf : (⟨S32768x512, .f32⟩ : BufTy).Contents (Elt F) → (⟨S32768x512, .f32⟩ : BufTy).Contents (Elt F) → (⟨S32768x512, .f32⟩ : BufTy).Contents (Elt F)),
    unary main_arg6 main_v101 ((extractStridedSlice S1x512x512 ![2, 0, 0] · slices_S3x512x512_S1x512x512_2_0_0) : (⟨S3x512x512, .f32⟩ : BufTy).Contents (Elt F) → (⟨S1x512x512, .f32⟩ : BufTy).Contents (Elt F)),
    reshape main_v101 main_v102 rfl shapeCasts_S1x512x512_S512x512,
    binary main_v100 main_v102 main_v103 ((fun l r => Host.dotGeneral dot_S32768x512_S512x512_S32768x512_1_0_0_1_n_n none l r) : (⟨S32768x512, .f32⟩ : BufTy).Contents (Elt F) → (⟨S512x512, .f32⟩ : BufTy).Contents (Elt F) → (⟨S32768x512, .f32⟩ : BufTy).Contents (Elt F)),
    binary main_v100 main_v103 main_v104 (addf : (⟨S32768x512, .f32⟩ : BufTy).Contents (Elt F) → (⟨S32768x512, .f32⟩ : BufTy).Contents (Elt F) → (⟨S32768x512, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S32768x512, .f32⟩) main_call4_v0) (broadcastInDim S32768x512 ![] bcast_S_S32768x512),
    TRef.binary (TRef.of (T := ⟨S32768x512, .f32⟩) main_v104) (TRef.of (T := ⟨S32768x512, .f32⟩) main_call4_v0) (TRef.of (T := ⟨S32768x512, .f32⟩) main_v105) maximumf,
    binary main_v105 main_v82 main_v106 (addf : (⟨S32768x512, .f32⟩ : BufTy).Contents (Elt F) → (⟨S32768x512, .f32⟩ : BufTy).Contents (Elt F) → (⟨S32768x512, .f32⟩ : BufTy).Contents (Elt F)) ]
/-- The references stretch 9 writes. -/
abbrev cW9 : List (Ref sig .tc) := [main_cst_19, main_v96, main_v97, main_cst_20, main_v98, main_v99, main_v100, main_v101, main_v102, main_v103, main_v104, main_call4_cst, main_call4_v0, main_v105, main_v106]
theorem c9_writes : (c9 : List (HloOp τ sig (Elt F))).Forall fun op => op.writes ⊆ (cW9.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- Stretch 10: operations 140 to 143 of the program. -/
abbrev c10 : List (HloOp τ sig (Elt F)) :=
  [ binary main_v106 main_arg7 main_v107 ((fun l r => Host.dotGeneral dot_S32768x512_S512x128_S32768x128_1_0_0_1_n_n none l r) : (⟨S32768x512, .f32⟩ : BufTy).Contents (Elt F) → (⟨S512x128, .f32⟩ : BufTy).Contents (Elt F) → (⟨S32768x128, .f32⟩ : BufTy).Contents (Elt F)),
    unary main_arg8 main_v108 (broadcastInDim S1x128 ![1] bcast_S128_S1x128_1 : (⟨S128, .f32⟩ : BufTy).Contents (Elt F) → (⟨S1x128, .f32⟩ : BufTy).Contents (Elt F)),
    unary main_v108 main_v109 (broadcastInDim S32768x128 ![0, 1] bcast_S1x128_S32768x128_0_1 : (⟨S1x128, .f32⟩ : BufTy).Contents (Elt F) → (⟨S32768x128, .f32⟩ : BufTy).Contents (Elt F)),
    binary main_v107 main_v109 main_v110 (addf : (⟨S32768x128, .f32⟩ : BufTy).Contents (Elt F) → (⟨S32768x128, .f32⟩ : BufTy).Contents (Elt F) → (⟨S32768x128, .f32⟩ : BufTy).Contents (Elt F)) ]
/-- The references stretch 10 writes. -/
abbrev cW10 : List (Ref sig .tc) := [main_v107, main_v108, main_v109, main_v110]
theorem c10_writes : (c10 : List (HloOp τ sig (Elt F))).Forall fun op => op.writes ⊆ (cW10.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- Stretch 11: operations 144 to 161 of the program. -/
abbrev c11 : List (HloOp τ sig (Elt F)) :=
  [ nullary main_v111 (iotaInDim S32768 32 0),
    unary main_arg3 main_v112 ((extractStridedSlice S1x196608 ![0, 0] · slices_S2x196608_S1x196608_0_0) : (⟨S2x196608, .i32⟩ : BufTy).Contents (Elt F) → (⟨S1x196608, .i32⟩ : BufTy).Contents (Elt F)),
    reshape main_v112 main_v113 rfl shapeCasts_S1x196608_S196608,
    binary main_v113 main_v111 main_v114 ((fun a b => concatenate S229376 0 [⟨S196608, a⟩, ⟨S32768, b⟩] concatenates_S196608_S32768_S229376_d0) : (⟨S196608, .i32⟩ : BufTy).Contents (Elt F) → (⟨S32768, .i32⟩ : BufTy).Contents (Elt F) → (⟨S229376, .i32⟩ : BufTy).Contents (Elt F)),
    unary main_arg3 main_v115 ((extractStridedSlice S1x196608 ![1, 0] · slices_S2x196608_S1x196608_1_0) : (⟨S2x196608, .i32⟩ : BufTy).Contents (Elt F) → (⟨S1x196608, .i32⟩ : BufTy).Contents (Elt F)),
    reshape main_v115 main_v116 rfl shapeCasts_S1x196608_S196608,
    binary main_v116 main_v111 main_v117 ((fun a b => concatenate S229376 0 [⟨S196608, a⟩, ⟨S32768, b⟩] concatenates_S196608_S32768_S229376_d0) : (⟨S196608, .i32⟩ : BufTy).Contents (Elt F) → (⟨S32768, .i32⟩ : BufTy).Contents (Elt F) → (⟨S229376, .i32⟩ : BufTy).Contents (Elt F)),
    nullary main_cst_21 (constant S_ .f32 0x3F800000#32),
    unary main_cst_21 main_v118 (broadcastInDim S229376 ![] bcast_S_S229376 : (⟨S_, .f32⟩ : BufTy).Contents (Elt F) → (⟨S229376, .f32⟩ : BufTy).Contents (Elt F)),
    nullary main_cst_22 (constant S_ .f32 0x00000000#32),
    unary main_cst_22 main_v119 (broadcastInDim S32768 ![] bcast_S_S32768 : (⟨S_, .f32⟩ : BufTy).Contents (Elt F) → (⟨S32768, .f32⟩ : BufTy).Contents (Elt F)),
    unary main_v117 main_v120 (broadcastInDim S229376x1 ![0] bcast_S229376_S229376x1_0 : (⟨S229376, .i32⟩ : BufTy).Contents (Elt F) → (⟨S229376x1, .i32⟩ : BufTy).Contents (Elt F)),
    ternary main_v119 main_v120 main_v118 main_v121 ((fun x i u => Host.scatterAdd scatter_S32768_S229376x1_S229376_n_0_0_1 x i u) : (⟨S32768, .f32⟩ : BufTy).Contents (Elt F) → (⟨S229376x1, .i32⟩ : BufTy).Contents (Elt F) → (⟨S229376, .f32⟩ : BufTy).Contents (Elt F) → (⟨S32768, .f32⟩ : BufTy).Contents (Elt F)),
    nullary main_cst_23 (constant S_ .f32 0x00000000#32),
    unary main_cst_23 main_v122 (broadcastInDim S32768 ![] bcast_S_S32768 : (⟨S_, .f32⟩ : BufTy).Contents (Elt F) → (⟨S32768, .f32⟩ : BufTy).Contents (Elt F)),
    binary main_v121 main_v122 main_v123 (cmpf .ogt : (⟨S32768, .f32⟩ : BufTy).Contents (Elt F) → (⟨S32768, .f32⟩ : BufTy).Contents (Elt F) → (⟨S32768, .i1⟩ : BufTy).Contents (Elt F)),
    unary main_v121 main_v124 (Host.rsqrt : (⟨S32768, .f32⟩ : BufTy).Contents (Elt F) → (⟨S32768, .f32⟩ : BufTy).Contents (Elt F)),
    nullary main_cst_24 (constant S_ .f32 0x00000000#32) ]
/-- The references stretch 11 writes. -/
abbrev cW11 : List (Ref sig .tc) := [main_v111, main_v112, main_v113, main_v114, main_v115, main_v116, main_v117, main_cst_21, main_v118, main_cst_22, main_v119, main_v120, main_v121, main_cst_23, main_v122, main_v123, main_v124, main_cst_24]
theorem c11_writes : (c11 : List (HloOp τ sig (Elt F))).Forall fun op => op.writes ⊆ (cW11.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- Stretch 12: operations 162 to 164 of the program. -/
abbrev c12 : List (HloOp τ sig (Elt F)) :=
  [ TRef.unary (TRef.of (T := ⟨S_, .f32⟩) main_cst_24) (TRef.of (T := ⟨S_, .f32⟩) main_call5_v0) id,
    TRef.unary (TRef.of (T := ⟨S_, .f32⟩) main_call5_v0) (TRef.of (T := ⟨S32768, .f32⟩) main_call5_v1) (broadcastInDim S32768 ![] bcast_S_S32768),
    TRef.ternary (TRef.of (T := ⟨S32768, .i1⟩) main_v123) (TRef.of (T := ⟨S32768, .f32⟩) main_v124) (TRef.of (T := ⟨S32768, .f32⟩) main_call5_v1) (TRef.of (T := ⟨S32768, .f32⟩) main_v125) select ]
/-- The references stretch 12 writes. -/
abbrev cW12 : List (Ref sig .tc) := [main_call5_v0, main_call5_v1, main_v125]
theorem c12_writes : (c12 : List (HloOp τ sig (Elt F))).Forall fun op => op.writes ⊆ (cW12.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- Stretch 13: operations 165 to 183 of the program. -/
abbrev c13 : List (HloOp τ sig (Elt F)) :=
  [ nullary main_c_25 (constantI S_ 32 0#32),
    unary main_c_25 main_v126 (broadcastInDim S229376 ![] bcast_S_S229376 : (⟨S_, .i32⟩ : BufTy).Contents (Elt F) → (⟨S229376, .i32⟩ : BufTy).Contents (Elt F)),
    binary main_v114 main_v126 main_v127 (cmpi .slt : (⟨S229376, .i32⟩ : BufTy).Contents (Elt F) → (⟨S229376, .i32⟩ : BufTy).Contents (Elt F) → (⟨S229376, .i1⟩ : BufTy).Contents (Elt F)),
    nullary main_c_26 (constantI S_ 32 32768#32),
    unary main_c_26 main_v128 (broadcastInDim S229376 ![] bcast_S_S229376 : (⟨S_, .i32⟩ : BufTy).Contents (Elt F) → (⟨S229376, .i32⟩ : BufTy).Contents (Elt F)),
    binary main_v114 main_v128 main_v129 (addi : (⟨S229376, .i32⟩ : BufTy).Contents (Elt F) → (⟨S229376, .i32⟩ : BufTy).Contents (Elt F) → (⟨S229376, .i32⟩ : BufTy).Contents (Elt F)),
    ternary main_v127 main_v129 main_v114 main_v130 (select : (⟨S229376, .i1⟩ : BufTy).Contents (Elt F) → (⟨S229376, .i32⟩ : BufTy).Contents (Elt F) → (⟨S229376, .i32⟩ : BufTy).Contents (Elt F) → (⟨S229376, .i32⟩ : BufTy).Contents (Elt F)),
    unary main_v130 main_v131 (broadcastInDim S229376x1 ![0] bcast_S229376_S229376x1_0 : (⟨S229376, .i32⟩ : BufTy).Contents (Elt F) → (⟨S229376x1, .i32⟩ : BufTy).Contents (Elt F)),
    binary main_v125 main_v131 main_v132 ((fun x i => Host.gather gather_S32768_S229376x1_S229376_n_0_n_n_0_1_1 x i) : (⟨S32768, .f32⟩ : BufTy).Contents (Elt F) → (⟨S229376x1, .i32⟩ : BufTy).Contents (Elt F) → (⟨S229376, .f32⟩ : BufTy).Contents (Elt F)),
    nullary main_c_27 (constantI S_ 32 0#32),
    unary main_c_27 main_v133 (broadcastInDim S229376 ![] bcast_S_S229376 : (⟨S_, .i32⟩ : BufTy).Contents (Elt F) → (⟨S229376, .i32⟩ : BufTy).Contents (Elt F)),
    binary main_v117 main_v133 main_v134 (cmpi .slt : (⟨S229376, .i32⟩ : BufTy).Contents (Elt F) → (⟨S229376, .i32⟩ : BufTy).Contents (Elt F) → (⟨S229376, .i1⟩ : BufTy).Contents (Elt F)),
    nullary main_c_28 (constantI S_ 32 32768#32),
    unary main_c_28 main_v135 (broadcastInDim S229376 ![] bcast_S_S229376 : (⟨S_, .i32⟩ : BufTy).Contents (Elt F) → (⟨S229376, .i32⟩ : BufTy).Contents (Elt F)),
    binary main_v117 main_v135 main_v136 (addi : (⟨S229376, .i32⟩ : BufTy).Contents (Elt F) → (⟨S229376, .i32⟩ : BufTy).Contents (Elt F) → (⟨S229376, .i32⟩ : BufTy).Contents (Elt F)),
    ternary main_v134 main_v136 main_v117 main_v137 (select : (⟨S229376, .i1⟩ : BufTy).Contents (Elt F) → (⟨S229376, .i32⟩ : BufTy).Contents (Elt F) → (⟨S229376, .i32⟩ : BufTy).Contents (Elt F) → (⟨S229376, .i32⟩ : BufTy).Contents (Elt F)),
    unary main_v137 main_v138 (broadcastInDim S229376x1 ![0] bcast_S229376_S229376x1_0 : (⟨S229376, .i32⟩ : BufTy).Contents (Elt F) → (⟨S229376x1, .i32⟩ : BufTy).Contents (Elt F)),
    binary main_v125 main_v138 main_v139 ((fun x i => Host.gather gather_S32768_S229376x1_S229376_n_0_n_n_0_1_1 x i) : (⟨S32768, .f32⟩ : BufTy).Contents (Elt F) → (⟨S229376x1, .i32⟩ : BufTy).Contents (Elt F) → (⟨S229376, .f32⟩ : BufTy).Contents (Elt F)),
    binary main_v132 main_v139 main_v140 (mulf : (⟨S229376, .f32⟩ : BufTy).Contents (Elt F) → (⟨S229376, .f32⟩ : BufTy).Contents (Elt F) → (⟨S229376, .f32⟩ : BufTy).Contents (Elt F)) ]
/-- The references stretch 13 writes. -/
abbrev cW13 : List (Ref sig .tc) := [main_c_25, main_v126, main_v127, main_c_26, main_v128, main_v129, main_v130, main_v131, main_v132, main_c_27, main_v133, main_v134, main_c_28, main_v135, main_v136, main_v137, main_v138, main_v139, main_v140]
theorem c13_writes : (c13 : List (HloOp τ sig (Elt F))).Forall fun op => op.writes ⊆ (cW13.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- Stretch 14: operations 184 to 190 of the program. -/
abbrev c14 : List (HloOp τ sig (Elt F)) :=
  [ binary main_arg2 main_arg9 main_v141 ((fun l r => Host.dotGeneral dot_S32768x54_S54x512_S32768x512_1_0_0_1_n_n none l r) : (⟨S32768x54, .f32⟩ : BufTy).Contents (Elt F) → (⟨S54x512, .f32⟩ : BufTy).Contents (Elt F) → (⟨S32768x512, .f32⟩ : BufTy).Contents (Elt F)),
    unary main_arg10 main_v142 (broadcastInDim S1x512 ![1] bcast_S512_S1x512_1 : (⟨S512, .f32⟩ : BufTy).Contents (Elt F) → (⟨S1x512, .f32⟩ : BufTy).Contents (Elt F)),
    unary main_v142 main_v143 (broadcastInDim S32768x512 ![0, 1] bcast_S1x512_S32768x512_0_1 : (⟨S1x512, .f32⟩ : BufTy).Contents (Elt F) → (⟨S32768x512, .f32⟩ : BufTy).Contents (Elt F)),
    binary main_v141 main_v143 main_v144 (addf : (⟨S32768x512, .f32⟩ : BufTy).Contents (Elt F) → (⟨S32768x512, .f32⟩ : BufTy).Contents (Elt F) → (⟨S32768x512, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S32768x512, .f32⟩) main_call6_v0) (broadcastInDim S32768x512 ![] bcast_S_S32768x512),
    TRef.binary (TRef.of (T := ⟨S32768x512, .f32⟩) main_v144) (TRef.of (T := ⟨S32768x512, .f32⟩) main_call6_v0) (TRef.of (T := ⟨S32768x512, .f32⟩) main_v145) maximumf ]
/-- The references stretch 14 writes. -/
abbrev cW14 : List (Ref sig .tc) := [main_v141, main_v142, main_v143, main_v144, main_call6_cst, main_call6_v0, main_v145]
theorem c14_writes : (c14 : List (HloOp τ sig (Elt F))).Forall fun op => op.writes ⊆ (cW14.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- Stretch 15: operations 191 to 206 of the program. -/
abbrev c15 : List (HloOp τ sig (Elt F)) :=
  [ unary main_v140 main_v146 (broadcastInDim S229376x1 ![0] bcast_S229376_S229376x1_0 : (⟨S229376, .f32⟩ : BufTy).Contents (Elt F) → (⟨S229376x1, .f32⟩ : BufTy).Contents (Elt F)),
    nullary main_c_29 (constantI S_ 32 0#32),
    unary main_c_29 main_v147 (broadcastInDim S229376 ![] bcast_S_S229376 : (⟨S_, .i32⟩ : BufTy).Contents (Elt F) → (⟨S229376, .i32⟩ : BufTy).Contents (Elt F)),
    binary main_v114 main_v147 main_v148 (cmpi .slt : (⟨S229376, .i32⟩ : BufTy).Contents (Elt F) → (⟨S229376, .i32⟩ : BufTy).Contents (Elt F) → (⟨S229376, .i1⟩ : BufTy).Contents (Elt F)),
    nullary main_c_30 (constantI S_ 32 32768#32),
    unary main_c_30 main_v149 (broadcastInDim S229376 ![] bcast_S_S229376 : (⟨S_, .i32⟩ : BufTy).Contents (Elt F) → (⟨S229376, .i32⟩ : BufTy).Contents (Elt F)),
    binary main_v114 main_v149 main_v150 (addi : (⟨S229376, .i32⟩ : BufTy).Contents (Elt F) → (⟨S229376, .i32⟩ : BufTy).Contents (Elt F) → (⟨S229376, .i32⟩ : BufTy).Contents (Elt F)),
    ternary main_v148 main_v150 main_v114 main_v151 (select : (⟨S229376, .i1⟩ : BufTy).Contents (Elt F) → (⟨S229376, .i32⟩ : BufTy).Contents (Elt F) → (⟨S229376, .i32⟩ : BufTy).Contents (Elt F) → (⟨S229376, .i32⟩ : BufTy).Contents (Elt F)),
    unary main_v151 main_v152 (broadcastInDim S229376x1 ![0] bcast_S229376_S229376x1_0 : (⟨S229376, .i32⟩ : BufTy).Contents (Elt F) → (⟨S229376x1, .i32⟩ : BufTy).Contents (Elt F)),
    binary main_v145 main_v152 main_v153 ((fun x i => Host.gather gather_S32768x512_S229376x1_S229376x512_1_0_n_n_0_1_1512 x i) : (⟨S32768x512, .f32⟩ : BufTy).Contents (Elt F) → (⟨S229376x1, .i32⟩ : BufTy).Contents (Elt F) → (⟨S229376x512, .f32⟩ : BufTy).Contents (Elt F)),
    unary main_v146 main_v154 (broadcastInDim S229376x512 ![0, 1] bcast_S229376x1_S229376x512_0_1 : (⟨S229376x1, .f32⟩ : BufTy).Contents (Elt F) → (⟨S229376x512, .f32⟩ : BufTy).Contents (Elt F)),
    binary main_v154 main_v153 main_v155 (mulf : (⟨S229376x512, .f32⟩ : BufTy).Contents (Elt F) → (⟨S229376x512, .f32⟩ : BufTy).Contents (Elt F) → (⟨S229376x512, .f32⟩ : BufTy).Contents (Elt F)),
    nullary main_cst_31 (constant S_ .f32 0x00000000#32),
    unary main_cst_31 main_v156 (broadcastInDim S32768x512 ![] bcast_S_S32768x512 : (⟨S_, .f32⟩ : BufTy).Contents (Elt F) → (⟨S32768x512, .f32⟩ : BufTy).Contents (Elt F)),
    unary main_v117 main_v157 (broadcastInDim S229376x1 ![0] bcast_S229376_S229376x1_0 : (⟨S229376, .i32⟩ : BufTy).Contents (Elt F) → (⟨S229376x1, .i32⟩ : BufTy).Contents (Elt F)),
    ternary main_v156 main_v157 main_v155 main_v158 ((fun x i u => Host.scatterAdd scatter_S32768x512_S229376x1_S229376x512_1_0_0_1 x i u) : (⟨S32768x512, .f32⟩ : BufTy).Contents (Elt F) → (⟨S229376x1, .i32⟩ : BufTy).Contents (Elt F) → (⟨S229376x512, .f32⟩ : BufTy).Contents (Elt F) → (⟨S32768x512, .f32⟩ : BufTy).Contents (Elt F)) ]
/-- The references stretch 15 writes. -/
abbrev cW15 : List (Ref sig .tc) := [main_v146, main_c_29, main_v147, main_v148, main_c_30, main_v149, main_v150, main_v151, main_v152, main_v153, main_v154, main_v155, main_cst_31, main_v156, main_v157, main_v158]
theorem c15_writes : (c15 : List (HloOp τ sig (Elt F))).Forall fun op => op.writes ⊆ (cW15.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- Stretch 16: operations 207 to 221 of the program. -/
abbrev c16 : List (HloOp τ sig (Elt F)) :=
  [ nullary main_cst_32 (constant S_ .f32 0x3F4CCCCD#32),
    unary main_cst_32 main_v159 (broadcastInDim S32768x512 ![] bcast_S_S32768x512 : (⟨S_, .f32⟩ : BufTy).Contents (Elt F) → (⟨S32768x512, .f32⟩ : BufTy).Contents (Elt F)),
    binary main_v159 main_v158 main_v160 (mulf : (⟨S32768x512, .f32⟩ : BufTy).Contents (Elt F) → (⟨S32768x512, .f32⟩ : BufTy).Contents (Elt F) → (⟨S32768x512, .f32⟩ : BufTy).Contents (Elt F)),
    nullary main_cst_33 (constant S_ .f32 0x3E4CCCCD#32),
    unary main_cst_33 main_v161 (broadcastInDim S32768x512 ![] bcast_S_S32768x512 : (⟨S_, .f32⟩ : BufTy).Contents (Elt F) → (⟨S32768x512, .f32⟩ : BufTy).Contents (Elt F)),
    binary main_v161 main_v145 main_v162 (mulf : (⟨S32768x512, .f32⟩ : BufTy).Contents (Elt F) → (⟨S32768x512, .f32⟩ : BufTy).Contents (Elt F) → (⟨S32768x512, .f32⟩ : BufTy).Contents (Elt F)),
    binary main_v160 main_v162 main_v163 (addf : (⟨S32768x512, .f32⟩ : BufTy).Contents (Elt F) → (⟨S32768x512, .f32⟩ : BufTy).Contents (Elt F) → (⟨S32768x512, .f32⟩ : BufTy).Contents (Elt F)),
    unary main_arg11 main_v164 ((extractStridedSlice S1x512x512 ![0, 0, 0] · slices_S3x512x512_S1x512x512_0_0_0) : (⟨S3x512x512, .f32⟩ : BufTy).Contents (Elt F) → (⟨S1x512x512, .f32⟩ : BufTy).Contents (Elt F)),
    reshape main_v164 main_v165 rfl shapeCasts_S1x512x512_S512x512,
    binary main_v163 main_v165 main_v166 ((fun l r => Host.dotGeneral dot_S32768x512_S512x512_S32768x512_1_0_0_1_n_n none l r) : (⟨S32768x512, .f32⟩ : BufTy).Contents (Elt F) → (⟨S512x512, .f32⟩ : BufTy).Contents (Elt F) → (⟨S32768x512, .f32⟩ : BufTy).Contents (Elt F)),
    binary main_v163 main_v166 main_v167 (addf : (⟨S32768x512, .f32⟩ : BufTy).Contents (Elt F) → (⟨S32768x512, .f32⟩ : BufTy).Contents (Elt F) → (⟨S32768x512, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S32768x512, .f32⟩) main_call7_v0) (broadcastInDim S32768x512 ![] bcast_S_S32768x512),
    TRef.binary (TRef.of (T := ⟨S32768x512, .f32⟩) main_v167) (TRef.of (T := ⟨S32768x512, .f32⟩) main_call7_v0) (TRef.of (T := ⟨S32768x512, .f32⟩) main_v168) maximumf,
    binary main_v168 main_v145 main_v169 (addf : (⟨S32768x512, .f32⟩ : BufTy).Contents (Elt F) → (⟨S32768x512, .f32⟩ : BufTy).Contents (Elt F) → (⟨S32768x512, .f32⟩ : BufTy).Contents (Elt F)) ]
/-- The references stretch 16 writes. -/
abbrev cW16 : List (Ref sig .tc) := [main_cst_32, main_v159, main_v160, main_cst_33, main_v161, main_v162, main_v163, main_v164, main_v165, main_v166, main_v167, main_call7_cst, main_call7_v0, main_v168, main_v169]
theorem c16_writes : (c16 : List (HloOp τ sig (Elt F))).Forall fun op => op.writes ⊆ (cW16.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- Stretch 17: operations 222 to 237 of the program. -/
abbrev c17 : List (HloOp τ sig (Elt F)) :=
  [ unary main_v140 main_v170 (broadcastInDim S229376x1 ![0] bcast_S229376_S229376x1_0 : (⟨S229376, .f32⟩ : BufTy).Contents (Elt F) → (⟨S229376x1, .f32⟩ : BufTy).Contents (Elt F)),
    nullary main_c_34 (constantI S_ 32 0#32),
    unary main_c_34 main_v171 (broadcastInDim S229376 ![] bcast_S_S229376 : (⟨S_, .i32⟩ : BufTy).Contents (Elt F) → (⟨S229376, .i32⟩ : BufTy).Contents (Elt F)),
    binary main_v114 main_v171 main_v172 (cmpi .slt : (⟨S229376, .i32⟩ : BufTy).Contents (Elt F) → (⟨S229376, .i32⟩ : BufTy).Contents (Elt F) → (⟨S229376, .i1⟩ : BufTy).Contents (Elt F)),
    nullary main_c_35 (constantI S_ 32 32768#32),
    unary main_c_35 main_v173 (broadcastInDim S229376 ![] bcast_S_S229376 : (⟨S_, .i32⟩ : BufTy).Contents (Elt F) → (⟨S229376, .i32⟩ : BufTy).Contents (Elt F)),
    binary main_v114 main_v173 main_v174 (addi : (⟨S229376, .i32⟩ : BufTy).Contents (Elt F) → (⟨S229376, .i32⟩ : BufTy).Contents (Elt F) → (⟨S229376, .i32⟩ : BufTy).Contents (Elt F)),
    ternary main_v172 main_v174 main_v114 main_v175 (select : (⟨S229376, .i1⟩ : BufTy).Contents (Elt F) → (⟨S229376, .i32⟩ : BufTy).Contents (Elt F) → (⟨S229376, .i32⟩ : BufTy).Contents (Elt F) → (⟨S229376, .i32⟩ : BufTy).Contents (Elt F)),
    unary main_v175 main_v176 (broadcastInDim S229376x1 ![0] bcast_S229376_S229376x1_0 : (⟨S229376, .i32⟩ : BufTy).Contents (Elt F) → (⟨S229376x1, .i32⟩ : BufTy).Contents (Elt F)),
    binary main_v169 main_v176 main_v177 ((fun x i => Host.gather gather_S32768x512_S229376x1_S229376x512_1_0_n_n_0_1_1512 x i) : (⟨S32768x512, .f32⟩ : BufTy).Contents (Elt F) → (⟨S229376x1, .i32⟩ : BufTy).Contents (Elt F) → (⟨S229376x512, .f32⟩ : BufTy).Contents (Elt F)),
    unary main_v170 main_v178 (broadcastInDim S229376x512 ![0, 1] bcast_S229376x1_S229376x512_0_1 : (⟨S229376x1, .f32⟩ : BufTy).Contents (Elt F) → (⟨S229376x512, .f32⟩ : BufTy).Contents (Elt F)),
    binary main_v178 main_v177 main_v179 (mulf : (⟨S229376x512, .f32⟩ : BufTy).Contents (Elt F) → (⟨S229376x512, .f32⟩ : BufTy).Contents (Elt F) → (⟨S229376x512, .f32⟩ : BufTy).Contents (Elt F)),
    nullary main_cst_36 (constant S_ .f32 0x00000000#32),
    unary main_cst_36 main_v180 (broadcastInDim S32768x512 ![] bcast_S_S32768x512 : (⟨S_, .f32⟩ : BufTy).Contents (Elt F) → (⟨S32768x512, .f32⟩ : BufTy).Contents (Elt F)),
    unary main_v117 main_v181 (broadcastInDim S229376x1 ![0] bcast_S229376_S229376x1_0 : (⟨S229376, .i32⟩ : BufTy).Contents (Elt F) → (⟨S229376x1, .i32⟩ : BufTy).Contents (Elt F)),
    ternary main_v180 main_v181 main_v179 main_v182 ((fun x i u => Host.scatterAdd scatter_S32768x512_S229376x1_S229376x512_1_0_0_1 x i u) : (⟨S32768x512, .f32⟩ : BufTy).Contents (Elt F) → (⟨S229376x1, .i32⟩ : BufTy).Contents (Elt F) → (⟨S229376x512, .f32⟩ : BufTy).Contents (Elt F) → (⟨S32768x512, .f32⟩ : BufTy).Contents (Elt F)) ]
/-- The references stretch 17 writes. -/
abbrev cW17 : List (Ref sig .tc) := [main_v170, main_c_34, main_v171, main_v172, main_c_35, main_v173, main_v174, main_v175, main_v176, main_v177, main_v178, main_v179, main_cst_36, main_v180, main_v181, main_v182]
theorem c17_writes : (c17 : List (HloOp τ sig (Elt F))).Forall fun op => op.writes ⊆ (cW17.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- Stretch 18: operations 238 to 252 of the program. -/
abbrev c18 : List (HloOp τ sig (Elt F)) :=
  [ nullary main_cst_37 (constant S_ .f32 0x3F4CCCCD#32),
    unary main_cst_37 main_v183 (broadcastInDim S32768x512 ![] bcast_S_S32768x512 : (⟨S_, .f32⟩ : BufTy).Contents (Elt F) → (⟨S32768x512, .f32⟩ : BufTy).Contents (Elt F)),
    binary main_v183 main_v182 main_v184 (mulf : (⟨S32768x512, .f32⟩ : BufTy).Contents (Elt F) → (⟨S32768x512, .f32⟩ : BufTy).Contents (Elt F) → (⟨S32768x512, .f32⟩ : BufTy).Contents (Elt F)),
    nullary main_cst_38 (constant S_ .f32 0x3E4CCCCD#32),
    unary main_cst_38 main_v185 (broadcastInDim S32768x512 ![] bcast_S_S32768x512 : (⟨S_, .f32⟩ : BufTy).Contents (Elt F) → (⟨S32768x512, .f32⟩ : BufTy).Contents (Elt F)),
    binary main_v185 main_v145 main_v186 (mulf : (⟨S32768x512, .f32⟩ : BufTy).Contents (Elt F) → (⟨S32768x512, .f32⟩ : BufTy).Contents (Elt F) → (⟨S32768x512, .f32⟩ : BufTy).Contents (Elt F)),
    binary main_v184 main_v186 main_v187 (addf : (⟨S32768x512, .f32⟩ : BufTy).Contents (Elt F) → (⟨S32768x512, .f32⟩ : BufTy).Contents (Elt F) → (⟨S32768x512, .f32⟩ : BufTy).Contents (Elt F)),
    unary main_arg11 main_v188 ((extractStridedSlice S1x512x512 ![1, 0, 0] · slices_S3x512x512_S1x512x512_1_0_0) : (⟨S3x512x512, .f32⟩ : BufTy).Contents (Elt F) → (⟨S1x512x512, .f32⟩ : BufTy).Contents (Elt F)),
    reshape main_v188 main_v189 rfl shapeCasts_S1x512x512_S512x512,
    binary main_v187 main_v189 main_v190 ((fun l r => Host.dotGeneral dot_S32768x512_S512x512_S32768x512_1_0_0_1_n_n none l r) : (⟨S32768x512, .f32⟩ : BufTy).Contents (Elt F) → (⟨S512x512, .f32⟩ : BufTy).Contents (Elt F) → (⟨S32768x512, .f32⟩ : BufTy).Contents (Elt F)),
    binary main_v187 main_v190 main_v191 (addf : (⟨S32768x512, .f32⟩ : BufTy).Contents (Elt F) → (⟨S32768x512, .f32⟩ : BufTy).Contents (Elt F) → (⟨S32768x512, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S32768x512, .f32⟩) main_call8_v0) (broadcastInDim S32768x512 ![] bcast_S_S32768x512),
    TRef.binary (TRef.of (T := ⟨S32768x512, .f32⟩) main_v191) (TRef.of (T := ⟨S32768x512, .f32⟩) main_call8_v0) (TRef.of (T := ⟨S32768x512, .f32⟩) main_v192) maximumf,
    binary main_v192 main_v169 main_v193 (addf : (⟨S32768x512, .f32⟩ : BufTy).Contents (Elt F) → (⟨S32768x512, .f32⟩ : BufTy).Contents (Elt F) → (⟨S32768x512, .f32⟩ : BufTy).Contents (Elt F)) ]
/-- The references stretch 18 writes. -/
abbrev cW18 : List (Ref sig .tc) := [main_cst_37, main_v183, main_v184, main_cst_38, main_v185, main_v186, main_v187, main_v188, main_v189, main_v190, main_v191, main_call8_cst, main_call8_v0, main_v192, main_v193]
theorem c18_writes : (c18 : List (HloOp τ sig (Elt F))).Forall fun op => op.writes ⊆ (cW18.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- Stretch 19: operations 253 to 268 of the program. -/
abbrev c19 : List (HloOp τ sig (Elt F)) :=
  [ unary main_v140 main_v194 (broadcastInDim S229376x1 ![0] bcast_S229376_S229376x1_0 : (⟨S229376, .f32⟩ : BufTy).Contents (Elt F) → (⟨S229376x1, .f32⟩ : BufTy).Contents (Elt F)),
    nullary main_c_39 (constantI S_ 32 0#32),
    unary main_c_39 main_v195 (broadcastInDim S229376 ![] bcast_S_S229376 : (⟨S_, .i32⟩ : BufTy).Contents (Elt F) → (⟨S229376, .i32⟩ : BufTy).Contents (Elt F)),
    binary main_v114 main_v195 main_v196 (cmpi .slt : (⟨S229376, .i32⟩ : BufTy).Contents (Elt F) → (⟨S229376, .i32⟩ : BufTy).Contents (Elt F) → (⟨S229376, .i1⟩ : BufTy).Contents (Elt F)),
    nullary main_c_40 (constantI S_ 32 32768#32),
    unary main_c_40 main_v197 (broadcastInDim S229376 ![] bcast_S_S229376 : (⟨S_, .i32⟩ : BufTy).Contents (Elt F) → (⟨S229376, .i32⟩ : BufTy).Contents (Elt F)),
    binary main_v114 main_v197 main_v198 (addi : (⟨S229376, .i32⟩ : BufTy).Contents (Elt F) → (⟨S229376, .i32⟩ : BufTy).Contents (Elt F) → (⟨S229376, .i32⟩ : BufTy).Contents (Elt F)),
    ternary main_v196 main_v198 main_v114 main_v199 (select : (⟨S229376, .i1⟩ : BufTy).Contents (Elt F) → (⟨S229376, .i32⟩ : BufTy).Contents (Elt F) → (⟨S229376, .i32⟩ : BufTy).Contents (Elt F) → (⟨S229376, .i32⟩ : BufTy).Contents (Elt F)),
    unary main_v199 main_v200 (broadcastInDim S229376x1 ![0] bcast_S229376_S229376x1_0 : (⟨S229376, .i32⟩ : BufTy).Contents (Elt F) → (⟨S229376x1, .i32⟩ : BufTy).Contents (Elt F)),
    binary main_v193 main_v200 main_v201 ((fun x i => Host.gather gather_S32768x512_S229376x1_S229376x512_1_0_n_n_0_1_1512 x i) : (⟨S32768x512, .f32⟩ : BufTy).Contents (Elt F) → (⟨S229376x1, .i32⟩ : BufTy).Contents (Elt F) → (⟨S229376x512, .f32⟩ : BufTy).Contents (Elt F)),
    unary main_v194 main_v202 (broadcastInDim S229376x512 ![0, 1] bcast_S229376x1_S229376x512_0_1 : (⟨S229376x1, .f32⟩ : BufTy).Contents (Elt F) → (⟨S229376x512, .f32⟩ : BufTy).Contents (Elt F)),
    binary main_v202 main_v201 main_v203 (mulf : (⟨S229376x512, .f32⟩ : BufTy).Contents (Elt F) → (⟨S229376x512, .f32⟩ : BufTy).Contents (Elt F) → (⟨S229376x512, .f32⟩ : BufTy).Contents (Elt F)),
    nullary main_cst_41 (constant S_ .f32 0x00000000#32),
    unary main_cst_41 main_v204 (broadcastInDim S32768x512 ![] bcast_S_S32768x512 : (⟨S_, .f32⟩ : BufTy).Contents (Elt F) → (⟨S32768x512, .f32⟩ : BufTy).Contents (Elt F)),
    unary main_v117 main_v205 (broadcastInDim S229376x1 ![0] bcast_S229376_S229376x1_0 : (⟨S229376, .i32⟩ : BufTy).Contents (Elt F) → (⟨S229376x1, .i32⟩ : BufTy).Contents (Elt F)),
    ternary main_v204 main_v205 main_v203 main_v206 ((fun x i u => Host.scatterAdd scatter_S32768x512_S229376x1_S229376x512_1_0_0_1 x i u) : (⟨S32768x512, .f32⟩ : BufTy).Contents (Elt F) → (⟨S229376x1, .i32⟩ : BufTy).Contents (Elt F) → (⟨S229376x512, .f32⟩ : BufTy).Contents (Elt F) → (⟨S32768x512, .f32⟩ : BufTy).Contents (Elt F)) ]
/-- The references stretch 19 writes. -/
abbrev cW19 : List (Ref sig .tc) := [main_v194, main_c_39, main_v195, main_v196, main_c_40, main_v197, main_v198, main_v199, main_v200, main_v201, main_v202, main_v203, main_cst_41, main_v204, main_v205, main_v206]
theorem c19_writes : (c19 : List (HloOp τ sig (Elt F))).Forall fun op => op.writes ⊆ (cW19.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- Stretch 20: operations 269 to 283 of the program. -/
abbrev c20 : List (HloOp τ sig (Elt F)) :=
  [ nullary main_cst_42 (constant S_ .f32 0x3F4CCCCD#32),
    unary main_cst_42 main_v207 (broadcastInDim S32768x512 ![] bcast_S_S32768x512 : (⟨S_, .f32⟩ : BufTy).Contents (Elt F) → (⟨S32768x512, .f32⟩ : BufTy).Contents (Elt F)),
    binary main_v207 main_v206 main_v208 (mulf : (⟨S32768x512, .f32⟩ : BufTy).Contents (Elt F) → (⟨S32768x512, .f32⟩ : BufTy).Contents (Elt F) → (⟨S32768x512, .f32⟩ : BufTy).Contents (Elt F)),
    nullary main_cst_43 (constant S_ .f32 0x3E4CCCCD#32),
    unary main_cst_43 main_v209 (broadcastInDim S32768x512 ![] bcast_S_S32768x512 : (⟨S_, .f32⟩ : BufTy).Contents (Elt F) → (⟨S32768x512, .f32⟩ : BufTy).Contents (Elt F)),
    binary main_v209 main_v145 main_v210 (mulf : (⟨S32768x512, .f32⟩ : BufTy).Contents (Elt F) → (⟨S32768x512, .f32⟩ : BufTy).Contents (Elt F) → (⟨S32768x512, .f32⟩ : BufTy).Contents (Elt F)),
    binary main_v208 main_v210 main_v211 (addf : (⟨S32768x512, .f32⟩ : BufTy).Contents (Elt F) → (⟨S32768x512, .f32⟩ : BufTy).Contents (Elt F) → (⟨S32768x512, .f32⟩ : BufTy).Contents (Elt F)),
    unary main_arg11 main_v212 ((extractStridedSlice S1x512x512 ![2, 0, 0] · slices_S3x512x512_S1x512x512_2_0_0) : (⟨S3x512x512, .f32⟩ : BufTy).Contents (Elt F) → (⟨S1x512x512, .f32⟩ : BufTy).Contents (Elt F)),
    reshape main_v212 main_v213 rfl shapeCasts_S1x512x512_S512x512,
    binary main_v211 main_v213 main_v214 ((fun l r => Host.dotGeneral dot_S32768x512_S512x512_S32768x512_1_0_0_1_n_n none l r) : (⟨S32768x512, .f32⟩ : BufTy).Contents (Elt F) → (⟨S512x512, .f32⟩ : BufTy).Contents (Elt F) → (⟨S32768x512, .f32⟩ : BufTy).Contents (Elt F)),
    binary main_v211 main_v214 main_v215 (addf : (⟨S32768x512, .f32⟩ : BufTy).Contents (Elt F) → (⟨S32768x512, .f32⟩ : BufTy).Contents (Elt F) → (⟨S32768x512, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S32768x512, .f32⟩) main_call9_v0) (broadcastInDim S32768x512 ![] bcast_S_S32768x512),
    TRef.binary (TRef.of (T := ⟨S32768x512, .f32⟩) main_v215) (TRef.of (T := ⟨S32768x512, .f32⟩) main_call9_v0) (TRef.of (T := ⟨S32768x512, .f32⟩) main_v216) maximumf,
    binary main_v216 main_v193 main_v217 (addf : (⟨S32768x512, .f32⟩ : BufTy).Contents (Elt F) → (⟨S32768x512, .f32⟩ : BufTy).Contents (Elt F) → (⟨S32768x512, .f32⟩ : BufTy).Contents (Elt F)) ]
/-- The references stretch 20 writes. -/
abbrev cW20 : List (Ref sig .tc) := [main_cst_42, main_v207, main_v208, main_cst_43, main_v209, main_v210, main_v211, main_v212, main_v213, main_v214, main_v215, main_call9_cst, main_call9_v0, main_v216, main_v217]
theorem c20_writes : (c20 : List (HloOp τ sig (Elt F))).Forall fun op => op.writes ⊆ (cW20.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- Stretch 21: operations 284 to 287 of the program. -/
abbrev c21 : List (HloOp τ sig (Elt F)) :=
  [ binary main_v217 main_arg12 main_v218 ((fun l r => Host.dotGeneral dot_S32768x512_S512x128_S32768x128_1_0_0_1_n_n none l r) : (⟨S32768x512, .f32⟩ : BufTy).Contents (Elt F) → (⟨S512x128, .f32⟩ : BufTy).Contents (Elt F) → (⟨S32768x128, .f32⟩ : BufTy).Contents (Elt F)),
    unary main_arg13 main_v219 (broadcastInDim S1x128 ![1] bcast_S128_S1x128_1 : (⟨S128, .f32⟩ : BufTy).Contents (Elt F) → (⟨S1x128, .f32⟩ : BufTy).Contents (Elt F)),
    unary main_v219 main_v220 (broadcastInDim S32768x128 ![0, 1] bcast_S1x128_S32768x128_0_1 : (⟨S1x128, .f32⟩ : BufTy).Contents (Elt F) → (⟨S32768x128, .f32⟩ : BufTy).Contents (Elt F)),
    binary main_v218 main_v220 main_v221 (addf : (⟨S32768x128, .f32⟩ : BufTy).Contents (Elt F) → (⟨S32768x128, .f32⟩ : BufTy).Contents (Elt F) → (⟨S32768x128, .f32⟩ : BufTy).Contents (Elt F)) ]
/-- The references stretch 21 writes. -/
abbrev cW21 : List (Ref sig .tc) := [main_v218, main_v219, main_v220, main_v221]
theorem c21_writes : (c21 : List (HloOp τ sig (Elt F))).Forall fun op => op.writes ⊆ (cW21.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- Stretch 22: operations 288 to 306 of the program. -/
abbrev c22 : List (HloOp τ sig (Elt F)) :=
  [ binary main_v110 main_v221 main_v222 ((fun a b => concatenate S32768x256 1 [⟨S32768x128, a⟩, ⟨S32768x128, b⟩] concatenates_S32768x128_S32768x128_S32768x256_d1) : (⟨S32768x128, .f32⟩ : BufTy).Contents (Elt F) → (⟨S32768x128, .f32⟩ : BufTy).Contents (Elt F) → (⟨S32768x256, .f32⟩ : BufTy).Contents (Elt F)),
    binary main_v222 main_arg14 main_v223 ((fun l r => Host.dotGeneral dot_S32768x256_S256x1024_S32768x1024_1_0_0_1_n_n none l r) : (⟨S32768x256, .f32⟩ : BufTy).Contents (Elt F) → (⟨S256x1024, .f32⟩ : BufTy).Contents (Elt F) → (⟨S32768x1024, .f32⟩ : BufTy).Contents (Elt F)),
    unary main_arg15 main_v224 (broadcastInDim S1x1024 ![1] bcast_S1024_S1x1024_1 : (⟨S1024, .f32⟩ : BufTy).Contents (Elt F) → (⟨S1x1024, .f32⟩ : BufTy).Contents (Elt F)),
    unary main_v224 main_v225 (broadcastInDim S32768x1024 ![0, 1] bcast_S1x1024_S32768x1024_0_1 : (⟨S1x1024, .f32⟩ : BufTy).Contents (Elt F) → (⟨S32768x1024, .f32⟩ : BufTy).Contents (Elt F)),
    binary main_v223 main_v225 main_v226 (addf : (⟨S32768x1024, .f32⟩ : BufTy).Contents (Elt F) → (⟨S32768x1024, .f32⟩ : BufTy).Contents (Elt F) → (⟨S32768x1024, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S32768x1024, .f32⟩) main_call10_v0) (broadcastInDim S32768x1024 ![] bcast_S_S32768x1024),
    TRef.binary (TRef.of (T := ⟨S32768x1024, .f32⟩) main_v226) (TRef.of (T := ⟨S32768x1024, .f32⟩) main_call10_v0) (TRef.of (T := ⟨S32768x1024, .f32⟩) main_v227) maximumf,
    binary main_v227 main_arg16 main_v228 ((fun l r => Host.dotGeneral dot_S32768x1024_S1024x512_S32768x512_1_0_0_1_n_n none l r) : (⟨S32768x1024, .f32⟩ : BufTy).Contents (Elt F) → (⟨S1024x512, .f32⟩ : BufTy).Contents (Elt F) → (⟨S32768x512, .f32⟩ : BufTy).Contents (Elt F)),
    unary main_arg17 main_v229 (broadcastInDim S1x512 ![1] bcast_S512_S1x512_1 : (⟨S512, .f32⟩ : BufTy).Contents (Elt F) → (⟨S1x512, .f32⟩ : BufTy).Contents (Elt F)),
    unary main_v229 main_v230 (broadcastInDim S32768x512 ![0, 1] bcast_S1x512_S32768x512_0_1 : (⟨S1x512, .f32⟩ : BufTy).Contents (Elt F) → (⟨S32768x512, .f32⟩ : BufTy).Contents (Elt F)),
    binary main_v228 main_v230 main_v231 (addf : (⟨S32768x512, .f32⟩ : BufTy).Contents (Elt F) → (⟨S32768x512, .f32⟩ : BufTy).Contents (Elt F) → (⟨S32768x512, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S32768x512, .f32⟩) main_call11_v0) (broadcastInDim S32768x512 ![] bcast_S_S32768x512),
    TRef.binary (TRef.of (T := ⟨S32768x512, .f32⟩) main_v231) (TRef.of (T := ⟨S32768x512, .f32⟩) main_call11_v0) (TRef.of (T := ⟨S32768x512, .f32⟩) main_v232) maximumf,
    binary main_v232 main_arg18 main_v233 ((fun l r => Host.dotGeneral dot_S32768x512_S512x1_S32768x1_1_0_0_1_n_n none l r) : (⟨S32768x512, .f32⟩ : BufTy).Contents (Elt F) → (⟨S512x1, .f32⟩ : BufTy).Contents (Elt F) → (⟨S32768x1, .f32⟩ : BufTy).Contents (Elt F)),
    unary main_arg19 main_v234 (broadcastInDim S1x1 ![1] bcast_S1_S1x1_1 : (⟨S1, .f32⟩ : BufTy).Contents (Elt F) → (⟨S1x1, .f32⟩ : BufTy).Contents (Elt F)),
    unary main_v234 main_v235 (broadcastInDim S32768x1 ![0, 1] bcast_S1x1_S32768x1_0_1 : (⟨S1x1, .f32⟩ : BufTy).Contents (Elt F) → (⟨S32768x1, .f32⟩ : BufTy).Contents (Elt F)),
    binary main_v233 main_v235 main_v236 (addf : (⟨S32768x1, .f32⟩ : BufTy).Contents (Elt F) → (⟨S32768x1, .f32⟩ : BufTy).Contents (Elt F) → (⟨S32768x1, .f32⟩ : BufTy).Contents (Elt F)) ]
/-- The references stretch 22 writes. -/
abbrev cW22 : List (Ref sig .tc) := [main_v222, main_v223, main_v224, main_v225, main_v226, main_call10_cst, main_call10_v0, main_v227, main_v228, main_v229, main_v230, main_v231, main_call11_cst, main_call11_v0, main_v232, main_v233, main_v234, main_v235, main_v236]
theorem c22_writes : (c22 : List (HloOp τ sig (Elt F))).Forall fun op => op.writes ⊆ (cW22.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- The program is its stretches in order. -/
theorem ops_split : (ops : List (HloOp τ sig (Elt F))) = c0 ++ (c1 ++ (c2 ++ (c3 ++ (c4 ++ (c5 ++ (c6 ++ (c7 ++ (c8 ++ (c9 ++ (c10 ++ (c11 ++ (c12 ++ (c13 ++ (c14 ++ (c15 ++ (c16 ++ (c17 ++ (c18 ++ (c19 ++ (c20 ++ (c21 ++ (c22)))))))))))))))))))))) := rfl

variable (L : Valuation τ sig (Elt F))

/-- The buffer contents before any stretch: the launch contents. -/
abbrev S0 : Valuation τ sig (Elt F) := L
/-- The buffer contents after stretch 0. -/
abbrev S1 : Valuation τ sig (Elt F) := after c0 (S0 L)
/-- The buffer contents after stretch 1. -/
abbrev S2 : Valuation τ sig (Elt F) := after c1 (S1 L)
/-- The buffer contents after stretch 2. -/
abbrev S3 : Valuation τ sig (Elt F) := after c2 (S2 L)
/-- The buffer contents after stretch 3. -/
abbrev S4 : Valuation τ sig (Elt F) := after c3 (S3 L)
/-- The buffer contents after stretch 4. -/
abbrev S5 : Valuation τ sig (Elt F) := after c4 (S4 L)
/-- The buffer contents after stretch 5. -/
abbrev S6 : Valuation τ sig (Elt F) := after c5 (S5 L)
/-- The buffer contents after stretch 6. -/
abbrev S7 : Valuation τ sig (Elt F) := after c6 (S6 L)
/-- The buffer contents after stretch 7. -/
abbrev S8 : Valuation τ sig (Elt F) := after c7 (S7 L)
/-- The buffer contents after stretch 8. -/
abbrev S9 : Valuation τ sig (Elt F) := after c8 (S8 L)
/-- The buffer contents after stretch 9. -/
abbrev S10 : Valuation τ sig (Elt F) := after c9 (S9 L)
/-- The buffer contents after stretch 10. -/
abbrev S11 : Valuation τ sig (Elt F) := after c10 (S10 L)
/-- The buffer contents after stretch 11. -/
abbrev S12 : Valuation τ sig (Elt F) := after c11 (S11 L)
/-- The buffer contents after stretch 12. -/
abbrev S13 : Valuation τ sig (Elt F) := after c12 (S12 L)
/-- The buffer contents after stretch 13. -/
abbrev S14 : Valuation τ sig (Elt F) := after c13 (S13 L)
/-- The buffer contents after stretch 14. -/
abbrev S15 : Valuation τ sig (Elt F) := after c14 (S14 L)
/-- The buffer contents after stretch 15. -/
abbrev S16 : Valuation τ sig (Elt F) := after c15 (S15 L)
/-- The buffer contents after stretch 16. -/
abbrev S17 : Valuation τ sig (Elt F) := after c16 (S16 L)
/-- The buffer contents after stretch 17. -/
abbrev S18 : Valuation τ sig (Elt F) := after c17 (S17 L)
/-- The buffer contents after stretch 18. -/
abbrev S19 : Valuation τ sig (Elt F) := after c18 (S18 L)
/-- The buffer contents after stretch 19. -/
abbrev S20 : Valuation τ sig (Elt F) := after c19 (S19 L)
/-- The buffer contents after stretch 20. -/
abbrev S21 : Valuation τ sig (Elt F) := after c20 (S20 L)
/-- The buffer contents after stretch 21. -/
abbrev S22 : Valuation τ sig (Elt F) := after c21 (S21 L)
/-- The buffer contents after stretch 22. -/
abbrev S23 : Valuation τ sig (Elt F) := after c22 (S22 L)

/-- After the whole program the contents are those after the last stretch. -/
theorem after_ops : after ops L = S23 L := by
  rw [ops_split]; simp only [after_append]

theorem S1_of (r : Ref sig .tc) (h : r ∉ cW0) : S1 L r = S0 L r :=
  StableHlo.after_of_writes_sub c0 _ c0_writes h
theorem S2_of (r : Ref sig .tc) (h : r ∉ cW1) : S2 L r = S1 L r :=
  StableHlo.after_of_writes_sub c1 _ c1_writes h
theorem S3_of (r : Ref sig .tc) (h : r ∉ cW2) : S3 L r = S2 L r :=
  StableHlo.after_of_writes_sub c2 _ c2_writes h
theorem S4_of (r : Ref sig .tc) (h : r ∉ cW3) : S4 L r = S3 L r :=
  StableHlo.after_of_writes_sub c3 _ c3_writes h
theorem S5_of (r : Ref sig .tc) (h : r ∉ cW4) : S5 L r = S4 L r :=
  StableHlo.after_of_writes_sub c4 _ c4_writes h
theorem S6_of (r : Ref sig .tc) (h : r ∉ cW5) : S6 L r = S5 L r :=
  StableHlo.after_of_writes_sub c5 _ c5_writes h
theorem S7_of (r : Ref sig .tc) (h : r ∉ cW6) : S7 L r = S6 L r :=
  StableHlo.after_of_writes_sub c6 _ c6_writes h
theorem S8_of (r : Ref sig .tc) (h : r ∉ cW7) : S8 L r = S7 L r :=
  StableHlo.after_of_writes_sub c7 _ c7_writes h
theorem S9_of (r : Ref sig .tc) (h : r ∉ cW8) : S9 L r = S8 L r :=
  StableHlo.after_of_writes_sub c8 _ c8_writes h
theorem S10_of (r : Ref sig .tc) (h : r ∉ cW9) : S10 L r = S9 L r :=
  StableHlo.after_of_writes_sub c9 _ c9_writes h
theorem S11_of (r : Ref sig .tc) (h : r ∉ cW10) : S11 L r = S10 L r :=
  StableHlo.after_of_writes_sub c10 _ c10_writes h
theorem S12_of (r : Ref sig .tc) (h : r ∉ cW11) : S12 L r = S11 L r :=
  StableHlo.after_of_writes_sub c11 _ c11_writes h
theorem S13_of (r : Ref sig .tc) (h : r ∉ cW12) : S13 L r = S12 L r :=
  StableHlo.after_of_writes_sub c12 _ c12_writes h
theorem S14_of (r : Ref sig .tc) (h : r ∉ cW13) : S14 L r = S13 L r :=
  StableHlo.after_of_writes_sub c13 _ c13_writes h
theorem S15_of (r : Ref sig .tc) (h : r ∉ cW14) : S15 L r = S14 L r :=
  StableHlo.after_of_writes_sub c14 _ c14_writes h
theorem S16_of (r : Ref sig .tc) (h : r ∉ cW15) : S16 L r = S15 L r :=
  StableHlo.after_of_writes_sub c15 _ c15_writes h
theorem S17_of (r : Ref sig .tc) (h : r ∉ cW16) : S17 L r = S16 L r :=
  StableHlo.after_of_writes_sub c16 _ c16_writes h
theorem S18_of (r : Ref sig .tc) (h : r ∉ cW17) : S18 L r = S17 L r :=
  StableHlo.after_of_writes_sub c17 _ c17_writes h
theorem S19_of (r : Ref sig .tc) (h : r ∉ cW18) : S19 L r = S18 L r :=
  StableHlo.after_of_writes_sub c18 _ c18_writes h
theorem S20_of (r : Ref sig .tc) (h : r ∉ cW19) : S20 L r = S19 L r :=
  StableHlo.after_of_writes_sub c19 _ c19_writes h
theorem S21_of (r : Ref sig .tc) (h : r ∉ cW20) : S21 L r = S20 L r :=
  StableHlo.after_of_writes_sub c20 _ c20_writes h
theorem S22_of (r : Ref sig .tc) (h : r ∉ cW21) : S22 L r = S21 L r :=
  StableHlo.after_of_writes_sub c21 _ c21_writes h
theorem S23_of (r : Ref sig .tc) (h : r ∉ cW22) : S23 L r = S22 L r :=
  StableHlo.after_of_writes_sub c22 _ c22_writes h

end Cert.ReferenceIdeal.RefValue

end
-- ==== Proof.RefBridge.lean ====
/-
  The reference program's run, read stretch by stretch. After each stretch, every buffer a later stretch reads holds
  the value the reference's stage of that name gives it as a function of the arguments: a stretch's operations
  applied to the stages before it are, by definition, the stages it writes; a buffer a stretch does not write keeps
  its contents. After the last stretch the result buffer holds the last stage of the arguments, and no stretch
  writes an argument.
-/
import proofs.«109784_j28140625724052_1_alg».proof.Proof.RefChunks
import proofs.«109784_j28140625724052_1_alg».proof.Proof.RefReadP
import proofs.«109784_j28140625724052_1_alg».proof.Defs
import proofs.«109784_j28140625724052_1_alg».proof.Proof.Gen.Pre_finite_inputs

set_option maxRecDepth 16384

noncomputable section

namespace Cert.ReferenceIdeal.RefValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (L : Valuation τ sig (Elt Ideal))

set_option maxRecDepth 1000000 in
set_option maxHeartbeats 8000000 in
theorem r1_v6 : S1 L main_v6 = (val_main_v6 (F := Ideal) (L (Proc.devRef .tc main_arg1))) := by
  show StableHlo.after c0 (S0 L) (Proc.devRef .tc main_v6) = _
  after_results
  rfl

theorem r8_v6 : S8 L main_v6 = (val_main_v6 (F := Ideal) (L (Proc.devRef .tc main_arg1))) :=
  ((S8_of L main_v6 (by decide)).trans <| (S7_of L main_v6 (by decide)).trans <| (S6_of L main_v6 (by decide)).trans <| (S5_of L main_v6 (by decide)).trans <| (S4_of L main_v6 (by decide)).trans <| (S3_of L main_v6 (by decide)).trans <| (S2_of L main_v6 (by decide))).trans (r1_v6 L)

set_option maxRecDepth 1000000 in
set_option maxHeartbeats 8000000 in
theorem r1_v12 : S1 L main_v12 = (val_main_v12 (F := Ideal) (L (Proc.devRef .tc main_arg1))) := by
  show StableHlo.after c0 (S0 L) (Proc.devRef .tc main_v12) = _
  after_results
  rfl

set_option maxRecDepth 1000000 in
set_option maxHeartbeats 8000000 in
theorem r1_v13 : S1 L main_v13 = (val_main_v13 (F := Ideal) (L (Proc.devRef .tc main_arg1))) := by
  show StableHlo.after c0 (S0 L) (Proc.devRef .tc main_v13) = _
  after_results
  rfl

set_option maxRecDepth 1000000 in
set_option maxHeartbeats 8000000 in
theorem r1_cst_2 : S1 L main_cst_2 = (val_main_cst_2 (F := Ideal)) := by
  show StableHlo.after c0 (S0 L) (Proc.devRef .tc main_cst_2) = _
  after_results
  rfl

set_option maxRecDepth 1000000 in
set_option maxHeartbeats 8000000 in
theorem r2_v14 : S2 L main_v14 = (val_main_v14 (F := Ideal) (L (Proc.devRef .tc main_arg1))) := by
  have h0 := r1_v12 L
  have h1 := r1_v13 L
  have h2 := r1_cst_2 L
  show StableHlo.after c1 (S1 L) (Proc.devRef .tc main_v14) = _
  generalize S1 L = X at h0 h1 h2 ⊢
  after_results
  rw [h0, h1, h2]
  rfl

set_option maxRecDepth 1000000 in
set_option maxHeartbeats 8000000 in
theorem r1_v3 : S1 L main_v3 = (val_main_v3 (F := Ideal) (L (Proc.devRef .tc main_arg1))) := by
  show StableHlo.after c0 (S0 L) (Proc.devRef .tc main_v3) = _
  after_results
  rfl

theorem r2_v3 : S2 L main_v3 = (val_main_v3 (F := Ideal) (L (Proc.devRef .tc main_arg1))) :=
  ((S2_of L main_v3 (by decide))).trans (r1_v3 L)

theorem r2_v6 : S2 L main_v6 = (val_main_v6 (F := Ideal) (L (Proc.devRef .tc main_arg1))) :=
  ((S2_of L main_v6 (by decide))).trans (r1_v6 L)

set_option maxRecDepth 1000000 in
set_option maxHeartbeats 8000000 in
theorem r3_v29 : S3 L main_v29 = (val_main_v29 (F := Ideal) (L (Proc.devRef .tc main_arg1))) := by
  have h0 := r2_v14 L
  have h1 := r2_v3 L
  have h2 := r2_v6 L
  show StableHlo.after c2 (S2 L) (Proc.devRef .tc main_v29) = _
  generalize S2 L = X at h0 h1 h2 ⊢
  after_results
  rw [h0, h1, h2]
  rfl

theorem r8_v29 : S8 L main_v29 = (val_main_v29 (F := Ideal) (L (Proc.devRef .tc main_arg1))) :=
  ((S8_of L main_v29 (by decide)).trans <| (S7_of L main_v29 (by decide)).trans <| (S6_of L main_v29 (by decide)).trans <| (S5_of L main_v29 (by decide)).trans <| (S4_of L main_v29 (by decide))).trans (r3_v29 L)

theorem r6_v6 : S6 L main_v6 = (val_main_v6 (F := Ideal) (L (Proc.devRef .tc main_arg1))) :=
  ((S6_of L main_v6 (by decide)).trans <| (S5_of L main_v6 (by decide)).trans <| (S4_of L main_v6 (by decide)).trans <| (S3_of L main_v6 (by decide)).trans <| (S2_of L main_v6 (by decide))).trans (r1_v6 L)

theorem r6_v29 : S6 L main_v29 = (val_main_v29 (F := Ideal) (L (Proc.devRef .tc main_arg1))) :=
  ((S6_of L main_v29 (by decide)).trans <| (S5_of L main_v29 (by decide)).trans <| (S4_of L main_v29 (by decide))).trans (r3_v29 L)

theorem r4_v6 : S4 L main_v6 = (val_main_v6 (F := Ideal) (L (Proc.devRef .tc main_arg1))) :=
  ((S4_of L main_v6 (by decide)).trans <| (S3_of L main_v6 (by decide)).trans <| (S2_of L main_v6 (by decide))).trans (r1_v6 L)

theorem r4_v29 : S4 L main_v29 = (val_main_v29 (F := Ideal) (L (Proc.devRef .tc main_arg1))) :=
  ((S4_of L main_v29 (by decide))).trans (r3_v29 L)

theorem r3_arg0 : S3 L main_arg0 = (L (Proc.devRef .tc main_arg0)) :=
  (S3_of L main_arg0 (by decide)).trans <| (S2_of L main_arg0 (by decide)).trans <| (S1_of L main_arg0 (by decide))

theorem r3_arg4 : S3 L main_arg4 = (L (Proc.devRef .tc main_arg4)) :=
  (S3_of L main_arg4 (by decide)).trans <| (S2_of L main_arg4 (by decide)).trans <| (S1_of L main_arg4 (by decide))

theorem r3_arg5 : S3 L main_arg5 = (L (Proc.devRef .tc main_arg5)) :=
  (S3_of L main_arg5 (by decide)).trans <| (S2_of L main_arg5 (by decide)).trans <| (S1_of L main_arg5 (by decide))

set_option maxRecDepth 1000000 in
set_option maxHeartbeats 8000000 in
theorem r4_v34 : S4 L main_v34 = (val_main_v34 (F := Ideal) (L (Proc.devRef .tc main_arg0)) (L (Proc.devRef .tc main_arg4)) (L (Proc.devRef .tc main_arg5))) := by
  have h0 := r3_arg0 L
  have h1 := r3_arg4 L
  have h2 := r3_arg5 L
  show StableHlo.after c3 (S3 L) (Proc.devRef .tc main_v34) = _
  generalize S3 L = X at h0 h1 h2 ⊢
  after_results
  rw [h0, h1, h2]
  rfl

theorem r4_v3 : S4 L main_v3 = (val_main_v3 (F := Ideal) (L (Proc.devRef .tc main_arg1))) :=
  ((S4_of L main_v3 (by decide)).trans <| (S3_of L main_v3 (by decide)).trans <| (S2_of L main_v3 (by decide))).trans (r1_v3 L)

set_option maxRecDepth 1000000 in
set_option maxHeartbeats 8000000 in
theorem r5_v47 : S5 L main_v47 = (val_main_v47 (F := Ideal) (L (Proc.devRef .tc main_arg0)) (L (Proc.devRef .tc main_arg1)) (L (Proc.devRef .tc main_arg4)) (L (Proc.devRef .tc main_arg5))) := by
  have h0 := r4_v6 L
  have h1 := r4_v29 L
  have h2 := r4_v34 L
  have h3 := r4_v3 L
  show StableHlo.after c4 (S4 L) (Proc.devRef .tc main_v47) = _
  generalize S4 L = X at h0 h1 h2 h3 ⊢
  after_results
  rw [h0, h1, h2, h3]
  rfl

theorem r5_v34 : S5 L main_v34 = (val_main_v34 (F := Ideal) (L (Proc.devRef .tc main_arg0)) (L (Proc.devRef .tc main_arg4)) (L (Proc.devRef .tc main_arg5))) :=
  ((S5_of L main_v34 (by decide))).trans (r4_v34 L)

theorem r5_arg6 : S5 L main_arg6 = (L (Proc.devRef .tc main_arg6)) :=
  (S5_of L main_arg6 (by decide)).trans <| (S4_of L main_arg6 (by decide)).trans <| (S3_of L main_arg6 (by decide)).trans <| (S2_of L main_arg6 (by decide)).trans <| (S1_of L main_arg6 (by decide))

set_option maxRecDepth 1000000 in
set_option maxHeartbeats 8000000 in
theorem r6_v58 : S6 L main_v58 = (val_main_v58 (F := Ideal) (L (Proc.devRef .tc main_arg0)) (L (Proc.devRef .tc main_arg1)) (L (Proc.devRef .tc main_arg4)) (L (Proc.devRef .tc main_arg5)) (L (Proc.devRef .tc main_arg6))) := by
  have h0 := r5_v47 L
  have h1 := r5_v34 L
  have h2 := r5_arg6 L
  show StableHlo.after c5 (S5 L) (Proc.devRef .tc main_v58) = _
  generalize S5 L = X at h0 h1 h2 ⊢
  after_results
  rw [h0, h1, h2]
  rfl

theorem r6_v3 : S6 L main_v3 = (val_main_v3 (F := Ideal) (L (Proc.devRef .tc main_arg1))) :=
  ((S6_of L main_v3 (by decide)).trans <| (S5_of L main_v3 (by decide)).trans <| (S4_of L main_v3 (by decide)).trans <| (S3_of L main_v3 (by decide)).trans <| (S2_of L main_v3 (by decide))).trans (r1_v3 L)

set_option maxRecDepth 1000000 in
set_option maxHeartbeats 8000000 in
theorem r7_v71 : S7 L main_v71 = (val_main_v71 (F := Ideal) (L (Proc.devRef .tc main_arg0)) (L (Proc.devRef .tc main_arg1)) (L (Proc.devRef .tc main_arg4)) (L (Proc.devRef .tc main_arg5)) (L (Proc.devRef .tc main_arg6))) := by
  have h0 := r6_v6 L
  have h1 := r6_v29 L
  have h2 := r6_v58 L
  have h3 := r6_v3 L
  show StableHlo.after c6 (S6 L) (Proc.devRef .tc main_v71) = _
  generalize S6 L = X at h0 h1 h2 h3 ⊢
  after_results
  rw [h0, h1, h2, h3]
  rfl

theorem r7_v34 : S7 L main_v34 = (val_main_v34 (F := Ideal) (L (Proc.devRef .tc main_arg0)) (L (Proc.devRef .tc main_arg4)) (L (Proc.devRef .tc main_arg5))) :=
  ((S7_of L main_v34 (by decide)).trans <| (S6_of L main_v34 (by decide)).trans <| (S5_of L main_v34 (by decide))).trans (r4_v34 L)

theorem r7_arg6 : S7 L main_arg6 = (L (Proc.devRef .tc main_arg6)) :=
  (S7_of L main_arg6 (by decide)).trans <| (S6_of L main_arg6 (by decide)).trans <| (S5_of L main_arg6 (by decide)).trans <| (S4_of L main_arg6 (by decide)).trans <| (S3_of L main_arg6 (by decide)).trans <| (S2_of L main_arg6 (by decide)).trans <| (S1_of L main_arg6 (by decide))

theorem r7_v58 : S7 L main_v58 = (val_main_v58 (F := Ideal) (L (Proc.devRef .tc main_arg0)) (L (Proc.devRef .tc main_arg1)) (L (Proc.devRef .tc main_arg4)) (L (Proc.devRef .tc main_arg5)) (L (Proc.devRef .tc main_arg6))) :=
  ((S7_of L main_v58 (by decide))).trans (r6_v58 L)

set_option maxRecDepth 1000000 in
set_option maxHeartbeats 8000000 in
theorem r8_v82 : S8 L main_v82 = (val_main_v82 (F := Ideal) (L (Proc.devRef .tc main_arg0)) (L (Proc.devRef .tc main_arg1)) (L (Proc.devRef .tc main_arg4)) (L (Proc.devRef .tc main_arg5)) (L (Proc.devRef .tc main_arg6))) := by
  have h0 := r7_v71 L
  have h1 := r7_v34 L
  have h2 := r7_arg6 L
  have h3 := r7_v58 L
  show StableHlo.after c7 (S7 L) (Proc.devRef .tc main_v82) = _
  generalize S7 L = X at h0 h1 h2 h3 ⊢
  after_results
  rw [h0, h1, h2, h3]
  rfl

theorem r8_v3 : S8 L main_v3 = (val_main_v3 (F := Ideal) (L (Proc.devRef .tc main_arg1))) :=
  ((S8_of L main_v3 (by decide)).trans <| (S7_of L main_v3 (by decide)).trans <| (S6_of L main_v3 (by decide)).trans <| (S5_of L main_v3 (by decide)).trans <| (S4_of L main_v3 (by decide)).trans <| (S3_of L main_v3 (by decide)).trans <| (S2_of L main_v3 (by decide))).trans (r1_v3 L)

set_option maxRecDepth 1000000 in
set_option maxHeartbeats 8000000 in
theorem r9_v95 : S9 L main_v95 = (val_main_v95 (F := Ideal) (L (Proc.devRef .tc main_arg0)) (L (Proc.devRef .tc main_arg1)) (L (Proc.devRef .tc main_arg4)) (L (Proc.devRef .tc main_arg5)) (L (Proc.devRef .tc main_arg6))) := by
  have h0 := r8_v6 L
  have h1 := r8_v29 L
  have h2 := r8_v82 L
  have h3 := r8_v3 L
  show StableHlo.after c8 (S8 L) (Proc.devRef .tc main_v95) = _
  generalize S8 L = X at h0 h1 h2 h3 ⊢
  after_results
  rw [h0, h1, h2, h3]
  rfl

theorem r9_v34 : S9 L main_v34 = (val_main_v34 (F := Ideal) (L (Proc.devRef .tc main_arg0)) (L (Proc.devRef .tc main_arg4)) (L (Proc.devRef .tc main_arg5))) :=
  ((S9_of L main_v34 (by decide)).trans <| (S8_of L main_v34 (by decide)).trans <| (S7_of L main_v34 (by decide)).trans <| (S6_of L main_v34 (by decide)).trans <| (S5_of L main_v34 (by decide))).trans (r4_v34 L)

theorem r9_arg6 : S9 L main_arg6 = (L (Proc.devRef .tc main_arg6)) :=
  (S9_of L main_arg6 (by decide)).trans <| (S8_of L main_arg6 (by decide)).trans <| (S7_of L main_arg6 (by decide)).trans <| (S6_of L main_arg6 (by decide)).trans <| (S5_of L main_arg6 (by decide)).trans <| (S4_of L main_arg6 (by decide)).trans <| (S3_of L main_arg6 (by decide)).trans <| (S2_of L main_arg6 (by decide)).trans <| (S1_of L main_arg6 (by decide))

theorem r9_v82 : S9 L main_v82 = (val_main_v82 (F := Ideal) (L (Proc.devRef .tc main_arg0)) (L (Proc.devRef .tc main_arg1)) (L (Proc.devRef .tc main_arg4)) (L (Proc.devRef .tc main_arg5)) (L (Proc.devRef .tc main_arg6))) :=
  ((S9_of L main_v82 (by decide))).trans (r8_v82 L)

set_option maxRecDepth 1000000 in
set_option maxHeartbeats 8000000 in
theorem r10_v106 : S10 L main_v106 = (val_main_v106 (F := Ideal) (L (Proc.devRef .tc main_arg0)) (L (Proc.devRef .tc main_arg1)) (L (Proc.devRef .tc main_arg4)) (L (Proc.devRef .tc main_arg5)) (L (Proc.devRef .tc main_arg6))) := by
  have h0 := r9_v95 L
  have h1 := r9_v34 L
  have h2 := r9_arg6 L
  have h3 := r9_v82 L
  show StableHlo.after c9 (S9 L) (Proc.devRef .tc main_v106) = _
  generalize S9 L = X at h0 h1 h2 h3 ⊢
  after_results
  rw [h0, h1, h2, h3]
  rfl

theorem r10_arg7 : S10 L main_arg7 = (L (Proc.devRef .tc main_arg7)) :=
  (S10_of L main_arg7 (by decide)).trans <| (S9_of L main_arg7 (by decide)).trans <| (S8_of L main_arg7 (by decide)).trans <| (S7_of L main_arg7 (by decide)).trans <| (S6_of L main_arg7 (by decide)).trans <| (S5_of L main_arg7 (by decide)).trans <| (S4_of L main_arg7 (by decide)).trans <| (S3_of L main_arg7 (by decide)).trans <| (S2_of L main_arg7 (by decide)).trans <| (S1_of L main_arg7 (by decide))

theorem r10_arg8 : S10 L main_arg8 = (L (Proc.devRef .tc main_arg8)) :=
  (S10_of L main_arg8 (by decide)).trans <| (S9_of L main_arg8 (by decide)).trans <| (S8_of L main_arg8 (by decide)).trans <| (S7_of L main_arg8 (by decide)).trans <| (S6_of L main_arg8 (by decide)).trans <| (S5_of L main_arg8 (by decide)).trans <| (S4_of L main_arg8 (by decide)).trans <| (S3_of L main_arg8 (by decide)).trans <| (S2_of L main_arg8 (by decide)).trans <| (S1_of L main_arg8 (by decide))

set_option maxRecDepth 1000000 in
set_option maxHeartbeats 8000000 in
theorem r11_v110 : S11 L main_v110 = (val_main_v110 (F := Ideal) (L (Proc.devRef .tc main_arg0)) (L (Proc.devRef .tc main_arg1)) (L (Proc.devRef .tc main_arg4)) (L (Proc.devRef .tc main_arg5)) (L (Proc.devRef .tc main_arg6)) (L (Proc.devRef .tc main_arg7)) (L (Proc.devRef .tc main_arg8))) := by
  have h0 := r10_v106 L
  have h1 := r10_arg7 L
  have h2 := r10_arg8 L
  show StableHlo.after c10 (S10 L) (Proc.devRef .tc main_v110) = _
  generalize S10 L = X at h0 h1 h2 ⊢
  after_results
  rw [h0, h1, h2]
  rfl

theorem r22_v110 : S22 L main_v110 = (val_main_v110 (F := Ideal) (L (Proc.devRef .tc main_arg0)) (L (Proc.devRef .tc main_arg1)) (L (Proc.devRef .tc main_arg4)) (L (Proc.devRef .tc main_arg5)) (L (Proc.devRef .tc main_arg6)) (L (Proc.devRef .tc main_arg7)) (L (Proc.devRef .tc main_arg8))) :=
  ((S22_of L main_v110 (by decide)).trans <| (S21_of L main_v110 (by decide)).trans <| (S20_of L main_v110 (by decide)).trans <| (S19_of L main_v110 (by decide)).trans <| (S18_of L main_v110 (by decide)).trans <| (S17_of L main_v110 (by decide)).trans <| (S16_of L main_v110 (by decide)).trans <| (S15_of L main_v110 (by decide)).trans <| (S14_of L main_v110 (by decide)).trans <| (S13_of L main_v110 (by decide)).trans <| (S12_of L main_v110 (by decide))).trans (r11_v110 L)

theorem r11_arg3 : S11 L main_arg3 = (L (Proc.devRef .tc main_arg3)) :=
  (S11_of L main_arg3 (by decide)).trans <| (S10_of L main_arg3 (by decide)).trans <| (S9_of L main_arg3 (by decide)).trans <| (S8_of L main_arg3 (by decide)).trans <| (S7_of L main_arg3 (by decide)).trans <| (S6_of L main_arg3 (by decide)).trans <| (S5_of L main_arg3 (by decide)).trans <| (S4_of L main_arg3 (by decide)).trans <| (S3_of L main_arg3 (by decide)).trans <| (S2_of L main_arg3 (by decide)).trans <| (S1_of L main_arg3 (by decide))

set_option maxRecDepth 1000000 in
set_option maxHeartbeats 8000000 in
theorem r12_v117 : S12 L main_v117 = (val_main_v117 (F := Ideal) (L (Proc.devRef .tc main_arg3))) := by
  have h0 := r11_arg3 L
  show StableHlo.after c11 (S11 L) (Proc.devRef .tc main_v117) = _
  generalize S11 L = X at h0 ⊢
  after_results
  rw [h0]
  rfl

theorem r19_v117 : S19 L main_v117 = (val_main_v117 (F := Ideal) (L (Proc.devRef .tc main_arg3))) :=
  ((S19_of L main_v117 (by decide)).trans <| (S18_of L main_v117 (by decide)).trans <| (S17_of L main_v117 (by decide)).trans <| (S16_of L main_v117 (by decide)).trans <| (S15_of L main_v117 (by decide)).trans <| (S14_of L main_v117 (by decide)).trans <| (S13_of L main_v117 (by decide))).trans (r12_v117 L)

set_option maxRecDepth 1000000 in
set_option maxHeartbeats 8000000 in
theorem r12_v123 : S12 L main_v123 = (val_main_v123 (F := Ideal) (L (Proc.devRef .tc main_arg3))) := by
  have h0 := r11_arg3 L
  show StableHlo.after c11 (S11 L) (Proc.devRef .tc main_v123) = _
  generalize S11 L = X at h0 ⊢
  after_results
  rw [h0]
  rfl

set_option maxRecDepth 1000000 in
set_option maxHeartbeats 8000000 in
theorem r12_v124 : S12 L main_v124 = (val_main_v124 (F := Ideal) (L (Proc.devRef .tc main_arg3))) := by
  have h0 := r11_arg3 L
  show StableHlo.after c11 (S11 L) (Proc.devRef .tc main_v124) = _
  generalize S11 L = X at h0 ⊢
  after_results
  rw [h0]
  rfl

set_option maxRecDepth 1000000 in
set_option maxHeartbeats 8000000 in
theorem r12_cst_24 : S12 L main_cst_24 = (val_main_cst_24 (F := Ideal)) := by
  show StableHlo.after c11 (S11 L) (Proc.devRef .tc main_cst_24) = _
  generalize S11 L = X
  after_results
  rfl

set_option maxRecDepth 1000000 in
set_option maxHeartbeats 8000000 in
theorem r13_v125 : S13 L main_v125 = (val_main_v125 (F := Ideal) (L (Proc.devRef .tc main_arg3))) := by
  have h0 := r12_v123 L
  have h1 := r12_v124 L
  have h2 := r12_cst_24 L
  show StableHlo.after c12 (S12 L) (Proc.devRef .tc main_v125) = _
  generalize S12 L = X at h0 h1 h2 ⊢
  after_results
  rw [h0, h1, h2]
  rfl

set_option maxRecDepth 1000000 in
set_option maxHeartbeats 8000000 in
theorem r12_v114 : S12 L main_v114 = (val_main_v114 (F := Ideal) (L (Proc.devRef .tc main_arg3))) := by
  have h0 := r11_arg3 L
  show StableHlo.after c11 (S11 L) (Proc.devRef .tc main_v114) = _
  generalize S11 L = X at h0 ⊢
  after_results
  rw [h0]
  rfl

theorem r13_v114 : S13 L main_v114 = (val_main_v114 (F := Ideal) (L (Proc.devRef .tc main_arg3))) :=
  ((S13_of L main_v114 (by decide))).trans (r12_v114 L)

theorem r13_v117 : S13 L main_v117 = (val_main_v117 (F := Ideal) (L (Proc.devRef .tc main_arg3))) :=
  ((S13_of L main_v117 (by decide))).trans (r12_v117 L)

set_option maxRecDepth 1000000 in
set_option maxHeartbeats 8000000 in
theorem r14_v140 : S14 L main_v140 = (val_main_v140 (F := Ideal) (L (Proc.devRef .tc main_arg3))) := by
  have h0 := r13_v125 L
  have h1 := r13_v114 L
  have h2 := r13_v117 L
  show StableHlo.after c13 (S13 L) (Proc.devRef .tc main_v140) = _
  generalize S13 L = X at h0 h1 h2 ⊢
  after_results
  rw [h0, h1, h2]
  rfl

theorem r19_v140 : S19 L main_v140 = (val_main_v140 (F := Ideal) (L (Proc.devRef .tc main_arg3))) :=
  ((S19_of L main_v140 (by decide)).trans <| (S18_of L main_v140 (by decide)).trans <| (S17_of L main_v140 (by decide)).trans <| (S16_of L main_v140 (by decide)).trans <| (S15_of L main_v140 (by decide))).trans (r14_v140 L)

theorem r17_v117 : S17 L main_v117 = (val_main_v117 (F := Ideal) (L (Proc.devRef .tc main_arg3))) :=
  ((S17_of L main_v117 (by decide)).trans <| (S16_of L main_v117 (by decide)).trans <| (S15_of L main_v117 (by decide)).trans <| (S14_of L main_v117 (by decide)).trans <| (S13_of L main_v117 (by decide))).trans (r12_v117 L)

theorem r17_v140 : S17 L main_v140 = (val_main_v140 (F := Ideal) (L (Proc.devRef .tc main_arg3))) :=
  ((S17_of L main_v140 (by decide)).trans <| (S16_of L main_v140 (by decide)).trans <| (S15_of L main_v140 (by decide))).trans (r14_v140 L)

theorem r15_v117 : S15 L main_v117 = (val_main_v117 (F := Ideal) (L (Proc.devRef .tc main_arg3))) :=
  ((S15_of L main_v117 (by decide)).trans <| (S14_of L main_v117 (by decide)).trans <| (S13_of L main_v117 (by decide))).trans (r12_v117 L)

theorem r15_v140 : S15 L main_v140 = (val_main_v140 (F := Ideal) (L (Proc.devRef .tc main_arg3))) :=
  ((S15_of L main_v140 (by decide))).trans (r14_v140 L)

theorem r14_arg2 : S14 L main_arg2 = (L (Proc.devRef .tc main_arg2)) :=
  (S14_of L main_arg2 (by decide)).trans <| (S13_of L main_arg2 (by decide)).trans <| (S12_of L main_arg2 (by decide)).trans <| (S11_of L main_arg2 (by decide)).trans <| (S10_of L main_arg2 (by decide)).trans <| (S9_of L main_arg2 (by decide)).trans <| (S8_of L main_arg2 (by decide)).trans <| (S7_of L main_arg2 (by decide)).trans <| (S6_of L main_arg2 (by decide)).trans <| (S5_of L main_arg2 (by decide)).trans <| (S4_of L main_arg2 (by decide)).trans <| (S3_of L main_arg2 (by decide)).trans <| (S2_of L main_arg2 (by decide)).trans <| (S1_of L main_arg2 (by decide))

theorem r14_arg9 : S14 L main_arg9 = (L (Proc.devRef .tc main_arg9)) :=
  (S14_of L main_arg9 (by decide)).trans <| (S13_of L main_arg9 (by decide)).trans <| (S12_of L main_arg9 (by decide)).trans <| (S11_of L main_arg9 (by decide)).trans <| (S10_of L main_arg9 (by decide)).trans <| (S9_of L main_arg9 (by decide)).trans <| (S8_of L main_arg9 (by decide)).trans <| (S7_of L main_arg9 (by decide)).trans <| (S6_of L main_arg9 (by decide)).trans <| (S5_of L main_arg9 (by decide)).trans <| (S4_of L main_arg9 (by decide)).trans <| (S3_of L main_arg9 (by decide)).trans <| (S2_of L main_arg9 (by decide)).trans <| (S1_of L main_arg9 (by decide))

theorem r14_arg10 : S14 L main_arg10 = (L (Proc.devRef .tc main_arg10)) :=
  (S14_of L main_arg10 (by decide)).trans <| (S13_of L main_arg10 (by decide)).trans <| (S12_of L main_arg10 (by decide)).trans <| (S11_of L main_arg10 (by decide)).trans <| (S10_of L main_arg10 (by decide)).trans <| (S9_of L main_arg10 (by decide)).trans <| (S8_of L main_arg10 (by decide)).trans <| (S7_of L main_arg10 (by decide)).trans <| (S6_of L main_arg10 (by decide)).trans <| (S5_of L main_arg10 (by decide)).trans <| (S4_of L main_arg10 (by decide)).trans <| (S3_of L main_arg10 (by decide)).trans <| (S2_of L main_arg10 (by decide)).trans <| (S1_of L main_arg10 (by decide))

set_option maxRecDepth 1000000 in
set_option maxHeartbeats 8000000 in
theorem r15_v145 : S15 L main_v145 = (val_main_v145 (F := Ideal) (L (Proc.devRef .tc main_arg2)) (L (Proc.devRef .tc main_arg9)) (L (Proc.devRef .tc main_arg10))) := by
  have h0 := r14_arg2 L
  have h1 := r14_arg9 L
  have h2 := r14_arg10 L
  show StableHlo.after c14 (S14 L) (Proc.devRef .tc main_v145) = _
  generalize S14 L = X at h0 h1 h2 ⊢
  after_results
  rw [h0, h1, h2]
  rfl

theorem r15_v114 : S15 L main_v114 = (val_main_v114 (F := Ideal) (L (Proc.devRef .tc main_arg3))) :=
  ((S15_of L main_v114 (by decide)).trans <| (S14_of L main_v114 (by decide)).trans <| (S13_of L main_v114 (by decide))).trans (r12_v114 L)

set_option maxRecDepth 1000000 in
set_option maxHeartbeats 8000000 in
theorem r16_v158 : S16 L main_v158 = (val_main_v158 (F := Ideal) (L (Proc.devRef .tc main_arg2)) (L (Proc.devRef .tc main_arg3)) (L (Proc.devRef .tc main_arg9)) (L (Proc.devRef .tc main_arg10))) := by
  have h0 := r15_v117 L
  have h1 := r15_v140 L
  have h2 := r15_v145 L
  have h3 := r15_v114 L
  show StableHlo.after c15 (S15 L) (Proc.devRef .tc main_v158) = _
  generalize S15 L = X at h0 h1 h2 h3 ⊢
  after_results
  rw [h0, h1, h2, h3]
  rfl

theorem r16_v145 : S16 L main_v145 = (val_main_v145 (F := Ideal) (L (Proc.devRef .tc main_arg2)) (L (Proc.devRef .tc main_arg9)) (L (Proc.devRef .tc main_arg10))) :=
  ((S16_of L main_v145 (by decide))).trans (r15_v145 L)

theorem r16_arg11 : S16 L main_arg11 = (L (Proc.devRef .tc main_arg11)) :=
  (S16_of L main_arg11 (by decide)).trans <| (S15_of L main_arg11 (by decide)).trans <| (S14_of L main_arg11 (by decide)).trans <| (S13_of L main_arg11 (by decide)).trans <| (S12_of L main_arg11 (by decide)).trans <| (S11_of L main_arg11 (by decide)).trans <| (S10_of L main_arg11 (by decide)).trans <| (S9_of L main_arg11 (by decide)).trans <| (S8_of L main_arg11 (by decide)).trans <| (S7_of L main_arg11 (by decide)).trans <| (S6_of L main_arg11 (by decide)).trans <| (S5_of L main_arg11 (by decide)).trans <| (S4_of L main_arg11 (by decide)).trans <| (S3_of L main_arg11 (by decide)).trans <| (S2_of L main_arg11 (by decide)).trans <| (S1_of L main_arg11 (by decide))

set_option maxRecDepth 1000000 in
set_option maxHeartbeats 8000000 in
theorem r17_v169 : S17 L main_v169 = (val_main_v169 (F := Ideal) (L (Proc.devRef .tc main_arg2)) (L (Proc.devRef .tc main_arg3)) (L (Proc.devRef .tc main_arg9)) (L (Proc.devRef .tc main_arg10)) (L (Proc.devRef .tc main_arg11))) := by
  have h0 := r16_v158 L
  have h1 := r16_v145 L
  have h2 := r16_arg11 L
  show StableHlo.after c16 (S16 L) (Proc.devRef .tc main_v169) = _
  generalize S16 L = X at h0 h1 h2 ⊢
  after_results
  rw [h0, h1, h2]
  rfl

theorem r17_v114 : S17 L main_v114 = (val_main_v114 (F := Ideal) (L (Proc.devRef .tc main_arg3))) :=
  ((S17_of L main_v114 (by decide)).trans <| (S16_of L main_v114 (by decide)).trans <| (S15_of L main_v114 (by decide)).trans <| (S14_of L main_v114 (by decide)).trans <| (S13_of L main_v114 (by decide))).trans (r12_v114 L)

set_option maxRecDepth 1000000 in
set_option maxHeartbeats 8000000 in
theorem r18_v182 : S18 L main_v182 = (val_main_v182 (F := Ideal) (L (Proc.devRef .tc main_arg2)) (L (Proc.devRef .tc main_arg3)) (L (Proc.devRef .tc main_arg9)) (L (Proc.devRef .tc main_arg10)) (L (Proc.devRef .tc main_arg11))) := by
  have h0 := r17_v117 L
  have h1 := r17_v140 L
  have h2 := r17_v169 L
  have h3 := r17_v114 L
  show StableHlo.after c17 (S17 L) (Proc.devRef .tc main_v182) = _
  generalize S17 L = X at h0 h1 h2 h3 ⊢
  after_results
  rw [h0, h1, h2, h3]
  rfl

theorem r18_v145 : S18 L main_v145 = (val_main_v145 (F := Ideal) (L (Proc.devRef .tc main_arg2)) (L (Proc.devRef .tc main_arg9)) (L (Proc.devRef .tc main_arg10))) :=
  ((S18_of L main_v145 (by decide)).trans <| (S17_of L main_v145 (by decide)).trans <| (S16_of L main_v145 (by decide))).trans (r15_v145 L)

theorem r18_arg11 : S18 L main_arg11 = (L (Proc.devRef .tc main_arg11)) :=
  (S18_of L main_arg11 (by decide)).trans <| (S17_of L main_arg11 (by decide)).trans <| (S16_of L main_arg11 (by decide)).trans <| (S15_of L main_arg11 (by decide)).trans <| (S14_of L main_arg11 (by decide)).trans <| (S13_of L main_arg11 (by decide)).trans <| (S12_of L main_arg11 (by decide)).trans <| (S11_of L main_arg11 (by decide)).trans <| (S10_of L main_arg11 (by decide)).trans <| (S9_of L main_arg11 (by decide)).trans <| (S8_of L main_arg11 (by decide)).trans <| (S7_of L main_arg11 (by decide)).trans <| (S6_of L main_arg11 (by decide)).trans <| (S5_of L main_arg11 (by decide)).trans <| (S4_of L main_arg11 (by decide)).trans <| (S3_of L main_arg11 (by decide)).trans <| (S2_of L main_arg11 (by decide)).trans <| (S1_of L main_arg11 (by decide))

theorem r18_v169 : S18 L main_v169 = (val_main_v169 (F := Ideal) (L (Proc.devRef .tc main_arg2)) (L (Proc.devRef .tc main_arg3)) (L (Proc.devRef .tc main_arg9)) (L (Proc.devRef .tc main_arg10)) (L (Proc.devRef .tc main_arg11))) :=
  ((S18_of L main_v169 (by decide))).trans (r17_v169 L)

set_option maxRecDepth 1000000 in
set_option maxHeartbeats 8000000 in
theorem r19_v193 : S19 L main_v193 = (val_main_v193 (F := Ideal) (L (Proc.devRef .tc main_arg2)) (L (Proc.devRef .tc main_arg3)) (L (Proc.devRef .tc main_arg9)) (L (Proc.devRef .tc main_arg10)) (L (Proc.devRef .tc main_arg11))) := by
  have h0 := r18_v182 L
  have h1 := r18_v145 L
  have h2 := r18_arg11 L
  have h3 := r18_v169 L
  show StableHlo.after c18 (S18 L) (Proc.devRef .tc main_v193) = _
  generalize S18 L = X at h0 h1 h2 h3 ⊢
  after_results
  rw [h0, h1, h2, h3]
  rfl

theorem r19_v114 : S19 L main_v114 = (val_main_v114 (F := Ideal) (L (Proc.devRef .tc main_arg3))) :=
  ((S19_of L main_v114 (by decide)).trans <| (S18_of L main_v114 (by decide)).trans <| (S17_of L main_v114 (by decide)).trans <| (S16_of L main_v114 (by decide)).trans <| (S15_of L main_v114 (by decide)).trans <| (S14_of L main_v114 (by decide)).trans <| (S13_of L main_v114 (by decide))).trans (r12_v114 L)

set_option maxRecDepth 1000000 in
set_option maxHeartbeats 8000000 in
theorem r20_v206 : S20 L main_v206 = (val_main_v206 (F := Ideal) (L (Proc.devRef .tc main_arg2)) (L (Proc.devRef .tc main_arg3)) (L (Proc.devRef .tc main_arg9)) (L (Proc.devRef .tc main_arg10)) (L (Proc.devRef .tc main_arg11))) := by
  have h0 := r19_v117 L
  have h1 := r19_v140 L
  have h2 := r19_v193 L
  have h3 := r19_v114 L
  show StableHlo.after c19 (S19 L) (Proc.devRef .tc main_v206) = _
  generalize S19 L = X at h0 h1 h2 h3 ⊢
  after_results
  rw [h0, h1, h2, h3]
  rfl

theorem r20_v145 : S20 L main_v145 = (val_main_v145 (F := Ideal) (L (Proc.devRef .tc main_arg2)) (L (Proc.devRef .tc main_arg9)) (L (Proc.devRef .tc main_arg10))) :=
  ((S20_of L main_v145 (by decide)).trans <| (S19_of L main_v145 (by decide)).trans <| (S18_of L main_v145 (by decide)).trans <| (S17_of L main_v145 (by decide)).trans <| (S16_of L main_v145 (by decide))).trans (r15_v145 L)

theorem r20_arg11 : S20 L main_arg11 = (L (Proc.devRef .tc main_arg11)) :=
  (S20_of L main_arg11 (by decide)).trans <| (S19_of L main_arg11 (by decide)).trans <| (S18_of L main_arg11 (by decide)).trans <| (S17_of L main_arg11 (by decide)).trans <| (S16_of L main_arg11 (by decide)).trans <| (S15_of L main_arg11 (by decide)).trans <| (S14_of L main_arg11 (by decide)).trans <| (S13_of L main_arg11 (by decide)).trans <| (S12_of L main_arg11 (by decide)).trans <| (S11_of L main_arg11 (by decide)).trans <| (S10_of L main_arg11 (by decide)).trans <| (S9_of L main_arg11 (by decide)).trans <| (S8_of L main_arg11 (by decide)).trans <| (S7_of L main_arg11 (by decide)).trans <| (S6_of L main_arg11 (by decide)).trans <| (S5_of L main_arg11 (by decide)).trans <| (S4_of L main_arg11 (by decide)).trans <| (S3_of L main_arg11 (by decide)).trans <| (S2_of L main_arg11 (by decide)).trans <| (S1_of L main_arg11 (by decide))

theorem r20_v193 : S20 L main_v193 = (val_main_v193 (F := Ideal) (L (Proc.devRef .tc main_arg2)) (L (Proc.devRef .tc main_arg3)) (L (Proc.devRef .tc main_arg9)) (L (Proc.devRef .tc main_arg10)) (L (Proc.devRef .tc main_arg11))) :=
  ((S20_of L main_v193 (by decide))).trans (r19_v193 L)

set_option maxRecDepth 1000000 in
set_option maxHeartbeats 8000000 in
theorem r21_v217 : S21 L main_v217 = (val_main_v217 (F := Ideal) (L (Proc.devRef .tc main_arg2)) (L (Proc.devRef .tc main_arg3)) (L (Proc.devRef .tc main_arg9)) (L (Proc.devRef .tc main_arg10)) (L (Proc.devRef .tc main_arg11))) := by
  have h0 := r20_v206 L
  have h1 := r20_v145 L
  have h2 := r20_arg11 L
  have h3 := r20_v193 L
  show StableHlo.after c20 (S20 L) (Proc.devRef .tc main_v217) = _
  generalize S20 L = X at h0 h1 h2 h3 ⊢
  after_results
  rw [h0, h1, h2, h3]
  rfl

theorem r21_arg12 : S21 L main_arg12 = (L (Proc.devRef .tc main_arg12)) :=
  (S21_of L main_arg12 (by decide)).trans <| (S20_of L main_arg12 (by decide)).trans <| (S19_of L main_arg12 (by decide)).trans <| (S18_of L main_arg12 (by decide)).trans <| (S17_of L main_arg12 (by decide)).trans <| (S16_of L main_arg12 (by decide)).trans <| (S15_of L main_arg12 (by decide)).trans <| (S14_of L main_arg12 (by decide)).trans <| (S13_of L main_arg12 (by decide)).trans <| (S12_of L main_arg12 (by decide)).trans <| (S11_of L main_arg12 (by decide)).trans <| (S10_of L main_arg12 (by decide)).trans <| (S9_of L main_arg12 (by decide)).trans <| (S8_of L main_arg12 (by decide)).trans <| (S7_of L main_arg12 (by decide)).trans <| (S6_of L main_arg12 (by decide)).trans <| (S5_of L main_arg12 (by decide)).trans <| (S4_of L main_arg12 (by decide)).trans <| (S3_of L main_arg12 (by decide)).trans <| (S2_of L main_arg12 (by decide)).trans <| (S1_of L main_arg12 (by decide))

theorem r21_arg13 : S21 L main_arg13 = (L (Proc.devRef .tc main_arg13)) :=
  (S21_of L main_arg13 (by decide)).trans <| (S20_of L main_arg13 (by decide)).trans <| (S19_of L main_arg13 (by decide)).trans <| (S18_of L main_arg13 (by decide)).trans <| (S17_of L main_arg13 (by decide)).trans <| (S16_of L main_arg13 (by decide)).trans <| (S15_of L main_arg13 (by decide)).trans <| (S14_of L main_arg13 (by decide)).trans <| (S13_of L main_arg13 (by decide)).trans <| (S12_of L main_arg13 (by decide)).trans <| (S11_of L main_arg13 (by decide)).trans <| (S10_of L main_arg13 (by decide)).trans <| (S9_of L main_arg13 (by decide)).trans <| (S8_of L main_arg13 (by decide)).trans <| (S7_of L main_arg13 (by decide)).trans <| (S6_of L main_arg13 (by decide)).trans <| (S5_of L main_arg13 (by decide)).trans <| (S4_of L main_arg13 (by decide)).trans <| (S3_of L main_arg13 (by decide)).trans <| (S2_of L main_arg13 (by decide)).trans <| (S1_of L main_arg13 (by decide))

set_option maxRecDepth 1000000 in
set_option maxHeartbeats 8000000 in
theorem r22_v221 : S22 L main_v221 = (val_main_v221 (F := Ideal) (L (Proc.devRef .tc main_arg2)) (L (Proc.devRef .tc main_arg3)) (L (Proc.devRef .tc main_arg9)) (L (Proc.devRef .tc main_arg10)) (L (Proc.devRef .tc main_arg11)) (L (Proc.devRef .tc main_arg12)) (L (Proc.devRef .tc main_arg13))) := by
  have h0 := r21_v217 L
  have h1 := r21_arg12 L
  have h2 := r21_arg13 L
  show StableHlo.after c21 (S21 L) (Proc.devRef .tc main_v221) = _
  generalize S21 L = X at h0 h1 h2 ⊢
  after_results
  rw [h0, h1, h2]
  rfl

theorem r22_arg14 : S22 L main_arg14 = (L (Proc.devRef .tc main_arg14)) :=
  (S22_of L main_arg14 (by decide)).trans <| (S21_of L main_arg14 (by decide)).trans <| (S20_of L main_arg14 (by decide)).trans <| (S19_of L main_arg14 (by decide)).trans <| (S18_of L main_arg14 (by decide)).trans <| (S17_of L main_arg14 (by decide)).trans <| (S16_of L main_arg14 (by decide)).trans <| (S15_of L main_arg14 (by decide)).trans <| (S14_of L main_arg14 (by decide)).trans <| (S13_of L main_arg14 (by decide)).trans <| (S12_of L main_arg14 (by decide)).trans <| (S11_of L main_arg14 (by decide)).trans <| (S10_of L main_arg14 (by decide)).trans <| (S9_of L main_arg14 (by decide)).trans <| (S8_of L main_arg14 (by decide)).trans <| (S7_of L main_arg14 (by decide)).trans <| (S6_of L main_arg14 (by decide)).trans <| (S5_of L main_arg14 (by decide)).trans <| (S4_of L main_arg14 (by decide)).trans <| (S3_of L main_arg14 (by decide)).trans <| (S2_of L main_arg14 (by decide)).trans <| (S1_of L main_arg14 (by decide))

theorem r22_arg15 : S22 L main_arg15 = (L (Proc.devRef .tc main_arg15)) :=
  (S22_of L main_arg15 (by decide)).trans <| (S21_of L main_arg15 (by decide)).trans <| (S20_of L main_arg15 (by decide)).trans <| (S19_of L main_arg15 (by decide)).trans <| (S18_of L main_arg15 (by decide)).trans <| (S17_of L main_arg15 (by decide)).trans <| (S16_of L main_arg15 (by decide)).trans <| (S15_of L main_arg15 (by decide)).trans <| (S14_of L main_arg15 (by decide)).trans <| (S13_of L main_arg15 (by decide)).trans <| (S12_of L main_arg15 (by decide)).trans <| (S11_of L main_arg15 (by decide)).trans <| (S10_of L main_arg15 (by decide)).trans <| (S9_of L main_arg15 (by decide)).trans <| (S8_of L main_arg15 (by decide)).trans <| (S7_of L main_arg15 (by decide)).trans <| (S6_of L main_arg15 (by decide)).trans <| (S5_of L main_arg15 (by decide)).trans <| (S4_of L main_arg15 (by decide)).trans <| (S3_of L main_arg15 (by decide)).trans <| (S2_of L main_arg15 (by decide)).trans <| (S1_of L main_arg15 (by decide))

theorem r22_arg16 : S22 L main_arg16 = (L (Proc.devRef .tc main_arg16)) :=
  (S22_of L main_arg16 (by decide)).trans <| (S21_of L main_arg16 (by decide)).trans <| (S20_of L main_arg16 (by decide)).trans <| (S19_of L main_arg16 (by decide)).trans <| (S18_of L main_arg16 (by decide)).trans <| (S17_of L main_arg16 (by decide)).trans <| (S16_of L main_arg16 (by decide)).trans <| (S15_of L main_arg16 (by decide)).trans <| (S14_of L main_arg16 (by decide)).trans <| (S13_of L main_arg16 (by decide)).trans <| (S12_of L main_arg16 (by decide)).trans <| (S11_of L main_arg16 (by decide)).trans <| (S10_of L main_arg16 (by decide)).trans <| (S9_of L main_arg16 (by decide)).trans <| (S8_of L main_arg16 (by decide)).trans <| (S7_of L main_arg16 (by decide)).trans <| (S6_of L main_arg16 (by decide)).trans <| (S5_of L main_arg16 (by decide)).trans <| (S4_of L main_arg16 (by decide)).trans <| (S3_of L main_arg16 (by decide)).trans <| (S2_of L main_arg16 (by decide)).trans <| (S1_of L main_arg16 (by decide))

theorem r22_arg17 : S22 L main_arg17 = (L (Proc.devRef .tc main_arg17)) :=
  (S22_of L main_arg17 (by decide)).trans <| (S21_of L main_arg17 (by decide)).trans <| (S20_of L main_arg17 (by decide)).trans <| (S19_of L main_arg17 (by decide)).trans <| (S18_of L main_arg17 (by decide)).trans <| (S17_of L main_arg17 (by decide)).trans <| (S16_of L main_arg17 (by decide)).trans <| (S15_of L main_arg17 (by decide)).trans <| (S14_of L main_arg17 (by decide)).trans <| (S13_of L main_arg17 (by decide)).trans <| (S12_of L main_arg17 (by decide)).trans <| (S11_of L main_arg17 (by decide)).trans <| (S10_of L main_arg17 (by decide)).trans <| (S9_of L main_arg17 (by decide)).trans <| (S8_of L main_arg17 (by decide)).trans <| (S7_of L main_arg17 (by decide)).trans <| (S6_of L main_arg17 (by decide)).trans <| (S5_of L main_arg17 (by decide)).trans <| (S4_of L main_arg17 (by decide)).trans <| (S3_of L main_arg17 (by decide)).trans <| (S2_of L main_arg17 (by decide)).trans <| (S1_of L main_arg17 (by decide))

theorem r22_arg18 : S22 L main_arg18 = (L (Proc.devRef .tc main_arg18)) :=
  (S22_of L main_arg18 (by decide)).trans <| (S21_of L main_arg18 (by decide)).trans <| (S20_of L main_arg18 (by decide)).trans <| (S19_of L main_arg18 (by decide)).trans <| (S18_of L main_arg18 (by decide)).trans <| (S17_of L main_arg18 (by decide)).trans <| (S16_of L main_arg18 (by decide)).trans <| (S15_of L main_arg18 (by decide)).trans <| (S14_of L main_arg18 (by decide)).trans <| (S13_of L main_arg18 (by decide)).trans <| (S12_of L main_arg18 (by decide)).trans <| (S11_of L main_arg18 (by decide)).trans <| (S10_of L main_arg18 (by decide)).trans <| (S9_of L main_arg18 (by decide)).trans <| (S8_of L main_arg18 (by decide)).trans <| (S7_of L main_arg18 (by decide)).trans <| (S6_of L main_arg18 (by decide)).trans <| (S5_of L main_arg18 (by decide)).trans <| (S4_of L main_arg18 (by decide)).trans <| (S3_of L main_arg18 (by decide)).trans <| (S2_of L main_arg18 (by decide)).trans <| (S1_of L main_arg18 (by decide))

theorem r22_arg19 : S22 L main_arg19 = (L (Proc.devRef .tc main_arg19)) :=
  (S22_of L main_arg19 (by decide)).trans <| (S21_of L main_arg19 (by decide)).trans <| (S20_of L main_arg19 (by decide)).trans <| (S19_of L main_arg19 (by decide)).trans <| (S18_of L main_arg19 (by decide)).trans <| (S17_of L main_arg19 (by decide)).trans <| (S16_of L main_arg19 (by decide)).trans <| (S15_of L main_arg19 (by decide)).trans <| (S14_of L main_arg19 (by decide)).trans <| (S13_of L main_arg19 (by decide)).trans <| (S12_of L main_arg19 (by decide)).trans <| (S11_of L main_arg19 (by decide)).trans <| (S10_of L main_arg19 (by decide)).trans <| (S9_of L main_arg19 (by decide)).trans <| (S8_of L main_arg19 (by decide)).trans <| (S7_of L main_arg19 (by decide)).trans <| (S6_of L main_arg19 (by decide)).trans <| (S5_of L main_arg19 (by decide)).trans <| (S4_of L main_arg19 (by decide)).trans <| (S3_of L main_arg19 (by decide)).trans <| (S2_of L main_arg19 (by decide)).trans <| (S1_of L main_arg19 (by decide))

set_option maxRecDepth 1000000 in
set_option maxHeartbeats 8000000 in
theorem r23_v236 : S23 L main_v236 = (val_main_v236 (F := Ideal) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11)) (L (Proc.devRef .tc main_arg12)) (L (Proc.devRef .tc main_arg13)) (L (Proc.devRef .tc main_arg14)) (L (Proc.devRef .tc main_arg15)) (L (Proc.devRef .tc main_arg16)) (L (Proc.devRef .tc main_arg17)) (L (Proc.devRef .tc main_arg18)) (L (Proc.devRef .tc main_arg19))) := by
  have h0 := r22_v110 L
  have h1 := r22_v221 L
  have h2 := r22_arg14 L
  have h3 := r22_arg15 L
  have h4 := r22_arg16 L
  have h5 := r22_arg17 L
  have h6 := r22_arg18 L
  have h7 := r22_arg19 L
  show StableHlo.after c22 (S22 L) (Proc.devRef .tc main_v236) = _
  generalize S22 L = X at h0 h1 h2 h3 h4 h5 h6 h7 ⊢
  after_results
  rw [h0, h1, h2, h3, h4, h5, h6, h7]
  rfl

theorem r23_arg0 : S23 L main_arg0 = (L (Proc.devRef .tc main_arg0)) :=
  (S23_of L main_arg0 (by decide)).trans <| (S22_of L main_arg0 (by decide)).trans <| (S21_of L main_arg0 (by decide)).trans <| (S20_of L main_arg0 (by decide)).trans <| (S19_of L main_arg0 (by decide)).trans <| (S18_of L main_arg0 (by decide)).trans <| (S17_of L main_arg0 (by decide)).trans <| (S16_of L main_arg0 (by decide)).trans <| (S15_of L main_arg0 (by decide)).trans <| (S14_of L main_arg0 (by decide)).trans <| (S13_of L main_arg0 (by decide)).trans <| (S12_of L main_arg0 (by decide)).trans <| (S11_of L main_arg0 (by decide)).trans <| (S10_of L main_arg0 (by decide)).trans <| (S9_of L main_arg0 (by decide)).trans <| (S8_of L main_arg0 (by decide)).trans <| (S7_of L main_arg0 (by decide)).trans <| (S6_of L main_arg0 (by decide)).trans <| (S5_of L main_arg0 (by decide)).trans <| (S4_of L main_arg0 (by decide)).trans <| (S3_of L main_arg0 (by decide)).trans <| (S2_of L main_arg0 (by decide)).trans <| (S1_of L main_arg0 (by decide))

theorem r23_arg1 : S23 L main_arg1 = (L (Proc.devRef .tc main_arg1)) :=
  (S23_of L main_arg1 (by decide)).trans <| (S22_of L main_arg1 (by decide)).trans <| (S21_of L main_arg1 (by decide)).trans <| (S20_of L main_arg1 (by decide)).trans <| (S19_of L main_arg1 (by decide)).trans <| (S18_of L main_arg1 (by decide)).trans <| (S17_of L main_arg1 (by decide)).trans <| (S16_of L main_arg1 (by decide)).trans <| (S15_of L main_arg1 (by decide)).trans <| (S14_of L main_arg1 (by decide)).trans <| (S13_of L main_arg1 (by decide)).trans <| (S12_of L main_arg1 (by decide)).trans <| (S11_of L main_arg1 (by decide)).trans <| (S10_of L main_arg1 (by decide)).trans <| (S9_of L main_arg1 (by decide)).trans <| (S8_of L main_arg1 (by decide)).trans <| (S7_of L main_arg1 (by decide)).trans <| (S6_of L main_arg1 (by decide)).trans <| (S5_of L main_arg1 (by decide)).trans <| (S4_of L main_arg1 (by decide)).trans <| (S3_of L main_arg1 (by decide)).trans <| (S2_of L main_arg1 (by decide)).trans <| (S1_of L main_arg1 (by decide))

theorem r23_arg2 : S23 L main_arg2 = (L (Proc.devRef .tc main_arg2)) :=
  (S23_of L main_arg2 (by decide)).trans <| (S22_of L main_arg2 (by decide)).trans <| (S21_of L main_arg2 (by decide)).trans <| (S20_of L main_arg2 (by decide)).trans <| (S19_of L main_arg2 (by decide)).trans <| (S18_of L main_arg2 (by decide)).trans <| (S17_of L main_arg2 (by decide)).trans <| (S16_of L main_arg2 (by decide)).trans <| (S15_of L main_arg2 (by decide)).trans <| (S14_of L main_arg2 (by decide)).trans <| (S13_of L main_arg2 (by decide)).trans <| (S12_of L main_arg2 (by decide)).trans <| (S11_of L main_arg2 (by decide)).trans <| (S10_of L main_arg2 (by decide)).trans <| (S9_of L main_arg2 (by decide)).trans <| (S8_of L main_arg2 (by decide)).trans <| (S7_of L main_arg2 (by decide)).trans <| (S6_of L main_arg2 (by decide)).trans <| (S5_of L main_arg2 (by decide)).trans <| (S4_of L main_arg2 (by decide)).trans <| (S3_of L main_arg2 (by decide)).trans <| (S2_of L main_arg2 (by decide)).trans <| (S1_of L main_arg2 (by decide))

theorem r23_arg3 : S23 L main_arg3 = (L (Proc.devRef .tc main_arg3)) :=
  (S23_of L main_arg3 (by decide)).trans <| (S22_of L main_arg3 (by decide)).trans <| (S21_of L main_arg3 (by decide)).trans <| (S20_of L main_arg3 (by decide)).trans <| (S19_of L main_arg3 (by decide)).trans <| (S18_of L main_arg3 (by decide)).trans <| (S17_of L main_arg3 (by decide)).trans <| (S16_of L main_arg3 (by decide)).trans <| (S15_of L main_arg3 (by decide)).trans <| (S14_of L main_arg3 (by decide)).trans <| (S13_of L main_arg3 (by decide)).trans <| (S12_of L main_arg3 (by decide)).trans <| (S11_of L main_arg3 (by decide)).trans <| (S10_of L main_arg3 (by decide)).trans <| (S9_of L main_arg3 (by decide)).trans <| (S8_of L main_arg3 (by decide)).trans <| (S7_of L main_arg3 (by decide)).trans <| (S6_of L main_arg3 (by decide)).trans <| (S5_of L main_arg3 (by decide)).trans <| (S4_of L main_arg3 (by decide)).trans <| (S3_of L main_arg3 (by decide)).trans <| (S2_of L main_arg3 (by decide)).trans <| (S1_of L main_arg3 (by decide))

theorem r23_arg4 : S23 L main_arg4 = (L (Proc.devRef .tc main_arg4)) :=
  (S23_of L main_arg4 (by decide)).trans <| (S22_of L main_arg4 (by decide)).trans <| (S21_of L main_arg4 (by decide)).trans <| (S20_of L main_arg4 (by decide)).trans <| (S19_of L main_arg4 (by decide)).trans <| (S18_of L main_arg4 (by decide)).trans <| (S17_of L main_arg4 (by decide)).trans <| (S16_of L main_arg4 (by decide)).trans <| (S15_of L main_arg4 (by decide)).trans <| (S14_of L main_arg4 (by decide)).trans <| (S13_of L main_arg4 (by decide)).trans <| (S12_of L main_arg4 (by decide)).trans <| (S11_of L main_arg4 (by decide)).trans <| (S10_of L main_arg4 (by decide)).trans <| (S9_of L main_arg4 (by decide)).trans <| (S8_of L main_arg4 (by decide)).trans <| (S7_of L main_arg4 (by decide)).trans <| (S6_of L main_arg4 (by decide)).trans <| (S5_of L main_arg4 (by decide)).trans <| (S4_of L main_arg4 (by decide)).trans <| (S3_of L main_arg4 (by decide)).trans <| (S2_of L main_arg4 (by decide)).trans <| (S1_of L main_arg4 (by decide))

theorem r23_arg5 : S23 L main_arg5 = (L (Proc.devRef .tc main_arg5)) :=
  (S23_of L main_arg5 (by decide)).trans <| (S22_of L main_arg5 (by decide)).trans <| (S21_of L main_arg5 (by decide)).trans <| (S20_of L main_arg5 (by decide)).trans <| (S19_of L main_arg5 (by decide)).trans <| (S18_of L main_arg5 (by decide)).trans <| (S17_of L main_arg5 (by decide)).trans <| (S16_of L main_arg5 (by decide)).trans <| (S15_of L main_arg5 (by decide)).trans <| (S14_of L main_arg5 (by decide)).trans <| (S13_of L main_arg5 (by decide)).trans <| (S12_of L main_arg5 (by decide)).trans <| (S11_of L main_arg5 (by decide)).trans <| (S10_of L main_arg5 (by decide)).trans <| (S9_of L main_arg5 (by decide)).trans <| (S8_of L main_arg5 (by decide)).trans <| (S7_of L main_arg5 (by decide)).trans <| (S6_of L main_arg5 (by decide)).trans <| (S5_of L main_arg5 (by decide)).trans <| (S4_of L main_arg5 (by decide)).trans <| (S3_of L main_arg5 (by decide)).trans <| (S2_of L main_arg5 (by decide)).trans <| (S1_of L main_arg5 (by decide))

theorem r23_arg6 : S23 L main_arg6 = (L (Proc.devRef .tc main_arg6)) :=
  (S23_of L main_arg6 (by decide)).trans <| (S22_of L main_arg6 (by decide)).trans <| (S21_of L main_arg6 (by decide)).trans <| (S20_of L main_arg6 (by decide)).trans <| (S19_of L main_arg6 (by decide)).trans <| (S18_of L main_arg6 (by decide)).trans <| (S17_of L main_arg6 (by decide)).trans <| (S16_of L main_arg6 (by decide)).trans <| (S15_of L main_arg6 (by decide)).trans <| (S14_of L main_arg6 (by decide)).trans <| (S13_of L main_arg6 (by decide)).trans <| (S12_of L main_arg6 (by decide)).trans <| (S11_of L main_arg6 (by decide)).trans <| (S10_of L main_arg6 (by decide)).trans <| (S9_of L main_arg6 (by decide)).trans <| (S8_of L main_arg6 (by decide)).trans <| (S7_of L main_arg6 (by decide)).trans <| (S6_of L main_arg6 (by decide)).trans <| (S5_of L main_arg6 (by decide)).trans <| (S4_of L main_arg6 (by decide)).trans <| (S3_of L main_arg6 (by decide)).trans <| (S2_of L main_arg6 (by decide)).trans <| (S1_of L main_arg6 (by decide))

theorem r23_arg7 : S23 L main_arg7 = (L (Proc.devRef .tc main_arg7)) :=
  (S23_of L main_arg7 (by decide)).trans <| (S22_of L main_arg7 (by decide)).trans <| (S21_of L main_arg7 (by decide)).trans <| (S20_of L main_arg7 (by decide)).trans <| (S19_of L main_arg7 (by decide)).trans <| (S18_of L main_arg7 (by decide)).trans <| (S17_of L main_arg7 (by decide)).trans <| (S16_of L main_arg7 (by decide)).trans <| (S15_of L main_arg7 (by decide)).trans <| (S14_of L main_arg7 (by decide)).trans <| (S13_of L main_arg7 (by decide)).trans <| (S12_of L main_arg7 (by decide)).trans <| (S11_of L main_arg7 (by decide)).trans <| (S10_of L main_arg7 (by decide)).trans <| (S9_of L main_arg7 (by decide)).trans <| (S8_of L main_arg7 (by decide)).trans <| (S7_of L main_arg7 (by decide)).trans <| (S6_of L main_arg7 (by decide)).trans <| (S5_of L main_arg7 (by decide)).trans <| (S4_of L main_arg7 (by decide)).trans <| (S3_of L main_arg7 (by decide)).trans <| (S2_of L main_arg7 (by decide)).trans <| (S1_of L main_arg7 (by decide))

theorem r23_arg8 : S23 L main_arg8 = (L (Proc.devRef .tc main_arg8)) :=
  (S23_of L main_arg8 (by decide)).trans <| (S22_of L main_arg8 (by decide)).trans <| (S21_of L main_arg8 (by decide)).trans <| (S20_of L main_arg8 (by decide)).trans <| (S19_of L main_arg8 (by decide)).trans <| (S18_of L main_arg8 (by decide)).trans <| (S17_of L main_arg8 (by decide)).trans <| (S16_of L main_arg8 (by decide)).trans <| (S15_of L main_arg8 (by decide)).trans <| (S14_of L main_arg8 (by decide)).trans <| (S13_of L main_arg8 (by decide)).trans <| (S12_of L main_arg8 (by decide)).trans <| (S11_of L main_arg8 (by decide)).trans <| (S10_of L main_arg8 (by decide)).trans <| (S9_of L main_arg8 (by decide)).trans <| (S8_of L main_arg8 (by decide)).trans <| (S7_of L main_arg8 (by decide)).trans <| (S6_of L main_arg8 (by decide)).trans <| (S5_of L main_arg8 (by decide)).trans <| (S4_of L main_arg8 (by decide)).trans <| (S3_of L main_arg8 (by decide)).trans <| (S2_of L main_arg8 (by decide)).trans <| (S1_of L main_arg8 (by decide))

theorem r23_arg9 : S23 L main_arg9 = (L (Proc.devRef .tc main_arg9)) :=
  (S23_of L main_arg9 (by decide)).trans <| (S22_of L main_arg9 (by decide)).trans <| (S21_of L main_arg9 (by decide)).trans <| (S20_of L main_arg9 (by decide)).trans <| (S19_of L main_arg9 (by decide)).trans <| (S18_of L main_arg9 (by decide)).trans <| (S17_of L main_arg9 (by decide)).trans <| (S16_of L main_arg9 (by decide)).trans <| (S15_of L main_arg9 (by decide)).trans <| (S14_of L main_arg9 (by decide)).trans <| (S13_of L main_arg9 (by decide)).trans <| (S12_of L main_arg9 (by decide)).trans <| (S11_of L main_arg9 (by decide)).trans <| (S10_of L main_arg9 (by decide)).trans <| (S9_of L main_arg9 (by decide)).trans <| (S8_of L main_arg9 (by decide)).trans <| (S7_of L main_arg9 (by decide)).trans <| (S6_of L main_arg9 (by decide)).trans <| (S5_of L main_arg9 (by decide)).trans <| (S4_of L main_arg9 (by decide)).trans <| (S3_of L main_arg9 (by decide)).trans <| (S2_of L main_arg9 (by decide)).trans <| (S1_of L main_arg9 (by decide))

theorem r23_arg10 : S23 L main_arg10 = (L (Proc.devRef .tc main_arg10)) :=
  (S23_of L main_arg10 (by decide)).trans <| (S22_of L main_arg10 (by decide)).trans <| (S21_of L main_arg10 (by decide)).trans <| (S20_of L main_arg10 (by decide)).trans <| (S19_of L main_arg10 (by decide)).trans <| (S18_of L main_arg10 (by decide)).trans <| (S17_of L main_arg10 (by decide)).trans <| (S16_of L main_arg10 (by decide)).trans <| (S15_of L main_arg10 (by decide)).trans <| (S14_of L main_arg10 (by decide)).trans <| (S13_of L main_arg10 (by decide)).trans <| (S12_of L main_arg10 (by decide)).trans <| (S11_of L main_arg10 (by decide)).trans <| (S10_of L main_arg10 (by decide)).trans <| (S9_of L main_arg10 (by decide)).trans <| (S8_of L main_arg10 (by decide)).trans <| (S7_of L main_arg10 (by decide)).trans <| (S6_of L main_arg10 (by decide)).trans <| (S5_of L main_arg10 (by decide)).trans <| (S4_of L main_arg10 (by decide)).trans <| (S3_of L main_arg10 (by decide)).trans <| (S2_of L main_arg10 (by decide)).trans <| (S1_of L main_arg10 (by decide))

theorem r23_arg11 : S23 L main_arg11 = (L (Proc.devRef .tc main_arg11)) :=
  (S23_of L main_arg11 (by decide)).trans <| (S22_of L main_arg11 (by decide)).trans <| (S21_of L main_arg11 (by decide)).trans <| (S20_of L main_arg11 (by decide)).trans <| (S19_of L main_arg11 (by decide)).trans <| (S18_of L main_arg11 (by decide)).trans <| (S17_of L main_arg11 (by decide)).trans <| (S16_of L main_arg11 (by decide)).trans <| (S15_of L main_arg11 (by decide)).trans <| (S14_of L main_arg11 (by decide)).trans <| (S13_of L main_arg11 (by decide)).trans <| (S12_of L main_arg11 (by decide)).trans <| (S11_of L main_arg11 (by decide)).trans <| (S10_of L main_arg11 (by decide)).trans <| (S9_of L main_arg11 (by decide)).trans <| (S8_of L main_arg11 (by decide)).trans <| (S7_of L main_arg11 (by decide)).trans <| (S6_of L main_arg11 (by decide)).trans <| (S5_of L main_arg11 (by decide)).trans <| (S4_of L main_arg11 (by decide)).trans <| (S3_of L main_arg11 (by decide)).trans <| (S2_of L main_arg11 (by decide)).trans <| (S1_of L main_arg11 (by decide))

theorem r23_arg12 : S23 L main_arg12 = (L (Proc.devRef .tc main_arg12)) :=
  (S23_of L main_arg12 (by decide)).trans <| (S22_of L main_arg12 (by decide)).trans <| (S21_of L main_arg12 (by decide)).trans <| (S20_of L main_arg12 (by decide)).trans <| (S19_of L main_arg12 (by decide)).trans <| (S18_of L main_arg12 (by decide)).trans <| (S17_of L main_arg12 (by decide)).trans <| (S16_of L main_arg12 (by decide)).trans <| (S15_of L main_arg12 (by decide)).trans <| (S14_of L main_arg12 (by decide)).trans <| (S13_of L main_arg12 (by decide)).trans <| (S12_of L main_arg12 (by decide)).trans <| (S11_of L main_arg12 (by decide)).trans <| (S10_of L main_arg12 (by decide)).trans <| (S9_of L main_arg12 (by decide)).trans <| (S8_of L main_arg12 (by decide)).trans <| (S7_of L main_arg12 (by decide)).trans <| (S6_of L main_arg12 (by decide)).trans <| (S5_of L main_arg12 (by decide)).trans <| (S4_of L main_arg12 (by decide)).trans <| (S3_of L main_arg12 (by decide)).trans <| (S2_of L main_arg12 (by decide)).trans <| (S1_of L main_arg12 (by decide))

theorem r23_arg13 : S23 L main_arg13 = (L (Proc.devRef .tc main_arg13)) :=
  (S23_of L main_arg13 (by decide)).trans <| (S22_of L main_arg13 (by decide)).trans <| (S21_of L main_arg13 (by decide)).trans <| (S20_of L main_arg13 (by decide)).trans <| (S19_of L main_arg13 (by decide)).trans <| (S18_of L main_arg13 (by decide)).trans <| (S17_of L main_arg13 (by decide)).trans <| (S16_of L main_arg13 (by decide)).trans <| (S15_of L main_arg13 (by decide)).trans <| (S14_of L main_arg13 (by decide)).trans <| (S13_of L main_arg13 (by decide)).trans <| (S12_of L main_arg13 (by decide)).trans <| (S11_of L main_arg13 (by decide)).trans <| (S10_of L main_arg13 (by decide)).trans <| (S9_of L main_arg13 (by decide)).trans <| (S8_of L main_arg13 (by decide)).trans <| (S7_of L main_arg13 (by decide)).trans <| (S6_of L main_arg13 (by decide)).trans <| (S5_of L main_arg13 (by decide)).trans <| (S4_of L main_arg13 (by decide)).trans <| (S3_of L main_arg13 (by decide)).trans <| (S2_of L main_arg13 (by decide)).trans <| (S1_of L main_arg13 (by decide))

theorem r23_arg14 : S23 L main_arg14 = (L (Proc.devRef .tc main_arg14)) :=
  (S23_of L main_arg14 (by decide)).trans <| (S22_of L main_arg14 (by decide)).trans <| (S21_of L main_arg14 (by decide)).trans <| (S20_of L main_arg14 (by decide)).trans <| (S19_of L main_arg14 (by decide)).trans <| (S18_of L main_arg14 (by decide)).trans <| (S17_of L main_arg14 (by decide)).trans <| (S16_of L main_arg14 (by decide)).trans <| (S15_of L main_arg14 (by decide)).trans <| (S14_of L main_arg14 (by decide)).trans <| (S13_of L main_arg14 (by decide)).trans <| (S12_of L main_arg14 (by decide)).trans <| (S11_of L main_arg14 (by decide)).trans <| (S10_of L main_arg14 (by decide)).trans <| (S9_of L main_arg14 (by decide)).trans <| (S8_of L main_arg14 (by decide)).trans <| (S7_of L main_arg14 (by decide)).trans <| (S6_of L main_arg14 (by decide)).trans <| (S5_of L main_arg14 (by decide)).trans <| (S4_of L main_arg14 (by decide)).trans <| (S3_of L main_arg14 (by decide)).trans <| (S2_of L main_arg14 (by decide)).trans <| (S1_of L main_arg14 (by decide))

theorem r23_arg15 : S23 L main_arg15 = (L (Proc.devRef .tc main_arg15)) :=
  (S23_of L main_arg15 (by decide)).trans <| (S22_of L main_arg15 (by decide)).trans <| (S21_of L main_arg15 (by decide)).trans <| (S20_of L main_arg15 (by decide)).trans <| (S19_of L main_arg15 (by decide)).trans <| (S18_of L main_arg15 (by decide)).trans <| (S17_of L main_arg15 (by decide)).trans <| (S16_of L main_arg15 (by decide)).trans <| (S15_of L main_arg15 (by decide)).trans <| (S14_of L main_arg15 (by decide)).trans <| (S13_of L main_arg15 (by decide)).trans <| (S12_of L main_arg15 (by decide)).trans <| (S11_of L main_arg15 (by decide)).trans <| (S10_of L main_arg15 (by decide)).trans <| (S9_of L main_arg15 (by decide)).trans <| (S8_of L main_arg15 (by decide)).trans <| (S7_of L main_arg15 (by decide)).trans <| (S6_of L main_arg15 (by decide)).trans <| (S5_of L main_arg15 (by decide)).trans <| (S4_of L main_arg15 (by decide)).trans <| (S3_of L main_arg15 (by decide)).trans <| (S2_of L main_arg15 (by decide)).trans <| (S1_of L main_arg15 (by decide))

theorem r23_arg16 : S23 L main_arg16 = (L (Proc.devRef .tc main_arg16)) :=
  (S23_of L main_arg16 (by decide)).trans <| (S22_of L main_arg16 (by decide)).trans <| (S21_of L main_arg16 (by decide)).trans <| (S20_of L main_arg16 (by decide)).trans <| (S19_of L main_arg16 (by decide)).trans <| (S18_of L main_arg16 (by decide)).trans <| (S17_of L main_arg16 (by decide)).trans <| (S16_of L main_arg16 (by decide)).trans <| (S15_of L main_arg16 (by decide)).trans <| (S14_of L main_arg16 (by decide)).trans <| (S13_of L main_arg16 (by decide)).trans <| (S12_of L main_arg16 (by decide)).trans <| (S11_of L main_arg16 (by decide)).trans <| (S10_of L main_arg16 (by decide)).trans <| (S9_of L main_arg16 (by decide)).trans <| (S8_of L main_arg16 (by decide)).trans <| (S7_of L main_arg16 (by decide)).trans <| (S6_of L main_arg16 (by decide)).trans <| (S5_of L main_arg16 (by decide)).trans <| (S4_of L main_arg16 (by decide)).trans <| (S3_of L main_arg16 (by decide)).trans <| (S2_of L main_arg16 (by decide)).trans <| (S1_of L main_arg16 (by decide))

theorem r23_arg17 : S23 L main_arg17 = (L (Proc.devRef .tc main_arg17)) :=
  (S23_of L main_arg17 (by decide)).trans <| (S22_of L main_arg17 (by decide)).trans <| (S21_of L main_arg17 (by decide)).trans <| (S20_of L main_arg17 (by decide)).trans <| (S19_of L main_arg17 (by decide)).trans <| (S18_of L main_arg17 (by decide)).trans <| (S17_of L main_arg17 (by decide)).trans <| (S16_of L main_arg17 (by decide)).trans <| (S15_of L main_arg17 (by decide)).trans <| (S14_of L main_arg17 (by decide)).trans <| (S13_of L main_arg17 (by decide)).trans <| (S12_of L main_arg17 (by decide)).trans <| (S11_of L main_arg17 (by decide)).trans <| (S10_of L main_arg17 (by decide)).trans <| (S9_of L main_arg17 (by decide)).trans <| (S8_of L main_arg17 (by decide)).trans <| (S7_of L main_arg17 (by decide)).trans <| (S6_of L main_arg17 (by decide)).trans <| (S5_of L main_arg17 (by decide)).trans <| (S4_of L main_arg17 (by decide)).trans <| (S3_of L main_arg17 (by decide)).trans <| (S2_of L main_arg17 (by decide)).trans <| (S1_of L main_arg17 (by decide))

theorem r23_arg18 : S23 L main_arg18 = (L (Proc.devRef .tc main_arg18)) :=
  (S23_of L main_arg18 (by decide)).trans <| (S22_of L main_arg18 (by decide)).trans <| (S21_of L main_arg18 (by decide)).trans <| (S20_of L main_arg18 (by decide)).trans <| (S19_of L main_arg18 (by decide)).trans <| (S18_of L main_arg18 (by decide)).trans <| (S17_of L main_arg18 (by decide)).trans <| (S16_of L main_arg18 (by decide)).trans <| (S15_of L main_arg18 (by decide)).trans <| (S14_of L main_arg18 (by decide)).trans <| (S13_of L main_arg18 (by decide)).trans <| (S12_of L main_arg18 (by decide)).trans <| (S11_of L main_arg18 (by decide)).trans <| (S10_of L main_arg18 (by decide)).trans <| (S9_of L main_arg18 (by decide)).trans <| (S8_of L main_arg18 (by decide)).trans <| (S7_of L main_arg18 (by decide)).trans <| (S6_of L main_arg18 (by decide)).trans <| (S5_of L main_arg18 (by decide)).trans <| (S4_of L main_arg18 (by decide)).trans <| (S3_of L main_arg18 (by decide)).trans <| (S2_of L main_arg18 (by decide)).trans <| (S1_of L main_arg18 (by decide))

theorem r23_arg19 : S23 L main_arg19 = (L (Proc.devRef .tc main_arg19)) :=
  (S23_of L main_arg19 (by decide)).trans <| (S22_of L main_arg19 (by decide)).trans <| (S21_of L main_arg19 (by decide)).trans <| (S20_of L main_arg19 (by decide)).trans <| (S19_of L main_arg19 (by decide)).trans <| (S18_of L main_arg19 (by decide)).trans <| (S17_of L main_arg19 (by decide)).trans <| (S16_of L main_arg19 (by decide)).trans <| (S15_of L main_arg19 (by decide)).trans <| (S14_of L main_arg19 (by decide)).trans <| (S13_of L main_arg19 (by decide)).trans <| (S12_of L main_arg19 (by decide)).trans <| (S11_of L main_arg19 (by decide)).trans <| (S10_of L main_arg19 (by decide)).trans <| (S9_of L main_arg19 (by decide)).trans <| (S8_of L main_arg19 (by decide)).trans <| (S7_of L main_arg19 (by decide)).trans <| (S6_of L main_arg19 (by decide)).trans <| (S5_of L main_arg19 (by decide)).trans <| (S4_of L main_arg19 (by decide)).trans <| (S3_of L main_arg19 (by decide)).trans <| (S2_of L main_arg19 (by decide)).trans <| (S1_of L main_arg19 (by decide))

/-- THE RESULT after the whole program: the last stage of the arguments. -/
theorem result : after ops L (Proc.devRef .tc main_v236) = (val_main_v236 (F := Ideal) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11)) (L (Proc.devRef .tc main_arg12)) (L (Proc.devRef .tc main_arg13)) (L (Proc.devRef .tc main_arg14)) (L (Proc.devRef .tc main_arg15)) (L (Proc.devRef .tc main_arg16)) (L (Proc.devRef .tc main_arg17)) (L (Proc.devRef .tc main_arg18)) (L (Proc.devRef .tc main_arg19))) := by
  rw [after_ops]; exact r23_v236 L

theorem kept_arg0 : after ops L (Proc.devRef .tc main_arg0) = L (Proc.devRef .tc main_arg0) := by
  rw [after_ops]; exact r23_arg0 L
theorem kept_arg1 : after ops L (Proc.devRef .tc main_arg1) = L (Proc.devRef .tc main_arg1) := by
  rw [after_ops]; exact r23_arg1 L
theorem kept_arg2 : after ops L (Proc.devRef .tc main_arg2) = L (Proc.devRef .tc main_arg2) := by
  rw [after_ops]; exact r23_arg2 L
theorem kept_arg3 : after ops L (Proc.devRef .tc main_arg3) = L (Proc.devRef .tc main_arg3) := by
  rw [after_ops]; exact r23_arg3 L
theorem kept_arg4 : after ops L (Proc.devRef .tc main_arg4) = L (Proc.devRef .tc main_arg4) := by
  rw [after_ops]; exact r23_arg4 L
theorem kept_arg5 : after ops L (Proc.devRef .tc main_arg5) = L (Proc.devRef .tc main_arg5) := by
  rw [after_ops]; exact r23_arg5 L
theorem kept_arg6 : after ops L (Proc.devRef .tc main_arg6) = L (Proc.devRef .tc main_arg6) := by
  rw [after_ops]; exact r23_arg6 L
theorem kept_arg7 : after ops L (Proc.devRef .tc main_arg7) = L (Proc.devRef .tc main_arg7) := by
  rw [after_ops]; exact r23_arg7 L
theorem kept_arg8 : after ops L (Proc.devRef .tc main_arg8) = L (Proc.devRef .tc main_arg8) := by
  rw [after_ops]; exact r23_arg8 L
theorem kept_arg9 : after ops L (Proc.devRef .tc main_arg9) = L (Proc.devRef .tc main_arg9) := by
  rw [after_ops]; exact r23_arg9 L
theorem kept_arg10 : after ops L (Proc.devRef .tc main_arg10) = L (Proc.devRef .tc main_arg10) := by
  rw [after_ops]; exact r23_arg10 L
theorem kept_arg11 : after ops L (Proc.devRef .tc main_arg11) = L (Proc.devRef .tc main_arg11) := by
  rw [after_ops]; exact r23_arg11 L
theorem kept_arg12 : after ops L (Proc.devRef .tc main_arg12) = L (Proc.devRef .tc main_arg12) := by
  rw [after_ops]; exact r23_arg12 L
theorem kept_arg13 : after ops L (Proc.devRef .tc main_arg13) = L (Proc.devRef .tc main_arg13) := by
  rw [after_ops]; exact r23_arg13 L
theorem kept_arg14 : after ops L (Proc.devRef .tc main_arg14) = L (Proc.devRef .tc main_arg14) := by
  rw [after_ops]; exact r23_arg14 L
theorem kept_arg15 : after ops L (Proc.devRef .tc main_arg15) = L (Proc.devRef .tc main_arg15) := by
  rw [after_ops]; exact r23_arg15 L
theorem kept_arg16 : after ops L (Proc.devRef .tc main_arg16) = L (Proc.devRef .tc main_arg16) := by
  rw [after_ops]; exact r23_arg16 L
theorem kept_arg17 : after ops L (Proc.devRef .tc main_arg17) = L (Proc.devRef .tc main_arg17) := by
  rw [after_ops]; exact r23_arg17 L
theorem kept_arg18 : after ops L (Proc.devRef .tc main_arg18) = L (Proc.devRef .tc main_arg18) := by
  rw [after_ops]; exact r23_arg18 L
theorem kept_arg19 : after ops L (Proc.devRef .tc main_arg19) = L (Proc.devRef .tc main_arg19) := by
  rw [after_ops]; exact r23_arg19 L

/-- THE RUN: every weakly fair execution of the reference program terminates, nothing faulting, with the result
    buffer at the last stage of the arguments and every argument as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v236) = val_main_v236 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v236).trans (result (launchContents m c)),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c)),
      (h c main_arg6).trans (kept_arg6 (launchContents m c)),
      (h c main_arg7).trans (kept_arg7 (launchContents m c)),
      (h c main_arg8).trans (kept_arg8 (launchContents m c)),
      (h c main_arg9).trans (kept_arg9 (launchContents m c)),
      (h c main_arg10).trans (kept_arg10 (launchContents m c)),
      (h c main_arg11).trans (kept_arg11 (launchContents m c)),
      (h c main_arg12).trans (kept_arg12 (launchContents m c)),
      (h c main_arg13).trans (kept_arg13 (launchContents m c)),
      (h c main_arg14).trans (kept_arg14 (launchContents m c)),
      (h c main_arg15).trans (kept_arg15 (launchContents m c)),
      (h c main_arg16).trans (kept_arg16 (launchContents m c)),
      (h c main_arg17).trans (kept_arg17 (launchContents m c)),
      (h c main_arg18).trans (kept_arg18 (launchContents m c)),
      (h c main_arg19).trans (kept_arg19 (launchContents m c))⟩)
    (run_seq scopedRefs_eq scopedSems_eq defs main (fun _ => ops) main_eq (fun _ => ops_sub) m ρ)

/-- The reference's frame: its run with the result dropped. -/
theorem frame : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (run m ρ)

end Cert.ReferenceIdeal.RefValue

end
-- ==== Proof.lean ====
/-
  The certificate's five claims. The two kernel programs (the word-level one and its idealization) run to the end
  without a fault and leave their arguments unchanged: the eleven kernel regions' runs chained with the host
  stretches between them (Proof/K/Run.lean, Proof/KI/Run.lean). The reference program is host operations only. The
  idealization rewrote nothing, so it preserves the program trivially. At the ideal instance the two results are
  equal array by array: each kernel region's output array is the reference's operations applied to the region's input
  arrays (Proof/KI/Val*.lean), and the host stretches between the regions are the reference's own operations
  (Proof/KI/Bridge.lean).
-/
import proofs.«109784_j28140625724052_1_alg».proof.Defs
import proofs.«109784_j28140625724052_1_alg».proof.Proof.Gen.Kernel
import proofs.«109784_j28140625724052_1_alg».proof.Proof.Gen.KernelIdeal
import proofs.«109784_j28140625724052_1_alg».proof.Proof.Gen.ReferenceIdeal
import proofs.«109784_j28140625724052_1_alg».proof.Proof.Gen.Pre_finite_inputs
import proofs.«109784_j28140625724052_1_alg».proof.Proof.K.Run
import proofs.«109784_j28140625724052_1_alg».proof.Proof.KI.Run
import proofs.«109784_j28140625724052_1_alg».proof.Proof.KI.Bridge
import proofs.«109784_j28140625724052_1_alg».proof.Proof.KI.Val0
import proofs.«109784_j28140625724052_1_alg».proof.Proof.KI.Val5
import proofs.«109784_j28140625724052_1_alg».proof.Proof.KI.Val4
import proofs.«109784_j28140625724052_1_alg».proof.Proof.KI.Val9
import proofs.«109784_j28140625724052_1_alg».proof.Proof.KI.Val1
import proofs.«109784_j28140625724052_1_alg».proof.Proof.KI.Val2
import proofs.«109784_j28140625724052_1_alg».proof.Proof.KI.Val3
import proofs.«109784_j28140625724052_1_alg».proof.Proof.KI.Val6
import proofs.«109784_j28140625724052_1_alg».proof.Proof.KI.Val7
import proofs.«109784_j28140625724052_1_alg».proof.Proof.KI.Val8
import proofs.«109784_j28140625724052_1_alg».proof.Proof.KI.Val10
import proofs.«109784_j28140625724052_1_alg».proof.Proof.RefBridge
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Rg.frame m ρ

theorem frame_ki : Cert.frame_KernelIdeal (hKernelIdeal := Cert.KernelIdeal.Gen.facts) (hPre_finite_inputs := Cert.Pre_finite_inputs.Gen.facts) :=
  fun m ρ _ => Cert.KernelIdeal.Rg.frame m ρ

/-- The eleven region facts together. -/
theorem regionValues : Cert.KernelIdeal.Rg.RegionValues :=
  { v0 := Cert.KernelIdeal.Rg.val0, v1 := Cert.KernelIdeal.Rg.val1, v2 := Cert.KernelIdeal.Rg.val2, v3 := Cert.KernelIdeal.Rg.val3, v4 := Cert.KernelIdeal.Rg.val4, v5 := Cert.KernelIdeal.Rg.val5, v6 := Cert.KernelIdeal.Rg.val6, v7 := Cert.KernelIdeal.Rg.val7, v8 := Cert.KernelIdeal.Rg.val8, v9 := Cert.KernelIdeal.Rg.val9, v10 := Cert.KernelIdeal.Rg.val10 }

/-- At the ideal instance both programs, run from memories that agree on the arguments, end with the same result: the
    kernel program's result buffer holds the reference's last stage of the arguments, which is what the reference's
    run leaves in its own. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Rg.W26 m c Cert.KernelIdeal.main_v169, Cert.KernelIdeal.Rg.run_result m ρ, ?_⟩
  refine (θ_run Cert.ReferenceIdeal.defs _ _).mono (fun r h c => ⟨(h c).1.trans ?_, (h c).2⟩)
    (Cert.ReferenceIdeal.RefValue.run m' ρ')
  obtain ⟨h0, h1, h2, h3, h4, h5, h6, h7, h8, h9, h10, h11, h12, h13, h14, h15, h16, h17, h18, h19⟩ := hagree c
  rw [h0, h1, h2, h3, h4, h5, h6, h7, h8, h9, h10, h11, h12, h13, h14, h15, h16, h17, h18, h19]
  exact (Cert.KernelIdeal.Rg.result_eq m regionValues c).symm

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame, trivial, algebraic⟩

end Cert.Proof

end
